-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : IVec S4096x50 32) (main_arg1 : FVec F S4096x50 .f32) (main_arg2 : FVec F S100000x128 .f32) : IVec S_ 1 :=
  let main_v0 : FVec F S4096x50 .f32 := Host.absf main_arg1
  let main_cst : FVec F S_ .f32 := constant S_ .f32 0x7F800000#32
  let main_v1 : FVec F S4096x50 .f32 := broadcastInDim S4096x50 ![] bcast_S_S4096x50 main_cst
  let main_v2 : IVec S4096x50 1 := cmpf .olt main_v0 main_v1
  let main_c : IVec S_ 1 := constantI S_ 1 1#1
  let main_v3 : IVec S_ 1 := (fun x v => Host.reduce IntOp.andi x v reducesTo_S4096x50_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S4096x50 32 := broadcastInDim S4096x50 ![] bcast_S_S4096x50 main_c_2
  let main_v10 : IVec S4096x50 1 := cmpi .sge main_arg0 main_v9
  let main_c_3 : IVec S_ 32 := constantI S_ 32 99999#32
  let main_v11 : IVec S4096x50 32 := broadcastInDim S4096x50 ![] bcast_S_S4096x50 main_c_3
  let main_v12 : IVec S4096x50 1 := cmpi .sle main_arg0 main_v11
  let main_v13 : IVec S4096x50 1 := andi main_v10 main_v12
  let main_c_4 : IVec S_ 1 := constantI S_ 1 1#1
  let main_v14 : IVec S_ 1 := (fun x v => Host.reduce IntOp.andi x v reducesTo_S4096x50_S_d0_1 h_S_) main_v13 main_c_4
  let main_v15 : IVec S_ 1 := andi main_v8 main_v14
  main_v15
-- ==== Kernel.lean ====
abbrev S4096x50 : Shape := ⟨2, ![4096, 50]⟩
abbrev S100000x128 : Shape := ⟨2, ![100000, 128]⟩
abbrev S_ : Shape := ⟨0, ![]⟩
abbrev S4096x64 : Shape := ⟨2, ![4096, 64]⟩
abbrev S4096x128 : Shape := ⟨2, ![4096, 128]⟩
abbrev S128x50 : Shape := ⟨2, ![128, 50]⟩
abbrev S128x64 : Shape := ⟨2, ![128, 64]⟩
abbrev S128x128 : Shape := ⟨2, ![128, 128]⟩
abbrev S50x128 : Shape := ⟨2, ![50, 128]⟩
abbrev S1x50 : Shape := ⟨2, ![1, 50]⟩
abbrev S50 : Shape := ⟨1, ![50]⟩
abbrev S16 : Shape := ⟨1, ![16]⟩
abbrev S1x16 : Shape := ⟨2, ![1, 16]⟩

abbrev nBuf : Table → Nat
  | .hbm => 7
  | .local .scVector .vmem => 8
  | _ => 0

abbrev bufTy : (tb : Table) → Fin (nBuf tb) → BufTy
  | .hbm, ⟨0, _⟩ => ⟨S4096x50, .i32⟩
  | .hbm, ⟨1, _⟩ => ⟨S4096x50, .f32⟩
  | .hbm, ⟨2, _⟩ => ⟨S100000x128, .f32⟩
  | .hbm, ⟨3, _⟩ => ⟨S_, .i32⟩
  | .hbm, ⟨4, _⟩ => ⟨S_, .f32⟩
  | .hbm, ⟨5, _⟩ => ⟨S4096x64, .f32⟩
  | .hbm, ⟨6, _⟩ => ⟨S4096x128, .f32⟩
  | .local .scVector .vmem, ⟨0, _⟩ => ⟨S128x50, .i32⟩
  | .local .scVector .vmem, ⟨1, _⟩ => ⟨S128x64, .f32⟩
  | .local .scVector .vmem, ⟨2, _⟩ => ⟨S128x128, .f32⟩
  | .local .scVector .vmem, ⟨3, _⟩ => ⟨S50x128, .f32⟩
  | .local .scVector .vmem, ⟨4, _⟩ => ⟨S50x128, .f32⟩
  | .local .scVector .vmem, ⟨5, _⟩ => ⟨S50x128, .f32⟩
  | .local .scVector .vmem, ⟨6, _⟩ => ⟨S50x128, .f32⟩
  | .local .scVector .vmem, ⟨7, _⟩ => ⟨S50x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_arg0_scv : Ref sig .scVector := ⟨.hbm, 0, rfl⟩
abbrev main_v0_scv : Ref sig .scVector := ⟨.hbm, 5, rfl⟩
abbrev main_arg2_scv : Ref sig .scVector := ⟨.hbm, 2, rfl⟩
abbrev main_v1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_279_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_279_r1 : BitVec 32 := 0#32
  ![v2.toNat, 0]
@[reducible] def k0_t1_loop : Scf.Loop 32 :=
  let c0_i32_14 : BitVec 32 := 0#32
  let c24_i32 : BitVec 32 := 24#32
  let v15 : BitVec 32 := Scalar.addi c0_i32_14 c24_i32
  let c1_i32_15 : BitVec 32 := 1#32
  ⟨c0_i32_14, v15, c1_i32_15⟩
def k0_off3 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c0_i32_284 : BitVec 32 := 0#32
  let v273 : BitVec 32 := Scalar.addi v269 c0_i32_284
  let c5_i32_285 : BitVec 32 := 5#32
  let v274 : BitVec 32 := Scalar.addi v273 c5_i32_285
  let c1_i32_286 : BitVec 32 := 1#32
  let v275 : BitVec 32 := Scalar.subi v274 c1_i32_286
  let c0_i32_287 : BitVec 32 := 0#32
  ![v275.toNat, 0]
@[reducible] def k0_t2_loop : Scf.Loop 32 :=
  let c0_i32_299 : BitVec 32 := 0#32
  let c5_i32_300 : BitVec 32 := 5#32
  let v289 : BitVec 32 := Scalar.addi c0_i32_299 c5_i32_300
  let c1_i32_301 : BitVec 32 := 1#32
  ⟨c0_i32_299, v289, c1_i32_301⟩

def k0_chk1 (v280 : IVec S16 32) (v457 : IVec S16 32) : Prop :=
  (∀ a x, ((![v280, v457] : Fin 2 → IVec S16 32) a x).toNat < S128x64.size a)
instance k0_chk1.dec : ∀ (v280 : IVec S16 32) (v457 : IVec S16 32), Decidable (k0_chk1 v280 v457) := fun v280 v457 => decidable_of_iff' _ (Iff.of_eq (k0_chk1.eq_1 v280 v457))
theorem k0_idx1_inb : ∀ (v280 : IVec S16 32) (v457 : IVec S16 32) (k0_hw1 : k0_chk1 v280 v457), ∀ a x, ((![v280, v457] : Fin 2 → IVec S16 32) a x).toNat < S128x64.size a := fun v280 v457 k0_hw1 => k0_hw1
def k0_off4 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32 : BitVec 32 := 10#32
  let v455 : BitVec 32 := Scalar.muli arg21 c10_i32
  let c0_i32_435 : BitVec 32 := 0#32
  let v456 : BitVec 32 := Scalar.addi v455 c0_i32_435
  let v459 : Index := Scalar.indexCast v456
  let c0_436 : Index := 0#32
  ![v459.toNat, 0]
def k0_off5 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32 : BitVec 32 := 10#32
  let v455 : BitVec 32 := Scalar.muli arg21 c10_i32
  let c0_i32_435 : BitVec 32 := 0#32
  let v456 : BitVec 32 := Scalar.addi v455 c0_i32_435
  let v463 : Index := Scalar.indexCast v456
  let c16_437 : Index := 16#32
  ![v463.toNat, 16]
def k0_off6 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32 : BitVec 32 := 10#32
  let v455 : BitVec 32 := Scalar.muli arg21 c10_i32
  let c0_i32_435 : BitVec 32 := 0#32
  let v456 : BitVec 32 := Scalar.addi v455 c0_i32_435
  let v467 : Index := Scalar.indexCast v456
  let c32_438 : Index := 32#32
  ![v467.toNat, 32]
def k0_off7 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32 : BitVec 32 := 10#32
  let v455 : BitVec 32 := Scalar.muli arg21 c10_i32
  let c0_i32_435 : BitVec 32 := 0#32
  let v456 : BitVec 32 := Scalar.addi v455 c0_i32_435
  let v471 : Index := Scalar.indexCast v456
  let c48_439 : Index := 48#32
  ![v471.toNat, 48]
def k0_off8 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32 : BitVec 32 := 10#32
  let v455 : BitVec 32 := Scalar.muli arg21 c10_i32
  let c0_i32_435 : BitVec 32 := 0#32
  let v456 : BitVec 32 := Scalar.addi v455 c0_i32_435
  let v475 : Index := Scalar.indexCast v456
  let c64_440 : Index := 64#32
  ![v475.toNat, 64]
def k0_off9 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32 : BitVec 32 := 10#32
  let v455 : BitVec 32 := Scalar.muli arg21 c10_i32
  let c0_i32_435 : BitVec 32 := 0#32
  let v456 : BitVec 32 := Scalar.addi v455 c0_i32_435
  let v479 : Index := Scalar.indexCast v456
  let c80_441 : Index := 80#32
  ![v479.toNat, 80]
def k0_off10 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32 : BitVec 32 := 10#32
  let v455 : BitVec 32 := Scalar.muli arg21 c10_i32
  let c0_i32_435 : BitVec 32 := 0#32
  let v456 : BitVec 32 := Scalar.addi v455 c0_i32_435
  let v483 : Index := Scalar.indexCast v456
  let c96_442 : Index := 96#32
  ![v483.toNat, 96]
def k0_off11 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32 : BitVec 32 := 10#32
  let v455 : BitVec 32 := Scalar.muli arg21 c10_i32
  let c0_i32_435 : BitVec 32 := 0#32
  let v456 : BitVec 32 := Scalar.addi v455 c0_i32_435
  let v487 : Index := Scalar.indexCast v456
  let c112_443 : Index := 112#32
  ![v487.toNat, 112]

def k0_chk2 (v280 : IVec S16 32) (v493 : IVec S16 32) : Prop :=
  (∀ a x, ((![v280, v493] : Fin 2 → IVec S16 32) a x).toNat < S128x64.size a)
instance k0_chk2.dec : ∀ (v280 : IVec S16 32) (v493 : IVec S16 32), Decidable (k0_chk2 v280 v493) := fun v280 v493 => decidable_of_iff' _ (Iff.of_eq (k0_chk2.eq_1 v280 v493))
theorem k0_idx2_inb : ∀ (v280 : IVec S16 32) (v493 : IVec S16 32) (k0_hw2 : k0_chk2 v280 v493), ∀ a x, ((![v280, v493] : Fin 2 → IVec S16 32) a x).toNat < S128x64.size a := fun v280 v493 k0_hw2 => k0_hw2
def k0_off12 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_444 : BitVec 32 := 10#32
  let v491 : BitVec 32 := Scalar.muli arg21 c10_i32_444
  let c1_i32_445 : BitVec 32 := 1#32
  let v492 : BitVec 32 := Scalar.addi v491 c1_i32_445
  let v495 : Index := Scalar.indexCast v492
  let c0_446 : Index := 0#32
  ![v495.toNat, 0]
def k0_off13 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_444 : BitVec 32 := 10#32
  let v491 : BitVec 32 := Scalar.muli arg21 c10_i32_444
  let c1_i32_445 : BitVec 32 := 1#32
  let v492 : BitVec 32 := Scalar.addi v491 c1_i32_445
  let v499 : Index := Scalar.indexCast v492
  let c16_447 : Index := 16#32
  ![v499.toNat, 16]
def k0_off14 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_444 : BitVec 32 := 10#32
  let v491 : BitVec 32 := Scalar.muli arg21 c10_i32_444
  let c1_i32_445 : BitVec 32 := 1#32
  let v492 : BitVec 32 := Scalar.addi v491 c1_i32_445
  let v503 : Index := Scalar.indexCast v492
  let c32_448 : Index := 32#32
  ![v503.toNat, 32]
def k0_off15 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_444 : BitVec 32 := 10#32
  let v491 : BitVec 32 := Scalar.muli arg21 c10_i32_444
  let c1_i32_445 : BitVec 32 := 1#32
  let v492 : BitVec 32 := Scalar.addi v491 c1_i32_445
  let v507 : Index := Scalar.indexCast v492
  let c48_449 : Index := 48#32
  ![v507.toNat, 48]
def k0_off16 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_444 : BitVec 32 := 10#32
  let v491 : BitVec 32 := Scalar.muli arg21 c10_i32_444
  let c1_i32_445 : BitVec 32 := 1#32
  let v492 : BitVec 32 := Scalar.addi v491 c1_i32_445
  let v511 : Index := Scalar.indexCast v492
  let c64_450 : Index := 64#32
  ![v511.toNat, 64]
def k0_off17 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_444 : BitVec 32 := 10#32
  let v491 : BitVec 32 := Scalar.muli arg21 c10_i32_444
  let c1_i32_445 : BitVec 32 := 1#32
  let v492 : BitVec 32 := Scalar.addi v491 c1_i32_445
  let v515 : Index := Scalar.indexCast v492
  let c80_451 : Index := 80#32
  ![v515.toNat, 80]
def k0_off18 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_444 : BitVec 32 := 10#32
  let v491 : BitVec 32 := Scalar.muli arg21 c10_i32_444
  let c1_i32_445 : BitVec 32 := 1#32
  let v492 : BitVec 32 := Scalar.addi v491 c1_i32_445
  let v519 : Index := Scalar.indexCast v492
  let c96_452 : Index := 96#32
  ![v519.toNat, 96]
def k0_off19 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_444 : BitVec 32 := 10#32
  let v491 : BitVec 32 := Scalar.muli arg21 c10_i32_444
  let c1_i32_445 : BitVec 32 := 1#32
  let v492 : BitVec 32 := Scalar.addi v491 c1_i32_445
  let v523 : Index := Scalar.indexCast v492
  let c112_453 : Index := 112#32
  ![v523.toNat, 112]

def k0_chk3 (v280 : IVec S16 32) (v529 : IVec S16 32) : Prop :=
  (∀ a x, ((![v280, v529] : Fin 2 → IVec S16 32) a x).toNat < S128x64.size a)
instance k0_chk3.dec : ∀ (v280 : IVec S16 32) (v529 : IVec S16 32), Decidable (k0_chk3 v280 v529) := fun v280 v529 => decidable_of_iff' _ (Iff.of_eq (k0_chk3.eq_1 v280 v529))
theorem k0_idx3_inb : ∀ (v280 : IVec S16 32) (v529 : IVec S16 32) (k0_hw3 : k0_chk3 v280 v529), ∀ a x, ((![v280, v529] : Fin 2 → IVec S16 32) a x).toNat < S128x64.size a := fun v280 v529 k0_hw3 => k0_hw3
def k0_off20 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_454 : BitVec 32 := 10#32
  let v527 : BitVec 32 := Scalar.muli arg21 c10_i32_454
  let c2_i32_455 : BitVec 32 := 2#32
  let v528 : BitVec 32 := Scalar.addi v527 c2_i32_455
  let v531 : Index := Scalar.indexCast v528
  let c0_456 : Index := 0#32
  ![v531.toNat, 0]
def k0_off21 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_454 : BitVec 32 := 10#32
  let v527 : BitVec 32 := Scalar.muli arg21 c10_i32_454
  let c2_i32_455 : BitVec 32 := 2#32
  let v528 : BitVec 32 := Scalar.addi v527 c2_i32_455
  let v535 : Index := Scalar.indexCast v528
  let c16_457 : Index := 16#32
  ![v535.toNat, 16]
def k0_off22 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_454 : BitVec 32 := 10#32
  let v527 : BitVec 32 := Scalar.muli arg21 c10_i32_454
  let c2_i32_455 : BitVec 32 := 2#32
  let v528 : BitVec 32 := Scalar.addi v527 c2_i32_455
  let v539 : Index := Scalar.indexCast v528
  let c32_458 : Index := 32#32
  ![v539.toNat, 32]
def k0_off23 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_454 : BitVec 32 := 10#32
  let v527 : BitVec 32 := Scalar.muli arg21 c10_i32_454
  let c2_i32_455 : BitVec 32 := 2#32
  let v528 : BitVec 32 := Scalar.addi v527 c2_i32_455
  let v543 : Index := Scalar.indexCast v528
  let c48_459 : Index := 48#32
  ![v543.toNat, 48]
def k0_off24 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_454 : BitVec 32 := 10#32
  let v527 : BitVec 32 := Scalar.muli arg21 c10_i32_454
  let c2_i32_455 : BitVec 32 := 2#32
  let v528 : BitVec 32 := Scalar.addi v527 c2_i32_455
  let v547 : Index := Scalar.indexCast v528
  let c64_460 : Index := 64#32
  ![v547.toNat, 64]
def k0_off25 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_454 : BitVec 32 := 10#32
  let v527 : BitVec 32 := Scalar.muli arg21 c10_i32_454
  let c2_i32_455 : BitVec 32 := 2#32
  let v528 : BitVec 32 := Scalar.addi v527 c2_i32_455
  let v551 : Index := Scalar.indexCast v528
  let c80_461 : Index := 80#32
  ![v551.toNat, 80]
def k0_off26 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_454 : BitVec 32 := 10#32
  let v527 : BitVec 32 := Scalar.muli arg21 c10_i32_454
  let c2_i32_455 : BitVec 32 := 2#32
  let v528 : BitVec 32 := Scalar.addi v527 c2_i32_455
  let v555 : Index := Scalar.indexCast v528
  let c96_462 : Index := 96#32
  ![v555.toNat, 96]
def k0_off27 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_454 : BitVec 32 := 10#32
  let v527 : BitVec 32 := Scalar.muli arg21 c10_i32_454
  let c2_i32_455 : BitVec 32 := 2#32
  let v528 : BitVec 32 := Scalar.addi v527 c2_i32_455
  let v559 : Index := Scalar.indexCast v528
  let c112_463 : Index := 112#32
  ![v559.toNat, 112]

def k0_chk4 (v280 : IVec S16 32) (v565 : IVec S16 32) : Prop :=
  (∀ a x, ((![v280, v565] : Fin 2 → IVec S16 32) a x).toNat < S128x64.size a)
instance k0_chk4.dec : ∀ (v280 : IVec S16 32) (v565 : IVec S16 32), Decidable (k0_chk4 v280 v565) := fun v280 v565 => decidable_of_iff' _ (Iff.of_eq (k0_chk4.eq_1 v280 v565))
theorem k0_idx4_inb : ∀ (v280 : IVec S16 32) (v565 : IVec S16 32) (k0_hw4 : k0_chk4 v280 v565), ∀ a x, ((![v280, v565] : Fin 2 → IVec S16 32) a x).toNat < S128x64.size a := fun v280 v565 k0_hw4 => k0_hw4
def k0_off28 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_464 : BitVec 32 := 10#32
  let v563 : BitVec 32 := Scalar.muli arg21 c10_i32_464
  let c3_i32_465 : BitVec 32 := 3#32
  let v564 : BitVec 32 := Scalar.addi v563 c3_i32_465
  let v567 : Index := Scalar.indexCast v564
  let c0_466 : Index := 0#32
  ![v567.toNat, 0]
def k0_off29 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_464 : BitVec 32 := 10#32
  let v563 : BitVec 32 := Scalar.muli arg21 c10_i32_464
  let c3_i32_465 : BitVec 32 := 3#32
  let v564 : BitVec 32 := Scalar.addi v563 c3_i32_465
  let v571 : Index := Scalar.indexCast v564
  let c16_467 : Index := 16#32
  ![v571.toNat, 16]
def k0_off30 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_464 : BitVec 32 := 10#32
  let v563 : BitVec 32 := Scalar.muli arg21 c10_i32_464
  let c3_i32_465 : BitVec 32 := 3#32
  let v564 : BitVec 32 := Scalar.addi v563 c3_i32_465
  let v575 : Index := Scalar.indexCast v564
  let c32_468 : Index := 32#32
  ![v575.toNat, 32]
def k0_off31 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_464 : BitVec 32 := 10#32
  let v563 : BitVec 32 := Scalar.muli arg21 c10_i32_464
  let c3_i32_465 : BitVec 32 := 3#32
  let v564 : BitVec 32 := Scalar.addi v563 c3_i32_465
  let v579 : Index := Scalar.indexCast v564
  let c48_469 : Index := 48#32
  ![v579.toNat, 48]
def k0_off32 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_464 : BitVec 32 := 10#32
  let v563 : BitVec 32 := Scalar.muli arg21 c10_i32_464
  let c3_i32_465 : BitVec 32 := 3#32
  let v564 : BitVec 32 := Scalar.addi v563 c3_i32_465
  let v583 : Index := Scalar.indexCast v564
  let c64_470 : Index := 64#32
  ![v583.toNat, 64]
def k0_off33 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_464 : BitVec 32 := 10#32
  let v563 : BitVec 32 := Scalar.muli arg21 c10_i32_464
  let c3_i32_465 : BitVec 32 := 3#32
  let v564 : BitVec 32 := Scalar.addi v563 c3_i32_465
  let v587 : Index := Scalar.indexCast v564
  let c80_471 : Index := 80#32
  ![v587.toNat, 80]
def k0_off34 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_464 : BitVec 32 := 10#32
  let v563 : BitVec 32 := Scalar.muli arg21 c10_i32_464
  let c3_i32_465 : BitVec 32 := 3#32
  let v564 : BitVec 32 := Scalar.addi v563 c3_i32_465
  let v591 : Index := Scalar.indexCast v564
  let c96_472 : Index := 96#32
  ![v591.toNat, 96]
def k0_off35 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_464 : BitVec 32 := 10#32
  let v563 : BitVec 32 := Scalar.muli arg21 c10_i32_464
  let c3_i32_465 : BitVec 32 := 3#32
  let v564 : BitVec 32 := Scalar.addi v563 c3_i32_465
  let v595 : Index := Scalar.indexCast v564
  let c112_473 : Index := 112#32
  ![v595.toNat, 112]

def k0_chk5 (v280 : IVec S16 32) (v601 : IVec S16 32) : Prop :=
  (∀ a x, ((![v280, v601] : Fin 2 → IVec S16 32) a x).toNat < S128x64.size a)
instance k0_chk5.dec : ∀ (v280 : IVec S16 32) (v601 : IVec S16 32), Decidable (k0_chk5 v280 v601) := fun v280 v601 => decidable_of_iff' _ (Iff.of_eq (k0_chk5.eq_1 v280 v601))
theorem k0_idx5_inb : ∀ (v280 : IVec S16 32) (v601 : IVec S16 32) (k0_hw5 : k0_chk5 v280 v601), ∀ a x, ((![v280, v601] : Fin 2 → IVec S16 32) a x).toNat < S128x64.size a := fun v280 v601 k0_hw5 => k0_hw5
def k0_off36 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_474 : BitVec 32 := 10#32
  let v599 : BitVec 32 := Scalar.muli arg21 c10_i32_474
  let c4_i32_475 : BitVec 32 := 4#32
  let v600 : BitVec 32 := Scalar.addi v599 c4_i32_475
  let v603 : Index := Scalar.indexCast v600
  let c0_476 : Index := 0#32
  ![v603.toNat, 0]
def k0_off37 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_474 : BitVec 32 := 10#32
  let v599 : BitVec 32 := Scalar.muli arg21 c10_i32_474
  let c4_i32_475 : BitVec 32 := 4#32
  let v600 : BitVec 32 := Scalar.addi v599 c4_i32_475
  let v607 : Index := Scalar.indexCast v600
  let c16_477 : Index := 16#32
  ![v607.toNat, 16]
def k0_off38 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_474 : BitVec 32 := 10#32
  let v599 : BitVec 32 := Scalar.muli arg21 c10_i32_474
  let c4_i32_475 : BitVec 32 := 4#32
  let v600 : BitVec 32 := Scalar.addi v599 c4_i32_475
  let v611 : Index := Scalar.indexCast v600
  let c32_478 : Index := 32#32
  ![v611.toNat, 32]
def k0_off39 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_474 : BitVec 32 := 10#32
  let v599 : BitVec 32 := Scalar.muli arg21 c10_i32_474
  let c4_i32_475 : BitVec 32 := 4#32
  let v600 : BitVec 32 := Scalar.addi v599 c4_i32_475
  let v615 : Index := Scalar.indexCast v600
  let c48_479 : Index := 48#32
  ![v615.toNat, 48]
def k0_off40 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_474 : BitVec 32 := 10#32
  let v599 : BitVec 32 := Scalar.muli arg21 c10_i32_474
  let c4_i32_475 : BitVec 32 := 4#32
  let v600 : BitVec 32 := Scalar.addi v599 c4_i32_475
  let v619 : Index := Scalar.indexCast v600
  let c64_480 : Index := 64#32
  ![v619.toNat, 64]
def k0_off41 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_474 : BitVec 32 := 10#32
  let v599 : BitVec 32 := Scalar.muli arg21 c10_i32_474
  let c4_i32_475 : BitVec 32 := 4#32
  let v600 : BitVec 32 := Scalar.addi v599 c4_i32_475
  let v623 : Index := Scalar.indexCast v600
  let c80_481 : Index := 80#32
  ![v623.toNat, 80]
def k0_off42 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_474 : BitVec 32 := 10#32
  let v599 : BitVec 32 := Scalar.muli arg21 c10_i32_474
  let c4_i32_475 : BitVec 32 := 4#32
  let v600 : BitVec 32 := Scalar.addi v599 c4_i32_475
  let v627 : Index := Scalar.indexCast v600
  let c96_482 : Index := 96#32
  ![v627.toNat, 96]
def k0_off43 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_474 : BitVec 32 := 10#32
  let v599 : BitVec 32 := Scalar.muli arg21 c10_i32_474
  let c4_i32_475 : BitVec 32 := 4#32
  let v600 : BitVec 32 := Scalar.addi v599 c4_i32_475
  let v631 : Index := Scalar.indexCast v600
  let c112_483 : Index := 112#32
  ![v631.toNat, 112]

def k0_chk6 (v280 : IVec S16 32) (v637 : IVec S16 32) : Prop :=
  (∀ a x, ((![v280, v637] : Fin 2 → IVec S16 32) a x).toNat < S128x64.size a)
instance k0_chk6.dec : ∀ (v280 : IVec S16 32) (v637 : IVec S16 32), Decidable (k0_chk6 v280 v637) := fun v280 v637 => decidable_of_iff' _ (Iff.of_eq (k0_chk6.eq_1 v280 v637))
theorem k0_idx6_inb : ∀ (v280 : IVec S16 32) (v637 : IVec S16 32) (k0_hw6 : k0_chk6 v280 v637), ∀ a x, ((![v280, v637] : Fin 2 → IVec S16 32) a x).toNat < S128x64.size a := fun v280 v637 k0_hw6 => k0_hw6
def k0_off44 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_484 : BitVec 32 := 10#32
  let v635 : BitVec 32 := Scalar.muli arg21 c10_i32_484
  let c5_i32_485 : BitVec 32 := 5#32
  let v636 : BitVec 32 := Scalar.addi v635 c5_i32_485
  let v639 : Index := Scalar.indexCast v636
  let c0_486 : Index := 0#32
  ![v639.toNat, 0]
def k0_off45 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_484 : BitVec 32 := 10#32
  let v635 : BitVec 32 := Scalar.muli arg21 c10_i32_484
  let c5_i32_485 : BitVec 32 := 5#32
  let v636 : BitVec 32 := Scalar.addi v635 c5_i32_485
  let v643 : Index := Scalar.indexCast v636
  let c16_487 : Index := 16#32
  ![v643.toNat, 16]
def k0_off46 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_484 : BitVec 32 := 10#32
  let v635 : BitVec 32 := Scalar.muli arg21 c10_i32_484
  let c5_i32_485 : BitVec 32 := 5#32
  let v636 : BitVec 32 := Scalar.addi v635 c5_i32_485
  let v647 : Index := Scalar.indexCast v636
  let c32_488 : Index := 32#32
  ![v647.toNat, 32]
def k0_off47 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_484 : BitVec 32 := 10#32
  let v635 : BitVec 32 := Scalar.muli arg21 c10_i32_484
  let c5_i32_485 : BitVec 32 := 5#32
  let v636 : BitVec 32 := Scalar.addi v635 c5_i32_485
  let v651 : Index := Scalar.indexCast v636
  let c48_489 : Index := 48#32
  ![v651.toNat, 48]
def k0_off48 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_484 : BitVec 32 := 10#32
  let v635 : BitVec 32 := Scalar.muli arg21 c10_i32_484
  let c5_i32_485 : BitVec 32 := 5#32
  let v636 : BitVec 32 := Scalar.addi v635 c5_i32_485
  let v655 : Index := Scalar.indexCast v636
  let c64_490 : Index := 64#32
  ![v655.toNat, 64]
def k0_off49 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_484 : BitVec 32 := 10#32
  let v635 : BitVec 32 := Scalar.muli arg21 c10_i32_484
  let c5_i32_485 : BitVec 32 := 5#32
  let v636 : BitVec 32 := Scalar.addi v635 c5_i32_485
  let v659 : Index := Scalar.indexCast v636
  let c80_491 : Index := 80#32
  ![v659.toNat, 80]
def k0_off50 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_484 : BitVec 32 := 10#32
  let v635 : BitVec 32 := Scalar.muli arg21 c10_i32_484
  let c5_i32_485 : BitVec 32 := 5#32
  let v636 : BitVec 32 := Scalar.addi v635 c5_i32_485
  let v663 : Index := Scalar.indexCast v636
  let c96_492 : Index := 96#32
  ![v663.toNat, 96]
def k0_off51 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_484 : BitVec 32 := 10#32
  let v635 : BitVec 32 := Scalar.muli arg21 c10_i32_484
  let c5_i32_485 : BitVec 32 := 5#32
  let v636 : BitVec 32 := Scalar.addi v635 c5_i32_485
  let v667 : Index := Scalar.indexCast v636
  let c112_493 : Index := 112#32
  ![v667.toNat, 112]

def k0_chk7 (v280 : IVec S16 32) (v673 : IVec S16 32) : Prop :=
  (∀ a x, ((![v280, v673] : Fin 2 → IVec S16 32) a x).toNat < S128x64.size a)
instance k0_chk7.dec : ∀ (v280 : IVec S16 32) (v673 : IVec S16 32), Decidable (k0_chk7 v280 v673) := fun v280 v673 => decidable_of_iff' _ (Iff.of_eq (k0_chk7.eq_1 v280 v673))
theorem k0_idx7_inb : ∀ (v280 : IVec S16 32) (v673 : IVec S16 32) (k0_hw7 : k0_chk7 v280 v673), ∀ a x, ((![v280, v673] : Fin 2 → IVec S16 32) a x).toNat < S128x64.size a := fun v280 v673 k0_hw7 => k0_hw7
def k0_off52 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_494 : BitVec 32 := 10#32
  let v671 : BitVec 32 := Scalar.muli arg21 c10_i32_494
  let c6_i32 : BitVec 32 := 6#32
  let v672 : BitVec 32 := Scalar.addi v671 c6_i32
  let v675 : Index := Scalar.indexCast v672
  let c0_495 : Index := 0#32
  ![v675.toNat, 0]
def k0_off53 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_494 : BitVec 32 := 10#32
  let v671 : BitVec 32 := Scalar.muli arg21 c10_i32_494
  let c6_i32 : BitVec 32 := 6#32
  let v672 : BitVec 32 := Scalar.addi v671 c6_i32
  let v679 : Index := Scalar.indexCast v672
  let c16_496 : Index := 16#32
  ![v679.toNat, 16]
def k0_off54 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_494 : BitVec 32 := 10#32
  let v671 : BitVec 32 := Scalar.muli arg21 c10_i32_494
  let c6_i32 : BitVec 32 := 6#32
  let v672 : BitVec 32 := Scalar.addi v671 c6_i32
  let v683 : Index := Scalar.indexCast v672
  let c32_497 : Index := 32#32
  ![v683.toNat, 32]
def k0_off55 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_494 : BitVec 32 := 10#32
  let v671 : BitVec 32 := Scalar.muli arg21 c10_i32_494
  let c6_i32 : BitVec 32 := 6#32
  let v672 : BitVec 32 := Scalar.addi v671 c6_i32
  let v687 : Index := Scalar.indexCast v672
  let c48_498 : Index := 48#32
  ![v687.toNat, 48]
def k0_off56 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_494 : BitVec 32 := 10#32
  let v671 : BitVec 32 := Scalar.muli arg21 c10_i32_494
  let c6_i32 : BitVec 32 := 6#32
  let v672 : BitVec 32 := Scalar.addi v671 c6_i32
  let v691 : Index := Scalar.indexCast v672
  let c64_499 : Index := 64#32
  ![v691.toNat, 64]
def k0_off57 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_494 : BitVec 32 := 10#32
  let v671 : BitVec 32 := Scalar.muli arg21 c10_i32_494
  let c6_i32 : BitVec 32 := 6#32
  let v672 : BitVec 32 := Scalar.addi v671 c6_i32
  let v695 : Index := Scalar.indexCast v672
  let c80_500 : Index := 80#32
  ![v695.toNat, 80]
def k0_off58 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_494 : BitVec 32 := 10#32
  let v671 : BitVec 32 := Scalar.muli arg21 c10_i32_494
  let c6_i32 : BitVec 32 := 6#32
  let v672 : BitVec 32 := Scalar.addi v671 c6_i32
  let v699 : Index := Scalar.indexCast v672
  let c96_501 : Index := 96#32
  ![v699.toNat, 96]
def k0_off59 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_494 : BitVec 32 := 10#32
  let v671 : BitVec 32 := Scalar.muli arg21 c10_i32_494
  let c6_i32 : BitVec 32 := 6#32
  let v672 : BitVec 32 := Scalar.addi v671 c6_i32
  let v703 : Index := Scalar.indexCast v672
  let c112_502 : Index := 112#32
  ![v703.toNat, 112]

def k0_chk8 (v280 : IVec S16 32) (v709 : IVec S16 32) : Prop :=
  (∀ a x, ((![v280, v709] : Fin 2 → IVec S16 32) a x).toNat < S128x64.size a)
instance k0_chk8.dec : ∀ (v280 : IVec S16 32) (v709 : IVec S16 32), Decidable (k0_chk8 v280 v709) := fun v280 v709 => decidable_of_iff' _ (Iff.of_eq (k0_chk8.eq_1 v280 v709))
theorem k0_idx8_inb : ∀ (v280 : IVec S16 32) (v709 : IVec S16 32) (k0_hw8 : k0_chk8 v280 v709), ∀ a x, ((![v280, v709] : Fin 2 → IVec S16 32) a x).toNat < S128x64.size a := fun v280 v709 k0_hw8 => k0_hw8
def k0_off60 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_503 : BitVec 32 := 10#32
  let v707 : BitVec 32 := Scalar.muli arg21 c10_i32_503
  let c7_i32 : BitVec 32 := 7#32
  let v708 : BitVec 32 := Scalar.addi v707 c7_i32
  let v711 : Index := Scalar.indexCast v708
  let c0_504 : Index := 0#32
  ![v711.toNat, 0]
def k0_off61 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_503 : BitVec 32 := 10#32
  let v707 : BitVec 32 := Scalar.muli arg21 c10_i32_503
  let c7_i32 : BitVec 32 := 7#32
  let v708 : BitVec 32 := Scalar.addi v707 c7_i32
  let v715 : Index := Scalar.indexCast v708
  let c16_505 : Index := 16#32
  ![v715.toNat, 16]
def k0_off62 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_503 : BitVec 32 := 10#32
  let v707 : BitVec 32 := Scalar.muli arg21 c10_i32_503
  let c7_i32 : BitVec 32 := 7#32
  let v708 : BitVec 32 := Scalar.addi v707 c7_i32
  let v719 : Index := Scalar.indexCast v708
  let c32_506 : Index := 32#32
  ![v719.toNat, 32]
def k0_off63 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_503 : BitVec 32 := 10#32
  let v707 : BitVec 32 := Scalar.muli arg21 c10_i32_503
  let c7_i32 : BitVec 32 := 7#32
  let v708 : BitVec 32 := Scalar.addi v707 c7_i32
  let v723 : Index := Scalar.indexCast v708
  let c48_507 : Index := 48#32
  ![v723.toNat, 48]
def k0_off64 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_503 : BitVec 32 := 10#32
  let v707 : BitVec 32 := Scalar.muli arg21 c10_i32_503
  let c7_i32 : BitVec 32 := 7#32
  let v708 : BitVec 32 := Scalar.addi v707 c7_i32
  let v727 : Index := Scalar.indexCast v708
  let c64_508 : Index := 64#32
  ![v727.toNat, 64]
def k0_off65 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_503 : BitVec 32 := 10#32
  let v707 : BitVec 32 := Scalar.muli arg21 c10_i32_503
  let c7_i32 : BitVec 32 := 7#32
  let v708 : BitVec 32 := Scalar.addi v707 c7_i32
  let v731 : Index := Scalar.indexCast v708
  let c80_509 : Index := 80#32
  ![v731.toNat, 80]
def k0_off66 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_503 : BitVec 32 := 10#32
  let v707 : BitVec 32 := Scalar.muli arg21 c10_i32_503
  let c7_i32 : BitVec 32 := 7#32
  let v708 : BitVec 32 := Scalar.addi v707 c7_i32
  let v735 : Index := Scalar.indexCast v708
  let c96_510 : Index := 96#32
  ![v735.toNat, 96]
def k0_off67 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_503 : BitVec 32 := 10#32
  let v707 : BitVec 32 := Scalar.muli arg21 c10_i32_503
  let c7_i32 : BitVec 32 := 7#32
  let v708 : BitVec 32 := Scalar.addi v707 c7_i32
  let v739 : Index := Scalar.indexCast v708
  let c112_511 : Index := 112#32
  ![v739.toNat, 112]

def k0_chk9 (v280 : IVec S16 32) (v745 : IVec S16 32) : Prop :=
  (∀ a x, ((![v280, v745] : Fin 2 → IVec S16 32) a x).toNat < S128x64.size a)
instance k0_chk9.dec : ∀ (v280 : IVec S16 32) (v745 : IVec S16 32), Decidable (k0_chk9 v280 v745) := fun v280 v745 => decidable_of_iff' _ (Iff.of_eq (k0_chk9.eq_1 v280 v745))
theorem k0_idx9_inb : ∀ (v280 : IVec S16 32) (v745 : IVec S16 32) (k0_hw9 : k0_chk9 v280 v745), ∀ a x, ((![v280, v745] : Fin 2 → IVec S16 32) a x).toNat < S128x64.size a := fun v280 v745 k0_hw9 => k0_hw9
def k0_off68 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_512 : BitVec 32 := 10#32
  let v743 : BitVec 32 := Scalar.muli arg21 c10_i32_512
  let c8_i32 : BitVec 32 := 8#32
  let v744 : BitVec 32 := Scalar.addi v743 c8_i32
  let v747 : Index := Scalar.indexCast v744
  let c0_513 : Index := 0#32
  ![v747.toNat, 0]
def k0_off69 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_512 : BitVec 32 := 10#32
  let v743 : BitVec 32 := Scalar.muli arg21 c10_i32_512
  let c8_i32 : BitVec 32 := 8#32
  let v744 : BitVec 32 := Scalar.addi v743 c8_i32
  let v751 : Index := Scalar.indexCast v744
  let c16_514 : Index := 16#32
  ![v751.toNat, 16]
def k0_off70 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_512 : BitVec 32 := 10#32
  let v743 : BitVec 32 := Scalar.muli arg21 c10_i32_512
  let c8_i32 : BitVec 32 := 8#32
  let v744 : BitVec 32 := Scalar.addi v743 c8_i32
  let v755 : Index := Scalar.indexCast v744
  let c32_515 : Index := 32#32
  ![v755.toNat, 32]
def k0_off71 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_512 : BitVec 32 := 10#32
  let v743 : BitVec 32 := Scalar.muli arg21 c10_i32_512
  let c8_i32 : BitVec 32 := 8#32
  let v744 : BitVec 32 := Scalar.addi v743 c8_i32
  let v759 : Index := Scalar.indexCast v744
  let c48_516 : Index := 48#32
  ![v759.toNat, 48]
def k0_off72 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_512 : BitVec 32 := 10#32
  let v743 : BitVec 32 := Scalar.muli arg21 c10_i32_512
  let c8_i32 : BitVec 32 := 8#32
  let v744 : BitVec 32 := Scalar.addi v743 c8_i32
  let v763 : Index := Scalar.indexCast v744
  let c64_517 : Index := 64#32
  ![v763.toNat, 64]
def k0_off73 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_512 : BitVec 32 := 10#32
  let v743 : BitVec 32 := Scalar.muli arg21 c10_i32_512
  let c8_i32 : BitVec 32 := 8#32
  let v744 : BitVec 32 := Scalar.addi v743 c8_i32
  let v767 : Index := Scalar.indexCast v744
  let c80_518 : Index := 80#32
  ![v767.toNat, 80]
def k0_off74 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_512 : BitVec 32 := 10#32
  let v743 : BitVec 32 := Scalar.muli arg21 c10_i32_512
  let c8_i32 : BitVec 32 := 8#32
  let v744 : BitVec 32 := Scalar.addi v743 c8_i32
  let v771 : Index := Scalar.indexCast v744
  let c96_519 : Index := 96#32
  ![v771.toNat, 96]
def k0_off75 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_512 : BitVec 32 := 10#32
  let v743 : BitVec 32 := Scalar.muli arg21 c10_i32_512
  let c8_i32 : BitVec 32 := 8#32
  let v744 : BitVec 32 := Scalar.addi v743 c8_i32
  let v775 : Index := Scalar.indexCast v744
  let c112_520 : Index := 112#32
  ![v775.toNat, 112]

def k0_chk10 (v280 : IVec S16 32) (v781 : IVec S16 32) : Prop :=
  (∀ a x, ((![v280, v781] : Fin 2 → IVec S16 32) a x).toNat < S128x64.size a)
instance k0_chk10.dec : ∀ (v280 : IVec S16 32) (v781 : IVec S16 32), Decidable (k0_chk10 v280 v781) := fun v280 v781 => decidable_of_iff' _ (Iff.of_eq (k0_chk10.eq_1 v280 v781))
theorem k0_idx10_inb : ∀ (v280 : IVec S16 32) (v781 : IVec S16 32) (k0_hw10 : k0_chk10 v280 v781), ∀ a x, ((![v280, v781] : Fin 2 → IVec S16 32) a x).toNat < S128x64.size a := fun v280 v781 k0_hw10 => k0_hw10
def k0_off76 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_521 : BitVec 32 := 10#32
  let v779 : BitVec 32 := Scalar.muli arg21 c10_i32_521
  let c9_i32 : BitVec 32 := 9#32
  let v780 : BitVec 32 := Scalar.addi v779 c9_i32
  let v783 : Index := Scalar.indexCast v780
  let c0_522 : Index := 0#32
  ![v783.toNat, 0]
def k0_off77 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_521 : BitVec 32 := 10#32
  let v779 : BitVec 32 := Scalar.muli arg21 c10_i32_521
  let c9_i32 : BitVec 32 := 9#32
  let v780 : BitVec 32 := Scalar.addi v779 c9_i32
  let v787 : Index := Scalar.indexCast v780
  let c16_523 : Index := 16#32
  ![v787.toNat, 16]
def k0_off78 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_521 : BitVec 32 := 10#32
  let v779 : BitVec 32 := Scalar.muli arg21 c10_i32_521
  let c9_i32 : BitVec 32 := 9#32
  let v780 : BitVec 32 := Scalar.addi v779 c9_i32
  let v791 : Index := Scalar.indexCast v780
  let c32_524 : Index := 32#32
  ![v791.toNat, 32]
def k0_off79 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_521 : BitVec 32 := 10#32
  let v779 : BitVec 32 := Scalar.muli arg21 c10_i32_521
  let c9_i32 : BitVec 32 := 9#32
  let v780 : BitVec 32 := Scalar.addi v779 c9_i32
  let v795 : Index := Scalar.indexCast v780
  let c48_525 : Index := 48#32
  ![v795.toNat, 48]
def k0_off80 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_521 : BitVec 32 := 10#32
  let v779 : BitVec 32 := Scalar.muli arg21 c10_i32_521
  let c9_i32 : BitVec 32 := 9#32
  let v780 : BitVec 32 := Scalar.addi v779 c9_i32
  let v799 : Index := Scalar.indexCast v780
  let c64_526 : Index := 64#32
  ![v799.toNat, 64]
def k0_off81 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_521 : BitVec 32 := 10#32
  let v779 : BitVec 32 := Scalar.muli arg21 c10_i32_521
  let c9_i32 : BitVec 32 := 9#32
  let v780 : BitVec 32 := Scalar.addi v779 c9_i32
  let v803 : Index := Scalar.indexCast v780
  let c80_527 : Index := 80#32
  ![v803.toNat, 80]
def k0_off82 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_521 : BitVec 32 := 10#32
  let v779 : BitVec 32 := Scalar.muli arg21 c10_i32_521
  let c9_i32 : BitVec 32 := 9#32
  let v780 : BitVec 32 := Scalar.addi v779 c9_i32
  let v807 : Index := Scalar.indexCast v780
  let c96_528 : Index := 96#32
  ![v807.toNat, 96]
def k0_off83 (k0_t2 : Fin k0_t2_loop.trips) : Fin 2 → Nat :=
  let c0_i32_299 : BitVec 32 := 0#32
  let c1_i32_301 : BitVec 32 := 1#32
  let arg21 : BitVec 32 := Scf.iv c0_i32_299 c1_i32_301 k0_t2
  let c10_i32_521 : BitVec 32 := 10#32
  let v779 : BitVec 32 := Scalar.muli arg21 c10_i32_521
  let c9_i32 : BitVec 32 := 9#32
  let v780 : BitVec 32 := Scalar.addi v779 c9_i32
  let v811 : Index := Scalar.indexCast v780
  let c112_529 : Index := 112#32
  ![v811.toNat, 112]
def k0_off84 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c0_i32_290 : BitVec 32 := 0#32
  let v279 : BitVec 32 := Scalar.addi v269 c0_i32_290
  let v291 : Index := Scalar.indexCast v279
  let c0_303 : Index := 0#32
  ![v291.toNat, 0]
def k0_off85 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c0_i32_290 : BitVec 32 := 0#32
  let v279 : BitVec 32 := Scalar.addi v269 c0_i32_290
  let v293 : Index := Scalar.indexCast v279
  let c16_304 : Index := 16#32
  ![v293.toNat, 16]
def k0_off86 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c0_i32_290 : BitVec 32 := 0#32
  let v279 : BitVec 32 := Scalar.addi v269 c0_i32_290
  let v295 : Index := Scalar.indexCast v279
  let c32_305 : Index := 32#32
  ![v295.toNat, 32]
def k0_off87 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c0_i32_290 : BitVec 32 := 0#32
  let v279 : BitVec 32 := Scalar.addi v269 c0_i32_290
  let v297 : Index := Scalar.indexCast v279
  let c48_306 : Index := 48#32
  ![v297.toNat, 48]
def k0_off88 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c0_i32_290 : BitVec 32 := 0#32
  let v279 : BitVec 32 := Scalar.addi v269 c0_i32_290
  let v299 : Index := Scalar.indexCast v279
  let c64_307 : Index := 64#32
  ![v299.toNat, 64]
def k0_off89 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c0_i32_290 : BitVec 32 := 0#32
  let v279 : BitVec 32 := Scalar.addi v269 c0_i32_290
  let v301 : Index := Scalar.indexCast v279
  let c80_308 : Index := 80#32
  ![v301.toNat, 80]
def k0_off90 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c0_i32_290 : BitVec 32 := 0#32
  let v279 : BitVec 32 := Scalar.addi v269 c0_i32_290
  let v303 : Index := Scalar.indexCast v279
  let c96_309 : Index := 96#32
  ![v303.toNat, 96]
def k0_off91 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c0_i32_290 : BitVec 32 := 0#32
  let v279 : BitVec 32 := Scalar.addi v269 c0_i32_290
  let v305 : Index := Scalar.indexCast v279
  let c112_310 : Index := 112#32
  ![v305.toNat, 112]
def k0_off92 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c1_i32_315 : BitVec 32 := 1#32
  let v310 : BitVec 32 := Scalar.addi v269 c1_i32_315
  let c5_i32_316 : BitVec 32 := 5#32
  let v311 : BitVec 32 := Scalar.addi v310 c5_i32_316
  let c1_i32_317 : BitVec 32 := 1#32
  let v312 : BitVec 32 := Scalar.subi v311 c1_i32_317
  let c0_i32_318 : BitVec 32 := 0#32
  ![v312.toNat, 0]
@[reducible] def k0_t3_loop : Scf.Loop 32 :=
  let c0_i32_330 : BitVec 32 := 0#32
  let c5_i32_331 : BitVec 32 := 5#32
  let v326 : BitVec 32 := Scalar.addi c0_i32_330 c5_i32_331
  let c1_i32_332 : BitVec 32 := 1#32
  ⟨c0_i32_330, v326, c1_i32_332⟩

def k0_chk11 (v317 : IVec S16 32) (v457 : IVec S16 32) : Prop :=
  (∀ a x, ((![v317, v457] : Fin 2 → IVec S16 32) a x).toNat < S128x64.size a)
instance k0_chk11.dec : ∀ (v317 : IVec S16 32) (v457 : IVec S16 32), Decidable (k0_chk11 v317 v457) := fun v317 v457 => decidable_of_iff' _ (Iff.of_eq (k0_chk11.eq_1 v317 v457))
theorem k0_idx11_inb : ∀ (v317 : IVec S16 32) (v457 : IVec S16 32) (k0_hw11 : k0_chk11 v317 v457), ∀ a x, ((![v317, v457] : Fin 2 → IVec S16 32) a x).toNat < S128x64.size a := fun v317 v457 k0_hw11 => k0_hw11
def k0_off93 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32 : BitVec 32 := 10#32
  let v455 : BitVec 32 := Scalar.muli arg21 c10_i32
  let c0_i32_435 : BitVec 32 := 0#32
  let v456 : BitVec 32 := Scalar.addi v455 c0_i32_435
  let v459 : Index := Scalar.indexCast v456
  let c0_436 : Index := 0#32
  ![v459.toNat, 0]
def k0_off94 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32 : BitVec 32 := 10#32
  let v455 : BitVec 32 := Scalar.muli arg21 c10_i32
  let c0_i32_435 : BitVec 32 := 0#32
  let v456 : BitVec 32 := Scalar.addi v455 c0_i32_435
  let v463 : Index := Scalar.indexCast v456
  let c16_437 : Index := 16#32
  ![v463.toNat, 16]
def k0_off95 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32 : BitVec 32 := 10#32
  let v455 : BitVec 32 := Scalar.muli arg21 c10_i32
  let c0_i32_435 : BitVec 32 := 0#32
  let v456 : BitVec 32 := Scalar.addi v455 c0_i32_435
  let v467 : Index := Scalar.indexCast v456
  let c32_438 : Index := 32#32
  ![v467.toNat, 32]
def k0_off96 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32 : BitVec 32 := 10#32
  let v455 : BitVec 32 := Scalar.muli arg21 c10_i32
  let c0_i32_435 : BitVec 32 := 0#32
  let v456 : BitVec 32 := Scalar.addi v455 c0_i32_435
  let v471 : Index := Scalar.indexCast v456
  let c48_439 : Index := 48#32
  ![v471.toNat, 48]
def k0_off97 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32 : BitVec 32 := 10#32
  let v455 : BitVec 32 := Scalar.muli arg21 c10_i32
  let c0_i32_435 : BitVec 32 := 0#32
  let v456 : BitVec 32 := Scalar.addi v455 c0_i32_435
  let v475 : Index := Scalar.indexCast v456
  let c64_440 : Index := 64#32
  ![v475.toNat, 64]
def k0_off98 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32 : BitVec 32 := 10#32
  let v455 : BitVec 32 := Scalar.muli arg21 c10_i32
  let c0_i32_435 : BitVec 32 := 0#32
  let v456 : BitVec 32 := Scalar.addi v455 c0_i32_435
  let v479 : Index := Scalar.indexCast v456
  let c80_441 : Index := 80#32
  ![v479.toNat, 80]
def k0_off99 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32 : BitVec 32 := 10#32
  let v455 : BitVec 32 := Scalar.muli arg21 c10_i32
  let c0_i32_435 : BitVec 32 := 0#32
  let v456 : BitVec 32 := Scalar.addi v455 c0_i32_435
  let v483 : Index := Scalar.indexCast v456
  let c96_442 : Index := 96#32
  ![v483.toNat, 96]
def k0_off100 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32 : BitVec 32 := 10#32
  let v455 : BitVec 32 := Scalar.muli arg21 c10_i32
  let c0_i32_435 : BitVec 32 := 0#32
  let v456 : BitVec 32 := Scalar.addi v455 c0_i32_435
  let v487 : Index := Scalar.indexCast v456
  let c112_443 : Index := 112#32
  ![v487.toNat, 112]

def k0_chk12 (v317 : IVec S16 32) (v493 : IVec S16 32) : Prop :=
  (∀ a x, ((![v317, v493] : Fin 2 → IVec S16 32) a x).toNat < S128x64.size a)
instance k0_chk12.dec : ∀ (v317 : IVec S16 32) (v493 : IVec S16 32), Decidable (k0_chk12 v317 v493) := fun v317 v493 => decidable_of_iff' _ (Iff.of_eq (k0_chk12.eq_1 v317 v493))
theorem k0_idx12_inb : ∀ (v317 : IVec S16 32) (v493 : IVec S16 32) (k0_hw12 : k0_chk12 v317 v493), ∀ a x, ((![v317, v493] : Fin 2 → IVec S16 32) a x).toNat < S128x64.size a := fun v317 v493 k0_hw12 => k0_hw12
def k0_off101 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_444 : BitVec 32 := 10#32
  let v491 : BitVec 32 := Scalar.muli arg21 c10_i32_444
  let c1_i32_445 : BitVec 32 := 1#32
  let v492 : BitVec 32 := Scalar.addi v491 c1_i32_445
  let v495 : Index := Scalar.indexCast v492
  let c0_446 : Index := 0#32
  ![v495.toNat, 0]
def k0_off102 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_444 : BitVec 32 := 10#32
  let v491 : BitVec 32 := Scalar.muli arg21 c10_i32_444
  let c1_i32_445 : BitVec 32 := 1#32
  let v492 : BitVec 32 := Scalar.addi v491 c1_i32_445
  let v499 : Index := Scalar.indexCast v492
  let c16_447 : Index := 16#32
  ![v499.toNat, 16]
def k0_off103 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_444 : BitVec 32 := 10#32
  let v491 : BitVec 32 := Scalar.muli arg21 c10_i32_444
  let c1_i32_445 : BitVec 32 := 1#32
  let v492 : BitVec 32 := Scalar.addi v491 c1_i32_445
  let v503 : Index := Scalar.indexCast v492
  let c32_448 : Index := 32#32
  ![v503.toNat, 32]
def k0_off104 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_444 : BitVec 32 := 10#32
  let v491 : BitVec 32 := Scalar.muli arg21 c10_i32_444
  let c1_i32_445 : BitVec 32 := 1#32
  let v492 : BitVec 32 := Scalar.addi v491 c1_i32_445
  let v507 : Index := Scalar.indexCast v492
  let c48_449 : Index := 48#32
  ![v507.toNat, 48]
def k0_off105 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_444 : BitVec 32 := 10#32
  let v491 : BitVec 32 := Scalar.muli arg21 c10_i32_444
  let c1_i32_445 : BitVec 32 := 1#32
  let v492 : BitVec 32 := Scalar.addi v491 c1_i32_445
  let v511 : Index := Scalar.indexCast v492
  let c64_450 : Index := 64#32
  ![v511.toNat, 64]
def k0_off106 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_444 : BitVec 32 := 10#32
  let v491 : BitVec 32 := Scalar.muli arg21 c10_i32_444
  let c1_i32_445 : BitVec 32 := 1#32
  let v492 : BitVec 32 := Scalar.addi v491 c1_i32_445
  let v515 : Index := Scalar.indexCast v492
  let c80_451 : Index := 80#32
  ![v515.toNat, 80]
def k0_off107 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_444 : BitVec 32 := 10#32
  let v491 : BitVec 32 := Scalar.muli arg21 c10_i32_444
  let c1_i32_445 : BitVec 32 := 1#32
  let v492 : BitVec 32 := Scalar.addi v491 c1_i32_445
  let v519 : Index := Scalar.indexCast v492
  let c96_452 : Index := 96#32
  ![v519.toNat, 96]
def k0_off108 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_444 : BitVec 32 := 10#32
  let v491 : BitVec 32 := Scalar.muli arg21 c10_i32_444
  let c1_i32_445 : BitVec 32 := 1#32
  let v492 : BitVec 32 := Scalar.addi v491 c1_i32_445
  let v523 : Index := Scalar.indexCast v492
  let c112_453 : Index := 112#32
  ![v523.toNat, 112]

def k0_chk13 (v317 : IVec S16 32) (v529 : IVec S16 32) : Prop :=
  (∀ a x, ((![v317, v529] : Fin 2 → IVec S16 32) a x).toNat < S128x64.size a)
instance k0_chk13.dec : ∀ (v317 : IVec S16 32) (v529 : IVec S16 32), Decidable (k0_chk13 v317 v529) := fun v317 v529 => decidable_of_iff' _ (Iff.of_eq (k0_chk13.eq_1 v317 v529))
theorem k0_idx13_inb : ∀ (v317 : IVec S16 32) (v529 : IVec S16 32) (k0_hw13 : k0_chk13 v317 v529), ∀ a x, ((![v317, v529] : Fin 2 → IVec S16 32) a x).toNat < S128x64.size a := fun v317 v529 k0_hw13 => k0_hw13
def k0_off109 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_454 : BitVec 32 := 10#32
  let v527 : BitVec 32 := Scalar.muli arg21 c10_i32_454
  let c2_i32_455 : BitVec 32 := 2#32
  let v528 : BitVec 32 := Scalar.addi v527 c2_i32_455
  let v531 : Index := Scalar.indexCast v528
  let c0_456 : Index := 0#32
  ![v531.toNat, 0]
def k0_off110 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_454 : BitVec 32 := 10#32
  let v527 : BitVec 32 := Scalar.muli arg21 c10_i32_454
  let c2_i32_455 : BitVec 32 := 2#32
  let v528 : BitVec 32 := Scalar.addi v527 c2_i32_455
  let v535 : Index := Scalar.indexCast v528
  let c16_457 : Index := 16#32
  ![v535.toNat, 16]
def k0_off111 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_454 : BitVec 32 := 10#32
  let v527 : BitVec 32 := Scalar.muli arg21 c10_i32_454
  let c2_i32_455 : BitVec 32 := 2#32
  let v528 : BitVec 32 := Scalar.addi v527 c2_i32_455
  let v539 : Index := Scalar.indexCast v528
  let c32_458 : Index := 32#32
  ![v539.toNat, 32]
def k0_off112 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_454 : BitVec 32 := 10#32
  let v527 : BitVec 32 := Scalar.muli arg21 c10_i32_454
  let c2_i32_455 : BitVec 32 := 2#32
  let v528 : BitVec 32 := Scalar.addi v527 c2_i32_455
  let v543 : Index := Scalar.indexCast v528
  let c48_459 : Index := 48#32
  ![v543.toNat, 48]
def k0_off113 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_454 : BitVec 32 := 10#32
  let v527 : BitVec 32 := Scalar.muli arg21 c10_i32_454
  let c2_i32_455 : BitVec 32 := 2#32
  let v528 : BitVec 32 := Scalar.addi v527 c2_i32_455
  let v547 : Index := Scalar.indexCast v528
  let c64_460 : Index := 64#32
  ![v547.toNat, 64]
def k0_off114 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_454 : BitVec 32 := 10#32
  let v527 : BitVec 32 := Scalar.muli arg21 c10_i32_454
  let c2_i32_455 : BitVec 32 := 2#32
  let v528 : BitVec 32 := Scalar.addi v527 c2_i32_455
  let v551 : Index := Scalar.indexCast v528
  let c80_461 : Index := 80#32
  ![v551.toNat, 80]
def k0_off115 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_454 : BitVec 32 := 10#32
  let v527 : BitVec 32 := Scalar.muli arg21 c10_i32_454
  let c2_i32_455 : BitVec 32 := 2#32
  let v528 : BitVec 32 := Scalar.addi v527 c2_i32_455
  let v555 : Index := Scalar.indexCast v528
  let c96_462 : Index := 96#32
  ![v555.toNat, 96]
def k0_off116 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_454 : BitVec 32 := 10#32
  let v527 : BitVec 32 := Scalar.muli arg21 c10_i32_454
  let c2_i32_455 : BitVec 32 := 2#32
  let v528 : BitVec 32 := Scalar.addi v527 c2_i32_455
  let v559 : Index := Scalar.indexCast v528
  let c112_463 : Index := 112#32
  ![v559.toNat, 112]

def k0_chk14 (v317 : IVec S16 32) (v565 : IVec S16 32) : Prop :=
  (∀ a x, ((![v317, v565] : Fin 2 → IVec S16 32) a x).toNat < S128x64.size a)
instance k0_chk14.dec : ∀ (v317 : IVec S16 32) (v565 : IVec S16 32), Decidable (k0_chk14 v317 v565) := fun v317 v565 => decidable_of_iff' _ (Iff.of_eq (k0_chk14.eq_1 v317 v565))
theorem k0_idx14_inb : ∀ (v317 : IVec S16 32) (v565 : IVec S16 32) (k0_hw14 : k0_chk14 v317 v565), ∀ a x, ((![v317, v565] : Fin 2 → IVec S16 32) a x).toNat < S128x64.size a := fun v317 v565 k0_hw14 => k0_hw14
def k0_off117 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_464 : BitVec 32 := 10#32
  let v563 : BitVec 32 := Scalar.muli arg21 c10_i32_464
  let c3_i32_465 : BitVec 32 := 3#32
  let v564 : BitVec 32 := Scalar.addi v563 c3_i32_465
  let v567 : Index := Scalar.indexCast v564
  let c0_466 : Index := 0#32
  ![v567.toNat, 0]
def k0_off118 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_464 : BitVec 32 := 10#32
  let v563 : BitVec 32 := Scalar.muli arg21 c10_i32_464
  let c3_i32_465 : BitVec 32 := 3#32
  let v564 : BitVec 32 := Scalar.addi v563 c3_i32_465
  let v571 : Index := Scalar.indexCast v564
  let c16_467 : Index := 16#32
  ![v571.toNat, 16]
def k0_off119 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_464 : BitVec 32 := 10#32
  let v563 : BitVec 32 := Scalar.muli arg21 c10_i32_464
  let c3_i32_465 : BitVec 32 := 3#32
  let v564 : BitVec 32 := Scalar.addi v563 c3_i32_465
  let v575 : Index := Scalar.indexCast v564
  let c32_468 : Index := 32#32
  ![v575.toNat, 32]
def k0_off120 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_464 : BitVec 32 := 10#32
  let v563 : BitVec 32 := Scalar.muli arg21 c10_i32_464
  let c3_i32_465 : BitVec 32 := 3#32
  let v564 : BitVec 32 := Scalar.addi v563 c3_i32_465
  let v579 : Index := Scalar.indexCast v564
  let c48_469 : Index := 48#32
  ![v579.toNat, 48]
def k0_off121 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_464 : BitVec 32 := 10#32
  let v563 : BitVec 32 := Scalar.muli arg21 c10_i32_464
  let c3_i32_465 : BitVec 32 := 3#32
  let v564 : BitVec 32 := Scalar.addi v563 c3_i32_465
  let v583 : Index := Scalar.indexCast v564
  let c64_470 : Index := 64#32
  ![v583.toNat, 64]
def k0_off122 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_464 : BitVec 32 := 10#32
  let v563 : BitVec 32 := Scalar.muli arg21 c10_i32_464
  let c3_i32_465 : BitVec 32 := 3#32
  let v564 : BitVec 32 := Scalar.addi v563 c3_i32_465
  let v587 : Index := Scalar.indexCast v564
  let c80_471 : Index := 80#32
  ![v587.toNat, 80]
def k0_off123 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_464 : BitVec 32 := 10#32
  let v563 : BitVec 32 := Scalar.muli arg21 c10_i32_464
  let c3_i32_465 : BitVec 32 := 3#32
  let v564 : BitVec 32 := Scalar.addi v563 c3_i32_465
  let v591 : Index := Scalar.indexCast v564
  let c96_472 : Index := 96#32
  ![v591.toNat, 96]
def k0_off124 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_464 : BitVec 32 := 10#32
  let v563 : BitVec 32 := Scalar.muli arg21 c10_i32_464
  let c3_i32_465 : BitVec 32 := 3#32
  let v564 : BitVec 32 := Scalar.addi v563 c3_i32_465
  let v595 : Index := Scalar.indexCast v564
  let c112_473 : Index := 112#32
  ![v595.toNat, 112]

def k0_chk15 (v317 : IVec S16 32) (v601 : IVec S16 32) : Prop :=
  (∀ a x, ((![v317, v601] : Fin 2 → IVec S16 32) a x).toNat < S128x64.size a)
instance k0_chk15.dec : ∀ (v317 : IVec S16 32) (v601 : IVec S16 32), Decidable (k0_chk15 v317 v601) := fun v317 v601 => decidable_of_iff' _ (Iff.of_eq (k0_chk15.eq_1 v317 v601))
theorem k0_idx15_inb : ∀ (v317 : IVec S16 32) (v601 : IVec S16 32) (k0_hw15 : k0_chk15 v317 v601), ∀ a x, ((![v317, v601] : Fin 2 → IVec S16 32) a x).toNat < S128x64.size a := fun v317 v601 k0_hw15 => k0_hw15
def k0_off125 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_474 : BitVec 32 := 10#32
  let v599 : BitVec 32 := Scalar.muli arg21 c10_i32_474
  let c4_i32_475 : BitVec 32 := 4#32
  let v600 : BitVec 32 := Scalar.addi v599 c4_i32_475
  let v603 : Index := Scalar.indexCast v600
  let c0_476 : Index := 0#32
  ![v603.toNat, 0]
def k0_off126 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_474 : BitVec 32 := 10#32
  let v599 : BitVec 32 := Scalar.muli arg21 c10_i32_474
  let c4_i32_475 : BitVec 32 := 4#32
  let v600 : BitVec 32 := Scalar.addi v599 c4_i32_475
  let v607 : Index := Scalar.indexCast v600
  let c16_477 : Index := 16#32
  ![v607.toNat, 16]
def k0_off127 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_474 : BitVec 32 := 10#32
  let v599 : BitVec 32 := Scalar.muli arg21 c10_i32_474
  let c4_i32_475 : BitVec 32 := 4#32
  let v600 : BitVec 32 := Scalar.addi v599 c4_i32_475
  let v611 : Index := Scalar.indexCast v600
  let c32_478 : Index := 32#32
  ![v611.toNat, 32]
def k0_off128 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_474 : BitVec 32 := 10#32
  let v599 : BitVec 32 := Scalar.muli arg21 c10_i32_474
  let c4_i32_475 : BitVec 32 := 4#32
  let v600 : BitVec 32 := Scalar.addi v599 c4_i32_475
  let v615 : Index := Scalar.indexCast v600
  let c48_479 : Index := 48#32
  ![v615.toNat, 48]
def k0_off129 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_474 : BitVec 32 := 10#32
  let v599 : BitVec 32 := Scalar.muli arg21 c10_i32_474
  let c4_i32_475 : BitVec 32 := 4#32
  let v600 : BitVec 32 := Scalar.addi v599 c4_i32_475
  let v619 : Index := Scalar.indexCast v600
  let c64_480 : Index := 64#32
  ![v619.toNat, 64]
def k0_off130 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_474 : BitVec 32 := 10#32
  let v599 : BitVec 32 := Scalar.muli arg21 c10_i32_474
  let c4_i32_475 : BitVec 32 := 4#32
  let v600 : BitVec 32 := Scalar.addi v599 c4_i32_475
  let v623 : Index := Scalar.indexCast v600
  let c80_481 : Index := 80#32
  ![v623.toNat, 80]
def k0_off131 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_474 : BitVec 32 := 10#32
  let v599 : BitVec 32 := Scalar.muli arg21 c10_i32_474
  let c4_i32_475 : BitVec 32 := 4#32
  let v600 : BitVec 32 := Scalar.addi v599 c4_i32_475
  let v627 : Index := Scalar.indexCast v600
  let c96_482 : Index := 96#32
  ![v627.toNat, 96]
def k0_off132 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_474 : BitVec 32 := 10#32
  let v599 : BitVec 32 := Scalar.muli arg21 c10_i32_474
  let c4_i32_475 : BitVec 32 := 4#32
  let v600 : BitVec 32 := Scalar.addi v599 c4_i32_475
  let v631 : Index := Scalar.indexCast v600
  let c112_483 : Index := 112#32
  ![v631.toNat, 112]

def k0_chk16 (v317 : IVec S16 32) (v637 : IVec S16 32) : Prop :=
  (∀ a x, ((![v317, v637] : Fin 2 → IVec S16 32) a x).toNat < S128x64.size a)
instance k0_chk16.dec : ∀ (v317 : IVec S16 32) (v637 : IVec S16 32), Decidable (k0_chk16 v317 v637) := fun v317 v637 => decidable_of_iff' _ (Iff.of_eq (k0_chk16.eq_1 v317 v637))
theorem k0_idx16_inb : ∀ (v317 : IVec S16 32) (v637 : IVec S16 32) (k0_hw16 : k0_chk16 v317 v637), ∀ a x, ((![v317, v637] : Fin 2 → IVec S16 32) a x).toNat < S128x64.size a := fun v317 v637 k0_hw16 => k0_hw16
def k0_off133 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_484 : BitVec 32 := 10#32
  let v635 : BitVec 32 := Scalar.muli arg21 c10_i32_484
  let c5_i32_485 : BitVec 32 := 5#32
  let v636 : BitVec 32 := Scalar.addi v635 c5_i32_485
  let v639 : Index := Scalar.indexCast v636
  let c0_486 : Index := 0#32
  ![v639.toNat, 0]
def k0_off134 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_484 : BitVec 32 := 10#32
  let v635 : BitVec 32 := Scalar.muli arg21 c10_i32_484
  let c5_i32_485 : BitVec 32 := 5#32
  let v636 : BitVec 32 := Scalar.addi v635 c5_i32_485
  let v643 : Index := Scalar.indexCast v636
  let c16_487 : Index := 16#32
  ![v643.toNat, 16]
def k0_off135 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_484 : BitVec 32 := 10#32
  let v635 : BitVec 32 := Scalar.muli arg21 c10_i32_484
  let c5_i32_485 : BitVec 32 := 5#32
  let v636 : BitVec 32 := Scalar.addi v635 c5_i32_485
  let v647 : Index := Scalar.indexCast v636
  let c32_488 : Index := 32#32
  ![v647.toNat, 32]
def k0_off136 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_484 : BitVec 32 := 10#32
  let v635 : BitVec 32 := Scalar.muli arg21 c10_i32_484
  let c5_i32_485 : BitVec 32 := 5#32
  let v636 : BitVec 32 := Scalar.addi v635 c5_i32_485
  let v651 : Index := Scalar.indexCast v636
  let c48_489 : Index := 48#32
  ![v651.toNat, 48]
def k0_off137 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_484 : BitVec 32 := 10#32
  let v635 : BitVec 32 := Scalar.muli arg21 c10_i32_484
  let c5_i32_485 : BitVec 32 := 5#32
  let v636 : BitVec 32 := Scalar.addi v635 c5_i32_485
  let v655 : Index := Scalar.indexCast v636
  let c64_490 : Index := 64#32
  ![v655.toNat, 64]
def k0_off138 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_484 : BitVec 32 := 10#32
  let v635 : BitVec 32 := Scalar.muli arg21 c10_i32_484
  let c5_i32_485 : BitVec 32 := 5#32
  let v636 : BitVec 32 := Scalar.addi v635 c5_i32_485
  let v659 : Index := Scalar.indexCast v636
  let c80_491 : Index := 80#32
  ![v659.toNat, 80]
def k0_off139 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_484 : BitVec 32 := 10#32
  let v635 : BitVec 32 := Scalar.muli arg21 c10_i32_484
  let c5_i32_485 : BitVec 32 := 5#32
  let v636 : BitVec 32 := Scalar.addi v635 c5_i32_485
  let v663 : Index := Scalar.indexCast v636
  let c96_492 : Index := 96#32
  ![v663.toNat, 96]
def k0_off140 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_484 : BitVec 32 := 10#32
  let v635 : BitVec 32 := Scalar.muli arg21 c10_i32_484
  let c5_i32_485 : BitVec 32 := 5#32
  let v636 : BitVec 32 := Scalar.addi v635 c5_i32_485
  let v667 : Index := Scalar.indexCast v636
  let c112_493 : Index := 112#32
  ![v667.toNat, 112]

def k0_chk17 (v317 : IVec S16 32) (v673 : IVec S16 32) : Prop :=
  (∀ a x, ((![v317, v673] : Fin 2 → IVec S16 32) a x).toNat < S128x64.size a)
instance k0_chk17.dec : ∀ (v317 : IVec S16 32) (v673 : IVec S16 32), Decidable (k0_chk17 v317 v673) := fun v317 v673 => decidable_of_iff' _ (Iff.of_eq (k0_chk17.eq_1 v317 v673))
theorem k0_idx17_inb : ∀ (v317 : IVec S16 32) (v673 : IVec S16 32) (k0_hw17 : k0_chk17 v317 v673), ∀ a x, ((![v317, v673] : Fin 2 → IVec S16 32) a x).toNat < S128x64.size a := fun v317 v673 k0_hw17 => k0_hw17
def k0_off141 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_494 : BitVec 32 := 10#32
  let v671 : BitVec 32 := Scalar.muli arg21 c10_i32_494
  let c6_i32 : BitVec 32 := 6#32
  let v672 : BitVec 32 := Scalar.addi v671 c6_i32
  let v675 : Index := Scalar.indexCast v672
  let c0_495 : Index := 0#32
  ![v675.toNat, 0]
def k0_off142 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_494 : BitVec 32 := 10#32
  let v671 : BitVec 32 := Scalar.muli arg21 c10_i32_494
  let c6_i32 : BitVec 32 := 6#32
  let v672 : BitVec 32 := Scalar.addi v671 c6_i32
  let v679 : Index := Scalar.indexCast v672
  let c16_496 : Index := 16#32
  ![v679.toNat, 16]
def k0_off143 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_494 : BitVec 32 := 10#32
  let v671 : BitVec 32 := Scalar.muli arg21 c10_i32_494
  let c6_i32 : BitVec 32 := 6#32
  let v672 : BitVec 32 := Scalar.addi v671 c6_i32
  let v683 : Index := Scalar.indexCast v672
  let c32_497 : Index := 32#32
  ![v683.toNat, 32]
def k0_off144 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_494 : BitVec 32 := 10#32
  let v671 : BitVec 32 := Scalar.muli arg21 c10_i32_494
  let c6_i32 : BitVec 32 := 6#32
  let v672 : BitVec 32 := Scalar.addi v671 c6_i32
  let v687 : Index := Scalar.indexCast v672
  let c48_498 : Index := 48#32
  ![v687.toNat, 48]
def k0_off145 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_494 : BitVec 32 := 10#32
  let v671 : BitVec 32 := Scalar.muli arg21 c10_i32_494
  let c6_i32 : BitVec 32 := 6#32
  let v672 : BitVec 32 := Scalar.addi v671 c6_i32
  let v691 : Index := Scalar.indexCast v672
  let c64_499 : Index := 64#32
  ![v691.toNat, 64]
def k0_off146 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_494 : BitVec 32 := 10#32
  let v671 : BitVec 32 := Scalar.muli arg21 c10_i32_494
  let c6_i32 : BitVec 32 := 6#32
  let v672 : BitVec 32 := Scalar.addi v671 c6_i32
  let v695 : Index := Scalar.indexCast v672
  let c80_500 : Index := 80#32
  ![v695.toNat, 80]
def k0_off147 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_494 : BitVec 32 := 10#32
  let v671 : BitVec 32 := Scalar.muli arg21 c10_i32_494
  let c6_i32 : BitVec 32 := 6#32
  let v672 : BitVec 32 := Scalar.addi v671 c6_i32
  let v699 : Index := Scalar.indexCast v672
  let c96_501 : Index := 96#32
  ![v699.toNat, 96]
def k0_off148 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_494 : BitVec 32 := 10#32
  let v671 : BitVec 32 := Scalar.muli arg21 c10_i32_494
  let c6_i32 : BitVec 32 := 6#32
  let v672 : BitVec 32 := Scalar.addi v671 c6_i32
  let v703 : Index := Scalar.indexCast v672
  let c112_502 : Index := 112#32
  ![v703.toNat, 112]

def k0_chk18 (v317 : IVec S16 32) (v709 : IVec S16 32) : Prop :=
  (∀ a x, ((![v317, v709] : Fin 2 → IVec S16 32) a x).toNat < S128x64.size a)
instance k0_chk18.dec : ∀ (v317 : IVec S16 32) (v709 : IVec S16 32), Decidable (k0_chk18 v317 v709) := fun v317 v709 => decidable_of_iff' _ (Iff.of_eq (k0_chk18.eq_1 v317 v709))
theorem k0_idx18_inb : ∀ (v317 : IVec S16 32) (v709 : IVec S16 32) (k0_hw18 : k0_chk18 v317 v709), ∀ a x, ((![v317, v709] : Fin 2 → IVec S16 32) a x).toNat < S128x64.size a := fun v317 v709 k0_hw18 => k0_hw18
def k0_off149 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_503 : BitVec 32 := 10#32
  let v707 : BitVec 32 := Scalar.muli arg21 c10_i32_503
  let c7_i32 : BitVec 32 := 7#32
  let v708 : BitVec 32 := Scalar.addi v707 c7_i32
  let v711 : Index := Scalar.indexCast v708
  let c0_504 : Index := 0#32
  ![v711.toNat, 0]
def k0_off150 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_503 : BitVec 32 := 10#32
  let v707 : BitVec 32 := Scalar.muli arg21 c10_i32_503
  let c7_i32 : BitVec 32 := 7#32
  let v708 : BitVec 32 := Scalar.addi v707 c7_i32
  let v715 : Index := Scalar.indexCast v708
  let c16_505 : Index := 16#32
  ![v715.toNat, 16]
def k0_off151 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_503 : BitVec 32 := 10#32
  let v707 : BitVec 32 := Scalar.muli arg21 c10_i32_503
  let c7_i32 : BitVec 32 := 7#32
  let v708 : BitVec 32 := Scalar.addi v707 c7_i32
  let v719 : Index := Scalar.indexCast v708
  let c32_506 : Index := 32#32
  ![v719.toNat, 32]
def k0_off152 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_503 : BitVec 32 := 10#32
  let v707 : BitVec 32 := Scalar.muli arg21 c10_i32_503
  let c7_i32 : BitVec 32 := 7#32
  let v708 : BitVec 32 := Scalar.addi v707 c7_i32
  let v723 : Index := Scalar.indexCast v708
  let c48_507 : Index := 48#32
  ![v723.toNat, 48]
def k0_off153 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_503 : BitVec 32 := 10#32
  let v707 : BitVec 32 := Scalar.muli arg21 c10_i32_503
  let c7_i32 : BitVec 32 := 7#32
  let v708 : BitVec 32 := Scalar.addi v707 c7_i32
  let v727 : Index := Scalar.indexCast v708
  let c64_508 : Index := 64#32
  ![v727.toNat, 64]
def k0_off154 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_503 : BitVec 32 := 10#32
  let v707 : BitVec 32 := Scalar.muli arg21 c10_i32_503
  let c7_i32 : BitVec 32 := 7#32
  let v708 : BitVec 32 := Scalar.addi v707 c7_i32
  let v731 : Index := Scalar.indexCast v708
  let c80_509 : Index := 80#32
  ![v731.toNat, 80]
def k0_off155 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_503 : BitVec 32 := 10#32
  let v707 : BitVec 32 := Scalar.muli arg21 c10_i32_503
  let c7_i32 : BitVec 32 := 7#32
  let v708 : BitVec 32 := Scalar.addi v707 c7_i32
  let v735 : Index := Scalar.indexCast v708
  let c96_510 : Index := 96#32
  ![v735.toNat, 96]
def k0_off156 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_503 : BitVec 32 := 10#32
  let v707 : BitVec 32 := Scalar.muli arg21 c10_i32_503
  let c7_i32 : BitVec 32 := 7#32
  let v708 : BitVec 32 := Scalar.addi v707 c7_i32
  let v739 : Index := Scalar.indexCast v708
  let c112_511 : Index := 112#32
  ![v739.toNat, 112]

def k0_chk19 (v317 : IVec S16 32) (v745 : IVec S16 32) : Prop :=
  (∀ a x, ((![v317, v745] : Fin 2 → IVec S16 32) a x).toNat < S128x64.size a)
instance k0_chk19.dec : ∀ (v317 : IVec S16 32) (v745 : IVec S16 32), Decidable (k0_chk19 v317 v745) := fun v317 v745 => decidable_of_iff' _ (Iff.of_eq (k0_chk19.eq_1 v317 v745))
theorem k0_idx19_inb : ∀ (v317 : IVec S16 32) (v745 : IVec S16 32) (k0_hw19 : k0_chk19 v317 v745), ∀ a x, ((![v317, v745] : Fin 2 → IVec S16 32) a x).toNat < S128x64.size a := fun v317 v745 k0_hw19 => k0_hw19
def k0_off157 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_512 : BitVec 32 := 10#32
  let v743 : BitVec 32 := Scalar.muli arg21 c10_i32_512
  let c8_i32 : BitVec 32 := 8#32
  let v744 : BitVec 32 := Scalar.addi v743 c8_i32
  let v747 : Index := Scalar.indexCast v744
  let c0_513 : Index := 0#32
  ![v747.toNat, 0]
def k0_off158 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_512 : BitVec 32 := 10#32
  let v743 : BitVec 32 := Scalar.muli arg21 c10_i32_512
  let c8_i32 : BitVec 32 := 8#32
  let v744 : BitVec 32 := Scalar.addi v743 c8_i32
  let v751 : Index := Scalar.indexCast v744
  let c16_514 : Index := 16#32
  ![v751.toNat, 16]
def k0_off159 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_512 : BitVec 32 := 10#32
  let v743 : BitVec 32 := Scalar.muli arg21 c10_i32_512
  let c8_i32 : BitVec 32 := 8#32
  let v744 : BitVec 32 := Scalar.addi v743 c8_i32
  let v755 : Index := Scalar.indexCast v744
  let c32_515 : Index := 32#32
  ![v755.toNat, 32]
def k0_off160 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_512 : BitVec 32 := 10#32
  let v743 : BitVec 32 := Scalar.muli arg21 c10_i32_512
  let c8_i32 : BitVec 32 := 8#32
  let v744 : BitVec 32 := Scalar.addi v743 c8_i32
  let v759 : Index := Scalar.indexCast v744
  let c48_516 : Index := 48#32
  ![v759.toNat, 48]
def k0_off161 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_512 : BitVec 32 := 10#32
  let v743 : BitVec 32 := Scalar.muli arg21 c10_i32_512
  let c8_i32 : BitVec 32 := 8#32
  let v744 : BitVec 32 := Scalar.addi v743 c8_i32
  let v763 : Index := Scalar.indexCast v744
  let c64_517 : Index := 64#32
  ![v763.toNat, 64]
def k0_off162 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_512 : BitVec 32 := 10#32
  let v743 : BitVec 32 := Scalar.muli arg21 c10_i32_512
  let c8_i32 : BitVec 32 := 8#32
  let v744 : BitVec 32 := Scalar.addi v743 c8_i32
  let v767 : Index := Scalar.indexCast v744
  let c80_518 : Index := 80#32
  ![v767.toNat, 80]
def k0_off163 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_512 : BitVec 32 := 10#32
  let v743 : BitVec 32 := Scalar.muli arg21 c10_i32_512
  let c8_i32 : BitVec 32 := 8#32
  let v744 : BitVec 32 := Scalar.addi v743 c8_i32
  let v771 : Index := Scalar.indexCast v744
  let c96_519 : Index := 96#32
  ![v771.toNat, 96]
def k0_off164 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_512 : BitVec 32 := 10#32
  let v743 : BitVec 32 := Scalar.muli arg21 c10_i32_512
  let c8_i32 : BitVec 32 := 8#32
  let v744 : BitVec 32 := Scalar.addi v743 c8_i32
  let v775 : Index := Scalar.indexCast v744
  let c112_520 : Index := 112#32
  ![v775.toNat, 112]

def k0_chk20 (v317 : IVec S16 32) (v781 : IVec S16 32) : Prop :=
  (∀ a x, ((![v317, v781] : Fin 2 → IVec S16 32) a x).toNat < S128x64.size a)
instance k0_chk20.dec : ∀ (v317 : IVec S16 32) (v781 : IVec S16 32), Decidable (k0_chk20 v317 v781) := fun v317 v781 => decidable_of_iff' _ (Iff.of_eq (k0_chk20.eq_1 v317 v781))
theorem k0_idx20_inb : ∀ (v317 : IVec S16 32) (v781 : IVec S16 32) (k0_hw20 : k0_chk20 v317 v781), ∀ a x, ((![v317, v781] : Fin 2 → IVec S16 32) a x).toNat < S128x64.size a := fun v317 v781 k0_hw20 => k0_hw20
def k0_off165 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_521 : BitVec 32 := 10#32
  let v779 : BitVec 32 := Scalar.muli arg21 c10_i32_521
  let c9_i32 : BitVec 32 := 9#32
  let v780 : BitVec 32 := Scalar.addi v779 c9_i32
  let v783 : Index := Scalar.indexCast v780
  let c0_522 : Index := 0#32
  ![v783.toNat, 0]
def k0_off166 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_521 : BitVec 32 := 10#32
  let v779 : BitVec 32 := Scalar.muli arg21 c10_i32_521
  let c9_i32 : BitVec 32 := 9#32
  let v780 : BitVec 32 := Scalar.addi v779 c9_i32
  let v787 : Index := Scalar.indexCast v780
  let c16_523 : Index := 16#32
  ![v787.toNat, 16]
def k0_off167 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_521 : BitVec 32 := 10#32
  let v779 : BitVec 32 := Scalar.muli arg21 c10_i32_521
  let c9_i32 : BitVec 32 := 9#32
  let v780 : BitVec 32 := Scalar.addi v779 c9_i32
  let v791 : Index := Scalar.indexCast v780
  let c32_524 : Index := 32#32
  ![v791.toNat, 32]
def k0_off168 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_521 : BitVec 32 := 10#32
  let v779 : BitVec 32 := Scalar.muli arg21 c10_i32_521
  let c9_i32 : BitVec 32 := 9#32
  let v780 : BitVec 32 := Scalar.addi v779 c9_i32
  let v795 : Index := Scalar.indexCast v780
  let c48_525 : Index := 48#32
  ![v795.toNat, 48]
def k0_off169 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_521 : BitVec 32 := 10#32
  let v779 : BitVec 32 := Scalar.muli arg21 c10_i32_521
  let c9_i32 : BitVec 32 := 9#32
  let v780 : BitVec 32 := Scalar.addi v779 c9_i32
  let v799 : Index := Scalar.indexCast v780
  let c64_526 : Index := 64#32
  ![v799.toNat, 64]
def k0_off170 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_521 : BitVec 32 := 10#32
  let v779 : BitVec 32 := Scalar.muli arg21 c10_i32_521
  let c9_i32 : BitVec 32 := 9#32
  let v780 : BitVec 32 := Scalar.addi v779 c9_i32
  let v803 : Index := Scalar.indexCast v780
  let c80_527 : Index := 80#32
  ![v803.toNat, 80]
def k0_off171 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_521 : BitVec 32 := 10#32
  let v779 : BitVec 32 := Scalar.muli arg21 c10_i32_521
  let c9_i32 : BitVec 32 := 9#32
  let v780 : BitVec 32 := Scalar.addi v779 c9_i32
  let v807 : Index := Scalar.indexCast v780
  let c96_528 : Index := 96#32
  ![v807.toNat, 96]
def k0_off172 (k0_t3 : Fin k0_t3_loop.trips) : Fin 2 → Nat :=
  let c0_i32_330 : BitVec 32 := 0#32
  let c1_i32_332 : BitVec 32 := 1#32
  let arg21 : BitVec 32 := Scf.iv c0_i32_330 c1_i32_332 k0_t3
  let c10_i32_521 : BitVec 32 := 10#32
  let v779 : BitVec 32 := Scalar.muli arg21 c10_i32_521
  let c9_i32 : BitVec 32 := 9#32
  let v780 : BitVec 32 := Scalar.addi v779 c9_i32
  let v811 : Index := Scalar.indexCast v780
  let c112_529 : Index := 112#32
  ![v811.toNat, 112]
def k0_off173 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c1_i32_321 : BitVec 32 := 1#32
  let v316 : BitVec 32 := Scalar.addi v269 c1_i32_321
  let v328 : Index := Scalar.indexCast v316
  let c0_334 : Index := 0#32
  ![v328.toNat, 0]
def k0_off174 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c1_i32_321 : BitVec 32 := 1#32
  let v316 : BitVec 32 := Scalar.addi v269 c1_i32_321
  let v330 : Index := Scalar.indexCast v316
  let c16_335 : Index := 16#32
  ![v330.toNat, 16]
def k0_off175 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c1_i32_321 : BitVec 32 := 1#32
  let v316 : BitVec 32 := Scalar.addi v269 c1_i32_321
  let v332 : Index := Scalar.indexCast v316
  let c32_336 : Index := 32#32
  ![v332.toNat, 32]
def k0_off176 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c1_i32_321 : BitVec 32 := 1#32
  let v316 : BitVec 32 := Scalar.addi v269 c1_i32_321
  let v334 : Index := Scalar.indexCast v316
  let c48_337 : Index := 48#32
  ![v334.toNat, 48]
def k0_off177 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c1_i32_321 : BitVec 32 := 1#32
  let v316 : BitVec 32 := Scalar.addi v269 c1_i32_321
  let v336 : Index := Scalar.indexCast v316
  let c64_338 : Index := 64#32
  ![v336.toNat, 64]
def k0_off178 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c1_i32_321 : BitVec 32 := 1#32
  let v316 : BitVec 32 := Scalar.addi v269 c1_i32_321
  let v338 : Index := Scalar.indexCast v316
  let c80_339 : Index := 80#32
  ![v338.toNat, 80]
def k0_off179 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c1_i32_321 : BitVec 32 := 1#32
  let v316 : BitVec 32 := Scalar.addi v269 c1_i32_321
  let v340 : Index := Scalar.indexCast v316
  let c96_340 : Index := 96#32
  ![v340.toNat, 96]
def k0_off180 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c1_i32_321 : BitVec 32 := 1#32
  let v316 : BitVec 32 := Scalar.addi v269 c1_i32_321
  let v342 : Index := Scalar.indexCast v316
  let c112_341 : Index := 112#32
  ![v342.toNat, 112]
def k0_off181 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c2_i32_346 : BitVec 32 := 2#32
  let v347 : BitVec 32 := Scalar.addi v269 c2_i32_346
  let c5_i32_347 : BitVec 32 := 5#32
  let v348 : BitVec 32 := Scalar.addi v347 c5_i32_347
  let c1_i32_348 : BitVec 32 := 1#32
  let v349 : BitVec 32 := Scalar.subi v348 c1_i32_348
  let c0_i32_349 : BitVec 32 := 0#32
  ![v349.toNat, 0]
@[reducible] def k0_t4_loop : Scf.Loop 32 :=
  let c0_i32_361 : BitVec 32 := 0#32
  let c5_i32_362 : BitVec 32 := 5#32
  let v363 : BitVec 32 := Scalar.addi c0_i32_361 c5_i32_362
  let c1_i32_363 : BitVec 32 := 1#32
  ⟨c0_i32_361, v363, c1_i32_363⟩

def k0_chk21 (v354 : IVec S16 32) (v457 : IVec S16 32) : Prop :=
  (∀ a x, ((![v354, v457] : Fin 2 → IVec S16 32) a x).toNat < S128x64.size a)
instance k0_chk21.dec : ∀ (v354 : IVec S16 32) (v457 : IVec S16 32), Decidable (k0_chk21 v354 v457) := fun v354 v457 => decidable_of_iff' _ (Iff.of_eq (k0_chk21.eq_1 v354 v457))
theorem k0_idx21_inb : ∀ (v354 : IVec S16 32) (v457 : IVec S16 32) (k0_hw21 : k0_chk21 v354 v457), ∀ a x, ((![v354, v457] : Fin 2 → IVec S16 32) a x).toNat < S128x64.size a := fun v354 v457 k0_hw21 => k0_hw21
def k0_off182 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32 : BitVec 32 := 10#32
  let v455 : BitVec 32 := Scalar.muli arg21 c10_i32
  let c0_i32_435 : BitVec 32 := 0#32
  let v456 : BitVec 32 := Scalar.addi v455 c0_i32_435
  let v459 : Index := Scalar.indexCast v456
  let c0_436 : Index := 0#32
  ![v459.toNat, 0]
def k0_off183 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32 : BitVec 32 := 10#32
  let v455 : BitVec 32 := Scalar.muli arg21 c10_i32
  let c0_i32_435 : BitVec 32 := 0#32
  let v456 : BitVec 32 := Scalar.addi v455 c0_i32_435
  let v463 : Index := Scalar.indexCast v456
  let c16_437 : Index := 16#32
  ![v463.toNat, 16]
def k0_off184 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32 : BitVec 32 := 10#32
  let v455 : BitVec 32 := Scalar.muli arg21 c10_i32
  let c0_i32_435 : BitVec 32 := 0#32
  let v456 : BitVec 32 := Scalar.addi v455 c0_i32_435
  let v467 : Index := Scalar.indexCast v456
  let c32_438 : Index := 32#32
  ![v467.toNat, 32]
def k0_off185 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32 : BitVec 32 := 10#32
  let v455 : BitVec 32 := Scalar.muli arg21 c10_i32
  let c0_i32_435 : BitVec 32 := 0#32
  let v456 : BitVec 32 := Scalar.addi v455 c0_i32_435
  let v471 : Index := Scalar.indexCast v456
  let c48_439 : Index := 48#32
  ![v471.toNat, 48]
def k0_off186 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32 : BitVec 32 := 10#32
  let v455 : BitVec 32 := Scalar.muli arg21 c10_i32
  let c0_i32_435 : BitVec 32 := 0#32
  let v456 : BitVec 32 := Scalar.addi v455 c0_i32_435
  let v475 : Index := Scalar.indexCast v456
  let c64_440 : Index := 64#32
  ![v475.toNat, 64]
def k0_off187 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32 : BitVec 32 := 10#32
  let v455 : BitVec 32 := Scalar.muli arg21 c10_i32
  let c0_i32_435 : BitVec 32 := 0#32
  let v456 : BitVec 32 := Scalar.addi v455 c0_i32_435
  let v479 : Index := Scalar.indexCast v456
  let c80_441 : Index := 80#32
  ![v479.toNat, 80]
def k0_off188 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32 : BitVec 32 := 10#32
  let v455 : BitVec 32 := Scalar.muli arg21 c10_i32
  let c0_i32_435 : BitVec 32 := 0#32
  let v456 : BitVec 32 := Scalar.addi v455 c0_i32_435
  let v483 : Index := Scalar.indexCast v456
  let c96_442 : Index := 96#32
  ![v483.toNat, 96]
def k0_off189 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32 : BitVec 32 := 10#32
  let v455 : BitVec 32 := Scalar.muli arg21 c10_i32
  let c0_i32_435 : BitVec 32 := 0#32
  let v456 : BitVec 32 := Scalar.addi v455 c0_i32_435
  let v487 : Index := Scalar.indexCast v456
  let c112_443 : Index := 112#32
  ![v487.toNat, 112]

def k0_chk22 (v354 : IVec S16 32) (v493 : IVec S16 32) : Prop :=
  (∀ a x, ((![v354, v493] : Fin 2 → IVec S16 32) a x).toNat < S128x64.size a)
instance k0_chk22.dec : ∀ (v354 : IVec S16 32) (v493 : IVec S16 32), Decidable (k0_chk22 v354 v493) := fun v354 v493 => decidable_of_iff' _ (Iff.of_eq (k0_chk22.eq_1 v354 v493))
theorem k0_idx22_inb : ∀ (v354 : IVec S16 32) (v493 : IVec S16 32) (k0_hw22 : k0_chk22 v354 v493), ∀ a x, ((![v354, v493] : Fin 2 → IVec S16 32) a x).toNat < S128x64.size a := fun v354 v493 k0_hw22 => k0_hw22
def k0_off190 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_444 : BitVec 32 := 10#32
  let v491 : BitVec 32 := Scalar.muli arg21 c10_i32_444
  let c1_i32_445 : BitVec 32 := 1#32
  let v492 : BitVec 32 := Scalar.addi v491 c1_i32_445
  let v495 : Index := Scalar.indexCast v492
  let c0_446 : Index := 0#32
  ![v495.toNat, 0]
def k0_off191 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_444 : BitVec 32 := 10#32
  let v491 : BitVec 32 := Scalar.muli arg21 c10_i32_444
  let c1_i32_445 : BitVec 32 := 1#32
  let v492 : BitVec 32 := Scalar.addi v491 c1_i32_445
  let v499 : Index := Scalar.indexCast v492
  let c16_447 : Index := 16#32
  ![v499.toNat, 16]
def k0_off192 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_444 : BitVec 32 := 10#32
  let v491 : BitVec 32 := Scalar.muli arg21 c10_i32_444
  let c1_i32_445 : BitVec 32 := 1#32
  let v492 : BitVec 32 := Scalar.addi v491 c1_i32_445
  let v503 : Index := Scalar.indexCast v492
  let c32_448 : Index := 32#32
  ![v503.toNat, 32]
def k0_off193 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_444 : BitVec 32 := 10#32
  let v491 : BitVec 32 := Scalar.muli arg21 c10_i32_444
  let c1_i32_445 : BitVec 32 := 1#32
  let v492 : BitVec 32 := Scalar.addi v491 c1_i32_445
  let v507 : Index := Scalar.indexCast v492
  let c48_449 : Index := 48#32
  ![v507.toNat, 48]
def k0_off194 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_444 : BitVec 32 := 10#32
  let v491 : BitVec 32 := Scalar.muli arg21 c10_i32_444
  let c1_i32_445 : BitVec 32 := 1#32
  let v492 : BitVec 32 := Scalar.addi v491 c1_i32_445
  let v511 : Index := Scalar.indexCast v492
  let c64_450 : Index := 64#32
  ![v511.toNat, 64]
def k0_off195 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_444 : BitVec 32 := 10#32
  let v491 : BitVec 32 := Scalar.muli arg21 c10_i32_444
  let c1_i32_445 : BitVec 32 := 1#32
  let v492 : BitVec 32 := Scalar.addi v491 c1_i32_445
  let v515 : Index := Scalar.indexCast v492
  let c80_451 : Index := 80#32
  ![v515.toNat, 80]
def k0_off196 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_444 : BitVec 32 := 10#32
  let v491 : BitVec 32 := Scalar.muli arg21 c10_i32_444
  let c1_i32_445 : BitVec 32 := 1#32
  let v492 : BitVec 32 := Scalar.addi v491 c1_i32_445
  let v519 : Index := Scalar.indexCast v492
  let c96_452 : Index := 96#32
  ![v519.toNat, 96]
def k0_off197 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_444 : BitVec 32 := 10#32
  let v491 : BitVec 32 := Scalar.muli arg21 c10_i32_444
  let c1_i32_445 : BitVec 32 := 1#32
  let v492 : BitVec 32 := Scalar.addi v491 c1_i32_445
  let v523 : Index := Scalar.indexCast v492
  let c112_453 : Index := 112#32
  ![v523.toNat, 112]

def k0_chk23 (v354 : IVec S16 32) (v529 : IVec S16 32) : Prop :=
  (∀ a x, ((![v354, v529] : Fin 2 → IVec S16 32) a x).toNat < S128x64.size a)
instance k0_chk23.dec : ∀ (v354 : IVec S16 32) (v529 : IVec S16 32), Decidable (k0_chk23 v354 v529) := fun v354 v529 => decidable_of_iff' _ (Iff.of_eq (k0_chk23.eq_1 v354 v529))
theorem k0_idx23_inb : ∀ (v354 : IVec S16 32) (v529 : IVec S16 32) (k0_hw23 : k0_chk23 v354 v529), ∀ a x, ((![v354, v529] : Fin 2 → IVec S16 32) a x).toNat < S128x64.size a := fun v354 v529 k0_hw23 => k0_hw23
def k0_off198 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_454 : BitVec 32 := 10#32
  let v527 : BitVec 32 := Scalar.muli arg21 c10_i32_454
  let c2_i32_455 : BitVec 32 := 2#32
  let v528 : BitVec 32 := Scalar.addi v527 c2_i32_455
  let v531 : Index := Scalar.indexCast v528
  let c0_456 : Index := 0#32
  ![v531.toNat, 0]
def k0_off199 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_454 : BitVec 32 := 10#32
  let v527 : BitVec 32 := Scalar.muli arg21 c10_i32_454
  let c2_i32_455 : BitVec 32 := 2#32
  let v528 : BitVec 32 := Scalar.addi v527 c2_i32_455
  let v535 : Index := Scalar.indexCast v528
  let c16_457 : Index := 16#32
  ![v535.toNat, 16]
def k0_off200 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_454 : BitVec 32 := 10#32
  let v527 : BitVec 32 := Scalar.muli arg21 c10_i32_454
  let c2_i32_455 : BitVec 32 := 2#32
  let v528 : BitVec 32 := Scalar.addi v527 c2_i32_455
  let v539 : Index := Scalar.indexCast v528
  let c32_458 : Index := 32#32
  ![v539.toNat, 32]
def k0_off201 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_454 : BitVec 32 := 10#32
  let v527 : BitVec 32 := Scalar.muli arg21 c10_i32_454
  let c2_i32_455 : BitVec 32 := 2#32
  let v528 : BitVec 32 := Scalar.addi v527 c2_i32_455
  let v543 : Index := Scalar.indexCast v528
  let c48_459 : Index := 48#32
  ![v543.toNat, 48]
def k0_off202 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_454 : BitVec 32 := 10#32
  let v527 : BitVec 32 := Scalar.muli arg21 c10_i32_454
  let c2_i32_455 : BitVec 32 := 2#32
  let v528 : BitVec 32 := Scalar.addi v527 c2_i32_455
  let v547 : Index := Scalar.indexCast v528
  let c64_460 : Index := 64#32
  ![v547.toNat, 64]
def k0_off203 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_454 : BitVec 32 := 10#32
  let v527 : BitVec 32 := Scalar.muli arg21 c10_i32_454
  let c2_i32_455 : BitVec 32 := 2#32
  let v528 : BitVec 32 := Scalar.addi v527 c2_i32_455
  let v551 : Index := Scalar.indexCast v528
  let c80_461 : Index := 80#32
  ![v551.toNat, 80]
def k0_off204 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_454 : BitVec 32 := 10#32
  let v527 : BitVec 32 := Scalar.muli arg21 c10_i32_454
  let c2_i32_455 : BitVec 32 := 2#32
  let v528 : BitVec 32 := Scalar.addi v527 c2_i32_455
  let v555 : Index := Scalar.indexCast v528
  let c96_462 : Index := 96#32
  ![v555.toNat, 96]
def k0_off205 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_454 : BitVec 32 := 10#32
  let v527 : BitVec 32 := Scalar.muli arg21 c10_i32_454
  let c2_i32_455 : BitVec 32 := 2#32
  let v528 : BitVec 32 := Scalar.addi v527 c2_i32_455
  let v559 : Index := Scalar.indexCast v528
  let c112_463 : Index := 112#32
  ![v559.toNat, 112]

def k0_chk24 (v354 : IVec S16 32) (v565 : IVec S16 32) : Prop :=
  (∀ a x, ((![v354, v565] : Fin 2 → IVec S16 32) a x).toNat < S128x64.size a)
instance k0_chk24.dec : ∀ (v354 : IVec S16 32) (v565 : IVec S16 32), Decidable (k0_chk24 v354 v565) := fun v354 v565 => decidable_of_iff' _ (Iff.of_eq (k0_chk24.eq_1 v354 v565))
theorem k0_idx24_inb : ∀ (v354 : IVec S16 32) (v565 : IVec S16 32) (k0_hw24 : k0_chk24 v354 v565), ∀ a x, ((![v354, v565] : Fin 2 → IVec S16 32) a x).toNat < S128x64.size a := fun v354 v565 k0_hw24 => k0_hw24
def k0_off206 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_464 : BitVec 32 := 10#32
  let v563 : BitVec 32 := Scalar.muli arg21 c10_i32_464
  let c3_i32_465 : BitVec 32 := 3#32
  let v564 : BitVec 32 := Scalar.addi v563 c3_i32_465
  let v567 : Index := Scalar.indexCast v564
  let c0_466 : Index := 0#32
  ![v567.toNat, 0]
def k0_off207 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_464 : BitVec 32 := 10#32
  let v563 : BitVec 32 := Scalar.muli arg21 c10_i32_464
  let c3_i32_465 : BitVec 32 := 3#32
  let v564 : BitVec 32 := Scalar.addi v563 c3_i32_465
  let v571 : Index := Scalar.indexCast v564
  let c16_467 : Index := 16#32
  ![v571.toNat, 16]
def k0_off208 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_464 : BitVec 32 := 10#32
  let v563 : BitVec 32 := Scalar.muli arg21 c10_i32_464
  let c3_i32_465 : BitVec 32 := 3#32
  let v564 : BitVec 32 := Scalar.addi v563 c3_i32_465
  let v575 : Index := Scalar.indexCast v564
  let c32_468 : Index := 32#32
  ![v575.toNat, 32]
def k0_off209 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_464 : BitVec 32 := 10#32
  let v563 : BitVec 32 := Scalar.muli arg21 c10_i32_464
  let c3_i32_465 : BitVec 32 := 3#32
  let v564 : BitVec 32 := Scalar.addi v563 c3_i32_465
  let v579 : Index := Scalar.indexCast v564
  let c48_469 : Index := 48#32
  ![v579.toNat, 48]
def k0_off210 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_464 : BitVec 32 := 10#32
  let v563 : BitVec 32 := Scalar.muli arg21 c10_i32_464
  let c3_i32_465 : BitVec 32 := 3#32
  let v564 : BitVec 32 := Scalar.addi v563 c3_i32_465
  let v583 : Index := Scalar.indexCast v564
  let c64_470 : Index := 64#32
  ![v583.toNat, 64]
def k0_off211 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_464 : BitVec 32 := 10#32
  let v563 : BitVec 32 := Scalar.muli arg21 c10_i32_464
  let c3_i32_465 : BitVec 32 := 3#32
  let v564 : BitVec 32 := Scalar.addi v563 c3_i32_465
  let v587 : Index := Scalar.indexCast v564
  let c80_471 : Index := 80#32
  ![v587.toNat, 80]
def k0_off212 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_464 : BitVec 32 := 10#32
  let v563 : BitVec 32 := Scalar.muli arg21 c10_i32_464
  let c3_i32_465 : BitVec 32 := 3#32
  let v564 : BitVec 32 := Scalar.addi v563 c3_i32_465
  let v591 : Index := Scalar.indexCast v564
  let c96_472 : Index := 96#32
  ![v591.toNat, 96]
def k0_off213 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_464 : BitVec 32 := 10#32
  let v563 : BitVec 32 := Scalar.muli arg21 c10_i32_464
  let c3_i32_465 : BitVec 32 := 3#32
  let v564 : BitVec 32 := Scalar.addi v563 c3_i32_465
  let v595 : Index := Scalar.indexCast v564
  let c112_473 : Index := 112#32
  ![v595.toNat, 112]

def k0_chk25 (v354 : IVec S16 32) (v601 : IVec S16 32) : Prop :=
  (∀ a x, ((![v354, v601] : Fin 2 → IVec S16 32) a x).toNat < S128x64.size a)
instance k0_chk25.dec : ∀ (v354 : IVec S16 32) (v601 : IVec S16 32), Decidable (k0_chk25 v354 v601) := fun v354 v601 => decidable_of_iff' _ (Iff.of_eq (k0_chk25.eq_1 v354 v601))
theorem k0_idx25_inb : ∀ (v354 : IVec S16 32) (v601 : IVec S16 32) (k0_hw25 : k0_chk25 v354 v601), ∀ a x, ((![v354, v601] : Fin 2 → IVec S16 32) a x).toNat < S128x64.size a := fun v354 v601 k0_hw25 => k0_hw25
def k0_off214 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_474 : BitVec 32 := 10#32
  let v599 : BitVec 32 := Scalar.muli arg21 c10_i32_474
  let c4_i32_475 : BitVec 32 := 4#32
  let v600 : BitVec 32 := Scalar.addi v599 c4_i32_475
  let v603 : Index := Scalar.indexCast v600
  let c0_476 : Index := 0#32
  ![v603.toNat, 0]
def k0_off215 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_474 : BitVec 32 := 10#32
  let v599 : BitVec 32 := Scalar.muli arg21 c10_i32_474
  let c4_i32_475 : BitVec 32 := 4#32
  let v600 : BitVec 32 := Scalar.addi v599 c4_i32_475
  let v607 : Index := Scalar.indexCast v600
  let c16_477 : Index := 16#32
  ![v607.toNat, 16]
def k0_off216 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_474 : BitVec 32 := 10#32
  let v599 : BitVec 32 := Scalar.muli arg21 c10_i32_474
  let c4_i32_475 : BitVec 32 := 4#32
  let v600 : BitVec 32 := Scalar.addi v599 c4_i32_475
  let v611 : Index := Scalar.indexCast v600
  let c32_478 : Index := 32#32
  ![v611.toNat, 32]
def k0_off217 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_474 : BitVec 32 := 10#32
  let v599 : BitVec 32 := Scalar.muli arg21 c10_i32_474
  let c4_i32_475 : BitVec 32 := 4#32
  let v600 : BitVec 32 := Scalar.addi v599 c4_i32_475
  let v615 : Index := Scalar.indexCast v600
  let c48_479 : Index := 48#32
  ![v615.toNat, 48]
def k0_off218 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_474 : BitVec 32 := 10#32
  let v599 : BitVec 32 := Scalar.muli arg21 c10_i32_474
  let c4_i32_475 : BitVec 32 := 4#32
  let v600 : BitVec 32 := Scalar.addi v599 c4_i32_475
  let v619 : Index := Scalar.indexCast v600
  let c64_480 : Index := 64#32
  ![v619.toNat, 64]
def k0_off219 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_474 : BitVec 32 := 10#32
  let v599 : BitVec 32 := Scalar.muli arg21 c10_i32_474
  let c4_i32_475 : BitVec 32 := 4#32
  let v600 : BitVec 32 := Scalar.addi v599 c4_i32_475
  let v623 : Index := Scalar.indexCast v600
  let c80_481 : Index := 80#32
  ![v623.toNat, 80]
def k0_off220 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_474 : BitVec 32 := 10#32
  let v599 : BitVec 32 := Scalar.muli arg21 c10_i32_474
  let c4_i32_475 : BitVec 32 := 4#32
  let v600 : BitVec 32 := Scalar.addi v599 c4_i32_475
  let v627 : Index := Scalar.indexCast v600
  let c96_482 : Index := 96#32
  ![v627.toNat, 96]
def k0_off221 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_474 : BitVec 32 := 10#32
  let v599 : BitVec 32 := Scalar.muli arg21 c10_i32_474
  let c4_i32_475 : BitVec 32 := 4#32
  let v600 : BitVec 32 := Scalar.addi v599 c4_i32_475
  let v631 : Index := Scalar.indexCast v600
  let c112_483 : Index := 112#32
  ![v631.toNat, 112]

def k0_chk26 (v354 : IVec S16 32) (v637 : IVec S16 32) : Prop :=
  (∀ a x, ((![v354, v637] : Fin 2 → IVec S16 32) a x).toNat < S128x64.size a)
instance k0_chk26.dec : ∀ (v354 : IVec S16 32) (v637 : IVec S16 32), Decidable (k0_chk26 v354 v637) := fun v354 v637 => decidable_of_iff' _ (Iff.of_eq (k0_chk26.eq_1 v354 v637))
theorem k0_idx26_inb : ∀ (v354 : IVec S16 32) (v637 : IVec S16 32) (k0_hw26 : k0_chk26 v354 v637), ∀ a x, ((![v354, v637] : Fin 2 → IVec S16 32) a x).toNat < S128x64.size a := fun v354 v637 k0_hw26 => k0_hw26
def k0_off222 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_484 : BitVec 32 := 10#32
  let v635 : BitVec 32 := Scalar.muli arg21 c10_i32_484
  let c5_i32_485 : BitVec 32 := 5#32
  let v636 : BitVec 32 := Scalar.addi v635 c5_i32_485
  let v639 : Index := Scalar.indexCast v636
  let c0_486 : Index := 0#32
  ![v639.toNat, 0]
def k0_off223 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_484 : BitVec 32 := 10#32
  let v635 : BitVec 32 := Scalar.muli arg21 c10_i32_484
  let c5_i32_485 : BitVec 32 := 5#32
  let v636 : BitVec 32 := Scalar.addi v635 c5_i32_485
  let v643 : Index := Scalar.indexCast v636
  let c16_487 : Index := 16#32
  ![v643.toNat, 16]
def k0_off224 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_484 : BitVec 32 := 10#32
  let v635 : BitVec 32 := Scalar.muli arg21 c10_i32_484
  let c5_i32_485 : BitVec 32 := 5#32
  let v636 : BitVec 32 := Scalar.addi v635 c5_i32_485
  let v647 : Index := Scalar.indexCast v636
  let c32_488 : Index := 32#32
  ![v647.toNat, 32]
def k0_off225 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_484 : BitVec 32 := 10#32
  let v635 : BitVec 32 := Scalar.muli arg21 c10_i32_484
  let c5_i32_485 : BitVec 32 := 5#32
  let v636 : BitVec 32 := Scalar.addi v635 c5_i32_485
  let v651 : Index := Scalar.indexCast v636
  let c48_489 : Index := 48#32
  ![v651.toNat, 48]
def k0_off226 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_484 : BitVec 32 := 10#32
  let v635 : BitVec 32 := Scalar.muli arg21 c10_i32_484
  let c5_i32_485 : BitVec 32 := 5#32
  let v636 : BitVec 32 := Scalar.addi v635 c5_i32_485
  let v655 : Index := Scalar.indexCast v636
  let c64_490 : Index := 64#32
  ![v655.toNat, 64]
def k0_off227 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_484 : BitVec 32 := 10#32
  let v635 : BitVec 32 := Scalar.muli arg21 c10_i32_484
  let c5_i32_485 : BitVec 32 := 5#32
  let v636 : BitVec 32 := Scalar.addi v635 c5_i32_485
  let v659 : Index := Scalar.indexCast v636
  let c80_491 : Index := 80#32
  ![v659.toNat, 80]
def k0_off228 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_484 : BitVec 32 := 10#32
  let v635 : BitVec 32 := Scalar.muli arg21 c10_i32_484
  let c5_i32_485 : BitVec 32 := 5#32
  let v636 : BitVec 32 := Scalar.addi v635 c5_i32_485
  let v663 : Index := Scalar.indexCast v636
  let c96_492 : Index := 96#32
  ![v663.toNat, 96]
def k0_off229 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_484 : BitVec 32 := 10#32
  let v635 : BitVec 32 := Scalar.muli arg21 c10_i32_484
  let c5_i32_485 : BitVec 32 := 5#32
  let v636 : BitVec 32 := Scalar.addi v635 c5_i32_485
  let v667 : Index := Scalar.indexCast v636
  let c112_493 : Index := 112#32
  ![v667.toNat, 112]

def k0_chk27 (v354 : IVec S16 32) (v673 : IVec S16 32) : Prop :=
  (∀ a x, ((![v354, v673] : Fin 2 → IVec S16 32) a x).toNat < S128x64.size a)
instance k0_chk27.dec : ∀ (v354 : IVec S16 32) (v673 : IVec S16 32), Decidable (k0_chk27 v354 v673) := fun v354 v673 => decidable_of_iff' _ (Iff.of_eq (k0_chk27.eq_1 v354 v673))
theorem k0_idx27_inb : ∀ (v354 : IVec S16 32) (v673 : IVec S16 32) (k0_hw27 : k0_chk27 v354 v673), ∀ a x, ((![v354, v673] : Fin 2 → IVec S16 32) a x).toNat < S128x64.size a := fun v354 v673 k0_hw27 => k0_hw27
def k0_off230 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_494 : BitVec 32 := 10#32
  let v671 : BitVec 32 := Scalar.muli arg21 c10_i32_494
  let c6_i32 : BitVec 32 := 6#32
  let v672 : BitVec 32 := Scalar.addi v671 c6_i32
  let v675 : Index := Scalar.indexCast v672
  let c0_495 : Index := 0#32
  ![v675.toNat, 0]
def k0_off231 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_494 : BitVec 32 := 10#32
  let v671 : BitVec 32 := Scalar.muli arg21 c10_i32_494
  let c6_i32 : BitVec 32 := 6#32
  let v672 : BitVec 32 := Scalar.addi v671 c6_i32
  let v679 : Index := Scalar.indexCast v672
  let c16_496 : Index := 16#32
  ![v679.toNat, 16]
def k0_off232 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_494 : BitVec 32 := 10#32
  let v671 : BitVec 32 := Scalar.muli arg21 c10_i32_494
  let c6_i32 : BitVec 32 := 6#32
  let v672 : BitVec 32 := Scalar.addi v671 c6_i32
  let v683 : Index := Scalar.indexCast v672
  let c32_497 : Index := 32#32
  ![v683.toNat, 32]
def k0_off233 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_494 : BitVec 32 := 10#32
  let v671 : BitVec 32 := Scalar.muli arg21 c10_i32_494
  let c6_i32 : BitVec 32 := 6#32
  let v672 : BitVec 32 := Scalar.addi v671 c6_i32
  let v687 : Index := Scalar.indexCast v672
  let c48_498 : Index := 48#32
  ![v687.toNat, 48]
def k0_off234 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_494 : BitVec 32 := 10#32
  let v671 : BitVec 32 := Scalar.muli arg21 c10_i32_494
  let c6_i32 : BitVec 32 := 6#32
  let v672 : BitVec 32 := Scalar.addi v671 c6_i32
  let v691 : Index := Scalar.indexCast v672
  let c64_499 : Index := 64#32
  ![v691.toNat, 64]
def k0_off235 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_494 : BitVec 32 := 10#32
  let v671 : BitVec 32 := Scalar.muli arg21 c10_i32_494
  let c6_i32 : BitVec 32 := 6#32
  let v672 : BitVec 32 := Scalar.addi v671 c6_i32
  let v695 : Index := Scalar.indexCast v672
  let c80_500 : Index := 80#32
  ![v695.toNat, 80]
def k0_off236 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_494 : BitVec 32 := 10#32
  let v671 : BitVec 32 := Scalar.muli arg21 c10_i32_494
  let c6_i32 : BitVec 32 := 6#32
  let v672 : BitVec 32 := Scalar.addi v671 c6_i32
  let v699 : Index := Scalar.indexCast v672
  let c96_501 : Index := 96#32
  ![v699.toNat, 96]
def k0_off237 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_494 : BitVec 32 := 10#32
  let v671 : BitVec 32 := Scalar.muli arg21 c10_i32_494
  let c6_i32 : BitVec 32 := 6#32
  let v672 : BitVec 32 := Scalar.addi v671 c6_i32
  let v703 : Index := Scalar.indexCast v672
  let c112_502 : Index := 112#32
  ![v703.toNat, 112]

def k0_chk28 (v354 : IVec S16 32) (v709 : IVec S16 32) : Prop :=
  (∀ a x, ((![v354, v709] : Fin 2 → IVec S16 32) a x).toNat < S128x64.size a)
instance k0_chk28.dec : ∀ (v354 : IVec S16 32) (v709 : IVec S16 32), Decidable (k0_chk28 v354 v709) := fun v354 v709 => decidable_of_iff' _ (Iff.of_eq (k0_chk28.eq_1 v354 v709))
theorem k0_idx28_inb : ∀ (v354 : IVec S16 32) (v709 : IVec S16 32) (k0_hw28 : k0_chk28 v354 v709), ∀ a x, ((![v354, v709] : Fin 2 → IVec S16 32) a x).toNat < S128x64.size a := fun v354 v709 k0_hw28 => k0_hw28
def k0_off238 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_503 : BitVec 32 := 10#32
  let v707 : BitVec 32 := Scalar.muli arg21 c10_i32_503
  let c7_i32 : BitVec 32 := 7#32
  let v708 : BitVec 32 := Scalar.addi v707 c7_i32
  let v711 : Index := Scalar.indexCast v708
  let c0_504 : Index := 0#32
  ![v711.toNat, 0]
def k0_off239 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_503 : BitVec 32 := 10#32
  let v707 : BitVec 32 := Scalar.muli arg21 c10_i32_503
  let c7_i32 : BitVec 32 := 7#32
  let v708 : BitVec 32 := Scalar.addi v707 c7_i32
  let v715 : Index := Scalar.indexCast v708
  let c16_505 : Index := 16#32
  ![v715.toNat, 16]
def k0_off240 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_503 : BitVec 32 := 10#32
  let v707 : BitVec 32 := Scalar.muli arg21 c10_i32_503
  let c7_i32 : BitVec 32 := 7#32
  let v708 : BitVec 32 := Scalar.addi v707 c7_i32
  let v719 : Index := Scalar.indexCast v708
  let c32_506 : Index := 32#32
  ![v719.toNat, 32]
def k0_off241 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_503 : BitVec 32 := 10#32
  let v707 : BitVec 32 := Scalar.muli arg21 c10_i32_503
  let c7_i32 : BitVec 32 := 7#32
  let v708 : BitVec 32 := Scalar.addi v707 c7_i32
  let v723 : Index := Scalar.indexCast v708
  let c48_507 : Index := 48#32
  ![v723.toNat, 48]
def k0_off242 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_503 : BitVec 32 := 10#32
  let v707 : BitVec 32 := Scalar.muli arg21 c10_i32_503
  let c7_i32 : BitVec 32 := 7#32
  let v708 : BitVec 32 := Scalar.addi v707 c7_i32
  let v727 : Index := Scalar.indexCast v708
  let c64_508 : Index := 64#32
  ![v727.toNat, 64]
def k0_off243 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_503 : BitVec 32 := 10#32
  let v707 : BitVec 32 := Scalar.muli arg21 c10_i32_503
  let c7_i32 : BitVec 32 := 7#32
  let v708 : BitVec 32 := Scalar.addi v707 c7_i32
  let v731 : Index := Scalar.indexCast v708
  let c80_509 : Index := 80#32
  ![v731.toNat, 80]
def k0_off244 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_503 : BitVec 32 := 10#32
  let v707 : BitVec 32 := Scalar.muli arg21 c10_i32_503
  let c7_i32 : BitVec 32 := 7#32
  let v708 : BitVec 32 := Scalar.addi v707 c7_i32
  let v735 : Index := Scalar.indexCast v708
  let c96_510 : Index := 96#32
  ![v735.toNat, 96]
def k0_off245 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_503 : BitVec 32 := 10#32
  let v707 : BitVec 32 := Scalar.muli arg21 c10_i32_503
  let c7_i32 : BitVec 32 := 7#32
  let v708 : BitVec 32 := Scalar.addi v707 c7_i32
  let v739 : Index := Scalar.indexCast v708
  let c112_511 : Index := 112#32
  ![v739.toNat, 112]

def k0_chk29 (v354 : IVec S16 32) (v745 : IVec S16 32) : Prop :=
  (∀ a x, ((![v354, v745] : Fin 2 → IVec S16 32) a x).toNat < S128x64.size a)
instance k0_chk29.dec : ∀ (v354 : IVec S16 32) (v745 : IVec S16 32), Decidable (k0_chk29 v354 v745) := fun v354 v745 => decidable_of_iff' _ (Iff.of_eq (k0_chk29.eq_1 v354 v745))
theorem k0_idx29_inb : ∀ (v354 : IVec S16 32) (v745 : IVec S16 32) (k0_hw29 : k0_chk29 v354 v745), ∀ a x, ((![v354, v745] : Fin 2 → IVec S16 32) a x).toNat < S128x64.size a := fun v354 v745 k0_hw29 => k0_hw29
def k0_off246 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_512 : BitVec 32 := 10#32
  let v743 : BitVec 32 := Scalar.muli arg21 c10_i32_512
  let c8_i32 : BitVec 32 := 8#32
  let v744 : BitVec 32 := Scalar.addi v743 c8_i32
  let v747 : Index := Scalar.indexCast v744
  let c0_513 : Index := 0#32
  ![v747.toNat, 0]
def k0_off247 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_512 : BitVec 32 := 10#32
  let v743 : BitVec 32 := Scalar.muli arg21 c10_i32_512
  let c8_i32 : BitVec 32 := 8#32
  let v744 : BitVec 32 := Scalar.addi v743 c8_i32
  let v751 : Index := Scalar.indexCast v744
  let c16_514 : Index := 16#32
  ![v751.toNat, 16]
def k0_off248 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_512 : BitVec 32 := 10#32
  let v743 : BitVec 32 := Scalar.muli arg21 c10_i32_512
  let c8_i32 : BitVec 32 := 8#32
  let v744 : BitVec 32 := Scalar.addi v743 c8_i32
  let v755 : Index := Scalar.indexCast v744
  let c32_515 : Index := 32#32
  ![v755.toNat, 32]
def k0_off249 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_512 : BitVec 32 := 10#32
  let v743 : BitVec 32 := Scalar.muli arg21 c10_i32_512
  let c8_i32 : BitVec 32 := 8#32
  let v744 : BitVec 32 := Scalar.addi v743 c8_i32
  let v759 : Index := Scalar.indexCast v744
  let c48_516 : Index := 48#32
  ![v759.toNat, 48]
def k0_off250 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_512 : BitVec 32 := 10#32
  let v743 : BitVec 32 := Scalar.muli arg21 c10_i32_512
  let c8_i32 : BitVec 32 := 8#32
  let v744 : BitVec 32 := Scalar.addi v743 c8_i32
  let v763 : Index := Scalar.indexCast v744
  let c64_517 : Index := 64#32
  ![v763.toNat, 64]
def k0_off251 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_512 : BitVec 32 := 10#32
  let v743 : BitVec 32 := Scalar.muli arg21 c10_i32_512
  let c8_i32 : BitVec 32 := 8#32
  let v744 : BitVec 32 := Scalar.addi v743 c8_i32
  let v767 : Index := Scalar.indexCast v744
  let c80_518 : Index := 80#32
  ![v767.toNat, 80]
def k0_off252 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_512 : BitVec 32 := 10#32
  let v743 : BitVec 32 := Scalar.muli arg21 c10_i32_512
  let c8_i32 : BitVec 32 := 8#32
  let v744 : BitVec 32 := Scalar.addi v743 c8_i32
  let v771 : Index := Scalar.indexCast v744
  let c96_519 : Index := 96#32
  ![v771.toNat, 96]
def k0_off253 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_512 : BitVec 32 := 10#32
  let v743 : BitVec 32 := Scalar.muli arg21 c10_i32_512
  let c8_i32 : BitVec 32 := 8#32
  let v744 : BitVec 32 := Scalar.addi v743 c8_i32
  let v775 : Index := Scalar.indexCast v744
  let c112_520 : Index := 112#32
  ![v775.toNat, 112]

def k0_chk30 (v354 : IVec S16 32) (v781 : IVec S16 32) : Prop :=
  (∀ a x, ((![v354, v781] : Fin 2 → IVec S16 32) a x).toNat < S128x64.size a)
instance k0_chk30.dec : ∀ (v354 : IVec S16 32) (v781 : IVec S16 32), Decidable (k0_chk30 v354 v781) := fun v354 v781 => decidable_of_iff' _ (Iff.of_eq (k0_chk30.eq_1 v354 v781))
theorem k0_idx30_inb : ∀ (v354 : IVec S16 32) (v781 : IVec S16 32) (k0_hw30 : k0_chk30 v354 v781), ∀ a x, ((![v354, v781] : Fin 2 → IVec S16 32) a x).toNat < S128x64.size a := fun v354 v781 k0_hw30 => k0_hw30
def k0_off254 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_521 : BitVec 32 := 10#32
  let v779 : BitVec 32 := Scalar.muli arg21 c10_i32_521
  let c9_i32 : BitVec 32 := 9#32
  let v780 : BitVec 32 := Scalar.addi v779 c9_i32
  let v783 : Index := Scalar.indexCast v780
  let c0_522 : Index := 0#32
  ![v783.toNat, 0]
def k0_off255 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_521 : BitVec 32 := 10#32
  let v779 : BitVec 32 := Scalar.muli arg21 c10_i32_521
  let c9_i32 : BitVec 32 := 9#32
  let v780 : BitVec 32 := Scalar.addi v779 c9_i32
  let v787 : Index := Scalar.indexCast v780
  let c16_523 : Index := 16#32
  ![v787.toNat, 16]
def k0_off256 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_521 : BitVec 32 := 10#32
  let v779 : BitVec 32 := Scalar.muli arg21 c10_i32_521
  let c9_i32 : BitVec 32 := 9#32
  let v780 : BitVec 32 := Scalar.addi v779 c9_i32
  let v791 : Index := Scalar.indexCast v780
  let c32_524 : Index := 32#32
  ![v791.toNat, 32]
def k0_off257 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_521 : BitVec 32 := 10#32
  let v779 : BitVec 32 := Scalar.muli arg21 c10_i32_521
  let c9_i32 : BitVec 32 := 9#32
  let v780 : BitVec 32 := Scalar.addi v779 c9_i32
  let v795 : Index := Scalar.indexCast v780
  let c48_525 : Index := 48#32
  ![v795.toNat, 48]
def k0_off258 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_521 : BitVec 32 := 10#32
  let v779 : BitVec 32 := Scalar.muli arg21 c10_i32_521
  let c9_i32 : BitVec 32 := 9#32
  let v780 : BitVec 32 := Scalar.addi v779 c9_i32
  let v799 : Index := Scalar.indexCast v780
  let c64_526 : Index := 64#32
  ![v799.toNat, 64]
def k0_off259 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_521 : BitVec 32 := 10#32
  let v779 : BitVec 32 := Scalar.muli arg21 c10_i32_521
  let c9_i32 : BitVec 32 := 9#32
  let v780 : BitVec 32 := Scalar.addi v779 c9_i32
  let v803 : Index := Scalar.indexCast v780
  let c80_527 : Index := 80#32
  ![v803.toNat, 80]
def k0_off260 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_521 : BitVec 32 := 10#32
  let v779 : BitVec 32 := Scalar.muli arg21 c10_i32_521
  let c9_i32 : BitVec 32 := 9#32
  let v780 : BitVec 32 := Scalar.addi v779 c9_i32
  let v807 : Index := Scalar.indexCast v780
  let c96_528 : Index := 96#32
  ![v807.toNat, 96]
def k0_off261 (k0_t4 : Fin k0_t4_loop.trips) : Fin 2 → Nat :=
  let c0_i32_361 : BitVec 32 := 0#32
  let c1_i32_363 : BitVec 32 := 1#32
  let arg21 : BitVec 32 := Scf.iv c0_i32_361 c1_i32_363 k0_t4
  let c10_i32_521 : BitVec 32 := 10#32
  let v779 : BitVec 32 := Scalar.muli arg21 c10_i32_521
  let c9_i32 : BitVec 32 := 9#32
  let v780 : BitVec 32 := Scalar.addi v779 c9_i32
  let v811 : Index := Scalar.indexCast v780
  let c112_529 : Index := 112#32
  ![v811.toNat, 112]
def k0_off262 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c2_i32_352 : BitVec 32 := 2#32
  let v353 : BitVec 32 := Scalar.addi v269 c2_i32_352
  let v365 : Index := Scalar.indexCast v353
  let c0_365 : Index := 0#32
  ![v365.toNat, 0]
def k0_off263 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c2_i32_352 : BitVec 32 := 2#32
  let v353 : BitVec 32 := Scalar.addi v269 c2_i32_352
  let v367 : Index := Scalar.indexCast v353
  let c16_366 : Index := 16#32
  ![v367.toNat, 16]
def k0_off264 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c2_i32_352 : BitVec 32 := 2#32
  let v353 : BitVec 32 := Scalar.addi v269 c2_i32_352
  let v369 : Index := Scalar.indexCast v353
  let c32_367 : Index := 32#32
  ![v369.toNat, 32]
def k0_off265 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c2_i32_352 : BitVec 32 := 2#32
  let v353 : BitVec 32 := Scalar.addi v269 c2_i32_352
  let v371 : Index := Scalar.indexCast v353
  let c48_368 : Index := 48#32
  ![v371.toNat, 48]
def k0_off266 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c2_i32_352 : BitVec 32 := 2#32
  let v353 : BitVec 32 := Scalar.addi v269 c2_i32_352
  let v373 : Index := Scalar.indexCast v353
  let c64_369 : Index := 64#32
  ![v373.toNat, 64]
def k0_off267 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c2_i32_352 : BitVec 32 := 2#32
  let v353 : BitVec 32 := Scalar.addi v269 c2_i32_352
  let v375 : Index := Scalar.indexCast v353
  let c80_370 : Index := 80#32
  ![v375.toNat, 80]
def k0_off268 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c2_i32_352 : BitVec 32 := 2#32
  let v353 : BitVec 32 := Scalar.addi v269 c2_i32_352
  let v377 : Index := Scalar.indexCast v353
  let c96_371 : Index := 96#32
  ![v377.toNat, 96]
def k0_off269 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c2_i32_352 : BitVec 32 := 2#32
  let v353 : BitVec 32 := Scalar.addi v269 c2_i32_352
  let v379 : Index := Scalar.indexCast v353
  let c112_372 : Index := 112#32
  ![v379.toNat, 112]
def k0_off270 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c3_i32_377 : BitVec 32 := 3#32
  let v384 : BitVec 32 := Scalar.addi v269 c3_i32_377
  let c5_i32_378 : BitVec 32 := 5#32
  let v385 : BitVec 32 := Scalar.addi v384 c5_i32_378
  let c1_i32_379 : BitVec 32 := 1#32
  let v386 : BitVec 32 := Scalar.subi v385 c1_i32_379
  let c0_i32_380 : BitVec 32 := 0#32
  ![v386.toNat, 0]
@[reducible] def k0_t5_loop : Scf.Loop 32 :=
  let c0_i32_392 : BitVec 32 := 0#32
  let c5_i32_393 : BitVec 32 := 5#32
  let v400 : BitVec 32 := Scalar.addi c0_i32_392 c5_i32_393
  let c1_i32_394 : BitVec 32 := 1#32
  ⟨c0_i32_392, v400, c1_i32_394⟩

def k0_chk31 (v391 : IVec S16 32) (v457 : IVec S16 32) : Prop :=
  (∀ a x, ((![v391, v457] : Fin 2 → IVec S16 32) a x).toNat < S128x64.size a)
instance k0_chk31.dec : ∀ (v391 : IVec S16 32) (v457 : IVec S16 32), Decidable (k0_chk31 v391 v457) := fun v391 v457 => decidable_of_iff' _ (Iff.of_eq (k0_chk31.eq_1 v391 v457))
theorem k0_idx31_inb : ∀ (v391 : IVec S16 32) (v457 : IVec S16 32) (k0_hw31 : k0_chk31 v391 v457), ∀ a x, ((![v391, v457] : Fin 2 → IVec S16 32) a x).toNat < S128x64.size a := fun v391 v457 k0_hw31 => k0_hw31
def k0_off271 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32 : BitVec 32 := 10#32
  let v455 : BitVec 32 := Scalar.muli arg21 c10_i32
  let c0_i32_435 : BitVec 32 := 0#32
  let v456 : BitVec 32 := Scalar.addi v455 c0_i32_435
  let v459 : Index := Scalar.indexCast v456
  let c0_436 : Index := 0#32
  ![v459.toNat, 0]
def k0_off272 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32 : BitVec 32 := 10#32
  let v455 : BitVec 32 := Scalar.muli arg21 c10_i32
  let c0_i32_435 : BitVec 32 := 0#32
  let v456 : BitVec 32 := Scalar.addi v455 c0_i32_435
  let v463 : Index := Scalar.indexCast v456
  let c16_437 : Index := 16#32
  ![v463.toNat, 16]
def k0_off273 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32 : BitVec 32 := 10#32
  let v455 : BitVec 32 := Scalar.muli arg21 c10_i32
  let c0_i32_435 : BitVec 32 := 0#32
  let v456 : BitVec 32 := Scalar.addi v455 c0_i32_435
  let v467 : Index := Scalar.indexCast v456
  let c32_438 : Index := 32#32
  ![v467.toNat, 32]
def k0_off274 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32 : BitVec 32 := 10#32
  let v455 : BitVec 32 := Scalar.muli arg21 c10_i32
  let c0_i32_435 : BitVec 32 := 0#32
  let v456 : BitVec 32 := Scalar.addi v455 c0_i32_435
  let v471 : Index := Scalar.indexCast v456
  let c48_439 : Index := 48#32
  ![v471.toNat, 48]
def k0_off275 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32 : BitVec 32 := 10#32
  let v455 : BitVec 32 := Scalar.muli arg21 c10_i32
  let c0_i32_435 : BitVec 32 := 0#32
  let v456 : BitVec 32 := Scalar.addi v455 c0_i32_435
  let v475 : Index := Scalar.indexCast v456
  let c64_440 : Index := 64#32
  ![v475.toNat, 64]
def k0_off276 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32 : BitVec 32 := 10#32
  let v455 : BitVec 32 := Scalar.muli arg21 c10_i32
  let c0_i32_435 : BitVec 32 := 0#32
  let v456 : BitVec 32 := Scalar.addi v455 c0_i32_435
  let v479 : Index := Scalar.indexCast v456
  let c80_441 : Index := 80#32
  ![v479.toNat, 80]
def k0_off277 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32 : BitVec 32 := 10#32
  let v455 : BitVec 32 := Scalar.muli arg21 c10_i32
  let c0_i32_435 : BitVec 32 := 0#32
  let v456 : BitVec 32 := Scalar.addi v455 c0_i32_435
  let v483 : Index := Scalar.indexCast v456
  let c96_442 : Index := 96#32
  ![v483.toNat, 96]
def k0_off278 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32 : BitVec 32 := 10#32
  let v455 : BitVec 32 := Scalar.muli arg21 c10_i32
  let c0_i32_435 : BitVec 32 := 0#32
  let v456 : BitVec 32 := Scalar.addi v455 c0_i32_435
  let v487 : Index := Scalar.indexCast v456
  let c112_443 : Index := 112#32
  ![v487.toNat, 112]

def k0_chk32 (v391 : IVec S16 32) (v493 : IVec S16 32) : Prop :=
  (∀ a x, ((![v391, v493] : Fin 2 → IVec S16 32) a x).toNat < S128x64.size a)
instance k0_chk32.dec : ∀ (v391 : IVec S16 32) (v493 : IVec S16 32), Decidable (k0_chk32 v391 v493) := fun v391 v493 => decidable_of_iff' _ (Iff.of_eq (k0_chk32.eq_1 v391 v493))
theorem k0_idx32_inb : ∀ (v391 : IVec S16 32) (v493 : IVec S16 32) (k0_hw32 : k0_chk32 v391 v493), ∀ a x, ((![v391, v493] : Fin 2 → IVec S16 32) a x).toNat < S128x64.size a := fun v391 v493 k0_hw32 => k0_hw32
def k0_off279 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_444 : BitVec 32 := 10#32
  let v491 : BitVec 32 := Scalar.muli arg21 c10_i32_444
  let c1_i32_445 : BitVec 32 := 1#32
  let v492 : BitVec 32 := Scalar.addi v491 c1_i32_445
  let v495 : Index := Scalar.indexCast v492
  let c0_446 : Index := 0#32
  ![v495.toNat, 0]
def k0_off280 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_444 : BitVec 32 := 10#32
  let v491 : BitVec 32 := Scalar.muli arg21 c10_i32_444
  let c1_i32_445 : BitVec 32 := 1#32
  let v492 : BitVec 32 := Scalar.addi v491 c1_i32_445
  let v499 : Index := Scalar.indexCast v492
  let c16_447 : Index := 16#32
  ![v499.toNat, 16]
def k0_off281 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_444 : BitVec 32 := 10#32
  let v491 : BitVec 32 := Scalar.muli arg21 c10_i32_444
  let c1_i32_445 : BitVec 32 := 1#32
  let v492 : BitVec 32 := Scalar.addi v491 c1_i32_445
  let v503 : Index := Scalar.indexCast v492
  let c32_448 : Index := 32#32
  ![v503.toNat, 32]
def k0_off282 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_444 : BitVec 32 := 10#32
  let v491 : BitVec 32 := Scalar.muli arg21 c10_i32_444
  let c1_i32_445 : BitVec 32 := 1#32
  let v492 : BitVec 32 := Scalar.addi v491 c1_i32_445
  let v507 : Index := Scalar.indexCast v492
  let c48_449 : Index := 48#32
  ![v507.toNat, 48]
def k0_off283 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_444 : BitVec 32 := 10#32
  let v491 : BitVec 32 := Scalar.muli arg21 c10_i32_444
  let c1_i32_445 : BitVec 32 := 1#32
  let v492 : BitVec 32 := Scalar.addi v491 c1_i32_445
  let v511 : Index := Scalar.indexCast v492
  let c64_450 : Index := 64#32
  ![v511.toNat, 64]
def k0_off284 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_444 : BitVec 32 := 10#32
  let v491 : BitVec 32 := Scalar.muli arg21 c10_i32_444
  let c1_i32_445 : BitVec 32 := 1#32
  let v492 : BitVec 32 := Scalar.addi v491 c1_i32_445
  let v515 : Index := Scalar.indexCast v492
  let c80_451 : Index := 80#32
  ![v515.toNat, 80]
def k0_off285 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_444 : BitVec 32 := 10#32
  let v491 : BitVec 32 := Scalar.muli arg21 c10_i32_444
  let c1_i32_445 : BitVec 32 := 1#32
  let v492 : BitVec 32 := Scalar.addi v491 c1_i32_445
  let v519 : Index := Scalar.indexCast v492
  let c96_452 : Index := 96#32
  ![v519.toNat, 96]
def k0_off286 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_444 : BitVec 32 := 10#32
  let v491 : BitVec 32 := Scalar.muli arg21 c10_i32_444
  let c1_i32_445 : BitVec 32 := 1#32
  let v492 : BitVec 32 := Scalar.addi v491 c1_i32_445
  let v523 : Index := Scalar.indexCast v492
  let c112_453 : Index := 112#32
  ![v523.toNat, 112]

def k0_chk33 (v391 : IVec S16 32) (v529 : IVec S16 32) : Prop :=
  (∀ a x, ((![v391, v529] : Fin 2 → IVec S16 32) a x).toNat < S128x64.size a)
instance k0_chk33.dec : ∀ (v391 : IVec S16 32) (v529 : IVec S16 32), Decidable (k0_chk33 v391 v529) := fun v391 v529 => decidable_of_iff' _ (Iff.of_eq (k0_chk33.eq_1 v391 v529))
theorem k0_idx33_inb : ∀ (v391 : IVec S16 32) (v529 : IVec S16 32) (k0_hw33 : k0_chk33 v391 v529), ∀ a x, ((![v391, v529] : Fin 2 → IVec S16 32) a x).toNat < S128x64.size a := fun v391 v529 k0_hw33 => k0_hw33
def k0_off287 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_454 : BitVec 32 := 10#32
  let v527 : BitVec 32 := Scalar.muli arg21 c10_i32_454
  let c2_i32_455 : BitVec 32 := 2#32
  let v528 : BitVec 32 := Scalar.addi v527 c2_i32_455
  let v531 : Index := Scalar.indexCast v528
  let c0_456 : Index := 0#32
  ![v531.toNat, 0]
def k0_off288 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_454 : BitVec 32 := 10#32
  let v527 : BitVec 32 := Scalar.muli arg21 c10_i32_454
  let c2_i32_455 : BitVec 32 := 2#32
  let v528 : BitVec 32 := Scalar.addi v527 c2_i32_455
  let v535 : Index := Scalar.indexCast v528
  let c16_457 : Index := 16#32
  ![v535.toNat, 16]
def k0_off289 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_454 : BitVec 32 := 10#32
  let v527 : BitVec 32 := Scalar.muli arg21 c10_i32_454
  let c2_i32_455 : BitVec 32 := 2#32
  let v528 : BitVec 32 := Scalar.addi v527 c2_i32_455
  let v539 : Index := Scalar.indexCast v528
  let c32_458 : Index := 32#32
  ![v539.toNat, 32]
def k0_off290 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_454 : BitVec 32 := 10#32
  let v527 : BitVec 32 := Scalar.muli arg21 c10_i32_454
  let c2_i32_455 : BitVec 32 := 2#32
  let v528 : BitVec 32 := Scalar.addi v527 c2_i32_455
  let v543 : Index := Scalar.indexCast v528
  let c48_459 : Index := 48#32
  ![v543.toNat, 48]
def k0_off291 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_454 : BitVec 32 := 10#32
  let v527 : BitVec 32 := Scalar.muli arg21 c10_i32_454
  let c2_i32_455 : BitVec 32 := 2#32
  let v528 : BitVec 32 := Scalar.addi v527 c2_i32_455
  let v547 : Index := Scalar.indexCast v528
  let c64_460 : Index := 64#32
  ![v547.toNat, 64]
def k0_off292 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_454 : BitVec 32 := 10#32
  let v527 : BitVec 32 := Scalar.muli arg21 c10_i32_454
  let c2_i32_455 : BitVec 32 := 2#32
  let v528 : BitVec 32 := Scalar.addi v527 c2_i32_455
  let v551 : Index := Scalar.indexCast v528
  let c80_461 : Index := 80#32
  ![v551.toNat, 80]
def k0_off293 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_454 : BitVec 32 := 10#32
  let v527 : BitVec 32 := Scalar.muli arg21 c10_i32_454
  let c2_i32_455 : BitVec 32 := 2#32
  let v528 : BitVec 32 := Scalar.addi v527 c2_i32_455
  let v555 : Index := Scalar.indexCast v528
  let c96_462 : Index := 96#32
  ![v555.toNat, 96]
def k0_off294 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_454 : BitVec 32 := 10#32
  let v527 : BitVec 32 := Scalar.muli arg21 c10_i32_454
  let c2_i32_455 : BitVec 32 := 2#32
  let v528 : BitVec 32 := Scalar.addi v527 c2_i32_455
  let v559 : Index := Scalar.indexCast v528
  let c112_463 : Index := 112#32
  ![v559.toNat, 112]

def k0_chk34 (v391 : IVec S16 32) (v565 : IVec S16 32) : Prop :=
  (∀ a x, ((![v391, v565] : Fin 2 → IVec S16 32) a x).toNat < S128x64.size a)
instance k0_chk34.dec : ∀ (v391 : IVec S16 32) (v565 : IVec S16 32), Decidable (k0_chk34 v391 v565) := fun v391 v565 => decidable_of_iff' _ (Iff.of_eq (k0_chk34.eq_1 v391 v565))
theorem k0_idx34_inb : ∀ (v391 : IVec S16 32) (v565 : IVec S16 32) (k0_hw34 : k0_chk34 v391 v565), ∀ a x, ((![v391, v565] : Fin 2 → IVec S16 32) a x).toNat < S128x64.size a := fun v391 v565 k0_hw34 => k0_hw34
def k0_off295 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_464 : BitVec 32 := 10#32
  let v563 : BitVec 32 := Scalar.muli arg21 c10_i32_464
  let c3_i32_465 : BitVec 32 := 3#32
  let v564 : BitVec 32 := Scalar.addi v563 c3_i32_465
  let v567 : Index := Scalar.indexCast v564
  let c0_466 : Index := 0#32
  ![v567.toNat, 0]
def k0_off296 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_464 : BitVec 32 := 10#32
  let v563 : BitVec 32 := Scalar.muli arg21 c10_i32_464
  let c3_i32_465 : BitVec 32 := 3#32
  let v564 : BitVec 32 := Scalar.addi v563 c3_i32_465
  let v571 : Index := Scalar.indexCast v564
  let c16_467 : Index := 16#32
  ![v571.toNat, 16]
def k0_off297 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_464 : BitVec 32 := 10#32
  let v563 : BitVec 32 := Scalar.muli arg21 c10_i32_464
  let c3_i32_465 : BitVec 32 := 3#32
  let v564 : BitVec 32 := Scalar.addi v563 c3_i32_465
  let v575 : Index := Scalar.indexCast v564
  let c32_468 : Index := 32#32
  ![v575.toNat, 32]
def k0_off298 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_464 : BitVec 32 := 10#32
  let v563 : BitVec 32 := Scalar.muli arg21 c10_i32_464
  let c3_i32_465 : BitVec 32 := 3#32
  let v564 : BitVec 32 := Scalar.addi v563 c3_i32_465
  let v579 : Index := Scalar.indexCast v564
  let c48_469 : Index := 48#32
  ![v579.toNat, 48]
def k0_off299 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_464 : BitVec 32 := 10#32
  let v563 : BitVec 32 := Scalar.muli arg21 c10_i32_464
  let c3_i32_465 : BitVec 32 := 3#32
  let v564 : BitVec 32 := Scalar.addi v563 c3_i32_465
  let v583 : Index := Scalar.indexCast v564
  let c64_470 : Index := 64#32
  ![v583.toNat, 64]
def k0_off300 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_464 : BitVec 32 := 10#32
  let v563 : BitVec 32 := Scalar.muli arg21 c10_i32_464
  let c3_i32_465 : BitVec 32 := 3#32
  let v564 : BitVec 32 := Scalar.addi v563 c3_i32_465
  let v587 : Index := Scalar.indexCast v564
  let c80_471 : Index := 80#32
  ![v587.toNat, 80]
def k0_off301 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_464 : BitVec 32 := 10#32
  let v563 : BitVec 32 := Scalar.muli arg21 c10_i32_464
  let c3_i32_465 : BitVec 32 := 3#32
  let v564 : BitVec 32 := Scalar.addi v563 c3_i32_465
  let v591 : Index := Scalar.indexCast v564
  let c96_472 : Index := 96#32
  ![v591.toNat, 96]
def k0_off302 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_464 : BitVec 32 := 10#32
  let v563 : BitVec 32 := Scalar.muli arg21 c10_i32_464
  let c3_i32_465 : BitVec 32 := 3#32
  let v564 : BitVec 32 := Scalar.addi v563 c3_i32_465
  let v595 : Index := Scalar.indexCast v564
  let c112_473 : Index := 112#32
  ![v595.toNat, 112]

def k0_chk35 (v391 : IVec S16 32) (v601 : IVec S16 32) : Prop :=
  (∀ a x, ((![v391, v601] : Fin 2 → IVec S16 32) a x).toNat < S128x64.size a)
instance k0_chk35.dec : ∀ (v391 : IVec S16 32) (v601 : IVec S16 32), Decidable (k0_chk35 v391 v601) := fun v391 v601 => decidable_of_iff' _ (Iff.of_eq (k0_chk35.eq_1 v391 v601))
theorem k0_idx35_inb : ∀ (v391 : IVec S16 32) (v601 : IVec S16 32) (k0_hw35 : k0_chk35 v391 v601), ∀ a x, ((![v391, v601] : Fin 2 → IVec S16 32) a x).toNat < S128x64.size a := fun v391 v601 k0_hw35 => k0_hw35
def k0_off303 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_474 : BitVec 32 := 10#32
  let v599 : BitVec 32 := Scalar.muli arg21 c10_i32_474
  let c4_i32_475 : BitVec 32 := 4#32
  let v600 : BitVec 32 := Scalar.addi v599 c4_i32_475
  let v603 : Index := Scalar.indexCast v600
  let c0_476 : Index := 0#32
  ![v603.toNat, 0]
def k0_off304 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_474 : BitVec 32 := 10#32
  let v599 : BitVec 32 := Scalar.muli arg21 c10_i32_474
  let c4_i32_475 : BitVec 32 := 4#32
  let v600 : BitVec 32 := Scalar.addi v599 c4_i32_475
  let v607 : Index := Scalar.indexCast v600
  let c16_477 : Index := 16#32
  ![v607.toNat, 16]
def k0_off305 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_474 : BitVec 32 := 10#32
  let v599 : BitVec 32 := Scalar.muli arg21 c10_i32_474
  let c4_i32_475 : BitVec 32 := 4#32
  let v600 : BitVec 32 := Scalar.addi v599 c4_i32_475
  let v611 : Index := Scalar.indexCast v600
  let c32_478 : Index := 32#32
  ![v611.toNat, 32]
def k0_off306 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_474 : BitVec 32 := 10#32
  let v599 : BitVec 32 := Scalar.muli arg21 c10_i32_474
  let c4_i32_475 : BitVec 32 := 4#32
  let v600 : BitVec 32 := Scalar.addi v599 c4_i32_475
  let v615 : Index := Scalar.indexCast v600
  let c48_479 : Index := 48#32
  ![v615.toNat, 48]
def k0_off307 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_474 : BitVec 32 := 10#32
  let v599 : BitVec 32 := Scalar.muli arg21 c10_i32_474
  let c4_i32_475 : BitVec 32 := 4#32
  let v600 : BitVec 32 := Scalar.addi v599 c4_i32_475
  let v619 : Index := Scalar.indexCast v600
  let c64_480 : Index := 64#32
  ![v619.toNat, 64]
def k0_off308 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_474 : BitVec 32 := 10#32
  let v599 : BitVec 32 := Scalar.muli arg21 c10_i32_474
  let c4_i32_475 : BitVec 32 := 4#32
  let v600 : BitVec 32 := Scalar.addi v599 c4_i32_475
  let v623 : Index := Scalar.indexCast v600
  let c80_481 : Index := 80#32
  ![v623.toNat, 80]
def k0_off309 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_474 : BitVec 32 := 10#32
  let v599 : BitVec 32 := Scalar.muli arg21 c10_i32_474
  let c4_i32_475 : BitVec 32 := 4#32
  let v600 : BitVec 32 := Scalar.addi v599 c4_i32_475
  let v627 : Index := Scalar.indexCast v600
  let c96_482 : Index := 96#32
  ![v627.toNat, 96]
def k0_off310 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_474 : BitVec 32 := 10#32
  let v599 : BitVec 32 := Scalar.muli arg21 c10_i32_474
  let c4_i32_475 : BitVec 32 := 4#32
  let v600 : BitVec 32 := Scalar.addi v599 c4_i32_475
  let v631 : Index := Scalar.indexCast v600
  let c112_483 : Index := 112#32
  ![v631.toNat, 112]

def k0_chk36 (v391 : IVec S16 32) (v637 : IVec S16 32) : Prop :=
  (∀ a x, ((![v391, v637] : Fin 2 → IVec S16 32) a x).toNat < S128x64.size a)
instance k0_chk36.dec : ∀ (v391 : IVec S16 32) (v637 : IVec S16 32), Decidable (k0_chk36 v391 v637) := fun v391 v637 => decidable_of_iff' _ (Iff.of_eq (k0_chk36.eq_1 v391 v637))
theorem k0_idx36_inb : ∀ (v391 : IVec S16 32) (v637 : IVec S16 32) (k0_hw36 : k0_chk36 v391 v637), ∀ a x, ((![v391, v637] : Fin 2 → IVec S16 32) a x).toNat < S128x64.size a := fun v391 v637 k0_hw36 => k0_hw36
def k0_off311 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_484 : BitVec 32 := 10#32
  let v635 : BitVec 32 := Scalar.muli arg21 c10_i32_484
  let c5_i32_485 : BitVec 32 := 5#32
  let v636 : BitVec 32 := Scalar.addi v635 c5_i32_485
  let v639 : Index := Scalar.indexCast v636
  let c0_486 : Index := 0#32
  ![v639.toNat, 0]
def k0_off312 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_484 : BitVec 32 := 10#32
  let v635 : BitVec 32 := Scalar.muli arg21 c10_i32_484
  let c5_i32_485 : BitVec 32 := 5#32
  let v636 : BitVec 32 := Scalar.addi v635 c5_i32_485
  let v643 : Index := Scalar.indexCast v636
  let c16_487 : Index := 16#32
  ![v643.toNat, 16]
def k0_off313 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_484 : BitVec 32 := 10#32
  let v635 : BitVec 32 := Scalar.muli arg21 c10_i32_484
  let c5_i32_485 : BitVec 32 := 5#32
  let v636 : BitVec 32 := Scalar.addi v635 c5_i32_485
  let v647 : Index := Scalar.indexCast v636
  let c32_488 : Index := 32#32
  ![v647.toNat, 32]
def k0_off314 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_484 : BitVec 32 := 10#32
  let v635 : BitVec 32 := Scalar.muli arg21 c10_i32_484
  let c5_i32_485 : BitVec 32 := 5#32
  let v636 : BitVec 32 := Scalar.addi v635 c5_i32_485
  let v651 : Index := Scalar.indexCast v636
  let c48_489 : Index := 48#32
  ![v651.toNat, 48]
def k0_off315 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_484 : BitVec 32 := 10#32
  let v635 : BitVec 32 := Scalar.muli arg21 c10_i32_484
  let c5_i32_485 : BitVec 32 := 5#32
  let v636 : BitVec 32 := Scalar.addi v635 c5_i32_485
  let v655 : Index := Scalar.indexCast v636
  let c64_490 : Index := 64#32
  ![v655.toNat, 64]
def k0_off316 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_484 : BitVec 32 := 10#32
  let v635 : BitVec 32 := Scalar.muli arg21 c10_i32_484
  let c5_i32_485 : BitVec 32 := 5#32
  let v636 : BitVec 32 := Scalar.addi v635 c5_i32_485
  let v659 : Index := Scalar.indexCast v636
  let c80_491 : Index := 80#32
  ![v659.toNat, 80]
def k0_off317 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_484 : BitVec 32 := 10#32
  let v635 : BitVec 32 := Scalar.muli arg21 c10_i32_484
  let c5_i32_485 : BitVec 32 := 5#32
  let v636 : BitVec 32 := Scalar.addi v635 c5_i32_485
  let v663 : Index := Scalar.indexCast v636
  let c96_492 : Index := 96#32
  ![v663.toNat, 96]
def k0_off318 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_484 : BitVec 32 := 10#32
  let v635 : BitVec 32 := Scalar.muli arg21 c10_i32_484
  let c5_i32_485 : BitVec 32 := 5#32
  let v636 : BitVec 32 := Scalar.addi v635 c5_i32_485
  let v667 : Index := Scalar.indexCast v636
  let c112_493 : Index := 112#32
  ![v667.toNat, 112]

def k0_chk37 (v391 : IVec S16 32) (v673 : IVec S16 32) : Prop :=
  (∀ a x, ((![v391, v673] : Fin 2 → IVec S16 32) a x).toNat < S128x64.size a)
instance k0_chk37.dec : ∀ (v391 : IVec S16 32) (v673 : IVec S16 32), Decidable (k0_chk37 v391 v673) := fun v391 v673 => decidable_of_iff' _ (Iff.of_eq (k0_chk37.eq_1 v391 v673))
theorem k0_idx37_inb : ∀ (v391 : IVec S16 32) (v673 : IVec S16 32) (k0_hw37 : k0_chk37 v391 v673), ∀ a x, ((![v391, v673] : Fin 2 → IVec S16 32) a x).toNat < S128x64.size a := fun v391 v673 k0_hw37 => k0_hw37
def k0_off319 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_494 : BitVec 32 := 10#32
  let v671 : BitVec 32 := Scalar.muli arg21 c10_i32_494
  let c6_i32 : BitVec 32 := 6#32
  let v672 : BitVec 32 := Scalar.addi v671 c6_i32
  let v675 : Index := Scalar.indexCast v672
  let c0_495 : Index := 0#32
  ![v675.toNat, 0]
def k0_off320 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_494 : BitVec 32 := 10#32
  let v671 : BitVec 32 := Scalar.muli arg21 c10_i32_494
  let c6_i32 : BitVec 32 := 6#32
  let v672 : BitVec 32 := Scalar.addi v671 c6_i32
  let v679 : Index := Scalar.indexCast v672
  let c16_496 : Index := 16#32
  ![v679.toNat, 16]
def k0_off321 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_494 : BitVec 32 := 10#32
  let v671 : BitVec 32 := Scalar.muli arg21 c10_i32_494
  let c6_i32 : BitVec 32 := 6#32
  let v672 : BitVec 32 := Scalar.addi v671 c6_i32
  let v683 : Index := Scalar.indexCast v672
  let c32_497 : Index := 32#32
  ![v683.toNat, 32]
def k0_off322 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_494 : BitVec 32 := 10#32
  let v671 : BitVec 32 := Scalar.muli arg21 c10_i32_494
  let c6_i32 : BitVec 32 := 6#32
  let v672 : BitVec 32 := Scalar.addi v671 c6_i32
  let v687 : Index := Scalar.indexCast v672
  let c48_498 : Index := 48#32
  ![v687.toNat, 48]
def k0_off323 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_494 : BitVec 32 := 10#32
  let v671 : BitVec 32 := Scalar.muli arg21 c10_i32_494
  let c6_i32 : BitVec 32 := 6#32
  let v672 : BitVec 32 := Scalar.addi v671 c6_i32
  let v691 : Index := Scalar.indexCast v672
  let c64_499 : Index := 64#32
  ![v691.toNat, 64]
def k0_off324 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_494 : BitVec 32 := 10#32
  let v671 : BitVec 32 := Scalar.muli arg21 c10_i32_494
  let c6_i32 : BitVec 32 := 6#32
  let v672 : BitVec 32 := Scalar.addi v671 c6_i32
  let v695 : Index := Scalar.indexCast v672
  let c80_500 : Index := 80#32
  ![v695.toNat, 80]
def k0_off325 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_494 : BitVec 32 := 10#32
  let v671 : BitVec 32 := Scalar.muli arg21 c10_i32_494
  let c6_i32 : BitVec 32 := 6#32
  let v672 : BitVec 32 := Scalar.addi v671 c6_i32
  let v699 : Index := Scalar.indexCast v672
  let c96_501 : Index := 96#32
  ![v699.toNat, 96]
def k0_off326 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_494 : BitVec 32 := 10#32
  let v671 : BitVec 32 := Scalar.muli arg21 c10_i32_494
  let c6_i32 : BitVec 32 := 6#32
  let v672 : BitVec 32 := Scalar.addi v671 c6_i32
  let v703 : Index := Scalar.indexCast v672
  let c112_502 : Index := 112#32
  ![v703.toNat, 112]

def k0_chk38 (v391 : IVec S16 32) (v709 : IVec S16 32) : Prop :=
  (∀ a x, ((![v391, v709] : Fin 2 → IVec S16 32) a x).toNat < S128x64.size a)
instance k0_chk38.dec : ∀ (v391 : IVec S16 32) (v709 : IVec S16 32), Decidable (k0_chk38 v391 v709) := fun v391 v709 => decidable_of_iff' _ (Iff.of_eq (k0_chk38.eq_1 v391 v709))
theorem k0_idx38_inb : ∀ (v391 : IVec S16 32) (v709 : IVec S16 32) (k0_hw38 : k0_chk38 v391 v709), ∀ a x, ((![v391, v709] : Fin 2 → IVec S16 32) a x).toNat < S128x64.size a := fun v391 v709 k0_hw38 => k0_hw38
def k0_off327 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_503 : BitVec 32 := 10#32
  let v707 : BitVec 32 := Scalar.muli arg21 c10_i32_503
  let c7_i32 : BitVec 32 := 7#32
  let v708 : BitVec 32 := Scalar.addi v707 c7_i32
  let v711 : Index := Scalar.indexCast v708
  let c0_504 : Index := 0#32
  ![v711.toNat, 0]
def k0_off328 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_503 : BitVec 32 := 10#32
  let v707 : BitVec 32 := Scalar.muli arg21 c10_i32_503
  let c7_i32 : BitVec 32 := 7#32
  let v708 : BitVec 32 := Scalar.addi v707 c7_i32
  let v715 : Index := Scalar.indexCast v708
  let c16_505 : Index := 16#32
  ![v715.toNat, 16]
def k0_off329 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_503 : BitVec 32 := 10#32
  let v707 : BitVec 32 := Scalar.muli arg21 c10_i32_503
  let c7_i32 : BitVec 32 := 7#32
  let v708 : BitVec 32 := Scalar.addi v707 c7_i32
  let v719 : Index := Scalar.indexCast v708
  let c32_506 : Index := 32#32
  ![v719.toNat, 32]
def k0_off330 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_503 : BitVec 32 := 10#32
  let v707 : BitVec 32 := Scalar.muli arg21 c10_i32_503
  let c7_i32 : BitVec 32 := 7#32
  let v708 : BitVec 32 := Scalar.addi v707 c7_i32
  let v723 : Index := Scalar.indexCast v708
  let c48_507 : Index := 48#32
  ![v723.toNat, 48]
def k0_off331 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_503 : BitVec 32 := 10#32
  let v707 : BitVec 32 := Scalar.muli arg21 c10_i32_503
  let c7_i32 : BitVec 32 := 7#32
  let v708 : BitVec 32 := Scalar.addi v707 c7_i32
  let v727 : Index := Scalar.indexCast v708
  let c64_508 : Index := 64#32
  ![v727.toNat, 64]
def k0_off332 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_503 : BitVec 32 := 10#32
  let v707 : BitVec 32 := Scalar.muli arg21 c10_i32_503
  let c7_i32 : BitVec 32 := 7#32
  let v708 : BitVec 32 := Scalar.addi v707 c7_i32
  let v731 : Index := Scalar.indexCast v708
  let c80_509 : Index := 80#32
  ![v731.toNat, 80]
def k0_off333 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_503 : BitVec 32 := 10#32
  let v707 : BitVec 32 := Scalar.muli arg21 c10_i32_503
  let c7_i32 : BitVec 32 := 7#32
  let v708 : BitVec 32 := Scalar.addi v707 c7_i32
  let v735 : Index := Scalar.indexCast v708
  let c96_510 : Index := 96#32
  ![v735.toNat, 96]
def k0_off334 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_503 : BitVec 32 := 10#32
  let v707 : BitVec 32 := Scalar.muli arg21 c10_i32_503
  let c7_i32 : BitVec 32 := 7#32
  let v708 : BitVec 32 := Scalar.addi v707 c7_i32
  let v739 : Index := Scalar.indexCast v708
  let c112_511 : Index := 112#32
  ![v739.toNat, 112]

def k0_chk39 (v391 : IVec S16 32) (v745 : IVec S16 32) : Prop :=
  (∀ a x, ((![v391, v745] : Fin 2 → IVec S16 32) a x).toNat < S128x64.size a)
instance k0_chk39.dec : ∀ (v391 : IVec S16 32) (v745 : IVec S16 32), Decidable (k0_chk39 v391 v745) := fun v391 v745 => decidable_of_iff' _ (Iff.of_eq (k0_chk39.eq_1 v391 v745))
theorem k0_idx39_inb : ∀ (v391 : IVec S16 32) (v745 : IVec S16 32) (k0_hw39 : k0_chk39 v391 v745), ∀ a x, ((![v391, v745] : Fin 2 → IVec S16 32) a x).toNat < S128x64.size a := fun v391 v745 k0_hw39 => k0_hw39
def k0_off335 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_512 : BitVec 32 := 10#32
  let v743 : BitVec 32 := Scalar.muli arg21 c10_i32_512
  let c8_i32 : BitVec 32 := 8#32
  let v744 : BitVec 32 := Scalar.addi v743 c8_i32
  let v747 : Index := Scalar.indexCast v744
  let c0_513 : Index := 0#32
  ![v747.toNat, 0]
def k0_off336 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_512 : BitVec 32 := 10#32
  let v743 : BitVec 32 := Scalar.muli arg21 c10_i32_512
  let c8_i32 : BitVec 32 := 8#32
  let v744 : BitVec 32 := Scalar.addi v743 c8_i32
  let v751 : Index := Scalar.indexCast v744
  let c16_514 : Index := 16#32
  ![v751.toNat, 16]
def k0_off337 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_512 : BitVec 32 := 10#32
  let v743 : BitVec 32 := Scalar.muli arg21 c10_i32_512
  let c8_i32 : BitVec 32 := 8#32
  let v744 : BitVec 32 := Scalar.addi v743 c8_i32
  let v755 : Index := Scalar.indexCast v744
  let c32_515 : Index := 32#32
  ![v755.toNat, 32]
def k0_off338 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_512 : BitVec 32 := 10#32
  let v743 : BitVec 32 := Scalar.muli arg21 c10_i32_512
  let c8_i32 : BitVec 32 := 8#32
  let v744 : BitVec 32 := Scalar.addi v743 c8_i32
  let v759 : Index := Scalar.indexCast v744
  let c48_516 : Index := 48#32
  ![v759.toNat, 48]
def k0_off339 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_512 : BitVec 32 := 10#32
  let v743 : BitVec 32 := Scalar.muli arg21 c10_i32_512
  let c8_i32 : BitVec 32 := 8#32
  let v744 : BitVec 32 := Scalar.addi v743 c8_i32
  let v763 : Index := Scalar.indexCast v744
  let c64_517 : Index := 64#32
  ![v763.toNat, 64]
def k0_off340 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_512 : BitVec 32 := 10#32
  let v743 : BitVec 32 := Scalar.muli arg21 c10_i32_512
  let c8_i32 : BitVec 32 := 8#32
  let v744 : BitVec 32 := Scalar.addi v743 c8_i32
  let v767 : Index := Scalar.indexCast v744
  let c80_518 : Index := 80#32
  ![v767.toNat, 80]
def k0_off341 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_512 : BitVec 32 := 10#32
  let v743 : BitVec 32 := Scalar.muli arg21 c10_i32_512
  let c8_i32 : BitVec 32 := 8#32
  let v744 : BitVec 32 := Scalar.addi v743 c8_i32
  let v771 : Index := Scalar.indexCast v744
  let c96_519 : Index := 96#32
  ![v771.toNat, 96]
def k0_off342 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_512 : BitVec 32 := 10#32
  let v743 : BitVec 32 := Scalar.muli arg21 c10_i32_512
  let c8_i32 : BitVec 32 := 8#32
  let v744 : BitVec 32 := Scalar.addi v743 c8_i32
  let v775 : Index := Scalar.indexCast v744
  let c112_520 : Index := 112#32
  ![v775.toNat, 112]

def k0_chk40 (v391 : IVec S16 32) (v781 : IVec S16 32) : Prop :=
  (∀ a x, ((![v391, v781] : Fin 2 → IVec S16 32) a x).toNat < S128x64.size a)
instance k0_chk40.dec : ∀ (v391 : IVec S16 32) (v781 : IVec S16 32), Decidable (k0_chk40 v391 v781) := fun v391 v781 => decidable_of_iff' _ (Iff.of_eq (k0_chk40.eq_1 v391 v781))
theorem k0_idx40_inb : ∀ (v391 : IVec S16 32) (v781 : IVec S16 32) (k0_hw40 : k0_chk40 v391 v781), ∀ a x, ((![v391, v781] : Fin 2 → IVec S16 32) a x).toNat < S128x64.size a := fun v391 v781 k0_hw40 => k0_hw40
def k0_off343 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_521 : BitVec 32 := 10#32
  let v779 : BitVec 32 := Scalar.muli arg21 c10_i32_521
  let c9_i32 : BitVec 32 := 9#32
  let v780 : BitVec 32 := Scalar.addi v779 c9_i32
  let v783 : Index := Scalar.indexCast v780
  let c0_522 : Index := 0#32
  ![v783.toNat, 0]
def k0_off344 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_521 : BitVec 32 := 10#32
  let v779 : BitVec 32 := Scalar.muli arg21 c10_i32_521
  let c9_i32 : BitVec 32 := 9#32
  let v780 : BitVec 32 := Scalar.addi v779 c9_i32
  let v787 : Index := Scalar.indexCast v780
  let c16_523 : Index := 16#32
  ![v787.toNat, 16]
def k0_off345 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_521 : BitVec 32 := 10#32
  let v779 : BitVec 32 := Scalar.muli arg21 c10_i32_521
  let c9_i32 : BitVec 32 := 9#32
  let v780 : BitVec 32 := Scalar.addi v779 c9_i32
  let v791 : Index := Scalar.indexCast v780
  let c32_524 : Index := 32#32
  ![v791.toNat, 32]
def k0_off346 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_521 : BitVec 32 := 10#32
  let v779 : BitVec 32 := Scalar.muli arg21 c10_i32_521
  let c9_i32 : BitVec 32 := 9#32
  let v780 : BitVec 32 := Scalar.addi v779 c9_i32
  let v795 : Index := Scalar.indexCast v780
  let c48_525 : Index := 48#32
  ![v795.toNat, 48]
def k0_off347 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_521 : BitVec 32 := 10#32
  let v779 : BitVec 32 := Scalar.muli arg21 c10_i32_521
  let c9_i32 : BitVec 32 := 9#32
  let v780 : BitVec 32 := Scalar.addi v779 c9_i32
  let v799 : Index := Scalar.indexCast v780
  let c64_526 : Index := 64#32
  ![v799.toNat, 64]
def k0_off348 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_521 : BitVec 32 := 10#32
  let v779 : BitVec 32 := Scalar.muli arg21 c10_i32_521
  let c9_i32 : BitVec 32 := 9#32
  let v780 : BitVec 32 := Scalar.addi v779 c9_i32
  let v803 : Index := Scalar.indexCast v780
  let c80_527 : Index := 80#32
  ![v803.toNat, 80]
def k0_off349 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_521 : BitVec 32 := 10#32
  let v779 : BitVec 32 := Scalar.muli arg21 c10_i32_521
  let c9_i32 : BitVec 32 := 9#32
  let v780 : BitVec 32 := Scalar.addi v779 c9_i32
  let v807 : Index := Scalar.indexCast v780
  let c96_528 : Index := 96#32
  ![v807.toNat, 96]
def k0_off350 (k0_t5 : Fin k0_t5_loop.trips) : Fin 2 → Nat :=
  let c0_i32_392 : BitVec 32 := 0#32
  let c1_i32_394 : BitVec 32 := 1#32
  let arg21 : BitVec 32 := Scf.iv c0_i32_392 c1_i32_394 k0_t5
  let c10_i32_521 : BitVec 32 := 10#32
  let v779 : BitVec 32 := Scalar.muli arg21 c10_i32_521
  let c9_i32 : BitVec 32 := 9#32
  let v780 : BitVec 32 := Scalar.addi v779 c9_i32
  let v811 : Index := Scalar.indexCast v780
  let c112_529 : Index := 112#32
  ![v811.toNat, 112]
def k0_off351 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c3_i32_383 : BitVec 32 := 3#32
  let v390 : BitVec 32 := Scalar.addi v269 c3_i32_383
  let v402 : Index := Scalar.indexCast v390
  let c0_396 : Index := 0#32
  ![v402.toNat, 0]
def k0_off352 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c3_i32_383 : BitVec 32 := 3#32
  let v390 : BitVec 32 := Scalar.addi v269 c3_i32_383
  let v404 : Index := Scalar.indexCast v390
  let c16_397 : Index := 16#32
  ![v404.toNat, 16]
def k0_off353 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c3_i32_383 : BitVec 32 := 3#32
  let v390 : BitVec 32 := Scalar.addi v269 c3_i32_383
  let v406 : Index := Scalar.indexCast v390
  let c32_398 : Index := 32#32
  ![v406.toNat, 32]
def k0_off354 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c3_i32_383 : BitVec 32 := 3#32
  let v390 : BitVec 32 := Scalar.addi v269 c3_i32_383
  let v408 : Index := Scalar.indexCast v390
  let c48_399 : Index := 48#32
  ![v408.toNat, 48]
def k0_off355 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c3_i32_383 : BitVec 32 := 3#32
  let v390 : BitVec 32 := Scalar.addi v269 c3_i32_383
  let v410 : Index := Scalar.indexCast v390
  let c64_400 : Index := 64#32
  ![v410.toNat, 64]
def k0_off356 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c3_i32_383 : BitVec 32 := 3#32
  let v390 : BitVec 32 := Scalar.addi v269 c3_i32_383
  let v412 : Index := Scalar.indexCast v390
  let c80_401 : Index := 80#32
  ![v412.toNat, 80]
def k0_off357 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c3_i32_383 : BitVec 32 := 3#32
  let v390 : BitVec 32 := Scalar.addi v269 c3_i32_383
  let v414 : Index := Scalar.indexCast v390
  let c96_402 : Index := 96#32
  ![v414.toNat, 96]
def k0_off358 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c3_i32_383 : BitVec 32 := 3#32
  let v390 : BitVec 32 := Scalar.addi v269 c3_i32_383
  let v416 : Index := Scalar.indexCast v390
  let c112_403 : Index := 112#32
  ![v416.toNat, 112]
def k0_off359 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c4_i32 : BitVec 32 := 4#32
  let v421 : BitVec 32 := Scalar.addi v269 c4_i32
  let c5_i32_408 : BitVec 32 := 5#32
  let v422 : BitVec 32 := Scalar.addi v421 c5_i32_408
  let c1_i32_409 : BitVec 32 := 1#32
  let v423 : BitVec 32 := Scalar.subi v422 c1_i32_409
  let c0_i32_410 : BitVec 32 := 0#32
  ![v423.toNat, 0]
@[reducible] def k0_t6_loop : Scf.Loop 32 :=
  let c0_i32_422 : BitVec 32 := 0#32
  let c5_i32_423 : BitVec 32 := 5#32
  let v437 : BitVec 32 := Scalar.addi c0_i32_422 c5_i32_423
  let c1_i32_424 : BitVec 32 := 1#32
  ⟨c0_i32_422, v437, c1_i32_424⟩

def k0_chk41 (v428 : IVec S16 32) (v457 : IVec S16 32) : Prop :=
  (∀ a x, ((![v428, v457] : Fin 2 → IVec S16 32) a x).toNat < S128x64.size a)
instance k0_chk41.dec : ∀ (v428 : IVec S16 32) (v457 : IVec S16 32), Decidable (k0_chk41 v428 v457) := fun v428 v457 => decidable_of_iff' _ (Iff.of_eq (k0_chk41.eq_1 v428 v457))
theorem k0_idx41_inb : ∀ (v428 : IVec S16 32) (v457 : IVec S16 32) (k0_hw41 : k0_chk41 v428 v457), ∀ a x, ((![v428, v457] : Fin 2 → IVec S16 32) a x).toNat < S128x64.size a := fun v428 v457 k0_hw41 => k0_hw41
def k0_off360 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32 : BitVec 32 := 10#32
  let v455 : BitVec 32 := Scalar.muli arg21 c10_i32
  let c0_i32_435 : BitVec 32 := 0#32
  let v456 : BitVec 32 := Scalar.addi v455 c0_i32_435
  let v459 : Index := Scalar.indexCast v456
  let c0_436 : Index := 0#32
  ![v459.toNat, 0]
def k0_off361 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32 : BitVec 32 := 10#32
  let v455 : BitVec 32 := Scalar.muli arg21 c10_i32
  let c0_i32_435 : BitVec 32 := 0#32
  let v456 : BitVec 32 := Scalar.addi v455 c0_i32_435
  let v463 : Index := Scalar.indexCast v456
  let c16_437 : Index := 16#32
  ![v463.toNat, 16]
def k0_off362 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32 : BitVec 32 := 10#32
  let v455 : BitVec 32 := Scalar.muli arg21 c10_i32
  let c0_i32_435 : BitVec 32 := 0#32
  let v456 : BitVec 32 := Scalar.addi v455 c0_i32_435
  let v467 : Index := Scalar.indexCast v456
  let c32_438 : Index := 32#32
  ![v467.toNat, 32]
def k0_off363 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32 : BitVec 32 := 10#32
  let v455 : BitVec 32 := Scalar.muli arg21 c10_i32
  let c0_i32_435 : BitVec 32 := 0#32
  let v456 : BitVec 32 := Scalar.addi v455 c0_i32_435
  let v471 : Index := Scalar.indexCast v456
  let c48_439 : Index := 48#32
  ![v471.toNat, 48]
def k0_off364 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32 : BitVec 32 := 10#32
  let v455 : BitVec 32 := Scalar.muli arg21 c10_i32
  let c0_i32_435 : BitVec 32 := 0#32
  let v456 : BitVec 32 := Scalar.addi v455 c0_i32_435
  let v475 : Index := Scalar.indexCast v456
  let c64_440 : Index := 64#32
  ![v475.toNat, 64]
def k0_off365 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32 : BitVec 32 := 10#32
  let v455 : BitVec 32 := Scalar.muli arg21 c10_i32
  let c0_i32_435 : BitVec 32 := 0#32
  let v456 : BitVec 32 := Scalar.addi v455 c0_i32_435
  let v479 : Index := Scalar.indexCast v456
  let c80_441 : Index := 80#32
  ![v479.toNat, 80]
def k0_off366 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32 : BitVec 32 := 10#32
  let v455 : BitVec 32 := Scalar.muli arg21 c10_i32
  let c0_i32_435 : BitVec 32 := 0#32
  let v456 : BitVec 32 := Scalar.addi v455 c0_i32_435
  let v483 : Index := Scalar.indexCast v456
  let c96_442 : Index := 96#32
  ![v483.toNat, 96]
def k0_off367 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32 : BitVec 32 := 10#32
  let v455 : BitVec 32 := Scalar.muli arg21 c10_i32
  let c0_i32_435 : BitVec 32 := 0#32
  let v456 : BitVec 32 := Scalar.addi v455 c0_i32_435
  let v487 : Index := Scalar.indexCast v456
  let c112_443 : Index := 112#32
  ![v487.toNat, 112]

def k0_chk42 (v428 : IVec S16 32) (v493 : IVec S16 32) : Prop :=
  (∀ a x, ((![v428, v493] : Fin 2 → IVec S16 32) a x).toNat < S128x64.size a)
instance k0_chk42.dec : ∀ (v428 : IVec S16 32) (v493 : IVec S16 32), Decidable (k0_chk42 v428 v493) := fun v428 v493 => decidable_of_iff' _ (Iff.of_eq (k0_chk42.eq_1 v428 v493))
theorem k0_idx42_inb : ∀ (v428 : IVec S16 32) (v493 : IVec S16 32) (k0_hw42 : k0_chk42 v428 v493), ∀ a x, ((![v428, v493] : Fin 2 → IVec S16 32) a x).toNat < S128x64.size a := fun v428 v493 k0_hw42 => k0_hw42
def k0_off368 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_444 : BitVec 32 := 10#32
  let v491 : BitVec 32 := Scalar.muli arg21 c10_i32_444
  let c1_i32_445 : BitVec 32 := 1#32
  let v492 : BitVec 32 := Scalar.addi v491 c1_i32_445
  let v495 : Index := Scalar.indexCast v492
  let c0_446 : Index := 0#32
  ![v495.toNat, 0]
def k0_off369 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_444 : BitVec 32 := 10#32
  let v491 : BitVec 32 := Scalar.muli arg21 c10_i32_444
  let c1_i32_445 : BitVec 32 := 1#32
  let v492 : BitVec 32 := Scalar.addi v491 c1_i32_445
  let v499 : Index := Scalar.indexCast v492
  let c16_447 : Index := 16#32
  ![v499.toNat, 16]
def k0_off370 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_444 : BitVec 32 := 10#32
  let v491 : BitVec 32 := Scalar.muli arg21 c10_i32_444
  let c1_i32_445 : BitVec 32 := 1#32
  let v492 : BitVec 32 := Scalar.addi v491 c1_i32_445
  let v503 : Index := Scalar.indexCast v492
  let c32_448 : Index := 32#32
  ![v503.toNat, 32]
def k0_off371 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_444 : BitVec 32 := 10#32
  let v491 : BitVec 32 := Scalar.muli arg21 c10_i32_444
  let c1_i32_445 : BitVec 32 := 1#32
  let v492 : BitVec 32 := Scalar.addi v491 c1_i32_445
  let v507 : Index := Scalar.indexCast v492
  let c48_449 : Index := 48#32
  ![v507.toNat, 48]
def k0_off372 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_444 : BitVec 32 := 10#32
  let v491 : BitVec 32 := Scalar.muli arg21 c10_i32_444
  let c1_i32_445 : BitVec 32 := 1#32
  let v492 : BitVec 32 := Scalar.addi v491 c1_i32_445
  let v511 : Index := Scalar.indexCast v492
  let c64_450 : Index := 64#32
  ![v511.toNat, 64]
def k0_off373 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_444 : BitVec 32 := 10#32
  let v491 : BitVec 32 := Scalar.muli arg21 c10_i32_444
  let c1_i32_445 : BitVec 32 := 1#32
  let v492 : BitVec 32 := Scalar.addi v491 c1_i32_445
  let v515 : Index := Scalar.indexCast v492
  let c80_451 : Index := 80#32
  ![v515.toNat, 80]
def k0_off374 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_444 : BitVec 32 := 10#32
  let v491 : BitVec 32 := Scalar.muli arg21 c10_i32_444
  let c1_i32_445 : BitVec 32 := 1#32
  let v492 : BitVec 32 := Scalar.addi v491 c1_i32_445
  let v519 : Index := Scalar.indexCast v492
  let c96_452 : Index := 96#32
  ![v519.toNat, 96]
def k0_off375 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_444 : BitVec 32 := 10#32
  let v491 : BitVec 32 := Scalar.muli arg21 c10_i32_444
  let c1_i32_445 : BitVec 32 := 1#32
  let v492 : BitVec 32 := Scalar.addi v491 c1_i32_445
  let v523 : Index := Scalar.indexCast v492
  let c112_453 : Index := 112#32
  ![v523.toNat, 112]

def k0_chk43 (v428 : IVec S16 32) (v529 : IVec S16 32) : Prop :=
  (∀ a x, ((![v428, v529] : Fin 2 → IVec S16 32) a x).toNat < S128x64.size a)
instance k0_chk43.dec : ∀ (v428 : IVec S16 32) (v529 : IVec S16 32), Decidable (k0_chk43 v428 v529) := fun v428 v529 => decidable_of_iff' _ (Iff.of_eq (k0_chk43.eq_1 v428 v529))
theorem k0_idx43_inb : ∀ (v428 : IVec S16 32) (v529 : IVec S16 32) (k0_hw43 : k0_chk43 v428 v529), ∀ a x, ((![v428, v529] : Fin 2 → IVec S16 32) a x).toNat < S128x64.size a := fun v428 v529 k0_hw43 => k0_hw43
def k0_off376 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_454 : BitVec 32 := 10#32
  let v527 : BitVec 32 := Scalar.muli arg21 c10_i32_454
  let c2_i32_455 : BitVec 32 := 2#32
  let v528 : BitVec 32 := Scalar.addi v527 c2_i32_455
  let v531 : Index := Scalar.indexCast v528
  let c0_456 : Index := 0#32
  ![v531.toNat, 0]
def k0_off377 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_454 : BitVec 32 := 10#32
  let v527 : BitVec 32 := Scalar.muli arg21 c10_i32_454
  let c2_i32_455 : BitVec 32 := 2#32
  let v528 : BitVec 32 := Scalar.addi v527 c2_i32_455
  let v535 : Index := Scalar.indexCast v528
  let c16_457 : Index := 16#32
  ![v535.toNat, 16]
def k0_off378 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_454 : BitVec 32 := 10#32
  let v527 : BitVec 32 := Scalar.muli arg21 c10_i32_454
  let c2_i32_455 : BitVec 32 := 2#32
  let v528 : BitVec 32 := Scalar.addi v527 c2_i32_455
  let v539 : Index := Scalar.indexCast v528
  let c32_458 : Index := 32#32
  ![v539.toNat, 32]
def k0_off379 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_454 : BitVec 32 := 10#32
  let v527 : BitVec 32 := Scalar.muli arg21 c10_i32_454
  let c2_i32_455 : BitVec 32 := 2#32
  let v528 : BitVec 32 := Scalar.addi v527 c2_i32_455
  let v543 : Index := Scalar.indexCast v528
  let c48_459 : Index := 48#32
  ![v543.toNat, 48]
def k0_off380 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_454 : BitVec 32 := 10#32
  let v527 : BitVec 32 := Scalar.muli arg21 c10_i32_454
  let c2_i32_455 : BitVec 32 := 2#32
  let v528 : BitVec 32 := Scalar.addi v527 c2_i32_455
  let v547 : Index := Scalar.indexCast v528
  let c64_460 : Index := 64#32
  ![v547.toNat, 64]
def k0_off381 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_454 : BitVec 32 := 10#32
  let v527 : BitVec 32 := Scalar.muli arg21 c10_i32_454
  let c2_i32_455 : BitVec 32 := 2#32
  let v528 : BitVec 32 := Scalar.addi v527 c2_i32_455
  let v551 : Index := Scalar.indexCast v528
  let c80_461 : Index := 80#32
  ![v551.toNat, 80]
def k0_off382 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_454 : BitVec 32 := 10#32
  let v527 : BitVec 32 := Scalar.muli arg21 c10_i32_454
  let c2_i32_455 : BitVec 32 := 2#32
  let v528 : BitVec 32 := Scalar.addi v527 c2_i32_455
  let v555 : Index := Scalar.indexCast v528
  let c96_462 : Index := 96#32
  ![v555.toNat, 96]
def k0_off383 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_454 : BitVec 32 := 10#32
  let v527 : BitVec 32 := Scalar.muli arg21 c10_i32_454
  let c2_i32_455 : BitVec 32 := 2#32
  let v528 : BitVec 32 := Scalar.addi v527 c2_i32_455
  let v559 : Index := Scalar.indexCast v528
  let c112_463 : Index := 112#32
  ![v559.toNat, 112]

def k0_chk44 (v428 : IVec S16 32) (v565 : IVec S16 32) : Prop :=
  (∀ a x, ((![v428, v565] : Fin 2 → IVec S16 32) a x).toNat < S128x64.size a)
instance k0_chk44.dec : ∀ (v428 : IVec S16 32) (v565 : IVec S16 32), Decidable (k0_chk44 v428 v565) := fun v428 v565 => decidable_of_iff' _ (Iff.of_eq (k0_chk44.eq_1 v428 v565))
theorem k0_idx44_inb : ∀ (v428 : IVec S16 32) (v565 : IVec S16 32) (k0_hw44 : k0_chk44 v428 v565), ∀ a x, ((![v428, v565] : Fin 2 → IVec S16 32) a x).toNat < S128x64.size a := fun v428 v565 k0_hw44 => k0_hw44
def k0_off384 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_464 : BitVec 32 := 10#32
  let v563 : BitVec 32 := Scalar.muli arg21 c10_i32_464
  let c3_i32_465 : BitVec 32 := 3#32
  let v564 : BitVec 32 := Scalar.addi v563 c3_i32_465
  let v567 : Index := Scalar.indexCast v564
  let c0_466 : Index := 0#32
  ![v567.toNat, 0]
def k0_off385 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_464 : BitVec 32 := 10#32
  let v563 : BitVec 32 := Scalar.muli arg21 c10_i32_464
  let c3_i32_465 : BitVec 32 := 3#32
  let v564 : BitVec 32 := Scalar.addi v563 c3_i32_465
  let v571 : Index := Scalar.indexCast v564
  let c16_467 : Index := 16#32
  ![v571.toNat, 16]
def k0_off386 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_464 : BitVec 32 := 10#32
  let v563 : BitVec 32 := Scalar.muli arg21 c10_i32_464
  let c3_i32_465 : BitVec 32 := 3#32
  let v564 : BitVec 32 := Scalar.addi v563 c3_i32_465
  let v575 : Index := Scalar.indexCast v564
  let c32_468 : Index := 32#32
  ![v575.toNat, 32]
def k0_off387 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_464 : BitVec 32 := 10#32
  let v563 : BitVec 32 := Scalar.muli arg21 c10_i32_464
  let c3_i32_465 : BitVec 32 := 3#32
  let v564 : BitVec 32 := Scalar.addi v563 c3_i32_465
  let v579 : Index := Scalar.indexCast v564
  let c48_469 : Index := 48#32
  ![v579.toNat, 48]
def k0_off388 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_464 : BitVec 32 := 10#32
  let v563 : BitVec 32 := Scalar.muli arg21 c10_i32_464
  let c3_i32_465 : BitVec 32 := 3#32
  let v564 : BitVec 32 := Scalar.addi v563 c3_i32_465
  let v583 : Index := Scalar.indexCast v564
  let c64_470 : Index := 64#32
  ![v583.toNat, 64]
def k0_off389 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_464 : BitVec 32 := 10#32
  let v563 : BitVec 32 := Scalar.muli arg21 c10_i32_464
  let c3_i32_465 : BitVec 32 := 3#32
  let v564 : BitVec 32 := Scalar.addi v563 c3_i32_465
  let v587 : Index := Scalar.indexCast v564
  let c80_471 : Index := 80#32
  ![v587.toNat, 80]
def k0_off390 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_464 : BitVec 32 := 10#32
  let v563 : BitVec 32 := Scalar.muli arg21 c10_i32_464
  let c3_i32_465 : BitVec 32 := 3#32
  let v564 : BitVec 32 := Scalar.addi v563 c3_i32_465
  let v591 : Index := Scalar.indexCast v564
  let c96_472 : Index := 96#32
  ![v591.toNat, 96]
def k0_off391 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_464 : BitVec 32 := 10#32
  let v563 : BitVec 32 := Scalar.muli arg21 c10_i32_464
  let c3_i32_465 : BitVec 32 := 3#32
  let v564 : BitVec 32 := Scalar.addi v563 c3_i32_465
  let v595 : Index := Scalar.indexCast v564
  let c112_473 : Index := 112#32
  ![v595.toNat, 112]

def k0_chk45 (v428 : IVec S16 32) (v601 : IVec S16 32) : Prop :=
  (∀ a x, ((![v428, v601] : Fin 2 → IVec S16 32) a x).toNat < S128x64.size a)
instance k0_chk45.dec : ∀ (v428 : IVec S16 32) (v601 : IVec S16 32), Decidable (k0_chk45 v428 v601) := fun v428 v601 => decidable_of_iff' _ (Iff.of_eq (k0_chk45.eq_1 v428 v601))
theorem k0_idx45_inb : ∀ (v428 : IVec S16 32) (v601 : IVec S16 32) (k0_hw45 : k0_chk45 v428 v601), ∀ a x, ((![v428, v601] : Fin 2 → IVec S16 32) a x).toNat < S128x64.size a := fun v428 v601 k0_hw45 => k0_hw45
def k0_off392 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_474 : BitVec 32 := 10#32
  let v599 : BitVec 32 := Scalar.muli arg21 c10_i32_474
  let c4_i32_475 : BitVec 32 := 4#32
  let v600 : BitVec 32 := Scalar.addi v599 c4_i32_475
  let v603 : Index := Scalar.indexCast v600
  let c0_476 : Index := 0#32
  ![v603.toNat, 0]
def k0_off393 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_474 : BitVec 32 := 10#32
  let v599 : BitVec 32 := Scalar.muli arg21 c10_i32_474
  let c4_i32_475 : BitVec 32 := 4#32
  let v600 : BitVec 32 := Scalar.addi v599 c4_i32_475
  let v607 : Index := Scalar.indexCast v600
  let c16_477 : Index := 16#32
  ![v607.toNat, 16]
def k0_off394 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_474 : BitVec 32 := 10#32
  let v599 : BitVec 32 := Scalar.muli arg21 c10_i32_474
  let c4_i32_475 : BitVec 32 := 4#32
  let v600 : BitVec 32 := Scalar.addi v599 c4_i32_475
  let v611 : Index := Scalar.indexCast v600
  let c32_478 : Index := 32#32
  ![v611.toNat, 32]
def k0_off395 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_474 : BitVec 32 := 10#32
  let v599 : BitVec 32 := Scalar.muli arg21 c10_i32_474
  let c4_i32_475 : BitVec 32 := 4#32
  let v600 : BitVec 32 := Scalar.addi v599 c4_i32_475
  let v615 : Index := Scalar.indexCast v600
  let c48_479 : Index := 48#32
  ![v615.toNat, 48]
def k0_off396 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_474 : BitVec 32 := 10#32
  let v599 : BitVec 32 := Scalar.muli arg21 c10_i32_474
  let c4_i32_475 : BitVec 32 := 4#32
  let v600 : BitVec 32 := Scalar.addi v599 c4_i32_475
  let v619 : Index := Scalar.indexCast v600
  let c64_480 : Index := 64#32
  ![v619.toNat, 64]
def k0_off397 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_474 : BitVec 32 := 10#32
  let v599 : BitVec 32 := Scalar.muli arg21 c10_i32_474
  let c4_i32_475 : BitVec 32 := 4#32
  let v600 : BitVec 32 := Scalar.addi v599 c4_i32_475
  let v623 : Index := Scalar.indexCast v600
  let c80_481 : Index := 80#32
  ![v623.toNat, 80]
def k0_off398 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_474 : BitVec 32 := 10#32
  let v599 : BitVec 32 := Scalar.muli arg21 c10_i32_474
  let c4_i32_475 : BitVec 32 := 4#32
  let v600 : BitVec 32 := Scalar.addi v599 c4_i32_475
  let v627 : Index := Scalar.indexCast v600
  let c96_482 : Index := 96#32
  ![v627.toNat, 96]
def k0_off399 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_474 : BitVec 32 := 10#32
  let v599 : BitVec 32 := Scalar.muli arg21 c10_i32_474
  let c4_i32_475 : BitVec 32 := 4#32
  let v600 : BitVec 32 := Scalar.addi v599 c4_i32_475
  let v631 : Index := Scalar.indexCast v600
  let c112_483 : Index := 112#32
  ![v631.toNat, 112]

def k0_chk46 (v428 : IVec S16 32) (v637 : IVec S16 32) : Prop :=
  (∀ a x, ((![v428, v637] : Fin 2 → IVec S16 32) a x).toNat < S128x64.size a)
instance k0_chk46.dec : ∀ (v428 : IVec S16 32) (v637 : IVec S16 32), Decidable (k0_chk46 v428 v637) := fun v428 v637 => decidable_of_iff' _ (Iff.of_eq (k0_chk46.eq_1 v428 v637))
theorem k0_idx46_inb : ∀ (v428 : IVec S16 32) (v637 : IVec S16 32) (k0_hw46 : k0_chk46 v428 v637), ∀ a x, ((![v428, v637] : Fin 2 → IVec S16 32) a x).toNat < S128x64.size a := fun v428 v637 k0_hw46 => k0_hw46
def k0_off400 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_484 : BitVec 32 := 10#32
  let v635 : BitVec 32 := Scalar.muli arg21 c10_i32_484
  let c5_i32_485 : BitVec 32 := 5#32
  let v636 : BitVec 32 := Scalar.addi v635 c5_i32_485
  let v639 : Index := Scalar.indexCast v636
  let c0_486 : Index := 0#32
  ![v639.toNat, 0]
def k0_off401 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_484 : BitVec 32 := 10#32
  let v635 : BitVec 32 := Scalar.muli arg21 c10_i32_484
  let c5_i32_485 : BitVec 32 := 5#32
  let v636 : BitVec 32 := Scalar.addi v635 c5_i32_485
  let v643 : Index := Scalar.indexCast v636
  let c16_487 : Index := 16#32
  ![v643.toNat, 16]
def k0_off402 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_484 : BitVec 32 := 10#32
  let v635 : BitVec 32 := Scalar.muli arg21 c10_i32_484
  let c5_i32_485 : BitVec 32 := 5#32
  let v636 : BitVec 32 := Scalar.addi v635 c5_i32_485
  let v647 : Index := Scalar.indexCast v636
  let c32_488 : Index := 32#32
  ![v647.toNat, 32]
def k0_off403 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_484 : BitVec 32 := 10#32
  let v635 : BitVec 32 := Scalar.muli arg21 c10_i32_484
  let c5_i32_485 : BitVec 32 := 5#32
  let v636 : BitVec 32 := Scalar.addi v635 c5_i32_485
  let v651 : Index := Scalar.indexCast v636
  let c48_489 : Index := 48#32
  ![v651.toNat, 48]
def k0_off404 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_484 : BitVec 32 := 10#32
  let v635 : BitVec 32 := Scalar.muli arg21 c10_i32_484
  let c5_i32_485 : BitVec 32 := 5#32
  let v636 : BitVec 32 := Scalar.addi v635 c5_i32_485
  let v655 : Index := Scalar.indexCast v636
  let c64_490 : Index := 64#32
  ![v655.toNat, 64]
def k0_off405 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_484 : BitVec 32 := 10#32
  let v635 : BitVec 32 := Scalar.muli arg21 c10_i32_484
  let c5_i32_485 : BitVec 32 := 5#32
  let v636 : BitVec 32 := Scalar.addi v635 c5_i32_485
  let v659 : Index := Scalar.indexCast v636
  let c80_491 : Index := 80#32
  ![v659.toNat, 80]
def k0_off406 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_484 : BitVec 32 := 10#32
  let v635 : BitVec 32 := Scalar.muli arg21 c10_i32_484
  let c5_i32_485 : BitVec 32 := 5#32
  let v636 : BitVec 32 := Scalar.addi v635 c5_i32_485
  let v663 : Index := Scalar.indexCast v636
  let c96_492 : Index := 96#32
  ![v663.toNat, 96]
def k0_off407 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_484 : BitVec 32 := 10#32
  let v635 : BitVec 32 := Scalar.muli arg21 c10_i32_484
  let c5_i32_485 : BitVec 32 := 5#32
  let v636 : BitVec 32 := Scalar.addi v635 c5_i32_485
  let v667 : Index := Scalar.indexCast v636
  let c112_493 : Index := 112#32
  ![v667.toNat, 112]

def k0_chk47 (v428 : IVec S16 32) (v673 : IVec S16 32) : Prop :=
  (∀ a x, ((![v428, v673] : Fin 2 → IVec S16 32) a x).toNat < S128x64.size a)
instance k0_chk47.dec : ∀ (v428 : IVec S16 32) (v673 : IVec S16 32), Decidable (k0_chk47 v428 v673) := fun v428 v673 => decidable_of_iff' _ (Iff.of_eq (k0_chk47.eq_1 v428 v673))
theorem k0_idx47_inb : ∀ (v428 : IVec S16 32) (v673 : IVec S16 32) (k0_hw47 : k0_chk47 v428 v673), ∀ a x, ((![v428, v673] : Fin 2 → IVec S16 32) a x).toNat < S128x64.size a := fun v428 v673 k0_hw47 => k0_hw47
def k0_off408 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_494 : BitVec 32 := 10#32
  let v671 : BitVec 32 := Scalar.muli arg21 c10_i32_494
  let c6_i32 : BitVec 32 := 6#32
  let v672 : BitVec 32 := Scalar.addi v671 c6_i32
  let v675 : Index := Scalar.indexCast v672
  let c0_495 : Index := 0#32
  ![v675.toNat, 0]
def k0_off409 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_494 : BitVec 32 := 10#32
  let v671 : BitVec 32 := Scalar.muli arg21 c10_i32_494
  let c6_i32 : BitVec 32 := 6#32
  let v672 : BitVec 32 := Scalar.addi v671 c6_i32
  let v679 : Index := Scalar.indexCast v672
  let c16_496 : Index := 16#32
  ![v679.toNat, 16]
def k0_off410 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_494 : BitVec 32 := 10#32
  let v671 : BitVec 32 := Scalar.muli arg21 c10_i32_494
  let c6_i32 : BitVec 32 := 6#32
  let v672 : BitVec 32 := Scalar.addi v671 c6_i32
  let v683 : Index := Scalar.indexCast v672
  let c32_497 : Index := 32#32
  ![v683.toNat, 32]
def k0_off411 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_494 : BitVec 32 := 10#32
  let v671 : BitVec 32 := Scalar.muli arg21 c10_i32_494
  let c6_i32 : BitVec 32 := 6#32
  let v672 : BitVec 32 := Scalar.addi v671 c6_i32
  let v687 : Index := Scalar.indexCast v672
  let c48_498 : Index := 48#32
  ![v687.toNat, 48]
def k0_off412 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_494 : BitVec 32 := 10#32
  let v671 : BitVec 32 := Scalar.muli arg21 c10_i32_494
  let c6_i32 : BitVec 32 := 6#32
  let v672 : BitVec 32 := Scalar.addi v671 c6_i32
  let v691 : Index := Scalar.indexCast v672
  let c64_499 : Index := 64#32
  ![v691.toNat, 64]
def k0_off413 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_494 : BitVec 32 := 10#32
  let v671 : BitVec 32 := Scalar.muli arg21 c10_i32_494
  let c6_i32 : BitVec 32 := 6#32
  let v672 : BitVec 32 := Scalar.addi v671 c6_i32
  let v695 : Index := Scalar.indexCast v672
  let c80_500 : Index := 80#32
  ![v695.toNat, 80]
def k0_off414 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_494 : BitVec 32 := 10#32
  let v671 : BitVec 32 := Scalar.muli arg21 c10_i32_494
  let c6_i32 : BitVec 32 := 6#32
  let v672 : BitVec 32 := Scalar.addi v671 c6_i32
  let v699 : Index := Scalar.indexCast v672
  let c96_501 : Index := 96#32
  ![v699.toNat, 96]
def k0_off415 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_494 : BitVec 32 := 10#32
  let v671 : BitVec 32 := Scalar.muli arg21 c10_i32_494
  let c6_i32 : BitVec 32 := 6#32
  let v672 : BitVec 32 := Scalar.addi v671 c6_i32
  let v703 : Index := Scalar.indexCast v672
  let c112_502 : Index := 112#32
  ![v703.toNat, 112]

def k0_chk48 (v428 : IVec S16 32) (v709 : IVec S16 32) : Prop :=
  (∀ a x, ((![v428, v709] : Fin 2 → IVec S16 32) a x).toNat < S128x64.size a)
instance k0_chk48.dec : ∀ (v428 : IVec S16 32) (v709 : IVec S16 32), Decidable (k0_chk48 v428 v709) := fun v428 v709 => decidable_of_iff' _ (Iff.of_eq (k0_chk48.eq_1 v428 v709))
theorem k0_idx48_inb : ∀ (v428 : IVec S16 32) (v709 : IVec S16 32) (k0_hw48 : k0_chk48 v428 v709), ∀ a x, ((![v428, v709] : Fin 2 → IVec S16 32) a x).toNat < S128x64.size a := fun v428 v709 k0_hw48 => k0_hw48
def k0_off416 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_503 : BitVec 32 := 10#32
  let v707 : BitVec 32 := Scalar.muli arg21 c10_i32_503
  let c7_i32 : BitVec 32 := 7#32
  let v708 : BitVec 32 := Scalar.addi v707 c7_i32
  let v711 : Index := Scalar.indexCast v708
  let c0_504 : Index := 0#32
  ![v711.toNat, 0]
def k0_off417 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_503 : BitVec 32 := 10#32
  let v707 : BitVec 32 := Scalar.muli arg21 c10_i32_503
  let c7_i32 : BitVec 32 := 7#32
  let v708 : BitVec 32 := Scalar.addi v707 c7_i32
  let v715 : Index := Scalar.indexCast v708
  let c16_505 : Index := 16#32
  ![v715.toNat, 16]
def k0_off418 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_503 : BitVec 32 := 10#32
  let v707 : BitVec 32 := Scalar.muli arg21 c10_i32_503
  let c7_i32 : BitVec 32 := 7#32
  let v708 : BitVec 32 := Scalar.addi v707 c7_i32
  let v719 : Index := Scalar.indexCast v708
  let c32_506 : Index := 32#32
  ![v719.toNat, 32]
def k0_off419 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_503 : BitVec 32 := 10#32
  let v707 : BitVec 32 := Scalar.muli arg21 c10_i32_503
  let c7_i32 : BitVec 32 := 7#32
  let v708 : BitVec 32 := Scalar.addi v707 c7_i32
  let v723 : Index := Scalar.indexCast v708
  let c48_507 : Index := 48#32
  ![v723.toNat, 48]
def k0_off420 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_503 : BitVec 32 := 10#32
  let v707 : BitVec 32 := Scalar.muli arg21 c10_i32_503
  let c7_i32 : BitVec 32 := 7#32
  let v708 : BitVec 32 := Scalar.addi v707 c7_i32
  let v727 : Index := Scalar.indexCast v708
  let c64_508 : Index := 64#32
  ![v727.toNat, 64]
def k0_off421 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_503 : BitVec 32 := 10#32
  let v707 : BitVec 32 := Scalar.muli arg21 c10_i32_503
  let c7_i32 : BitVec 32 := 7#32
  let v708 : BitVec 32 := Scalar.addi v707 c7_i32
  let v731 : Index := Scalar.indexCast v708
  let c80_509 : Index := 80#32
  ![v731.toNat, 80]
def k0_off422 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_503 : BitVec 32 := 10#32
  let v707 : BitVec 32 := Scalar.muli arg21 c10_i32_503
  let c7_i32 : BitVec 32 := 7#32
  let v708 : BitVec 32 := Scalar.addi v707 c7_i32
  let v735 : Index := Scalar.indexCast v708
  let c96_510 : Index := 96#32
  ![v735.toNat, 96]
def k0_off423 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_503 : BitVec 32 := 10#32
  let v707 : BitVec 32 := Scalar.muli arg21 c10_i32_503
  let c7_i32 : BitVec 32 := 7#32
  let v708 : BitVec 32 := Scalar.addi v707 c7_i32
  let v739 : Index := Scalar.indexCast v708
  let c112_511 : Index := 112#32
  ![v739.toNat, 112]

def k0_chk49 (v428 : IVec S16 32) (v745 : IVec S16 32) : Prop :=
  (∀ a x, ((![v428, v745] : Fin 2 → IVec S16 32) a x).toNat < S128x64.size a)
instance k0_chk49.dec : ∀ (v428 : IVec S16 32) (v745 : IVec S16 32), Decidable (k0_chk49 v428 v745) := fun v428 v745 => decidable_of_iff' _ (Iff.of_eq (k0_chk49.eq_1 v428 v745))
theorem k0_idx49_inb : ∀ (v428 : IVec S16 32) (v745 : IVec S16 32) (k0_hw49 : k0_chk49 v428 v745), ∀ a x, ((![v428, v745] : Fin 2 → IVec S16 32) a x).toNat < S128x64.size a := fun v428 v745 k0_hw49 => k0_hw49
def k0_off424 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_512 : BitVec 32 := 10#32
  let v743 : BitVec 32 := Scalar.muli arg21 c10_i32_512
  let c8_i32 : BitVec 32 := 8#32
  let v744 : BitVec 32 := Scalar.addi v743 c8_i32
  let v747 : Index := Scalar.indexCast v744
  let c0_513 : Index := 0#32
  ![v747.toNat, 0]
def k0_off425 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_512 : BitVec 32 := 10#32
  let v743 : BitVec 32 := Scalar.muli arg21 c10_i32_512
  let c8_i32 : BitVec 32 := 8#32
  let v744 : BitVec 32 := Scalar.addi v743 c8_i32
  let v751 : Index := Scalar.indexCast v744
  let c16_514 : Index := 16#32
  ![v751.toNat, 16]
def k0_off426 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_512 : BitVec 32 := 10#32
  let v743 : BitVec 32 := Scalar.muli arg21 c10_i32_512
  let c8_i32 : BitVec 32 := 8#32
  let v744 : BitVec 32 := Scalar.addi v743 c8_i32
  let v755 : Index := Scalar.indexCast v744
  let c32_515 : Index := 32#32
  ![v755.toNat, 32]
def k0_off427 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_512 : BitVec 32 := 10#32
  let v743 : BitVec 32 := Scalar.muli arg21 c10_i32_512
  let c8_i32 : BitVec 32 := 8#32
  let v744 : BitVec 32 := Scalar.addi v743 c8_i32
  let v759 : Index := Scalar.indexCast v744
  let c48_516 : Index := 48#32
  ![v759.toNat, 48]
def k0_off428 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_512 : BitVec 32 := 10#32
  let v743 : BitVec 32 := Scalar.muli arg21 c10_i32_512
  let c8_i32 : BitVec 32 := 8#32
  let v744 : BitVec 32 := Scalar.addi v743 c8_i32
  let v763 : Index := Scalar.indexCast v744
  let c64_517 : Index := 64#32
  ![v763.toNat, 64]
def k0_off429 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_512 : BitVec 32 := 10#32
  let v743 : BitVec 32 := Scalar.muli arg21 c10_i32_512
  let c8_i32 : BitVec 32 := 8#32
  let v744 : BitVec 32 := Scalar.addi v743 c8_i32
  let v767 : Index := Scalar.indexCast v744
  let c80_518 : Index := 80#32
  ![v767.toNat, 80]
def k0_off430 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_512 : BitVec 32 := 10#32
  let v743 : BitVec 32 := Scalar.muli arg21 c10_i32_512
  let c8_i32 : BitVec 32 := 8#32
  let v744 : BitVec 32 := Scalar.addi v743 c8_i32
  let v771 : Index := Scalar.indexCast v744
  let c96_519 : Index := 96#32
  ![v771.toNat, 96]
def k0_off431 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_512 : BitVec 32 := 10#32
  let v743 : BitVec 32 := Scalar.muli arg21 c10_i32_512
  let c8_i32 : BitVec 32 := 8#32
  let v744 : BitVec 32 := Scalar.addi v743 c8_i32
  let v775 : Index := Scalar.indexCast v744
  let c112_520 : Index := 112#32
  ![v775.toNat, 112]

def k0_chk50 (v428 : IVec S16 32) (v781 : IVec S16 32) : Prop :=
  (∀ a x, ((![v428, v781] : Fin 2 → IVec S16 32) a x).toNat < S128x64.size a)
instance k0_chk50.dec : ∀ (v428 : IVec S16 32) (v781 : IVec S16 32), Decidable (k0_chk50 v428 v781) := fun v428 v781 => decidable_of_iff' _ (Iff.of_eq (k0_chk50.eq_1 v428 v781))
theorem k0_idx50_inb : ∀ (v428 : IVec S16 32) (v781 : IVec S16 32) (k0_hw50 : k0_chk50 v428 v781), ∀ a x, ((![v428, v781] : Fin 2 → IVec S16 32) a x).toNat < S128x64.size a := fun v428 v781 k0_hw50 => k0_hw50
def k0_off432 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_521 : BitVec 32 := 10#32
  let v779 : BitVec 32 := Scalar.muli arg21 c10_i32_521
  let c9_i32 : BitVec 32 := 9#32
  let v780 : BitVec 32 := Scalar.addi v779 c9_i32
  let v783 : Index := Scalar.indexCast v780
  let c0_522 : Index := 0#32
  ![v783.toNat, 0]
def k0_off433 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_521 : BitVec 32 := 10#32
  let v779 : BitVec 32 := Scalar.muli arg21 c10_i32_521
  let c9_i32 : BitVec 32 := 9#32
  let v780 : BitVec 32 := Scalar.addi v779 c9_i32
  let v787 : Index := Scalar.indexCast v780
  let c16_523 : Index := 16#32
  ![v787.toNat, 16]
def k0_off434 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_521 : BitVec 32 := 10#32
  let v779 : BitVec 32 := Scalar.muli arg21 c10_i32_521
  let c9_i32 : BitVec 32 := 9#32
  let v780 : BitVec 32 := Scalar.addi v779 c9_i32
  let v791 : Index := Scalar.indexCast v780
  let c32_524 : Index := 32#32
  ![v791.toNat, 32]
def k0_off435 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_521 : BitVec 32 := 10#32
  let v779 : BitVec 32 := Scalar.muli arg21 c10_i32_521
  let c9_i32 : BitVec 32 := 9#32
  let v780 : BitVec 32 := Scalar.addi v779 c9_i32
  let v795 : Index := Scalar.indexCast v780
  let c48_525 : Index := 48#32
  ![v795.toNat, 48]
def k0_off436 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_521 : BitVec 32 := 10#32
  let v779 : BitVec 32 := Scalar.muli arg21 c10_i32_521
  let c9_i32 : BitVec 32 := 9#32
  let v780 : BitVec 32 := Scalar.addi v779 c9_i32
  let v799 : Index := Scalar.indexCast v780
  let c64_526 : Index := 64#32
  ![v799.toNat, 64]
def k0_off437 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_521 : BitVec 32 := 10#32
  let v779 : BitVec 32 := Scalar.muli arg21 c10_i32_521
  let c9_i32 : BitVec 32 := 9#32
  let v780 : BitVec 32 := Scalar.addi v779 c9_i32
  let v803 : Index := Scalar.indexCast v780
  let c80_527 : Index := 80#32
  ![v803.toNat, 80]
def k0_off438 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_521 : BitVec 32 := 10#32
  let v779 : BitVec 32 := Scalar.muli arg21 c10_i32_521
  let c9_i32 : BitVec 32 := 9#32
  let v780 : BitVec 32 := Scalar.addi v779 c9_i32
  let v807 : Index := Scalar.indexCast v780
  let c96_528 : Index := 96#32
  ![v807.toNat, 96]
def k0_off439 (k0_t6 : Fin k0_t6_loop.trips) : Fin 2 → Nat :=
  let c0_i32_422 : BitVec 32 := 0#32
  let c1_i32_424 : BitVec 32 := 1#32
  let arg21 : BitVec 32 := Scf.iv c0_i32_422 c1_i32_424 k0_t6
  let c10_i32_521 : BitVec 32 := 10#32
  let v779 : BitVec 32 := Scalar.muli arg21 c10_i32_521
  let c9_i32 : BitVec 32 := 9#32
  let v780 : BitVec 32 := Scalar.addi v779 c9_i32
  let v811 : Index := Scalar.indexCast v780
  let c112_529 : Index := 112#32
  ![v811.toNat, 112]
def k0_off440 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c4_i32_413 : BitVec 32 := 4#32
  let v427 : BitVec 32 := Scalar.addi v269 c4_i32_413
  let v439 : Index := Scalar.indexCast v427
  let c0_426 : Index := 0#32
  ![v439.toNat, 0]
def k0_off441 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c4_i32_413 : BitVec 32 := 4#32
  let v427 : BitVec 32 := Scalar.addi v269 c4_i32_413
  let v441 : Index := Scalar.indexCast v427
  let c16_427 : Index := 16#32
  ![v441.toNat, 16]
def k0_off442 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c4_i32_413 : BitVec 32 := 4#32
  let v427 : BitVec 32 := Scalar.addi v269 c4_i32_413
  let v443 : Index := Scalar.indexCast v427
  let c32_428 : Index := 32#32
  ![v443.toNat, 32]
def k0_off443 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c4_i32_413 : BitVec 32 := 4#32
  let v427 : BitVec 32 := Scalar.addi v269 c4_i32_413
  let v445 : Index := Scalar.indexCast v427
  let c48_429 : Index := 48#32
  ![v445.toNat, 48]
def k0_off444 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c4_i32_413 : BitVec 32 := 4#32
  let v427 : BitVec 32 := Scalar.addi v269 c4_i32_413
  let v447 : Index := Scalar.indexCast v427
  let c64_430 : Index := 64#32
  ![v447.toNat, 64]
def k0_off445 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c4_i32_413 : BitVec 32 := 4#32
  let v427 : BitVec 32 := Scalar.addi v269 c4_i32_413
  let v449 : Index := Scalar.indexCast v427
  let c80_431 : Index := 80#32
  ![v449.toNat, 80]
def k0_off446 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c4_i32_413 : BitVec 32 := 4#32
  let v427 : BitVec 32 := Scalar.addi v269 c4_i32_413
  let v451 : Index := Scalar.indexCast v427
  let c96_432 : Index := 96#32
  ![v451.toNat, 96]
def k0_off447 (k0_t1 : Fin k0_t1_loop.trips) : Fin 2 → Nat :=
  let c5_i32_279 : BitVec 32 := 5#32
  let c0_i32_14 : BitVec 32 := 0#32
  let c1_i32_15 : BitVec 32 := 1#32
  let arg19 : BitVec 32 := Scf.iv c0_i32_14 c1_i32_15 k0_t1
  let v269 : BitVec 32 := Scalar.muli c5_i32_279 arg19
  let c4_i32_413 : BitVec 32 := 4#32
  let v427 : BitVec 32 := Scalar.addi v269 c4_i32_413
  let v453 : Index := Scalar.indexCast v427
  let c112_433 : Index := 112#32
  ![v453.toNat, 112]
@[reducible] def k0_t7_loop : Scf.Loop 32 :=
  let c0_i32_31 : BitVec 32 := 0#32
  let c5_i32 : BitVec 32 := 5#32
  let v32 : BitVec 32 := Scalar.addi c0_i32_31 c5_i32
  let c1_i32_32 : BitVec 32 := 1#32
  ⟨c0_i32_31, v32, c1_i32_32⟩

def k0_chk51 (v23 : IVec S16 32) (v271 : IVec S16 32) : Prop :=
  (∀ a x, ((![v23, v271] : Fin 2 → IVec S16 32) a x).toNat < S128x64.size a)
instance k0_chk51.dec : ∀ (v23 : IVec S16 32) (v271 : IVec S16 32), Decidable (k0_chk51 v23 v271) := fun v23 v271 => decidable_of_iff' _ (Iff.of_eq (k0_chk51.eq_1 v23 v271))
theorem k0_idx51_inb : ∀ (v23 : IVec S16 32) (v271 : IVec S16 32) (k0_hw51 : k0_chk51 v23 v271), ∀ a x, ((![v23, v271] : Fin 2 → IVec S16 32) a x).toNat < S128x64.size a := fun v23 v271 k0_hw51 => k0_hw51
def k0_off448 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32 : BitVec 32 := 10#32
  let v269 : BitVec 32 := Scalar.muli arg19 c10_i32
  let c0_i32_279 : BitVec 32 := 0#32
  let v270 : BitVec 32 := Scalar.addi v269 c0_i32_279
  let v273 : Index := Scalar.indexCast v270
  let c0_280 : Index := 0#32
  ![v273.toNat, 0]
def k0_off449 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32 : BitVec 32 := 10#32
  let v269 : BitVec 32 := Scalar.muli arg19 c10_i32
  let c0_i32_279 : BitVec 32 := 0#32
  let v270 : BitVec 32 := Scalar.addi v269 c0_i32_279
  let v277 : Index := Scalar.indexCast v270
  let c16_281 : Index := 16#32
  ![v277.toNat, 16]
def k0_off450 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32 : BitVec 32 := 10#32
  let v269 : BitVec 32 := Scalar.muli arg19 c10_i32
  let c0_i32_279 : BitVec 32 := 0#32
  let v270 : BitVec 32 := Scalar.addi v269 c0_i32_279
  let v281 : Index := Scalar.indexCast v270
  let c32_282 : Index := 32#32
  ![v281.toNat, 32]
def k0_off451 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32 : BitVec 32 := 10#32
  let v269 : BitVec 32 := Scalar.muli arg19 c10_i32
  let c0_i32_279 : BitVec 32 := 0#32
  let v270 : BitVec 32 := Scalar.addi v269 c0_i32_279
  let v285 : Index := Scalar.indexCast v270
  let c48_283 : Index := 48#32
  ![v285.toNat, 48]
def k0_off452 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32 : BitVec 32 := 10#32
  let v269 : BitVec 32 := Scalar.muli arg19 c10_i32
  let c0_i32_279 : BitVec 32 := 0#32
  let v270 : BitVec 32 := Scalar.addi v269 c0_i32_279
  let v289 : Index := Scalar.indexCast v270
  let c64_284 : Index := 64#32
  ![v289.toNat, 64]
def k0_off453 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32 : BitVec 32 := 10#32
  let v269 : BitVec 32 := Scalar.muli arg19 c10_i32
  let c0_i32_279 : BitVec 32 := 0#32
  let v270 : BitVec 32 := Scalar.addi v269 c0_i32_279
  let v293 : Index := Scalar.indexCast v270
  let c80_285 : Index := 80#32
  ![v293.toNat, 80]
def k0_off454 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32 : BitVec 32 := 10#32
  let v269 : BitVec 32 := Scalar.muli arg19 c10_i32
  let c0_i32_279 : BitVec 32 := 0#32
  let v270 : BitVec 32 := Scalar.addi v269 c0_i32_279
  let v297 : Index := Scalar.indexCast v270
  let c96_286 : Index := 96#32
  ![v297.toNat, 96]
def k0_off455 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32 : BitVec 32 := 10#32
  let v269 : BitVec 32 := Scalar.muli arg19 c10_i32
  let c0_i32_279 : BitVec 32 := 0#32
  let v270 : BitVec 32 := Scalar.addi v269 c0_i32_279
  let v301 : Index := Scalar.indexCast v270
  let c112_287 : Index := 112#32
  ![v301.toNat, 112]

def k0_chk52 (v23 : IVec S16 32) (v307 : IVec S16 32) : Prop :=
  (∀ a x, ((![v23, v307] : Fin 2 → IVec S16 32) a x).toNat < S128x64.size a)
instance k0_chk52.dec : ∀ (v23 : IVec S16 32) (v307 : IVec S16 32), Decidable (k0_chk52 v23 v307) := fun v23 v307 => decidable_of_iff' _ (Iff.of_eq (k0_chk52.eq_1 v23 v307))
theorem k0_idx52_inb : ∀ (v23 : IVec S16 32) (v307 : IVec S16 32) (k0_hw52 : k0_chk52 v23 v307), ∀ a x, ((![v23, v307] : Fin 2 → IVec S16 32) a x).toNat < S128x64.size a := fun v23 v307 k0_hw52 => k0_hw52
def k0_off456 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_288 : BitVec 32 := 10#32
  let v305 : BitVec 32 := Scalar.muli arg19 c10_i32_288
  let c1_i32_289 : BitVec 32 := 1#32
  let v306 : BitVec 32 := Scalar.addi v305 c1_i32_289
  let v309 : Index := Scalar.indexCast v306
  let c0_290 : Index := 0#32
  ![v309.toNat, 0]
def k0_off457 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_288 : BitVec 32 := 10#32
  let v305 : BitVec 32 := Scalar.muli arg19 c10_i32_288
  let c1_i32_289 : BitVec 32 := 1#32
  let v306 : BitVec 32 := Scalar.addi v305 c1_i32_289
  let v313 : Index := Scalar.indexCast v306
  let c16_291 : Index := 16#32
  ![v313.toNat, 16]
def k0_off458 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_288 : BitVec 32 := 10#32
  let v305 : BitVec 32 := Scalar.muli arg19 c10_i32_288
  let c1_i32_289 : BitVec 32 := 1#32
  let v306 : BitVec 32 := Scalar.addi v305 c1_i32_289
  let v317 : Index := Scalar.indexCast v306
  let c32_292 : Index := 32#32
  ![v317.toNat, 32]
def k0_off459 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_288 : BitVec 32 := 10#32
  let v305 : BitVec 32 := Scalar.muli arg19 c10_i32_288
  let c1_i32_289 : BitVec 32 := 1#32
  let v306 : BitVec 32 := Scalar.addi v305 c1_i32_289
  let v321 : Index := Scalar.indexCast v306
  let c48_293 : Index := 48#32
  ![v321.toNat, 48]
def k0_off460 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_288 : BitVec 32 := 10#32
  let v305 : BitVec 32 := Scalar.muli arg19 c10_i32_288
  let c1_i32_289 : BitVec 32 := 1#32
  let v306 : BitVec 32 := Scalar.addi v305 c1_i32_289
  let v325 : Index := Scalar.indexCast v306
  let c64_294 : Index := 64#32
  ![v325.toNat, 64]
def k0_off461 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_288 : BitVec 32 := 10#32
  let v305 : BitVec 32 := Scalar.muli arg19 c10_i32_288
  let c1_i32_289 : BitVec 32 := 1#32
  let v306 : BitVec 32 := Scalar.addi v305 c1_i32_289
  let v329 : Index := Scalar.indexCast v306
  let c80_295 : Index := 80#32
  ![v329.toNat, 80]
def k0_off462 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_288 : BitVec 32 := 10#32
  let v305 : BitVec 32 := Scalar.muli arg19 c10_i32_288
  let c1_i32_289 : BitVec 32 := 1#32
  let v306 : BitVec 32 := Scalar.addi v305 c1_i32_289
  let v333 : Index := Scalar.indexCast v306
  let c96_296 : Index := 96#32
  ![v333.toNat, 96]
def k0_off463 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_288 : BitVec 32 := 10#32
  let v305 : BitVec 32 := Scalar.muli arg19 c10_i32_288
  let c1_i32_289 : BitVec 32 := 1#32
  let v306 : BitVec 32 := Scalar.addi v305 c1_i32_289
  let v337 : Index := Scalar.indexCast v306
  let c112_297 : Index := 112#32
  ![v337.toNat, 112]

def k0_chk53 (v23 : IVec S16 32) (v343 : IVec S16 32) : Prop :=
  (∀ a x, ((![v23, v343] : Fin 2 → IVec S16 32) a x).toNat < S128x64.size a)
instance k0_chk53.dec : ∀ (v23 : IVec S16 32) (v343 : IVec S16 32), Decidable (k0_chk53 v23 v343) := fun v23 v343 => decidable_of_iff' _ (Iff.of_eq (k0_chk53.eq_1 v23 v343))
theorem k0_idx53_inb : ∀ (v23 : IVec S16 32) (v343 : IVec S16 32) (k0_hw53 : k0_chk53 v23 v343), ∀ a x, ((![v23, v343] : Fin 2 → IVec S16 32) a x).toNat < S128x64.size a := fun v23 v343 k0_hw53 => k0_hw53
def k0_off464 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_298 : BitVec 32 := 10#32
  let v341 : BitVec 32 := Scalar.muli arg19 c10_i32_298
  let c2_i32_299 : BitVec 32 := 2#32
  let v342 : BitVec 32 := Scalar.addi v341 c2_i32_299
  let v345 : Index := Scalar.indexCast v342
  let c0_300 : Index := 0#32
  ![v345.toNat, 0]
def k0_off465 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_298 : BitVec 32 := 10#32
  let v341 : BitVec 32 := Scalar.muli arg19 c10_i32_298
  let c2_i32_299 : BitVec 32 := 2#32
  let v342 : BitVec 32 := Scalar.addi v341 c2_i32_299
  let v349 : Index := Scalar.indexCast v342
  let c16_301 : Index := 16#32
  ![v349.toNat, 16]
def k0_off466 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_298 : BitVec 32 := 10#32
  let v341 : BitVec 32 := Scalar.muli arg19 c10_i32_298
  let c2_i32_299 : BitVec 32 := 2#32
  let v342 : BitVec 32 := Scalar.addi v341 c2_i32_299
  let v353 : Index := Scalar.indexCast v342
  let c32_302 : Index := 32#32
  ![v353.toNat, 32]
def k0_off467 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_298 : BitVec 32 := 10#32
  let v341 : BitVec 32 := Scalar.muli arg19 c10_i32_298
  let c2_i32_299 : BitVec 32 := 2#32
  let v342 : BitVec 32 := Scalar.addi v341 c2_i32_299
  let v357 : Index := Scalar.indexCast v342
  let c48_303 : Index := 48#32
  ![v357.toNat, 48]
def k0_off468 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_298 : BitVec 32 := 10#32
  let v341 : BitVec 32 := Scalar.muli arg19 c10_i32_298
  let c2_i32_299 : BitVec 32 := 2#32
  let v342 : BitVec 32 := Scalar.addi v341 c2_i32_299
  let v361 : Index := Scalar.indexCast v342
  let c64_304 : Index := 64#32
  ![v361.toNat, 64]
def k0_off469 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_298 : BitVec 32 := 10#32
  let v341 : BitVec 32 := Scalar.muli arg19 c10_i32_298
  let c2_i32_299 : BitVec 32 := 2#32
  let v342 : BitVec 32 := Scalar.addi v341 c2_i32_299
  let v365 : Index := Scalar.indexCast v342
  let c80_305 : Index := 80#32
  ![v365.toNat, 80]
def k0_off470 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_298 : BitVec 32 := 10#32
  let v341 : BitVec 32 := Scalar.muli arg19 c10_i32_298
  let c2_i32_299 : BitVec 32 := 2#32
  let v342 : BitVec 32 := Scalar.addi v341 c2_i32_299
  let v369 : Index := Scalar.indexCast v342
  let c96_306 : Index := 96#32
  ![v369.toNat, 96]
def k0_off471 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_298 : BitVec 32 := 10#32
  let v341 : BitVec 32 := Scalar.muli arg19 c10_i32_298
  let c2_i32_299 : BitVec 32 := 2#32
  let v342 : BitVec 32 := Scalar.addi v341 c2_i32_299
  let v373 : Index := Scalar.indexCast v342
  let c112_307 : Index := 112#32
  ![v373.toNat, 112]

def k0_chk54 (v23 : IVec S16 32) (v379 : IVec S16 32) : Prop :=
  (∀ a x, ((![v23, v379] : Fin 2 → IVec S16 32) a x).toNat < S128x64.size a)
instance k0_chk54.dec : ∀ (v23 : IVec S16 32) (v379 : IVec S16 32), Decidable (k0_chk54 v23 v379) := fun v23 v379 => decidable_of_iff' _ (Iff.of_eq (k0_chk54.eq_1 v23 v379))
theorem k0_idx54_inb : ∀ (v23 : IVec S16 32) (v379 : IVec S16 32) (k0_hw54 : k0_chk54 v23 v379), ∀ a x, ((![v23, v379] : Fin 2 → IVec S16 32) a x).toNat < S128x64.size a := fun v23 v379 k0_hw54 => k0_hw54
def k0_off472 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_308 : BitVec 32 := 10#32
  let v377 : BitVec 32 := Scalar.muli arg19 c10_i32_308
  let c3_i32_309 : BitVec 32 := 3#32
  let v378 : BitVec 32 := Scalar.addi v377 c3_i32_309
  let v381 : Index := Scalar.indexCast v378
  let c0_310 : Index := 0#32
  ![v381.toNat, 0]
def k0_off473 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_308 : BitVec 32 := 10#32
  let v377 : BitVec 32 := Scalar.muli arg19 c10_i32_308
  let c3_i32_309 : BitVec 32 := 3#32
  let v378 : BitVec 32 := Scalar.addi v377 c3_i32_309
  let v385 : Index := Scalar.indexCast v378
  let c16_311 : Index := 16#32
  ![v385.toNat, 16]
def k0_off474 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_308 : BitVec 32 := 10#32
  let v377 : BitVec 32 := Scalar.muli arg19 c10_i32_308
  let c3_i32_309 : BitVec 32 := 3#32
  let v378 : BitVec 32 := Scalar.addi v377 c3_i32_309
  let v389 : Index := Scalar.indexCast v378
  let c32_312 : Index := 32#32
  ![v389.toNat, 32]
def k0_off475 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_308 : BitVec 32 := 10#32
  let v377 : BitVec 32 := Scalar.muli arg19 c10_i32_308
  let c3_i32_309 : BitVec 32 := 3#32
  let v378 : BitVec 32 := Scalar.addi v377 c3_i32_309
  let v393 : Index := Scalar.indexCast v378
  let c48_313 : Index := 48#32
  ![v393.toNat, 48]
def k0_off476 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_308 : BitVec 32 := 10#32
  let v377 : BitVec 32 := Scalar.muli arg19 c10_i32_308
  let c3_i32_309 : BitVec 32 := 3#32
  let v378 : BitVec 32 := Scalar.addi v377 c3_i32_309
  let v397 : Index := Scalar.indexCast v378
  let c64_314 : Index := 64#32
  ![v397.toNat, 64]
def k0_off477 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_308 : BitVec 32 := 10#32
  let v377 : BitVec 32 := Scalar.muli arg19 c10_i32_308
  let c3_i32_309 : BitVec 32 := 3#32
  let v378 : BitVec 32 := Scalar.addi v377 c3_i32_309
  let v401 : Index := Scalar.indexCast v378
  let c80_315 : Index := 80#32
  ![v401.toNat, 80]
def k0_off478 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_308 : BitVec 32 := 10#32
  let v377 : BitVec 32 := Scalar.muli arg19 c10_i32_308
  let c3_i32_309 : BitVec 32 := 3#32
  let v378 : BitVec 32 := Scalar.addi v377 c3_i32_309
  let v405 : Index := Scalar.indexCast v378
  let c96_316 : Index := 96#32
  ![v405.toNat, 96]
def k0_off479 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_308 : BitVec 32 := 10#32
  let v377 : BitVec 32 := Scalar.muli arg19 c10_i32_308
  let c3_i32_309 : BitVec 32 := 3#32
  let v378 : BitVec 32 := Scalar.addi v377 c3_i32_309
  let v409 : Index := Scalar.indexCast v378
  let c112_317 : Index := 112#32
  ![v409.toNat, 112]

def k0_chk55 (v23 : IVec S16 32) (v415 : IVec S16 32) : Prop :=
  (∀ a x, ((![v23, v415] : Fin 2 → IVec S16 32) a x).toNat < S128x64.size a)
instance k0_chk55.dec : ∀ (v23 : IVec S16 32) (v415 : IVec S16 32), Decidable (k0_chk55 v23 v415) := fun v23 v415 => decidable_of_iff' _ (Iff.of_eq (k0_chk55.eq_1 v23 v415))
theorem k0_idx55_inb : ∀ (v23 : IVec S16 32) (v415 : IVec S16 32) (k0_hw55 : k0_chk55 v23 v415), ∀ a x, ((![v23, v415] : Fin 2 → IVec S16 32) a x).toNat < S128x64.size a := fun v23 v415 k0_hw55 => k0_hw55
def k0_off480 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_318 : BitVec 32 := 10#32
  let v413 : BitVec 32 := Scalar.muli arg19 c10_i32_318
  let c4_i32 : BitVec 32 := 4#32
  let v414 : BitVec 32 := Scalar.addi v413 c4_i32
  let v417 : Index := Scalar.indexCast v414
  let c0_319 : Index := 0#32
  ![v417.toNat, 0]
def k0_off481 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_318 : BitVec 32 := 10#32
  let v413 : BitVec 32 := Scalar.muli arg19 c10_i32_318
  let c4_i32 : BitVec 32 := 4#32
  let v414 : BitVec 32 := Scalar.addi v413 c4_i32
  let v421 : Index := Scalar.indexCast v414
  let c16_320 : Index := 16#32
  ![v421.toNat, 16]
def k0_off482 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_318 : BitVec 32 := 10#32
  let v413 : BitVec 32 := Scalar.muli arg19 c10_i32_318
  let c4_i32 : BitVec 32 := 4#32
  let v414 : BitVec 32 := Scalar.addi v413 c4_i32
  let v425 : Index := Scalar.indexCast v414
  let c32_321 : Index := 32#32
  ![v425.toNat, 32]
def k0_off483 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_318 : BitVec 32 := 10#32
  let v413 : BitVec 32 := Scalar.muli arg19 c10_i32_318
  let c4_i32 : BitVec 32 := 4#32
  let v414 : BitVec 32 := Scalar.addi v413 c4_i32
  let v429 : Index := Scalar.indexCast v414
  let c48_322 : Index := 48#32
  ![v429.toNat, 48]
def k0_off484 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_318 : BitVec 32 := 10#32
  let v413 : BitVec 32 := Scalar.muli arg19 c10_i32_318
  let c4_i32 : BitVec 32 := 4#32
  let v414 : BitVec 32 := Scalar.addi v413 c4_i32
  let v433 : Index := Scalar.indexCast v414
  let c64_323 : Index := 64#32
  ![v433.toNat, 64]
def k0_off485 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_318 : BitVec 32 := 10#32
  let v413 : BitVec 32 := Scalar.muli arg19 c10_i32_318
  let c4_i32 : BitVec 32 := 4#32
  let v414 : BitVec 32 := Scalar.addi v413 c4_i32
  let v437 : Index := Scalar.indexCast v414
  let c80_324 : Index := 80#32
  ![v437.toNat, 80]
def k0_off486 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_318 : BitVec 32 := 10#32
  let v413 : BitVec 32 := Scalar.muli arg19 c10_i32_318
  let c4_i32 : BitVec 32 := 4#32
  let v414 : BitVec 32 := Scalar.addi v413 c4_i32
  let v441 : Index := Scalar.indexCast v414
  let c96_325 : Index := 96#32
  ![v441.toNat, 96]
def k0_off487 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_318 : BitVec 32 := 10#32
  let v413 : BitVec 32 := Scalar.muli arg19 c10_i32_318
  let c4_i32 : BitVec 32 := 4#32
  let v414 : BitVec 32 := Scalar.addi v413 c4_i32
  let v445 : Index := Scalar.indexCast v414
  let c112_326 : Index := 112#32
  ![v445.toNat, 112]

def k0_chk56 (v23 : IVec S16 32) (v451 : IVec S16 32) : Prop :=
  (∀ a x, ((![v23, v451] : Fin 2 → IVec S16 32) a x).toNat < S128x64.size a)
instance k0_chk56.dec : ∀ (v23 : IVec S16 32) (v451 : IVec S16 32), Decidable (k0_chk56 v23 v451) := fun v23 v451 => decidable_of_iff' _ (Iff.of_eq (k0_chk56.eq_1 v23 v451))
theorem k0_idx56_inb : ∀ (v23 : IVec S16 32) (v451 : IVec S16 32) (k0_hw56 : k0_chk56 v23 v451), ∀ a x, ((![v23, v451] : Fin 2 → IVec S16 32) a x).toNat < S128x64.size a := fun v23 v451 k0_hw56 => k0_hw56
def k0_off488 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_327 : BitVec 32 := 10#32
  let v449 : BitVec 32 := Scalar.muli arg19 c10_i32_327
  let c5_i32_328 : BitVec 32 := 5#32
  let v450 : BitVec 32 := Scalar.addi v449 c5_i32_328
  let v453 : Index := Scalar.indexCast v450
  let c0_329 : Index := 0#32
  ![v453.toNat, 0]
def k0_off489 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_327 : BitVec 32 := 10#32
  let v449 : BitVec 32 := Scalar.muli arg19 c10_i32_327
  let c5_i32_328 : BitVec 32 := 5#32
  let v450 : BitVec 32 := Scalar.addi v449 c5_i32_328
  let v457 : Index := Scalar.indexCast v450
  let c16_330 : Index := 16#32
  ![v457.toNat, 16]
def k0_off490 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_327 : BitVec 32 := 10#32
  let v449 : BitVec 32 := Scalar.muli arg19 c10_i32_327
  let c5_i32_328 : BitVec 32 := 5#32
  let v450 : BitVec 32 := Scalar.addi v449 c5_i32_328
  let v461 : Index := Scalar.indexCast v450
  let c32_331 : Index := 32#32
  ![v461.toNat, 32]
def k0_off491 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_327 : BitVec 32 := 10#32
  let v449 : BitVec 32 := Scalar.muli arg19 c10_i32_327
  let c5_i32_328 : BitVec 32 := 5#32
  let v450 : BitVec 32 := Scalar.addi v449 c5_i32_328
  let v465 : Index := Scalar.indexCast v450
  let c48_332 : Index := 48#32
  ![v465.toNat, 48]
def k0_off492 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_327 : BitVec 32 := 10#32
  let v449 : BitVec 32 := Scalar.muli arg19 c10_i32_327
  let c5_i32_328 : BitVec 32 := 5#32
  let v450 : BitVec 32 := Scalar.addi v449 c5_i32_328
  let v469 : Index := Scalar.indexCast v450
  let c64_333 : Index := 64#32
  ![v469.toNat, 64]
def k0_off493 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_327 : BitVec 32 := 10#32
  let v449 : BitVec 32 := Scalar.muli arg19 c10_i32_327
  let c5_i32_328 : BitVec 32 := 5#32
  let v450 : BitVec 32 := Scalar.addi v449 c5_i32_328
  let v473 : Index := Scalar.indexCast v450
  let c80_334 : Index := 80#32
  ![v473.toNat, 80]
def k0_off494 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_327 : BitVec 32 := 10#32
  let v449 : BitVec 32 := Scalar.muli arg19 c10_i32_327
  let c5_i32_328 : BitVec 32 := 5#32
  let v450 : BitVec 32 := Scalar.addi v449 c5_i32_328
  let v477 : Index := Scalar.indexCast v450
  let c96_335 : Index := 96#32
  ![v477.toNat, 96]
def k0_off495 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_327 : BitVec 32 := 10#32
  let v449 : BitVec 32 := Scalar.muli arg19 c10_i32_327
  let c5_i32_328 : BitVec 32 := 5#32
  let v450 : BitVec 32 := Scalar.addi v449 c5_i32_328
  let v481 : Index := Scalar.indexCast v450
  let c112_336 : Index := 112#32
  ![v481.toNat, 112]

def k0_chk57 (v23 : IVec S16 32) (v487 : IVec S16 32) : Prop :=
  (∀ a x, ((![v23, v487] : Fin 2 → IVec S16 32) a x).toNat < S128x64.size a)
instance k0_chk57.dec : ∀ (v23 : IVec S16 32) (v487 : IVec S16 32), Decidable (k0_chk57 v23 v487) := fun v23 v487 => decidable_of_iff' _ (Iff.of_eq (k0_chk57.eq_1 v23 v487))
theorem k0_idx57_inb : ∀ (v23 : IVec S16 32) (v487 : IVec S16 32) (k0_hw57 : k0_chk57 v23 v487), ∀ a x, ((![v23, v487] : Fin 2 → IVec S16 32) a x).toNat < S128x64.size a := fun v23 v487 k0_hw57 => k0_hw57
def k0_off496 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_337 : BitVec 32 := 10#32
  let v485 : BitVec 32 := Scalar.muli arg19 c10_i32_337
  let c6_i32 : BitVec 32 := 6#32
  let v486 : BitVec 32 := Scalar.addi v485 c6_i32
  let v489 : Index := Scalar.indexCast v486
  let c0_338 : Index := 0#32
  ![v489.toNat, 0]
def k0_off497 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_337 : BitVec 32 := 10#32
  let v485 : BitVec 32 := Scalar.muli arg19 c10_i32_337
  let c6_i32 : BitVec 32 := 6#32
  let v486 : BitVec 32 := Scalar.addi v485 c6_i32
  let v493 : Index := Scalar.indexCast v486
  let c16_339 : Index := 16#32
  ![v493.toNat, 16]
def k0_off498 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_337 : BitVec 32 := 10#32
  let v485 : BitVec 32 := Scalar.muli arg19 c10_i32_337
  let c6_i32 : BitVec 32 := 6#32
  let v486 : BitVec 32 := Scalar.addi v485 c6_i32
  let v497 : Index := Scalar.indexCast v486
  let c32_340 : Index := 32#32
  ![v497.toNat, 32]
def k0_off499 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_337 : BitVec 32 := 10#32
  let v485 : BitVec 32 := Scalar.muli arg19 c10_i32_337
  let c6_i32 : BitVec 32 := 6#32
  let v486 : BitVec 32 := Scalar.addi v485 c6_i32
  let v501 : Index := Scalar.indexCast v486
  let c48_341 : Index := 48#32
  ![v501.toNat, 48]
def k0_off500 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_337 : BitVec 32 := 10#32
  let v485 : BitVec 32 := Scalar.muli arg19 c10_i32_337
  let c6_i32 : BitVec 32 := 6#32
  let v486 : BitVec 32 := Scalar.addi v485 c6_i32
  let v505 : Index := Scalar.indexCast v486
  let c64_342 : Index := 64#32
  ![v505.toNat, 64]
def k0_off501 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_337 : BitVec 32 := 10#32
  let v485 : BitVec 32 := Scalar.muli arg19 c10_i32_337
  let c6_i32 : BitVec 32 := 6#32
  let v486 : BitVec 32 := Scalar.addi v485 c6_i32
  let v509 : Index := Scalar.indexCast v486
  let c80_343 : Index := 80#32
  ![v509.toNat, 80]
def k0_off502 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_337 : BitVec 32 := 10#32
  let v485 : BitVec 32 := Scalar.muli arg19 c10_i32_337
  let c6_i32 : BitVec 32 := 6#32
  let v486 : BitVec 32 := Scalar.addi v485 c6_i32
  let v513 : Index := Scalar.indexCast v486
  let c96_344 : Index := 96#32
  ![v513.toNat, 96]
def k0_off503 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_337 : BitVec 32 := 10#32
  let v485 : BitVec 32 := Scalar.muli arg19 c10_i32_337
  let c6_i32 : BitVec 32 := 6#32
  let v486 : BitVec 32 := Scalar.addi v485 c6_i32
  let v517 : Index := Scalar.indexCast v486
  let c112_345 : Index := 112#32
  ![v517.toNat, 112]

def k0_chk58 (v23 : IVec S16 32) (v523 : IVec S16 32) : Prop :=
  (∀ a x, ((![v23, v523] : Fin 2 → IVec S16 32) a x).toNat < S128x64.size a)
instance k0_chk58.dec : ∀ (v23 : IVec S16 32) (v523 : IVec S16 32), Decidable (k0_chk58 v23 v523) := fun v23 v523 => decidable_of_iff' _ (Iff.of_eq (k0_chk58.eq_1 v23 v523))
theorem k0_idx58_inb : ∀ (v23 : IVec S16 32) (v523 : IVec S16 32) (k0_hw58 : k0_chk58 v23 v523), ∀ a x, ((![v23, v523] : Fin 2 → IVec S16 32) a x).toNat < S128x64.size a := fun v23 v523 k0_hw58 => k0_hw58
def k0_off504 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_346 : BitVec 32 := 10#32
  let v521 : BitVec 32 := Scalar.muli arg19 c10_i32_346
  let c7_i32 : BitVec 32 := 7#32
  let v522 : BitVec 32 := Scalar.addi v521 c7_i32
  let v525 : Index := Scalar.indexCast v522
  let c0_347 : Index := 0#32
  ![v525.toNat, 0]
def k0_off505 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_346 : BitVec 32 := 10#32
  let v521 : BitVec 32 := Scalar.muli arg19 c10_i32_346
  let c7_i32 : BitVec 32 := 7#32
  let v522 : BitVec 32 := Scalar.addi v521 c7_i32
  let v529 : Index := Scalar.indexCast v522
  let c16_348 : Index := 16#32
  ![v529.toNat, 16]
def k0_off506 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_346 : BitVec 32 := 10#32
  let v521 : BitVec 32 := Scalar.muli arg19 c10_i32_346
  let c7_i32 : BitVec 32 := 7#32
  let v522 : BitVec 32 := Scalar.addi v521 c7_i32
  let v533 : Index := Scalar.indexCast v522
  let c32_349 : Index := 32#32
  ![v533.toNat, 32]
def k0_off507 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_346 : BitVec 32 := 10#32
  let v521 : BitVec 32 := Scalar.muli arg19 c10_i32_346
  let c7_i32 : BitVec 32 := 7#32
  let v522 : BitVec 32 := Scalar.addi v521 c7_i32
  let v537 : Index := Scalar.indexCast v522
  let c48_350 : Index := 48#32
  ![v537.toNat, 48]
def k0_off508 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_346 : BitVec 32 := 10#32
  let v521 : BitVec 32 := Scalar.muli arg19 c10_i32_346
  let c7_i32 : BitVec 32 := 7#32
  let v522 : BitVec 32 := Scalar.addi v521 c7_i32
  let v541 : Index := Scalar.indexCast v522
  let c64_351 : Index := 64#32
  ![v541.toNat, 64]
def k0_off509 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_346 : BitVec 32 := 10#32
  let v521 : BitVec 32 := Scalar.muli arg19 c10_i32_346
  let c7_i32 : BitVec 32 := 7#32
  let v522 : BitVec 32 := Scalar.addi v521 c7_i32
  let v545 : Index := Scalar.indexCast v522
  let c80_352 : Index := 80#32
  ![v545.toNat, 80]
def k0_off510 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_346 : BitVec 32 := 10#32
  let v521 : BitVec 32 := Scalar.muli arg19 c10_i32_346
  let c7_i32 : BitVec 32 := 7#32
  let v522 : BitVec 32 := Scalar.addi v521 c7_i32
  let v549 : Index := Scalar.indexCast v522
  let c96_353 : Index := 96#32
  ![v549.toNat, 96]
def k0_off511 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_346 : BitVec 32 := 10#32
  let v521 : BitVec 32 := Scalar.muli arg19 c10_i32_346
  let c7_i32 : BitVec 32 := 7#32
  let v522 : BitVec 32 := Scalar.addi v521 c7_i32
  let v553 : Index := Scalar.indexCast v522
  let c112_354 : Index := 112#32
  ![v553.toNat, 112]

def k0_chk59 (v23 : IVec S16 32) (v559 : IVec S16 32) : Prop :=
  (∀ a x, ((![v23, v559] : Fin 2 → IVec S16 32) a x).toNat < S128x64.size a)
instance k0_chk59.dec : ∀ (v23 : IVec S16 32) (v559 : IVec S16 32), Decidable (k0_chk59 v23 v559) := fun v23 v559 => decidable_of_iff' _ (Iff.of_eq (k0_chk59.eq_1 v23 v559))
theorem k0_idx59_inb : ∀ (v23 : IVec S16 32) (v559 : IVec S16 32) (k0_hw59 : k0_chk59 v23 v559), ∀ a x, ((![v23, v559] : Fin 2 → IVec S16 32) a x).toNat < S128x64.size a := fun v23 v559 k0_hw59 => k0_hw59
def k0_off512 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_355 : BitVec 32 := 10#32
  let v557 : BitVec 32 := Scalar.muli arg19 c10_i32_355
  let c8_i32 : BitVec 32 := 8#32
  let v558 : BitVec 32 := Scalar.addi v557 c8_i32
  let v561 : Index := Scalar.indexCast v558
  let c0_356 : Index := 0#32
  ![v561.toNat, 0]
def k0_off513 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_355 : BitVec 32 := 10#32
  let v557 : BitVec 32 := Scalar.muli arg19 c10_i32_355
  let c8_i32 : BitVec 32 := 8#32
  let v558 : BitVec 32 := Scalar.addi v557 c8_i32
  let v565 : Index := Scalar.indexCast v558
  let c16_357 : Index := 16#32
  ![v565.toNat, 16]
def k0_off514 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_355 : BitVec 32 := 10#32
  let v557 : BitVec 32 := Scalar.muli arg19 c10_i32_355
  let c8_i32 : BitVec 32 := 8#32
  let v558 : BitVec 32 := Scalar.addi v557 c8_i32
  let v569 : Index := Scalar.indexCast v558
  let c32_358 : Index := 32#32
  ![v569.toNat, 32]
def k0_off515 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_355 : BitVec 32 := 10#32
  let v557 : BitVec 32 := Scalar.muli arg19 c10_i32_355
  let c8_i32 : BitVec 32 := 8#32
  let v558 : BitVec 32 := Scalar.addi v557 c8_i32
  let v573 : Index := Scalar.indexCast v558
  let c48_359 : Index := 48#32
  ![v573.toNat, 48]
def k0_off516 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_355 : BitVec 32 := 10#32
  let v557 : BitVec 32 := Scalar.muli arg19 c10_i32_355
  let c8_i32 : BitVec 32 := 8#32
  let v558 : BitVec 32 := Scalar.addi v557 c8_i32
  let v577 : Index := Scalar.indexCast v558
  let c64_360 : Index := 64#32
  ![v577.toNat, 64]
def k0_off517 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_355 : BitVec 32 := 10#32
  let v557 : BitVec 32 := Scalar.muli arg19 c10_i32_355
  let c8_i32 : BitVec 32 := 8#32
  let v558 : BitVec 32 := Scalar.addi v557 c8_i32
  let v581 : Index := Scalar.indexCast v558
  let c80_361 : Index := 80#32
  ![v581.toNat, 80]
def k0_off518 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_355 : BitVec 32 := 10#32
  let v557 : BitVec 32 := Scalar.muli arg19 c10_i32_355
  let c8_i32 : BitVec 32 := 8#32
  let v558 : BitVec 32 := Scalar.addi v557 c8_i32
  let v585 : Index := Scalar.indexCast v558
  let c96_362 : Index := 96#32
  ![v585.toNat, 96]
def k0_off519 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_355 : BitVec 32 := 10#32
  let v557 : BitVec 32 := Scalar.muli arg19 c10_i32_355
  let c8_i32 : BitVec 32 := 8#32
  let v558 : BitVec 32 := Scalar.addi v557 c8_i32
  let v589 : Index := Scalar.indexCast v558
  let c112_363 : Index := 112#32
  ![v589.toNat, 112]

def k0_chk60 (v23 : IVec S16 32) (v595 : IVec S16 32) : Prop :=
  (∀ a x, ((![v23, v595] : Fin 2 → IVec S16 32) a x).toNat < S128x64.size a)
instance k0_chk60.dec : ∀ (v23 : IVec S16 32) (v595 : IVec S16 32), Decidable (k0_chk60 v23 v595) := fun v23 v595 => decidable_of_iff' _ (Iff.of_eq (k0_chk60.eq_1 v23 v595))
theorem k0_idx60_inb : ∀ (v23 : IVec S16 32) (v595 : IVec S16 32) (k0_hw60 : k0_chk60 v23 v595), ∀ a x, ((![v23, v595] : Fin 2 → IVec S16 32) a x).toNat < S128x64.size a := fun v23 v595 k0_hw60 => k0_hw60
def k0_off520 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_364 : BitVec 32 := 10#32
  let v593 : BitVec 32 := Scalar.muli arg19 c10_i32_364
  let c9_i32 : BitVec 32 := 9#32
  let v594 : BitVec 32 := Scalar.addi v593 c9_i32
  let v597 : Index := Scalar.indexCast v594
  let c0_365 : Index := 0#32
  ![v597.toNat, 0]
def k0_off521 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_364 : BitVec 32 := 10#32
  let v593 : BitVec 32 := Scalar.muli arg19 c10_i32_364
  let c9_i32 : BitVec 32 := 9#32
  let v594 : BitVec 32 := Scalar.addi v593 c9_i32
  let v601 : Index := Scalar.indexCast v594
  let c16_366 : Index := 16#32
  ![v601.toNat, 16]
def k0_off522 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_364 : BitVec 32 := 10#32
  let v593 : BitVec 32 := Scalar.muli arg19 c10_i32_364
  let c9_i32 : BitVec 32 := 9#32
  let v594 : BitVec 32 := Scalar.addi v593 c9_i32
  let v605 : Index := Scalar.indexCast v594
  let c32_367 : Index := 32#32
  ![v605.toNat, 32]
def k0_off523 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_364 : BitVec 32 := 10#32
  let v593 : BitVec 32 := Scalar.muli arg19 c10_i32_364
  let c9_i32 : BitVec 32 := 9#32
  let v594 : BitVec 32 := Scalar.addi v593 c9_i32
  let v609 : Index := Scalar.indexCast v594
  let c48_368 : Index := 48#32
  ![v609.toNat, 48]
def k0_off524 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_364 : BitVec 32 := 10#32
  let v593 : BitVec 32 := Scalar.muli arg19 c10_i32_364
  let c9_i32 : BitVec 32 := 9#32
  let v594 : BitVec 32 := Scalar.addi v593 c9_i32
  let v613 : Index := Scalar.indexCast v594
  let c64_369 : Index := 64#32
  ![v613.toNat, 64]
def k0_off525 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_364 : BitVec 32 := 10#32
  let v593 : BitVec 32 := Scalar.muli arg19 c10_i32_364
  let c9_i32 : BitVec 32 := 9#32
  let v594 : BitVec 32 := Scalar.addi v593 c9_i32
  let v617 : Index := Scalar.indexCast v594
  let c80_370 : Index := 80#32
  ![v617.toNat, 80]
def k0_off526 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_364 : BitVec 32 := 10#32
  let v593 : BitVec 32 := Scalar.muli arg19 c10_i32_364
  let c9_i32 : BitVec 32 := 9#32
  let v594 : BitVec 32 := Scalar.addi v593 c9_i32
  let v621 : Index := Scalar.indexCast v594
  let c96_371 : Index := 96#32
  ![v621.toNat, 96]
def k0_off527 (k0_t7 : Fin k0_t7_loop.trips) : Fin 2 → Nat :=
  let c0_i32_31 : BitVec 32 := 0#32
  let c1_i32_32 : BitVec 32 := 1#32
  let arg19 : BitVec 32 := Scf.iv c0_i32_31 c1_i32_32 k0_t7
  let c10_i32_364 : BitVec 32 := 10#32
  let v593 : BitVec 32 := Scalar.muli arg19 c10_i32_364
  let c9_i32 : BitVec 32 := 9#32
  let v594 : BitVec 32 := Scalar.addi v593 c9_i32
  let v625 : Index := Scalar.indexCast v594
  let c112_372 : Index := 112#32
  ![v625.toNat, 112]
@[reducible] def k0_t8_loop : Scf.Loop 32 :=
  let c0_i32_57 : BitVec 32 := 0#32
  let c5_i32_58 : BitVec 32 := 5#32
  let v65 : BitVec 32 := Scalar.addi c0_i32_57 c5_i32_58
  let c1_i32_59 : BitVec 32 := 1#32
  ⟨c0_i32_57, v65, c1_i32_59⟩

def k0_chk61 (v56 : IVec S16 32) (v271 : IVec S16 32) : Prop :=
  (∀ a x, ((![v56, v271] : Fin 2 → IVec S16 32) a x).toNat < S128x64.size a)
instance k0_chk61.dec : ∀ (v56 : IVec S16 32) (v271 : IVec S16 32), Decidable (k0_chk61 v56 v271) := fun v56 v271 => decidable_of_iff' _ (Iff.of_eq (k0_chk61.eq_1 v56 v271))
theorem k0_idx61_inb : ∀ (v56 : IVec S16 32) (v271 : IVec S16 32) (k0_hw61 : k0_chk61 v56 v271), ∀ a x, ((![v56, v271] : Fin 2 → IVec S16 32) a x).toNat < S128x64.size a := fun v56 v271 k0_hw61 => k0_hw61
def k0_off528 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32 : BitVec 32 := 10#32
  let v269 : BitVec 32 := Scalar.muli arg19 c10_i32
  let c0_i32_279 : BitVec 32 := 0#32
  let v270 : BitVec 32 := Scalar.addi v269 c0_i32_279
  let v273 : Index := Scalar.indexCast v270
  let c0_280 : Index := 0#32
  ![v273.toNat, 0]
def k0_off529 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32 : BitVec 32 := 10#32
  let v269 : BitVec 32 := Scalar.muli arg19 c10_i32
  let c0_i32_279 : BitVec 32 := 0#32
  let v270 : BitVec 32 := Scalar.addi v269 c0_i32_279
  let v277 : Index := Scalar.indexCast v270
  let c16_281 : Index := 16#32
  ![v277.toNat, 16]
def k0_off530 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32 : BitVec 32 := 10#32
  let v269 : BitVec 32 := Scalar.muli arg19 c10_i32
  let c0_i32_279 : BitVec 32 := 0#32
  let v270 : BitVec 32 := Scalar.addi v269 c0_i32_279
  let v281 : Index := Scalar.indexCast v270
  let c32_282 : Index := 32#32
  ![v281.toNat, 32]
def k0_off531 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32 : BitVec 32 := 10#32
  let v269 : BitVec 32 := Scalar.muli arg19 c10_i32
  let c0_i32_279 : BitVec 32 := 0#32
  let v270 : BitVec 32 := Scalar.addi v269 c0_i32_279
  let v285 : Index := Scalar.indexCast v270
  let c48_283 : Index := 48#32
  ![v285.toNat, 48]
def k0_off532 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32 : BitVec 32 := 10#32
  let v269 : BitVec 32 := Scalar.muli arg19 c10_i32
  let c0_i32_279 : BitVec 32 := 0#32
  let v270 : BitVec 32 := Scalar.addi v269 c0_i32_279
  let v289 : Index := Scalar.indexCast v270
  let c64_284 : Index := 64#32
  ![v289.toNat, 64]
def k0_off533 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32 : BitVec 32 := 10#32
  let v269 : BitVec 32 := Scalar.muli arg19 c10_i32
  let c0_i32_279 : BitVec 32 := 0#32
  let v270 : BitVec 32 := Scalar.addi v269 c0_i32_279
  let v293 : Index := Scalar.indexCast v270
  let c80_285 : Index := 80#32
  ![v293.toNat, 80]
def k0_off534 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32 : BitVec 32 := 10#32
  let v269 : BitVec 32 := Scalar.muli arg19 c10_i32
  let c0_i32_279 : BitVec 32 := 0#32
  let v270 : BitVec 32 := Scalar.addi v269 c0_i32_279
  let v297 : Index := Scalar.indexCast v270
  let c96_286 : Index := 96#32
  ![v297.toNat, 96]
def k0_off535 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32 : BitVec 32 := 10#32
  let v269 : BitVec 32 := Scalar.muli arg19 c10_i32
  let c0_i32_279 : BitVec 32 := 0#32
  let v270 : BitVec 32 := Scalar.addi v269 c0_i32_279
  let v301 : Index := Scalar.indexCast v270
  let c112_287 : Index := 112#32
  ![v301.toNat, 112]

def k0_chk62 (v56 : IVec S16 32) (v307 : IVec S16 32) : Prop :=
  (∀ a x, ((![v56, v307] : Fin 2 → IVec S16 32) a x).toNat < S128x64.size a)
instance k0_chk62.dec : ∀ (v56 : IVec S16 32) (v307 : IVec S16 32), Decidable (k0_chk62 v56 v307) := fun v56 v307 => decidable_of_iff' _ (Iff.of_eq (k0_chk62.eq_1 v56 v307))
theorem k0_idx62_inb : ∀ (v56 : IVec S16 32) (v307 : IVec S16 32) (k0_hw62 : k0_chk62 v56 v307), ∀ a x, ((![v56, v307] : Fin 2 → IVec S16 32) a x).toNat < S128x64.size a := fun v56 v307 k0_hw62 => k0_hw62
def k0_off536 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_288 : BitVec 32 := 10#32
  let v305 : BitVec 32 := Scalar.muli arg19 c10_i32_288
  let c1_i32_289 : BitVec 32 := 1#32
  let v306 : BitVec 32 := Scalar.addi v305 c1_i32_289
  let v309 : Index := Scalar.indexCast v306
  let c0_290 : Index := 0#32
  ![v309.toNat, 0]
def k0_off537 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_288 : BitVec 32 := 10#32
  let v305 : BitVec 32 := Scalar.muli arg19 c10_i32_288
  let c1_i32_289 : BitVec 32 := 1#32
  let v306 : BitVec 32 := Scalar.addi v305 c1_i32_289
  let v313 : Index := Scalar.indexCast v306
  let c16_291 : Index := 16#32
  ![v313.toNat, 16]
def k0_off538 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_288 : BitVec 32 := 10#32
  let v305 : BitVec 32 := Scalar.muli arg19 c10_i32_288
  let c1_i32_289 : BitVec 32 := 1#32
  let v306 : BitVec 32 := Scalar.addi v305 c1_i32_289
  let v317 : Index := Scalar.indexCast v306
  let c32_292 : Index := 32#32
  ![v317.toNat, 32]
def k0_off539 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_288 : BitVec 32 := 10#32
  let v305 : BitVec 32 := Scalar.muli arg19 c10_i32_288
  let c1_i32_289 : BitVec 32 := 1#32
  let v306 : BitVec 32 := Scalar.addi v305 c1_i32_289
  let v321 : Index := Scalar.indexCast v306
  let c48_293 : Index := 48#32
  ![v321.toNat, 48]
def k0_off540 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_288 : BitVec 32 := 10#32
  let v305 : BitVec 32 := Scalar.muli arg19 c10_i32_288
  let c1_i32_289 : BitVec 32 := 1#32
  let v306 : BitVec 32 := Scalar.addi v305 c1_i32_289
  let v325 : Index := Scalar.indexCast v306
  let c64_294 : Index := 64#32
  ![v325.toNat, 64]
def k0_off541 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_288 : BitVec 32 := 10#32
  let v305 : BitVec 32 := Scalar.muli arg19 c10_i32_288
  let c1_i32_289 : BitVec 32 := 1#32
  let v306 : BitVec 32 := Scalar.addi v305 c1_i32_289
  let v329 : Index := Scalar.indexCast v306
  let c80_295 : Index := 80#32
  ![v329.toNat, 80]
def k0_off542 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_288 : BitVec 32 := 10#32
  let v305 : BitVec 32 := Scalar.muli arg19 c10_i32_288
  let c1_i32_289 : BitVec 32 := 1#32
  let v306 : BitVec 32 := Scalar.addi v305 c1_i32_289
  let v333 : Index := Scalar.indexCast v306
  let c96_296 : Index := 96#32
  ![v333.toNat, 96]
def k0_off543 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_288 : BitVec 32 := 10#32
  let v305 : BitVec 32 := Scalar.muli arg19 c10_i32_288
  let c1_i32_289 : BitVec 32 := 1#32
  let v306 : BitVec 32 := Scalar.addi v305 c1_i32_289
  let v337 : Index := Scalar.indexCast v306
  let c112_297 : Index := 112#32
  ![v337.toNat, 112]

def k0_chk63 (v56 : IVec S16 32) (v343 : IVec S16 32) : Prop :=
  (∀ a x, ((![v56, v343] : Fin 2 → IVec S16 32) a x).toNat < S128x64.size a)
instance k0_chk63.dec : ∀ (v56 : IVec S16 32) (v343 : IVec S16 32), Decidable (k0_chk63 v56 v343) := fun v56 v343 => decidable_of_iff' _ (Iff.of_eq (k0_chk63.eq_1 v56 v343))
theorem k0_idx63_inb : ∀ (v56 : IVec S16 32) (v343 : IVec S16 32) (k0_hw63 : k0_chk63 v56 v343), ∀ a x, ((![v56, v343] : Fin 2 → IVec S16 32) a x).toNat < S128x64.size a := fun v56 v343 k0_hw63 => k0_hw63
def k0_off544 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_298 : BitVec 32 := 10#32
  let v341 : BitVec 32 := Scalar.muli arg19 c10_i32_298
  let c2_i32_299 : BitVec 32 := 2#32
  let v342 : BitVec 32 := Scalar.addi v341 c2_i32_299
  let v345 : Index := Scalar.indexCast v342
  let c0_300 : Index := 0#32
  ![v345.toNat, 0]
def k0_off545 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_298 : BitVec 32 := 10#32
  let v341 : BitVec 32 := Scalar.muli arg19 c10_i32_298
  let c2_i32_299 : BitVec 32 := 2#32
  let v342 : BitVec 32 := Scalar.addi v341 c2_i32_299
  let v349 : Index := Scalar.indexCast v342
  let c16_301 : Index := 16#32
  ![v349.toNat, 16]
def k0_off546 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_298 : BitVec 32 := 10#32
  let v341 : BitVec 32 := Scalar.muli arg19 c10_i32_298
  let c2_i32_299 : BitVec 32 := 2#32
  let v342 : BitVec 32 := Scalar.addi v341 c2_i32_299
  let v353 : Index := Scalar.indexCast v342
  let c32_302 : Index := 32#32
  ![v353.toNat, 32]
def k0_off547 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_298 : BitVec 32 := 10#32
  let v341 : BitVec 32 := Scalar.muli arg19 c10_i32_298
  let c2_i32_299 : BitVec 32 := 2#32
  let v342 : BitVec 32 := Scalar.addi v341 c2_i32_299
  let v357 : Index := Scalar.indexCast v342
  let c48_303 : Index := 48#32
  ![v357.toNat, 48]
def k0_off548 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_298 : BitVec 32 := 10#32
  let v341 : BitVec 32 := Scalar.muli arg19 c10_i32_298
  let c2_i32_299 : BitVec 32 := 2#32
  let v342 : BitVec 32 := Scalar.addi v341 c2_i32_299
  let v361 : Index := Scalar.indexCast v342
  let c64_304 : Index := 64#32
  ![v361.toNat, 64]
def k0_off549 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_298 : BitVec 32 := 10#32
  let v341 : BitVec 32 := Scalar.muli arg19 c10_i32_298
  let c2_i32_299 : BitVec 32 := 2#32
  let v342 : BitVec 32 := Scalar.addi v341 c2_i32_299
  let v365 : Index := Scalar.indexCast v342
  let c80_305 : Index := 80#32
  ![v365.toNat, 80]
def k0_off550 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_298 : BitVec 32 := 10#32
  let v341 : BitVec 32 := Scalar.muli arg19 c10_i32_298
  let c2_i32_299 : BitVec 32 := 2#32
  let v342 : BitVec 32 := Scalar.addi v341 c2_i32_299
  let v369 : Index := Scalar.indexCast v342
  let c96_306 : Index := 96#32
  ![v369.toNat, 96]
def k0_off551 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_298 : BitVec 32 := 10#32
  let v341 : BitVec 32 := Scalar.muli arg19 c10_i32_298
  let c2_i32_299 : BitVec 32 := 2#32
  let v342 : BitVec 32 := Scalar.addi v341 c2_i32_299
  let v373 : Index := Scalar.indexCast v342
  let c112_307 : Index := 112#32
  ![v373.toNat, 112]

def k0_chk64 (v56 : IVec S16 32) (v379 : IVec S16 32) : Prop :=
  (∀ a x, ((![v56, v379] : Fin 2 → IVec S16 32) a x).toNat < S128x64.size a)
instance k0_chk64.dec : ∀ (v56 : IVec S16 32) (v379 : IVec S16 32), Decidable (k0_chk64 v56 v379) := fun v56 v379 => decidable_of_iff' _ (Iff.of_eq (k0_chk64.eq_1 v56 v379))
theorem k0_idx64_inb : ∀ (v56 : IVec S16 32) (v379 : IVec S16 32) (k0_hw64 : k0_chk64 v56 v379), ∀ a x, ((![v56, v379] : Fin 2 → IVec S16 32) a x).toNat < S128x64.size a := fun v56 v379 k0_hw64 => k0_hw64
def k0_off552 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_308 : BitVec 32 := 10#32
  let v377 : BitVec 32 := Scalar.muli arg19 c10_i32_308
  let c3_i32_309 : BitVec 32 := 3#32
  let v378 : BitVec 32 := Scalar.addi v377 c3_i32_309
  let v381 : Index := Scalar.indexCast v378
  let c0_310 : Index := 0#32
  ![v381.toNat, 0]
def k0_off553 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_308 : BitVec 32 := 10#32
  let v377 : BitVec 32 := Scalar.muli arg19 c10_i32_308
  let c3_i32_309 : BitVec 32 := 3#32
  let v378 : BitVec 32 := Scalar.addi v377 c3_i32_309
  let v385 : Index := Scalar.indexCast v378
  let c16_311 : Index := 16#32
  ![v385.toNat, 16]
def k0_off554 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_308 : BitVec 32 := 10#32
  let v377 : BitVec 32 := Scalar.muli arg19 c10_i32_308
  let c3_i32_309 : BitVec 32 := 3#32
  let v378 : BitVec 32 := Scalar.addi v377 c3_i32_309
  let v389 : Index := Scalar.indexCast v378
  let c32_312 : Index := 32#32
  ![v389.toNat, 32]
def k0_off555 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_308 : BitVec 32 := 10#32
  let v377 : BitVec 32 := Scalar.muli arg19 c10_i32_308
  let c3_i32_309 : BitVec 32 := 3#32
  let v378 : BitVec 32 := Scalar.addi v377 c3_i32_309
  let v393 : Index := Scalar.indexCast v378
  let c48_313 : Index := 48#32
  ![v393.toNat, 48]
def k0_off556 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_308 : BitVec 32 := 10#32
  let v377 : BitVec 32 := Scalar.muli arg19 c10_i32_308
  let c3_i32_309 : BitVec 32 := 3#32
  let v378 : BitVec 32 := Scalar.addi v377 c3_i32_309
  let v397 : Index := Scalar.indexCast v378
  let c64_314 : Index := 64#32
  ![v397.toNat, 64]
def k0_off557 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_308 : BitVec 32 := 10#32
  let v377 : BitVec 32 := Scalar.muli arg19 c10_i32_308
  let c3_i32_309 : BitVec 32 := 3#32
  let v378 : BitVec 32 := Scalar.addi v377 c3_i32_309
  let v401 : Index := Scalar.indexCast v378
  let c80_315 : Index := 80#32
  ![v401.toNat, 80]
def k0_off558 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_308 : BitVec 32 := 10#32
  let v377 : BitVec 32 := Scalar.muli arg19 c10_i32_308
  let c3_i32_309 : BitVec 32 := 3#32
  let v378 : BitVec 32 := Scalar.addi v377 c3_i32_309
  let v405 : Index := Scalar.indexCast v378
  let c96_316 : Index := 96#32
  ![v405.toNat, 96]
def k0_off559 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_308 : BitVec 32 := 10#32
  let v377 : BitVec 32 := Scalar.muli arg19 c10_i32_308
  let c3_i32_309 : BitVec 32 := 3#32
  let v378 : BitVec 32 := Scalar.addi v377 c3_i32_309
  let v409 : Index := Scalar.indexCast v378
  let c112_317 : Index := 112#32
  ![v409.toNat, 112]

def k0_chk65 (v56 : IVec S16 32) (v415 : IVec S16 32) : Prop :=
  (∀ a x, ((![v56, v415] : Fin 2 → IVec S16 32) a x).toNat < S128x64.size a)
instance k0_chk65.dec : ∀ (v56 : IVec S16 32) (v415 : IVec S16 32), Decidable (k0_chk65 v56 v415) := fun v56 v415 => decidable_of_iff' _ (Iff.of_eq (k0_chk65.eq_1 v56 v415))
theorem k0_idx65_inb : ∀ (v56 : IVec S16 32) (v415 : IVec S16 32) (k0_hw65 : k0_chk65 v56 v415), ∀ a x, ((![v56, v415] : Fin 2 → IVec S16 32) a x).toNat < S128x64.size a := fun v56 v415 k0_hw65 => k0_hw65
def k0_off560 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_318 : BitVec 32 := 10#32
  let v413 : BitVec 32 := Scalar.muli arg19 c10_i32_318
  let c4_i32 : BitVec 32 := 4#32
  let v414 : BitVec 32 := Scalar.addi v413 c4_i32
  let v417 : Index := Scalar.indexCast v414
  let c0_319 : Index := 0#32
  ![v417.toNat, 0]
def k0_off561 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_318 : BitVec 32 := 10#32
  let v413 : BitVec 32 := Scalar.muli arg19 c10_i32_318
  let c4_i32 : BitVec 32 := 4#32
  let v414 : BitVec 32 := Scalar.addi v413 c4_i32
  let v421 : Index := Scalar.indexCast v414
  let c16_320 : Index := 16#32
  ![v421.toNat, 16]
def k0_off562 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_318 : BitVec 32 := 10#32
  let v413 : BitVec 32 := Scalar.muli arg19 c10_i32_318
  let c4_i32 : BitVec 32 := 4#32
  let v414 : BitVec 32 := Scalar.addi v413 c4_i32
  let v425 : Index := Scalar.indexCast v414
  let c32_321 : Index := 32#32
  ![v425.toNat, 32]
def k0_off563 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_318 : BitVec 32 := 10#32
  let v413 : BitVec 32 := Scalar.muli arg19 c10_i32_318
  let c4_i32 : BitVec 32 := 4#32
  let v414 : BitVec 32 := Scalar.addi v413 c4_i32
  let v429 : Index := Scalar.indexCast v414
  let c48_322 : Index := 48#32
  ![v429.toNat, 48]
def k0_off564 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_318 : BitVec 32 := 10#32
  let v413 : BitVec 32 := Scalar.muli arg19 c10_i32_318
  let c4_i32 : BitVec 32 := 4#32
  let v414 : BitVec 32 := Scalar.addi v413 c4_i32
  let v433 : Index := Scalar.indexCast v414
  let c64_323 : Index := 64#32
  ![v433.toNat, 64]
def k0_off565 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_318 : BitVec 32 := 10#32
  let v413 : BitVec 32 := Scalar.muli arg19 c10_i32_318
  let c4_i32 : BitVec 32 := 4#32
  let v414 : BitVec 32 := Scalar.addi v413 c4_i32
  let v437 : Index := Scalar.indexCast v414
  let c80_324 : Index := 80#32
  ![v437.toNat, 80]
def k0_off566 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_318 : BitVec 32 := 10#32
  let v413 : BitVec 32 := Scalar.muli arg19 c10_i32_318
  let c4_i32 : BitVec 32 := 4#32
  let v414 : BitVec 32 := Scalar.addi v413 c4_i32
  let v441 : Index := Scalar.indexCast v414
  let c96_325 : Index := 96#32
  ![v441.toNat, 96]
def k0_off567 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_318 : BitVec 32 := 10#32
  let v413 : BitVec 32 := Scalar.muli arg19 c10_i32_318
  let c4_i32 : BitVec 32 := 4#32
  let v414 : BitVec 32 := Scalar.addi v413 c4_i32
  let v445 : Index := Scalar.indexCast v414
  let c112_326 : Index := 112#32
  ![v445.toNat, 112]

def k0_chk66 (v56 : IVec S16 32) (v451 : IVec S16 32) : Prop :=
  (∀ a x, ((![v56, v451] : Fin 2 → IVec S16 32) a x).toNat < S128x64.size a)
instance k0_chk66.dec : ∀ (v56 : IVec S16 32) (v451 : IVec S16 32), Decidable (k0_chk66 v56 v451) := fun v56 v451 => decidable_of_iff' _ (Iff.of_eq (k0_chk66.eq_1 v56 v451))
theorem k0_idx66_inb : ∀ (v56 : IVec S16 32) (v451 : IVec S16 32) (k0_hw66 : k0_chk66 v56 v451), ∀ a x, ((![v56, v451] : Fin 2 → IVec S16 32) a x).toNat < S128x64.size a := fun v56 v451 k0_hw66 => k0_hw66
def k0_off568 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_327 : BitVec 32 := 10#32
  let v449 : BitVec 32 := Scalar.muli arg19 c10_i32_327
  let c5_i32_328 : BitVec 32 := 5#32
  let v450 : BitVec 32 := Scalar.addi v449 c5_i32_328
  let v453 : Index := Scalar.indexCast v450
  let c0_329 : Index := 0#32
  ![v453.toNat, 0]
def k0_off569 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_327 : BitVec 32 := 10#32
  let v449 : BitVec 32 := Scalar.muli arg19 c10_i32_327
  let c5_i32_328 : BitVec 32 := 5#32
  let v450 : BitVec 32 := Scalar.addi v449 c5_i32_328
  let v457 : Index := Scalar.indexCast v450
  let c16_330 : Index := 16#32
  ![v457.toNat, 16]
def k0_off570 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_327 : BitVec 32 := 10#32
  let v449 : BitVec 32 := Scalar.muli arg19 c10_i32_327
  let c5_i32_328 : BitVec 32 := 5#32
  let v450 : BitVec 32 := Scalar.addi v449 c5_i32_328
  let v461 : Index := Scalar.indexCast v450
  let c32_331 : Index := 32#32
  ![v461.toNat, 32]
def k0_off571 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_327 : BitVec 32 := 10#32
  let v449 : BitVec 32 := Scalar.muli arg19 c10_i32_327
  let c5_i32_328 : BitVec 32 := 5#32
  let v450 : BitVec 32 := Scalar.addi v449 c5_i32_328
  let v465 : Index := Scalar.indexCast v450
  let c48_332 : Index := 48#32
  ![v465.toNat, 48]
def k0_off572 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_327 : BitVec 32 := 10#32
  let v449 : BitVec 32 := Scalar.muli arg19 c10_i32_327
  let c5_i32_328 : BitVec 32 := 5#32
  let v450 : BitVec 32 := Scalar.addi v449 c5_i32_328
  let v469 : Index := Scalar.indexCast v450
  let c64_333 : Index := 64#32
  ![v469.toNat, 64]
def k0_off573 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_327 : BitVec 32 := 10#32
  let v449 : BitVec 32 := Scalar.muli arg19 c10_i32_327
  let c5_i32_328 : BitVec 32 := 5#32
  let v450 : BitVec 32 := Scalar.addi v449 c5_i32_328
  let v473 : Index := Scalar.indexCast v450
  let c80_334 : Index := 80#32
  ![v473.toNat, 80]
def k0_off574 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_327 : BitVec 32 := 10#32
  let v449 : BitVec 32 := Scalar.muli arg19 c10_i32_327
  let c5_i32_328 : BitVec 32 := 5#32
  let v450 : BitVec 32 := Scalar.addi v449 c5_i32_328
  let v477 : Index := Scalar.indexCast v450
  let c96_335 : Index := 96#32
  ![v477.toNat, 96]
def k0_off575 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_327 : BitVec 32 := 10#32
  let v449 : BitVec 32 := Scalar.muli arg19 c10_i32_327
  let c5_i32_328 : BitVec 32 := 5#32
  let v450 : BitVec 32 := Scalar.addi v449 c5_i32_328
  let v481 : Index := Scalar.indexCast v450
  let c112_336 : Index := 112#32
  ![v481.toNat, 112]

def k0_chk67 (v56 : IVec S16 32) (v487 : IVec S16 32) : Prop :=
  (∀ a x, ((![v56, v487] : Fin 2 → IVec S16 32) a x).toNat < S128x64.size a)
instance k0_chk67.dec : ∀ (v56 : IVec S16 32) (v487 : IVec S16 32), Decidable (k0_chk67 v56 v487) := fun v56 v487 => decidable_of_iff' _ (Iff.of_eq (k0_chk67.eq_1 v56 v487))
theorem k0_idx67_inb : ∀ (v56 : IVec S16 32) (v487 : IVec S16 32) (k0_hw67 : k0_chk67 v56 v487), ∀ a x, ((![v56, v487] : Fin 2 → IVec S16 32) a x).toNat < S128x64.size a := fun v56 v487 k0_hw67 => k0_hw67
def k0_off576 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_337 : BitVec 32 := 10#32
  let v485 : BitVec 32 := Scalar.muli arg19 c10_i32_337
  let c6_i32 : BitVec 32 := 6#32
  let v486 : BitVec 32 := Scalar.addi v485 c6_i32
  let v489 : Index := Scalar.indexCast v486
  let c0_338 : Index := 0#32
  ![v489.toNat, 0]
def k0_off577 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_337 : BitVec 32 := 10#32
  let v485 : BitVec 32 := Scalar.muli arg19 c10_i32_337
  let c6_i32 : BitVec 32 := 6#32
  let v486 : BitVec 32 := Scalar.addi v485 c6_i32
  let v493 : Index := Scalar.indexCast v486
  let c16_339 : Index := 16#32
  ![v493.toNat, 16]
def k0_off578 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_337 : BitVec 32 := 10#32
  let v485 : BitVec 32 := Scalar.muli arg19 c10_i32_337
  let c6_i32 : BitVec 32 := 6#32
  let v486 : BitVec 32 := Scalar.addi v485 c6_i32
  let v497 : Index := Scalar.indexCast v486
  let c32_340 : Index := 32#32
  ![v497.toNat, 32]
def k0_off579 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_337 : BitVec 32 := 10#32
  let v485 : BitVec 32 := Scalar.muli arg19 c10_i32_337
  let c6_i32 : BitVec 32 := 6#32
  let v486 : BitVec 32 := Scalar.addi v485 c6_i32
  let v501 : Index := Scalar.indexCast v486
  let c48_341 : Index := 48#32
  ![v501.toNat, 48]
def k0_off580 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_337 : BitVec 32 := 10#32
  let v485 : BitVec 32 := Scalar.muli arg19 c10_i32_337
  let c6_i32 : BitVec 32 := 6#32
  let v486 : BitVec 32 := Scalar.addi v485 c6_i32
  let v505 : Index := Scalar.indexCast v486
  let c64_342 : Index := 64#32
  ![v505.toNat, 64]
def k0_off581 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_337 : BitVec 32 := 10#32
  let v485 : BitVec 32 := Scalar.muli arg19 c10_i32_337
  let c6_i32 : BitVec 32 := 6#32
  let v486 : BitVec 32 := Scalar.addi v485 c6_i32
  let v509 : Index := Scalar.indexCast v486
  let c80_343 : Index := 80#32
  ![v509.toNat, 80]
def k0_off582 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_337 : BitVec 32 := 10#32
  let v485 : BitVec 32 := Scalar.muli arg19 c10_i32_337
  let c6_i32 : BitVec 32 := 6#32
  let v486 : BitVec 32 := Scalar.addi v485 c6_i32
  let v513 : Index := Scalar.indexCast v486
  let c96_344 : Index := 96#32
  ![v513.toNat, 96]
def k0_off583 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_337 : BitVec 32 := 10#32
  let v485 : BitVec 32 := Scalar.muli arg19 c10_i32_337
  let c6_i32 : BitVec 32 := 6#32
  let v486 : BitVec 32 := Scalar.addi v485 c6_i32
  let v517 : Index := Scalar.indexCast v486
  let c112_345 : Index := 112#32
  ![v517.toNat, 112]

def k0_chk68 (v56 : IVec S16 32) (v523 : IVec S16 32) : Prop :=
  (∀ a x, ((![v56, v523] : Fin 2 → IVec S16 32) a x).toNat < S128x64.size a)
instance k0_chk68.dec : ∀ (v56 : IVec S16 32) (v523 : IVec S16 32), Decidable (k0_chk68 v56 v523) := fun v56 v523 => decidable_of_iff' _ (Iff.of_eq (k0_chk68.eq_1 v56 v523))
theorem k0_idx68_inb : ∀ (v56 : IVec S16 32) (v523 : IVec S16 32) (k0_hw68 : k0_chk68 v56 v523), ∀ a x, ((![v56, v523] : Fin 2 → IVec S16 32) a x).toNat < S128x64.size a := fun v56 v523 k0_hw68 => k0_hw68
def k0_off584 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_346 : BitVec 32 := 10#32
  let v521 : BitVec 32 := Scalar.muli arg19 c10_i32_346
  let c7_i32 : BitVec 32 := 7#32
  let v522 : BitVec 32 := Scalar.addi v521 c7_i32
  let v525 : Index := Scalar.indexCast v522
  let c0_347 : Index := 0#32
  ![v525.toNat, 0]
def k0_off585 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_346 : BitVec 32 := 10#32
  let v521 : BitVec 32 := Scalar.muli arg19 c10_i32_346
  let c7_i32 : BitVec 32 := 7#32
  let v522 : BitVec 32 := Scalar.addi v521 c7_i32
  let v529 : Index := Scalar.indexCast v522
  let c16_348 : Index := 16#32
  ![v529.toNat, 16]
def k0_off586 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_346 : BitVec 32 := 10#32
  let v521 : BitVec 32 := Scalar.muli arg19 c10_i32_346
  let c7_i32 : BitVec 32 := 7#32
  let v522 : BitVec 32 := Scalar.addi v521 c7_i32
  let v533 : Index := Scalar.indexCast v522
  let c32_349 : Index := 32#32
  ![v533.toNat, 32]
def k0_off587 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_346 : BitVec 32 := 10#32
  let v521 : BitVec 32 := Scalar.muli arg19 c10_i32_346
  let c7_i32 : BitVec 32 := 7#32
  let v522 : BitVec 32 := Scalar.addi v521 c7_i32
  let v537 : Index := Scalar.indexCast v522
  let c48_350 : Index := 48#32
  ![v537.toNat, 48]
def k0_off588 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_346 : BitVec 32 := 10#32
  let v521 : BitVec 32 := Scalar.muli arg19 c10_i32_346
  let c7_i32 : BitVec 32 := 7#32
  let v522 : BitVec 32 := Scalar.addi v521 c7_i32
  let v541 : Index := Scalar.indexCast v522
  let c64_351 : Index := 64#32
  ![v541.toNat, 64]
def k0_off589 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_346 : BitVec 32 := 10#32
  let v521 : BitVec 32 := Scalar.muli arg19 c10_i32_346
  let c7_i32 : BitVec 32 := 7#32
  let v522 : BitVec 32 := Scalar.addi v521 c7_i32
  let v545 : Index := Scalar.indexCast v522
  let c80_352 : Index := 80#32
  ![v545.toNat, 80]
def k0_off590 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_346 : BitVec 32 := 10#32
  let v521 : BitVec 32 := Scalar.muli arg19 c10_i32_346
  let c7_i32 : BitVec 32 := 7#32
  let v522 : BitVec 32 := Scalar.addi v521 c7_i32
  let v549 : Index := Scalar.indexCast v522
  let c96_353 : Index := 96#32
  ![v549.toNat, 96]
def k0_off591 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_346 : BitVec 32 := 10#32
  let v521 : BitVec 32 := Scalar.muli arg19 c10_i32_346
  let c7_i32 : BitVec 32 := 7#32
  let v522 : BitVec 32 := Scalar.addi v521 c7_i32
  let v553 : Index := Scalar.indexCast v522
  let c112_354 : Index := 112#32
  ![v553.toNat, 112]

def k0_chk69 (v56 : IVec S16 32) (v559 : IVec S16 32) : Prop :=
  (∀ a x, ((![v56, v559] : Fin 2 → IVec S16 32) a x).toNat < S128x64.size a)
instance k0_chk69.dec : ∀ (v56 : IVec S16 32) (v559 : IVec S16 32), Decidable (k0_chk69 v56 v559) := fun v56 v559 => decidable_of_iff' _ (Iff.of_eq (k0_chk69.eq_1 v56 v559))
theorem k0_idx69_inb : ∀ (v56 : IVec S16 32) (v559 : IVec S16 32) (k0_hw69 : k0_chk69 v56 v559), ∀ a x, ((![v56, v559] : Fin 2 → IVec S16 32) a x).toNat < S128x64.size a := fun v56 v559 k0_hw69 => k0_hw69
def k0_off592 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_355 : BitVec 32 := 10#32
  let v557 : BitVec 32 := Scalar.muli arg19 c10_i32_355
  let c8_i32 : BitVec 32 := 8#32
  let v558 : BitVec 32 := Scalar.addi v557 c8_i32
  let v561 : Index := Scalar.indexCast v558
  let c0_356 : Index := 0#32
  ![v561.toNat, 0]
def k0_off593 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_355 : BitVec 32 := 10#32
  let v557 : BitVec 32 := Scalar.muli arg19 c10_i32_355
  let c8_i32 : BitVec 32 := 8#32
  let v558 : BitVec 32 := Scalar.addi v557 c8_i32
  let v565 : Index := Scalar.indexCast v558
  let c16_357 : Index := 16#32
  ![v565.toNat, 16]
def k0_off594 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_355 : BitVec 32 := 10#32
  let v557 : BitVec 32 := Scalar.muli arg19 c10_i32_355
  let c8_i32 : BitVec 32 := 8#32
  let v558 : BitVec 32 := Scalar.addi v557 c8_i32
  let v569 : Index := Scalar.indexCast v558
  let c32_358 : Index := 32#32
  ![v569.toNat, 32]
def k0_off595 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_355 : BitVec 32 := 10#32
  let v557 : BitVec 32 := Scalar.muli arg19 c10_i32_355
  let c8_i32 : BitVec 32 := 8#32
  let v558 : BitVec 32 := Scalar.addi v557 c8_i32
  let v573 : Index := Scalar.indexCast v558
  let c48_359 : Index := 48#32
  ![v573.toNat, 48]
def k0_off596 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_355 : BitVec 32 := 10#32
  let v557 : BitVec 32 := Scalar.muli arg19 c10_i32_355
  let c8_i32 : BitVec 32 := 8#32
  let v558 : BitVec 32 := Scalar.addi v557 c8_i32
  let v577 : Index := Scalar.indexCast v558
  let c64_360 : Index := 64#32
  ![v577.toNat, 64]
def k0_off597 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_355 : BitVec 32 := 10#32
  let v557 : BitVec 32 := Scalar.muli arg19 c10_i32_355
  let c8_i32 : BitVec 32 := 8#32
  let v558 : BitVec 32 := Scalar.addi v557 c8_i32
  let v581 : Index := Scalar.indexCast v558
  let c80_361 : Index := 80#32
  ![v581.toNat, 80]
def k0_off598 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_355 : BitVec 32 := 10#32
  let v557 : BitVec 32 := Scalar.muli arg19 c10_i32_355
  let c8_i32 : BitVec 32 := 8#32
  let v558 : BitVec 32 := Scalar.addi v557 c8_i32
  let v585 : Index := Scalar.indexCast v558
  let c96_362 : Index := 96#32
  ![v585.toNat, 96]
def k0_off599 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_355 : BitVec 32 := 10#32
  let v557 : BitVec 32 := Scalar.muli arg19 c10_i32_355
  let c8_i32 : BitVec 32 := 8#32
  let v558 : BitVec 32 := Scalar.addi v557 c8_i32
  let v589 : Index := Scalar.indexCast v558
  let c112_363 : Index := 112#32
  ![v589.toNat, 112]

def k0_chk70 (v56 : IVec S16 32) (v595 : IVec S16 32) : Prop :=
  (∀ a x, ((![v56, v595] : Fin 2 → IVec S16 32) a x).toNat < S128x64.size a)
instance k0_chk70.dec : ∀ (v56 : IVec S16 32) (v595 : IVec S16 32), Decidable (k0_chk70 v56 v595) := fun v56 v595 => decidable_of_iff' _ (Iff.of_eq (k0_chk70.eq_1 v56 v595))
theorem k0_idx70_inb : ∀ (v56 : IVec S16 32) (v595 : IVec S16 32) (k0_hw70 : k0_chk70 v56 v595), ∀ a x, ((![v56, v595] : Fin 2 → IVec S16 32) a x).toNat < S128x64.size a := fun v56 v595 k0_hw70 => k0_hw70
def k0_off600 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_364 : BitVec 32 := 10#32
  let v593 : BitVec 32 := Scalar.muli arg19 c10_i32_364
  let c9_i32 : BitVec 32 := 9#32
  let v594 : BitVec 32 := Scalar.addi v593 c9_i32
  let v597 : Index := Scalar.indexCast v594
  let c0_365 : Index := 0#32
  ![v597.toNat, 0]
def k0_off601 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_364 : BitVec 32 := 10#32
  let v593 : BitVec 32 := Scalar.muli arg19 c10_i32_364
  let c9_i32 : BitVec 32 := 9#32
  let v594 : BitVec 32 := Scalar.addi v593 c9_i32
  let v601 : Index := Scalar.indexCast v594
  let c16_366 : Index := 16#32
  ![v601.toNat, 16]
def k0_off602 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_364 : BitVec 32 := 10#32
  let v593 : BitVec 32 := Scalar.muli arg19 c10_i32_364
  let c9_i32 : BitVec 32 := 9#32
  let v594 : BitVec 32 := Scalar.addi v593 c9_i32
  let v605 : Index := Scalar.indexCast v594
  let c32_367 : Index := 32#32
  ![v605.toNat, 32]
def k0_off603 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_364 : BitVec 32 := 10#32
  let v593 : BitVec 32 := Scalar.muli arg19 c10_i32_364
  let c9_i32 : BitVec 32 := 9#32
  let v594 : BitVec 32 := Scalar.addi v593 c9_i32
  let v609 : Index := Scalar.indexCast v594
  let c48_368 : Index := 48#32
  ![v609.toNat, 48]
def k0_off604 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_364 : BitVec 32 := 10#32
  let v593 : BitVec 32 := Scalar.muli arg19 c10_i32_364
  let c9_i32 : BitVec 32 := 9#32
  let v594 : BitVec 32 := Scalar.addi v593 c9_i32
  let v613 : Index := Scalar.indexCast v594
  let c64_369 : Index := 64#32
  ![v613.toNat, 64]
def k0_off605 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_364 : BitVec 32 := 10#32
  let v593 : BitVec 32 := Scalar.muli arg19 c10_i32_364
  let c9_i32 : BitVec 32 := 9#32
  let v594 : BitVec 32 := Scalar.addi v593 c9_i32
  let v617 : Index := Scalar.indexCast v594
  let c80_370 : Index := 80#32
  ![v617.toNat, 80]
def k0_off606 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_364 : BitVec 32 := 10#32
  let v593 : BitVec 32 := Scalar.muli arg19 c10_i32_364
  let c9_i32 : BitVec 32 := 9#32
  let v594 : BitVec 32 := Scalar.addi v593 c9_i32
  let v621 : Index := Scalar.indexCast v594
  let c96_371 : Index := 96#32
  ![v621.toNat, 96]
def k0_off607 (k0_t8 : Fin k0_t8_loop.trips) : Fin 2 → Nat :=
  let c0_i32_57 : BitVec 32 := 0#32
  let c1_i32_59 : BitVec 32 := 1#32
  let arg19 : BitVec 32 := Scf.iv c0_i32_57 c1_i32_59 k0_t8
  let c10_i32_364 : BitVec 32 := 10#32
  let v593 : BitVec 32 := Scalar.muli arg19 c10_i32_364
  let c9_i32 : BitVec 32 := 9#32
  let v594 : BitVec 32 := Scalar.addi v593 c9_i32
  let v625 : Index := Scalar.indexCast v594
  let c112_372 : Index := 112#32
  ![v625.toNat, 112]
@[reducible] def k0_t9_loop : Scf.Loop 32 :=
  let c0_i32_92 : BitVec 32 := 0#32
  let c5_i32_93 : BitVec 32 := 5#32
  let v98 : BitVec 32 := Scalar.addi c0_i32_92 c5_i32_93
  let c1_i32_94 : BitVec 32 := 1#32
  ⟨c0_i32_92, v98, c1_i32_94⟩

def k0_chk71 (v89 : IVec S16 32) (v271 : IVec S16 32) : Prop :=
  (∀ a x, ((![v89, v271] : Fin 2 → IVec S16 32) a x).toNat < S128x64.size a)
instance k0_chk71.dec : ∀ (v89 : IVec S16 32) (v271 : IVec S16 32), Decidable (k0_chk71 v89 v271) := fun v89 v271 => decidable_of_iff' _ (Iff.of_eq (k0_chk71.eq_1 v89 v271))
theorem k0_idx71_inb : ∀ (v89 : IVec S16 32) (v271 : IVec S16 32) (k0_hw71 : k0_chk71 v89 v271), ∀ a x, ((![v89, v271] : Fin 2 → IVec S16 32) a x).toNat < S128x64.size a := fun v89 v271 k0_hw71 => k0_hw71
def k0_off608 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32 : BitVec 32 := 10#32
  let v269 : BitVec 32 := Scalar.muli arg19 c10_i32
  let c0_i32_279 : BitVec 32 := 0#32
  let v270 : BitVec 32 := Scalar.addi v269 c0_i32_279
  let v273 : Index := Scalar.indexCast v270
  let c0_280 : Index := 0#32
  ![v273.toNat, 0]
def k0_off609 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32 : BitVec 32 := 10#32
  let v269 : BitVec 32 := Scalar.muli arg19 c10_i32
  let c0_i32_279 : BitVec 32 := 0#32
  let v270 : BitVec 32 := Scalar.addi v269 c0_i32_279
  let v277 : Index := Scalar.indexCast v270
  let c16_281 : Index := 16#32
  ![v277.toNat, 16]
def k0_off610 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32 : BitVec 32 := 10#32
  let v269 : BitVec 32 := Scalar.muli arg19 c10_i32
  let c0_i32_279 : BitVec 32 := 0#32
  let v270 : BitVec 32 := Scalar.addi v269 c0_i32_279
  let v281 : Index := Scalar.indexCast v270
  let c32_282 : Index := 32#32
  ![v281.toNat, 32]
def k0_off611 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32 : BitVec 32 := 10#32
  let v269 : BitVec 32 := Scalar.muli arg19 c10_i32
  let c0_i32_279 : BitVec 32 := 0#32
  let v270 : BitVec 32 := Scalar.addi v269 c0_i32_279
  let v285 : Index := Scalar.indexCast v270
  let c48_283 : Index := 48#32
  ![v285.toNat, 48]
def k0_off612 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32 : BitVec 32 := 10#32
  let v269 : BitVec 32 := Scalar.muli arg19 c10_i32
  let c0_i32_279 : BitVec 32 := 0#32
  let v270 : BitVec 32 := Scalar.addi v269 c0_i32_279
  let v289 : Index := Scalar.indexCast v270
  let c64_284 : Index := 64#32
  ![v289.toNat, 64]
def k0_off613 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32 : BitVec 32 := 10#32
  let v269 : BitVec 32 := Scalar.muli arg19 c10_i32
  let c0_i32_279 : BitVec 32 := 0#32
  let v270 : BitVec 32 := Scalar.addi v269 c0_i32_279
  let v293 : Index := Scalar.indexCast v270
  let c80_285 : Index := 80#32
  ![v293.toNat, 80]
def k0_off614 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32 : BitVec 32 := 10#32
  let v269 : BitVec 32 := Scalar.muli arg19 c10_i32
  let c0_i32_279 : BitVec 32 := 0#32
  let v270 : BitVec 32 := Scalar.addi v269 c0_i32_279
  let v297 : Index := Scalar.indexCast v270
  let c96_286 : Index := 96#32
  ![v297.toNat, 96]
def k0_off615 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32 : BitVec 32 := 10#32
  let v269 : BitVec 32 := Scalar.muli arg19 c10_i32
  let c0_i32_279 : BitVec 32 := 0#32
  let v270 : BitVec 32 := Scalar.addi v269 c0_i32_279
  let v301 : Index := Scalar.indexCast v270
  let c112_287 : Index := 112#32
  ![v301.toNat, 112]

def k0_chk72 (v89 : IVec S16 32) (v307 : IVec S16 32) : Prop :=
  (∀ a x, ((![v89, v307] : Fin 2 → IVec S16 32) a x).toNat < S128x64.size a)
instance k0_chk72.dec : ∀ (v89 : IVec S16 32) (v307 : IVec S16 32), Decidable (k0_chk72 v89 v307) := fun v89 v307 => decidable_of_iff' _ (Iff.of_eq (k0_chk72.eq_1 v89 v307))
theorem k0_idx72_inb : ∀ (v89 : IVec S16 32) (v307 : IVec S16 32) (k0_hw72 : k0_chk72 v89 v307), ∀ a x, ((![v89, v307] : Fin 2 → IVec S16 32) a x).toNat < S128x64.size a := fun v89 v307 k0_hw72 => k0_hw72
def k0_off616 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_288 : BitVec 32 := 10#32
  let v305 : BitVec 32 := Scalar.muli arg19 c10_i32_288
  let c1_i32_289 : BitVec 32 := 1#32
  let v306 : BitVec 32 := Scalar.addi v305 c1_i32_289
  let v309 : Index := Scalar.indexCast v306
  let c0_290 : Index := 0#32
  ![v309.toNat, 0]
def k0_off617 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_288 : BitVec 32 := 10#32
  let v305 : BitVec 32 := Scalar.muli arg19 c10_i32_288
  let c1_i32_289 : BitVec 32 := 1#32
  let v306 : BitVec 32 := Scalar.addi v305 c1_i32_289
  let v313 : Index := Scalar.indexCast v306
  let c16_291 : Index := 16#32
  ![v313.toNat, 16]
def k0_off618 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_288 : BitVec 32 := 10#32
  let v305 : BitVec 32 := Scalar.muli arg19 c10_i32_288
  let c1_i32_289 : BitVec 32 := 1#32
  let v306 : BitVec 32 := Scalar.addi v305 c1_i32_289
  let v317 : Index := Scalar.indexCast v306
  let c32_292 : Index := 32#32
  ![v317.toNat, 32]
def k0_off619 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_288 : BitVec 32 := 10#32
  let v305 : BitVec 32 := Scalar.muli arg19 c10_i32_288
  let c1_i32_289 : BitVec 32 := 1#32
  let v306 : BitVec 32 := Scalar.addi v305 c1_i32_289
  let v321 : Index := Scalar.indexCast v306
  let c48_293 : Index := 48#32
  ![v321.toNat, 48]
def k0_off620 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_288 : BitVec 32 := 10#32
  let v305 : BitVec 32 := Scalar.muli arg19 c10_i32_288
  let c1_i32_289 : BitVec 32 := 1#32
  let v306 : BitVec 32 := Scalar.addi v305 c1_i32_289
  let v325 : Index := Scalar.indexCast v306
  let c64_294 : Index := 64#32
  ![v325.toNat, 64]
def k0_off621 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_288 : BitVec 32 := 10#32
  let v305 : BitVec 32 := Scalar.muli arg19 c10_i32_288
  let c1_i32_289 : BitVec 32 := 1#32
  let v306 : BitVec 32 := Scalar.addi v305 c1_i32_289
  let v329 : Index := Scalar.indexCast v306
  let c80_295 : Index := 80#32
  ![v329.toNat, 80]
def k0_off622 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_288 : BitVec 32 := 10#32
  let v305 : BitVec 32 := Scalar.muli arg19 c10_i32_288
  let c1_i32_289 : BitVec 32 := 1#32
  let v306 : BitVec 32 := Scalar.addi v305 c1_i32_289
  let v333 : Index := Scalar.indexCast v306
  let c96_296 : Index := 96#32
  ![v333.toNat, 96]
def k0_off623 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_288 : BitVec 32 := 10#32
  let v305 : BitVec 32 := Scalar.muli arg19 c10_i32_288
  let c1_i32_289 : BitVec 32 := 1#32
  let v306 : BitVec 32 := Scalar.addi v305 c1_i32_289
  let v337 : Index := Scalar.indexCast v306
  let c112_297 : Index := 112#32
  ![v337.toNat, 112]

def k0_chk73 (v89 : IVec S16 32) (v343 : IVec S16 32) : Prop :=
  (∀ a x, ((![v89, v343] : Fin 2 → IVec S16 32) a x).toNat < S128x64.size a)
instance k0_chk73.dec : ∀ (v89 : IVec S16 32) (v343 : IVec S16 32), Decidable (k0_chk73 v89 v343) := fun v89 v343 => decidable_of_iff' _ (Iff.of_eq (k0_chk73.eq_1 v89 v343))
theorem k0_idx73_inb : ∀ (v89 : IVec S16 32) (v343 : IVec S16 32) (k0_hw73 : k0_chk73 v89 v343), ∀ a x, ((![v89, v343] : Fin 2 → IVec S16 32) a x).toNat < S128x64.size a := fun v89 v343 k0_hw73 => k0_hw73
def k0_off624 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_298 : BitVec 32 := 10#32
  let v341 : BitVec 32 := Scalar.muli arg19 c10_i32_298
  let c2_i32_299 : BitVec 32 := 2#32
  let v342 : BitVec 32 := Scalar.addi v341 c2_i32_299
  let v345 : Index := Scalar.indexCast v342
  let c0_300 : Index := 0#32
  ![v345.toNat, 0]
def k0_off625 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_298 : BitVec 32 := 10#32
  let v341 : BitVec 32 := Scalar.muli arg19 c10_i32_298
  let c2_i32_299 : BitVec 32 := 2#32
  let v342 : BitVec 32 := Scalar.addi v341 c2_i32_299
  let v349 : Index := Scalar.indexCast v342
  let c16_301 : Index := 16#32
  ![v349.toNat, 16]
def k0_off626 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_298 : BitVec 32 := 10#32
  let v341 : BitVec 32 := Scalar.muli arg19 c10_i32_298
  let c2_i32_299 : BitVec 32 := 2#32
  let v342 : BitVec 32 := Scalar.addi v341 c2_i32_299
  let v353 : Index := Scalar.indexCast v342
  let c32_302 : Index := 32#32
  ![v353.toNat, 32]
def k0_off627 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_298 : BitVec 32 := 10#32
  let v341 : BitVec 32 := Scalar.muli arg19 c10_i32_298
  let c2_i32_299 : BitVec 32 := 2#32
  let v342 : BitVec 32 := Scalar.addi v341 c2_i32_299
  let v357 : Index := Scalar.indexCast v342
  let c48_303 : Index := 48#32
  ![v357.toNat, 48]
def k0_off628 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_298 : BitVec 32 := 10#32
  let v341 : BitVec 32 := Scalar.muli arg19 c10_i32_298
  let c2_i32_299 : BitVec 32 := 2#32
  let v342 : BitVec 32 := Scalar.addi v341 c2_i32_299
  let v361 : Index := Scalar.indexCast v342
  let c64_304 : Index := 64#32
  ![v361.toNat, 64]
def k0_off629 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_298 : BitVec 32 := 10#32
  let v341 : BitVec 32 := Scalar.muli arg19 c10_i32_298
  let c2_i32_299 : BitVec 32 := 2#32
  let v342 : BitVec 32 := Scalar.addi v341 c2_i32_299
  let v365 : Index := Scalar.indexCast v342
  let c80_305 : Index := 80#32
  ![v365.toNat, 80]
def k0_off630 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_298 : BitVec 32 := 10#32
  let v341 : BitVec 32 := Scalar.muli arg19 c10_i32_298
  let c2_i32_299 : BitVec 32 := 2#32
  let v342 : BitVec 32 := Scalar.addi v341 c2_i32_299
  let v369 : Index := Scalar.indexCast v342
  let c96_306 : Index := 96#32
  ![v369.toNat, 96]
def k0_off631 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_298 : BitVec 32 := 10#32
  let v341 : BitVec 32 := Scalar.muli arg19 c10_i32_298
  let c2_i32_299 : BitVec 32 := 2#32
  let v342 : BitVec 32 := Scalar.addi v341 c2_i32_299
  let v373 : Index := Scalar.indexCast v342
  let c112_307 : Index := 112#32
  ![v373.toNat, 112]

def k0_chk74 (v89 : IVec S16 32) (v379 : IVec S16 32) : Prop :=
  (∀ a x, ((![v89, v379] : Fin 2 → IVec S16 32) a x).toNat < S128x64.size a)
instance k0_chk74.dec : ∀ (v89 : IVec S16 32) (v379 : IVec S16 32), Decidable (k0_chk74 v89 v379) := fun v89 v379 => decidable_of_iff' _ (Iff.of_eq (k0_chk74.eq_1 v89 v379))
theorem k0_idx74_inb : ∀ (v89 : IVec S16 32) (v379 : IVec S16 32) (k0_hw74 : k0_chk74 v89 v379), ∀ a x, ((![v89, v379] : Fin 2 → IVec S16 32) a x).toNat < S128x64.size a := fun v89 v379 k0_hw74 => k0_hw74
def k0_off632 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_308 : BitVec 32 := 10#32
  let v377 : BitVec 32 := Scalar.muli arg19 c10_i32_308
  let c3_i32_309 : BitVec 32 := 3#32
  let v378 : BitVec 32 := Scalar.addi v377 c3_i32_309
  let v381 : Index := Scalar.indexCast v378
  let c0_310 : Index := 0#32
  ![v381.toNat, 0]
def k0_off633 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_308 : BitVec 32 := 10#32
  let v377 : BitVec 32 := Scalar.muli arg19 c10_i32_308
  let c3_i32_309 : BitVec 32 := 3#32
  let v378 : BitVec 32 := Scalar.addi v377 c3_i32_309
  let v385 : Index := Scalar.indexCast v378
  let c16_311 : Index := 16#32
  ![v385.toNat, 16]
def k0_off634 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_308 : BitVec 32 := 10#32
  let v377 : BitVec 32 := Scalar.muli arg19 c10_i32_308
  let c3_i32_309 : BitVec 32 := 3#32
  let v378 : BitVec 32 := Scalar.addi v377 c3_i32_309
  let v389 : Index := Scalar.indexCast v378
  let c32_312 : Index := 32#32
  ![v389.toNat, 32]
def k0_off635 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_308 : BitVec 32 := 10#32
  let v377 : BitVec 32 := Scalar.muli arg19 c10_i32_308
  let c3_i32_309 : BitVec 32 := 3#32
  let v378 : BitVec 32 := Scalar.addi v377 c3_i32_309
  let v393 : Index := Scalar.indexCast v378
  let c48_313 : Index := 48#32
  ![v393.toNat, 48]
def k0_off636 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_308 : BitVec 32 := 10#32
  let v377 : BitVec 32 := Scalar.muli arg19 c10_i32_308
  let c3_i32_309 : BitVec 32 := 3#32
  let v378 : BitVec 32 := Scalar.addi v377 c3_i32_309
  let v397 : Index := Scalar.indexCast v378
  let c64_314 : Index := 64#32
  ![v397.toNat, 64]
def k0_off637 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_308 : BitVec 32 := 10#32
  let v377 : BitVec 32 := Scalar.muli arg19 c10_i32_308
  let c3_i32_309 : BitVec 32 := 3#32
  let v378 : BitVec 32 := Scalar.addi v377 c3_i32_309
  let v401 : Index := Scalar.indexCast v378
  let c80_315 : Index := 80#32
  ![v401.toNat, 80]
def k0_off638 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_308 : BitVec 32 := 10#32
  let v377 : BitVec 32 := Scalar.muli arg19 c10_i32_308
  let c3_i32_309 : BitVec 32 := 3#32
  let v378 : BitVec 32 := Scalar.addi v377 c3_i32_309
  let v405 : Index := Scalar.indexCast v378
  let c96_316 : Index := 96#32
  ![v405.toNat, 96]
def k0_off639 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_308 : BitVec 32 := 10#32
  let v377 : BitVec 32 := Scalar.muli arg19 c10_i32_308
  let c3_i32_309 : BitVec 32 := 3#32
  let v378 : BitVec 32 := Scalar.addi v377 c3_i32_309
  let v409 : Index := Scalar.indexCast v378
  let c112_317 : Index := 112#32
  ![v409.toNat, 112]

def k0_chk75 (v89 : IVec S16 32) (v415 : IVec S16 32) : Prop :=
  (∀ a x, ((![v89, v415] : Fin 2 → IVec S16 32) a x).toNat < S128x64.size a)
instance k0_chk75.dec : ∀ (v89 : IVec S16 32) (v415 : IVec S16 32), Decidable (k0_chk75 v89 v415) := fun v89 v415 => decidable_of_iff' _ (Iff.of_eq (k0_chk75.eq_1 v89 v415))
theorem k0_idx75_inb : ∀ (v89 : IVec S16 32) (v415 : IVec S16 32) (k0_hw75 : k0_chk75 v89 v415), ∀ a x, ((![v89, v415] : Fin 2 → IVec S16 32) a x).toNat < S128x64.size a := fun v89 v415 k0_hw75 => k0_hw75
def k0_off640 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_318 : BitVec 32 := 10#32
  let v413 : BitVec 32 := Scalar.muli arg19 c10_i32_318
  let c4_i32 : BitVec 32 := 4#32
  let v414 : BitVec 32 := Scalar.addi v413 c4_i32
  let v417 : Index := Scalar.indexCast v414
  let c0_319 : Index := 0#32
  ![v417.toNat, 0]
def k0_off641 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_318 : BitVec 32 := 10#32
  let v413 : BitVec 32 := Scalar.muli arg19 c10_i32_318
  let c4_i32 : BitVec 32 := 4#32
  let v414 : BitVec 32 := Scalar.addi v413 c4_i32
  let v421 : Index := Scalar.indexCast v414
  let c16_320 : Index := 16#32
  ![v421.toNat, 16]
def k0_off642 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_318 : BitVec 32 := 10#32
  let v413 : BitVec 32 := Scalar.muli arg19 c10_i32_318
  let c4_i32 : BitVec 32 := 4#32
  let v414 : BitVec 32 := Scalar.addi v413 c4_i32
  let v425 : Index := Scalar.indexCast v414
  let c32_321 : Index := 32#32
  ![v425.toNat, 32]
def k0_off643 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_318 : BitVec 32 := 10#32
  let v413 : BitVec 32 := Scalar.muli arg19 c10_i32_318
  let c4_i32 : BitVec 32 := 4#32
  let v414 : BitVec 32 := Scalar.addi v413 c4_i32
  let v429 : Index := Scalar.indexCast v414
  let c48_322 : Index := 48#32
  ![v429.toNat, 48]
def k0_off644 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_318 : BitVec 32 := 10#32
  let v413 : BitVec 32 := Scalar.muli arg19 c10_i32_318
  let c4_i32 : BitVec 32 := 4#32
  let v414 : BitVec 32 := Scalar.addi v413 c4_i32
  let v433 : Index := Scalar.indexCast v414
  let c64_323 : Index := 64#32
  ![v433.toNat, 64]
def k0_off645 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_318 : BitVec 32 := 10#32
  let v413 : BitVec 32 := Scalar.muli arg19 c10_i32_318
  let c4_i32 : BitVec 32 := 4#32
  let v414 : BitVec 32 := Scalar.addi v413 c4_i32
  let v437 : Index := Scalar.indexCast v414
  let c80_324 : Index := 80#32
  ![v437.toNat, 80]
def k0_off646 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_318 : BitVec 32 := 10#32
  let v413 : BitVec 32 := Scalar.muli arg19 c10_i32_318
  let c4_i32 : BitVec 32 := 4#32
  let v414 : BitVec 32 := Scalar.addi v413 c4_i32
  let v441 : Index := Scalar.indexCast v414
  let c96_325 : Index := 96#32
  ![v441.toNat, 96]
def k0_off647 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_318 : BitVec 32 := 10#32
  let v413 : BitVec 32 := Scalar.muli arg19 c10_i32_318
  let c4_i32 : BitVec 32 := 4#32
  let v414 : BitVec 32 := Scalar.addi v413 c4_i32
  let v445 : Index := Scalar.indexCast v414
  let c112_326 : Index := 112#32
  ![v445.toNat, 112]

def k0_chk76 (v89 : IVec S16 32) (v451 : IVec S16 32) : Prop :=
  (∀ a x, ((![v89, v451] : Fin 2 → IVec S16 32) a x).toNat < S128x64.size a)
instance k0_chk76.dec : ∀ (v89 : IVec S16 32) (v451 : IVec S16 32), Decidable (k0_chk76 v89 v451) := fun v89 v451 => decidable_of_iff' _ (Iff.of_eq (k0_chk76.eq_1 v89 v451))
theorem k0_idx76_inb : ∀ (v89 : IVec S16 32) (v451 : IVec S16 32) (k0_hw76 : k0_chk76 v89 v451), ∀ a x, ((![v89, v451] : Fin 2 → IVec S16 32) a x).toNat < S128x64.size a := fun v89 v451 k0_hw76 => k0_hw76
def k0_off648 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_327 : BitVec 32 := 10#32
  let v449 : BitVec 32 := Scalar.muli arg19 c10_i32_327
  let c5_i32_328 : BitVec 32 := 5#32
  let v450 : BitVec 32 := Scalar.addi v449 c5_i32_328
  let v453 : Index := Scalar.indexCast v450
  let c0_329 : Index := 0#32
  ![v453.toNat, 0]
def k0_off649 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_327 : BitVec 32 := 10#32
  let v449 : BitVec 32 := Scalar.muli arg19 c10_i32_327
  let c5_i32_328 : BitVec 32 := 5#32
  let v450 : BitVec 32 := Scalar.addi v449 c5_i32_328
  let v457 : Index := Scalar.indexCast v450
  let c16_330 : Index := 16#32
  ![v457.toNat, 16]
def k0_off650 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_327 : BitVec 32 := 10#32
  let v449 : BitVec 32 := Scalar.muli arg19 c10_i32_327
  let c5_i32_328 : BitVec 32 := 5#32
  let v450 : BitVec 32 := Scalar.addi v449 c5_i32_328
  let v461 : Index := Scalar.indexCast v450
  let c32_331 : Index := 32#32
  ![v461.toNat, 32]
def k0_off651 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_327 : BitVec 32 := 10#32
  let v449 : BitVec 32 := Scalar.muli arg19 c10_i32_327
  let c5_i32_328 : BitVec 32 := 5#32
  let v450 : BitVec 32 := Scalar.addi v449 c5_i32_328
  let v465 : Index := Scalar.indexCast v450
  let c48_332 : Index := 48#32
  ![v465.toNat, 48]
def k0_off652 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_327 : BitVec 32 := 10#32
  let v449 : BitVec 32 := Scalar.muli arg19 c10_i32_327
  let c5_i32_328 : BitVec 32 := 5#32
  let v450 : BitVec 32 := Scalar.addi v449 c5_i32_328
  let v469 : Index := Scalar.indexCast v450
  let c64_333 : Index := 64#32
  ![v469.toNat, 64]
def k0_off653 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_327 : BitVec 32 := 10#32
  let v449 : BitVec 32 := Scalar.muli arg19 c10_i32_327
  let c5_i32_328 : BitVec 32 := 5#32
  let v450 : BitVec 32 := Scalar.addi v449 c5_i32_328
  let v473 : Index := Scalar.indexCast v450
  let c80_334 : Index := 80#32
  ![v473.toNat, 80]
def k0_off654 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_327 : BitVec 32 := 10#32
  let v449 : BitVec 32 := Scalar.muli arg19 c10_i32_327
  let c5_i32_328 : BitVec 32 := 5#32
  let v450 : BitVec 32 := Scalar.addi v449 c5_i32_328
  let v477 : Index := Scalar.indexCast v450
  let c96_335 : Index := 96#32
  ![v477.toNat, 96]
def k0_off655 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_327 : BitVec 32 := 10#32
  let v449 : BitVec 32 := Scalar.muli arg19 c10_i32_327
  let c5_i32_328 : BitVec 32 := 5#32
  let v450 : BitVec 32 := Scalar.addi v449 c5_i32_328
  let v481 : Index := Scalar.indexCast v450
  let c112_336 : Index := 112#32
  ![v481.toNat, 112]

def k0_chk77 (v89 : IVec S16 32) (v487 : IVec S16 32) : Prop :=
  (∀ a x, ((![v89, v487] : Fin 2 → IVec S16 32) a x).toNat < S128x64.size a)
instance k0_chk77.dec : ∀ (v89 : IVec S16 32) (v487 : IVec S16 32), Decidable (k0_chk77 v89 v487) := fun v89 v487 => decidable_of_iff' _ (Iff.of_eq (k0_chk77.eq_1 v89 v487))
theorem k0_idx77_inb : ∀ (v89 : IVec S16 32) (v487 : IVec S16 32) (k0_hw77 : k0_chk77 v89 v487), ∀ a x, ((![v89, v487] : Fin 2 → IVec S16 32) a x).toNat < S128x64.size a := fun v89 v487 k0_hw77 => k0_hw77
def k0_off656 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_337 : BitVec 32 := 10#32
  let v485 : BitVec 32 := Scalar.muli arg19 c10_i32_337
  let c6_i32 : BitVec 32 := 6#32
  let v486 : BitVec 32 := Scalar.addi v485 c6_i32
  let v489 : Index := Scalar.indexCast v486
  let c0_338 : Index := 0#32
  ![v489.toNat, 0]
def k0_off657 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_337 : BitVec 32 := 10#32
  let v485 : BitVec 32 := Scalar.muli arg19 c10_i32_337
  let c6_i32 : BitVec 32 := 6#32
  let v486 : BitVec 32 := Scalar.addi v485 c6_i32
  let v493 : Index := Scalar.indexCast v486
  let c16_339 : Index := 16#32
  ![v493.toNat, 16]
def k0_off658 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_337 : BitVec 32 := 10#32
  let v485 : BitVec 32 := Scalar.muli arg19 c10_i32_337
  let c6_i32 : BitVec 32 := 6#32
  let v486 : BitVec 32 := Scalar.addi v485 c6_i32
  let v497 : Index := Scalar.indexCast v486
  let c32_340 : Index := 32#32
  ![v497.toNat, 32]
def k0_off659 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_337 : BitVec 32 := 10#32
  let v485 : BitVec 32 := Scalar.muli arg19 c10_i32_337
  let c6_i32 : BitVec 32 := 6#32
  let v486 : BitVec 32 := Scalar.addi v485 c6_i32
  let v501 : Index := Scalar.indexCast v486
  let c48_341 : Index := 48#32
  ![v501.toNat, 48]
def k0_off660 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_337 : BitVec 32 := 10#32
  let v485 : BitVec 32 := Scalar.muli arg19 c10_i32_337
  let c6_i32 : BitVec 32 := 6#32
  let v486 : BitVec 32 := Scalar.addi v485 c6_i32
  let v505 : Index := Scalar.indexCast v486
  let c64_342 : Index := 64#32
  ![v505.toNat, 64]
def k0_off661 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_337 : BitVec 32 := 10#32
  let v485 : BitVec 32 := Scalar.muli arg19 c10_i32_337
  let c6_i32 : BitVec 32 := 6#32
  let v486 : BitVec 32 := Scalar.addi v485 c6_i32
  let v509 : Index := Scalar.indexCast v486
  let c80_343 : Index := 80#32
  ![v509.toNat, 80]
def k0_off662 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_337 : BitVec 32 := 10#32
  let v485 : BitVec 32 := Scalar.muli arg19 c10_i32_337
  let c6_i32 : BitVec 32 := 6#32
  let v486 : BitVec 32 := Scalar.addi v485 c6_i32
  let v513 : Index := Scalar.indexCast v486
  let c96_344 : Index := 96#32
  ![v513.toNat, 96]
def k0_off663 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_337 : BitVec 32 := 10#32
  let v485 : BitVec 32 := Scalar.muli arg19 c10_i32_337
  let c6_i32 : BitVec 32 := 6#32
  let v486 : BitVec 32 := Scalar.addi v485 c6_i32
  let v517 : Index := Scalar.indexCast v486
  let c112_345 : Index := 112#32
  ![v517.toNat, 112]

def k0_chk78 (v89 : IVec S16 32) (v523 : IVec S16 32) : Prop :=
  (∀ a x, ((![v89, v523] : Fin 2 → IVec S16 32) a x).toNat < S128x64.size a)
instance k0_chk78.dec : ∀ (v89 : IVec S16 32) (v523 : IVec S16 32), Decidable (k0_chk78 v89 v523) := fun v89 v523 => decidable_of_iff' _ (Iff.of_eq (k0_chk78.eq_1 v89 v523))
theorem k0_idx78_inb : ∀ (v89 : IVec S16 32) (v523 : IVec S16 32) (k0_hw78 : k0_chk78 v89 v523), ∀ a x, ((![v89, v523] : Fin 2 → IVec S16 32) a x).toNat < S128x64.size a := fun v89 v523 k0_hw78 => k0_hw78
def k0_off664 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_346 : BitVec 32 := 10#32
  let v521 : BitVec 32 := Scalar.muli arg19 c10_i32_346
  let c7_i32 : BitVec 32 := 7#32
  let v522 : BitVec 32 := Scalar.addi v521 c7_i32
  let v525 : Index := Scalar.indexCast v522
  let c0_347 : Index := 0#32
  ![v525.toNat, 0]
def k0_off665 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_346 : BitVec 32 := 10#32
  let v521 : BitVec 32 := Scalar.muli arg19 c10_i32_346
  let c7_i32 : BitVec 32 := 7#32
  let v522 : BitVec 32 := Scalar.addi v521 c7_i32
  let v529 : Index := Scalar.indexCast v522
  let c16_348 : Index := 16#32
  ![v529.toNat, 16]
def k0_off666 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_346 : BitVec 32 := 10#32
  let v521 : BitVec 32 := Scalar.muli arg19 c10_i32_346
  let c7_i32 : BitVec 32 := 7#32
  let v522 : BitVec 32 := Scalar.addi v521 c7_i32
  let v533 : Index := Scalar.indexCast v522
  let c32_349 : Index := 32#32
  ![v533.toNat, 32]
def k0_off667 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_346 : BitVec 32 := 10#32
  let v521 : BitVec 32 := Scalar.muli arg19 c10_i32_346
  let c7_i32 : BitVec 32 := 7#32
  let v522 : BitVec 32 := Scalar.addi v521 c7_i32
  let v537 : Index := Scalar.indexCast v522
  let c48_350 : Index := 48#32
  ![v537.toNat, 48]
def k0_off668 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_346 : BitVec 32 := 10#32
  let v521 : BitVec 32 := Scalar.muli arg19 c10_i32_346
  let c7_i32 : BitVec 32 := 7#32
  let v522 : BitVec 32 := Scalar.addi v521 c7_i32
  let v541 : Index := Scalar.indexCast v522
  let c64_351 : Index := 64#32
  ![v541.toNat, 64]
def k0_off669 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_346 : BitVec 32 := 10#32
  let v521 : BitVec 32 := Scalar.muli arg19 c10_i32_346
  let c7_i32 : BitVec 32 := 7#32
  let v522 : BitVec 32 := Scalar.addi v521 c7_i32
  let v545 : Index := Scalar.indexCast v522
  let c80_352 : Index := 80#32
  ![v545.toNat, 80]
def k0_off670 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_346 : BitVec 32 := 10#32
  let v521 : BitVec 32 := Scalar.muli arg19 c10_i32_346
  let c7_i32 : BitVec 32 := 7#32
  let v522 : BitVec 32 := Scalar.addi v521 c7_i32
  let v549 : Index := Scalar.indexCast v522
  let c96_353 : Index := 96#32
  ![v549.toNat, 96]
def k0_off671 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_346 : BitVec 32 := 10#32
  let v521 : BitVec 32 := Scalar.muli arg19 c10_i32_346
  let c7_i32 : BitVec 32 := 7#32
  let v522 : BitVec 32 := Scalar.addi v521 c7_i32
  let v553 : Index := Scalar.indexCast v522
  let c112_354 : Index := 112#32
  ![v553.toNat, 112]

def k0_chk79 (v89 : IVec S16 32) (v559 : IVec S16 32) : Prop :=
  (∀ a x, ((![v89, v559] : Fin 2 → IVec S16 32) a x).toNat < S128x64.size a)
instance k0_chk79.dec : ∀ (v89 : IVec S16 32) (v559 : IVec S16 32), Decidable (k0_chk79 v89 v559) := fun v89 v559 => decidable_of_iff' _ (Iff.of_eq (k0_chk79.eq_1 v89 v559))
theorem k0_idx79_inb : ∀ (v89 : IVec S16 32) (v559 : IVec S16 32) (k0_hw79 : k0_chk79 v89 v559), ∀ a x, ((![v89, v559] : Fin 2 → IVec S16 32) a x).toNat < S128x64.size a := fun v89 v559 k0_hw79 => k0_hw79
def k0_off672 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_355 : BitVec 32 := 10#32
  let v557 : BitVec 32 := Scalar.muli arg19 c10_i32_355
  let c8_i32 : BitVec 32 := 8#32
  let v558 : BitVec 32 := Scalar.addi v557 c8_i32
  let v561 : Index := Scalar.indexCast v558
  let c0_356 : Index := 0#32
  ![v561.toNat, 0]
def k0_off673 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_355 : BitVec 32 := 10#32
  let v557 : BitVec 32 := Scalar.muli arg19 c10_i32_355
  let c8_i32 : BitVec 32 := 8#32
  let v558 : BitVec 32 := Scalar.addi v557 c8_i32
  let v565 : Index := Scalar.indexCast v558
  let c16_357 : Index := 16#32
  ![v565.toNat, 16]
def k0_off674 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_355 : BitVec 32 := 10#32
  let v557 : BitVec 32 := Scalar.muli arg19 c10_i32_355
  let c8_i32 : BitVec 32 := 8#32
  let v558 : BitVec 32 := Scalar.addi v557 c8_i32
  let v569 : Index := Scalar.indexCast v558
  let c32_358 : Index := 32#32
  ![v569.toNat, 32]
def k0_off675 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_355 : BitVec 32 := 10#32
  let v557 : BitVec 32 := Scalar.muli arg19 c10_i32_355
  let c8_i32 : BitVec 32 := 8#32
  let v558 : BitVec 32 := Scalar.addi v557 c8_i32
  let v573 : Index := Scalar.indexCast v558
  let c48_359 : Index := 48#32
  ![v573.toNat, 48]
def k0_off676 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_355 : BitVec 32 := 10#32
  let v557 : BitVec 32 := Scalar.muli arg19 c10_i32_355
  let c8_i32 : BitVec 32 := 8#32
  let v558 : BitVec 32 := Scalar.addi v557 c8_i32
  let v577 : Index := Scalar.indexCast v558
  let c64_360 : Index := 64#32
  ![v577.toNat, 64]
def k0_off677 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_355 : BitVec 32 := 10#32
  let v557 : BitVec 32 := Scalar.muli arg19 c10_i32_355
  let c8_i32 : BitVec 32 := 8#32
  let v558 : BitVec 32 := Scalar.addi v557 c8_i32
  let v581 : Index := Scalar.indexCast v558
  let c80_361 : Index := 80#32
  ![v581.toNat, 80]
def k0_off678 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_355 : BitVec 32 := 10#32
  let v557 : BitVec 32 := Scalar.muli arg19 c10_i32_355
  let c8_i32 : BitVec 32 := 8#32
  let v558 : BitVec 32 := Scalar.addi v557 c8_i32
  let v585 : Index := Scalar.indexCast v558
  let c96_362 : Index := 96#32
  ![v585.toNat, 96]
def k0_off679 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_355 : BitVec 32 := 10#32
  let v557 : BitVec 32 := Scalar.muli arg19 c10_i32_355
  let c8_i32 : BitVec 32 := 8#32
  let v558 : BitVec 32 := Scalar.addi v557 c8_i32
  let v589 : Index := Scalar.indexCast v558
  let c112_363 : Index := 112#32
  ![v589.toNat, 112]

def k0_chk80 (v89 : IVec S16 32) (v595 : IVec S16 32) : Prop :=
  (∀ a x, ((![v89, v595] : Fin 2 → IVec S16 32) a x).toNat < S128x64.size a)
instance k0_chk80.dec : ∀ (v89 : IVec S16 32) (v595 : IVec S16 32), Decidable (k0_chk80 v89 v595) := fun v89 v595 => decidable_of_iff' _ (Iff.of_eq (k0_chk80.eq_1 v89 v595))
theorem k0_idx80_inb : ∀ (v89 : IVec S16 32) (v595 : IVec S16 32) (k0_hw80 : k0_chk80 v89 v595), ∀ a x, ((![v89, v595] : Fin 2 → IVec S16 32) a x).toNat < S128x64.size a := fun v89 v595 k0_hw80 => k0_hw80
def k0_off680 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_364 : BitVec 32 := 10#32
  let v593 : BitVec 32 := Scalar.muli arg19 c10_i32_364
  let c9_i32 : BitVec 32 := 9#32
  let v594 : BitVec 32 := Scalar.addi v593 c9_i32
  let v597 : Index := Scalar.indexCast v594
  let c0_365 : Index := 0#32
  ![v597.toNat, 0]
def k0_off681 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_364 : BitVec 32 := 10#32
  let v593 : BitVec 32 := Scalar.muli arg19 c10_i32_364
  let c9_i32 : BitVec 32 := 9#32
  let v594 : BitVec 32 := Scalar.addi v593 c9_i32
  let v601 : Index := Scalar.indexCast v594
  let c16_366 : Index := 16#32
  ![v601.toNat, 16]
def k0_off682 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_364 : BitVec 32 := 10#32
  let v593 : BitVec 32 := Scalar.muli arg19 c10_i32_364
  let c9_i32 : BitVec 32 := 9#32
  let v594 : BitVec 32 := Scalar.addi v593 c9_i32
  let v605 : Index := Scalar.indexCast v594
  let c32_367 : Index := 32#32
  ![v605.toNat, 32]
def k0_off683 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_364 : BitVec 32 := 10#32
  let v593 : BitVec 32 := Scalar.muli arg19 c10_i32_364
  let c9_i32 : BitVec 32 := 9#32
  let v594 : BitVec 32 := Scalar.addi v593 c9_i32
  let v609 : Index := Scalar.indexCast v594
  let c48_368 : Index := 48#32
  ![v609.toNat, 48]
def k0_off684 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_364 : BitVec 32 := 10#32
  let v593 : BitVec 32 := Scalar.muli arg19 c10_i32_364
  let c9_i32 : BitVec 32 := 9#32
  let v594 : BitVec 32 := Scalar.addi v593 c9_i32
  let v613 : Index := Scalar.indexCast v594
  let c64_369 : Index := 64#32
  ![v613.toNat, 64]
def k0_off685 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_364 : BitVec 32 := 10#32
  let v593 : BitVec 32 := Scalar.muli arg19 c10_i32_364
  let c9_i32 : BitVec 32 := 9#32
  let v594 : BitVec 32 := Scalar.addi v593 c9_i32
  let v617 : Index := Scalar.indexCast v594
  let c80_370 : Index := 80#32
  ![v617.toNat, 80]
def k0_off686 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_364 : BitVec 32 := 10#32
  let v593 : BitVec 32 := Scalar.muli arg19 c10_i32_364
  let c9_i32 : BitVec 32 := 9#32
  let v594 : BitVec 32 := Scalar.addi v593 c9_i32
  let v621 : Index := Scalar.indexCast v594
  let c96_371 : Index := 96#32
  ![v621.toNat, 96]
def k0_off687 (k0_t9 : Fin k0_t9_loop.trips) : Fin 2 → Nat :=
  let c0_i32_92 : BitVec 32 := 0#32
  let c1_i32_94 : BitVec 32 := 1#32
  let arg19 : BitVec 32 := Scf.iv c0_i32_92 c1_i32_94 k0_t9
  let c10_i32_364 : BitVec 32 := 10#32
  let v593 : BitVec 32 := Scalar.muli arg19 c10_i32_364
  let c9_i32 : BitVec 32 := 9#32
  let v594 : BitVec 32 := Scalar.addi v593 c9_i32
  let v625 : Index := Scalar.indexCast v594
  let c112_372 : Index := 112#32
  ![v625.toNat, 112]
@[reducible] def k0_t10_loop : Scf.Loop 32 :=
  let c0_i32_127 : BitVec 32 := 0#32
  let c5_i32_128 : BitVec 32 := 5#32
  let v131 : BitVec 32 := Scalar.addi c0_i32_127 c5_i32_128
  let c1_i32_129 : BitVec 32 := 1#32
  ⟨c0_i32_127, v131, c1_i32_129⟩

def k0_chk81 (v122 : IVec S16 32) (v271 : IVec S16 32) : Prop :=
  (∀ a x, ((![v122, v271] : Fin 2 → IVec S16 32) a x).toNat < S128x64.size a)
instance k0_chk81.dec : ∀ (v122 : IVec S16 32) (v271 : IVec S16 32), Decidable (k0_chk81 v122 v271) := fun v122 v271 => decidable_of_iff' _ (Iff.of_eq (k0_chk81.eq_1 v122 v271))
theorem k0_idx81_inb : ∀ (v122 : IVec S16 32) (v271 : IVec S16 32) (k0_hw81 : k0_chk81 v122 v271), ∀ a x, ((![v122, v271] : Fin 2 → IVec S16 32) a x).toNat < S128x64.size a := fun v122 v271 k0_hw81 => k0_hw81
def k0_off688 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32 : BitVec 32 := 10#32
  let v269 : BitVec 32 := Scalar.muli arg19 c10_i32
  let c0_i32_279 : BitVec 32 := 0#32
  let v270 : BitVec 32 := Scalar.addi v269 c0_i32_279
  let v273 : Index := Scalar.indexCast v270
  let c0_280 : Index := 0#32
  ![v273.toNat, 0]
def k0_off689 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32 : BitVec 32 := 10#32
  let v269 : BitVec 32 := Scalar.muli arg19 c10_i32
  let c0_i32_279 : BitVec 32 := 0#32
  let v270 : BitVec 32 := Scalar.addi v269 c0_i32_279
  let v277 : Index := Scalar.indexCast v270
  let c16_281 : Index := 16#32
  ![v277.toNat, 16]
def k0_off690 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32 : BitVec 32 := 10#32
  let v269 : BitVec 32 := Scalar.muli arg19 c10_i32
  let c0_i32_279 : BitVec 32 := 0#32
  let v270 : BitVec 32 := Scalar.addi v269 c0_i32_279
  let v281 : Index := Scalar.indexCast v270
  let c32_282 : Index := 32#32
  ![v281.toNat, 32]
def k0_off691 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32 : BitVec 32 := 10#32
  let v269 : BitVec 32 := Scalar.muli arg19 c10_i32
  let c0_i32_279 : BitVec 32 := 0#32
  let v270 : BitVec 32 := Scalar.addi v269 c0_i32_279
  let v285 : Index := Scalar.indexCast v270
  let c48_283 : Index := 48#32
  ![v285.toNat, 48]
def k0_off692 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32 : BitVec 32 := 10#32
  let v269 : BitVec 32 := Scalar.muli arg19 c10_i32
  let c0_i32_279 : BitVec 32 := 0#32
  let v270 : BitVec 32 := Scalar.addi v269 c0_i32_279
  let v289 : Index := Scalar.indexCast v270
  let c64_284 : Index := 64#32
  ![v289.toNat, 64]
def k0_off693 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32 : BitVec 32 := 10#32
  let v269 : BitVec 32 := Scalar.muli arg19 c10_i32
  let c0_i32_279 : BitVec 32 := 0#32
  let v270 : BitVec 32 := Scalar.addi v269 c0_i32_279
  let v293 : Index := Scalar.indexCast v270
  let c80_285 : Index := 80#32
  ![v293.toNat, 80]
def k0_off694 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32 : BitVec 32 := 10#32
  let v269 : BitVec 32 := Scalar.muli arg19 c10_i32
  let c0_i32_279 : BitVec 32 := 0#32
  let v270 : BitVec 32 := Scalar.addi v269 c0_i32_279
  let v297 : Index := Scalar.indexCast v270
  let c96_286 : Index := 96#32
  ![v297.toNat, 96]
def k0_off695 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32 : BitVec 32 := 10#32
  let v269 : BitVec 32 := Scalar.muli arg19 c10_i32
  let c0_i32_279 : BitVec 32 := 0#32
  let v270 : BitVec 32 := Scalar.addi v269 c0_i32_279
  let v301 : Index := Scalar.indexCast v270
  let c112_287 : Index := 112#32
  ![v301.toNat, 112]

def k0_chk82 (v122 : IVec S16 32) (v307 : IVec S16 32) : Prop :=
  (∀ a x, ((![v122, v307] : Fin 2 → IVec S16 32) a x).toNat < S128x64.size a)
instance k0_chk82.dec : ∀ (v122 : IVec S16 32) (v307 : IVec S16 32), Decidable (k0_chk82 v122 v307) := fun v122 v307 => decidable_of_iff' _ (Iff.of_eq (k0_chk82.eq_1 v122 v307))
theorem k0_idx82_inb : ∀ (v122 : IVec S16 32) (v307 : IVec S16 32) (k0_hw82 : k0_chk82 v122 v307), ∀ a x, ((![v122, v307] : Fin 2 → IVec S16 32) a x).toNat < S128x64.size a := fun v122 v307 k0_hw82 => k0_hw82
def k0_off696 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_288 : BitVec 32 := 10#32
  let v305 : BitVec 32 := Scalar.muli arg19 c10_i32_288
  let c1_i32_289 : BitVec 32 := 1#32
  let v306 : BitVec 32 := Scalar.addi v305 c1_i32_289
  let v309 : Index := Scalar.indexCast v306
  let c0_290 : Index := 0#32
  ![v309.toNat, 0]
def k0_off697 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_288 : BitVec 32 := 10#32
  let v305 : BitVec 32 := Scalar.muli arg19 c10_i32_288
  let c1_i32_289 : BitVec 32 := 1#32
  let v306 : BitVec 32 := Scalar.addi v305 c1_i32_289
  let v313 : Index := Scalar.indexCast v306
  let c16_291 : Index := 16#32
  ![v313.toNat, 16]
def k0_off698 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_288 : BitVec 32 := 10#32
  let v305 : BitVec 32 := Scalar.muli arg19 c10_i32_288
  let c1_i32_289 : BitVec 32 := 1#32
  let v306 : BitVec 32 := Scalar.addi v305 c1_i32_289
  let v317 : Index := Scalar.indexCast v306
  let c32_292 : Index := 32#32
  ![v317.toNat, 32]
def k0_off699 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_288 : BitVec 32 := 10#32
  let v305 : BitVec 32 := Scalar.muli arg19 c10_i32_288
  let c1_i32_289 : BitVec 32 := 1#32
  let v306 : BitVec 32 := Scalar.addi v305 c1_i32_289
  let v321 : Index := Scalar.indexCast v306
  let c48_293 : Index := 48#32
  ![v321.toNat, 48]
def k0_off700 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_288 : BitVec 32 := 10#32
  let v305 : BitVec 32 := Scalar.muli arg19 c10_i32_288
  let c1_i32_289 : BitVec 32 := 1#32
  let v306 : BitVec 32 := Scalar.addi v305 c1_i32_289
  let v325 : Index := Scalar.indexCast v306
  let c64_294 : Index := 64#32
  ![v325.toNat, 64]
def k0_off701 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_288 : BitVec 32 := 10#32
  let v305 : BitVec 32 := Scalar.muli arg19 c10_i32_288
  let c1_i32_289 : BitVec 32 := 1#32
  let v306 : BitVec 32 := Scalar.addi v305 c1_i32_289
  let v329 : Index := Scalar.indexCast v306
  let c80_295 : Index := 80#32
  ![v329.toNat, 80]
def k0_off702 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_288 : BitVec 32 := 10#32
  let v305 : BitVec 32 := Scalar.muli arg19 c10_i32_288
  let c1_i32_289 : BitVec 32 := 1#32
  let v306 : BitVec 32 := Scalar.addi v305 c1_i32_289
  let v333 : Index := Scalar.indexCast v306
  let c96_296 : Index := 96#32
  ![v333.toNat, 96]
def k0_off703 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_288 : BitVec 32 := 10#32
  let v305 : BitVec 32 := Scalar.muli arg19 c10_i32_288
  let c1_i32_289 : BitVec 32 := 1#32
  let v306 : BitVec 32 := Scalar.addi v305 c1_i32_289
  let v337 : Index := Scalar.indexCast v306
  let c112_297 : Index := 112#32
  ![v337.toNat, 112]

def k0_chk83 (v122 : IVec S16 32) (v343 : IVec S16 32) : Prop :=
  (∀ a x, ((![v122, v343] : Fin 2 → IVec S16 32) a x).toNat < S128x64.size a)
instance k0_chk83.dec : ∀ (v122 : IVec S16 32) (v343 : IVec S16 32), Decidable (k0_chk83 v122 v343) := fun v122 v343 => decidable_of_iff' _ (Iff.of_eq (k0_chk83.eq_1 v122 v343))
theorem k0_idx83_inb : ∀ (v122 : IVec S16 32) (v343 : IVec S16 32) (k0_hw83 : k0_chk83 v122 v343), ∀ a x, ((![v122, v343] : Fin 2 → IVec S16 32) a x).toNat < S128x64.size a := fun v122 v343 k0_hw83 => k0_hw83
def k0_off704 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_298 : BitVec 32 := 10#32
  let v341 : BitVec 32 := Scalar.muli arg19 c10_i32_298
  let c2_i32_299 : BitVec 32 := 2#32
  let v342 : BitVec 32 := Scalar.addi v341 c2_i32_299
  let v345 : Index := Scalar.indexCast v342
  let c0_300 : Index := 0#32
  ![v345.toNat, 0]
def k0_off705 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_298 : BitVec 32 := 10#32
  let v341 : BitVec 32 := Scalar.muli arg19 c10_i32_298
  let c2_i32_299 : BitVec 32 := 2#32
  let v342 : BitVec 32 := Scalar.addi v341 c2_i32_299
  let v349 : Index := Scalar.indexCast v342
  let c16_301 : Index := 16#32
  ![v349.toNat, 16]
def k0_off706 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_298 : BitVec 32 := 10#32
  let v341 : BitVec 32 := Scalar.muli arg19 c10_i32_298
  let c2_i32_299 : BitVec 32 := 2#32
  let v342 : BitVec 32 := Scalar.addi v341 c2_i32_299
  let v353 : Index := Scalar.indexCast v342
  let c32_302 : Index := 32#32
  ![v353.toNat, 32]
def k0_off707 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_298 : BitVec 32 := 10#32
  let v341 : BitVec 32 := Scalar.muli arg19 c10_i32_298
  let c2_i32_299 : BitVec 32 := 2#32
  let v342 : BitVec 32 := Scalar.addi v341 c2_i32_299
  let v357 : Index := Scalar.indexCast v342
  let c48_303 : Index := 48#32
  ![v357.toNat, 48]
def k0_off708 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_298 : BitVec 32 := 10#32
  let v341 : BitVec 32 := Scalar.muli arg19 c10_i32_298
  let c2_i32_299 : BitVec 32 := 2#32
  let v342 : BitVec 32 := Scalar.addi v341 c2_i32_299
  let v361 : Index := Scalar.indexCast v342
  let c64_304 : Index := 64#32
  ![v361.toNat, 64]
def k0_off709 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_298 : BitVec 32 := 10#32
  let v341 : BitVec 32 := Scalar.muli arg19 c10_i32_298
  let c2_i32_299 : BitVec 32 := 2#32
  let v342 : BitVec 32 := Scalar.addi v341 c2_i32_299
  let v365 : Index := Scalar.indexCast v342
  let c80_305 : Index := 80#32
  ![v365.toNat, 80]
def k0_off710 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_298 : BitVec 32 := 10#32
  let v341 : BitVec 32 := Scalar.muli arg19 c10_i32_298
  let c2_i32_299 : BitVec 32 := 2#32
  let v342 : BitVec 32 := Scalar.addi v341 c2_i32_299
  let v369 : Index := Scalar.indexCast v342
  let c96_306 : Index := 96#32
  ![v369.toNat, 96]
def k0_off711 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_298 : BitVec 32 := 10#32
  let v341 : BitVec 32 := Scalar.muli arg19 c10_i32_298
  let c2_i32_299 : BitVec 32 := 2#32
  let v342 : BitVec 32 := Scalar.addi v341 c2_i32_299
  let v373 : Index := Scalar.indexCast v342
  let c112_307 : Index := 112#32
  ![v373.toNat, 112]

def k0_chk84 (v122 : IVec S16 32) (v379 : IVec S16 32) : Prop :=
  (∀ a x, ((![v122, v379] : Fin 2 → IVec S16 32) a x).toNat < S128x64.size a)
instance k0_chk84.dec : ∀ (v122 : IVec S16 32) (v379 : IVec S16 32), Decidable (k0_chk84 v122 v379) := fun v122 v379 => decidable_of_iff' _ (Iff.of_eq (k0_chk84.eq_1 v122 v379))
theorem k0_idx84_inb : ∀ (v122 : IVec S16 32) (v379 : IVec S16 32) (k0_hw84 : k0_chk84 v122 v379), ∀ a x, ((![v122, v379] : Fin 2 → IVec S16 32) a x).toNat < S128x64.size a := fun v122 v379 k0_hw84 => k0_hw84
def k0_off712 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_308 : BitVec 32 := 10#32
  let v377 : BitVec 32 := Scalar.muli arg19 c10_i32_308
  let c3_i32_309 : BitVec 32 := 3#32
  let v378 : BitVec 32 := Scalar.addi v377 c3_i32_309
  let v381 : Index := Scalar.indexCast v378
  let c0_310 : Index := 0#32
  ![v381.toNat, 0]
def k0_off713 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_308 : BitVec 32 := 10#32
  let v377 : BitVec 32 := Scalar.muli arg19 c10_i32_308
  let c3_i32_309 : BitVec 32 := 3#32
  let v378 : BitVec 32 := Scalar.addi v377 c3_i32_309
  let v385 : Index := Scalar.indexCast v378
  let c16_311 : Index := 16#32
  ![v385.toNat, 16]
def k0_off714 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_308 : BitVec 32 := 10#32
  let v377 : BitVec 32 := Scalar.muli arg19 c10_i32_308
  let c3_i32_309 : BitVec 32 := 3#32
  let v378 : BitVec 32 := Scalar.addi v377 c3_i32_309
  let v389 : Index := Scalar.indexCast v378
  let c32_312 : Index := 32#32
  ![v389.toNat, 32]
def k0_off715 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_308 : BitVec 32 := 10#32
  let v377 : BitVec 32 := Scalar.muli arg19 c10_i32_308
  let c3_i32_309 : BitVec 32 := 3#32
  let v378 : BitVec 32 := Scalar.addi v377 c3_i32_309
  let v393 : Index := Scalar.indexCast v378
  let c48_313 : Index := 48#32
  ![v393.toNat, 48]
def k0_off716 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_308 : BitVec 32 := 10#32
  let v377 : BitVec 32 := Scalar.muli arg19 c10_i32_308
  let c3_i32_309 : BitVec 32 := 3#32
  let v378 : BitVec 32 := Scalar.addi v377 c3_i32_309
  let v397 : Index := Scalar.indexCast v378
  let c64_314 : Index := 64#32
  ![v397.toNat, 64]
def k0_off717 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_308 : BitVec 32 := 10#32
  let v377 : BitVec 32 := Scalar.muli arg19 c10_i32_308
  let c3_i32_309 : BitVec 32 := 3#32
  let v378 : BitVec 32 := Scalar.addi v377 c3_i32_309
  let v401 : Index := Scalar.indexCast v378
  let c80_315 : Index := 80#32
  ![v401.toNat, 80]
def k0_off718 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_308 : BitVec 32 := 10#32
  let v377 : BitVec 32 := Scalar.muli arg19 c10_i32_308
  let c3_i32_309 : BitVec 32 := 3#32
  let v378 : BitVec 32 := Scalar.addi v377 c3_i32_309
  let v405 : Index := Scalar.indexCast v378
  let c96_316 : Index := 96#32
  ![v405.toNat, 96]
def k0_off719 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_308 : BitVec 32 := 10#32
  let v377 : BitVec 32 := Scalar.muli arg19 c10_i32_308
  let c3_i32_309 : BitVec 32 := 3#32
  let v378 : BitVec 32 := Scalar.addi v377 c3_i32_309
  let v409 : Index := Scalar.indexCast v378
  let c112_317 : Index := 112#32
  ![v409.toNat, 112]

def k0_chk85 (v122 : IVec S16 32) (v415 : IVec S16 32) : Prop :=
  (∀ a x, ((![v122, v415] : Fin 2 → IVec S16 32) a x).toNat < S128x64.size a)
instance k0_chk85.dec : ∀ (v122 : IVec S16 32) (v415 : IVec S16 32), Decidable (k0_chk85 v122 v415) := fun v122 v415 => decidable_of_iff' _ (Iff.of_eq (k0_chk85.eq_1 v122 v415))
theorem k0_idx85_inb : ∀ (v122 : IVec S16 32) (v415 : IVec S16 32) (k0_hw85 : k0_chk85 v122 v415), ∀ a x, ((![v122, v415] : Fin 2 → IVec S16 32) a x).toNat < S128x64.size a := fun v122 v415 k0_hw85 => k0_hw85
def k0_off720 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_318 : BitVec 32 := 10#32
  let v413 : BitVec 32 := Scalar.muli arg19 c10_i32_318
  let c4_i32 : BitVec 32 := 4#32
  let v414 : BitVec 32 := Scalar.addi v413 c4_i32
  let v417 : Index := Scalar.indexCast v414
  let c0_319 : Index := 0#32
  ![v417.toNat, 0]
def k0_off721 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_318 : BitVec 32 := 10#32
  let v413 : BitVec 32 := Scalar.muli arg19 c10_i32_318
  let c4_i32 : BitVec 32 := 4#32
  let v414 : BitVec 32 := Scalar.addi v413 c4_i32
  let v421 : Index := Scalar.indexCast v414
  let c16_320 : Index := 16#32
  ![v421.toNat, 16]
def k0_off722 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_318 : BitVec 32 := 10#32
  let v413 : BitVec 32 := Scalar.muli arg19 c10_i32_318
  let c4_i32 : BitVec 32 := 4#32
  let v414 : BitVec 32 := Scalar.addi v413 c4_i32
  let v425 : Index := Scalar.indexCast v414
  let c32_321 : Index := 32#32
  ![v425.toNat, 32]
def k0_off723 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_318 : BitVec 32 := 10#32
  let v413 : BitVec 32 := Scalar.muli arg19 c10_i32_318
  let c4_i32 : BitVec 32 := 4#32
  let v414 : BitVec 32 := Scalar.addi v413 c4_i32
  let v429 : Index := Scalar.indexCast v414
  let c48_322 : Index := 48#32
  ![v429.toNat, 48]
def k0_off724 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_318 : BitVec 32 := 10#32
  let v413 : BitVec 32 := Scalar.muli arg19 c10_i32_318
  let c4_i32 : BitVec 32 := 4#32
  let v414 : BitVec 32 := Scalar.addi v413 c4_i32
  let v433 : Index := Scalar.indexCast v414
  let c64_323 : Index := 64#32
  ![v433.toNat, 64]
def k0_off725 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_318 : BitVec 32 := 10#32
  let v413 : BitVec 32 := Scalar.muli arg19 c10_i32_318
  let c4_i32 : BitVec 32 := 4#32
  let v414 : BitVec 32 := Scalar.addi v413 c4_i32
  let v437 : Index := Scalar.indexCast v414
  let c80_324 : Index := 80#32
  ![v437.toNat, 80]
def k0_off726 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_318 : BitVec 32 := 10#32
  let v413 : BitVec 32 := Scalar.muli arg19 c10_i32_318
  let c4_i32 : BitVec 32 := 4#32
  let v414 : BitVec 32 := Scalar.addi v413 c4_i32
  let v441 : Index := Scalar.indexCast v414
  let c96_325 : Index := 96#32
  ![v441.toNat, 96]
def k0_off727 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_318 : BitVec 32 := 10#32
  let v413 : BitVec 32 := Scalar.muli arg19 c10_i32_318
  let c4_i32 : BitVec 32 := 4#32
  let v414 : BitVec 32 := Scalar.addi v413 c4_i32
  let v445 : Index := Scalar.indexCast v414
  let c112_326 : Index := 112#32
  ![v445.toNat, 112]

def k0_chk86 (v122 : IVec S16 32) (v451 : IVec S16 32) : Prop :=
  (∀ a x, ((![v122, v451] : Fin 2 → IVec S16 32) a x).toNat < S128x64.size a)
instance k0_chk86.dec : ∀ (v122 : IVec S16 32) (v451 : IVec S16 32), Decidable (k0_chk86 v122 v451) := fun v122 v451 => decidable_of_iff' _ (Iff.of_eq (k0_chk86.eq_1 v122 v451))
theorem k0_idx86_inb : ∀ (v122 : IVec S16 32) (v451 : IVec S16 32) (k0_hw86 : k0_chk86 v122 v451), ∀ a x, ((![v122, v451] : Fin 2 → IVec S16 32) a x).toNat < S128x64.size a := fun v122 v451 k0_hw86 => k0_hw86
def k0_off728 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_327 : BitVec 32 := 10#32
  let v449 : BitVec 32 := Scalar.muli arg19 c10_i32_327
  let c5_i32_328 : BitVec 32 := 5#32
  let v450 : BitVec 32 := Scalar.addi v449 c5_i32_328
  let v453 : Index := Scalar.indexCast v450
  let c0_329 : Index := 0#32
  ![v453.toNat, 0]
def k0_off729 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_327 : BitVec 32 := 10#32
  let v449 : BitVec 32 := Scalar.muli arg19 c10_i32_327
  let c5_i32_328 : BitVec 32 := 5#32
  let v450 : BitVec 32 := Scalar.addi v449 c5_i32_328
  let v457 : Index := Scalar.indexCast v450
  let c16_330 : Index := 16#32
  ![v457.toNat, 16]
def k0_off730 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_327 : BitVec 32 := 10#32
  let v449 : BitVec 32 := Scalar.muli arg19 c10_i32_327
  let c5_i32_328 : BitVec 32 := 5#32
  let v450 : BitVec 32 := Scalar.addi v449 c5_i32_328
  let v461 : Index := Scalar.indexCast v450
  let c32_331 : Index := 32#32
  ![v461.toNat, 32]
def k0_off731 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_327 : BitVec 32 := 10#32
  let v449 : BitVec 32 := Scalar.muli arg19 c10_i32_327
  let c5_i32_328 : BitVec 32 := 5#32
  let v450 : BitVec 32 := Scalar.addi v449 c5_i32_328
  let v465 : Index := Scalar.indexCast v450
  let c48_332 : Index := 48#32
  ![v465.toNat, 48]
def k0_off732 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_327 : BitVec 32 := 10#32
  let v449 : BitVec 32 := Scalar.muli arg19 c10_i32_327
  let c5_i32_328 : BitVec 32 := 5#32
  let v450 : BitVec 32 := Scalar.addi v449 c5_i32_328
  let v469 : Index := Scalar.indexCast v450
  let c64_333 : Index := 64#32
  ![v469.toNat, 64]
def k0_off733 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_327 : BitVec 32 := 10#32
  let v449 : BitVec 32 := Scalar.muli arg19 c10_i32_327
  let c5_i32_328 : BitVec 32 := 5#32
  let v450 : BitVec 32 := Scalar.addi v449 c5_i32_328
  let v473 : Index := Scalar.indexCast v450
  let c80_334 : Index := 80#32
  ![v473.toNat, 80]
def k0_off734 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_327 : BitVec 32 := 10#32
  let v449 : BitVec 32 := Scalar.muli arg19 c10_i32_327
  let c5_i32_328 : BitVec 32 := 5#32
  let v450 : BitVec 32 := Scalar.addi v449 c5_i32_328
  let v477 : Index := Scalar.indexCast v450
  let c96_335 : Index := 96#32
  ![v477.toNat, 96]
def k0_off735 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_327 : BitVec 32 := 10#32
  let v449 : BitVec 32 := Scalar.muli arg19 c10_i32_327
  let c5_i32_328 : BitVec 32 := 5#32
  let v450 : BitVec 32 := Scalar.addi v449 c5_i32_328
  let v481 : Index := Scalar.indexCast v450
  let c112_336 : Index := 112#32
  ![v481.toNat, 112]

def k0_chk87 (v122 : IVec S16 32) (v487 : IVec S16 32) : Prop :=
  (∀ a x, ((![v122, v487] : Fin 2 → IVec S16 32) a x).toNat < S128x64.size a)
instance k0_chk87.dec : ∀ (v122 : IVec S16 32) (v487 : IVec S16 32), Decidable (k0_chk87 v122 v487) := fun v122 v487 => decidable_of_iff' _ (Iff.of_eq (k0_chk87.eq_1 v122 v487))
theorem k0_idx87_inb : ∀ (v122 : IVec S16 32) (v487 : IVec S16 32) (k0_hw87 : k0_chk87 v122 v487), ∀ a x, ((![v122, v487] : Fin 2 → IVec S16 32) a x).toNat < S128x64.size a := fun v122 v487 k0_hw87 => k0_hw87
def k0_off736 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_337 : BitVec 32 := 10#32
  let v485 : BitVec 32 := Scalar.muli arg19 c10_i32_337
  let c6_i32 : BitVec 32 := 6#32
  let v486 : BitVec 32 := Scalar.addi v485 c6_i32
  let v489 : Index := Scalar.indexCast v486
  let c0_338 : Index := 0#32
  ![v489.toNat, 0]
def k0_off737 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_337 : BitVec 32 := 10#32
  let v485 : BitVec 32 := Scalar.muli arg19 c10_i32_337
  let c6_i32 : BitVec 32 := 6#32
  let v486 : BitVec 32 := Scalar.addi v485 c6_i32
  let v493 : Index := Scalar.indexCast v486
  let c16_339 : Index := 16#32
  ![v493.toNat, 16]
def k0_off738 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_337 : BitVec 32 := 10#32
  let v485 : BitVec 32 := Scalar.muli arg19 c10_i32_337
  let c6_i32 : BitVec 32 := 6#32
  let v486 : BitVec 32 := Scalar.addi v485 c6_i32
  let v497 : Index := Scalar.indexCast v486
  let c32_340 : Index := 32#32
  ![v497.toNat, 32]
def k0_off739 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_337 : BitVec 32 := 10#32
  let v485 : BitVec 32 := Scalar.muli arg19 c10_i32_337
  let c6_i32 : BitVec 32 := 6#32
  let v486 : BitVec 32 := Scalar.addi v485 c6_i32
  let v501 : Index := Scalar.indexCast v486
  let c48_341 : Index := 48#32
  ![v501.toNat, 48]
def k0_off740 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_337 : BitVec 32 := 10#32
  let v485 : BitVec 32 := Scalar.muli arg19 c10_i32_337
  let c6_i32 : BitVec 32 := 6#32
  let v486 : BitVec 32 := Scalar.addi v485 c6_i32
  let v505 : Index := Scalar.indexCast v486
  let c64_342 : Index := 64#32
  ![v505.toNat, 64]
def k0_off741 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_337 : BitVec 32 := 10#32
  let v485 : BitVec 32 := Scalar.muli arg19 c10_i32_337
  let c6_i32 : BitVec 32 := 6#32
  let v486 : BitVec 32 := Scalar.addi v485 c6_i32
  let v509 : Index := Scalar.indexCast v486
  let c80_343 : Index := 80#32
  ![v509.toNat, 80]
def k0_off742 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_337 : BitVec 32 := 10#32
  let v485 : BitVec 32 := Scalar.muli arg19 c10_i32_337
  let c6_i32 : BitVec 32 := 6#32
  let v486 : BitVec 32 := Scalar.addi v485 c6_i32
  let v513 : Index := Scalar.indexCast v486
  let c96_344 : Index := 96#32
  ![v513.toNat, 96]
def k0_off743 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_337 : BitVec 32 := 10#32
  let v485 : BitVec 32 := Scalar.muli arg19 c10_i32_337
  let c6_i32 : BitVec 32 := 6#32
  let v486 : BitVec 32 := Scalar.addi v485 c6_i32
  let v517 : Index := Scalar.indexCast v486
  let c112_345 : Index := 112#32
  ![v517.toNat, 112]

def k0_chk88 (v122 : IVec S16 32) (v523 : IVec S16 32) : Prop :=
  (∀ a x, ((![v122, v523] : Fin 2 → IVec S16 32) a x).toNat < S128x64.size a)
instance k0_chk88.dec : ∀ (v122 : IVec S16 32) (v523 : IVec S16 32), Decidable (k0_chk88 v122 v523) := fun v122 v523 => decidable_of_iff' _ (Iff.of_eq (k0_chk88.eq_1 v122 v523))
theorem k0_idx88_inb : ∀ (v122 : IVec S16 32) (v523 : IVec S16 32) (k0_hw88 : k0_chk88 v122 v523), ∀ a x, ((![v122, v523] : Fin 2 → IVec S16 32) a x).toNat < S128x64.size a := fun v122 v523 k0_hw88 => k0_hw88
def k0_off744 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_346 : BitVec 32 := 10#32
  let v521 : BitVec 32 := Scalar.muli arg19 c10_i32_346
  let c7_i32 : BitVec 32 := 7#32
  let v522 : BitVec 32 := Scalar.addi v521 c7_i32
  let v525 : Index := Scalar.indexCast v522
  let c0_347 : Index := 0#32
  ![v525.toNat, 0]
def k0_off745 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_346 : BitVec 32 := 10#32
  let v521 : BitVec 32 := Scalar.muli arg19 c10_i32_346
  let c7_i32 : BitVec 32 := 7#32
  let v522 : BitVec 32 := Scalar.addi v521 c7_i32
  let v529 : Index := Scalar.indexCast v522
  let c16_348 : Index := 16#32
  ![v529.toNat, 16]
def k0_off746 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_346 : BitVec 32 := 10#32
  let v521 : BitVec 32 := Scalar.muli arg19 c10_i32_346
  let c7_i32 : BitVec 32 := 7#32
  let v522 : BitVec 32 := Scalar.addi v521 c7_i32
  let v533 : Index := Scalar.indexCast v522
  let c32_349 : Index := 32#32
  ![v533.toNat, 32]
def k0_off747 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_346 : BitVec 32 := 10#32
  let v521 : BitVec 32 := Scalar.muli arg19 c10_i32_346
  let c7_i32 : BitVec 32 := 7#32
  let v522 : BitVec 32 := Scalar.addi v521 c7_i32
  let v537 : Index := Scalar.indexCast v522
  let c48_350 : Index := 48#32
  ![v537.toNat, 48]
def k0_off748 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_346 : BitVec 32 := 10#32
  let v521 : BitVec 32 := Scalar.muli arg19 c10_i32_346
  let c7_i32 : BitVec 32 := 7#32
  let v522 : BitVec 32 := Scalar.addi v521 c7_i32
  let v541 : Index := Scalar.indexCast v522
  let c64_351 : Index := 64#32
  ![v541.toNat, 64]
def k0_off749 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_346 : BitVec 32 := 10#32
  let v521 : BitVec 32 := Scalar.muli arg19 c10_i32_346
  let c7_i32 : BitVec 32 := 7#32
  let v522 : BitVec 32 := Scalar.addi v521 c7_i32
  let v545 : Index := Scalar.indexCast v522
  let c80_352 : Index := 80#32
  ![v545.toNat, 80]
def k0_off750 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_346 : BitVec 32 := 10#32
  let v521 : BitVec 32 := Scalar.muli arg19 c10_i32_346
  let c7_i32 : BitVec 32 := 7#32
  let v522 : BitVec 32 := Scalar.addi v521 c7_i32
  let v549 : Index := Scalar.indexCast v522
  let c96_353 : Index := 96#32
  ![v549.toNat, 96]
def k0_off751 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_346 : BitVec 32 := 10#32
  let v521 : BitVec 32 := Scalar.muli arg19 c10_i32_346
  let c7_i32 : BitVec 32 := 7#32
  let v522 : BitVec 32 := Scalar.addi v521 c7_i32
  let v553 : Index := Scalar.indexCast v522
  let c112_354 : Index := 112#32
  ![v553.toNat, 112]

def k0_chk89 (v122 : IVec S16 32) (v559 : IVec S16 32) : Prop :=
  (∀ a x, ((![v122, v559] : Fin 2 → IVec S16 32) a x).toNat < S128x64.size a)
instance k0_chk89.dec : ∀ (v122 : IVec S16 32) (v559 : IVec S16 32), Decidable (k0_chk89 v122 v559) := fun v122 v559 => decidable_of_iff' _ (Iff.of_eq (k0_chk89.eq_1 v122 v559))
theorem k0_idx89_inb : ∀ (v122 : IVec S16 32) (v559 : IVec S16 32) (k0_hw89 : k0_chk89 v122 v559), ∀ a x, ((![v122, v559] : Fin 2 → IVec S16 32) a x).toNat < S128x64.size a := fun v122 v559 k0_hw89 => k0_hw89
def k0_off752 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_355 : BitVec 32 := 10#32
  let v557 : BitVec 32 := Scalar.muli arg19 c10_i32_355
  let c8_i32 : BitVec 32 := 8#32
  let v558 : BitVec 32 := Scalar.addi v557 c8_i32
  let v561 : Index := Scalar.indexCast v558
  let c0_356 : Index := 0#32
  ![v561.toNat, 0]
def k0_off753 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_355 : BitVec 32 := 10#32
  let v557 : BitVec 32 := Scalar.muli arg19 c10_i32_355
  let c8_i32 : BitVec 32 := 8#32
  let v558 : BitVec 32 := Scalar.addi v557 c8_i32
  let v565 : Index := Scalar.indexCast v558
  let c16_357 : Index := 16#32
  ![v565.toNat, 16]
def k0_off754 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_355 : BitVec 32 := 10#32
  let v557 : BitVec 32 := Scalar.muli arg19 c10_i32_355
  let c8_i32 : BitVec 32 := 8#32
  let v558 : BitVec 32 := Scalar.addi v557 c8_i32
  let v569 : Index := Scalar.indexCast v558
  let c32_358 : Index := 32#32
  ![v569.toNat, 32]
def k0_off755 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_355 : BitVec 32 := 10#32
  let v557 : BitVec 32 := Scalar.muli arg19 c10_i32_355
  let c8_i32 : BitVec 32 := 8#32
  let v558 : BitVec 32 := Scalar.addi v557 c8_i32
  let v573 : Index := Scalar.indexCast v558
  let c48_359 : Index := 48#32
  ![v573.toNat, 48]
def k0_off756 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_355 : BitVec 32 := 10#32
  let v557 : BitVec 32 := Scalar.muli arg19 c10_i32_355
  let c8_i32 : BitVec 32 := 8#32
  let v558 : BitVec 32 := Scalar.addi v557 c8_i32
  let v577 : Index := Scalar.indexCast v558
  let c64_360 : Index := 64#32
  ![v577.toNat, 64]
def k0_off757 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_355 : BitVec 32 := 10#32
  let v557 : BitVec 32 := Scalar.muli arg19 c10_i32_355
  let c8_i32 : BitVec 32 := 8#32
  let v558 : BitVec 32 := Scalar.addi v557 c8_i32
  let v581 : Index := Scalar.indexCast v558
  let c80_361 : Index := 80#32
  ![v581.toNat, 80]
def k0_off758 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_355 : BitVec 32 := 10#32
  let v557 : BitVec 32 := Scalar.muli arg19 c10_i32_355
  let c8_i32 : BitVec 32 := 8#32
  let v558 : BitVec 32 := Scalar.addi v557 c8_i32
  let v585 : Index := Scalar.indexCast v558
  let c96_362 : Index := 96#32
  ![v585.toNat, 96]
def k0_off759 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_355 : BitVec 32 := 10#32
  let v557 : BitVec 32 := Scalar.muli arg19 c10_i32_355
  let c8_i32 : BitVec 32 := 8#32
  let v558 : BitVec 32 := Scalar.addi v557 c8_i32
  let v589 : Index := Scalar.indexCast v558
  let c112_363 : Index := 112#32
  ![v589.toNat, 112]

def k0_chk90 (v122 : IVec S16 32) (v595 : IVec S16 32) : Prop :=
  (∀ a x, ((![v122, v595] : Fin 2 → IVec S16 32) a x).toNat < S128x64.size a)
instance k0_chk90.dec : ∀ (v122 : IVec S16 32) (v595 : IVec S16 32), Decidable (k0_chk90 v122 v595) := fun v122 v595 => decidable_of_iff' _ (Iff.of_eq (k0_chk90.eq_1 v122 v595))
theorem k0_idx90_inb : ∀ (v122 : IVec S16 32) (v595 : IVec S16 32) (k0_hw90 : k0_chk90 v122 v595), ∀ a x, ((![v122, v595] : Fin 2 → IVec S16 32) a x).toNat < S128x64.size a := fun v122 v595 k0_hw90 => k0_hw90
def k0_off760 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_364 : BitVec 32 := 10#32
  let v593 : BitVec 32 := Scalar.muli arg19 c10_i32_364
  let c9_i32 : BitVec 32 := 9#32
  let v594 : BitVec 32 := Scalar.addi v593 c9_i32
  let v597 : Index := Scalar.indexCast v594
  let c0_365 : Index := 0#32
  ![v597.toNat, 0]
def k0_off761 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_364 : BitVec 32 := 10#32
  let v593 : BitVec 32 := Scalar.muli arg19 c10_i32_364
  let c9_i32 : BitVec 32 := 9#32
  let v594 : BitVec 32 := Scalar.addi v593 c9_i32
  let v601 : Index := Scalar.indexCast v594
  let c16_366 : Index := 16#32
  ![v601.toNat, 16]
def k0_off762 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_364 : BitVec 32 := 10#32
  let v593 : BitVec 32 := Scalar.muli arg19 c10_i32_364
  let c9_i32 : BitVec 32 := 9#32
  let v594 : BitVec 32 := Scalar.addi v593 c9_i32
  let v605 : Index := Scalar.indexCast v594
  let c32_367 : Index := 32#32
  ![v605.toNat, 32]
def k0_off763 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_364 : BitVec 32 := 10#32
  let v593 : BitVec 32 := Scalar.muli arg19 c10_i32_364
  let c9_i32 : BitVec 32 := 9#32
  let v594 : BitVec 32 := Scalar.addi v593 c9_i32
  let v609 : Index := Scalar.indexCast v594
  let c48_368 : Index := 48#32
  ![v609.toNat, 48]
def k0_off764 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_364 : BitVec 32 := 10#32
  let v593 : BitVec 32 := Scalar.muli arg19 c10_i32_364
  let c9_i32 : BitVec 32 := 9#32
  let v594 : BitVec 32 := Scalar.addi v593 c9_i32
  let v613 : Index := Scalar.indexCast v594
  let c64_369 : Index := 64#32
  ![v613.toNat, 64]
def k0_off765 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_364 : BitVec 32 := 10#32
  let v593 : BitVec 32 := Scalar.muli arg19 c10_i32_364
  let c9_i32 : BitVec 32 := 9#32
  let v594 : BitVec 32 := Scalar.addi v593 c9_i32
  let v617 : Index := Scalar.indexCast v594
  let c80_370 : Index := 80#32
  ![v617.toNat, 80]
def k0_off766 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_364 : BitVec 32 := 10#32
  let v593 : BitVec 32 := Scalar.muli arg19 c10_i32_364
  let c9_i32 : BitVec 32 := 9#32
  let v594 : BitVec 32 := Scalar.addi v593 c9_i32
  let v621 : Index := Scalar.indexCast v594
  let c96_371 : Index := 96#32
  ![v621.toNat, 96]
def k0_off767 (k0_t10 : Fin k0_t10_loop.trips) : Fin 2 → Nat :=
  let c0_i32_127 : BitVec 32 := 0#32
  let c1_i32_129 : BitVec 32 := 1#32
  let arg19 : BitVec 32 := Scf.iv c0_i32_127 c1_i32_129 k0_t10
  let c10_i32_364 : BitVec 32 := 10#32
  let v593 : BitVec 32 := Scalar.muli arg19 c10_i32_364
  let c9_i32 : BitVec 32 := 9#32
  let v594 : BitVec 32 := Scalar.addi v593 c9_i32
  let v625 : Index := Scalar.indexCast v594
  let c112_372 : Index := 112#32
  ![v625.toNat, 112]
@[reducible] def k0_t11_loop : Scf.Loop 32 :=
  let c0_i32_160 : BitVec 32 := 0#32
  let c5_i32_161 : BitVec 32 := 5#32
  let v161 : BitVec 32 := Scalar.addi c0_i32_160 c5_i32_161
  let c1_i32_162 : BitVec 32 := 1#32
  ⟨c0_i32_160, v161, c1_i32_162⟩

def k0_chk91 (v152 : IVec S16 32) (v271 : IVec S16 32) : Prop :=
  (∀ a x, ((![v152, v271] : Fin 2 → IVec S16 32) a x).toNat < S128x64.size a)
instance k0_chk91.dec : ∀ (v152 : IVec S16 32) (v271 : IVec S16 32), Decidable (k0_chk91 v152 v271) := fun v152 v271 => decidable_of_iff' _ (Iff.of_eq (k0_chk91.eq_1 v152 v271))
theorem k0_idx91_inb : ∀ (v152 : IVec S16 32) (v271 : IVec S16 32) (k0_hw91 : k0_chk91 v152 v271), ∀ a x, ((![v152, v271] : Fin 2 → IVec S16 32) a x).toNat < S128x64.size a := fun v152 v271 k0_hw91 => k0_hw91
def k0_off768 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32 : BitVec 32 := 10#32
  let v269 : BitVec 32 := Scalar.muli arg19 c10_i32
  let c0_i32_279 : BitVec 32 := 0#32
  let v270 : BitVec 32 := Scalar.addi v269 c0_i32_279
  let v273 : Index := Scalar.indexCast v270
  let c0_280 : Index := 0#32
  ![v273.toNat, 0]
def k0_off769 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32 : BitVec 32 := 10#32
  let v269 : BitVec 32 := Scalar.muli arg19 c10_i32
  let c0_i32_279 : BitVec 32 := 0#32
  let v270 : BitVec 32 := Scalar.addi v269 c0_i32_279
  let v277 : Index := Scalar.indexCast v270
  let c16_281 : Index := 16#32
  ![v277.toNat, 16]
def k0_off770 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32 : BitVec 32 := 10#32
  let v269 : BitVec 32 := Scalar.muli arg19 c10_i32
  let c0_i32_279 : BitVec 32 := 0#32
  let v270 : BitVec 32 := Scalar.addi v269 c0_i32_279
  let v281 : Index := Scalar.indexCast v270
  let c32_282 : Index := 32#32
  ![v281.toNat, 32]
def k0_off771 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32 : BitVec 32 := 10#32
  let v269 : BitVec 32 := Scalar.muli arg19 c10_i32
  let c0_i32_279 : BitVec 32 := 0#32
  let v270 : BitVec 32 := Scalar.addi v269 c0_i32_279
  let v285 : Index := Scalar.indexCast v270
  let c48_283 : Index := 48#32
  ![v285.toNat, 48]
def k0_off772 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32 : BitVec 32 := 10#32
  let v269 : BitVec 32 := Scalar.muli arg19 c10_i32
  let c0_i32_279 : BitVec 32 := 0#32
  let v270 : BitVec 32 := Scalar.addi v269 c0_i32_279
  let v289 : Index := Scalar.indexCast v270
  let c64_284 : Index := 64#32
  ![v289.toNat, 64]
def k0_off773 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32 : BitVec 32 := 10#32
  let v269 : BitVec 32 := Scalar.muli arg19 c10_i32
  let c0_i32_279 : BitVec 32 := 0#32
  let v270 : BitVec 32 := Scalar.addi v269 c0_i32_279
  let v293 : Index := Scalar.indexCast v270
  let c80_285 : Index := 80#32
  ![v293.toNat, 80]
def k0_off774 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32 : BitVec 32 := 10#32
  let v269 : BitVec 32 := Scalar.muli arg19 c10_i32
  let c0_i32_279 : BitVec 32 := 0#32
  let v270 : BitVec 32 := Scalar.addi v269 c0_i32_279
  let v297 : Index := Scalar.indexCast v270
  let c96_286 : Index := 96#32
  ![v297.toNat, 96]
def k0_off775 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32 : BitVec 32 := 10#32
  let v269 : BitVec 32 := Scalar.muli arg19 c10_i32
  let c0_i32_279 : BitVec 32 := 0#32
  let v270 : BitVec 32 := Scalar.addi v269 c0_i32_279
  let v301 : Index := Scalar.indexCast v270
  let c112_287 : Index := 112#32
  ![v301.toNat, 112]

def k0_chk92 (v152 : IVec S16 32) (v307 : IVec S16 32) : Prop :=
  (∀ a x, ((![v152, v307] : Fin 2 → IVec S16 32) a x).toNat < S128x64.size a)
instance k0_chk92.dec : ∀ (v152 : IVec S16 32) (v307 : IVec S16 32), Decidable (k0_chk92 v152 v307) := fun v152 v307 => decidable_of_iff' _ (Iff.of_eq (k0_chk92.eq_1 v152 v307))
theorem k0_idx92_inb : ∀ (v152 : IVec S16 32) (v307 : IVec S16 32) (k0_hw92 : k0_chk92 v152 v307), ∀ a x, ((![v152, v307] : Fin 2 → IVec S16 32) a x).toNat < S128x64.size a := fun v152 v307 k0_hw92 => k0_hw92
def k0_off776 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_288 : BitVec 32 := 10#32
  let v305 : BitVec 32 := Scalar.muli arg19 c10_i32_288
  let c1_i32_289 : BitVec 32 := 1#32
  let v306 : BitVec 32 := Scalar.addi v305 c1_i32_289
  let v309 : Index := Scalar.indexCast v306
  let c0_290 : Index := 0#32
  ![v309.toNat, 0]
def k0_off777 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_288 : BitVec 32 := 10#32
  let v305 : BitVec 32 := Scalar.muli arg19 c10_i32_288
  let c1_i32_289 : BitVec 32 := 1#32
  let v306 : BitVec 32 := Scalar.addi v305 c1_i32_289
  let v313 : Index := Scalar.indexCast v306
  let c16_291 : Index := 16#32
  ![v313.toNat, 16]
def k0_off778 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_288 : BitVec 32 := 10#32
  let v305 : BitVec 32 := Scalar.muli arg19 c10_i32_288
  let c1_i32_289 : BitVec 32 := 1#32
  let v306 : BitVec 32 := Scalar.addi v305 c1_i32_289
  let v317 : Index := Scalar.indexCast v306
  let c32_292 : Index := 32#32
  ![v317.toNat, 32]
def k0_off779 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_288 : BitVec 32 := 10#32
  let v305 : BitVec 32 := Scalar.muli arg19 c10_i32_288
  let c1_i32_289 : BitVec 32 := 1#32
  let v306 : BitVec 32 := Scalar.addi v305 c1_i32_289
  let v321 : Index := Scalar.indexCast v306
  let c48_293 : Index := 48#32
  ![v321.toNat, 48]
def k0_off780 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_288 : BitVec 32 := 10#32
  let v305 : BitVec 32 := Scalar.muli arg19 c10_i32_288
  let c1_i32_289 : BitVec 32 := 1#32
  let v306 : BitVec 32 := Scalar.addi v305 c1_i32_289
  let v325 : Index := Scalar.indexCast v306
  let c64_294 : Index := 64#32
  ![v325.toNat, 64]
def k0_off781 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_288 : BitVec 32 := 10#32
  let v305 : BitVec 32 := Scalar.muli arg19 c10_i32_288
  let c1_i32_289 : BitVec 32 := 1#32
  let v306 : BitVec 32 := Scalar.addi v305 c1_i32_289
  let v329 : Index := Scalar.indexCast v306
  let c80_295 : Index := 80#32
  ![v329.toNat, 80]
def k0_off782 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_288 : BitVec 32 := 10#32
  let v305 : BitVec 32 := Scalar.muli arg19 c10_i32_288
  let c1_i32_289 : BitVec 32 := 1#32
  let v306 : BitVec 32 := Scalar.addi v305 c1_i32_289
  let v333 : Index := Scalar.indexCast v306
  let c96_296 : Index := 96#32
  ![v333.toNat, 96]
def k0_off783 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_288 : BitVec 32 := 10#32
  let v305 : BitVec 32 := Scalar.muli arg19 c10_i32_288
  let c1_i32_289 : BitVec 32 := 1#32
  let v306 : BitVec 32 := Scalar.addi v305 c1_i32_289
  let v337 : Index := Scalar.indexCast v306
  let c112_297 : Index := 112#32
  ![v337.toNat, 112]

def k0_chk93 (v152 : IVec S16 32) (v343 : IVec S16 32) : Prop :=
  (∀ a x, ((![v152, v343] : Fin 2 → IVec S16 32) a x).toNat < S128x64.size a)
instance k0_chk93.dec : ∀ (v152 : IVec S16 32) (v343 : IVec S16 32), Decidable (k0_chk93 v152 v343) := fun v152 v343 => decidable_of_iff' _ (Iff.of_eq (k0_chk93.eq_1 v152 v343))
theorem k0_idx93_inb : ∀ (v152 : IVec S16 32) (v343 : IVec S16 32) (k0_hw93 : k0_chk93 v152 v343), ∀ a x, ((![v152, v343] : Fin 2 → IVec S16 32) a x).toNat < S128x64.size a := fun v152 v343 k0_hw93 => k0_hw93
def k0_off784 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_298 : BitVec 32 := 10#32
  let v341 : BitVec 32 := Scalar.muli arg19 c10_i32_298
  let c2_i32_299 : BitVec 32 := 2#32
  let v342 : BitVec 32 := Scalar.addi v341 c2_i32_299
  let v345 : Index := Scalar.indexCast v342
  let c0_300 : Index := 0#32
  ![v345.toNat, 0]
def k0_off785 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_298 : BitVec 32 := 10#32
  let v341 : BitVec 32 := Scalar.muli arg19 c10_i32_298
  let c2_i32_299 : BitVec 32 := 2#32
  let v342 : BitVec 32 := Scalar.addi v341 c2_i32_299
  let v349 : Index := Scalar.indexCast v342
  let c16_301 : Index := 16#32
  ![v349.toNat, 16]
def k0_off786 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_298 : BitVec 32 := 10#32
  let v341 : BitVec 32 := Scalar.muli arg19 c10_i32_298
  let c2_i32_299 : BitVec 32 := 2#32
  let v342 : BitVec 32 := Scalar.addi v341 c2_i32_299
  let v353 : Index := Scalar.indexCast v342
  let c32_302 : Index := 32#32
  ![v353.toNat, 32]
def k0_off787 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_298 : BitVec 32 := 10#32
  let v341 : BitVec 32 := Scalar.muli arg19 c10_i32_298
  let c2_i32_299 : BitVec 32 := 2#32
  let v342 : BitVec 32 := Scalar.addi v341 c2_i32_299
  let v357 : Index := Scalar.indexCast v342
  let c48_303 : Index := 48#32
  ![v357.toNat, 48]
def k0_off788 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_298 : BitVec 32 := 10#32
  let v341 : BitVec 32 := Scalar.muli arg19 c10_i32_298
  let c2_i32_299 : BitVec 32 := 2#32
  let v342 : BitVec 32 := Scalar.addi v341 c2_i32_299
  let v361 : Index := Scalar.indexCast v342
  let c64_304 : Index := 64#32
  ![v361.toNat, 64]
def k0_off789 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_298 : BitVec 32 := 10#32
  let v341 : BitVec 32 := Scalar.muli arg19 c10_i32_298
  let c2_i32_299 : BitVec 32 := 2#32
  let v342 : BitVec 32 := Scalar.addi v341 c2_i32_299
  let v365 : Index := Scalar.indexCast v342
  let c80_305 : Index := 80#32
  ![v365.toNat, 80]
def k0_off790 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_298 : BitVec 32 := 10#32
  let v341 : BitVec 32 := Scalar.muli arg19 c10_i32_298
  let c2_i32_299 : BitVec 32 := 2#32
  let v342 : BitVec 32 := Scalar.addi v341 c2_i32_299
  let v369 : Index := Scalar.indexCast v342
  let c96_306 : Index := 96#32
  ![v369.toNat, 96]
def k0_off791 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_298 : BitVec 32 := 10#32
  let v341 : BitVec 32 := Scalar.muli arg19 c10_i32_298
  let c2_i32_299 : BitVec 32 := 2#32
  let v342 : BitVec 32 := Scalar.addi v341 c2_i32_299
  let v373 : Index := Scalar.indexCast v342
  let c112_307 : Index := 112#32
  ![v373.toNat, 112]

def k0_chk94 (v152 : IVec S16 32) (v379 : IVec S16 32) : Prop :=
  (∀ a x, ((![v152, v379] : Fin 2 → IVec S16 32) a x).toNat < S128x64.size a)
instance k0_chk94.dec : ∀ (v152 : IVec S16 32) (v379 : IVec S16 32), Decidable (k0_chk94 v152 v379) := fun v152 v379 => decidable_of_iff' _ (Iff.of_eq (k0_chk94.eq_1 v152 v379))
theorem k0_idx94_inb : ∀ (v152 : IVec S16 32) (v379 : IVec S16 32) (k0_hw94 : k0_chk94 v152 v379), ∀ a x, ((![v152, v379] : Fin 2 → IVec S16 32) a x).toNat < S128x64.size a := fun v152 v379 k0_hw94 => k0_hw94
def k0_off792 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_308 : BitVec 32 := 10#32
  let v377 : BitVec 32 := Scalar.muli arg19 c10_i32_308
  let c3_i32_309 : BitVec 32 := 3#32
  let v378 : BitVec 32 := Scalar.addi v377 c3_i32_309
  let v381 : Index := Scalar.indexCast v378
  let c0_310 : Index := 0#32
  ![v381.toNat, 0]
def k0_off793 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_308 : BitVec 32 := 10#32
  let v377 : BitVec 32 := Scalar.muli arg19 c10_i32_308
  let c3_i32_309 : BitVec 32 := 3#32
  let v378 : BitVec 32 := Scalar.addi v377 c3_i32_309
  let v385 : Index := Scalar.indexCast v378
  let c16_311 : Index := 16#32
  ![v385.toNat, 16]
def k0_off794 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_308 : BitVec 32 := 10#32
  let v377 : BitVec 32 := Scalar.muli arg19 c10_i32_308
  let c3_i32_309 : BitVec 32 := 3#32
  let v378 : BitVec 32 := Scalar.addi v377 c3_i32_309
  let v389 : Index := Scalar.indexCast v378
  let c32_312 : Index := 32#32
  ![v389.toNat, 32]
def k0_off795 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_308 : BitVec 32 := 10#32
  let v377 : BitVec 32 := Scalar.muli arg19 c10_i32_308
  let c3_i32_309 : BitVec 32 := 3#32
  let v378 : BitVec 32 := Scalar.addi v377 c3_i32_309
  let v393 : Index := Scalar.indexCast v378
  let c48_313 : Index := 48#32
  ![v393.toNat, 48]
def k0_off796 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_308 : BitVec 32 := 10#32
  let v377 : BitVec 32 := Scalar.muli arg19 c10_i32_308
  let c3_i32_309 : BitVec 32 := 3#32
  let v378 : BitVec 32 := Scalar.addi v377 c3_i32_309
  let v397 : Index := Scalar.indexCast v378
  let c64_314 : Index := 64#32
  ![v397.toNat, 64]
def k0_off797 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_308 : BitVec 32 := 10#32
  let v377 : BitVec 32 := Scalar.muli arg19 c10_i32_308
  let c3_i32_309 : BitVec 32 := 3#32
  let v378 : BitVec 32 := Scalar.addi v377 c3_i32_309
  let v401 : Index := Scalar.indexCast v378
  let c80_315 : Index := 80#32
  ![v401.toNat, 80]
def k0_off798 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_308 : BitVec 32 := 10#32
  let v377 : BitVec 32 := Scalar.muli arg19 c10_i32_308
  let c3_i32_309 : BitVec 32 := 3#32
  let v378 : BitVec 32 := Scalar.addi v377 c3_i32_309
  let v405 : Index := Scalar.indexCast v378
  let c96_316 : Index := 96#32
  ![v405.toNat, 96]
def k0_off799 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_308 : BitVec 32 := 10#32
  let v377 : BitVec 32 := Scalar.muli arg19 c10_i32_308
  let c3_i32_309 : BitVec 32 := 3#32
  let v378 : BitVec 32 := Scalar.addi v377 c3_i32_309
  let v409 : Index := Scalar.indexCast v378
  let c112_317 : Index := 112#32
  ![v409.toNat, 112]

def k0_chk95 (v152 : IVec S16 32) (v415 : IVec S16 32) : Prop :=
  (∀ a x, ((![v152, v415] : Fin 2 → IVec S16 32) a x).toNat < S128x64.size a)
instance k0_chk95.dec : ∀ (v152 : IVec S16 32) (v415 : IVec S16 32), Decidable (k0_chk95 v152 v415) := fun v152 v415 => decidable_of_iff' _ (Iff.of_eq (k0_chk95.eq_1 v152 v415))
theorem k0_idx95_inb : ∀ (v152 : IVec S16 32) (v415 : IVec S16 32) (k0_hw95 : k0_chk95 v152 v415), ∀ a x, ((![v152, v415] : Fin 2 → IVec S16 32) a x).toNat < S128x64.size a := fun v152 v415 k0_hw95 => k0_hw95
def k0_off800 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_318 : BitVec 32 := 10#32
  let v413 : BitVec 32 := Scalar.muli arg19 c10_i32_318
  let c4_i32 : BitVec 32 := 4#32
  let v414 : BitVec 32 := Scalar.addi v413 c4_i32
  let v417 : Index := Scalar.indexCast v414
  let c0_319 : Index := 0#32
  ![v417.toNat, 0]
def k0_off801 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_318 : BitVec 32 := 10#32
  let v413 : BitVec 32 := Scalar.muli arg19 c10_i32_318
  let c4_i32 : BitVec 32 := 4#32
  let v414 : BitVec 32 := Scalar.addi v413 c4_i32
  let v421 : Index := Scalar.indexCast v414
  let c16_320 : Index := 16#32
  ![v421.toNat, 16]
def k0_off802 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_318 : BitVec 32 := 10#32
  let v413 : BitVec 32 := Scalar.muli arg19 c10_i32_318
  let c4_i32 : BitVec 32 := 4#32
  let v414 : BitVec 32 := Scalar.addi v413 c4_i32
  let v425 : Index := Scalar.indexCast v414
  let c32_321 : Index := 32#32
  ![v425.toNat, 32]
def k0_off803 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_318 : BitVec 32 := 10#32
  let v413 : BitVec 32 := Scalar.muli arg19 c10_i32_318
  let c4_i32 : BitVec 32 := 4#32
  let v414 : BitVec 32 := Scalar.addi v413 c4_i32
  let v429 : Index := Scalar.indexCast v414
  let c48_322 : Index := 48#32
  ![v429.toNat, 48]
def k0_off804 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_318 : BitVec 32 := 10#32
  let v413 : BitVec 32 := Scalar.muli arg19 c10_i32_318
  let c4_i32 : BitVec 32 := 4#32
  let v414 : BitVec 32 := Scalar.addi v413 c4_i32
  let v433 : Index := Scalar.indexCast v414
  let c64_323 : Index := 64#32
  ![v433.toNat, 64]
def k0_off805 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_318 : BitVec 32 := 10#32
  let v413 : BitVec 32 := Scalar.muli arg19 c10_i32_318
  let c4_i32 : BitVec 32 := 4#32
  let v414 : BitVec 32 := Scalar.addi v413 c4_i32
  let v437 : Index := Scalar.indexCast v414
  let c80_324 : Index := 80#32
  ![v437.toNat, 80]
def k0_off806 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_318 : BitVec 32 := 10#32
  let v413 : BitVec 32 := Scalar.muli arg19 c10_i32_318
  let c4_i32 : BitVec 32 := 4#32
  let v414 : BitVec 32 := Scalar.addi v413 c4_i32
  let v441 : Index := Scalar.indexCast v414
  let c96_325 : Index := 96#32
  ![v441.toNat, 96]
def k0_off807 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_318 : BitVec 32 := 10#32
  let v413 : BitVec 32 := Scalar.muli arg19 c10_i32_318
  let c4_i32 : BitVec 32 := 4#32
  let v414 : BitVec 32 := Scalar.addi v413 c4_i32
  let v445 : Index := Scalar.indexCast v414
  let c112_326 : Index := 112#32
  ![v445.toNat, 112]

def k0_chk96 (v152 : IVec S16 32) (v451 : IVec S16 32) : Prop :=
  (∀ a x, ((![v152, v451] : Fin 2 → IVec S16 32) a x).toNat < S128x64.size a)
instance k0_chk96.dec : ∀ (v152 : IVec S16 32) (v451 : IVec S16 32), Decidable (k0_chk96 v152 v451) := fun v152 v451 => decidable_of_iff' _ (Iff.of_eq (k0_chk96.eq_1 v152 v451))
theorem k0_idx96_inb : ∀ (v152 : IVec S16 32) (v451 : IVec S16 32) (k0_hw96 : k0_chk96 v152 v451), ∀ a x, ((![v152, v451] : Fin 2 → IVec S16 32) a x).toNat < S128x64.size a := fun v152 v451 k0_hw96 => k0_hw96
def k0_off808 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_327 : BitVec 32 := 10#32
  let v449 : BitVec 32 := Scalar.muli arg19 c10_i32_327
  let c5_i32_328 : BitVec 32 := 5#32
  let v450 : BitVec 32 := Scalar.addi v449 c5_i32_328
  let v453 : Index := Scalar.indexCast v450
  let c0_329 : Index := 0#32
  ![v453.toNat, 0]
def k0_off809 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_327 : BitVec 32 := 10#32
  let v449 : BitVec 32 := Scalar.muli arg19 c10_i32_327
  let c5_i32_328 : BitVec 32 := 5#32
  let v450 : BitVec 32 := Scalar.addi v449 c5_i32_328
  let v457 : Index := Scalar.indexCast v450
  let c16_330 : Index := 16#32
  ![v457.toNat, 16]
def k0_off810 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_327 : BitVec 32 := 10#32
  let v449 : BitVec 32 := Scalar.muli arg19 c10_i32_327
  let c5_i32_328 : BitVec 32 := 5#32
  let v450 : BitVec 32 := Scalar.addi v449 c5_i32_328
  let v461 : Index := Scalar.indexCast v450
  let c32_331 : Index := 32#32
  ![v461.toNat, 32]
def k0_off811 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_327 : BitVec 32 := 10#32
  let v449 : BitVec 32 := Scalar.muli arg19 c10_i32_327
  let c5_i32_328 : BitVec 32 := 5#32
  let v450 : BitVec 32 := Scalar.addi v449 c5_i32_328
  let v465 : Index := Scalar.indexCast v450
  let c48_332 : Index := 48#32
  ![v465.toNat, 48]
def k0_off812 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_327 : BitVec 32 := 10#32
  let v449 : BitVec 32 := Scalar.muli arg19 c10_i32_327
  let c5_i32_328 : BitVec 32 := 5#32
  let v450 : BitVec 32 := Scalar.addi v449 c5_i32_328
  let v469 : Index := Scalar.indexCast v450
  let c64_333 : Index := 64#32
  ![v469.toNat, 64]
def k0_off813 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_327 : BitVec 32 := 10#32
  let v449 : BitVec 32 := Scalar.muli arg19 c10_i32_327
  let c5_i32_328 : BitVec 32 := 5#32
  let v450 : BitVec 32 := Scalar.addi v449 c5_i32_328
  let v473 : Index := Scalar.indexCast v450
  let c80_334 : Index := 80#32
  ![v473.toNat, 80]
def k0_off814 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_327 : BitVec 32 := 10#32
  let v449 : BitVec 32 := Scalar.muli arg19 c10_i32_327
  let c5_i32_328 : BitVec 32 := 5#32
  let v450 : BitVec 32 := Scalar.addi v449 c5_i32_328
  let v477 : Index := Scalar.indexCast v450
  let c96_335 : Index := 96#32
  ![v477.toNat, 96]
def k0_off815 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_327 : BitVec 32 := 10#32
  let v449 : BitVec 32 := Scalar.muli arg19 c10_i32_327
  let c5_i32_328 : BitVec 32 := 5#32
  let v450 : BitVec 32 := Scalar.addi v449 c5_i32_328
  let v481 : Index := Scalar.indexCast v450
  let c112_336 : Index := 112#32
  ![v481.toNat, 112]

def k0_chk97 (v152 : IVec S16 32) (v487 : IVec S16 32) : Prop :=
  (∀ a x, ((![v152, v487] : Fin 2 → IVec S16 32) a x).toNat < S128x64.size a)
instance k0_chk97.dec : ∀ (v152 : IVec S16 32) (v487 : IVec S16 32), Decidable (k0_chk97 v152 v487) := fun v152 v487 => decidable_of_iff' _ (Iff.of_eq (k0_chk97.eq_1 v152 v487))
theorem k0_idx97_inb : ∀ (v152 : IVec S16 32) (v487 : IVec S16 32) (k0_hw97 : k0_chk97 v152 v487), ∀ a x, ((![v152, v487] : Fin 2 → IVec S16 32) a x).toNat < S128x64.size a := fun v152 v487 k0_hw97 => k0_hw97
def k0_off816 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_337 : BitVec 32 := 10#32
  let v485 : BitVec 32 := Scalar.muli arg19 c10_i32_337
  let c6_i32 : BitVec 32 := 6#32
  let v486 : BitVec 32 := Scalar.addi v485 c6_i32
  let v489 : Index := Scalar.indexCast v486
  let c0_338 : Index := 0#32
  ![v489.toNat, 0]
def k0_off817 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_337 : BitVec 32 := 10#32
  let v485 : BitVec 32 := Scalar.muli arg19 c10_i32_337
  let c6_i32 : BitVec 32 := 6#32
  let v486 : BitVec 32 := Scalar.addi v485 c6_i32
  let v493 : Index := Scalar.indexCast v486
  let c16_339 : Index := 16#32
  ![v493.toNat, 16]
def k0_off818 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_337 : BitVec 32 := 10#32
  let v485 : BitVec 32 := Scalar.muli arg19 c10_i32_337
  let c6_i32 : BitVec 32 := 6#32
  let v486 : BitVec 32 := Scalar.addi v485 c6_i32
  let v497 : Index := Scalar.indexCast v486
  let c32_340 : Index := 32#32
  ![v497.toNat, 32]
def k0_off819 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_337 : BitVec 32 := 10#32
  let v485 : BitVec 32 := Scalar.muli arg19 c10_i32_337
  let c6_i32 : BitVec 32 := 6#32
  let v486 : BitVec 32 := Scalar.addi v485 c6_i32
  let v501 : Index := Scalar.indexCast v486
  let c48_341 : Index := 48#32
  ![v501.toNat, 48]
def k0_off820 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_337 : BitVec 32 := 10#32
  let v485 : BitVec 32 := Scalar.muli arg19 c10_i32_337
  let c6_i32 : BitVec 32 := 6#32
  let v486 : BitVec 32 := Scalar.addi v485 c6_i32
  let v505 : Index := Scalar.indexCast v486
  let c64_342 : Index := 64#32
  ![v505.toNat, 64]
def k0_off821 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_337 : BitVec 32 := 10#32
  let v485 : BitVec 32 := Scalar.muli arg19 c10_i32_337
  let c6_i32 : BitVec 32 := 6#32
  let v486 : BitVec 32 := Scalar.addi v485 c6_i32
  let v509 : Index := Scalar.indexCast v486
  let c80_343 : Index := 80#32
  ![v509.toNat, 80]
def k0_off822 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_337 : BitVec 32 := 10#32
  let v485 : BitVec 32 := Scalar.muli arg19 c10_i32_337
  let c6_i32 : BitVec 32 := 6#32
  let v486 : BitVec 32 := Scalar.addi v485 c6_i32
  let v513 : Index := Scalar.indexCast v486
  let c96_344 : Index := 96#32
  ![v513.toNat, 96]
def k0_off823 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_337 : BitVec 32 := 10#32
  let v485 : BitVec 32 := Scalar.muli arg19 c10_i32_337
  let c6_i32 : BitVec 32 := 6#32
  let v486 : BitVec 32 := Scalar.addi v485 c6_i32
  let v517 : Index := Scalar.indexCast v486
  let c112_345 : Index := 112#32
  ![v517.toNat, 112]

def k0_chk98 (v152 : IVec S16 32) (v523 : IVec S16 32) : Prop :=
  (∀ a x, ((![v152, v523] : Fin 2 → IVec S16 32) a x).toNat < S128x64.size a)
instance k0_chk98.dec : ∀ (v152 : IVec S16 32) (v523 : IVec S16 32), Decidable (k0_chk98 v152 v523) := fun v152 v523 => decidable_of_iff' _ (Iff.of_eq (k0_chk98.eq_1 v152 v523))
theorem k0_idx98_inb : ∀ (v152 : IVec S16 32) (v523 : IVec S16 32) (k0_hw98 : k0_chk98 v152 v523), ∀ a x, ((![v152, v523] : Fin 2 → IVec S16 32) a x).toNat < S128x64.size a := fun v152 v523 k0_hw98 => k0_hw98
def k0_off824 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_346 : BitVec 32 := 10#32
  let v521 : BitVec 32 := Scalar.muli arg19 c10_i32_346
  let c7_i32 : BitVec 32 := 7#32
  let v522 : BitVec 32 := Scalar.addi v521 c7_i32
  let v525 : Index := Scalar.indexCast v522
  let c0_347 : Index := 0#32
  ![v525.toNat, 0]
def k0_off825 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_346 : BitVec 32 := 10#32
  let v521 : BitVec 32 := Scalar.muli arg19 c10_i32_346
  let c7_i32 : BitVec 32 := 7#32
  let v522 : BitVec 32 := Scalar.addi v521 c7_i32
  let v529 : Index := Scalar.indexCast v522
  let c16_348 : Index := 16#32
  ![v529.toNat, 16]
def k0_off826 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_346 : BitVec 32 := 10#32
  let v521 : BitVec 32 := Scalar.muli arg19 c10_i32_346
  let c7_i32 : BitVec 32 := 7#32
  let v522 : BitVec 32 := Scalar.addi v521 c7_i32
  let v533 : Index := Scalar.indexCast v522
  let c32_349 : Index := 32#32
  ![v533.toNat, 32]
def k0_off827 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_346 : BitVec 32 := 10#32
  let v521 : BitVec 32 := Scalar.muli arg19 c10_i32_346
  let c7_i32 : BitVec 32 := 7#32
  let v522 : BitVec 32 := Scalar.addi v521 c7_i32
  let v537 : Index := Scalar.indexCast v522
  let c48_350 : Index := 48#32
  ![v537.toNat, 48]
def k0_off828 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_346 : BitVec 32 := 10#32
  let v521 : BitVec 32 := Scalar.muli arg19 c10_i32_346
  let c7_i32 : BitVec 32 := 7#32
  let v522 : BitVec 32 := Scalar.addi v521 c7_i32
  let v541 : Index := Scalar.indexCast v522
  let c64_351 : Index := 64#32
  ![v541.toNat, 64]
def k0_off829 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_346 : BitVec 32 := 10#32
  let v521 : BitVec 32 := Scalar.muli arg19 c10_i32_346
  let c7_i32 : BitVec 32 := 7#32
  let v522 : BitVec 32 := Scalar.addi v521 c7_i32
  let v545 : Index := Scalar.indexCast v522
  let c80_352 : Index := 80#32
  ![v545.toNat, 80]
def k0_off830 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_346 : BitVec 32 := 10#32
  let v521 : BitVec 32 := Scalar.muli arg19 c10_i32_346
  let c7_i32 : BitVec 32 := 7#32
  let v522 : BitVec 32 := Scalar.addi v521 c7_i32
  let v549 : Index := Scalar.indexCast v522
  let c96_353 : Index := 96#32
  ![v549.toNat, 96]
def k0_off831 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_346 : BitVec 32 := 10#32
  let v521 : BitVec 32 := Scalar.muli arg19 c10_i32_346
  let c7_i32 : BitVec 32 := 7#32
  let v522 : BitVec 32 := Scalar.addi v521 c7_i32
  let v553 : Index := Scalar.indexCast v522
  let c112_354 : Index := 112#32
  ![v553.toNat, 112]

def k0_chk99 (v152 : IVec S16 32) (v559 : IVec S16 32) : Prop :=
  (∀ a x, ((![v152, v559] : Fin 2 → IVec S16 32) a x).toNat < S128x64.size a)
instance k0_chk99.dec : ∀ (v152 : IVec S16 32) (v559 : IVec S16 32), Decidable (k0_chk99 v152 v559) := fun v152 v559 => decidable_of_iff' _ (Iff.of_eq (k0_chk99.eq_1 v152 v559))
theorem k0_idx99_inb : ∀ (v152 : IVec S16 32) (v559 : IVec S16 32) (k0_hw99 : k0_chk99 v152 v559), ∀ a x, ((![v152, v559] : Fin 2 → IVec S16 32) a x).toNat < S128x64.size a := fun v152 v559 k0_hw99 => k0_hw99
def k0_off832 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_355 : BitVec 32 := 10#32
  let v557 : BitVec 32 := Scalar.muli arg19 c10_i32_355
  let c8_i32 : BitVec 32 := 8#32
  let v558 : BitVec 32 := Scalar.addi v557 c8_i32
  let v561 : Index := Scalar.indexCast v558
  let c0_356 : Index := 0#32
  ![v561.toNat, 0]
def k0_off833 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_355 : BitVec 32 := 10#32
  let v557 : BitVec 32 := Scalar.muli arg19 c10_i32_355
  let c8_i32 : BitVec 32 := 8#32
  let v558 : BitVec 32 := Scalar.addi v557 c8_i32
  let v565 : Index := Scalar.indexCast v558
  let c16_357 : Index := 16#32
  ![v565.toNat, 16]
def k0_off834 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_355 : BitVec 32 := 10#32
  let v557 : BitVec 32 := Scalar.muli arg19 c10_i32_355
  let c8_i32 : BitVec 32 := 8#32
  let v558 : BitVec 32 := Scalar.addi v557 c8_i32
  let v569 : Index := Scalar.indexCast v558
  let c32_358 : Index := 32#32
  ![v569.toNat, 32]
def k0_off835 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_355 : BitVec 32 := 10#32
  let v557 : BitVec 32 := Scalar.muli arg19 c10_i32_355
  let c8_i32 : BitVec 32 := 8#32
  let v558 : BitVec 32 := Scalar.addi v557 c8_i32
  let v573 : Index := Scalar.indexCast v558
  let c48_359 : Index := 48#32
  ![v573.toNat, 48]
def k0_off836 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_355 : BitVec 32 := 10#32
  let v557 : BitVec 32 := Scalar.muli arg19 c10_i32_355
  let c8_i32 : BitVec 32 := 8#32
  let v558 : BitVec 32 := Scalar.addi v557 c8_i32
  let v577 : Index := Scalar.indexCast v558
  let c64_360 : Index := 64#32
  ![v577.toNat, 64]
def k0_off837 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_355 : BitVec 32 := 10#32
  let v557 : BitVec 32 := Scalar.muli arg19 c10_i32_355
  let c8_i32 : BitVec 32 := 8#32
  let v558 : BitVec 32 := Scalar.addi v557 c8_i32
  let v581 : Index := Scalar.indexCast v558
  let c80_361 : Index := 80#32
  ![v581.toNat, 80]
def k0_off838 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_355 : BitVec 32 := 10#32
  let v557 : BitVec 32 := Scalar.muli arg19 c10_i32_355
  let c8_i32 : BitVec 32 := 8#32
  let v558 : BitVec 32 := Scalar.addi v557 c8_i32
  let v585 : Index := Scalar.indexCast v558
  let c96_362 : Index := 96#32
  ![v585.toNat, 96]
def k0_off839 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_355 : BitVec 32 := 10#32
  let v557 : BitVec 32 := Scalar.muli arg19 c10_i32_355
  let c8_i32 : BitVec 32 := 8#32
  let v558 : BitVec 32 := Scalar.addi v557 c8_i32
  let v589 : Index := Scalar.indexCast v558
  let c112_363 : Index := 112#32
  ![v589.toNat, 112]

def k0_chk100 (v152 : IVec S16 32) (v595 : IVec S16 32) : Prop :=
  (∀ a x, ((![v152, v595] : Fin 2 → IVec S16 32) a x).toNat < S128x64.size a)
instance k0_chk100.dec : ∀ (v152 : IVec S16 32) (v595 : IVec S16 32), Decidable (k0_chk100 v152 v595) := fun v152 v595 => decidable_of_iff' _ (Iff.of_eq (k0_chk100.eq_1 v152 v595))
theorem k0_idx100_inb : ∀ (v152 : IVec S16 32) (v595 : IVec S16 32) (k0_hw100 : k0_chk100 v152 v595), ∀ a x, ((![v152, v595] : Fin 2 → IVec S16 32) a x).toNat < S128x64.size a := fun v152 v595 k0_hw100 => k0_hw100
def k0_off840 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_364 : BitVec 32 := 10#32
  let v593 : BitVec 32 := Scalar.muli arg19 c10_i32_364
  let c9_i32 : BitVec 32 := 9#32
  let v594 : BitVec 32 := Scalar.addi v593 c9_i32
  let v597 : Index := Scalar.indexCast v594
  let c0_365 : Index := 0#32
  ![v597.toNat, 0]
def k0_off841 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_364 : BitVec 32 := 10#32
  let v593 : BitVec 32 := Scalar.muli arg19 c10_i32_364
  let c9_i32 : BitVec 32 := 9#32
  let v594 : BitVec 32 := Scalar.addi v593 c9_i32
  let v601 : Index := Scalar.indexCast v594
  let c16_366 : Index := 16#32
  ![v601.toNat, 16]
def k0_off842 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_364 : BitVec 32 := 10#32
  let v593 : BitVec 32 := Scalar.muli arg19 c10_i32_364
  let c9_i32 : BitVec 32 := 9#32
  let v594 : BitVec 32 := Scalar.addi v593 c9_i32
  let v605 : Index := Scalar.indexCast v594
  let c32_367 : Index := 32#32
  ![v605.toNat, 32]
def k0_off843 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_364 : BitVec 32 := 10#32
  let v593 : BitVec 32 := Scalar.muli arg19 c10_i32_364
  let c9_i32 : BitVec 32 := 9#32
  let v594 : BitVec 32 := Scalar.addi v593 c9_i32
  let v609 : Index := Scalar.indexCast v594
  let c48_368 : Index := 48#32
  ![v609.toNat, 48]
def k0_off844 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_364 : BitVec 32 := 10#32
  let v593 : BitVec 32 := Scalar.muli arg19 c10_i32_364
  let c9_i32 : BitVec 32 := 9#32
  let v594 : BitVec 32 := Scalar.addi v593 c9_i32
  let v613 : Index := Scalar.indexCast v594
  let c64_369 : Index := 64#32
  ![v613.toNat, 64]
def k0_off845 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_364 : BitVec 32 := 10#32
  let v593 : BitVec 32 := Scalar.muli arg19 c10_i32_364
  let c9_i32 : BitVec 32 := 9#32
  let v594 : BitVec 32 := Scalar.addi v593 c9_i32
  let v617 : Index := Scalar.indexCast v594
  let c80_370 : Index := 80#32
  ![v617.toNat, 80]
def k0_off846 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_364 : BitVec 32 := 10#32
  let v593 : BitVec 32 := Scalar.muli arg19 c10_i32_364
  let c9_i32 : BitVec 32 := 9#32
  let v594 : BitVec 32 := Scalar.addi v593 c9_i32
  let v621 : Index := Scalar.indexCast v594
  let c96_371 : Index := 96#32
  ![v621.toNat, 96]
def k0_off847 (k0_t11 : Fin k0_t11_loop.trips) : Fin 2 → Nat :=
  let c0_i32_160 : BitVec 32 := 0#32
  let c1_i32_162 : BitVec 32 := 1#32
  let arg19 : BitVec 32 := Scf.iv c0_i32_160 c1_i32_162 k0_t11
  let c10_i32_364 : BitVec 32 := 10#32
  let v593 : BitVec 32 := Scalar.muli arg19 c10_i32_364
  let c9_i32 : BitVec 32 := 9#32
  let v594 : BitVec 32 := Scalar.addi v593 c9_i32
  let v625 : Index := Scalar.indexCast v594
  let c112_372 : Index := 112#32
  ![v625.toNat, 112]
@[reducible] def k0_t12_loop : Scf.Loop 32 :=
  let c0_i32_193 : BitVec 32 := 0#32
  let c5_i32_194 : BitVec 32 := 5#32
  let v191 : BitVec 32 := Scalar.addi c0_i32_193 c5_i32_194
  let c1_i32_195 : BitVec 32 := 1#32
  ⟨c0_i32_193, v191, c1_i32_195⟩

def k0_chk101 (v182 : IVec S16 32) (v271 : IVec S16 32) : Prop :=
  (∀ a x, ((![v182, v271] : Fin 2 → IVec S16 32) a x).toNat < S128x64.size a)
instance k0_chk101.dec : ∀ (v182 : IVec S16 32) (v271 : IVec S16 32), Decidable (k0_chk101 v182 v271) := fun v182 v271 => decidable_of_iff' _ (Iff.of_eq (k0_chk101.eq_1 v182 v271))
theorem k0_idx101_inb : ∀ (v182 : IVec S16 32) (v271 : IVec S16 32) (k0_hw101 : k0_chk101 v182 v271), ∀ a x, ((![v182, v271] : Fin 2 → IVec S16 32) a x).toNat < S128x64.size a := fun v182 v271 k0_hw101 => k0_hw101
def k0_off848 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32 : BitVec 32 := 10#32
  let v269 : BitVec 32 := Scalar.muli arg19 c10_i32
  let c0_i32_279 : BitVec 32 := 0#32
  let v270 : BitVec 32 := Scalar.addi v269 c0_i32_279
  let v273 : Index := Scalar.indexCast v270
  let c0_280 : Index := 0#32
  ![v273.toNat, 0]
def k0_off849 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32 : BitVec 32 := 10#32
  let v269 : BitVec 32 := Scalar.muli arg19 c10_i32
  let c0_i32_279 : BitVec 32 := 0#32
  let v270 : BitVec 32 := Scalar.addi v269 c0_i32_279
  let v277 : Index := Scalar.indexCast v270
  let c16_281 : Index := 16#32
  ![v277.toNat, 16]
def k0_off850 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32 : BitVec 32 := 10#32
  let v269 : BitVec 32 := Scalar.muli arg19 c10_i32
  let c0_i32_279 : BitVec 32 := 0#32
  let v270 : BitVec 32 := Scalar.addi v269 c0_i32_279
  let v281 : Index := Scalar.indexCast v270
  let c32_282 : Index := 32#32
  ![v281.toNat, 32]
def k0_off851 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32 : BitVec 32 := 10#32
  let v269 : BitVec 32 := Scalar.muli arg19 c10_i32
  let c0_i32_279 : BitVec 32 := 0#32
  let v270 : BitVec 32 := Scalar.addi v269 c0_i32_279
  let v285 : Index := Scalar.indexCast v270
  let c48_283 : Index := 48#32
  ![v285.toNat, 48]
def k0_off852 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32 : BitVec 32 := 10#32
  let v269 : BitVec 32 := Scalar.muli arg19 c10_i32
  let c0_i32_279 : BitVec 32 := 0#32
  let v270 : BitVec 32 := Scalar.addi v269 c0_i32_279
  let v289 : Index := Scalar.indexCast v270
  let c64_284 : Index := 64#32
  ![v289.toNat, 64]
def k0_off853 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32 : BitVec 32 := 10#32
  let v269 : BitVec 32 := Scalar.muli arg19 c10_i32
  let c0_i32_279 : BitVec 32 := 0#32
  let v270 : BitVec 32 := Scalar.addi v269 c0_i32_279
  let v293 : Index := Scalar.indexCast v270
  let c80_285 : Index := 80#32
  ![v293.toNat, 80]
def k0_off854 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32 : BitVec 32 := 10#32
  let v269 : BitVec 32 := Scalar.muli arg19 c10_i32
  let c0_i32_279 : BitVec 32 := 0#32
  let v270 : BitVec 32 := Scalar.addi v269 c0_i32_279
  let v297 : Index := Scalar.indexCast v270
  let c96_286 : Index := 96#32
  ![v297.toNat, 96]
def k0_off855 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32 : BitVec 32 := 10#32
  let v269 : BitVec 32 := Scalar.muli arg19 c10_i32
  let c0_i32_279 : BitVec 32 := 0#32
  let v270 : BitVec 32 := Scalar.addi v269 c0_i32_279
  let v301 : Index := Scalar.indexCast v270
  let c112_287 : Index := 112#32
  ![v301.toNat, 112]

def k0_chk102 (v182 : IVec S16 32) (v307 : IVec S16 32) : Prop :=
  (∀ a x, ((![v182, v307] : Fin 2 → IVec S16 32) a x).toNat < S128x64.size a)
instance k0_chk102.dec : ∀ (v182 : IVec S16 32) (v307 : IVec S16 32), Decidable (k0_chk102 v182 v307) := fun v182 v307 => decidable_of_iff' _ (Iff.of_eq (k0_chk102.eq_1 v182 v307))
theorem k0_idx102_inb : ∀ (v182 : IVec S16 32) (v307 : IVec S16 32) (k0_hw102 : k0_chk102 v182 v307), ∀ a x, ((![v182, v307] : Fin 2 → IVec S16 32) a x).toNat < S128x64.size a := fun v182 v307 k0_hw102 => k0_hw102
def k0_off856 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_288 : BitVec 32 := 10#32
  let v305 : BitVec 32 := Scalar.muli arg19 c10_i32_288
  let c1_i32_289 : BitVec 32 := 1#32
  let v306 : BitVec 32 := Scalar.addi v305 c1_i32_289
  let v309 : Index := Scalar.indexCast v306
  let c0_290 : Index := 0#32
  ![v309.toNat, 0]
def k0_off857 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_288 : BitVec 32 := 10#32
  let v305 : BitVec 32 := Scalar.muli arg19 c10_i32_288
  let c1_i32_289 : BitVec 32 := 1#32
  let v306 : BitVec 32 := Scalar.addi v305 c1_i32_289
  let v313 : Index := Scalar.indexCast v306
  let c16_291 : Index := 16#32
  ![v313.toNat, 16]
def k0_off858 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_288 : BitVec 32 := 10#32
  let v305 : BitVec 32 := Scalar.muli arg19 c10_i32_288
  let c1_i32_289 : BitVec 32 := 1#32
  let v306 : BitVec 32 := Scalar.addi v305 c1_i32_289
  let v317 : Index := Scalar.indexCast v306
  let c32_292 : Index := 32#32
  ![v317.toNat, 32]
def k0_off859 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_288 : BitVec 32 := 10#32
  let v305 : BitVec 32 := Scalar.muli arg19 c10_i32_288
  let c1_i32_289 : BitVec 32 := 1#32
  let v306 : BitVec 32 := Scalar.addi v305 c1_i32_289
  let v321 : Index := Scalar.indexCast v306
  let c48_293 : Index := 48#32
  ![v321.toNat, 48]
def k0_off860 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_288 : BitVec 32 := 10#32
  let v305 : BitVec 32 := Scalar.muli arg19 c10_i32_288
  let c1_i32_289 : BitVec 32 := 1#32
  let v306 : BitVec 32 := Scalar.addi v305 c1_i32_289
  let v325 : Index := Scalar.indexCast v306
  let c64_294 : Index := 64#32
  ![v325.toNat, 64]
def k0_off861 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_288 : BitVec 32 := 10#32
  let v305 : BitVec 32 := Scalar.muli arg19 c10_i32_288
  let c1_i32_289 : BitVec 32 := 1#32
  let v306 : BitVec 32 := Scalar.addi v305 c1_i32_289
  let v329 : Index := Scalar.indexCast v306
  let c80_295 : Index := 80#32
  ![v329.toNat, 80]
def k0_off862 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_288 : BitVec 32 := 10#32
  let v305 : BitVec 32 := Scalar.muli arg19 c10_i32_288
  let c1_i32_289 : BitVec 32 := 1#32
  let v306 : BitVec 32 := Scalar.addi v305 c1_i32_289
  let v333 : Index := Scalar.indexCast v306
  let c96_296 : Index := 96#32
  ![v333.toNat, 96]
def k0_off863 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_288 : BitVec 32 := 10#32
  let v305 : BitVec 32 := Scalar.muli arg19 c10_i32_288
  let c1_i32_289 : BitVec 32 := 1#32
  let v306 : BitVec 32 := Scalar.addi v305 c1_i32_289
  let v337 : Index := Scalar.indexCast v306
  let c112_297 : Index := 112#32
  ![v337.toNat, 112]

def k0_chk103 (v182 : IVec S16 32) (v343 : IVec S16 32) : Prop :=
  (∀ a x, ((![v182, v343] : Fin 2 → IVec S16 32) a x).toNat < S128x64.size a)
instance k0_chk103.dec : ∀ (v182 : IVec S16 32) (v343 : IVec S16 32), Decidable (k0_chk103 v182 v343) := fun v182 v343 => decidable_of_iff' _ (Iff.of_eq (k0_chk103.eq_1 v182 v343))
theorem k0_idx103_inb : ∀ (v182 : IVec S16 32) (v343 : IVec S16 32) (k0_hw103 : k0_chk103 v182 v343), ∀ a x, ((![v182, v343] : Fin 2 → IVec S16 32) a x).toNat < S128x64.size a := fun v182 v343 k0_hw103 => k0_hw103
def k0_off864 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_298 : BitVec 32 := 10#32
  let v341 : BitVec 32 := Scalar.muli arg19 c10_i32_298
  let c2_i32_299 : BitVec 32 := 2#32
  let v342 : BitVec 32 := Scalar.addi v341 c2_i32_299
  let v345 : Index := Scalar.indexCast v342
  let c0_300 : Index := 0#32
  ![v345.toNat, 0]
def k0_off865 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_298 : BitVec 32 := 10#32
  let v341 : BitVec 32 := Scalar.muli arg19 c10_i32_298
  let c2_i32_299 : BitVec 32 := 2#32
  let v342 : BitVec 32 := Scalar.addi v341 c2_i32_299
  let v349 : Index := Scalar.indexCast v342
  let c16_301 : Index := 16#32
  ![v349.toNat, 16]
def k0_off866 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_298 : BitVec 32 := 10#32
  let v341 : BitVec 32 := Scalar.muli arg19 c10_i32_298
  let c2_i32_299 : BitVec 32 := 2#32
  let v342 : BitVec 32 := Scalar.addi v341 c2_i32_299
  let v353 : Index := Scalar.indexCast v342
  let c32_302 : Index := 32#32
  ![v353.toNat, 32]
def k0_off867 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_298 : BitVec 32 := 10#32
  let v341 : BitVec 32 := Scalar.muli arg19 c10_i32_298
  let c2_i32_299 : BitVec 32 := 2#32
  let v342 : BitVec 32 := Scalar.addi v341 c2_i32_299
  let v357 : Index := Scalar.indexCast v342
  let c48_303 : Index := 48#32
  ![v357.toNat, 48]
def k0_off868 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_298 : BitVec 32 := 10#32
  let v341 : BitVec 32 := Scalar.muli arg19 c10_i32_298
  let c2_i32_299 : BitVec 32 := 2#32
  let v342 : BitVec 32 := Scalar.addi v341 c2_i32_299
  let v361 : Index := Scalar.indexCast v342
  let c64_304 : Index := 64#32
  ![v361.toNat, 64]
def k0_off869 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_298 : BitVec 32 := 10#32
  let v341 : BitVec 32 := Scalar.muli arg19 c10_i32_298
  let c2_i32_299 : BitVec 32 := 2#32
  let v342 : BitVec 32 := Scalar.addi v341 c2_i32_299
  let v365 : Index := Scalar.indexCast v342
  let c80_305 : Index := 80#32
  ![v365.toNat, 80]
def k0_off870 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_298 : BitVec 32 := 10#32
  let v341 : BitVec 32 := Scalar.muli arg19 c10_i32_298
  let c2_i32_299 : BitVec 32 := 2#32
  let v342 : BitVec 32 := Scalar.addi v341 c2_i32_299
  let v369 : Index := Scalar.indexCast v342
  let c96_306 : Index := 96#32
  ![v369.toNat, 96]
def k0_off871 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_298 : BitVec 32 := 10#32
  let v341 : BitVec 32 := Scalar.muli arg19 c10_i32_298
  let c2_i32_299 : BitVec 32 := 2#32
  let v342 : BitVec 32 := Scalar.addi v341 c2_i32_299
  let v373 : Index := Scalar.indexCast v342
  let c112_307 : Index := 112#32
  ![v373.toNat, 112]

def k0_chk104 (v182 : IVec S16 32) (v379 : IVec S16 32) : Prop :=
  (∀ a x, ((![v182, v379] : Fin 2 → IVec S16 32) a x).toNat < S128x64.size a)
instance k0_chk104.dec : ∀ (v182 : IVec S16 32) (v379 : IVec S16 32), Decidable (k0_chk104 v182 v379) := fun v182 v379 => decidable_of_iff' _ (Iff.of_eq (k0_chk104.eq_1 v182 v379))
theorem k0_idx104_inb : ∀ (v182 : IVec S16 32) (v379 : IVec S16 32) (k0_hw104 : k0_chk104 v182 v379), ∀ a x, ((![v182, v379] : Fin 2 → IVec S16 32) a x).toNat < S128x64.size a := fun v182 v379 k0_hw104 => k0_hw104
def k0_off872 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_308 : BitVec 32 := 10#32
  let v377 : BitVec 32 := Scalar.muli arg19 c10_i32_308
  let c3_i32_309 : BitVec 32 := 3#32
  let v378 : BitVec 32 := Scalar.addi v377 c3_i32_309
  let v381 : Index := Scalar.indexCast v378
  let c0_310 : Index := 0#32
  ![v381.toNat, 0]
def k0_off873 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_308 : BitVec 32 := 10#32
  let v377 : BitVec 32 := Scalar.muli arg19 c10_i32_308
  let c3_i32_309 : BitVec 32 := 3#32
  let v378 : BitVec 32 := Scalar.addi v377 c3_i32_309
  let v385 : Index := Scalar.indexCast v378
  let c16_311 : Index := 16#32
  ![v385.toNat, 16]
def k0_off874 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_308 : BitVec 32 := 10#32
  let v377 : BitVec 32 := Scalar.muli arg19 c10_i32_308
  let c3_i32_309 : BitVec 32 := 3#32
  let v378 : BitVec 32 := Scalar.addi v377 c3_i32_309
  let v389 : Index := Scalar.indexCast v378
  let c32_312 : Index := 32#32
  ![v389.toNat, 32]
def k0_off875 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_308 : BitVec 32 := 10#32
  let v377 : BitVec 32 := Scalar.muli arg19 c10_i32_308
  let c3_i32_309 : BitVec 32 := 3#32
  let v378 : BitVec 32 := Scalar.addi v377 c3_i32_309
  let v393 : Index := Scalar.indexCast v378
  let c48_313 : Index := 48#32
  ![v393.toNat, 48]
def k0_off876 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_308 : BitVec 32 := 10#32
  let v377 : BitVec 32 := Scalar.muli arg19 c10_i32_308
  let c3_i32_309 : BitVec 32 := 3#32
  let v378 : BitVec 32 := Scalar.addi v377 c3_i32_309
  let v397 : Index := Scalar.indexCast v378
  let c64_314 : Index := 64#32
  ![v397.toNat, 64]
def k0_off877 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_308 : BitVec 32 := 10#32
  let v377 : BitVec 32 := Scalar.muli arg19 c10_i32_308
  let c3_i32_309 : BitVec 32 := 3#32
  let v378 : BitVec 32 := Scalar.addi v377 c3_i32_309
  let v401 : Index := Scalar.indexCast v378
  let c80_315 : Index := 80#32
  ![v401.toNat, 80]
def k0_off878 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_308 : BitVec 32 := 10#32
  let v377 : BitVec 32 := Scalar.muli arg19 c10_i32_308
  let c3_i32_309 : BitVec 32 := 3#32
  let v378 : BitVec 32 := Scalar.addi v377 c3_i32_309
  let v405 : Index := Scalar.indexCast v378
  let c96_316 : Index := 96#32
  ![v405.toNat, 96]
def k0_off879 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_308 : BitVec 32 := 10#32
  let v377 : BitVec 32 := Scalar.muli arg19 c10_i32_308
  let c3_i32_309 : BitVec 32 := 3#32
  let v378 : BitVec 32 := Scalar.addi v377 c3_i32_309
  let v409 : Index := Scalar.indexCast v378
  let c112_317 : Index := 112#32
  ![v409.toNat, 112]

def k0_chk105 (v182 : IVec S16 32) (v415 : IVec S16 32) : Prop :=
  (∀ a x, ((![v182, v415] : Fin 2 → IVec S16 32) a x).toNat < S128x64.size a)
instance k0_chk105.dec : ∀ (v182 : IVec S16 32) (v415 : IVec S16 32), Decidable (k0_chk105 v182 v415) := fun v182 v415 => decidable_of_iff' _ (Iff.of_eq (k0_chk105.eq_1 v182 v415))
theorem k0_idx105_inb : ∀ (v182 : IVec S16 32) (v415 : IVec S16 32) (k0_hw105 : k0_chk105 v182 v415), ∀ a x, ((![v182, v415] : Fin 2 → IVec S16 32) a x).toNat < S128x64.size a := fun v182 v415 k0_hw105 => k0_hw105
def k0_off880 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_318 : BitVec 32 := 10#32
  let v413 : BitVec 32 := Scalar.muli arg19 c10_i32_318
  let c4_i32 : BitVec 32 := 4#32
  let v414 : BitVec 32 := Scalar.addi v413 c4_i32
  let v417 : Index := Scalar.indexCast v414
  let c0_319 : Index := 0#32
  ![v417.toNat, 0]
def k0_off881 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_318 : BitVec 32 := 10#32
  let v413 : BitVec 32 := Scalar.muli arg19 c10_i32_318
  let c4_i32 : BitVec 32 := 4#32
  let v414 : BitVec 32 := Scalar.addi v413 c4_i32
  let v421 : Index := Scalar.indexCast v414
  let c16_320 : Index := 16#32
  ![v421.toNat, 16]
def k0_off882 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_318 : BitVec 32 := 10#32
  let v413 : BitVec 32 := Scalar.muli arg19 c10_i32_318
  let c4_i32 : BitVec 32 := 4#32
  let v414 : BitVec 32 := Scalar.addi v413 c4_i32
  let v425 : Index := Scalar.indexCast v414
  let c32_321 : Index := 32#32
  ![v425.toNat, 32]
def k0_off883 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_318 : BitVec 32 := 10#32
  let v413 : BitVec 32 := Scalar.muli arg19 c10_i32_318
  let c4_i32 : BitVec 32 := 4#32
  let v414 : BitVec 32 := Scalar.addi v413 c4_i32
  let v429 : Index := Scalar.indexCast v414
  let c48_322 : Index := 48#32
  ![v429.toNat, 48]
def k0_off884 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_318 : BitVec 32 := 10#32
  let v413 : BitVec 32 := Scalar.muli arg19 c10_i32_318
  let c4_i32 : BitVec 32 := 4#32
  let v414 : BitVec 32 := Scalar.addi v413 c4_i32
  let v433 : Index := Scalar.indexCast v414
  let c64_323 : Index := 64#32
  ![v433.toNat, 64]
def k0_off885 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_318 : BitVec 32 := 10#32
  let v413 : BitVec 32 := Scalar.muli arg19 c10_i32_318
  let c4_i32 : BitVec 32 := 4#32
  let v414 : BitVec 32 := Scalar.addi v413 c4_i32
  let v437 : Index := Scalar.indexCast v414
  let c80_324 : Index := 80#32
  ![v437.toNat, 80]
def k0_off886 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_318 : BitVec 32 := 10#32
  let v413 : BitVec 32 := Scalar.muli arg19 c10_i32_318
  let c4_i32 : BitVec 32 := 4#32
  let v414 : BitVec 32 := Scalar.addi v413 c4_i32
  let v441 : Index := Scalar.indexCast v414
  let c96_325 : Index := 96#32
  ![v441.toNat, 96]
def k0_off887 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_318 : BitVec 32 := 10#32
  let v413 : BitVec 32 := Scalar.muli arg19 c10_i32_318
  let c4_i32 : BitVec 32 := 4#32
  let v414 : BitVec 32 := Scalar.addi v413 c4_i32
  let v445 : Index := Scalar.indexCast v414
  let c112_326 : Index := 112#32
  ![v445.toNat, 112]

def k0_chk106 (v182 : IVec S16 32) (v451 : IVec S16 32) : Prop :=
  (∀ a x, ((![v182, v451] : Fin 2 → IVec S16 32) a x).toNat < S128x64.size a)
instance k0_chk106.dec : ∀ (v182 : IVec S16 32) (v451 : IVec S16 32), Decidable (k0_chk106 v182 v451) := fun v182 v451 => decidable_of_iff' _ (Iff.of_eq (k0_chk106.eq_1 v182 v451))
theorem k0_idx106_inb : ∀ (v182 : IVec S16 32) (v451 : IVec S16 32) (k0_hw106 : k0_chk106 v182 v451), ∀ a x, ((![v182, v451] : Fin 2 → IVec S16 32) a x).toNat < S128x64.size a := fun v182 v451 k0_hw106 => k0_hw106
def k0_off888 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_327 : BitVec 32 := 10#32
  let v449 : BitVec 32 := Scalar.muli arg19 c10_i32_327
  let c5_i32_328 : BitVec 32 := 5#32
  let v450 : BitVec 32 := Scalar.addi v449 c5_i32_328
  let v453 : Index := Scalar.indexCast v450
  let c0_329 : Index := 0#32
  ![v453.toNat, 0]
def k0_off889 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_327 : BitVec 32 := 10#32
  let v449 : BitVec 32 := Scalar.muli arg19 c10_i32_327
  let c5_i32_328 : BitVec 32 := 5#32
  let v450 : BitVec 32 := Scalar.addi v449 c5_i32_328
  let v457 : Index := Scalar.indexCast v450
  let c16_330 : Index := 16#32
  ![v457.toNat, 16]
def k0_off890 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_327 : BitVec 32 := 10#32
  let v449 : BitVec 32 := Scalar.muli arg19 c10_i32_327
  let c5_i32_328 : BitVec 32 := 5#32
  let v450 : BitVec 32 := Scalar.addi v449 c5_i32_328
  let v461 : Index := Scalar.indexCast v450
  let c32_331 : Index := 32#32
  ![v461.toNat, 32]
def k0_off891 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_327 : BitVec 32 := 10#32
  let v449 : BitVec 32 := Scalar.muli arg19 c10_i32_327
  let c5_i32_328 : BitVec 32 := 5#32
  let v450 : BitVec 32 := Scalar.addi v449 c5_i32_328
  let v465 : Index := Scalar.indexCast v450
  let c48_332 : Index := 48#32
  ![v465.toNat, 48]
def k0_off892 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_327 : BitVec 32 := 10#32
  let v449 : BitVec 32 := Scalar.muli arg19 c10_i32_327
  let c5_i32_328 : BitVec 32 := 5#32
  let v450 : BitVec 32 := Scalar.addi v449 c5_i32_328
  let v469 : Index := Scalar.indexCast v450
  let c64_333 : Index := 64#32
  ![v469.toNat, 64]
def k0_off893 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_327 : BitVec 32 := 10#32
  let v449 : BitVec 32 := Scalar.muli arg19 c10_i32_327
  let c5_i32_328 : BitVec 32 := 5#32
  let v450 : BitVec 32 := Scalar.addi v449 c5_i32_328
  let v473 : Index := Scalar.indexCast v450
  let c80_334 : Index := 80#32
  ![v473.toNat, 80]
def k0_off894 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_327 : BitVec 32 := 10#32
  let v449 : BitVec 32 := Scalar.muli arg19 c10_i32_327
  let c5_i32_328 : BitVec 32 := 5#32
  let v450 : BitVec 32 := Scalar.addi v449 c5_i32_328
  let v477 : Index := Scalar.indexCast v450
  let c96_335 : Index := 96#32
  ![v477.toNat, 96]
def k0_off895 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_327 : BitVec 32 := 10#32
  let v449 : BitVec 32 := Scalar.muli arg19 c10_i32_327
  let c5_i32_328 : BitVec 32 := 5#32
  let v450 : BitVec 32 := Scalar.addi v449 c5_i32_328
  let v481 : Index := Scalar.indexCast v450
  let c112_336 : Index := 112#32
  ![v481.toNat, 112]

def k0_chk107 (v182 : IVec S16 32) (v487 : IVec S16 32) : Prop :=
  (∀ a x, ((![v182, v487] : Fin 2 → IVec S16 32) a x).toNat < S128x64.size a)
instance k0_chk107.dec : ∀ (v182 : IVec S16 32) (v487 : IVec S16 32), Decidable (k0_chk107 v182 v487) := fun v182 v487 => decidable_of_iff' _ (Iff.of_eq (k0_chk107.eq_1 v182 v487))
theorem k0_idx107_inb : ∀ (v182 : IVec S16 32) (v487 : IVec S16 32) (k0_hw107 : k0_chk107 v182 v487), ∀ a x, ((![v182, v487] : Fin 2 → IVec S16 32) a x).toNat < S128x64.size a := fun v182 v487 k0_hw107 => k0_hw107
def k0_off896 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_337 : BitVec 32 := 10#32
  let v485 : BitVec 32 := Scalar.muli arg19 c10_i32_337
  let c6_i32 : BitVec 32 := 6#32
  let v486 : BitVec 32 := Scalar.addi v485 c6_i32
  let v489 : Index := Scalar.indexCast v486
  let c0_338 : Index := 0#32
  ![v489.toNat, 0]
def k0_off897 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_337 : BitVec 32 := 10#32
  let v485 : BitVec 32 := Scalar.muli arg19 c10_i32_337
  let c6_i32 : BitVec 32 := 6#32
  let v486 : BitVec 32 := Scalar.addi v485 c6_i32
  let v493 : Index := Scalar.indexCast v486
  let c16_339 : Index := 16#32
  ![v493.toNat, 16]
def k0_off898 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_337 : BitVec 32 := 10#32
  let v485 : BitVec 32 := Scalar.muli arg19 c10_i32_337
  let c6_i32 : BitVec 32 := 6#32
  let v486 : BitVec 32 := Scalar.addi v485 c6_i32
  let v497 : Index := Scalar.indexCast v486
  let c32_340 : Index := 32#32
  ![v497.toNat, 32]
def k0_off899 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_337 : BitVec 32 := 10#32
  let v485 : BitVec 32 := Scalar.muli arg19 c10_i32_337
  let c6_i32 : BitVec 32 := 6#32
  let v486 : BitVec 32 := Scalar.addi v485 c6_i32
  let v501 : Index := Scalar.indexCast v486
  let c48_341 : Index := 48#32
  ![v501.toNat, 48]
def k0_off900 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_337 : BitVec 32 := 10#32
  let v485 : BitVec 32 := Scalar.muli arg19 c10_i32_337
  let c6_i32 : BitVec 32 := 6#32
  let v486 : BitVec 32 := Scalar.addi v485 c6_i32
  let v505 : Index := Scalar.indexCast v486
  let c64_342 : Index := 64#32
  ![v505.toNat, 64]
def k0_off901 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_337 : BitVec 32 := 10#32
  let v485 : BitVec 32 := Scalar.muli arg19 c10_i32_337
  let c6_i32 : BitVec 32 := 6#32
  let v486 : BitVec 32 := Scalar.addi v485 c6_i32
  let v509 : Index := Scalar.indexCast v486
  let c80_343 : Index := 80#32
  ![v509.toNat, 80]
def k0_off902 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_337 : BitVec 32 := 10#32
  let v485 : BitVec 32 := Scalar.muli arg19 c10_i32_337
  let c6_i32 : BitVec 32 := 6#32
  let v486 : BitVec 32 := Scalar.addi v485 c6_i32
  let v513 : Index := Scalar.indexCast v486
  let c96_344 : Index := 96#32
  ![v513.toNat, 96]
def k0_off903 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_337 : BitVec 32 := 10#32
  let v485 : BitVec 32 := Scalar.muli arg19 c10_i32_337
  let c6_i32 : BitVec 32 := 6#32
  let v486 : BitVec 32 := Scalar.addi v485 c6_i32
  let v517 : Index := Scalar.indexCast v486
  let c112_345 : Index := 112#32
  ![v517.toNat, 112]

def k0_chk108 (v182 : IVec S16 32) (v523 : IVec S16 32) : Prop :=
  (∀ a x, ((![v182, v523] : Fin 2 → IVec S16 32) a x).toNat < S128x64.size a)
instance k0_chk108.dec : ∀ (v182 : IVec S16 32) (v523 : IVec S16 32), Decidable (k0_chk108 v182 v523) := fun v182 v523 => decidable_of_iff' _ (Iff.of_eq (k0_chk108.eq_1 v182 v523))
theorem k0_idx108_inb : ∀ (v182 : IVec S16 32) (v523 : IVec S16 32) (k0_hw108 : k0_chk108 v182 v523), ∀ a x, ((![v182, v523] : Fin 2 → IVec S16 32) a x).toNat < S128x64.size a := fun v182 v523 k0_hw108 => k0_hw108
def k0_off904 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_346 : BitVec 32 := 10#32
  let v521 : BitVec 32 := Scalar.muli arg19 c10_i32_346
  let c7_i32 : BitVec 32 := 7#32
  let v522 : BitVec 32 := Scalar.addi v521 c7_i32
  let v525 : Index := Scalar.indexCast v522
  let c0_347 : Index := 0#32
  ![v525.toNat, 0]
def k0_off905 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_346 : BitVec 32 := 10#32
  let v521 : BitVec 32 := Scalar.muli arg19 c10_i32_346
  let c7_i32 : BitVec 32 := 7#32
  let v522 : BitVec 32 := Scalar.addi v521 c7_i32
  let v529 : Index := Scalar.indexCast v522
  let c16_348 : Index := 16#32
  ![v529.toNat, 16]
def k0_off906 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_346 : BitVec 32 := 10#32
  let v521 : BitVec 32 := Scalar.muli arg19 c10_i32_346
  let c7_i32 : BitVec 32 := 7#32
  let v522 : BitVec 32 := Scalar.addi v521 c7_i32
  let v533 : Index := Scalar.indexCast v522
  let c32_349 : Index := 32#32
  ![v533.toNat, 32]
def k0_off907 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_346 : BitVec 32 := 10#32
  let v521 : BitVec 32 := Scalar.muli arg19 c10_i32_346
  let c7_i32 : BitVec 32 := 7#32
  let v522 : BitVec 32 := Scalar.addi v521 c7_i32
  let v537 : Index := Scalar.indexCast v522
  let c48_350 : Index := 48#32
  ![v537.toNat, 48]
def k0_off908 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_346 : BitVec 32 := 10#32
  let v521 : BitVec 32 := Scalar.muli arg19 c10_i32_346
  let c7_i32 : BitVec 32 := 7#32
  let v522 : BitVec 32 := Scalar.addi v521 c7_i32
  let v541 : Index := Scalar.indexCast v522
  let c64_351 : Index := 64#32
  ![v541.toNat, 64]
def k0_off909 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_346 : BitVec 32 := 10#32
  let v521 : BitVec 32 := Scalar.muli arg19 c10_i32_346
  let c7_i32 : BitVec 32 := 7#32
  let v522 : BitVec 32 := Scalar.addi v521 c7_i32
  let v545 : Index := Scalar.indexCast v522
  let c80_352 : Index := 80#32
  ![v545.toNat, 80]
def k0_off910 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_346 : BitVec 32 := 10#32
  let v521 : BitVec 32 := Scalar.muli arg19 c10_i32_346
  let c7_i32 : BitVec 32 := 7#32
  let v522 : BitVec 32 := Scalar.addi v521 c7_i32
  let v549 : Index := Scalar.indexCast v522
  let c96_353 : Index := 96#32
  ![v549.toNat, 96]
def k0_off911 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_346 : BitVec 32 := 10#32
  let v521 : BitVec 32 := Scalar.muli arg19 c10_i32_346
  let c7_i32 : BitVec 32 := 7#32
  let v522 : BitVec 32 := Scalar.addi v521 c7_i32
  let v553 : Index := Scalar.indexCast v522
  let c112_354 : Index := 112#32
  ![v553.toNat, 112]

def k0_chk109 (v182 : IVec S16 32) (v559 : IVec S16 32) : Prop :=
  (∀ a x, ((![v182, v559] : Fin 2 → IVec S16 32) a x).toNat < S128x64.size a)
instance k0_chk109.dec : ∀ (v182 : IVec S16 32) (v559 : IVec S16 32), Decidable (k0_chk109 v182 v559) := fun v182 v559 => decidable_of_iff' _ (Iff.of_eq (k0_chk109.eq_1 v182 v559))
theorem k0_idx109_inb : ∀ (v182 : IVec S16 32) (v559 : IVec S16 32) (k0_hw109 : k0_chk109 v182 v559), ∀ a x, ((![v182, v559] : Fin 2 → IVec S16 32) a x).toNat < S128x64.size a := fun v182 v559 k0_hw109 => k0_hw109
def k0_off912 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_355 : BitVec 32 := 10#32
  let v557 : BitVec 32 := Scalar.muli arg19 c10_i32_355
  let c8_i32 : BitVec 32 := 8#32
  let v558 : BitVec 32 := Scalar.addi v557 c8_i32
  let v561 : Index := Scalar.indexCast v558
  let c0_356 : Index := 0#32
  ![v561.toNat, 0]
def k0_off913 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_355 : BitVec 32 := 10#32
  let v557 : BitVec 32 := Scalar.muli arg19 c10_i32_355
  let c8_i32 : BitVec 32 := 8#32
  let v558 : BitVec 32 := Scalar.addi v557 c8_i32
  let v565 : Index := Scalar.indexCast v558
  let c16_357 : Index := 16#32
  ![v565.toNat, 16]
def k0_off914 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_355 : BitVec 32 := 10#32
  let v557 : BitVec 32 := Scalar.muli arg19 c10_i32_355
  let c8_i32 : BitVec 32 := 8#32
  let v558 : BitVec 32 := Scalar.addi v557 c8_i32
  let v569 : Index := Scalar.indexCast v558
  let c32_358 : Index := 32#32
  ![v569.toNat, 32]
def k0_off915 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_355 : BitVec 32 := 10#32
  let v557 : BitVec 32 := Scalar.muli arg19 c10_i32_355
  let c8_i32 : BitVec 32 := 8#32
  let v558 : BitVec 32 := Scalar.addi v557 c8_i32
  let v573 : Index := Scalar.indexCast v558
  let c48_359 : Index := 48#32
  ![v573.toNat, 48]
def k0_off916 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_355 : BitVec 32 := 10#32
  let v557 : BitVec 32 := Scalar.muli arg19 c10_i32_355
  let c8_i32 : BitVec 32 := 8#32
  let v558 : BitVec 32 := Scalar.addi v557 c8_i32
  let v577 : Index := Scalar.indexCast v558
  let c64_360 : Index := 64#32
  ![v577.toNat, 64]
def k0_off917 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_355 : BitVec 32 := 10#32
  let v557 : BitVec 32 := Scalar.muli arg19 c10_i32_355
  let c8_i32 : BitVec 32 := 8#32
  let v558 : BitVec 32 := Scalar.addi v557 c8_i32
  let v581 : Index := Scalar.indexCast v558
  let c80_361 : Index := 80#32
  ![v581.toNat, 80]
def k0_off918 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_355 : BitVec 32 := 10#32
  let v557 : BitVec 32 := Scalar.muli arg19 c10_i32_355
  let c8_i32 : BitVec 32 := 8#32
  let v558 : BitVec 32 := Scalar.addi v557 c8_i32
  let v585 : Index := Scalar.indexCast v558
  let c96_362 : Index := 96#32
  ![v585.toNat, 96]
def k0_off919 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_355 : BitVec 32 := 10#32
  let v557 : BitVec 32 := Scalar.muli arg19 c10_i32_355
  let c8_i32 : BitVec 32 := 8#32
  let v558 : BitVec 32 := Scalar.addi v557 c8_i32
  let v589 : Index := Scalar.indexCast v558
  let c112_363 : Index := 112#32
  ![v589.toNat, 112]

def k0_chk110 (v182 : IVec S16 32) (v595 : IVec S16 32) : Prop :=
  (∀ a x, ((![v182, v595] : Fin 2 → IVec S16 32) a x).toNat < S128x64.size a)
instance k0_chk110.dec : ∀ (v182 : IVec S16 32) (v595 : IVec S16 32), Decidable (k0_chk110 v182 v595) := fun v182 v595 => decidable_of_iff' _ (Iff.of_eq (k0_chk110.eq_1 v182 v595))
theorem k0_idx110_inb : ∀ (v182 : IVec S16 32) (v595 : IVec S16 32) (k0_hw110 : k0_chk110 v182 v595), ∀ a x, ((![v182, v595] : Fin 2 → IVec S16 32) a x).toNat < S128x64.size a := fun v182 v595 k0_hw110 => k0_hw110
def k0_off920 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_364 : BitVec 32 := 10#32
  let v593 : BitVec 32 := Scalar.muli arg19 c10_i32_364
  let c9_i32 : BitVec 32 := 9#32
  let v594 : BitVec 32 := Scalar.addi v593 c9_i32
  let v597 : Index := Scalar.indexCast v594
  let c0_365 : Index := 0#32
  ![v597.toNat, 0]
def k0_off921 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_364 : BitVec 32 := 10#32
  let v593 : BitVec 32 := Scalar.muli arg19 c10_i32_364
  let c9_i32 : BitVec 32 := 9#32
  let v594 : BitVec 32 := Scalar.addi v593 c9_i32
  let v601 : Index := Scalar.indexCast v594
  let c16_366 : Index := 16#32
  ![v601.toNat, 16]
def k0_off922 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_364 : BitVec 32 := 10#32
  let v593 : BitVec 32 := Scalar.muli arg19 c10_i32_364
  let c9_i32 : BitVec 32 := 9#32
  let v594 : BitVec 32 := Scalar.addi v593 c9_i32
  let v605 : Index := Scalar.indexCast v594
  let c32_367 : Index := 32#32
  ![v605.toNat, 32]
def k0_off923 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_364 : BitVec 32 := 10#32
  let v593 : BitVec 32 := Scalar.muli arg19 c10_i32_364
  let c9_i32 : BitVec 32 := 9#32
  let v594 : BitVec 32 := Scalar.addi v593 c9_i32
  let v609 : Index := Scalar.indexCast v594
  let c48_368 : Index := 48#32
  ![v609.toNat, 48]
def k0_off924 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_364 : BitVec 32 := 10#32
  let v593 : BitVec 32 := Scalar.muli arg19 c10_i32_364
  let c9_i32 : BitVec 32 := 9#32
  let v594 : BitVec 32 := Scalar.addi v593 c9_i32
  let v613 : Index := Scalar.indexCast v594
  let c64_369 : Index := 64#32
  ![v613.toNat, 64]
def k0_off925 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_364 : BitVec 32 := 10#32
  let v593 : BitVec 32 := Scalar.muli arg19 c10_i32_364
  let c9_i32 : BitVec 32 := 9#32
  let v594 : BitVec 32 := Scalar.addi v593 c9_i32
  let v617 : Index := Scalar.indexCast v594
  let c80_370 : Index := 80#32
  ![v617.toNat, 80]
def k0_off926 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_364 : BitVec 32 := 10#32
  let v593 : BitVec 32 := Scalar.muli arg19 c10_i32_364
  let c9_i32 : BitVec 32 := 9#32
  let v594 : BitVec 32 := Scalar.addi v593 c9_i32
  let v621 : Index := Scalar.indexCast v594
  let c96_371 : Index := 96#32
  ![v621.toNat, 96]
def k0_off927 (k0_t12 : Fin k0_t12_loop.trips) : Fin 2 → Nat :=
  let c0_i32_193 : BitVec 32 := 0#32
  let c1_i32_195 : BitVec 32 := 1#32
  let arg19 : BitVec 32 := Scf.iv c0_i32_193 c1_i32_195 k0_t12
  let c10_i32_364 : BitVec 32 := 10#32
  let v593 : BitVec 32 := Scalar.muli arg19 c10_i32_364
  let c9_i32 : BitVec 32 := 9#32
  let v594 : BitVec 32 := Scalar.addi v593 c9_i32
  let v625 : Index := Scalar.indexCast v594
  let c112_372 : Index := 112#32
  ![v625.toNat, 112]
@[reducible] def k0_t13_loop : Scf.Loop 32 :=
  let c0_i32_226 : BitVec 32 := 0#32
  let c5_i32_227 : BitVec 32 := 5#32
  let v221 : BitVec 32 := Scalar.addi c0_i32_226 c5_i32_227
  let c1_i32_228 : BitVec 32 := 1#32
  ⟨c0_i32_226, v221, c1_i32_228⟩

def k0_chk111 (v212 : IVec S16 32) (v271 : IVec S16 32) : Prop :=
  (∀ a x, ((![v212, v271] : Fin 2 → IVec S16 32) a x).toNat < S128x64.size a)
instance k0_chk111.dec : ∀ (v212 : IVec S16 32) (v271 : IVec S16 32), Decidable (k0_chk111 v212 v271) := fun v212 v271 => decidable_of_iff' _ (Iff.of_eq (k0_chk111.eq_1 v212 v271))
theorem k0_idx111_inb : ∀ (v212 : IVec S16 32) (v271 : IVec S16 32) (k0_hw111 : k0_chk111 v212 v271), ∀ a x, ((![v212, v271] : Fin 2 → IVec S16 32) a x).toNat < S128x64.size a := fun v212 v271 k0_hw111 => k0_hw111
def k0_off928 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32 : BitVec 32 := 10#32
  let v269 : BitVec 32 := Scalar.muli arg19 c10_i32
  let c0_i32_279 : BitVec 32 := 0#32
  let v270 : BitVec 32 := Scalar.addi v269 c0_i32_279
  let v273 : Index := Scalar.indexCast v270
  let c0_280 : Index := 0#32
  ![v273.toNat, 0]
def k0_off929 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32 : BitVec 32 := 10#32
  let v269 : BitVec 32 := Scalar.muli arg19 c10_i32
  let c0_i32_279 : BitVec 32 := 0#32
  let v270 : BitVec 32 := Scalar.addi v269 c0_i32_279
  let v277 : Index := Scalar.indexCast v270
  let c16_281 : Index := 16#32
  ![v277.toNat, 16]
def k0_off930 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32 : BitVec 32 := 10#32
  let v269 : BitVec 32 := Scalar.muli arg19 c10_i32
  let c0_i32_279 : BitVec 32 := 0#32
  let v270 : BitVec 32 := Scalar.addi v269 c0_i32_279
  let v281 : Index := Scalar.indexCast v270
  let c32_282 : Index := 32#32
  ![v281.toNat, 32]
def k0_off931 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32 : BitVec 32 := 10#32
  let v269 : BitVec 32 := Scalar.muli arg19 c10_i32
  let c0_i32_279 : BitVec 32 := 0#32
  let v270 : BitVec 32 := Scalar.addi v269 c0_i32_279
  let v285 : Index := Scalar.indexCast v270
  let c48_283 : Index := 48#32
  ![v285.toNat, 48]
def k0_off932 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32 : BitVec 32 := 10#32
  let v269 : BitVec 32 := Scalar.muli arg19 c10_i32
  let c0_i32_279 : BitVec 32 := 0#32
  let v270 : BitVec 32 := Scalar.addi v269 c0_i32_279
  let v289 : Index := Scalar.indexCast v270
  let c64_284 : Index := 64#32
  ![v289.toNat, 64]
def k0_off933 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32 : BitVec 32 := 10#32
  let v269 : BitVec 32 := Scalar.muli arg19 c10_i32
  let c0_i32_279 : BitVec 32 := 0#32
  let v270 : BitVec 32 := Scalar.addi v269 c0_i32_279
  let v293 : Index := Scalar.indexCast v270
  let c80_285 : Index := 80#32
  ![v293.toNat, 80]
def k0_off934 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32 : BitVec 32 := 10#32
  let v269 : BitVec 32 := Scalar.muli arg19 c10_i32
  let c0_i32_279 : BitVec 32 := 0#32
  let v270 : BitVec 32 := Scalar.addi v269 c0_i32_279
  let v297 : Index := Scalar.indexCast v270
  let c96_286 : Index := 96#32
  ![v297.toNat, 96]
def k0_off935 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32 : BitVec 32 := 10#32
  let v269 : BitVec 32 := Scalar.muli arg19 c10_i32
  let c0_i32_279 : BitVec 32 := 0#32
  let v270 : BitVec 32 := Scalar.addi v269 c0_i32_279
  let v301 : Index := Scalar.indexCast v270
  let c112_287 : Index := 112#32
  ![v301.toNat, 112]

def k0_chk112 (v212 : IVec S16 32) (v307 : IVec S16 32) : Prop :=
  (∀ a x, ((![v212, v307] : Fin 2 → IVec S16 32) a x).toNat < S128x64.size a)
instance k0_chk112.dec : ∀ (v212 : IVec S16 32) (v307 : IVec S16 32), Decidable (k0_chk112 v212 v307) := fun v212 v307 => decidable_of_iff' _ (Iff.of_eq (k0_chk112.eq_1 v212 v307))
theorem k0_idx112_inb : ∀ (v212 : IVec S16 32) (v307 : IVec S16 32) (k0_hw112 : k0_chk112 v212 v307), ∀ a x, ((![v212, v307] : Fin 2 → IVec S16 32) a x).toNat < S128x64.size a := fun v212 v307 k0_hw112 => k0_hw112
def k0_off936 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_288 : BitVec 32 := 10#32
  let v305 : BitVec 32 := Scalar.muli arg19 c10_i32_288
  let c1_i32_289 : BitVec 32 := 1#32
  let v306 : BitVec 32 := Scalar.addi v305 c1_i32_289
  let v309 : Index := Scalar.indexCast v306
  let c0_290 : Index := 0#32
  ![v309.toNat, 0]
def k0_off937 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_288 : BitVec 32 := 10#32
  let v305 : BitVec 32 := Scalar.muli arg19 c10_i32_288
  let c1_i32_289 : BitVec 32 := 1#32
  let v306 : BitVec 32 := Scalar.addi v305 c1_i32_289
  let v313 : Index := Scalar.indexCast v306
  let c16_291 : Index := 16#32
  ![v313.toNat, 16]
def k0_off938 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_288 : BitVec 32 := 10#32
  let v305 : BitVec 32 := Scalar.muli arg19 c10_i32_288
  let c1_i32_289 : BitVec 32 := 1#32
  let v306 : BitVec 32 := Scalar.addi v305 c1_i32_289
  let v317 : Index := Scalar.indexCast v306
  let c32_292 : Index := 32#32
  ![v317.toNat, 32]
def k0_off939 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_288 : BitVec 32 := 10#32
  let v305 : BitVec 32 := Scalar.muli arg19 c10_i32_288
  let c1_i32_289 : BitVec 32 := 1#32
  let v306 : BitVec 32 := Scalar.addi v305 c1_i32_289
  let v321 : Index := Scalar.indexCast v306
  let c48_293 : Index := 48#32
  ![v321.toNat, 48]
def k0_off940 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_288 : BitVec 32 := 10#32
  let v305 : BitVec 32 := Scalar.muli arg19 c10_i32_288
  let c1_i32_289 : BitVec 32 := 1#32
  let v306 : BitVec 32 := Scalar.addi v305 c1_i32_289
  let v325 : Index := Scalar.indexCast v306
  let c64_294 : Index := 64#32
  ![v325.toNat, 64]
def k0_off941 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_288 : BitVec 32 := 10#32
  let v305 : BitVec 32 := Scalar.muli arg19 c10_i32_288
  let c1_i32_289 : BitVec 32 := 1#32
  let v306 : BitVec 32 := Scalar.addi v305 c1_i32_289
  let v329 : Index := Scalar.indexCast v306
  let c80_295 : Index := 80#32
  ![v329.toNat, 80]
def k0_off942 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_288 : BitVec 32 := 10#32
  let v305 : BitVec 32 := Scalar.muli arg19 c10_i32_288
  let c1_i32_289 : BitVec 32 := 1#32
  let v306 : BitVec 32 := Scalar.addi v305 c1_i32_289
  let v333 : Index := Scalar.indexCast v306
  let c96_296 : Index := 96#32
  ![v333.toNat, 96]
def k0_off943 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_288 : BitVec 32 := 10#32
  let v305 : BitVec 32 := Scalar.muli arg19 c10_i32_288
  let c1_i32_289 : BitVec 32 := 1#32
  let v306 : BitVec 32 := Scalar.addi v305 c1_i32_289
  let v337 : Index := Scalar.indexCast v306
  let c112_297 : Index := 112#32
  ![v337.toNat, 112]

def k0_chk113 (v212 : IVec S16 32) (v343 : IVec S16 32) : Prop :=
  (∀ a x, ((![v212, v343] : Fin 2 → IVec S16 32) a x).toNat < S128x64.size a)
instance k0_chk113.dec : ∀ (v212 : IVec S16 32) (v343 : IVec S16 32), Decidable (k0_chk113 v212 v343) := fun v212 v343 => decidable_of_iff' _ (Iff.of_eq (k0_chk113.eq_1 v212 v343))
theorem k0_idx113_inb : ∀ (v212 : IVec S16 32) (v343 : IVec S16 32) (k0_hw113 : k0_chk113 v212 v343), ∀ a x, ((![v212, v343] : Fin 2 → IVec S16 32) a x).toNat < S128x64.size a := fun v212 v343 k0_hw113 => k0_hw113
def k0_off944 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_298 : BitVec 32 := 10#32
  let v341 : BitVec 32 := Scalar.muli arg19 c10_i32_298
  let c2_i32_299 : BitVec 32 := 2#32
  let v342 : BitVec 32 := Scalar.addi v341 c2_i32_299
  let v345 : Index := Scalar.indexCast v342
  let c0_300 : Index := 0#32
  ![v345.toNat, 0]
def k0_off945 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_298 : BitVec 32 := 10#32
  let v341 : BitVec 32 := Scalar.muli arg19 c10_i32_298
  let c2_i32_299 : BitVec 32 := 2#32
  let v342 : BitVec 32 := Scalar.addi v341 c2_i32_299
  let v349 : Index := Scalar.indexCast v342
  let c16_301 : Index := 16#32
  ![v349.toNat, 16]
def k0_off946 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_298 : BitVec 32 := 10#32
  let v341 : BitVec 32 := Scalar.muli arg19 c10_i32_298
  let c2_i32_299 : BitVec 32 := 2#32
  let v342 : BitVec 32 := Scalar.addi v341 c2_i32_299
  let v353 : Index := Scalar.indexCast v342
  let c32_302 : Index := 32#32
  ![v353.toNat, 32]
def k0_off947 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_298 : BitVec 32 := 10#32
  let v341 : BitVec 32 := Scalar.muli arg19 c10_i32_298
  let c2_i32_299 : BitVec 32 := 2#32
  let v342 : BitVec 32 := Scalar.addi v341 c2_i32_299
  let v357 : Index := Scalar.indexCast v342
  let c48_303 : Index := 48#32
  ![v357.toNat, 48]
def k0_off948 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_298 : BitVec 32 := 10#32
  let v341 : BitVec 32 := Scalar.muli arg19 c10_i32_298
  let c2_i32_299 : BitVec 32 := 2#32
  let v342 : BitVec 32 := Scalar.addi v341 c2_i32_299
  let v361 : Index := Scalar.indexCast v342
  let c64_304 : Index := 64#32
  ![v361.toNat, 64]
def k0_off949 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_298 : BitVec 32 := 10#32
  let v341 : BitVec 32 := Scalar.muli arg19 c10_i32_298
  let c2_i32_299 : BitVec 32 := 2#32
  let v342 : BitVec 32 := Scalar.addi v341 c2_i32_299
  let v365 : Index := Scalar.indexCast v342
  let c80_305 : Index := 80#32
  ![v365.toNat, 80]
def k0_off950 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_298 : BitVec 32 := 10#32
  let v341 : BitVec 32 := Scalar.muli arg19 c10_i32_298
  let c2_i32_299 : BitVec 32 := 2#32
  let v342 : BitVec 32 := Scalar.addi v341 c2_i32_299
  let v369 : Index := Scalar.indexCast v342
  let c96_306 : Index := 96#32
  ![v369.toNat, 96]
def k0_off951 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_298 : BitVec 32 := 10#32
  let v341 : BitVec 32 := Scalar.muli arg19 c10_i32_298
  let c2_i32_299 : BitVec 32 := 2#32
  let v342 : BitVec 32 := Scalar.addi v341 c2_i32_299
  let v373 : Index := Scalar.indexCast v342
  let c112_307 : Index := 112#32
  ![v373.toNat, 112]

def k0_chk114 (v212 : IVec S16 32) (v379 : IVec S16 32) : Prop :=
  (∀ a x, ((![v212, v379] : Fin 2 → IVec S16 32) a x).toNat < S128x64.size a)
instance k0_chk114.dec : ∀ (v212 : IVec S16 32) (v379 : IVec S16 32), Decidable (k0_chk114 v212 v379) := fun v212 v379 => decidable_of_iff' _ (Iff.of_eq (k0_chk114.eq_1 v212 v379))
theorem k0_idx114_inb : ∀ (v212 : IVec S16 32) (v379 : IVec S16 32) (k0_hw114 : k0_chk114 v212 v379), ∀ a x, ((![v212, v379] : Fin 2 → IVec S16 32) a x).toNat < S128x64.size a := fun v212 v379 k0_hw114 => k0_hw114
def k0_off952 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_308 : BitVec 32 := 10#32
  let v377 : BitVec 32 := Scalar.muli arg19 c10_i32_308
  let c3_i32_309 : BitVec 32 := 3#32
  let v378 : BitVec 32 := Scalar.addi v377 c3_i32_309
  let v381 : Index := Scalar.indexCast v378
  let c0_310 : Index := 0#32
  ![v381.toNat, 0]
def k0_off953 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_308 : BitVec 32 := 10#32
  let v377 : BitVec 32 := Scalar.muli arg19 c10_i32_308
  let c3_i32_309 : BitVec 32 := 3#32
  let v378 : BitVec 32 := Scalar.addi v377 c3_i32_309
  let v385 : Index := Scalar.indexCast v378
  let c16_311 : Index := 16#32
  ![v385.toNat, 16]
def k0_off954 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_308 : BitVec 32 := 10#32
  let v377 : BitVec 32 := Scalar.muli arg19 c10_i32_308
  let c3_i32_309 : BitVec 32 := 3#32
  let v378 : BitVec 32 := Scalar.addi v377 c3_i32_309
  let v389 : Index := Scalar.indexCast v378
  let c32_312 : Index := 32#32
  ![v389.toNat, 32]
def k0_off955 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_308 : BitVec 32 := 10#32
  let v377 : BitVec 32 := Scalar.muli arg19 c10_i32_308
  let c3_i32_309 : BitVec 32 := 3#32
  let v378 : BitVec 32 := Scalar.addi v377 c3_i32_309
  let v393 : Index := Scalar.indexCast v378
  let c48_313 : Index := 48#32
  ![v393.toNat, 48]
def k0_off956 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_308 : BitVec 32 := 10#32
  let v377 : BitVec 32 := Scalar.muli arg19 c10_i32_308
  let c3_i32_309 : BitVec 32 := 3#32
  let v378 : BitVec 32 := Scalar.addi v377 c3_i32_309
  let v397 : Index := Scalar.indexCast v378
  let c64_314 : Index := 64#32
  ![v397.toNat, 64]
def k0_off957 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_308 : BitVec 32 := 10#32
  let v377 : BitVec 32 := Scalar.muli arg19 c10_i32_308
  let c3_i32_309 : BitVec 32 := 3#32
  let v378 : BitVec 32 := Scalar.addi v377 c3_i32_309
  let v401 : Index := Scalar.indexCast v378
  let c80_315 : Index := 80#32
  ![v401.toNat, 80]
def k0_off958 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_308 : BitVec 32 := 10#32
  let v377 : BitVec 32 := Scalar.muli arg19 c10_i32_308
  let c3_i32_309 : BitVec 32 := 3#32
  let v378 : BitVec 32 := Scalar.addi v377 c3_i32_309
  let v405 : Index := Scalar.indexCast v378
  let c96_316 : Index := 96#32
  ![v405.toNat, 96]
def k0_off959 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_308 : BitVec 32 := 10#32
  let v377 : BitVec 32 := Scalar.muli arg19 c10_i32_308
  let c3_i32_309 : BitVec 32 := 3#32
  let v378 : BitVec 32 := Scalar.addi v377 c3_i32_309
  let v409 : Index := Scalar.indexCast v378
  let c112_317 : Index := 112#32
  ![v409.toNat, 112]

def k0_chk115 (v212 : IVec S16 32) (v415 : IVec S16 32) : Prop :=
  (∀ a x, ((![v212, v415] : Fin 2 → IVec S16 32) a x).toNat < S128x64.size a)
instance k0_chk115.dec : ∀ (v212 : IVec S16 32) (v415 : IVec S16 32), Decidable (k0_chk115 v212 v415) := fun v212 v415 => decidable_of_iff' _ (Iff.of_eq (k0_chk115.eq_1 v212 v415))
theorem k0_idx115_inb : ∀ (v212 : IVec S16 32) (v415 : IVec S16 32) (k0_hw115 : k0_chk115 v212 v415), ∀ a x, ((![v212, v415] : Fin 2 → IVec S16 32) a x).toNat < S128x64.size a := fun v212 v415 k0_hw115 => k0_hw115
def k0_off960 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_318 : BitVec 32 := 10#32
  let v413 : BitVec 32 := Scalar.muli arg19 c10_i32_318
  let c4_i32 : BitVec 32 := 4#32
  let v414 : BitVec 32 := Scalar.addi v413 c4_i32
  let v417 : Index := Scalar.indexCast v414
  let c0_319 : Index := 0#32
  ![v417.toNat, 0]
def k0_off961 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_318 : BitVec 32 := 10#32
  let v413 : BitVec 32 := Scalar.muli arg19 c10_i32_318
  let c4_i32 : BitVec 32 := 4#32
  let v414 : BitVec 32 := Scalar.addi v413 c4_i32
  let v421 : Index := Scalar.indexCast v414
  let c16_320 : Index := 16#32
  ![v421.toNat, 16]
def k0_off962 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_318 : BitVec 32 := 10#32
  let v413 : BitVec 32 := Scalar.muli arg19 c10_i32_318
  let c4_i32 : BitVec 32 := 4#32
  let v414 : BitVec 32 := Scalar.addi v413 c4_i32
  let v425 : Index := Scalar.indexCast v414
  let c32_321 : Index := 32#32
  ![v425.toNat, 32]
def k0_off963 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_318 : BitVec 32 := 10#32
  let v413 : BitVec 32 := Scalar.muli arg19 c10_i32_318
  let c4_i32 : BitVec 32 := 4#32
  let v414 : BitVec 32 := Scalar.addi v413 c4_i32
  let v429 : Index := Scalar.indexCast v414
  let c48_322 : Index := 48#32
  ![v429.toNat, 48]
def k0_off964 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_318 : BitVec 32 := 10#32
  let v413 : BitVec 32 := Scalar.muli arg19 c10_i32_318
  let c4_i32 : BitVec 32 := 4#32
  let v414 : BitVec 32 := Scalar.addi v413 c4_i32
  let v433 : Index := Scalar.indexCast v414
  let c64_323 : Index := 64#32
  ![v433.toNat, 64]
def k0_off965 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_318 : BitVec 32 := 10#32
  let v413 : BitVec 32 := Scalar.muli arg19 c10_i32_318
  let c4_i32 : BitVec 32 := 4#32
  let v414 : BitVec 32 := Scalar.addi v413 c4_i32
  let v437 : Index := Scalar.indexCast v414
  let c80_324 : Index := 80#32
  ![v437.toNat, 80]
def k0_off966 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_318 : BitVec 32 := 10#32
  let v413 : BitVec 32 := Scalar.muli arg19 c10_i32_318
  let c4_i32 : BitVec 32 := 4#32
  let v414 : BitVec 32 := Scalar.addi v413 c4_i32
  let v441 : Index := Scalar.indexCast v414
  let c96_325 : Index := 96#32
  ![v441.toNat, 96]
def k0_off967 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_318 : BitVec 32 := 10#32
  let v413 : BitVec 32 := Scalar.muli arg19 c10_i32_318
  let c4_i32 : BitVec 32 := 4#32
  let v414 : BitVec 32 := Scalar.addi v413 c4_i32
  let v445 : Index := Scalar.indexCast v414
  let c112_326 : Index := 112#32
  ![v445.toNat, 112]

def k0_chk116 (v212 : IVec S16 32) (v451 : IVec S16 32) : Prop :=
  (∀ a x, ((![v212, v451] : Fin 2 → IVec S16 32) a x).toNat < S128x64.size a)
instance k0_chk116.dec : ∀ (v212 : IVec S16 32) (v451 : IVec S16 32), Decidable (k0_chk116 v212 v451) := fun v212 v451 => decidable_of_iff' _ (Iff.of_eq (k0_chk116.eq_1 v212 v451))
theorem k0_idx116_inb : ∀ (v212 : IVec S16 32) (v451 : IVec S16 32) (k0_hw116 : k0_chk116 v212 v451), ∀ a x, ((![v212, v451] : Fin 2 → IVec S16 32) a x).toNat < S128x64.size a := fun v212 v451 k0_hw116 => k0_hw116
def k0_off968 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_327 : BitVec 32 := 10#32
  let v449 : BitVec 32 := Scalar.muli arg19 c10_i32_327
  let c5_i32_328 : BitVec 32 := 5#32
  let v450 : BitVec 32 := Scalar.addi v449 c5_i32_328
  let v453 : Index := Scalar.indexCast v450
  let c0_329 : Index := 0#32
  ![v453.toNat, 0]
def k0_off969 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_327 : BitVec 32 := 10#32
  let v449 : BitVec 32 := Scalar.muli arg19 c10_i32_327
  let c5_i32_328 : BitVec 32 := 5#32
  let v450 : BitVec 32 := Scalar.addi v449 c5_i32_328
  let v457 : Index := Scalar.indexCast v450
  let c16_330 : Index := 16#32
  ![v457.toNat, 16]
def k0_off970 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_327 : BitVec 32 := 10#32
  let v449 : BitVec 32 := Scalar.muli arg19 c10_i32_327
  let c5_i32_328 : BitVec 32 := 5#32
  let v450 : BitVec 32 := Scalar.addi v449 c5_i32_328
  let v461 : Index := Scalar.indexCast v450
  let c32_331 : Index := 32#32
  ![v461.toNat, 32]
def k0_off971 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_327 : BitVec 32 := 10#32
  let v449 : BitVec 32 := Scalar.muli arg19 c10_i32_327
  let c5_i32_328 : BitVec 32 := 5#32
  let v450 : BitVec 32 := Scalar.addi v449 c5_i32_328
  let v465 : Index := Scalar.indexCast v450
  let c48_332 : Index := 48#32
  ![v465.toNat, 48]
def k0_off972 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_327 : BitVec 32 := 10#32
  let v449 : BitVec 32 := Scalar.muli arg19 c10_i32_327
  let c5_i32_328 : BitVec 32 := 5#32
  let v450 : BitVec 32 := Scalar.addi v449 c5_i32_328
  let v469 : Index := Scalar.indexCast v450
  let c64_333 : Index := 64#32
  ![v469.toNat, 64]
def k0_off973 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_327 : BitVec 32 := 10#32
  let v449 : BitVec 32 := Scalar.muli arg19 c10_i32_327
  let c5_i32_328 : BitVec 32 := 5#32
  let v450 : BitVec 32 := Scalar.addi v449 c5_i32_328
  let v473 : Index := Scalar.indexCast v450
  let c80_334 : Index := 80#32
  ![v473.toNat, 80]
def k0_off974 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_327 : BitVec 32 := 10#32
  let v449 : BitVec 32 := Scalar.muli arg19 c10_i32_327
  let c5_i32_328 : BitVec 32 := 5#32
  let v450 : BitVec 32 := Scalar.addi v449 c5_i32_328
  let v477 : Index := Scalar.indexCast v450
  let c96_335 : Index := 96#32
  ![v477.toNat, 96]
def k0_off975 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_327 : BitVec 32 := 10#32
  let v449 : BitVec 32 := Scalar.muli arg19 c10_i32_327
  let c5_i32_328 : BitVec 32 := 5#32
  let v450 : BitVec 32 := Scalar.addi v449 c5_i32_328
  let v481 : Index := Scalar.indexCast v450
  let c112_336 : Index := 112#32
  ![v481.toNat, 112]

def k0_chk117 (v212 : IVec S16 32) (v487 : IVec S16 32) : Prop :=
  (∀ a x, ((![v212, v487] : Fin 2 → IVec S16 32) a x).toNat < S128x64.size a)
instance k0_chk117.dec : ∀ (v212 : IVec S16 32) (v487 : IVec S16 32), Decidable (k0_chk117 v212 v487) := fun v212 v487 => decidable_of_iff' _ (Iff.of_eq (k0_chk117.eq_1 v212 v487))
theorem k0_idx117_inb : ∀ (v212 : IVec S16 32) (v487 : IVec S16 32) (k0_hw117 : k0_chk117 v212 v487), ∀ a x, ((![v212, v487] : Fin 2 → IVec S16 32) a x).toNat < S128x64.size a := fun v212 v487 k0_hw117 => k0_hw117
def k0_off976 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_337 : BitVec 32 := 10#32
  let v485 : BitVec 32 := Scalar.muli arg19 c10_i32_337
  let c6_i32 : BitVec 32 := 6#32
  let v486 : BitVec 32 := Scalar.addi v485 c6_i32
  let v489 : Index := Scalar.indexCast v486
  let c0_338 : Index := 0#32
  ![v489.toNat, 0]
def k0_off977 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_337 : BitVec 32 := 10#32
  let v485 : BitVec 32 := Scalar.muli arg19 c10_i32_337
  let c6_i32 : BitVec 32 := 6#32
  let v486 : BitVec 32 := Scalar.addi v485 c6_i32
  let v493 : Index := Scalar.indexCast v486
  let c16_339 : Index := 16#32
  ![v493.toNat, 16]
def k0_off978 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_337 : BitVec 32 := 10#32
  let v485 : BitVec 32 := Scalar.muli arg19 c10_i32_337
  let c6_i32 : BitVec 32 := 6#32
  let v486 : BitVec 32 := Scalar.addi v485 c6_i32
  let v497 : Index := Scalar.indexCast v486
  let c32_340 : Index := 32#32
  ![v497.toNat, 32]
def k0_off979 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_337 : BitVec 32 := 10#32
  let v485 : BitVec 32 := Scalar.muli arg19 c10_i32_337
  let c6_i32 : BitVec 32 := 6#32
  let v486 : BitVec 32 := Scalar.addi v485 c6_i32
  let v501 : Index := Scalar.indexCast v486
  let c48_341 : Index := 48#32
  ![v501.toNat, 48]
def k0_off980 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_337 : BitVec 32 := 10#32
  let v485 : BitVec 32 := Scalar.muli arg19 c10_i32_337
  let c6_i32 : BitVec 32 := 6#32
  let v486 : BitVec 32 := Scalar.addi v485 c6_i32
  let v505 : Index := Scalar.indexCast v486
  let c64_342 : Index := 64#32
  ![v505.toNat, 64]
def k0_off981 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_337 : BitVec 32 := 10#32
  let v485 : BitVec 32 := Scalar.muli arg19 c10_i32_337
  let c6_i32 : BitVec 32 := 6#32
  let v486 : BitVec 32 := Scalar.addi v485 c6_i32
  let v509 : Index := Scalar.indexCast v486
  let c80_343 : Index := 80#32
  ![v509.toNat, 80]
def k0_off982 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_337 : BitVec 32 := 10#32
  let v485 : BitVec 32 := Scalar.muli arg19 c10_i32_337
  let c6_i32 : BitVec 32 := 6#32
  let v486 : BitVec 32 := Scalar.addi v485 c6_i32
  let v513 : Index := Scalar.indexCast v486
  let c96_344 : Index := 96#32
  ![v513.toNat, 96]
def k0_off983 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_337 : BitVec 32 := 10#32
  let v485 : BitVec 32 := Scalar.muli arg19 c10_i32_337
  let c6_i32 : BitVec 32 := 6#32
  let v486 : BitVec 32 := Scalar.addi v485 c6_i32
  let v517 : Index := Scalar.indexCast v486
  let c112_345 : Index := 112#32
  ![v517.toNat, 112]

def k0_chk118 (v212 : IVec S16 32) (v523 : IVec S16 32) : Prop :=
  (∀ a x, ((![v212, v523] : Fin 2 → IVec S16 32) a x).toNat < S128x64.size a)
instance k0_chk118.dec : ∀ (v212 : IVec S16 32) (v523 : IVec S16 32), Decidable (k0_chk118 v212 v523) := fun v212 v523 => decidable_of_iff' _ (Iff.of_eq (k0_chk118.eq_1 v212 v523))
theorem k0_idx118_inb : ∀ (v212 : IVec S16 32) (v523 : IVec S16 32) (k0_hw118 : k0_chk118 v212 v523), ∀ a x, ((![v212, v523] : Fin 2 → IVec S16 32) a x).toNat < S128x64.size a := fun v212 v523 k0_hw118 => k0_hw118
def k0_off984 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_346 : BitVec 32 := 10#32
  let v521 : BitVec 32 := Scalar.muli arg19 c10_i32_346
  let c7_i32 : BitVec 32 := 7#32
  let v522 : BitVec 32 := Scalar.addi v521 c7_i32
  let v525 : Index := Scalar.indexCast v522
  let c0_347 : Index := 0#32
  ![v525.toNat, 0]
def k0_off985 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_346 : BitVec 32 := 10#32
  let v521 : BitVec 32 := Scalar.muli arg19 c10_i32_346
  let c7_i32 : BitVec 32 := 7#32
  let v522 : BitVec 32 := Scalar.addi v521 c7_i32
  let v529 : Index := Scalar.indexCast v522
  let c16_348 : Index := 16#32
  ![v529.toNat, 16]
def k0_off986 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_346 : BitVec 32 := 10#32
  let v521 : BitVec 32 := Scalar.muli arg19 c10_i32_346
  let c7_i32 : BitVec 32 := 7#32
  let v522 : BitVec 32 := Scalar.addi v521 c7_i32
  let v533 : Index := Scalar.indexCast v522
  let c32_349 : Index := 32#32
  ![v533.toNat, 32]
def k0_off987 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_346 : BitVec 32 := 10#32
  let v521 : BitVec 32 := Scalar.muli arg19 c10_i32_346
  let c7_i32 : BitVec 32 := 7#32
  let v522 : BitVec 32 := Scalar.addi v521 c7_i32
  let v537 : Index := Scalar.indexCast v522
  let c48_350 : Index := 48#32
  ![v537.toNat, 48]
def k0_off988 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_346 : BitVec 32 := 10#32
  let v521 : BitVec 32 := Scalar.muli arg19 c10_i32_346
  let c7_i32 : BitVec 32 := 7#32
  let v522 : BitVec 32 := Scalar.addi v521 c7_i32
  let v541 : Index := Scalar.indexCast v522
  let c64_351 : Index := 64#32
  ![v541.toNat, 64]
def k0_off989 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_346 : BitVec 32 := 10#32
  let v521 : BitVec 32 := Scalar.muli arg19 c10_i32_346
  let c7_i32 : BitVec 32 := 7#32
  let v522 : BitVec 32 := Scalar.addi v521 c7_i32
  let v545 : Index := Scalar.indexCast v522
  let c80_352 : Index := 80#32
  ![v545.toNat, 80]
def k0_off990 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_346 : BitVec 32 := 10#32
  let v521 : BitVec 32 := Scalar.muli arg19 c10_i32_346
  let c7_i32 : BitVec 32 := 7#32
  let v522 : BitVec 32 := Scalar.addi v521 c7_i32
  let v549 : Index := Scalar.indexCast v522
  let c96_353 : Index := 96#32
  ![v549.toNat, 96]
def k0_off991 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_346 : BitVec 32 := 10#32
  let v521 : BitVec 32 := Scalar.muli arg19 c10_i32_346
  let c7_i32 : BitVec 32 := 7#32
  let v522 : BitVec 32 := Scalar.addi v521 c7_i32
  let v553 : Index := Scalar.indexCast v522
  let c112_354 : Index := 112#32
  ![v553.toNat, 112]

def k0_chk119 (v212 : IVec S16 32) (v559 : IVec S16 32) : Prop :=
  (∀ a x, ((![v212, v559] : Fin 2 → IVec S16 32) a x).toNat < S128x64.size a)
instance k0_chk119.dec : ∀ (v212 : IVec S16 32) (v559 : IVec S16 32), Decidable (k0_chk119 v212 v559) := fun v212 v559 => decidable_of_iff' _ (Iff.of_eq (k0_chk119.eq_1 v212 v559))
theorem k0_idx119_inb : ∀ (v212 : IVec S16 32) (v559 : IVec S16 32) (k0_hw119 : k0_chk119 v212 v559), ∀ a x, ((![v212, v559] : Fin 2 → IVec S16 32) a x).toNat < S128x64.size a := fun v212 v559 k0_hw119 => k0_hw119
def k0_off992 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_355 : BitVec 32 := 10#32
  let v557 : BitVec 32 := Scalar.muli arg19 c10_i32_355
  let c8_i32 : BitVec 32 := 8#32
  let v558 : BitVec 32 := Scalar.addi v557 c8_i32
  let v561 : Index := Scalar.indexCast v558
  let c0_356 : Index := 0#32
  ![v561.toNat, 0]
def k0_off993 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_355 : BitVec 32 := 10#32
  let v557 : BitVec 32 := Scalar.muli arg19 c10_i32_355
  let c8_i32 : BitVec 32 := 8#32
  let v558 : BitVec 32 := Scalar.addi v557 c8_i32
  let v565 : Index := Scalar.indexCast v558
  let c16_357 : Index := 16#32
  ![v565.toNat, 16]
def k0_off994 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_355 : BitVec 32 := 10#32
  let v557 : BitVec 32 := Scalar.muli arg19 c10_i32_355
  let c8_i32 : BitVec 32 := 8#32
  let v558 : BitVec 32 := Scalar.addi v557 c8_i32
  let v569 : Index := Scalar.indexCast v558
  let c32_358 : Index := 32#32
  ![v569.toNat, 32]
def k0_off995 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_355 : BitVec 32 := 10#32
  let v557 : BitVec 32 := Scalar.muli arg19 c10_i32_355
  let c8_i32 : BitVec 32 := 8#32
  let v558 : BitVec 32 := Scalar.addi v557 c8_i32
  let v573 : Index := Scalar.indexCast v558
  let c48_359 : Index := 48#32
  ![v573.toNat, 48]
def k0_off996 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_355 : BitVec 32 := 10#32
  let v557 : BitVec 32 := Scalar.muli arg19 c10_i32_355
  let c8_i32 : BitVec 32 := 8#32
  let v558 : BitVec 32 := Scalar.addi v557 c8_i32
  let v577 : Index := Scalar.indexCast v558
  let c64_360 : Index := 64#32
  ![v577.toNat, 64]
def k0_off997 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_355 : BitVec 32 := 10#32
  let v557 : BitVec 32 := Scalar.muli arg19 c10_i32_355
  let c8_i32 : BitVec 32 := 8#32
  let v558 : BitVec 32 := Scalar.addi v557 c8_i32
  let v581 : Index := Scalar.indexCast v558
  let c80_361 : Index := 80#32
  ![v581.toNat, 80]
def k0_off998 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_355 : BitVec 32 := 10#32
  let v557 : BitVec 32 := Scalar.muli arg19 c10_i32_355
  let c8_i32 : BitVec 32 := 8#32
  let v558 : BitVec 32 := Scalar.addi v557 c8_i32
  let v585 : Index := Scalar.indexCast v558
  let c96_362 : Index := 96#32
  ![v585.toNat, 96]
def k0_off999 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_355 : BitVec 32 := 10#32
  let v557 : BitVec 32 := Scalar.muli arg19 c10_i32_355
  let c8_i32 : BitVec 32 := 8#32
  let v558 : BitVec 32 := Scalar.addi v557 c8_i32
  let v589 : Index := Scalar.indexCast v558
  let c112_363 : Index := 112#32
  ![v589.toNat, 112]

def k0_chk120 (v212 : IVec S16 32) (v595 : IVec S16 32) : Prop :=
  (∀ a x, ((![v212, v595] : Fin 2 → IVec S16 32) a x).toNat < S128x64.size a)
instance k0_chk120.dec : ∀ (v212 : IVec S16 32) (v595 : IVec S16 32), Decidable (k0_chk120 v212 v595) := fun v212 v595 => decidable_of_iff' _ (Iff.of_eq (k0_chk120.eq_1 v212 v595))
theorem k0_idx120_inb : ∀ (v212 : IVec S16 32) (v595 : IVec S16 32) (k0_hw120 : k0_chk120 v212 v595), ∀ a x, ((![v212, v595] : Fin 2 → IVec S16 32) a x).toNat < S128x64.size a := fun v212 v595 k0_hw120 => k0_hw120
def k0_off1000 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_364 : BitVec 32 := 10#32
  let v593 : BitVec 32 := Scalar.muli arg19 c10_i32_364
  let c9_i32 : BitVec 32 := 9#32
  let v594 : BitVec 32 := Scalar.addi v593 c9_i32
  let v597 : Index := Scalar.indexCast v594
  let c0_365 : Index := 0#32
  ![v597.toNat, 0]
def k0_off1001 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_364 : BitVec 32 := 10#32
  let v593 : BitVec 32 := Scalar.muli arg19 c10_i32_364
  let c9_i32 : BitVec 32 := 9#32
  let v594 : BitVec 32 := Scalar.addi v593 c9_i32
  let v601 : Index := Scalar.indexCast v594
  let c16_366 : Index := 16#32
  ![v601.toNat, 16]
def k0_off1002 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_364 : BitVec 32 := 10#32
  let v593 : BitVec 32 := Scalar.muli arg19 c10_i32_364
  let c9_i32 : BitVec 32 := 9#32
  let v594 : BitVec 32 := Scalar.addi v593 c9_i32
  let v605 : Index := Scalar.indexCast v594
  let c32_367 : Index := 32#32
  ![v605.toNat, 32]
def k0_off1003 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_364 : BitVec 32 := 10#32
  let v593 : BitVec 32 := Scalar.muli arg19 c10_i32_364
  let c9_i32 : BitVec 32 := 9#32
  let v594 : BitVec 32 := Scalar.addi v593 c9_i32
  let v609 : Index := Scalar.indexCast v594
  let c48_368 : Index := 48#32
  ![v609.toNat, 48]
def k0_off1004 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_364 : BitVec 32 := 10#32
  let v593 : BitVec 32 := Scalar.muli arg19 c10_i32_364
  let c9_i32 : BitVec 32 := 9#32
  let v594 : BitVec 32 := Scalar.addi v593 c9_i32
  let v613 : Index := Scalar.indexCast v594
  let c64_369 : Index := 64#32
  ![v613.toNat, 64]
def k0_off1005 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_364 : BitVec 32 := 10#32
  let v593 : BitVec 32 := Scalar.muli arg19 c10_i32_364
  let c9_i32 : BitVec 32 := 9#32
  let v594 : BitVec 32 := Scalar.addi v593 c9_i32
  let v617 : Index := Scalar.indexCast v594
  let c80_370 : Index := 80#32
  ![v617.toNat, 80]
def k0_off1006 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_364 : BitVec 32 := 10#32
  let v593 : BitVec 32 := Scalar.muli arg19 c10_i32_364
  let c9_i32 : BitVec 32 := 9#32
  let v594 : BitVec 32 := Scalar.addi v593 c9_i32
  let v621 : Index := Scalar.indexCast v594
  let c96_371 : Index := 96#32
  ![v621.toNat, 96]
def k0_off1007 (k0_t13 : Fin k0_t13_loop.trips) : Fin 2 → Nat :=
  let c0_i32_226 : BitVec 32 := 0#32
  let c1_i32_228 : BitVec 32 := 1#32
  let arg19 : BitVec 32 := Scf.iv c0_i32_226 c1_i32_228 k0_t13
  let c10_i32_364 : BitVec 32 := 10#32
  let v593 : BitVec 32 := Scalar.muli arg19 c10_i32_364
  let c9_i32 : BitVec 32 := 9#32
  let v594 : BitVec 32 := Scalar.addi v593 c9_i32
  let v625 : Index := Scalar.indexCast v594
  let c112_372 : Index := 112#32
  ![v625.toNat, 112]
@[reducible] def k0_t14_loop : Scf.Loop 32 :=
  let c0_i32_259 : BitVec 32 := 0#32
  let c5_i32_260 : BitVec 32 := 5#32
  let v251 : BitVec 32 := Scalar.addi c0_i32_259 c5_i32_260
  let c1_i32_261 : BitVec 32 := 1#32
  ⟨c0_i32_259, v251, c1_i32_261⟩

def k0_chk121 (v242 : IVec S16 32) (v271 : IVec S16 32) : Prop :=
  (∀ a x, ((![v242, v271] : Fin 2 → IVec S16 32) a x).toNat < S128x64.size a)
instance k0_chk121.dec : ∀ (v242 : IVec S16 32) (v271 : IVec S16 32), Decidable (k0_chk121 v242 v271) := fun v242 v271 => decidable_of_iff' _ (Iff.of_eq (k0_chk121.eq_1 v242 v271))
theorem k0_idx121_inb : ∀ (v242 : IVec S16 32) (v271 : IVec S16 32) (k0_hw121 : k0_chk121 v242 v271), ∀ a x, ((![v242, v271] : Fin 2 → IVec S16 32) a x).toNat < S128x64.size a := fun v242 v271 k0_hw121 => k0_hw121
def k0_off1008 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32 : BitVec 32 := 10#32
  let v269 : BitVec 32 := Scalar.muli arg19 c10_i32
  let c0_i32_279 : BitVec 32 := 0#32
  let v270 : BitVec 32 := Scalar.addi v269 c0_i32_279
  let v273 : Index := Scalar.indexCast v270
  let c0_280 : Index := 0#32
  ![v273.toNat, 0]
def k0_off1009 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32 : BitVec 32 := 10#32
  let v269 : BitVec 32 := Scalar.muli arg19 c10_i32
  let c0_i32_279 : BitVec 32 := 0#32
  let v270 : BitVec 32 := Scalar.addi v269 c0_i32_279
  let v277 : Index := Scalar.indexCast v270
  let c16_281 : Index := 16#32
  ![v277.toNat, 16]
def k0_off1010 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32 : BitVec 32 := 10#32
  let v269 : BitVec 32 := Scalar.muli arg19 c10_i32
  let c0_i32_279 : BitVec 32 := 0#32
  let v270 : BitVec 32 := Scalar.addi v269 c0_i32_279
  let v281 : Index := Scalar.indexCast v270
  let c32_282 : Index := 32#32
  ![v281.toNat, 32]
def k0_off1011 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32 : BitVec 32 := 10#32
  let v269 : BitVec 32 := Scalar.muli arg19 c10_i32
  let c0_i32_279 : BitVec 32 := 0#32
  let v270 : BitVec 32 := Scalar.addi v269 c0_i32_279
  let v285 : Index := Scalar.indexCast v270
  let c48_283 : Index := 48#32
  ![v285.toNat, 48]
def k0_off1012 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32 : BitVec 32 := 10#32
  let v269 : BitVec 32 := Scalar.muli arg19 c10_i32
  let c0_i32_279 : BitVec 32 := 0#32
  let v270 : BitVec 32 := Scalar.addi v269 c0_i32_279
  let v289 : Index := Scalar.indexCast v270
  let c64_284 : Index := 64#32
  ![v289.toNat, 64]
def k0_off1013 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32 : BitVec 32 := 10#32
  let v269 : BitVec 32 := Scalar.muli arg19 c10_i32
  let c0_i32_279 : BitVec 32 := 0#32
  let v270 : BitVec 32 := Scalar.addi v269 c0_i32_279
  let v293 : Index := Scalar.indexCast v270
  let c80_285 : Index := 80#32
  ![v293.toNat, 80]
def k0_off1014 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32 : BitVec 32 := 10#32
  let v269 : BitVec 32 := Scalar.muli arg19 c10_i32
  let c0_i32_279 : BitVec 32 := 0#32
  let v270 : BitVec 32 := Scalar.addi v269 c0_i32_279
  let v297 : Index := Scalar.indexCast v270
  let c96_286 : Index := 96#32
  ![v297.toNat, 96]
def k0_off1015 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32 : BitVec 32 := 10#32
  let v269 : BitVec 32 := Scalar.muli arg19 c10_i32
  let c0_i32_279 : BitVec 32 := 0#32
  let v270 : BitVec 32 := Scalar.addi v269 c0_i32_279
  let v301 : Index := Scalar.indexCast v270
  let c112_287 : Index := 112#32
  ![v301.toNat, 112]

def k0_chk122 (v242 : IVec S16 32) (v307 : IVec S16 32) : Prop :=
  (∀ a x, ((![v242, v307] : Fin 2 → IVec S16 32) a x).toNat < S128x64.size a)
instance k0_chk122.dec : ∀ (v242 : IVec S16 32) (v307 : IVec S16 32), Decidable (k0_chk122 v242 v307) := fun v242 v307 => decidable_of_iff' _ (Iff.of_eq (k0_chk122.eq_1 v242 v307))
theorem k0_idx122_inb : ∀ (v242 : IVec S16 32) (v307 : IVec S16 32) (k0_hw122 : k0_chk122 v242 v307), ∀ a x, ((![v242, v307] : Fin 2 → IVec S16 32) a x).toNat < S128x64.size a := fun v242 v307 k0_hw122 => k0_hw122
def k0_off1016 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_288 : BitVec 32 := 10#32
  let v305 : BitVec 32 := Scalar.muli arg19 c10_i32_288
  let c1_i32_289 : BitVec 32 := 1#32
  let v306 : BitVec 32 := Scalar.addi v305 c1_i32_289
  let v309 : Index := Scalar.indexCast v306
  let c0_290 : Index := 0#32
  ![v309.toNat, 0]
def k0_off1017 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_288 : BitVec 32 := 10#32
  let v305 : BitVec 32 := Scalar.muli arg19 c10_i32_288
  let c1_i32_289 : BitVec 32 := 1#32
  let v306 : BitVec 32 := Scalar.addi v305 c1_i32_289
  let v313 : Index := Scalar.indexCast v306
  let c16_291 : Index := 16#32
  ![v313.toNat, 16]
def k0_off1018 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_288 : BitVec 32 := 10#32
  let v305 : BitVec 32 := Scalar.muli arg19 c10_i32_288
  let c1_i32_289 : BitVec 32 := 1#32
  let v306 : BitVec 32 := Scalar.addi v305 c1_i32_289
  let v317 : Index := Scalar.indexCast v306
  let c32_292 : Index := 32#32
  ![v317.toNat, 32]
def k0_off1019 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_288 : BitVec 32 := 10#32
  let v305 : BitVec 32 := Scalar.muli arg19 c10_i32_288
  let c1_i32_289 : BitVec 32 := 1#32
  let v306 : BitVec 32 := Scalar.addi v305 c1_i32_289
  let v321 : Index := Scalar.indexCast v306
  let c48_293 : Index := 48#32
  ![v321.toNat, 48]
def k0_off1020 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_288 : BitVec 32 := 10#32
  let v305 : BitVec 32 := Scalar.muli arg19 c10_i32_288
  let c1_i32_289 : BitVec 32 := 1#32
  let v306 : BitVec 32 := Scalar.addi v305 c1_i32_289
  let v325 : Index := Scalar.indexCast v306
  let c64_294 : Index := 64#32
  ![v325.toNat, 64]
def k0_off1021 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_288 : BitVec 32 := 10#32
  let v305 : BitVec 32 := Scalar.muli arg19 c10_i32_288
  let c1_i32_289 : BitVec 32 := 1#32
  let v306 : BitVec 32 := Scalar.addi v305 c1_i32_289
  let v329 : Index := Scalar.indexCast v306
  let c80_295 : Index := 80#32
  ![v329.toNat, 80]
def k0_off1022 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_288 : BitVec 32 := 10#32
  let v305 : BitVec 32 := Scalar.muli arg19 c10_i32_288
  let c1_i32_289 : BitVec 32 := 1#32
  let v306 : BitVec 32 := Scalar.addi v305 c1_i32_289
  let v333 : Index := Scalar.indexCast v306
  let c96_296 : Index := 96#32
  ![v333.toNat, 96]
def k0_off1023 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_288 : BitVec 32 := 10#32
  let v305 : BitVec 32 := Scalar.muli arg19 c10_i32_288
  let c1_i32_289 : BitVec 32 := 1#32
  let v306 : BitVec 32 := Scalar.addi v305 c1_i32_289
  let v337 : Index := Scalar.indexCast v306
  let c112_297 : Index := 112#32
  ![v337.toNat, 112]

def k0_chk123 (v242 : IVec S16 32) (v343 : IVec S16 32) : Prop :=
  (∀ a x, ((![v242, v343] : Fin 2 → IVec S16 32) a x).toNat < S128x64.size a)
instance k0_chk123.dec : ∀ (v242 : IVec S16 32) (v343 : IVec S16 32), Decidable (k0_chk123 v242 v343) := fun v242 v343 => decidable_of_iff' _ (Iff.of_eq (k0_chk123.eq_1 v242 v343))
theorem k0_idx123_inb : ∀ (v242 : IVec S16 32) (v343 : IVec S16 32) (k0_hw123 : k0_chk123 v242 v343), ∀ a x, ((![v242, v343] : Fin 2 → IVec S16 32) a x).toNat < S128x64.size a := fun v242 v343 k0_hw123 => k0_hw123
def k0_off1024 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_298 : BitVec 32 := 10#32
  let v341 : BitVec 32 := Scalar.muli arg19 c10_i32_298
  let c2_i32_299 : BitVec 32 := 2#32
  let v342 : BitVec 32 := Scalar.addi v341 c2_i32_299
  let v345 : Index := Scalar.indexCast v342
  let c0_300 : Index := 0#32
  ![v345.toNat, 0]
def k0_off1025 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_298 : BitVec 32 := 10#32
  let v341 : BitVec 32 := Scalar.muli arg19 c10_i32_298
  let c2_i32_299 : BitVec 32 := 2#32
  let v342 : BitVec 32 := Scalar.addi v341 c2_i32_299
  let v349 : Index := Scalar.indexCast v342
  let c16_301 : Index := 16#32
  ![v349.toNat, 16]
def k0_off1026 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_298 : BitVec 32 := 10#32
  let v341 : BitVec 32 := Scalar.muli arg19 c10_i32_298
  let c2_i32_299 : BitVec 32 := 2#32
  let v342 : BitVec 32 := Scalar.addi v341 c2_i32_299
  let v353 : Index := Scalar.indexCast v342
  let c32_302 : Index := 32#32
  ![v353.toNat, 32]
def k0_off1027 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_298 : BitVec 32 := 10#32
  let v341 : BitVec 32 := Scalar.muli arg19 c10_i32_298
  let c2_i32_299 : BitVec 32 := 2#32
  let v342 : BitVec 32 := Scalar.addi v341 c2_i32_299
  let v357 : Index := Scalar.indexCast v342
  let c48_303 : Index := 48#32
  ![v357.toNat, 48]
def k0_off1028 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_298 : BitVec 32 := 10#32
  let v341 : BitVec 32 := Scalar.muli arg19 c10_i32_298
  let c2_i32_299 : BitVec 32 := 2#32
  let v342 : BitVec 32 := Scalar.addi v341 c2_i32_299
  let v361 : Index := Scalar.indexCast v342
  let c64_304 : Index := 64#32
  ![v361.toNat, 64]
def k0_off1029 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_298 : BitVec 32 := 10#32
  let v341 : BitVec 32 := Scalar.muli arg19 c10_i32_298
  let c2_i32_299 : BitVec 32 := 2#32
  let v342 : BitVec 32 := Scalar.addi v341 c2_i32_299
  let v365 : Index := Scalar.indexCast v342
  let c80_305 : Index := 80#32
  ![v365.toNat, 80]
def k0_off1030 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_298 : BitVec 32 := 10#32
  let v341 : BitVec 32 := Scalar.muli arg19 c10_i32_298
  let c2_i32_299 : BitVec 32 := 2#32
  let v342 : BitVec 32 := Scalar.addi v341 c2_i32_299
  let v369 : Index := Scalar.indexCast v342
  let c96_306 : Index := 96#32
  ![v369.toNat, 96]
def k0_off1031 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_298 : BitVec 32 := 10#32
  let v341 : BitVec 32 := Scalar.muli arg19 c10_i32_298
  let c2_i32_299 : BitVec 32 := 2#32
  let v342 : BitVec 32 := Scalar.addi v341 c2_i32_299
  let v373 : Index := Scalar.indexCast v342
  let c112_307 : Index := 112#32
  ![v373.toNat, 112]

def k0_chk124 (v242 : IVec S16 32) (v379 : IVec S16 32) : Prop :=
  (∀ a x, ((![v242, v379] : Fin 2 → IVec S16 32) a x).toNat < S128x64.size a)
instance k0_chk124.dec : ∀ (v242 : IVec S16 32) (v379 : IVec S16 32), Decidable (k0_chk124 v242 v379) := fun v242 v379 => decidable_of_iff' _ (Iff.of_eq (k0_chk124.eq_1 v242 v379))
theorem k0_idx124_inb : ∀ (v242 : IVec S16 32) (v379 : IVec S16 32) (k0_hw124 : k0_chk124 v242 v379), ∀ a x, ((![v242, v379] : Fin 2 → IVec S16 32) a x).toNat < S128x64.size a := fun v242 v379 k0_hw124 => k0_hw124
def k0_off1032 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_308 : BitVec 32 := 10#32
  let v377 : BitVec 32 := Scalar.muli arg19 c10_i32_308
  let c3_i32_309 : BitVec 32 := 3#32
  let v378 : BitVec 32 := Scalar.addi v377 c3_i32_309
  let v381 : Index := Scalar.indexCast v378
  let c0_310 : Index := 0#32
  ![v381.toNat, 0]
def k0_off1033 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_308 : BitVec 32 := 10#32
  let v377 : BitVec 32 := Scalar.muli arg19 c10_i32_308
  let c3_i32_309 : BitVec 32 := 3#32
  let v378 : BitVec 32 := Scalar.addi v377 c3_i32_309
  let v385 : Index := Scalar.indexCast v378
  let c16_311 : Index := 16#32
  ![v385.toNat, 16]
def k0_off1034 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_308 : BitVec 32 := 10#32
  let v377 : BitVec 32 := Scalar.muli arg19 c10_i32_308
  let c3_i32_309 : BitVec 32 := 3#32
  let v378 : BitVec 32 := Scalar.addi v377 c3_i32_309
  let v389 : Index := Scalar.indexCast v378
  let c32_312 : Index := 32#32
  ![v389.toNat, 32]
def k0_off1035 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_308 : BitVec 32 := 10#32
  let v377 : BitVec 32 := Scalar.muli arg19 c10_i32_308
  let c3_i32_309 : BitVec 32 := 3#32
  let v378 : BitVec 32 := Scalar.addi v377 c3_i32_309
  let v393 : Index := Scalar.indexCast v378
  let c48_313 : Index := 48#32
  ![v393.toNat, 48]
def k0_off1036 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_308 : BitVec 32 := 10#32
  let v377 : BitVec 32 := Scalar.muli arg19 c10_i32_308
  let c3_i32_309 : BitVec 32 := 3#32
  let v378 : BitVec 32 := Scalar.addi v377 c3_i32_309
  let v397 : Index := Scalar.indexCast v378
  let c64_314 : Index := 64#32
  ![v397.toNat, 64]
def k0_off1037 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_308 : BitVec 32 := 10#32
  let v377 : BitVec 32 := Scalar.muli arg19 c10_i32_308
  let c3_i32_309 : BitVec 32 := 3#32
  let v378 : BitVec 32 := Scalar.addi v377 c3_i32_309
  let v401 : Index := Scalar.indexCast v378
  let c80_315 : Index := 80#32
  ![v401.toNat, 80]
def k0_off1038 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_308 : BitVec 32 := 10#32
  let v377 : BitVec 32 := Scalar.muli arg19 c10_i32_308
  let c3_i32_309 : BitVec 32 := 3#32
  let v378 : BitVec 32 := Scalar.addi v377 c3_i32_309
  let v405 : Index := Scalar.indexCast v378
  let c96_316 : Index := 96#32
  ![v405.toNat, 96]
def k0_off1039 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_308 : BitVec 32 := 10#32
  let v377 : BitVec 32 := Scalar.muli arg19 c10_i32_308
  let c3_i32_309 : BitVec 32 := 3#32
  let v378 : BitVec 32 := Scalar.addi v377 c3_i32_309
  let v409 : Index := Scalar.indexCast v378
  let c112_317 : Index := 112#32
  ![v409.toNat, 112]

def k0_chk125 (v242 : IVec S16 32) (v415 : IVec S16 32) : Prop :=
  (∀ a x, ((![v242, v415] : Fin 2 → IVec S16 32) a x).toNat < S128x64.size a)
instance k0_chk125.dec : ∀ (v242 : IVec S16 32) (v415 : IVec S16 32), Decidable (k0_chk125 v242 v415) := fun v242 v415 => decidable_of_iff' _ (Iff.of_eq (k0_chk125.eq_1 v242 v415))
theorem k0_idx125_inb : ∀ (v242 : IVec S16 32) (v415 : IVec S16 32) (k0_hw125 : k0_chk125 v242 v415), ∀ a x, ((![v242, v415] : Fin 2 → IVec S16 32) a x).toNat < S128x64.size a := fun v242 v415 k0_hw125 => k0_hw125
def k0_off1040 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_318 : BitVec 32 := 10#32
  let v413 : BitVec 32 := Scalar.muli arg19 c10_i32_318
  let c4_i32 : BitVec 32 := 4#32
  let v414 : BitVec 32 := Scalar.addi v413 c4_i32
  let v417 : Index := Scalar.indexCast v414
  let c0_319 : Index := 0#32
  ![v417.toNat, 0]
def k0_off1041 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_318 : BitVec 32 := 10#32
  let v413 : BitVec 32 := Scalar.muli arg19 c10_i32_318
  let c4_i32 : BitVec 32 := 4#32
  let v414 : BitVec 32 := Scalar.addi v413 c4_i32
  let v421 : Index := Scalar.indexCast v414
  let c16_320 : Index := 16#32
  ![v421.toNat, 16]
def k0_off1042 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_318 : BitVec 32 := 10#32
  let v413 : BitVec 32 := Scalar.muli arg19 c10_i32_318
  let c4_i32 : BitVec 32 := 4#32
  let v414 : BitVec 32 := Scalar.addi v413 c4_i32
  let v425 : Index := Scalar.indexCast v414
  let c32_321 : Index := 32#32
  ![v425.toNat, 32]
def k0_off1043 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_318 : BitVec 32 := 10#32
  let v413 : BitVec 32 := Scalar.muli arg19 c10_i32_318
  let c4_i32 : BitVec 32 := 4#32
  let v414 : BitVec 32 := Scalar.addi v413 c4_i32
  let v429 : Index := Scalar.indexCast v414
  let c48_322 : Index := 48#32
  ![v429.toNat, 48]
def k0_off1044 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_318 : BitVec 32 := 10#32
  let v413 : BitVec 32 := Scalar.muli arg19 c10_i32_318
  let c4_i32 : BitVec 32 := 4#32
  let v414 : BitVec 32 := Scalar.addi v413 c4_i32
  let v433 : Index := Scalar.indexCast v414
  let c64_323 : Index := 64#32
  ![v433.toNat, 64]
def k0_off1045 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_318 : BitVec 32 := 10#32
  let v413 : BitVec 32 := Scalar.muli arg19 c10_i32_318
  let c4_i32 : BitVec 32 := 4#32
  let v414 : BitVec 32 := Scalar.addi v413 c4_i32
  let v437 : Index := Scalar.indexCast v414
  let c80_324 : Index := 80#32
  ![v437.toNat, 80]
def k0_off1046 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_318 : BitVec 32 := 10#32
  let v413 : BitVec 32 := Scalar.muli arg19 c10_i32_318
  let c4_i32 : BitVec 32 := 4#32
  let v414 : BitVec 32 := Scalar.addi v413 c4_i32
  let v441 : Index := Scalar.indexCast v414
  let c96_325 : Index := 96#32
  ![v441.toNat, 96]
def k0_off1047 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_318 : BitVec 32 := 10#32
  let v413 : BitVec 32 := Scalar.muli arg19 c10_i32_318
  let c4_i32 : BitVec 32 := 4#32
  let v414 : BitVec 32 := Scalar.addi v413 c4_i32
  let v445 : Index := Scalar.indexCast v414
  let c112_326 : Index := 112#32
  ![v445.toNat, 112]

def k0_chk126 (v242 : IVec S16 32) (v451 : IVec S16 32) : Prop :=
  (∀ a x, ((![v242, v451] : Fin 2 → IVec S16 32) a x).toNat < S128x64.size a)
instance k0_chk126.dec : ∀ (v242 : IVec S16 32) (v451 : IVec S16 32), Decidable (k0_chk126 v242 v451) := fun v242 v451 => decidable_of_iff' _ (Iff.of_eq (k0_chk126.eq_1 v242 v451))
theorem k0_idx126_inb : ∀ (v242 : IVec S16 32) (v451 : IVec S16 32) (k0_hw126 : k0_chk126 v242 v451), ∀ a x, ((![v242, v451] : Fin 2 → IVec S16 32) a x).toNat < S128x64.size a := fun v242 v451 k0_hw126 => k0_hw126
def k0_off1048 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_327 : BitVec 32 := 10#32
  let v449 : BitVec 32 := Scalar.muli arg19 c10_i32_327
  let c5_i32_328 : BitVec 32 := 5#32
  let v450 : BitVec 32 := Scalar.addi v449 c5_i32_328
  let v453 : Index := Scalar.indexCast v450
  let c0_329 : Index := 0#32
  ![v453.toNat, 0]
def k0_off1049 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_327 : BitVec 32 := 10#32
  let v449 : BitVec 32 := Scalar.muli arg19 c10_i32_327
  let c5_i32_328 : BitVec 32 := 5#32
  let v450 : BitVec 32 := Scalar.addi v449 c5_i32_328
  let v457 : Index := Scalar.indexCast v450
  let c16_330 : Index := 16#32
  ![v457.toNat, 16]
def k0_off1050 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_327 : BitVec 32 := 10#32
  let v449 : BitVec 32 := Scalar.muli arg19 c10_i32_327
  let c5_i32_328 : BitVec 32 := 5#32
  let v450 : BitVec 32 := Scalar.addi v449 c5_i32_328
  let v461 : Index := Scalar.indexCast v450
  let c32_331 : Index := 32#32
  ![v461.toNat, 32]
def k0_off1051 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_327 : BitVec 32 := 10#32
  let v449 : BitVec 32 := Scalar.muli arg19 c10_i32_327
  let c5_i32_328 : BitVec 32 := 5#32
  let v450 : BitVec 32 := Scalar.addi v449 c5_i32_328
  let v465 : Index := Scalar.indexCast v450
  let c48_332 : Index := 48#32
  ![v465.toNat, 48]
def k0_off1052 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_327 : BitVec 32 := 10#32
  let v449 : BitVec 32 := Scalar.muli arg19 c10_i32_327
  let c5_i32_328 : BitVec 32 := 5#32
  let v450 : BitVec 32 := Scalar.addi v449 c5_i32_328
  let v469 : Index := Scalar.indexCast v450
  let c64_333 : Index := 64#32
  ![v469.toNat, 64]
def k0_off1053 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_327 : BitVec 32 := 10#32
  let v449 : BitVec 32 := Scalar.muli arg19 c10_i32_327
  let c5_i32_328 : BitVec 32 := 5#32
  let v450 : BitVec 32 := Scalar.addi v449 c5_i32_328
  let v473 : Index := Scalar.indexCast v450
  let c80_334 : Index := 80#32
  ![v473.toNat, 80]
def k0_off1054 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_327 : BitVec 32 := 10#32
  let v449 : BitVec 32 := Scalar.muli arg19 c10_i32_327
  let c5_i32_328 : BitVec 32 := 5#32
  let v450 : BitVec 32 := Scalar.addi v449 c5_i32_328
  let v477 : Index := Scalar.indexCast v450
  let c96_335 : Index := 96#32
  ![v477.toNat, 96]
def k0_off1055 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_327 : BitVec 32 := 10#32
  let v449 : BitVec 32 := Scalar.muli arg19 c10_i32_327
  let c5_i32_328 : BitVec 32 := 5#32
  let v450 : BitVec 32 := Scalar.addi v449 c5_i32_328
  let v481 : Index := Scalar.indexCast v450
  let c112_336 : Index := 112#32
  ![v481.toNat, 112]

def k0_chk127 (v242 : IVec S16 32) (v487 : IVec S16 32) : Prop :=
  (∀ a x, ((![v242, v487] : Fin 2 → IVec S16 32) a x).toNat < S128x64.size a)
instance k0_chk127.dec : ∀ (v242 : IVec S16 32) (v487 : IVec S16 32), Decidable (k0_chk127 v242 v487) := fun v242 v487 => decidable_of_iff' _ (Iff.of_eq (k0_chk127.eq_1 v242 v487))
theorem k0_idx127_inb : ∀ (v242 : IVec S16 32) (v487 : IVec S16 32) (k0_hw127 : k0_chk127 v242 v487), ∀ a x, ((![v242, v487] : Fin 2 → IVec S16 32) a x).toNat < S128x64.size a := fun v242 v487 k0_hw127 => k0_hw127
def k0_off1056 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_337 : BitVec 32 := 10#32
  let v485 : BitVec 32 := Scalar.muli arg19 c10_i32_337
  let c6_i32 : BitVec 32 := 6#32
  let v486 : BitVec 32 := Scalar.addi v485 c6_i32
  let v489 : Index := Scalar.indexCast v486
  let c0_338 : Index := 0#32
  ![v489.toNat, 0]
def k0_off1057 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_337 : BitVec 32 := 10#32
  let v485 : BitVec 32 := Scalar.muli arg19 c10_i32_337
  let c6_i32 : BitVec 32 := 6#32
  let v486 : BitVec 32 := Scalar.addi v485 c6_i32
  let v493 : Index := Scalar.indexCast v486
  let c16_339 : Index := 16#32
  ![v493.toNat, 16]
def k0_off1058 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_337 : BitVec 32 := 10#32
  let v485 : BitVec 32 := Scalar.muli arg19 c10_i32_337
  let c6_i32 : BitVec 32 := 6#32
  let v486 : BitVec 32 := Scalar.addi v485 c6_i32
  let v497 : Index := Scalar.indexCast v486
  let c32_340 : Index := 32#32
  ![v497.toNat, 32]
def k0_off1059 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_337 : BitVec 32 := 10#32
  let v485 : BitVec 32 := Scalar.muli arg19 c10_i32_337
  let c6_i32 : BitVec 32 := 6#32
  let v486 : BitVec 32 := Scalar.addi v485 c6_i32
  let v501 : Index := Scalar.indexCast v486
  let c48_341 : Index := 48#32
  ![v501.toNat, 48]
def k0_off1060 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_337 : BitVec 32 := 10#32
  let v485 : BitVec 32 := Scalar.muli arg19 c10_i32_337
  let c6_i32 : BitVec 32 := 6#32
  let v486 : BitVec 32 := Scalar.addi v485 c6_i32
  let v505 : Index := Scalar.indexCast v486
  let c64_342 : Index := 64#32
  ![v505.toNat, 64]
def k0_off1061 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_337 : BitVec 32 := 10#32
  let v485 : BitVec 32 := Scalar.muli arg19 c10_i32_337
  let c6_i32 : BitVec 32 := 6#32
  let v486 : BitVec 32 := Scalar.addi v485 c6_i32
  let v509 : Index := Scalar.indexCast v486
  let c80_343 : Index := 80#32
  ![v509.toNat, 80]
def k0_off1062 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_337 : BitVec 32 := 10#32
  let v485 : BitVec 32 := Scalar.muli arg19 c10_i32_337
  let c6_i32 : BitVec 32 := 6#32
  let v486 : BitVec 32 := Scalar.addi v485 c6_i32
  let v513 : Index := Scalar.indexCast v486
  let c96_344 : Index := 96#32
  ![v513.toNat, 96]
def k0_off1063 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_337 : BitVec 32 := 10#32
  let v485 : BitVec 32 := Scalar.muli arg19 c10_i32_337
  let c6_i32 : BitVec 32 := 6#32
  let v486 : BitVec 32 := Scalar.addi v485 c6_i32
  let v517 : Index := Scalar.indexCast v486
  let c112_345 : Index := 112#32
  ![v517.toNat, 112]

def k0_chk128 (v242 : IVec S16 32) (v523 : IVec S16 32) : Prop :=
  (∀ a x, ((![v242, v523] : Fin 2 → IVec S16 32) a x).toNat < S128x64.size a)
instance k0_chk128.dec : ∀ (v242 : IVec S16 32) (v523 : IVec S16 32), Decidable (k0_chk128 v242 v523) := fun v242 v523 => decidable_of_iff' _ (Iff.of_eq (k0_chk128.eq_1 v242 v523))
theorem k0_idx128_inb : ∀ (v242 : IVec S16 32) (v523 : IVec S16 32) (k0_hw128 : k0_chk128 v242 v523), ∀ a x, ((![v242, v523] : Fin 2 → IVec S16 32) a x).toNat < S128x64.size a := fun v242 v523 k0_hw128 => k0_hw128
def k0_off1064 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_346 : BitVec 32 := 10#32
  let v521 : BitVec 32 := Scalar.muli arg19 c10_i32_346
  let c7_i32 : BitVec 32 := 7#32
  let v522 : BitVec 32 := Scalar.addi v521 c7_i32
  let v525 : Index := Scalar.indexCast v522
  let c0_347 : Index := 0#32
  ![v525.toNat, 0]
def k0_off1065 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_346 : BitVec 32 := 10#32
  let v521 : BitVec 32 := Scalar.muli arg19 c10_i32_346
  let c7_i32 : BitVec 32 := 7#32
  let v522 : BitVec 32 := Scalar.addi v521 c7_i32
  let v529 : Index := Scalar.indexCast v522
  let c16_348 : Index := 16#32
  ![v529.toNat, 16]
def k0_off1066 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_346 : BitVec 32 := 10#32
  let v521 : BitVec 32 := Scalar.muli arg19 c10_i32_346
  let c7_i32 : BitVec 32 := 7#32
  let v522 : BitVec 32 := Scalar.addi v521 c7_i32
  let v533 : Index := Scalar.indexCast v522
  let c32_349 : Index := 32#32
  ![v533.toNat, 32]
def k0_off1067 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_346 : BitVec 32 := 10#32
  let v521 : BitVec 32 := Scalar.muli arg19 c10_i32_346
  let c7_i32 : BitVec 32 := 7#32
  let v522 : BitVec 32 := Scalar.addi v521 c7_i32
  let v537 : Index := Scalar.indexCast v522
  let c48_350 : Index := 48#32
  ![v537.toNat, 48]
def k0_off1068 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_346 : BitVec 32 := 10#32
  let v521 : BitVec 32 := Scalar.muli arg19 c10_i32_346
  let c7_i32 : BitVec 32 := 7#32
  let v522 : BitVec 32 := Scalar.addi v521 c7_i32
  let v541 : Index := Scalar.indexCast v522
  let c64_351 : Index := 64#32
  ![v541.toNat, 64]
def k0_off1069 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_346 : BitVec 32 := 10#32
  let v521 : BitVec 32 := Scalar.muli arg19 c10_i32_346
  let c7_i32 : BitVec 32 := 7#32
  let v522 : BitVec 32 := Scalar.addi v521 c7_i32
  let v545 : Index := Scalar.indexCast v522
  let c80_352 : Index := 80#32
  ![v545.toNat, 80]
def k0_off1070 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_346 : BitVec 32 := 10#32
  let v521 : BitVec 32 := Scalar.muli arg19 c10_i32_346
  let c7_i32 : BitVec 32 := 7#32
  let v522 : BitVec 32 := Scalar.addi v521 c7_i32
  let v549 : Index := Scalar.indexCast v522
  let c96_353 : Index := 96#32
  ![v549.toNat, 96]
def k0_off1071 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_346 : BitVec 32 := 10#32
  let v521 : BitVec 32 := Scalar.muli arg19 c10_i32_346
  let c7_i32 : BitVec 32 := 7#32
  let v522 : BitVec 32 := Scalar.addi v521 c7_i32
  let v553 : Index := Scalar.indexCast v522
  let c112_354 : Index := 112#32
  ![v553.toNat, 112]

def k0_chk129 (v242 : IVec S16 32) (v559 : IVec S16 32) : Prop :=
  (∀ a x, ((![v242, v559] : Fin 2 → IVec S16 32) a x).toNat < S128x64.size a)
instance k0_chk129.dec : ∀ (v242 : IVec S16 32) (v559 : IVec S16 32), Decidable (k0_chk129 v242 v559) := fun v242 v559 => decidable_of_iff' _ (Iff.of_eq (k0_chk129.eq_1 v242 v559))
theorem k0_idx129_inb : ∀ (v242 : IVec S16 32) (v559 : IVec S16 32) (k0_hw129 : k0_chk129 v242 v559), ∀ a x, ((![v242, v559] : Fin 2 → IVec S16 32) a x).toNat < S128x64.size a := fun v242 v559 k0_hw129 => k0_hw129
def k0_off1072 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_355 : BitVec 32 := 10#32
  let v557 : BitVec 32 := Scalar.muli arg19 c10_i32_355
  let c8_i32 : BitVec 32 := 8#32
  let v558 : BitVec 32 := Scalar.addi v557 c8_i32
  let v561 : Index := Scalar.indexCast v558
  let c0_356 : Index := 0#32
  ![v561.toNat, 0]
def k0_off1073 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_355 : BitVec 32 := 10#32
  let v557 : BitVec 32 := Scalar.muli arg19 c10_i32_355
  let c8_i32 : BitVec 32 := 8#32
  let v558 : BitVec 32 := Scalar.addi v557 c8_i32
  let v565 : Index := Scalar.indexCast v558
  let c16_357 : Index := 16#32
  ![v565.toNat, 16]
def k0_off1074 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_355 : BitVec 32 := 10#32
  let v557 : BitVec 32 := Scalar.muli arg19 c10_i32_355
  let c8_i32 : BitVec 32 := 8#32
  let v558 : BitVec 32 := Scalar.addi v557 c8_i32
  let v569 : Index := Scalar.indexCast v558
  let c32_358 : Index := 32#32
  ![v569.toNat, 32]
def k0_off1075 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_355 : BitVec 32 := 10#32
  let v557 : BitVec 32 := Scalar.muli arg19 c10_i32_355
  let c8_i32 : BitVec 32 := 8#32
  let v558 : BitVec 32 := Scalar.addi v557 c8_i32
  let v573 : Index := Scalar.indexCast v558
  let c48_359 : Index := 48#32
  ![v573.toNat, 48]
def k0_off1076 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_355 : BitVec 32 := 10#32
  let v557 : BitVec 32 := Scalar.muli arg19 c10_i32_355
  let c8_i32 : BitVec 32 := 8#32
  let v558 : BitVec 32 := Scalar.addi v557 c8_i32
  let v577 : Index := Scalar.indexCast v558
  let c64_360 : Index := 64#32
  ![v577.toNat, 64]
def k0_off1077 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_355 : BitVec 32 := 10#32
  let v557 : BitVec 32 := Scalar.muli arg19 c10_i32_355
  let c8_i32 : BitVec 32 := 8#32
  let v558 : BitVec 32 := Scalar.addi v557 c8_i32
  let v581 : Index := Scalar.indexCast v558
  let c80_361 : Index := 80#32
  ![v581.toNat, 80]
def k0_off1078 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_355 : BitVec 32 := 10#32
  let v557 : BitVec 32 := Scalar.muli arg19 c10_i32_355
  let c8_i32 : BitVec 32 := 8#32
  let v558 : BitVec 32 := Scalar.addi v557 c8_i32
  let v585 : Index := Scalar.indexCast v558
  let c96_362 : Index := 96#32
  ![v585.toNat, 96]
def k0_off1079 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_355 : BitVec 32 := 10#32
  let v557 : BitVec 32 := Scalar.muli arg19 c10_i32_355
  let c8_i32 : BitVec 32 := 8#32
  let v558 : BitVec 32 := Scalar.addi v557 c8_i32
  let v589 : Index := Scalar.indexCast v558
  let c112_363 : Index := 112#32
  ![v589.toNat, 112]

def k0_chk130 (v242 : IVec S16 32) (v595 : IVec S16 32) : Prop :=
  (∀ a x, ((![v242, v595] : Fin 2 → IVec S16 32) a x).toNat < S128x64.size a)
instance k0_chk130.dec : ∀ (v242 : IVec S16 32) (v595 : IVec S16 32), Decidable (k0_chk130 v242 v595) := fun v242 v595 => decidable_of_iff' _ (Iff.of_eq (k0_chk130.eq_1 v242 v595))
theorem k0_idx130_inb : ∀ (v242 : IVec S16 32) (v595 : IVec S16 32) (k0_hw130 : k0_chk130 v242 v595), ∀ a x, ((![v242, v595] : Fin 2 → IVec S16 32) a x).toNat < S128x64.size a := fun v242 v595 k0_hw130 => k0_hw130
def k0_off1080 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_364 : BitVec 32 := 10#32
  let v593 : BitVec 32 := Scalar.muli arg19 c10_i32_364
  let c9_i32 : BitVec 32 := 9#32
  let v594 : BitVec 32 := Scalar.addi v593 c9_i32
  let v597 : Index := Scalar.indexCast v594
  let c0_365 : Index := 0#32
  ![v597.toNat, 0]
def k0_off1081 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_364 : BitVec 32 := 10#32
  let v593 : BitVec 32 := Scalar.muli arg19 c10_i32_364
  let c9_i32 : BitVec 32 := 9#32
  let v594 : BitVec 32 := Scalar.addi v593 c9_i32
  let v601 : Index := Scalar.indexCast v594
  let c16_366 : Index := 16#32
  ![v601.toNat, 16]
def k0_off1082 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_364 : BitVec 32 := 10#32
  let v593 : BitVec 32 := Scalar.muli arg19 c10_i32_364
  let c9_i32 : BitVec 32 := 9#32
  let v594 : BitVec 32 := Scalar.addi v593 c9_i32
  let v605 : Index := Scalar.indexCast v594
  let c32_367 : Index := 32#32
  ![v605.toNat, 32]
def k0_off1083 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_364 : BitVec 32 := 10#32
  let v593 : BitVec 32 := Scalar.muli arg19 c10_i32_364
  let c9_i32 : BitVec 32 := 9#32
  let v594 : BitVec 32 := Scalar.addi v593 c9_i32
  let v609 : Index := Scalar.indexCast v594
  let c48_368 : Index := 48#32
  ![v609.toNat, 48]
def k0_off1084 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_364 : BitVec 32 := 10#32
  let v593 : BitVec 32 := Scalar.muli arg19 c10_i32_364
  let c9_i32 : BitVec 32 := 9#32
  let v594 : BitVec 32 := Scalar.addi v593 c9_i32
  let v613 : Index := Scalar.indexCast v594
  let c64_369 : Index := 64#32
  ![v613.toNat, 64]
def k0_off1085 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_364 : BitVec 32 := 10#32
  let v593 : BitVec 32 := Scalar.muli arg19 c10_i32_364
  let c9_i32 : BitVec 32 := 9#32
  let v594 : BitVec 32 := Scalar.addi v593 c9_i32
  let v617 : Index := Scalar.indexCast v594
  let c80_370 : Index := 80#32
  ![v617.toNat, 80]
def k0_off1086 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_364 : BitVec 32 := 10#32
  let v593 : BitVec 32 := Scalar.muli arg19 c10_i32_364
  let c9_i32 : BitVec 32 := 9#32
  let v594 : BitVec 32 := Scalar.addi v593 c9_i32
  let v621 : Index := Scalar.indexCast v594
  let c96_371 : Index := 96#32
  ![v621.toNat, 96]
def k0_off1087 (k0_t14 : Fin k0_t14_loop.trips) : Fin 2 → Nat :=
  let c0_i32_259 : BitVec 32 := 0#32
  let c1_i32_261 : BitVec 32 := 1#32
  let arg19 : BitVec 32 := Scf.iv c0_i32_259 c1_i32_261 k0_t14
  let c10_i32_364 : BitVec 32 := 10#32
  let v593 : BitVec 32 := Scalar.muli arg19 c10_i32_364
  let c9_i32 : BitVec 32 := 9#32
  let v594 : BitVec 32 := Scalar.addi v593 c9_i32
  let v625 : Index := Scalar.indexCast v594
  let c112_372 : Index := 112#32
  ![v625.toNat, 112]
def k0_off1088 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_279_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.R1.Facts₀ : Prop where
  hcore0 : grid0.bound 0 ≤ τ.nSC
  hsub0 : grid0.bound 1 ≤ τ.nSub
  k0_off1_inb : ∀ i : grid0.Coords, ∀ a, (k0_off1 i) a + S128x50.size a ≤ S4096x50.size a
  k0_off2_inb : ∀ i : grid0.Coords, ∀ a, (k0_off2 i) a + S128x64.size a ≤ S4096x64.size a
  k0_t1_ok : k0_t1_loop.OK
  k0_off3_inb : ∀ k0_t1 : Fin k0_t1_loop.trips, ∀ a, (k0_off3 k0_t1) a + S1x50.size a ≤ S128x50.size a
  k0_t2_ok : k0_t2_loop.OK
  k0_off4_inb : ∀ k0_t2 : Fin k0_t2_loop.trips, ∀ a, (k0_off4 k0_t2) a + S1x16.size a ≤ S50x128.size a
  k0_off5_inb : ∀ k0_t2 : Fin k0_t2_loop.trips, ∀ a, (k0_off5 k0_t2) a + S1x16.size a ≤ S50x128.size a
  k0_off6_inb : ∀ k0_t2 : Fin k0_t2_loop.trips, ∀ a, (k0_off6 k0_t2) a + S1x16.size a ≤ S50x128.size a
  k0_off7_inb : ∀ k0_t2 : Fin k0_t2_loop.trips, ∀ a, (k0_off7 k0_t2) a + S1x16.size a ≤ S50x128.size a
  k0_off8_inb : ∀ k0_t2 : Fin k0_t2_loop.trips, ∀ a, (k0_off8 k0_t2) a + S1x16.size a ≤ S50x128.size a
  k0_off9_inb : ∀ k0_t2 : Fin k0_t2_loop.trips, ∀ a, (k0_off9 k0_t2) a + S1x16.size a ≤ S50x128.size a
  k0_off10_inb : ∀ k0_t2 : Fin k0_t2_loop.trips, ∀ a, (k0_off10 k0_t2) a + S1x16.size a ≤ S50x128.size a
  k0_off11_inb : ∀ k0_t2 : Fin k0_t2_loop.trips, ∀ a, (k0_off11 k0_t2) a + S1x16.size a ≤ S50x128.size a
  k0_off12_inb : ∀ k0_t2 : Fin k0_t2_loop.trips, ∀ a, (k0_off12 k0_t2) a + S1x16.size a ≤ S50x128.size a
  k0_off13_inb : ∀ k0_t2 : Fin k0_t2_loop.trips, ∀ a, (k0_off13 k0_t2) a + S1x16.size a ≤ S50x128.size a
  k0_off14_inb : ∀ k0_t2 : Fin k0_t2_loop.trips, ∀ a, (k0_off14 k0_t2) a + S1x16.size a ≤ S50x128.size a
  k0_off15_inb : ∀ k0_t2 : Fin k0_t2_loop.trips, ∀ a, (k0_off15 k0_t2) a + S1x16.size a ≤ S50x128.size a
  k0_off16_inb : ∀ k0_t2 : Fin k0_t2_loop.trips, ∀ a, (k0_off16 k0_t2) a + S1x16.size a ≤ S50x128.size a
  k0_off17_inb : ∀ k0_t2 : Fin k0_t2_loop.trips, ∀ a, (k0_off17 k0_t2) a + S1x16.size a ≤ S50x128.size a
  k0_off18_inb : ∀ k0_t2 : Fin k0_t2_loop.trips, ∀ a, (k0_off18 k0_t2) a + S1x16.size a ≤ S50x128.size a
  k0_off19_inb : ∀ k0_t2 : Fin k0_t2_loop.trips, ∀ a, (k0_off19 k0_t2) a + S1x16.size a ≤ S50x128.size a
  k0_off20_inb : ∀ k0_t2 : Fin k0_t2_loop.trips, ∀ a, (k0_off20 k0_t2) a + S1x16.size a ≤ S50x128.size a
  k0_off21_inb : ∀ k0_t2 : Fin k0_t2_loop.trips, ∀ a, (k0_off21 k0_t2) a + S1x16.size a ≤ S50x128.size a
  k0_off22_inb : ∀ k0_t2 : Fin k0_t2_loop.trips, ∀ a, (k0_off22 k0_t2) a + S1x16.size a ≤ S50x128.size a
  k0_off23_inb : ∀ k0_t2 : Fin k0_t2_loop.trips, ∀ a, (k0_off23 k0_t2) a + S1x16.size a ≤ S50x128.size a
  k0_off24_inb : ∀ k0_t2 : Fin k0_t2_loop.trips, ∀ a, (k0_off24 k0_t2) a + S1x16.size a ≤ S50x128.size a
  k0_off25_inb : ∀ k0_t2 : Fin k0_t2_loop.trips, ∀ a, (k0_off25 k0_t2) a + S1x16.size a ≤ S50x128.size a
  k0_off26_inb : ∀ k0_t2 : Fin k0_t2_loop.trips, ∀ a, (k0_off26 k0_t2) a + S1x16.size a ≤ S50x128.size a
  k0_off27_inb : ∀ k0_t2 : Fin k0_t2_loop.trips, ∀ a, (k0_off27 k0_t2) a + S1x16.size a ≤ S50x128.size a
  k0_off28_inb : ∀ k0_t2 : Fin k0_t2_loop.trips, ∀ a, (k0_off28 k0_t2) a + S1x16.size a ≤ S50x128.size a
  k0_off29_inb : ∀ k0_t2 : Fin k0_t2_loop.trips, ∀ a, (k0_off29 k0_t2) a + S1x16.size a ≤ S50x128.size a
  k0_off30_inb : ∀ k0_t2 : Fin k0_t2_loop.trips, ∀ a, (k0_off30 k0_t2) a + S1x16.size a ≤ S50x128.size a
  k0_off31_inb : ∀ k0_t2 : Fin k0_t2_loop.trips, ∀ a, (k0_off31 k0_t2) a + S1x16.size a ≤ S50x128.size a
  k0_off32_inb : ∀ k0_t2 : Fin k0_t2_loop.trips, ∀ a, (k0_off32 k0_t2) a + S1x16.size a ≤ S50x128.size a
  k0_off33_inb : ∀ k0_t2 : Fin k0_t2_loop.trips, ∀ a, (k0_off33 k0_t2) a + S1x16.size a ≤ S50x128.size a
  k0_off34_inb : ∀ k0_t2 : Fin k0_t2_loop.trips, ∀ a, (k0_off34 k0_t2) a + S1x16.size a ≤ S50x128.size a
  k0_off35_inb : ∀ k0_t2 : Fin k0_t2_loop.trips, ∀ a, (k0_off35 k0_t2) a + S1x16.size a ≤ S50x128.size a
  k0_off36_inb : ∀ k0_t2 : Fin k0_t2_loop.trips, ∀ a, (k0_off36 k0_t2) a + S1x16.size a ≤ S50x128.size a
  k0_off37_inb : ∀ k0_t2 : Fin k0_t2_loop.trips, ∀ a, (k0_off37 k0_t2) a + S1x16.size a ≤ S50x128.size a
  k0_off38_inb : ∀ k0_t2 : Fin k0_t2_loop.trips, ∀ a, (k0_off38 k0_t2) a + S1x16.size a ≤ S50x128.size a
  k0_off39_inb : ∀ k0_t2 : Fin k0_t2_loop.trips, ∀ a, (k0_off39 k0_t2) a + S1x16.size a ≤ S50x128.size a
  k0_off40_inb : ∀ k0_t2 : Fin k0_t2_loop.trips, ∀ a, (k0_off40 k0_t2) a + S1x16.size a ≤ S50x128.size a
  k0_off41_inb : ∀ k0_t2 : Fin k0_t2_loop.trips, ∀ a, (k0_off41 k0_t2) a + S1x16.size a ≤ S50x128.size a
  k0_off42_inb : ∀ k0_t2 : Fin k0_t2_loop.trips, ∀ a, (k0_off42 k0_t2) a + S1x16.size a ≤ S50x128.size a
  k0_off43_inb : ∀ k0_t2 : Fin k0_t2_loop.trips, ∀ a, (k0_off43 k0_t2) a + S1x16.size a ≤ S50x128.size a
  k0_off44_inb : ∀ k0_t2 : Fin k0_t2_loop.trips, ∀ a, (k0_off44 k0_t2) a + S1x16.size a ≤ S50x128.size a
  k0_off45_inb : ∀ k0_t2 : Fin k0_t2_loop.trips, ∀ a, (k0_off45 k0_t2) a + S1x16.size a ≤ S50x128.size a
  k0_off46_inb : ∀ k0_t2 : Fin k0_t2_loop.trips, ∀ a, (k0_off46 k0_t2) a + S1x16.size a ≤ S50x128.size a
  k0_off47_inb : ∀ k0_t2 : Fin k0_t2_loop.trips, ∀ a, (k0_off47 k0_t2) a + S1x16.size a ≤ S50x128.size a
  k0_off48_inb : ∀ k0_t2 : Fin k0_t2_loop.trips, ∀ a, (k0_off48 k0_t2) a + S1x16.size a ≤ S50x128.size a
  k0_off49_inb : ∀ k0_t2 : Fin k0_t2_loop.trips, ∀ a, (k0_off49 k0_t2) a + S1x16.size a ≤ S50x128.size a
  k0_off50_inb : ∀ k0_t2 : Fin k0_t2_loop.trips, ∀ a, (k0_off50 k0_t2) a + S1x16.size a ≤ S50x128.size a
  k0_off51_inb : ∀ k0_t2 : Fin k0_t2_loop.trips, ∀ a, (k0_off51 k0_t2) a + S1x16.size a ≤ S50x128.size a
  k0_off52_inb : ∀ k0_t2 : Fin k0_t2_loop.trips, ∀ a, (k0_off52 k0_t2) a + S1x16.size a ≤ S50x128.size a
  k0_off53_inb : ∀ k0_t2 : Fin k0_t2_loop.trips, ∀ a, (k0_off53 k0_t2) a + S1x16.size a ≤ S50x128.size a
  k0_off54_inb : ∀ k0_t2 : Fin k0_t2_loop.trips, ∀ a, (k0_off54 k0_t2) a + S1x16.size a ≤ S50x128.size a
  k0_off55_inb : ∀ k0_t2 : Fin k0_t2_loop.trips, ∀ a, (k0_off55 k0_t2) a + S1x16.size a ≤ S50x128.size a
  k0_off56_inb : ∀ k0_t2 : Fin k0_t2_loop.trips, ∀ a, (k0_off56 k0_t2) a + S1x16.size a ≤ S50x128.size a
  k0_off57_inb : ∀ k0_t2 : Fin k0_t2_loop.trips, ∀ a, (k0_off57 k0_t2) a + S1x16.size a ≤ S50x128.size a
  k0_off58_inb : ∀ k0_t2 : Fin k0_t2_loop.trips, ∀ a, (k0_off58 k0_t2) a + S1x16.size a ≤ S50x128.size a
  k0_off59_inb : ∀ k0_t2 : Fin k0_t2_loop.trips, ∀ a, (k0_off59 k0_t2) a + S1x16.size a ≤ S50x128.size a
  k0_off60_inb : ∀ k0_t2 : Fin k0_t2_loop.trips, ∀ a, (k0_off60 k0_t2) a + S1x16.size a ≤ S50x128.size a
  k0_off61_inb : ∀ k0_t2 : Fin k0_t2_loop.trips, ∀ a, (k0_off61 k0_t2) a + S1x16.size a ≤ S50x128.size a
  k0_off62_inb : ∀ k0_t2 : Fin k0_t2_loop.trips, ∀ a, (k0_off62 k0_t2) a + S1x16.size a ≤ S50x128.size a
  k0_off63_inb : ∀ k0_t2 : Fin k0_t2_loop.trips, ∀ a, (k0_off63 k0_t2) a + S1x16.size a ≤ S50x128.size a
  k0_off64_inb : ∀ k0_t2 : Fin k0_t2_loop.trips, ∀ a, (k0_off64 k0_t2) a + S1x16.size a ≤ S50x128.size a
  k0_off65_inb : ∀ k0_t2 : Fin k0_t2_loop.trips, ∀ a, (k0_off65 k0_t2) a + S1x16.size a ≤ S50x128.size a
  k0_off66_inb : ∀ k0_t2 : Fin k0_t2_loop.trips, ∀ a, (k0_off66 k0_t2) a + S1x16.size a ≤ S50x128.size a
  k0_off67_inb : ∀ k0_t2 : Fin k0_t2_loop.trips, ∀ a, (k0_off67 k0_t2) a + S1x16.size a ≤ S50x128.size a
  k0_off68_inb : ∀ k0_t2 : Fin k0_t2_loop.trips, ∀ a, (k0_off68 k0_t2) a + S1x16.size a ≤ S50x128.size a
  k0_off69_inb : ∀ k0_t2 : Fin k0_t2_loop.trips, ∀ a, (k0_off69 k0_t2) a + S1x16.size a ≤ S50x128.size a
  k0_off70_inb : ∀ k0_t2 : Fin k0_t2_loop.trips, ∀ a, (k0_off70 k0_t2) a + S1x16.size a ≤ S50x128.size a
  k0_off71_inb : ∀ k0_t2 : Fin k0_t2_loop.trips, ∀ a, (k0_off71 k0_t2) a + S1x16.size a ≤ S50x128.size a
  k0_off72_inb : ∀ k0_t2 : Fin k0_t2_loop.trips, ∀ a, (k0_off72 k0_t2) a + S1x16.size a ≤ S50x128.size a
  k0_off73_inb : ∀ k0_t2 : Fin k0_t2_loop.trips, ∀ a, (k0_off73 k0_t2) a + S1x16.size a ≤ S50x128.size a
  k0_off74_inb : ∀ k0_t2 : Fin k0_t2_loop.trips, ∀ a, (k0_off74 k0_t2) a + S1x16.size a ≤ S50x128.size a
  k0_off75_inb : ∀ k0_t2 : Fin k0_t2_loop.trips, ∀ a, (k0_off75 k0_t2) a + S1x16.size a ≤ S50x128.size a
  k0_off76_inb : ∀ k0_t2 : Fin k0_t2_loop.trips, ∀ a, (k0_off76 k0_t2) a + S1x16.size a ≤ S50x128.size a
  k0_off77_inb : ∀ k0_t2 : Fin k0_t2_loop.trips, ∀ a, (k0_off77 k0_t2) a + S1x16.size a ≤ S50x128.size a
  k0_off78_inb : ∀ k0_t2 : Fin k0_t2_loop.trips, ∀ a, (k0_off78 k0_t2) a + S1x16.size a ≤ S50x128.size a
  k0_off79_inb : ∀ k0_t2 : Fin k0_t2_loop.trips, ∀ a, (k0_off79 k0_t2) a + S1x16.size a ≤ S50x128.size a
  k0_off80_inb : ∀ k0_t2 : Fin k0_t2_loop.trips, ∀ a, (k0_off80 k0_t2) a + S1x16.size a ≤ S50x128.size a
  k0_off81_inb : ∀ k0_t2 : Fin k0_t2_loop.trips, ∀ a, (k0_off81 k0_t2) a + S1x16.size a ≤ S50x128.size a
  k0_off82_inb : ∀ k0_t2 : Fin k0_t2_loop.trips, ∀ a, (k0_off82 k0_t2) a + S1x16.size a ≤ S50x128.size a
  k0_off83_inb : ∀ k0_t2 : Fin k0_t2_loop.trips, ∀ a, (k0_off83 k0_t2) a + S1x16.size a ≤ S50x128.size a
  k0_off84_inb : ∀ k0_t1 : Fin k0_t1_loop.trips, ∀ a, (k0_off84 k0_t1) a + S1x16.size a ≤ S128x128.size a
  k0_off85_inb : ∀ k0_t1 : Fin k0_t1_loop.trips, ∀ a, (k0_off85 k0_t1) a + S1x16.size a ≤ S128x128.size a
  k0_off86_inb : ∀ k0_t1 : Fin k0_t1_loop.trips, ∀ a, (k0_off86 k0_t1) a + S1x16.size a ≤ S128x128.size a
  k0_off87_inb : ∀ k0_t1 : Fin k0_t1_loop.trips, ∀ a, (k0_off87 k0_t1) a + S1x16.size a ≤ S128x128.size a
  k0_off88_inb : ∀ k0_t1 : Fin k0_t1_loop.trips, ∀ a, (k0_off88 k0_t1) a + S1x16.size a ≤ S128x128.size a
  k0_off89_inb : ∀ k0_t1 : Fin k0_t1_loop.trips, ∀ a, (k0_off89 k0_t1) a + S1x16.size a ≤ S128x128.size a
  k0_off90_inb : ∀ k0_t1 : Fin k0_t1_loop.trips, ∀ a, (k0_off90 k0_t1) a + S1x16.size a ≤ S128x128.size a
  k0_off91_inb : ∀ k0_t1 : Fin k0_t1_loop.trips, ∀ a, (k0_off91 k0_t1) a + S1x16.size a ≤ S128x128.size a
  k0_off92_inb : ∀ k0_t1 : Fin k0_t1_loop.trips, ∀ a, (k0_off92 k0_t1) a + S1x50.size a ≤ S128x50.size a
  k0_t3_ok : k0_t3_loop.OK
  k0_off93_inb : ∀ k0_t3 : Fin k0_t3_loop.trips, ∀ a, (k0_off93 k0_t3) a + S1x16.size a ≤ S50x128.size a
  k0_off94_inb : ∀ k0_t3 : Fin k0_t3_loop.trips, ∀ a, (k0_off94 k0_t3) a + S1x16.size a ≤ S50x128.size a
  k0_off95_inb : ∀ k0_t3 : Fin k0_t3_loop.trips, ∀ a, (k0_off95 k0_t3) a + S1x16.size a ≤ S50x128.size a
  k0_off96_inb : ∀ k0_t3 : Fin k0_t3_loop.trips, ∀ a, (k0_off96 k0_t3) a + S1x16.size a ≤ S50x128.size a
  k0_off97_inb : ∀ k0_t3 : Fin k0_t3_loop.trips, ∀ a, (k0_off97 k0_t3) a + S1x16.size a ≤ S50x128.size a
  k0_off98_inb : ∀ k0_t3 : Fin k0_t3_loop.trips, ∀ a, (k0_off98 k0_t3) a + S1x16.size a ≤ S50x128.size a
  k0_off99_inb : ∀ k0_t3 : Fin k0_t3_loop.trips, ∀ a, (k0_off99 k0_t3) a + S1x16.size a ≤ S50x128.size a
  k0_off100_inb : ∀ k0_t3 : Fin k0_t3_loop.trips, ∀ a, (k0_off100 k0_t3) a + S1x16.size a ≤ S50x128.size a
  k0_off101_inb : ∀ k0_t3 : Fin k0_t3_loop.trips, ∀ a, (k0_off101 k0_t3) a + S1x16.size a ≤ S50x128.size a
  k0_off102_inb : ∀ k0_t3 : Fin k0_t3_loop.trips, ∀ a, (k0_off102 k0_t3) a + S1x16.size a ≤ S50x128.size a
  k0_off103_inb : ∀ k0_t3 : Fin k0_t3_loop.trips, ∀ a, (k0_off103 k0_t3) a + S1x16.size a ≤ S50x128.size a
  k0_off104_inb : ∀ k0_t3 : Fin k0_t3_loop.trips, ∀ a, (k0_off104 k0_t3) a + S1x16.size a ≤ S50x128.size a
  k0_off105_inb : ∀ k0_t3 : Fin k0_t3_loop.trips, ∀ a, (k0_off105 k0_t3) a + S1x16.size a ≤ S50x128.size a
  k0_off106_inb : ∀ k0_t3 : Fin k0_t3_loop.trips, ∀ a, (k0_off106 k0_t3) a + S1x16.size a ≤ S50x128.size a
  k0_off107_inb : ∀ k0_t3 : Fin k0_t3_loop.trips, ∀ a, (k0_off107 k0_t3) a + S1x16.size a ≤ S50x128.size a
  k0_off108_inb : ∀ k0_t3 : Fin k0_t3_loop.trips, ∀ a, (k0_off108 k0_t3) a + S1x16.size a ≤ S50x128.size a
  k0_off109_inb : ∀ k0_t3 : Fin k0_t3_loop.trips, ∀ a, (k0_off109 k0_t3) a + S1x16.size a ≤ S50x128.size a
  k0_off110_inb : ∀ k0_t3 : Fin k0_t3_loop.trips, ∀ a, (k0_off110 k0_t3) a + S1x16.size a ≤ S50x128.size a
  k0_off111_inb : ∀ k0_t3 : Fin k0_t3_loop.trips, ∀ a, (k0_off111 k0_t3) a + S1x16.size a ≤ S50x128.size a
  k0_off112_inb : ∀ k0_t3 : Fin k0_t3_loop.trips, ∀ a, (k0_off112 k0_t3) a + S1x16.size a ≤ S50x128.size a
  k0_off113_inb : ∀ k0_t3 : Fin k0_t3_loop.trips, ∀ a, (k0_off113 k0_t3) a + S1x16.size a ≤ S50x128.size a
  k0_off114_inb : ∀ k0_t3 : Fin k0_t3_loop.trips, ∀ a, (k0_off114 k0_t3) a + S1x16.size a ≤ S50x128.size a
  k0_off115_inb : ∀ k0_t3 : Fin k0_t3_loop.trips, ∀ a, (k0_off115 k0_t3) a + S1x16.size a ≤ S50x128.size a
  k0_off116_inb : ∀ k0_t3 : Fin k0_t3_loop.trips, ∀ a, (k0_off116 k0_t3) a + S1x16.size a ≤ S50x128.size a
  k0_off117_inb : ∀ k0_t3 : Fin k0_t3_loop.trips, ∀ a, (k0_off117 k0_t3) a + S1x16.size a ≤ S50x128.size a
  k0_off118_inb : ∀ k0_t3 : Fin k0_t3_loop.trips, ∀ a, (k0_off118 k0_t3) a + S1x16.size a ≤ S50x128.size a
  k0_off119_inb : ∀ k0_t3 : Fin k0_t3_loop.trips, ∀ a, (k0_off119 k0_t3) a + S1x16.size a ≤ S50x128.size a
  k0_off120_inb : ∀ k0_t3 : Fin k0_t3_loop.trips, ∀ a, (k0_off120 k0_t3) a + S1x16.size a ≤ S50x128.size a
  k0_off121_inb : ∀ k0_t3 : Fin k0_t3_loop.trips, ∀ a, (k0_off121 k0_t3) a + S1x16.size a ≤ S50x128.size a
  k0_off122_inb : ∀ k0_t3 : Fin k0_t3_loop.trips, ∀ a, (k0_off122 k0_t3) a + S1x16.size a ≤ S50x128.size a
  k0_off123_inb : ∀ k0_t3 : Fin k0_t3_loop.trips, ∀ a, (k0_off123 k0_t3) a + S1x16.size a ≤ S50x128.size a
  k0_off124_inb : ∀ k0_t3 : Fin k0_t3_loop.trips, ∀ a, (k0_off124 k0_t3) a + S1x16.size a ≤ S50x128.size a
  k0_off125_inb : ∀ k0_t3 : Fin k0_t3_loop.trips, ∀ a, (k0_off125 k0_t3) a + S1x16.size a ≤ S50x128.size a
  k0_off126_inb : ∀ k0_t3 : Fin k0_t3_loop.trips, ∀ a, (k0_off126 k0_t3) a + S1x16.size a ≤ S50x128.size a
  k0_off127_inb : ∀ k0_t3 : Fin k0_t3_loop.trips, ∀ a, (k0_off127 k0_t3) a + S1x16.size a ≤ S50x128.size a
  k0_off128_inb : ∀ k0_t3 : Fin k0_t3_loop.trips, ∀ a, (k0_off128 k0_t3) a + S1x16.size a ≤ S50x128.size a
  k0_off129_inb : ∀ k0_t3 : Fin k0_t3_loop.trips, ∀ a, (k0_off129 k0_t3) a + S1x16.size a ≤ S50x128.size a
  k0_off130_inb : ∀ k0_t3 : Fin k0_t3_loop.trips, ∀ a, (k0_off130 k0_t3) a + S1x16.size a ≤ S50x128.size a
  k0_off131_inb : ∀ k0_t3 : Fin k0_t3_loop.trips, ∀ a, (k0_off131 k0_t3) a + S1x16.size a ≤ S50x128.size a
  k0_off132_inb : ∀ k0_t3 : Fin k0_t3_loop.trips, ∀ a, (k0_off132 k0_t3) a + S1x16.size a ≤ S50x128.size a
  k0_off133_inb : ∀ k0_t3 : Fin k0_t3_loop.trips, ∀ a, (k0_off133 k0_t3) a + S1x16.size a ≤ S50x128.size a
  k0_off134_inb : ∀ k0_t3 : Fin k0_t3_loop.trips, ∀ a, (k0_off134 k0_t3) a + S1x16.size a ≤ S50x128.size a
  k0_off135_inb : ∀ k0_t3 : Fin k0_t3_loop.trips, ∀ a, (k0_off135 k0_t3) a + S1x16.size a ≤ S50x128.size a
  k0_off136_inb : ∀ k0_t3 : Fin k0_t3_loop.trips, ∀ a, (k0_off136 k0_t3) a + S1x16.size a ≤ S50x128.size a
  k0_off137_inb : ∀ k0_t3 : Fin k0_t3_loop.trips, ∀ a, (k0_off137 k0_t3) a + S1x16.size a ≤ S50x128.size a
  k0_off138_inb : ∀ k0_t3 : Fin k0_t3_loop.trips, ∀ a, (k0_off138 k0_t3) a + S1x16.size a ≤ S50x128.size a
  k0_off139_inb : ∀ k0_t3 : Fin k0_t3_loop.trips, ∀ a, (k0_off139 k0_t3) a + S1x16.size a ≤ S50x128.size a
  k0_off140_inb : ∀ k0_t3 : Fin k0_t3_loop.trips, ∀ a, (k0_off140 k0_t3) a + S1x16.size a ≤ S50x128.size a
  k0_off141_inb : ∀ k0_t3 : Fin k0_t3_loop.trips, ∀ a, (k0_off141 k0_t3) a + S1x16.size a ≤ S50x128.size a
  k0_off142_inb : ∀ k0_t3 : Fin k0_t3_loop.trips, ∀ a, (k0_off142 k0_t3) a + S1x16.size a ≤ S50x128.size a
  k0_off143_inb : ∀ k0_t3 : Fin k0_t3_loop.trips, ∀ a, (k0_off143 k0_t3) a + S1x16.size a ≤ S50x128.size a
  k0_off144_inb : ∀ k0_t3 : Fin k0_t3_loop.trips, ∀ a, (k0_off144 k0_t3) a + S1x16.size a ≤ S50x128.size a
  k0_off145_inb : ∀ k0_t3 : Fin k0_t3_loop.trips, ∀ a, (k0_off145 k0_t3) a + S1x16.size a ≤ S50x128.size a
  k0_off146_inb : ∀ k0_t3 : Fin k0_t3_loop.trips, ∀ a, (k0_off146 k0_t3) a + S1x16.size a ≤ S50x128.size a
  k0_off147_inb : ∀ k0_t3 : Fin k0_t3_loop.trips, ∀ a, (k0_off147 k0_t3) a + S1x16.size a ≤ S50x128.size a
  k0_off148_inb : ∀ k0_t3 : Fin k0_t3_loop.trips, ∀ a, (k0_off148 k0_t3) a + S1x16.size a ≤ S50x128.size a
  k0_off149_inb : ∀ k0_t3 : Fin k0_t3_loop.trips, ∀ a, (k0_off149 k0_t3) a + S1x16.size a ≤ S50x128.size a
  k0_off150_inb : ∀ k0_t3 : Fin k0_t3_loop.trips, ∀ a, (k0_off150 k0_t3) a + S1x16.size a ≤ S50x128.size a
  k0_off151_inb : ∀ k0_t3 : Fin k0_t3_loop.trips, ∀ a, (k0_off151 k0_t3) a + S1x16.size a ≤ S50x128.size a
  k0_off152_inb : ∀ k0_t3 : Fin k0_t3_loop.trips, ∀ a, (k0_off152 k0_t3) a + S1x16.size a ≤ S50x128.size a
  k0_off153_inb : ∀ k0_t3 : Fin k0_t3_loop.trips, ∀ a, (k0_off153 k0_t3) a + S1x16.size a ≤ S50x128.size a
  k0_off154_inb : ∀ k0_t3 : Fin k0_t3_loop.trips, ∀ a, (k0_off154 k0_t3) a + S1x16.size a ≤ S50x128.size a
  k0_off155_inb : ∀ k0_t3 : Fin k0_t3_loop.trips, ∀ a, (k0_off155 k0_t3) a + S1x16.size a ≤ S50x128.size a
  k0_off156_inb : ∀ k0_t3 : Fin k0_t3_loop.trips, ∀ a, (k0_off156 k0_t3) a + S1x16.size a ≤ S50x128.size a
  k0_off157_inb : ∀ k0_t3 : Fin k0_t3_loop.trips, ∀ a, (k0_off157 k0_t3) a + S1x16.size a ≤ S50x128.size a
  k0_off158_inb : ∀ k0_t3 : Fin k0_t3_loop.trips, ∀ a, (k0_off158 k0_t3) a + S1x16.size a ≤ S50x128.size a
  k0_off159_inb : ∀ k0_t3 : Fin k0_t3_loop.trips, ∀ a, (k0_off159 k0_t3) a + S1x16.size a ≤ S50x128.size a
  k0_off160_inb : ∀ k0_t3 : Fin k0_t3_loop.trips, ∀ a, (k0_off160 k0_t3) a + S1x16.size a ≤ S50x128.size a
  k0_off161_inb : ∀ k0_t3 : Fin k0_t3_loop.trips, ∀ a, (k0_off161 k0_t3) a + S1x16.size a ≤ S50x128.size a
  k0_off162_inb : ∀ k0_t3 : Fin k0_t3_loop.trips, ∀ a, (k0_off162 k0_t3) a + S1x16.size a ≤ S50x128.size a
  k0_off163_inb : ∀ k0_t3 : Fin k0_t3_loop.trips, ∀ a, (k0_off163 k0_t3) a + S1x16.size a ≤ S50x128.size a
  k0_off164_inb : ∀ k0_t3 : Fin k0_t3_loop.trips, ∀ a, (k0_off164 k0_t3) a + S1x16.size a ≤ S50x128.size a
  k0_off165_inb : ∀ k0_t3 : Fin k0_t3_loop.trips, ∀ a, (k0_off165 k0_t3) a + S1x16.size a ≤ S50x128.size a
  k0_off166_inb : ∀ k0_t3 : Fin k0_t3_loop.trips, ∀ a, (k0_off166 k0_t3) a + S1x16.size a ≤ S50x128.size a
  k0_off167_inb : ∀ k0_t3 : Fin k0_t3_loop.trips, ∀ a, (k0_off167 k0_t3) a + S1x16.size a ≤ S50x128.size a
  k0_off168_inb : ∀ k0_t3 : Fin k0_t3_loop.trips, ∀ a, (k0_off168 k0_t3) a + S1x16.size a ≤ S50x128.size a
  k0_off169_inb : ∀ k0_t3 : Fin k0_t3_loop.trips, ∀ a, (k0_off169 k0_t3) a + S1x16.size a ≤ S50x128.size a
  k0_off170_inb : ∀ k0_t3 : Fin k0_t3_loop.trips, ∀ a, (k0_off170 k0_t3) a + S1x16.size a ≤ S50x128.size a
  k0_off171_inb : ∀ k0_t3 : Fin k0_t3_loop.trips, ∀ a, (k0_off171 k0_t3) a + S1x16.size a ≤ S50x128.size a
  k0_off172_inb : ∀ k0_t3 : Fin k0_t3_loop.trips, ∀ a, (k0_off172 k0_t3) a + S1x16.size a ≤ S50x128.size a
  k0_off173_inb : ∀ k0_t1 : Fin k0_t1_loop.trips, ∀ a, (k0_off173 k0_t1) a + S1x16.size a ≤ S128x128.size a
  k0_off174_inb : ∀ k0_t1 : Fin k0_t1_loop.trips, ∀ a, (k0_off174 k0_t1) a + S1x16.size a ≤ S128x128.size a
  k0_off175_inb : ∀ k0_t1 : Fin k0_t1_loop.trips, ∀ a, (k0_off175 k0_t1) a + S1x16.size a ≤ S128x128.size a
  k0_off176_inb : ∀ k0_t1 : Fin k0_t1_loop.trips, ∀ a, (k0_off176 k0_t1) a + S1x16.size a ≤ S128x128.size a
  k0_off177_inb : ∀ k0_t1 : Fin k0_t1_loop.trips, ∀ a, (k0_off177 k0_t1) a + S1x16.size a ≤ S128x128.size a
  k0_off178_inb : ∀ k0_t1 : Fin k0_t1_loop.trips, ∀ a, (k0_off178 k0_t1) a + S1x16.size a ≤ S128x128.size a
  k0_off179_inb : ∀ k0_t1 : Fin k0_t1_loop.trips, ∀ a, (k0_off179 k0_t1) a + S1x16.size a ≤ S128x128.size a
  k0_off180_inb : ∀ k0_t1 : Fin k0_t1_loop.trips, ∀ a, (k0_off180 k0_t1) a + S1x16.size a ≤ S128x128.size a
  k0_off181_inb : ∀ k0_t1 : Fin k0_t1_loop.trips, ∀ a, (k0_off181 k0_t1) a + S1x50.size a ≤ S128x50.size a
  k0_t4_ok : k0_t4_loop.OK
  k0_off182_inb : ∀ k0_t4 : Fin k0_t4_loop.trips, ∀ a, (k0_off182 k0_t4) a + S1x16.size a ≤ S50x128.size a
  k0_off183_inb : ∀ k0_t4 : Fin k0_t4_loop.trips, ∀ a, (k0_off183 k0_t4) a + S1x16.size a ≤ S50x128.size a
  k0_off184_inb : ∀ k0_t4 : Fin k0_t4_loop.trips, ∀ a, (k0_off184 k0_t4) a + S1x16.size a ≤ S50x128.size a
  k0_off185_inb : ∀ k0_t4 : Fin k0_t4_loop.trips, ∀ a, (k0_off185 k0_t4) a + S1x16.size a ≤ S50x128.size a
  k0_off186_inb : ∀ k0_t4 : Fin k0_t4_loop.trips, ∀ a, (k0_off186 k0_t4) a + S1x16.size a ≤ S50x128.size a
  k0_off187_inb : ∀ k0_t4 : Fin k0_t4_loop.trips, ∀ a, (k0_off187 k0_t4) a + S1x16.size a ≤ S50x128.size a
  k0_off188_inb : ∀ k0_t4 : Fin k0_t4_loop.trips, ∀ a, (k0_off188 k0_t4) a + S1x16.size a ≤ S50x128.size a
  k0_off189_inb : ∀ k0_t4 : Fin k0_t4_loop.trips, ∀ a, (k0_off189 k0_t4) a + S1x16.size a ≤ S50x128.size a
  k0_off190_inb : ∀ k0_t4 : Fin k0_t4_loop.trips, ∀ a, (k0_off190 k0_t4) a + S1x16.size a ≤ S50x128.size a
  k0_off191_inb : ∀ k0_t4 : Fin k0_t4_loop.trips, ∀ a, (k0_off191 k0_t4) a + S1x16.size a ≤ S50x128.size a
  k0_off192_inb : ∀ k0_t4 : Fin k0_t4_loop.trips, ∀ a, (k0_off192 k0_t4) a + S1x16.size a ≤ S50x128.size a
  k0_off193_inb : ∀ k0_t4 : Fin k0_t4_loop.trips, ∀ a, (k0_off193 k0_t4) a + S1x16.size a ≤ S50x128.size a
  k0_off194_inb : ∀ k0_t4 : Fin k0_t4_loop.trips, ∀ a, (k0_off194 k0_t4) a + S1x16.size a ≤ S50x128.size a
  k0_off195_inb : ∀ k0_t4 : Fin k0_t4_loop.trips, ∀ a, (k0_off195 k0_t4) a + S1x16.size a ≤ S50x128.size a
  k0_off196_inb : ∀ k0_t4 : Fin k0_t4_loop.trips, ∀ a, (k0_off196 k0_t4) a + S1x16.size a ≤ S50x128.size a
  k0_off197_inb : ∀ k0_t4 : Fin k0_t4_loop.trips, ∀ a, (k0_off197 k0_t4) a + S1x16.size a ≤ S50x128.size a
  k0_off198_inb : ∀ k0_t4 : Fin k0_t4_loop.trips, ∀ a, (k0_off198 k0_t4) a + S1x16.size a ≤ S50x128.size a
  k0_off199_inb : ∀ k0_t4 : Fin k0_t4_loop.trips, ∀ a, (k0_off199 k0_t4) a + S1x16.size a ≤ S50x128.size a
  k0_off200_inb : ∀ k0_t4 : Fin k0_t4_loop.trips, ∀ a, (k0_off200 k0_t4) a + S1x16.size a ≤ S50x128.size a
  k0_off201_inb : ∀ k0_t4 : Fin k0_t4_loop.trips, ∀ a, (k0_off201 k0_t4) a + S1x16.size a ≤ S50x128.size a
  k0_off202_inb : ∀ k0_t4 : Fin k0_t4_loop.trips, ∀ a, (k0_off202 k0_t4) a + S1x16.size a ≤ S50x128.size a
  k0_off203_inb : ∀ k0_t4 : Fin k0_t4_loop.trips, ∀ a, (k0_off203 k0_t4) a + S1x16.size a ≤ S50x128.size a
  k0_off204_inb : ∀ k0_t4 : Fin k0_t4_loop.trips, ∀ a, (k0_off204 k0_t4) a + S1x16.size a ≤ S50x128.size a
  k0_off205_inb : ∀ k0_t4 : Fin k0_t4_loop.trips, ∀ a, (k0_off205 k0_t4) a + S1x16.size a ≤ S50x128.size a
  k0_off206_inb : ∀ k0_t4 : Fin k0_t4_loop.trips, ∀ a, (k0_off206 k0_t4) a + S1x16.size a ≤ S50x128.size a
  k0_off207_inb : ∀ k0_t4 : Fin k0_t4_loop.trips, ∀ a, (k0_off207 k0_t4) a + S1x16.size a ≤ S50x128.size a
  k0_off208_inb : ∀ k0_t4 : Fin k0_t4_loop.trips, ∀ a, (k0_off208 k0_t4) a + S1x16.size a ≤ S50x128.size a
  k0_off209_inb : ∀ k0_t4 : Fin k0_t4_loop.trips, ∀ a, (k0_off209 k0_t4) a + S1x16.size a ≤ S50x128.size a
  k0_off210_inb : ∀ k0_t4 : Fin k0_t4_loop.trips, ∀ a, (k0_off210 k0_t4) a + S1x16.size a ≤ S50x128.size a
  k0_off211_inb : ∀ k0_t4 : Fin k0_t4_loop.trips, ∀ a, (k0_off211 k0_t4) a + S1x16.size a ≤ S50x128.size a
  k0_off212_inb : ∀ k0_t4 : Fin k0_t4_loop.trips, ∀ a, (k0_off212 k0_t4) a + S1x16.size a ≤ S50x128.size a
  k0_off213_inb : ∀ k0_t4 : Fin k0_t4_loop.trips, ∀ a, (k0_off213 k0_t4) a + S1x16.size a ≤ S50x128.size a
  k0_off214_inb : ∀ k0_t4 : Fin k0_t4_loop.trips, ∀ a, (k0_off214 k0_t4) a + S1x16.size a ≤ S50x128.size a
  k0_off215_inb : ∀ k0_t4 : Fin k0_t4_loop.trips, ∀ a, (k0_off215 k0_t4) a + S1x16.size a ≤ S50x128.size a
  k0_off216_inb : ∀ k0_t4 : Fin k0_t4_loop.trips, ∀ a, (k0_off216 k0_t4) a + S1x16.size a ≤ S50x128.size a
  k0_off217_inb : ∀ k0_t4 : Fin k0_t4_loop.trips, ∀ a, (k0_off217 k0_t4) a + S1x16.size a ≤ S50x128.size a
  k0_off218_inb : ∀ k0_t4 : Fin k0_t4_loop.trips, ∀ a, (k0_off218 k0_t4) a + S1x16.size a ≤ S50x128.size a
  k0_off219_inb : ∀ k0_t4 : Fin k0_t4_loop.trips, ∀ a, (k0_off219 k0_t4) a + S1x16.size a ≤ S50x128.size a
  k0_off220_inb : ∀ k0_t4 : Fin k0_t4_loop.trips, ∀ a, (k0_off220 k0_t4) a + S1x16.size a ≤ S50x128.size a
  k0_off221_inb : ∀ k0_t4 : Fin k0_t4_loop.trips, ∀ a, (k0_off221 k0_t4) a + S1x16.size a ≤ S50x128.size a
  k0_off222_inb : ∀ k0_t4 : Fin k0_t4_loop.trips, ∀ a, (k0_off222 k0_t4) a + S1x16.size a ≤ S50x128.size a
  k0_off223_inb : ∀ k0_t4 : Fin k0_t4_loop.trips, ∀ a, (k0_off223 k0_t4) a + S1x16.size a ≤ S50x128.size a
  k0_off224_inb : ∀ k0_t4 : Fin k0_t4_loop.trips, ∀ a, (k0_off224 k0_t4) a + S1x16.size a ≤ S50x128.size a
  k0_off225_inb : ∀ k0_t4 : Fin k0_t4_loop.trips, ∀ a, (k0_off225 k0_t4) a + S1x16.size a ≤ S50x128.size a
  k0_off226_inb : ∀ k0_t4 : Fin k0_t4_loop.trips, ∀ a, (k0_off226 k0_t4) a + S1x16.size a ≤ S50x128.size a
  k0_off227_inb : ∀ k0_t4 : Fin k0_t4_loop.trips, ∀ a, (k0_off227 k0_t4) a + S1x16.size a ≤ S50x128.size a
  k0_off228_inb : ∀ k0_t4 : Fin k0_t4_loop.trips, ∀ a, (k0_off228 k0_t4) a + S1x16.size a ≤ S50x128.size a
  k0_off229_inb : ∀ k0_t4 : Fin k0_t4_loop.trips, ∀ a, (k0_off229 k0_t4) a + S1x16.size a ≤ S50x128.size a
  k0_off230_inb : ∀ k0_t4 : Fin k0_t4_loop.trips, ∀ a, (k0_off230 k0_t4) a + S1x16.size a ≤ S50x128.size a
  k0_off231_inb : ∀ k0_t4 : Fin k0_t4_loop.trips, ∀ a, (k0_off231 k0_t4) a + S1x16.size a ≤ S50x128.size a
  k0_off232_inb : ∀ k0_t4 : Fin k0_t4_loop.trips, ∀ a, (k0_off232 k0_t4) a + S1x16.size a ≤ S50x128.size a
  k0_off233_inb : ∀ k0_t4 : Fin k0_t4_loop.trips, ∀ a, (k0_off233 k0_t4) a + S1x16.size a ≤ S50x128.size a
  k0_off234_inb : ∀ k0_t4 : Fin k0_t4_loop.trips, ∀ a, (k0_off234 k0_t4) a + S1x16.size a ≤ S50x128.size a
  k0_off235_inb : ∀ k0_t4 : Fin k0_t4_loop.trips, ∀ a, (k0_off235 k0_t4) a + S1x16.size a ≤ S50x128.size a
  k0_off236_inb : ∀ k0_t4 : Fin k0_t4_loop.trips, ∀ a, (k0_off236 k0_t4) a + S1x16.size a ≤ S50x128.size a
  k0_off237_inb : ∀ k0_t4 : Fin k0_t4_loop.trips, ∀ a, (k0_off237 k0_t4) a + S1x16.size a ≤ S50x128.size a
  k0_off238_inb : ∀ k0_t4 : Fin k0_t4_loop.trips, ∀ a, (k0_off238 k0_t4) a + S1x16.size a ≤ S50x128.size a
  k0_off239_inb : ∀ k0_t4 : Fin k0_t4_loop.trips, ∀ a, (k0_off239 k0_t4) a + S1x16.size a ≤ S50x128.size a
  k0_off240_inb : ∀ k0_t4 : Fin k0_t4_loop.trips, ∀ a, (k0_off240 k0_t4) a + S1x16.size a ≤ S50x128.size a
  k0_off241_inb : ∀ k0_t4 : Fin k0_t4_loop.trips, ∀ a, (k0_off241 k0_t4) a + S1x16.size a ≤ S50x128.size a
  k0_off242_inb : ∀ k0_t4 : Fin k0_t4_loop.trips, ∀ a, (k0_off242 k0_t4) a + S1x16.size a ≤ S50x128.size a
  k0_off243_inb : ∀ k0_t4 : Fin k0_t4_loop.trips, ∀ a, (k0_off243 k0_t4) a + S1x16.size a ≤ S50x128.size a
  k0_off244_inb : ∀ k0_t4 : Fin k0_t4_loop.trips, ∀ a, (k0_off244 k0_t4) a + S1x16.size a ≤ S50x128.size a
  k0_off245_inb : ∀ k0_t4 : Fin k0_t4_loop.trips, ∀ a, (k0_off245 k0_t4) a + S1x16.size a ≤ S50x128.size a
  k0_off246_inb : ∀ k0_t4 : Fin k0_t4_loop.trips, ∀ a, (k0_off246 k0_t4) a + S1x16.size a ≤ S50x128.size a
  k0_off247_inb : ∀ k0_t4 : Fin k0_t4_loop.trips, ∀ a, (k0_off247 k0_t4) a + S1x16.size a ≤ S50x128.size a
  k0_off248_inb : ∀ k0_t4 : Fin k0_t4_loop.trips, ∀ a, (k0_off248 k0_t4) a + S1x16.size a ≤ S50x128.size a
  k0_off249_inb : ∀ k0_t4 : Fin k0_t4_loop.trips, ∀ a, (k0_off249 k0_t4) a + S1x16.size a ≤ S50x128.size a
  k0_off250_inb : ∀ k0_t4 : Fin k0_t4_loop.trips, ∀ a, (k0_off250 k0_t4) a + S1x16.size a ≤ S50x128.size a
  k0_off251_inb : ∀ k0_t4 : Fin k0_t4_loop.trips, ∀ a, (k0_off251 k0_t4) a + S1x16.size a ≤ S50x128.size a
  k0_off252_inb : ∀ k0_t4 : Fin k0_t4_loop.trips, ∀ a, (k0_off252 k0_t4) a + S1x16.size a ≤ S50x128.size a
  k0_off253_inb : ∀ k0_t4 : Fin k0_t4_loop.trips, ∀ a, (k0_off253 k0_t4) a + S1x16.size a ≤ S50x128.size a
  k0_off254_inb : ∀ k0_t4 : Fin k0_t4_loop.trips, ∀ a, (k0_off254 k0_t4) a + S1x16.size a ≤ S50x128.size a
  k0_off255_inb : ∀ k0_t4 : Fin k0_t4_loop.trips, ∀ a, (k0_off255 k0_t4) a + S1x16.size a ≤ S50x128.size a
  k0_off256_inb : ∀ k0_t4 : Fin k0_t4_loop.trips, ∀ a, (k0_off256 k0_t4) a + S1x16.size a ≤ S50x128.size a
  k0_off257_inb : ∀ k0_t4 : Fin k0_t4_loop.trips, ∀ a, (k0_off257 k0_t4) a + S1x16.size a ≤ S50x128.size a
  k0_off258_inb : ∀ k0_t4 : Fin k0_t4_loop.trips, ∀ a, (k0_off258 k0_t4) a + S1x16.size a ≤ S50x128.size a
  k0_off259_inb : ∀ k0_t4 : Fin k0_t4_loop.trips, ∀ a, (k0_off259 k0_t4) a + S1x16.size a ≤ S50x128.size a
  k0_off260_inb : ∀ k0_t4 : Fin k0_t4_loop.trips, ∀ a, (k0_off260 k0_t4) a + S1x16.size a ≤ S50x128.size a
  k0_off261_inb : ∀ k0_t4 : Fin k0_t4_loop.trips, ∀ a, (k0_off261 k0_t4) a + S1x16.size a ≤ S50x128.size a
  k0_off262_inb : ∀ k0_t1 : Fin k0_t1_loop.trips, ∀ a, (k0_off262 k0_t1) a + S1x16.size a ≤ S128x128.size a
  k0_off263_inb : ∀ k0_t1 : Fin k0_t1_loop.trips, ∀ a, (k0_off263 k0_t1) a + S1x16.size a ≤ S128x128.size a
  k0_off264_inb : ∀ k0_t1 : Fin k0_t1_loop.trips, ∀ a, (k0_off264 k0_t1) a + S1x16.size a ≤ S128x128.size a
  k0_off265_inb : ∀ k0_t1 : Fin k0_t1_loop.trips, ∀ a, (k0_off265 k0_t1) a + S1x16.size a ≤ S128x128.size a
  k0_off266_inb : ∀ k0_t1 : Fin k0_t1_loop.trips, ∀ a, (k0_off266 k0_t1) a + S1x16.size a ≤ S128x128.size a
  k0_off267_inb : ∀ k0_t1 : Fin k0_t1_loop.trips, ∀ a, (k0_off267 k0_t1) a + S1x16.size a ≤ S128x128.size a
  k0_off268_inb : ∀ k0_t1 : Fin k0_t1_loop.trips, ∀ a, (k0_off268 k0_t1) a + S1x16.size a ≤ S128x128.size a
  k0_off269_inb : ∀ k0_t1 : Fin k0_t1_loop.trips, ∀ a, (k0_off269 k0_t1) a + S1x16.size a ≤ S128x128.size a
  k0_off270_inb : ∀ k0_t1 : Fin k0_t1_loop.trips, ∀ a, (k0_off270 k0_t1) a + S1x50.size a ≤ S128x50.size a
  k0_t5_ok : k0_t5_loop.OK
  k0_off271_inb : ∀ k0_t5 : Fin k0_t5_loop.trips, ∀ a, (k0_off271 k0_t5) a + S1x16.size a ≤ S50x128.size a
  k0_off272_inb : ∀ k0_t5 : Fin k0_t5_loop.trips, ∀ a, (k0_off272 k0_t5) a + S1x16.size a ≤ S50x128.size a
  k0_off273_inb : ∀ k0_t5 : Fin k0_t5_loop.trips, ∀ a, (k0_off273 k0_t5) a + S1x16.size a ≤ S50x128.size a
  k0_off274_inb : ∀ k0_t5 : Fin k0_t5_loop.trips, ∀ a, (k0_off274 k0_t5) a + S1x16.size a ≤ S50x128.size a
  k0_off275_inb : ∀ k0_t5 : Fin k0_t5_loop.trips, ∀ a, (k0_off275 k0_t5) a + S1x16.size a ≤ S50x128.size a
  k0_off276_inb : ∀ k0_t5 : Fin k0_t5_loop.trips, ∀ a, (k0_off276 k0_t5) a + S1x16.size a ≤ S50x128.size a
  k0_off277_inb : ∀ k0_t5 : Fin k0_t5_loop.trips, ∀ a, (k0_off277 k0_t5) a + S1x16.size a ≤ S50x128.size a
  k0_off278_inb : ∀ k0_t5 : Fin k0_t5_loop.trips, ∀ a, (k0_off278 k0_t5) a + S1x16.size a ≤ S50x128.size a
  k0_off279_inb : ∀ k0_t5 : Fin k0_t5_loop.trips, ∀ a, (k0_off279 k0_t5) a + S1x16.size a ≤ S50x128.size a
  k0_off280_inb : ∀ k0_t5 : Fin k0_t5_loop.trips, ∀ a, (k0_off280 k0_t5) a + S1x16.size a ≤ S50x128.size a
  k0_off281_inb : ∀ k0_t5 : Fin k0_t5_loop.trips, ∀ a, (k0_off281 k0_t5) a + S1x16.size a ≤ S50x128.size a
  k0_off282_inb : ∀ k0_t5 : Fin k0_t5_loop.trips, ∀ a, (k0_off282 k0_t5) a + S1x16.size a ≤ S50x128.size a
  k0_off283_inb : ∀ k0_t5 : Fin k0_t5_loop.trips, ∀ a, (k0_off283 k0_t5) a + S1x16.size a ≤ S50x128.size a
  k0_off284_inb : ∀ k0_t5 : Fin k0_t5_loop.trips, ∀ a, (k0_off284 k0_t5) a + S1x16.size a ≤ S50x128.size a
  k0_off285_inb : ∀ k0_t5 : Fin k0_t5_loop.trips, ∀ a, (k0_off285 k0_t5) a + S1x16.size a ≤ S50x128.size a
  k0_off286_inb : ∀ k0_t5 : Fin k0_t5_loop.trips, ∀ a, (k0_off286 k0_t5) a + S1x16.size a ≤ S50x128.size a
  k0_off287_inb : ∀ k0_t5 : Fin k0_t5_loop.trips, ∀ a, (k0_off287 k0_t5) a + S1x16.size a ≤ S50x128.size a
  k0_off288_inb : ∀ k0_t5 : Fin k0_t5_loop.trips, ∀ a, (k0_off288 k0_t5) a + S1x16.size a ≤ S50x128.size a
  k0_off289_inb : ∀ k0_t5 : Fin k0_t5_loop.trips, ∀ a, (k0_off289 k0_t5) a + S1x16.size a ≤ S50x128.size a
  k0_off290_inb : ∀ k0_t5 : Fin k0_t5_loop.trips, ∀ a, (k0_off290 k0_t5) a + S1x16.size a ≤ S50x128.size a
  k0_off291_inb : ∀ k0_t5 : Fin k0_t5_loop.trips, ∀ a, (k0_off291 k0_t5) a + S1x16.size a ≤ S50x128.size a
  k0_off292_inb : ∀ k0_t5 : Fin k0_t5_loop.trips, ∀ a, (k0_off292 k0_t5) a + S1x16.size a ≤ S50x128.size a
  k0_off293_inb : ∀ k0_t5 : Fin k0_t5_loop.trips, ∀ a, (k0_off293 k0_t5) a + S1x16.size a ≤ S50x128.size a
  k0_off294_inb : ∀ k0_t5 : Fin k0_t5_loop.trips, ∀ a, (k0_off294 k0_t5) a + S1x16.size a ≤ S50x128.size a
  k0_off295_inb : ∀ k0_t5 : Fin k0_t5_loop.trips, ∀ a, (k0_off295 k0_t5) a + S1x16.size a ≤ S50x128.size a
  k0_off296_inb : ∀ k0_t5 : Fin k0_t5_loop.trips, ∀ a, (k0_off296 k0_t5) a + S1x16.size a ≤ S50x128.size a
  k0_off297_inb : ∀ k0_t5 : Fin k0_t5_loop.trips, ∀ a, (k0_off297 k0_t5) a + S1x16.size a ≤ S50x128.size a
  k0_off298_inb : ∀ k0_t5 : Fin k0_t5_loop.trips, ∀ a, (k0_off298 k0_t5) a + S1x16.size a ≤ S50x128.size a
  k0_off299_inb : ∀ k0_t5 : Fin k0_t5_loop.trips, ∀ a, (k0_off299 k0_t5) a + S1x16.size a ≤ S50x128.size a
  k0_off300_inb : ∀ k0_t5 : Fin k0_t5_loop.trips, ∀ a, (k0_off300 k0_t5) a + S1x16.size a ≤ S50x128.size a
  k0_off301_inb : ∀ k0_t5 : Fin k0_t5_loop.trips, ∀ a, (k0_off301 k0_t5) a + S1x16.size a ≤ S50x128.size a
  k0_off302_inb : ∀ k0_t5 : Fin k0_t5_loop.trips, ∀ a, (k0_off302 k0_t5) a + S1x16.size a ≤ S50x128.size a
  k0_off303_inb : ∀ k0_t5 : Fin k0_t5_loop.trips, ∀ a, (k0_off303 k0_t5) a + S1x16.size a ≤ S50x128.size a
  k0_off304_inb : ∀ k0_t5 : Fin k0_t5_loop.trips, ∀ a, (k0_off304 k0_t5) a + S1x16.size a ≤ S50x128.size a
  k0_off305_inb : ∀ k0_t5 : Fin k0_t5_loop.trips, ∀ a, (k0_off305 k0_t5) a + S1x16.size a ≤ S50x128.size a
  k0_off306_inb : ∀ k0_t5 : Fin k0_t5_loop.trips, ∀ a, (k0_off306 k0_t5) a + S1x16.size a ≤ S50x128.size a
  k0_off307_inb : ∀ k0_t5 : Fin k0_t5_loop.trips, ∀ a, (k0_off307 k0_t5) a + S1x16.size a ≤ S50x128.size a
  k0_off308_inb : ∀ k0_t5 : Fin k0_t5_loop.trips, ∀ a, (k0_off308 k0_t5) a + S1x16.size a ≤ S50x128.size a
  k0_off309_inb : ∀ k0_t5 : Fin k0_t5_loop.trips, ∀ a, (k0_off309 k0_t5) a + S1x16.size a ≤ S50x128.size a
  k0_off310_inb : ∀ k0_t5 : Fin k0_t5_loop.trips, ∀ a, (k0_off310 k0_t5) a + S1x16.size a ≤ S50x128.size a
  k0_off311_inb : ∀ k0_t5 : Fin k0_t5_loop.trips, ∀ a, (k0_off311 k0_t5) a + S1x16.size a ≤ S50x128.size a
  k0_off312_inb : ∀ k0_t5 : Fin k0_t5_loop.trips, ∀ a, (k0_off312 k0_t5) a + S1x16.size a ≤ S50x128.size a
  k0_off313_inb : ∀ k0_t5 : Fin k0_t5_loop.trips, ∀ a, (k0_off313 k0_t5) a + S1x16.size a ≤ S50x128.size a
  k0_off314_inb : ∀ k0_t5 : Fin k0_t5_loop.trips, ∀ a, (k0_off314 k0_t5) a + S1x16.size a ≤ S50x128.size a
  k0_off315_inb : ∀ k0_t5 : Fin k0_t5_loop.trips, ∀ a, (k0_off315 k0_t5) a + S1x16.size a ≤ S50x128.size a
  k0_off316_inb : ∀ k0_t5 : Fin k0_t5_loop.trips, ∀ a, (k0_off316 k0_t5) a + S1x16.size a ≤ S50x128.size a
  k0_off317_inb : ∀ k0_t5 : Fin k0_t5_loop.trips, ∀ a, (k0_off317 k0_t5) a + S1x16.size a ≤ S50x128.size a
  k0_off318_inb : ∀ k0_t5 : Fin k0_t5_loop.trips, ∀ a, (k0_off318 k0_t5) a + S1x16.size a ≤ S50x128.size a
  k0_off319_inb : ∀ k0_t5 : Fin k0_t5_loop.trips, ∀ a, (k0_off319 k0_t5) a + S1x16.size a ≤ S50x128.size a
  k0_off320_inb : ∀ k0_t5 : Fin k0_t5_loop.trips, ∀ a, (k0_off320 k0_t5) a + S1x16.size a ≤ S50x128.size a
  k0_off321_inb : ∀ k0_t5 : Fin k0_t5_loop.trips, ∀ a, (k0_off321 k0_t5) a + S1x16.size a ≤ S50x128.size a
  k0_off322_inb : ∀ k0_t5 : Fin k0_t5_loop.trips, ∀ a, (k0_off322 k0_t5) a + S1x16.size a ≤ S50x128.size a
  k0_off323_inb : ∀ k0_t5 : Fin k0_t5_loop.trips, ∀ a, (k0_off323 k0_t5) a + S1x16.size a ≤ S50x128.size a
  k0_off324_inb : ∀ k0_t5 : Fin k0_t5_loop.trips, ∀ a, (k0_off324 k0_t5) a + S1x16.size a ≤ S50x128.size a
  k0_off325_inb : ∀ k0_t5 : Fin k0_t5_loop.trips, ∀ a, (k0_off325 k0_t5) a + S1x16.size a ≤ S50x128.size a
  k0_off326_inb : ∀ k0_t5 : Fin k0_t5_loop.trips, ∀ a, (k0_off326 k0_t5) a + S1x16.size a ≤ S50x128.size a
  k0_off327_inb : ∀ k0_t5 : Fin k0_t5_loop.trips, ∀ a, (k0_off327 k0_t5) a + S1x16.size a ≤ S50x128.size a
  k0_off328_inb : ∀ k0_t5 : Fin k0_t5_loop.trips, ∀ a, (k0_off328 k0_t5) a + S1x16.size a ≤ S50x128.size a
  k0_off329_inb : ∀ k0_t5 : Fin k0_t5_loop.trips, ∀ a, (k0_off329 k0_t5) a + S1x16.size a ≤ S50x128.size a
  k0_off330_inb : ∀ k0_t5 : Fin k0_t5_loop.trips, ∀ a, (k0_off330 k0_t5) a + S1x16.size a ≤ S50x128.size a
  k0_off331_inb : ∀ k0_t5 : Fin k0_t5_loop.trips, ∀ a, (k0_off331 k0_t5) a + S1x16.size a ≤ S50x128.size a
  k0_off332_inb : ∀ k0_t5 : Fin k0_t5_loop.trips, ∀ a, (k0_off332 k0_t5) a + S1x16.size a ≤ S50x128.size a
  k0_off333_inb : ∀ k0_t5 : Fin k0_t5_loop.trips, ∀ a, (k0_off333 k0_t5) a + S1x16.size a ≤ S50x128.size a
  k0_off334_inb : ∀ k0_t5 : Fin k0_t5_loop.trips, ∀ a, (k0_off334 k0_t5) a + S1x16.size a ≤ S50x128.size a
  k0_off335_inb : ∀ k0_t5 : Fin k0_t5_loop.trips, ∀ a, (k0_off335 k0_t5) a + S1x16.size a ≤ S50x128.size a
  k0_off336_inb : ∀ k0_t5 : Fin k0_t5_loop.trips, ∀ a, (k0_off336 k0_t5) a + S1x16.size a ≤ S50x128.size a
  k0_off337_inb : ∀ k0_t5 : Fin k0_t5_loop.trips, ∀ a, (k0_off337 k0_t5) a + S1x16.size a ≤ S50x128.size a
  k0_off338_inb : ∀ k0_t5 : Fin k0_t5_loop.trips, ∀ a, (k0_off338 k0_t5) a + S1x16.size a ≤ S50x128.size a
  k0_off339_inb : ∀ k0_t5 : Fin k0_t5_loop.trips, ∀ a, (k0_off339 k0_t5) a + S1x16.size a ≤ S50x128.size a
  k0_off340_inb : ∀ k0_t5 : Fin k0_t5_loop.trips, ∀ a, (k0_off340 k0_t5) a + S1x16.size a ≤ S50x128.size a
  k0_off341_inb : ∀ k0_t5 : Fin k0_t5_loop.trips, ∀ a, (k0_off341 k0_t5) a + S1x16.size a ≤ S50x128.size a
  k0_off342_inb : ∀ k0_t5 : Fin k0_t5_loop.trips, ∀ a, (k0_off342 k0_t5) a + S1x16.size a ≤ S50x128.size a
  k0_off343_inb : ∀ k0_t5 : Fin k0_t5_loop.trips, ∀ a, (k0_off343 k0_t5) a + S1x16.size a ≤ S50x128.size a
  k0_off344_inb : ∀ k0_t5 : Fin k0_t5_loop.trips, ∀ a, (k0_off344 k0_t5) a + S1x16.size a ≤ S50x128.size a
  k0_off345_inb : ∀ k0_t5 : Fin k0_t5_loop.trips, ∀ a, (k0_off345 k0_t5) a + S1x16.size a ≤ S50x128.size a
  k0_off346_inb : ∀ k0_t5 : Fin k0_t5_loop.trips, ∀ a, (k0_off346 k0_t5) a + S1x16.size a ≤ S50x128.size a
  k0_off347_inb : ∀ k0_t5 : Fin k0_t5_loop.trips, ∀ a, (k0_off347 k0_t5) a + S1x16.size a ≤ S50x128.size a
  k0_off348_inb : ∀ k0_t5 : Fin k0_t5_loop.trips, ∀ a, (k0_off348 k0_t5) a + S1x16.size a ≤ S50x128.size a
  k0_off349_inb : ∀ k0_t5 : Fin k0_t5_loop.trips, ∀ a, (k0_off349 k0_t5) a + S1x16.size a ≤ S50x128.size a
  k0_off350_inb : ∀ k0_t5 : Fin k0_t5_loop.trips, ∀ a, (k0_off350 k0_t5) a + S1x16.size a ≤ S50x128.size a
  k0_off351_inb : ∀ k0_t1 : Fin k0_t1_loop.trips, ∀ a, (k0_off351 k0_t1) a + S1x16.size a ≤ S128x128.size a
  k0_off352_inb : ∀ k0_t1 : Fin k0_t1_loop.trips, ∀ a, (k0_off352 k0_t1) a + S1x16.size a ≤ S128x128.size a
  k0_off353_inb : ∀ k0_t1 : Fin k0_t1_loop.trips, ∀ a, (k0_off353 k0_t1) a + S1x16.size a ≤ S128x128.size a
  k0_off354_inb : ∀ k0_t1 : Fin k0_t1_loop.trips, ∀ a, (k0_off354 k0_t1) a + S1x16.size a ≤ S128x128.size a
  k0_off355_inb : ∀ k0_t1 : Fin k0_t1_loop.trips, ∀ a, (k0_off355 k0_t1) a + S1x16.size a ≤ S128x128.size a
  k0_off356_inb : ∀ k0_t1 : Fin k0_t1_loop.trips, ∀ a, (k0_off356 k0_t1) a + S1x16.size a ≤ S128x128.size a
  k0_off357_inb : ∀ k0_t1 : Fin k0_t1_loop.trips, ∀ a, (k0_off357 k0_t1) a + S1x16.size a ≤ S128x128.size a
  k0_off358_inb : ∀ k0_t1 : Fin k0_t1_loop.trips, ∀ a, (k0_off358 k0_t1) a + S1x16.size a ≤ S128x128.size a
  k0_off359_inb : ∀ k0_t1 : Fin k0_t1_loop.trips, ∀ a, (k0_off359 k0_t1) a + S1x50.size a ≤ S128x50.size a
  k0_t6_ok : k0_t6_loop.OK
  k0_off360_inb : ∀ k0_t6 : Fin k0_t6_loop.trips, ∀ a, (k0_off360 k0_t6) a + S1x16.size a ≤ S50x128.size a
  k0_off361_inb : ∀ k0_t6 : Fin k0_t6_loop.trips, ∀ a, (k0_off361 k0_t6) a + S1x16.size a ≤ S50x128.size a
  k0_off362_inb : ∀ k0_t6 : Fin k0_t6_loop.trips, ∀ a, (k0_off362 k0_t6) a + S1x16.size a ≤ S50x128.size a
  k0_off363_inb : ∀ k0_t6 : Fin k0_t6_loop.trips, ∀ a, (k0_off363 k0_t6) a + S1x16.size a ≤ S50x128.size a
  k0_off364_inb : ∀ k0_t6 : Fin k0_t6_loop.trips, ∀ a, (k0_off364 k0_t6) a + S1x16.size a ≤ S50x128.size a
  k0_off365_inb : ∀ k0_t6 : Fin k0_t6_loop.trips, ∀ a, (k0_off365 k0_t6) a + S1x16.size a ≤ S50x128.size a
  k0_off366_inb : ∀ k0_t6 : Fin k0_t6_loop.trips, ∀ a, (k0_off366 k0_t6) a + S1x16.size a ≤ S50x128.size a
  k0_off367_inb : ∀ k0_t6 : Fin k0_t6_loop.trips, ∀ a, (k0_off367 k0_t6) a + S1x16.size a ≤ S50x128.size a
  k0_off368_inb : ∀ k0_t6 : Fin k0_t6_loop.trips, ∀ a, (k0_off368 k0_t6) a + S1x16.size a ≤ S50x128.size a
  k0_off369_inb : ∀ k0_t6 : Fin k0_t6_loop.trips, ∀ a, (k0_off369 k0_t6) a + S1x16.size a ≤ S50x128.size a
  k0_off370_inb : ∀ k0_t6 : Fin k0_t6_loop.trips, ∀ a, (k0_off370 k0_t6) a + S1x16.size a ≤ S50x128.size a
  k0_off371_inb : ∀ k0_t6 : Fin k0_t6_loop.trips, ∀ a, (k0_off371 k0_t6) a + S1x16.size a ≤ S50x128.size a
  k0_off372_inb : ∀ k0_t6 : Fin k0_t6_loop.trips, ∀ a, (k0_off372 k0_t6) a + S1x16.size a ≤ S50x128.size a
  k0_off373_inb : ∀ k0_t6 : Fin k0_t6_loop.trips, ∀ a, (k0_off373 k0_t6) a + S1x16.size a ≤ S50x128.size a
  k0_off374_inb : ∀ k0_t6 : Fin k0_t6_loop.trips, ∀ a, (k0_off374 k0_t6) a + S1x16.size a ≤ S50x128.size a
  k0_off375_inb : ∀ k0_t6 : Fin k0_t6_loop.trips, ∀ a, (k0_off375 k0_t6) a + S1x16.size a ≤ S50x128.size a
  k0_off376_inb : ∀ k0_t6 : Fin k0_t6_loop.trips, ∀ a, (k0_off376 k0_t6) a + S1x16.size a ≤ S50x128.size a
  k0_off377_inb : ∀ k0_t6 : Fin k0_t6_loop.trips, ∀ a, (k0_off377 k0_t6) a + S1x16.size a ≤ S50x128.size a
  k0_off378_inb : ∀ k0_t6 : Fin k0_t6_loop.trips, ∀ a, (k0_off378 k0_t6) a + S1x16.size a ≤ S50x128.size a
  k0_off379_inb : ∀ k0_t6 : Fin k0_t6_loop.trips, ∀ a, (k0_off379 k0_t6) a + S1x16.size a ≤ S50x128.size a
  k0_off380_inb : ∀ k0_t6 : Fin k0_t6_loop.trips, ∀ a, (k0_off380 k0_t6) a + S1x16.size a ≤ S50x128.size a
  k0_off381_inb : ∀ k0_t6 : Fin k0_t6_loop.trips, ∀ a, (k0_off381 k0_t6) a + S1x16.size a ≤ S50x128.size a
  k0_off382_inb : ∀ k0_t6 : Fin k0_t6_loop.trips, ∀ a, (k0_off382 k0_t6) a + S1x16.size a ≤ S50x128.size a
  k0_off383_inb : ∀ k0_t6 : Fin k0_t6_loop.trips, ∀ a, (k0_off383 k0_t6) a + S1x16.size a ≤ S50x128.size a
  k0_off384_inb : ∀ k0_t6 : Fin k0_t6_loop.trips, ∀ a, (k0_off384 k0_t6) a + S1x16.size a ≤ S50x128.size a
  k0_off385_inb : ∀ k0_t6 : Fin k0_t6_loop.trips, ∀ a, (k0_off385 k0_t6) a + S1x16.size a ≤ S50x128.size a
  k0_off386_inb : ∀ k0_t6 : Fin k0_t6_loop.trips, ∀ a, (k0_off386 k0_t6) a + S1x16.size a ≤ S50x128.size a
  k0_off387_inb : ∀ k0_t6 : Fin k0_t6_loop.trips, ∀ a, (k0_off387 k0_t6) a + S1x16.size a ≤ S50x128.size a
  k0_off388_inb : ∀ k0_t6 : Fin k0_t6_loop.trips, ∀ a, (k0_off388 k0_t6) a + S1x16.size a ≤ S50x128.size a
  k0_off389_inb : ∀ k0_t6 : Fin k0_t6_loop.trips, ∀ a, (k0_off389 k0_t6) a + S1x16.size a ≤ S50x128.size a
  k0_off390_inb : ∀ k0_t6 : Fin k0_t6_loop.trips, ∀ a, (k0_off390 k0_t6) a + S1x16.size a ≤ S50x128.size a
  k0_off391_inb : ∀ k0_t6 : Fin k0_t6_loop.trips, ∀ a, (k0_off391 k0_t6) a + S1x16.size a ≤ S50x128.size a
  k0_off392_inb : ∀ k0_t6 : Fin k0_t6_loop.trips, ∀ a, (k0_off392 k0_t6) a + S1x16.size a ≤ S50x128.size a
  k0_off393_inb : ∀ k0_t6 : Fin k0_t6_loop.trips, ∀ a, (k0_off393 k0_t6) a + S1x16.size a ≤ S50x128.size a
  k0_off394_inb : ∀ k0_t6 : Fin k0_t6_loop.trips, ∀ a, (k0_off394 k0_t6) a + S1x16.size a ≤ S50x128.size a
  k0_off395_inb : ∀ k0_t6 : Fin k0_t6_loop.trips, ∀ a, (k0_off395 k0_t6) a + S1x16.size a ≤ S50x128.size a
  k0_off396_inb : ∀ k0_t6 : Fin k0_t6_loop.trips, ∀ a, (k0_off396 k0_t6) a + S1x16.size a ≤ S50x128.size a
  k0_off397_inb : ∀ k0_t6 : Fin k0_t6_loop.trips, ∀ a, (k0_off397 k0_t6) a + S1x16.size a ≤ S50x128.size a
  k0_off398_inb : ∀ k0_t6 : Fin k0_t6_loop.trips, ∀ a, (k0_off398 k0_t6) a + S1x16.size a ≤ S50x128.size a
  k0_off399_inb : ∀ k0_t6 : Fin k0_t6_loop.trips, ∀ a, (k0_off399 k0_t6) a + S1x16.size a ≤ S50x128.size a
  k0_off400_inb : ∀ k0_t6 : Fin k0_t6_loop.trips, ∀ a, (k0_off400 k0_t6) a + S1x16.size a ≤ S50x128.size a
  k0_off401_inb : ∀ k0_t6 : Fin k0_t6_loop.trips, ∀ a, (k0_off401 k0_t6) a + S1x16.size a ≤ S50x128.size a
  k0_off402_inb : ∀ k0_t6 : Fin k0_t6_loop.trips, ∀ a, (k0_off402 k0_t6) a + S1x16.size a ≤ S50x128.size a
  k0_off403_inb : ∀ k0_t6 : Fin k0_t6_loop.trips, ∀ a, (k0_off403 k0_t6) a + S1x16.size a ≤ S50x128.size a
  k0_off404_inb : ∀ k0_t6 : Fin k0_t6_loop.trips, ∀ a, (k0_off404 k0_t6) a + S1x16.size a ≤ S50x128.size a
  k0_off405_inb : ∀ k0_t6 : Fin k0_t6_loop.trips, ∀ a, (k0_off405 k0_t6) a + S1x16.size a ≤ S50x128.size a
  k0_off406_inb : ∀ k0_t6 : Fin k0_t6_loop.trips, ∀ a, (k0_off406 k0_t6) a + S1x16.size a ≤ S50x128.size a
  k0_off407_inb : ∀ k0_t6 : Fin k0_t6_loop.trips, ∀ a, (k0_off407 k0_t6) a + S1x16.size a ≤ S50x128.size a
  k0_off408_inb : ∀ k0_t6 : Fin k0_t6_loop.trips, ∀ a, (k0_off408 k0_t6) a + S1x16.size a ≤ S50x128.size a
  k0_off409_inb : ∀ k0_t6 : Fin k0_t6_loop.trips, ∀ a, (k0_off409 k0_t6) a + S1x16.size a ≤ S50x128.size a
  k0_off410_inb : ∀ k0_t6 : Fin k0_t6_loop.trips, ∀ a, (k0_off410 k0_t6) a + S1x16.size a ≤ S50x128.size a
  k0_off411_inb : ∀ k0_t6 : Fin k0_t6_loop.trips, ∀ a, (k0_off411 k0_t6) a + S1x16.size a ≤ S50x128.size a
  k0_off412_inb : ∀ k0_t6 : Fin k0_t6_loop.trips, ∀ a, (k0_off412 k0_t6) a + S1x16.size a ≤ S50x128.size a
  k0_off413_inb : ∀ k0_t6 : Fin k0_t6_loop.trips, ∀ a, (k0_off413 k0_t6) a + S1x16.size a ≤ S50x128.size a
  k0_off414_inb : ∀ k0_t6 : Fin k0_t6_loop.trips, ∀ a, (k0_off414 k0_t6) a + S1x16.size a ≤ S50x128.size a
  k0_off415_inb : ∀ k0_t6 : Fin k0_t6_loop.trips, ∀ a, (k0_off415 k0_t6) a + S1x16.size a ≤ S50x128.size a
  k0_off416_inb : ∀ k0_t6 : Fin k0_t6_loop.trips, ∀ a, (k0_off416 k0_t6) a + S1x16.size a ≤ S50x128.size a
  k0_off417_inb : ∀ k0_t6 : Fin k0_t6_loop.trips, ∀ a, (k0_off417 k0_t6) a + S1x16.size a ≤ S50x128.size a
  k0_off418_inb : ∀ k0_t6 : Fin k0_t6_loop.trips, ∀ a, (k0_off418 k0_t6) a + S1x16.size a ≤ S50x128.size a
  k0_off419_inb : ∀ k0_t6 : Fin k0_t6_loop.trips, ∀ a, (k0_off419 k0_t6) a + S1x16.size a ≤ S50x128.size a
  k0_off420_inb : ∀ k0_t6 : Fin k0_t6_loop.trips, ∀ a, (k0_off420 k0_t6) a + S1x16.size a ≤ S50x128.size a
  k0_off421_inb : ∀ k0_t6 : Fin k0_t6_loop.trips, ∀ a, (k0_off421 k0_t6) a + S1x16.size a ≤ S50x128.size a
  k0_off422_inb : ∀ k0_t6 : Fin k0_t6_loop.trips, ∀ a, (k0_off422 k0_t6) a + S1x16.size a ≤ S50x128.size a
  k0_off423_inb : ∀ k0_t6 : Fin k0_t6_loop.trips, ∀ a, (k0_off423 k0_t6) a + S1x16.size a ≤ S50x128.size a
  k0_off424_inb : ∀ k0_t6 : Fin k0_t6_loop.trips, ∀ a, (k0_off424 k0_t6) a + S1x16.size a ≤ S50x128.size a
  k0_off425_inb : ∀ k0_t6 : Fin k0_t6_loop.trips, ∀ a, (k0_off425 k0_t6) a + S1x16.size a ≤ S50x128.size a
  k0_off426_inb : ∀ k0_t6 : Fin k0_t6_loop.trips, ∀ a, (k0_off426 k0_t6) a + S1x16.size a ≤ S50x128.size a
  k0_off427_inb : ∀ k0_t6 : Fin k0_t6_loop.trips, ∀ a, (k0_off427 k0_t6) a + S1x16.size a ≤ S50x128.size a
  k0_off428_inb : ∀ k0_t6 : Fin k0_t6_loop.trips, ∀ a, (k0_off428 k0_t6) a + S1x16.size a ≤ S50x128.size a
  k0_off429_inb : ∀ k0_t6 : Fin k0_t6_loop.trips, ∀ a, (k0_off429 k0_t6) a + S1x16.size a ≤ S50x128.size a
  k0_off430_inb : ∀ k0_t6 : Fin k0_t6_loop.trips, ∀ a, (k0_off430 k0_t6) a + S1x16.size a ≤ S50x128.size a
  k0_off431_inb : ∀ k0_t6 : Fin k0_t6_loop.trips, ∀ a, (k0_off431 k0_t6) a + S1x16.size a ≤ S50x128.size a
  k0_off432_inb : ∀ k0_t6 : Fin k0_t6_loop.trips, ∀ a, (k0_off432 k0_t6) a + S1x16.size a ≤ S50x128.size a
  k0_off433_inb : ∀ k0_t6 : Fin k0_t6_loop.trips, ∀ a, (k0_off433 k0_t6) a + S1x16.size a ≤ S50x128.size a
  k0_off434_inb : ∀ k0_t6 : Fin k0_t6_loop.trips, ∀ a, (k0_off434 k0_t6) a + S1x16.size a ≤ S50x128.size a
  k0_off435_inb : ∀ k0_t6 : Fin k0_t6_loop.trips, ∀ a, (k0_off435 k0_t6) a + S1x16.size a ≤ S50x128.size a
  k0_off436_inb : ∀ k0_t6 : Fin k0_t6_loop.trips, ∀ a, (k0_off436 k0_t6) a + S1x16.size a ≤ S50x128.size a
  k0_off437_inb : ∀ k0_t6 : Fin k0_t6_loop.trips, ∀ a, (k0_off437 k0_t6) a + S1x16.size a ≤ S50x128.size a
  k0_off438_inb : ∀ k0_t6 : Fin k0_t6_loop.trips, ∀ a, (k0_off438 k0_t6) a + S1x16.size a ≤ S50x128.size a
  k0_off439_inb : ∀ k0_t6 : Fin k0_t6_loop.trips, ∀ a, (k0_off439 k0_t6) a + S1x16.size a ≤ S50x128.size a
  k0_off440_inb : ∀ k0_t1 : Fin k0_t1_loop.trips, ∀ a, (k0_off440 k0_t1) a + S1x16.size a ≤ S128x128.size a
  k0_off441_inb : ∀ k0_t1 : Fin k0_t1_loop.trips, ∀ a, (k0_off441 k0_t1) a + S1x16.size a ≤ S128x128.size a
  k0_off442_inb : ∀ k0_t1 : Fin k0_t1_loop.trips, ∀ a, (k0_off442 k0_t1) a + S1x16.size a ≤ S128x128.size a
  k0_off443_inb : ∀ k0_t1 : Fin k0_t1_loop.trips, ∀ a, (k0_off443 k0_t1) a + S1x16.size a ≤ S128x128.size a
  k0_off444_inb : ∀ k0_t1 : Fin k0_t1_loop.trips, ∀ a, (k0_off444 k0_t1) a + S1x16.size a ≤ S128x128.size a
  k0_off445_inb : ∀ k0_t1 : Fin k0_t1_loop.trips, ∀ a, (k0_off445 k0_t1) a + S1x16.size a ≤ S128x128.size a
  k0_off446_inb : ∀ k0_t1 : Fin k0_t1_loop.trips, ∀ a, (k0_off446 k0_t1) a + S1x16.size a ≤ S128x128.size a
  k0_off447_inb : ∀ k0_t1 : Fin k0_t1_loop.trips, ∀ a, (k0_off447 k0_t1) a + S1x16.size a ≤ S128x128.size a
  k0_t7_ok : k0_t7_loop.OK
  k0_off448_inb : ∀ k0_t7 : Fin k0_t7_loop.trips, ∀ a, (k0_off448 k0_t7) a + S1x16.size a ≤ S50x128.size a
  k0_off449_inb : ∀ k0_t7 : Fin k0_t7_loop.trips, ∀ a, (k0_off449 k0_t7) a + S1x16.size a ≤ S50x128.size a
  k0_off450_inb : ∀ k0_t7 : Fin k0_t7_loop.trips, ∀ a, (k0_off450 k0_t7) a + S1x16.size a ≤ S50x128.size a
  k0_off451_inb : ∀ k0_t7 : Fin k0_t7_loop.trips, ∀ a, (k0_off451 k0_t7) a + S1x16.size a ≤ S50x128.size a
  k0_off452_inb : ∀ k0_t7 : Fin k0_t7_loop.trips, ∀ a, (k0_off452 k0_t7) a + S1x16.size a ≤ S50x128.size a
  k0_off453_inb : ∀ k0_t7 : Fin k0_t7_loop.trips, ∀ a, (k0_off453 k0_t7) a + S1x16.size a ≤ S50x128.size a
  k0_off454_inb : ∀ k0_t7 : Fin k0_t7_loop.trips, ∀ a, (k0_off454 k0_t7) a + S1x16.size a ≤ S50x128.size a
  k0_off455_inb : ∀ k0_t7 : Fin k0_t7_loop.trips, ∀ a, (k0_off455 k0_t7) a + S1x16.size a ≤ S50x128.size a
  k0_off456_inb : ∀ k0_t7 : Fin k0_t7_loop.trips, ∀ a, (k0_off456 k0_t7) a + S1x16.size a ≤ S50x128.size a
  k0_off457_inb : ∀ k0_t7 : Fin k0_t7_loop.trips, ∀ a, (k0_off457 k0_t7) a + S1x16.size a ≤ S50x128.size a
  k0_off458_inb : ∀ k0_t7 : Fin k0_t7_loop.trips, ∀ a, (k0_off458 k0_t7) a + S1x16.size a ≤ S50x128.size a
  k0_off459_inb : ∀ k0_t7 : Fin k0_t7_loop.trips, ∀ a, (k0_off459 k0_t7) a + S1x16.size a ≤ S50x128.size a
  k0_off460_inb : ∀ k0_t7 : Fin k0_t7_loop.trips, ∀ a, (k0_off460 k0_t7) a + S1x16.size a ≤ S50x128.size a
  k0_off461_inb : ∀ k0_t7 : Fin k0_t7_loop.trips, ∀ a, (k0_off461 k0_t7) a + S1x16.size a ≤ S50x128.size a
  k0_off462_inb : ∀ k0_t7 : Fin k0_t7_loop.trips, ∀ a, (k0_off462 k0_t7) a + S1x16.size a ≤ S50x128.size a
  k0_off463_inb : ∀ k0_t7 : Fin k0_t7_loop.trips, ∀ a, (k0_off463 k0_t7) a + S1x16.size a ≤ S50x128.size a
  k0_off464_inb : ∀ k0_t7 : Fin k0_t7_loop.trips, ∀ a, (k0_off464 k0_t7) a + S1x16.size a ≤ S50x128.size a
  k0_off465_inb : ∀ k0_t7 : Fin k0_t7_loop.trips, ∀ a, (k0_off465 k0_t7) a + S1x16.size a ≤ S50x128.size a
  k0_off466_inb : ∀ k0_t7 : Fin k0_t7_loop.trips, ∀ a, (k0_off466 k0_t7) a + S1x16.size a ≤ S50x128.size a
  k0_off467_inb : ∀ k0_t7 : Fin k0_t7_loop.trips, ∀ a, (k0_off467 k0_t7) a + S1x16.size a ≤ S50x128.size a
  k0_off468_inb : ∀ k0_t7 : Fin k0_t7_loop.trips, ∀ a, (k0_off468 k0_t7) a + S1x16.size a ≤ S50x128.size a
  k0_off469_inb : ∀ k0_t7 : Fin k0_t7_loop.trips, ∀ a, (k0_off469 k0_t7) a + S1x16.size a ≤ S50x128.size a
  k0_off470_inb : ∀ k0_t7 : Fin k0_t7_loop.trips, ∀ a, (k0_off470 k0_t7) a + S1x16.size a ≤ S50x128.size a
  k0_off471_inb : ∀ k0_t7 : Fin k0_t7_loop.trips, ∀ a, (k0_off471 k0_t7) a + S1x16.size a ≤ S50x128.size a
  k0_off472_inb : ∀ k0_t7 : Fin k0_t7_loop.trips, ∀ a, (k0_off472 k0_t7) a + S1x16.size a ≤ S50x128.size a
  k0_off473_inb : ∀ k0_t7 : Fin k0_t7_loop.trips, ∀ a, (k0_off473 k0_t7) a + S1x16.size a ≤ S50x128.size a
  k0_off474_inb : ∀ k0_t7 : Fin k0_t7_loop.trips, ∀ a, (k0_off474 k0_t7) a + S1x16.size a ≤ S50x128.size a
  k0_off475_inb : ∀ k0_t7 : Fin k0_t7_loop.trips, ∀ a, (k0_off475 k0_t7) a + S1x16.size a ≤ S50x128.size a
  k0_off476_inb : ∀ k0_t7 : Fin k0_t7_loop.trips, ∀ a, (k0_off476 k0_t7) a + S1x16.size a ≤ S50x128.size a
  k0_off477_inb : ∀ k0_t7 : Fin k0_t7_loop.trips, ∀ a, (k0_off477 k0_t7) a + S1x16.size a ≤ S50x128.size a
  k0_off478_inb : ∀ k0_t7 : Fin k0_t7_loop.trips, ∀ a, (k0_off478 k0_t7) a + S1x16.size a ≤ S50x128.size a
  k0_off479_inb : ∀ k0_t7 : Fin k0_t7_loop.trips, ∀ a, (k0_off479 k0_t7) a + S1x16.size a ≤ S50x128.size a
  k0_off480_inb : ∀ k0_t7 : Fin k0_t7_loop.trips, ∀ a, (k0_off480 k0_t7) a + S1x16.size a ≤ S50x128.size a
  k0_off481_inb : ∀ k0_t7 : Fin k0_t7_loop.trips, ∀ a, (k0_off481 k0_t7) a + S1x16.size a ≤ S50x128.size a
  k0_off482_inb : ∀ k0_t7 : Fin k0_t7_loop.trips, ∀ a, (k0_off482 k0_t7) a + S1x16.size a ≤ S50x128.size a
  k0_off483_inb : ∀ k0_t7 : Fin k0_t7_loop.trips, ∀ a, (k0_off483 k0_t7) a + S1x16.size a ≤ S50x128.size a
  k0_off484_inb : ∀ k0_t7 : Fin k0_t7_loop.trips, ∀ a, (k0_off484 k0_t7) a + S1x16.size a ≤ S50x128.size a
  k0_off485_inb : ∀ k0_t7 : Fin k0_t7_loop.trips, ∀ a, (k0_off485 k0_t7) a + S1x16.size a ≤ S50x128.size a
  k0_off486_inb : ∀ k0_t7 : Fin k0_t7_loop.trips, ∀ a, (k0_off486 k0_t7) a + S1x16.size a ≤ S50x128.size a
  k0_off487_inb : ∀ k0_t7 : Fin k0_t7_loop.trips, ∀ a, (k0_off487 k0_t7) a + S1x16.size a ≤ S50x128.size a
  k0_off488_inb : ∀ k0_t7 : Fin k0_t7_loop.trips, ∀ a, (k0_off488 k0_t7) a + S1x16.size a ≤ S50x128.size a
  k0_off489_inb : ∀ k0_t7 : Fin k0_t7_loop.trips, ∀ a, (k0_off489 k0_t7) a + S1x16.size a ≤ S50x128.size a
  k0_off490_inb : ∀ k0_t7 : Fin k0_t7_loop.trips, ∀ a, (k0_off490 k0_t7) a + S1x16.size a ≤ S50x128.size a
  k0_off491_inb : ∀ k0_t7 : Fin k0_t7_loop.trips, ∀ a, (k0_off491 k0_t7) a + S1x16.size a ≤ S50x128.size a
  k0_off492_inb : ∀ k0_t7 : Fin k0_t7_loop.trips, ∀ a, (k0_off492 k0_t7) a + S1x16.size a ≤ S50x128.size a
  k0_off493_inb : ∀ k0_t7 : Fin k0_t7_loop.trips, ∀ a, (k0_off493 k0_t7) a + S1x16.size a ≤ S50x128.size a
  k0_off494_inb : ∀ k0_t7 : Fin k0_t7_loop.trips, ∀ a, (k0_off494 k0_t7) a + S1x16.size a ≤ S50x128.size a
  k0_off495_inb : ∀ k0_t7 : Fin k0_t7_loop.trips, ∀ a, (k0_off495 k0_t7) a + S1x16.size a ≤ S50x128.size a
  k0_off496_inb : ∀ k0_t7 : Fin k0_t7_loop.trips, ∀ a, (k0_off496 k0_t7) a + S1x16.size a ≤ S50x128.size a
  k0_off497_inb : ∀ k0_t7 : Fin k0_t7_loop.trips, ∀ a, (k0_off497 k0_t7) a + S1x16.size a ≤ S50x128.size a
  k0_off498_inb : ∀ k0_t7 : Fin k0_t7_loop.trips, ∀ a, (k0_off498 k0_t7) a + S1x16.size a ≤ S50x128.size a
  k0_off499_inb : ∀ k0_t7 : Fin k0_t7_loop.trips, ∀ a, (k0_off499 k0_t7) a + S1x16.size a ≤ S50x128.size a
  k0_off500_inb : ∀ k0_t7 : Fin k0_t7_loop.trips, ∀ a, (k0_off500 k0_t7) a + S1x16.size a ≤ S50x128.size a
  k0_off501_inb : ∀ k0_t7 : Fin k0_t7_loop.trips, ∀ a, (k0_off501 k0_t7) a + S1x16.size a ≤ S50x128.size a
  k0_off502_inb : ∀ k0_t7 : Fin k0_t7_loop.trips, ∀ a, (k0_off502 k0_t7) a + S1x16.size a ≤ S50x128.size a
  k0_off503_inb : ∀ k0_t7 : Fin k0_t7_loop.trips, ∀ a, (k0_off503 k0_t7) a + S1x16.size a ≤ S50x128.size a
  k0_off504_inb : ∀ k0_t7 : Fin k0_t7_loop.trips, ∀ a, (k0_off504 k0_t7) a + S1x16.size a ≤ S50x128.size a
  k0_off505_inb : ∀ k0_t7 : Fin k0_t7_loop.trips, ∀ a, (k0_off505 k0_t7) a + S1x16.size a ≤ S50x128.size a
  k0_off506_inb : ∀ k0_t7 : Fin k0_t7_loop.trips, ∀ a, (k0_off506 k0_t7) a + S1x16.size a ≤ S50x128.size a
  k0_off507_inb : ∀ k0_t7 : Fin k0_t7_loop.trips, ∀ a, (k0_off507 k0_t7) a + S1x16.size a ≤ S50x128.size a
  k0_off508_inb : ∀ k0_t7 : Fin k0_t7_loop.trips, ∀ a, (k0_off508 k0_t7) a + S1x16.size a ≤ S50x128.size a
  k0_off509_inb : ∀ k0_t7 : Fin k0_t7_loop.trips, ∀ a, (k0_off509 k0_t7) a + S1x16.size a ≤ S50x128.size a
  k0_off510_inb : ∀ k0_t7 : Fin k0_t7_loop.trips, ∀ a, (k0_off510 k0_t7) a + S1x16.size a ≤ S50x128.size a
  k0_off511_inb : ∀ k0_t7 : Fin k0_t7_loop.trips, ∀ a, (k0_off511 k0_t7) a + S1x16.size a ≤ S50x128.size a
  k0_off512_inb : ∀ k0_t7 : Fin k0_t7_loop.trips, ∀ a, (k0_off512 k0_t7) a + S1x16.size a ≤ S50x128.size a
  k0_off513_inb : ∀ k0_t7 : Fin k0_t7_loop.trips, ∀ a, (k0_off513 k0_t7) a + S1x16.size a ≤ S50x128.size a
  k0_off514_inb : ∀ k0_t7 : Fin k0_t7_loop.trips, ∀ a, (k0_off514 k0_t7) a + S1x16.size a ≤ S50x128.size a
  k0_off515_inb : ∀ k0_t7 : Fin k0_t7_loop.trips, ∀ a, (k0_off515 k0_t7) a + S1x16.size a ≤ S50x128.size a
  k0_off516_inb : ∀ k0_t7 : Fin k0_t7_loop.trips, ∀ a, (k0_off516 k0_t7) a + S1x16.size a ≤ S50x128.size a
  k0_off517_inb : ∀ k0_t7 : Fin k0_t7_loop.trips, ∀ a, (k0_off517 k0_t7) a + S1x16.size a ≤ S50x128.size a
  k0_off518_inb : ∀ k0_t7 : Fin k0_t7_loop.trips, ∀ a, (k0_off518 k0_t7) a + S1x16.size a ≤ S50x128.size a
  k0_off519_inb : ∀ k0_t7 : Fin k0_t7_loop.trips, ∀ a, (k0_off519 k0_t7) a + S1x16.size a ≤ S50x128.size a
  k0_off520_inb : ∀ k0_t7 : Fin k0_t7_loop.trips, ∀ a, (k0_off520 k0_t7) a + S1x16.size a ≤ S50x128.size a
  k0_off521_inb : ∀ k0_t7 : Fin k0_t7_loop.trips, ∀ a, (k0_off521 k0_t7) a + S1x16.size a ≤ S50x128.size a
  k0_off522_inb : ∀ k0_t7 : Fin k0_t7_loop.trips, ∀ a, (k0_off522 k0_t7) a + S1x16.size a ≤ S50x128.size a
  k0_off523_inb : ∀ k0_t7 : Fin k0_t7_loop.trips, ∀ a, (k0_off523 k0_t7) a + S1x16.size a ≤ S50x128.size a
  k0_off524_inb : ∀ k0_t7 : Fin k0_t7_loop.trips, ∀ a, (k0_off524 k0_t7) a + S1x16.size a ≤ S50x128.size a
  k0_off525_inb : ∀ k0_t7 : Fin k0_t7_loop.trips, ∀ a, (k0_off525 k0_t7) a + S1x16.size a ≤ S50x128.size a
  k0_off526_inb : ∀ k0_t7 : Fin k0_t7_loop.trips, ∀ a, (k0_off526 k0_t7) a + S1x16.size a ≤ S50x128.size a
  k0_off527_inb : ∀ k0_t7 : Fin k0_t7_loop.trips, ∀ a, (k0_off527 k0_t7) a + S1x16.size a ≤ S50x128.size a
  k0_t8_ok : k0_t8_loop.OK
  k0_off528_inb : ∀ k0_t8 : Fin k0_t8_loop.trips, ∀ a, (k0_off528 k0_t8) a + S1x16.size a ≤ S50x128.size a
  k0_off529_inb : ∀ k0_t8 : Fin k0_t8_loop.trips, ∀ a, (k0_off529 k0_t8) a + S1x16.size a ≤ S50x128.size a
  k0_off530_inb : ∀ k0_t8 : Fin k0_t8_loop.trips, ∀ a, (k0_off530 k0_t8) a + S1x16.size a ≤ S50x128.size a
  k0_off531_inb : ∀ k0_t8 : Fin k0_t8_loop.trips, ∀ a, (k0_off531 k0_t8) a + S1x16.size a ≤ S50x128.size a
  k0_off532_inb : ∀ k0_t8 : Fin k0_t8_loop.trips, ∀ a, (k0_off532 k0_t8) a + S1x16.size a ≤ S50x128.size a
  k0_off533_inb : ∀ k0_t8 : Fin k0_t8_loop.trips, ∀ a, (k0_off533 k0_t8) a + S1x16.size a ≤ S50x128.size a
  k0_off534_inb : ∀ k0_t8 : Fin k0_t8_loop.trips, ∀ a, (k0_off534 k0_t8) a + S1x16.size a ≤ S50x128.size a
  k0_off535_inb : ∀ k0_t8 : Fin k0_t8_loop.trips, ∀ a, (k0_off535 k0_t8) a + S1x16.size a ≤ S50x128.size a
  k0_off536_inb : ∀ k0_t8 : Fin k0_t8_loop.trips, ∀ a, (k0_off536 k0_t8) a + S1x16.size a ≤ S50x128.size a
  k0_off537_inb : ∀ k0_t8 : Fin k0_t8_loop.trips, ∀ a, (k0_off537 k0_t8) a + S1x16.size a ≤ S50x128.size a
  k0_off538_inb : ∀ k0_t8 : Fin k0_t8_loop.trips, ∀ a, (k0_off538 k0_t8) a + S1x16.size a ≤ S50x128.size a
  k0_off539_inb : ∀ k0_t8 : Fin k0_t8_loop.trips, ∀ a, (k0_off539 k0_t8) a + S1x16.size a ≤ S50x128.size a
  k0_off540_inb : ∀ k0_t8 : Fin k0_t8_loop.trips, ∀ a, (k0_off540 k0_t8) a + S1x16.size a ≤ S50x128.size a
  k0_off541_inb : ∀ k0_t8 : Fin k0_t8_loop.trips, ∀ a, (k0_off541 k0_t8) a + S1x16.size a ≤ S50x128.size a
  k0_off542_inb : ∀ k0_t8 : Fin k0_t8_loop.trips, ∀ a, (k0_off542 k0_t8) a + S1x16.size a ≤ S50x128.size a
  k0_off543_inb : ∀ k0_t8 : Fin k0_t8_loop.trips, ∀ a, (k0_off543 k0_t8) a + S1x16.size a ≤ S50x128.size a
  k0_off544_inb : ∀ k0_t8 : Fin k0_t8_loop.trips, ∀ a, (k0_off544 k0_t8) a + S1x16.size a ≤ S50x128.size a
  k0_off545_inb : ∀ k0_t8 : Fin k0_t8_loop.trips, ∀ a, (k0_off545 k0_t8) a + S1x16.size a ≤ S50x128.size a
  k0_off546_inb : ∀ k0_t8 : Fin k0_t8_loop.trips, ∀ a, (k0_off546 k0_t8) a + S1x16.size a ≤ S50x128.size a
  k0_off547_inb : ∀ k0_t8 : Fin k0_t8_loop.trips, ∀ a, (k0_off547 k0_t8) a + S1x16.size a ≤ S50x128.size a
  k0_off548_inb : ∀ k0_t8 : Fin k0_t8_loop.trips, ∀ a, (k0_off548 k0_t8) a + S1x16.size a ≤ S50x128.size a
  k0_off549_inb : ∀ k0_t8 : Fin k0_t8_loop.trips, ∀ a, (k0_off549 k0_t8) a + S1x16.size a ≤ S50x128.size a
  k0_off550_inb : ∀ k0_t8 : Fin k0_t8_loop.trips, ∀ a, (k0_off550 k0_t8) a + S1x16.size a ≤ S50x128.size a
  k0_off551_inb : ∀ k0_t8 : Fin k0_t8_loop.trips, ∀ a, (k0_off551 k0_t8) a + S1x16.size a ≤ S50x128.size a
  k0_off552_inb : ∀ k0_t8 : Fin k0_t8_loop.trips, ∀ a, (k0_off552 k0_t8) a + S1x16.size a ≤ S50x128.size a
  k0_off553_inb : ∀ k0_t8 : Fin k0_t8_loop.trips, ∀ a, (k0_off553 k0_t8) a + S1x16.size a ≤ S50x128.size a
  k0_off554_inb : ∀ k0_t8 : Fin k0_t8_loop.trips, ∀ a, (k0_off554 k0_t8) a + S1x16.size a ≤ S50x128.size a
  k0_off555_inb : ∀ k0_t8 : Fin k0_t8_loop.trips, ∀ a, (k0_off555 k0_t8) a + S1x16.size a ≤ S50x128.size a
  k0_off556_inb : ∀ k0_t8 : Fin k0_t8_loop.trips, ∀ a, (k0_off556 k0_t8) a + S1x16.size a ≤ S50x128.size a
  k0_off557_inb : ∀ k0_t8 : Fin k0_t8_loop.trips, ∀ a, (k0_off557 k0_t8) a + S1x16.size a ≤ S50x128.size a
  k0_off558_inb : ∀ k0_t8 : Fin k0_t8_loop.trips, ∀ a, (k0_off558 k0_t8) a + S1x16.size a ≤ S50x128.size a
  k0_off559_inb : ∀ k0_t8 : Fin k0_t8_loop.trips, ∀ a, (k0_off559 k0_t8) a + S1x16.size a ≤ S50x128.size a
  k0_off560_inb : ∀ k0_t8 : Fin k0_t8_loop.trips, ∀ a, (k0_off560 k0_t8) a + S1x16.size a ≤ S50x128.size a
  k0_off561_inb : ∀ k0_t8 : Fin k0_t8_loop.trips, ∀ a, (k0_off561 k0_t8) a + S1x16.size a ≤ S50x128.size a
  k0_off562_inb : ∀ k0_t8 : Fin k0_t8_loop.trips, ∀ a, (k0_off562 k0_t8) a + S1x16.size a ≤ S50x128.size a
  k0_off563_inb : ∀ k0_t8 : Fin k0_t8_loop.trips, ∀ a, (k0_off563 k0_t8) a + S1x16.size a ≤ S50x128.size a
  k0_off564_inb : ∀ k0_t8 : Fin k0_t8_loop.trips, ∀ a, (k0_off564 k0_t8) a + S1x16.size a ≤ S50x128.size a
  k0_off565_inb : ∀ k0_t8 : Fin k0_t8_loop.trips, ∀ a, (k0_off565 k0_t8) a + S1x16.size a ≤ S50x128.size a
  k0_off566_inb : ∀ k0_t8 : Fin k0_t8_loop.trips, ∀ a, (k0_off566 k0_t8) a + S1x16.size a ≤ S50x128.size a
  k0_off567_inb : ∀ k0_t8 : Fin k0_t8_loop.trips, ∀ a, (k0_off567 k0_t8) a + S1x16.size a ≤ S50x128.size a
  k0_off568_inb : ∀ k0_t8 : Fin k0_t8_loop.trips, ∀ a, (k0_off568 k0_t8) a + S1x16.size a ≤ S50x128.size a
  k0_off569_inb : ∀ k0_t8 : Fin k0_t8_loop.trips, ∀ a, (k0_off569 k0_t8) a + S1x16.size a ≤ S50x128.size a
  k0_off570_inb : ∀ k0_t8 : Fin k0_t8_loop.trips, ∀ a, (k0_off570 k0_t8) a + S1x16.size a ≤ S50x128.size a
  k0_off571_inb : ∀ k0_t8 : Fin k0_t8_loop.trips, ∀ a, (k0_off571 k0_t8) a + S1x16.size a ≤ S50x128.size a
  k0_off572_inb : ∀ k0_t8 : Fin k0_t8_loop.trips, ∀ a, (k0_off572 k0_t8) a + S1x16.size a ≤ S50x128.size a
  k0_off573_inb : ∀ k0_t8 : Fin k0_t8_loop.trips, ∀ a, (k0_off573 k0_t8) a + S1x16.size a ≤ S50x128.size a
  k0_off574_inb : ∀ k0_t8 : Fin k0_t8_loop.trips, ∀ a, (k0_off574 k0_t8) a + S1x16.size a ≤ S50x128.size a
  k0_off575_inb : ∀ k0_t8 : Fin k0_t8_loop.trips, ∀ a, (k0_off575 k0_t8) a + S1x16.size a ≤ S50x128.size a
  k0_off576_inb : ∀ k0_t8 : Fin k0_t8_loop.trips, ∀ a, (k0_off576 k0_t8) a + S1x16.size a ≤ S50x128.size a
  k0_off577_inb : ∀ k0_t8 : Fin k0_t8_loop.trips, ∀ a, (k0_off577 k0_t8) a + S1x16.size a ≤ S50x128.size a
  k0_off578_inb : ∀ k0_t8 : Fin k0_t8_loop.trips, ∀ a, (k0_off578 k0_t8) a + S1x16.size a ≤ S50x128.size a
  k0_off579_inb : ∀ k0_t8 : Fin k0_t8_loop.trips, ∀ a, (k0_off579 k0_t8) a + S1x16.size a ≤ S50x128.size a
  k0_off580_inb : ∀ k0_t8 : Fin k0_t8_loop.trips, ∀ a, (k0_off580 k0_t8) a + S1x16.size a ≤ S50x128.size a
  k0_off581_inb : ∀ k0_t8 : Fin k0_t8_loop.trips, ∀ a, (k0_off581 k0_t8) a + S1x16.size a ≤ S50x128.size a
  k0_off582_inb : ∀ k0_t8 : Fin k0_t8_loop.trips, ∀ a, (k0_off582 k0_t8) a + S1x16.size a ≤ S50x128.size a
  k0_off583_inb : ∀ k0_t8 : Fin k0_t8_loop.trips, ∀ a, (k0_off583 k0_t8) a + S1x16.size a ≤ S50x128.size a
  k0_off584_inb : ∀ k0_t8 : Fin k0_t8_loop.trips, ∀ a, (k0_off584 k0_t8) a + S1x16.size a ≤ S50x128.size a
  k0_off585_inb : ∀ k0_t8 : Fin k0_t8_loop.trips, ∀ a, (k0_off585 k0_t8) a + S1x16.size a ≤ S50x128.size a
  k0_off586_inb : ∀ k0_t8 : Fin k0_t8_loop.trips, ∀ a, (k0_off586 k0_t8) a + S1x16.size a ≤ S50x128.size a
  k0_off587_inb : ∀ k0_t8 : Fin k0_t8_loop.trips, ∀ a, (k0_off587 k0_t8) a + S1x16.size a ≤ S50x128.size a
  k0_off588_inb : ∀ k0_t8 : Fin k0_t8_loop.trips, ∀ a, (k0_off588 k0_t8) a + S1x16.size a ≤ S50x128.size a
  k0_off589_inb : ∀ k0_t8 : Fin k0_t8_loop.trips, ∀ a, (k0_off589 k0_t8) a + S1x16.size a ≤ S50x128.size a
  k0_off590_inb : ∀ k0_t8 : Fin k0_t8_loop.trips, ∀ a, (k0_off590 k0_t8) a + S1x16.size a ≤ S50x128.size a
  k0_off591_inb : ∀ k0_t8 : Fin k0_t8_loop.trips, ∀ a, (k0_off591 k0_t8) a + S1x16.size a ≤ S50x128.size a
  k0_off592_inb : ∀ k0_t8 : Fin k0_t8_loop.trips, ∀ a, (k0_off592 k0_t8) a + S1x16.size a ≤ S50x128.size a
  k0_off593_inb : ∀ k0_t8 : Fin k0_t8_loop.trips, ∀ a, (k0_off593 k0_t8) a + S1x16.size a ≤ S50x128.size a
  k0_off594_inb : ∀ k0_t8 : Fin k0_t8_loop.trips, ∀ a, (k0_off594 k0_t8) a + S1x16.size a ≤ S50x128.size a
  k0_off595_inb : ∀ k0_t8 : Fin k0_t8_loop.trips, ∀ a, (k0_off595 k0_t8) a + S1x16.size a ≤ S50x128.size a
  k0_off596_inb : ∀ k0_t8 : Fin k0_t8_loop.trips, ∀ a, (k0_off596 k0_t8) a + S1x16.size a ≤ S50x128.size a
  k0_off597_inb : ∀ k0_t8 : Fin k0_t8_loop.trips, ∀ a, (k0_off597 k0_t8) a + S1x16.size a ≤ S50x128.size a
  k0_off598_inb : ∀ k0_t8 : Fin k0_t8_loop.trips, ∀ a, (k0_off598 k0_t8) a + S1x16.size a ≤ S50x128.size a
  k0_off599_inb : ∀ k0_t8 : Fin k0_t8_loop.trips, ∀ a, (k0_off599 k0_t8) a + S1x16.size a ≤ S50x128.size a
  k0_off600_inb : ∀ k0_t8 : Fin k0_t8_loop.trips, ∀ a, (k0_off600 k0_t8) a + S1x16.size a ≤ S50x128.size a
  k0_off601_inb : ∀ k0_t8 : Fin k0_t8_loop.trips, ∀ a, (k0_off601 k0_t8) a + S1x16.size a ≤ S50x128.size a
  k0_off602_inb : ∀ k0_t8 : Fin k0_t8_loop.trips, ∀ a, (k0_off602 k0_t8) a + S1x16.size a ≤ S50x128.size a
  k0_off603_inb : ∀ k0_t8 : Fin k0_t8_loop.trips, ∀ a, (k0_off603 k0_t8) a + S1x16.size a ≤ S50x128.size a
  k0_off604_inb : ∀ k0_t8 : Fin k0_t8_loop.trips, ∀ a, (k0_off604 k0_t8) a + S1x16.size a ≤ S50x128.size a
  k0_off605_inb : ∀ k0_t8 : Fin k0_t8_loop.trips, ∀ a, (k0_off605 k0_t8) a + S1x16.size a ≤ S50x128.size a
  k0_off606_inb : ∀ k0_t8 : Fin k0_t8_loop.trips, ∀ a, (k0_off606 k0_t8) a + S1x16.size a ≤ S50x128.size a
  k0_off607_inb : ∀ k0_t8 : Fin k0_t8_loop.trips, ∀ a, (k0_off607 k0_t8) a + S1x16.size a ≤ S50x128.size a
  k0_t9_ok : k0_t9_loop.OK
  k0_off608_inb : ∀ k0_t9 : Fin k0_t9_loop.trips, ∀ a, (k0_off608 k0_t9) a + S1x16.size a ≤ S50x128.size a
  k0_off609_inb : ∀ k0_t9 : Fin k0_t9_loop.trips, ∀ a, (k0_off609 k0_t9) a + S1x16.size a ≤ S50x128.size a
  k0_off610_inb : ∀ k0_t9 : Fin k0_t9_loop.trips, ∀ a, (k0_off610 k0_t9) a + S1x16.size a ≤ S50x128.size a
  k0_off611_inb : ∀ k0_t9 : Fin k0_t9_loop.trips, ∀ a, (k0_off611 k0_t9) a + S1x16.size a ≤ S50x128.size a
  k0_off612_inb : ∀ k0_t9 : Fin k0_t9_loop.trips, ∀ a, (k0_off612 k0_t9) a + S1x16.size a ≤ S50x128.size a
  k0_off613_inb : ∀ k0_t9 : Fin k0_t9_loop.trips, ∀ a, (k0_off613 k0_t9) a + S1x16.size a ≤ S50x128.size a
  k0_off614_inb : ∀ k0_t9 : Fin k0_t9_loop.trips, ∀ a, (k0_off614 k0_t9) a + S1x16.size a ≤ S50x128.size a
  k0_off615_inb : ∀ k0_t9 : Fin k0_t9_loop.trips, ∀ a, (k0_off615 k0_t9) a + S1x16.size a ≤ S50x128.size a
  k0_off616_inb : ∀ k0_t9 : Fin k0_t9_loop.trips, ∀ a, (k0_off616 k0_t9) a + S1x16.size a ≤ S50x128.size a
  k0_off617_inb : ∀ k0_t9 : Fin k0_t9_loop.trips, ∀ a, (k0_off617 k0_t9) a + S1x16.size a ≤ S50x128.size a
  k0_off618_inb : ∀ k0_t9 : Fin k0_t9_loop.trips, ∀ a, (k0_off618 k0_t9) a + S1x16.size a ≤ S50x128.size a
  k0_off619_inb : ∀ k0_t9 : Fin k0_t9_loop.trips, ∀ a, (k0_off619 k0_t9) a + S1x16.size a ≤ S50x128.size a
  k0_off620_inb : ∀ k0_t9 : Fin k0_t9_loop.trips, ∀ a, (k0_off620 k0_t9) a + S1x16.size a ≤ S50x128.size a
  k0_off621_inb : ∀ k0_t9 : Fin k0_t9_loop.trips, ∀ a, (k0_off621 k0_t9) a + S1x16.size a ≤ S50x128.size a
  k0_off622_inb : ∀ k0_t9 : Fin k0_t9_loop.trips, ∀ a, (k0_off622 k0_t9) a + S1x16.size a ≤ S50x128.size a
  k0_off623_inb : ∀ k0_t9 : Fin k0_t9_loop.trips, ∀ a, (k0_off623 k0_t9) a + S1x16.size a ≤ S50x128.size a
  k0_off624_inb : ∀ k0_t9 : Fin k0_t9_loop.trips, ∀ a, (k0_off624 k0_t9) a + S1x16.size a ≤ S50x128.size a
  k0_off625_inb : ∀ k0_t9 : Fin k0_t9_loop.trips, ∀ a, (k0_off625 k0_t9) a + S1x16.size a ≤ S50x128.size a
  k0_off626_inb : ∀ k0_t9 : Fin k0_t9_loop.trips, ∀ a, (k0_off626 k0_t9) a + S1x16.size a ≤ S50x128.size a
  k0_off627_inb : ∀ k0_t9 : Fin k0_t9_loop.trips, ∀ a, (k0_off627 k0_t9) a + S1x16.size a ≤ S50x128.size a
  k0_off628_inb : ∀ k0_t9 : Fin k0_t9_loop.trips, ∀ a, (k0_off628 k0_t9) a + S1x16.size a ≤ S50x128.size a
  k0_off629_inb : ∀ k0_t9 : Fin k0_t9_loop.trips, ∀ a, (k0_off629 k0_t9) a + S1x16.size a ≤ S50x128.size a
  k0_off630_inb : ∀ k0_t9 : Fin k0_t9_loop.trips, ∀ a, (k0_off630 k0_t9) a + S1x16.size a ≤ S50x128.size a
  k0_off631_inb : ∀ k0_t9 : Fin k0_t9_loop.trips, ∀ a, (k0_off631 k0_t9) a + S1x16.size a ≤ S50x128.size a
  k0_off632_inb : ∀ k0_t9 : Fin k0_t9_loop.trips, ∀ a, (k0_off632 k0_t9) a + S1x16.size a ≤ S50x128.size a
  k0_off633_inb : ∀ k0_t9 : Fin k0_t9_loop.trips, ∀ a, (k0_off633 k0_t9) a + S1x16.size a ≤ S50x128.size a
  k0_off634_inb : ∀ k0_t9 : Fin k0_t9_loop.trips, ∀ a, (k0_off634 k0_t9) a + S1x16.size a ≤ S50x128.size a
  k0_off635_inb : ∀ k0_t9 : Fin k0_t9_loop.trips, ∀ a, (k0_off635 k0_t9) a + S1x16.size a ≤ S50x128.size a
  k0_off636_inb : ∀ k0_t9 : Fin k0_t9_loop.trips, ∀ a, (k0_off636 k0_t9) a + S1x16.size a ≤ S50x128.size a
  k0_off637_inb : ∀ k0_t9 : Fin k0_t9_loop.trips, ∀ a, (k0_off637 k0_t9) a + S1x16.size a ≤ S50x128.size a
  k0_off638_inb : ∀ k0_t9 : Fin k0_t9_loop.trips, ∀ a, (k0_off638 k0_t9) a + S1x16.size a ≤ S50x128.size a
  k0_off639_inb : ∀ k0_t9 : Fin k0_t9_loop.trips, ∀ a, (k0_off639 k0_t9) a + S1x16.size a ≤ S50x128.size a
  k0_off640_inb : ∀ k0_t9 : Fin k0_t9_loop.trips, ∀ a, (k0_off640 k0_t9) a + S1x16.size a ≤ S50x128.size a
  k0_off641_inb : ∀ k0_t9 : Fin k0_t9_loop.trips, ∀ a, (k0_off641 k0_t9) a + S1x16.size a ≤ S50x128.size a
  k0_off642_inb : ∀ k0_t9 : Fin k0_t9_loop.trips, ∀ a, (k0_off642 k0_t9) a + S1x16.size a ≤ S50x128.size a
  k0_off643_inb : ∀ k0_t9 : Fin k0_t9_loop.trips, ∀ a, (k0_off643 k0_t9) a + S1x16.size a ≤ S50x128.size a
  k0_off644_inb : ∀ k0_t9 : Fin k0_t9_loop.trips, ∀ a, (k0_off644 k0_t9) a + S1x16.size a ≤ S50x128.size a
  k0_off645_inb : ∀ k0_t9 : Fin k0_t9_loop.trips, ∀ a, (k0_off645 k0_t9) a + S1x16.size a ≤ S50x128.size a
  k0_off646_inb : ∀ k0_t9 : Fin k0_t9_loop.trips, ∀ a, (k0_off646 k0_t9) a + S1x16.size a ≤ S50x128.size a
  k0_off647_inb : ∀ k0_t9 : Fin k0_t9_loop.trips, ∀ a, (k0_off647 k0_t9) a + S1x16.size a ≤ S50x128.size a
  k0_off648_inb : ∀ k0_t9 : Fin k0_t9_loop.trips, ∀ a, (k0_off648 k0_t9) a + S1x16.size a ≤ S50x128.size a
  k0_off649_inb : ∀ k0_t9 : Fin k0_t9_loop.trips, ∀ a, (k0_off649 k0_t9) a + S1x16.size a ≤ S50x128.size a
  k0_off650_inb : ∀ k0_t9 : Fin k0_t9_loop.trips, ∀ a, (k0_off650 k0_t9) a + S1x16.size a ≤ S50x128.size a
  k0_off651_inb : ∀ k0_t9 : Fin k0_t9_loop.trips, ∀ a, (k0_off651 k0_t9) a + S1x16.size a ≤ S50x128.size a
  k0_off652_inb : ∀ k0_t9 : Fin k0_t9_loop.trips, ∀ a, (k0_off652 k0_t9) a + S1x16.size a ≤ S50x128.size a
  k0_off653_inb : ∀ k0_t9 : Fin k0_t9_loop.trips, ∀ a, (k0_off653 k0_t9) a + S1x16.size a ≤ S50x128.size a
  k0_off654_inb : ∀ k0_t9 : Fin k0_t9_loop.trips, ∀ a, (k0_off654 k0_t9) a + S1x16.size a ≤ S50x128.size a
  k0_off655_inb : ∀ k0_t9 : Fin k0_t9_loop.trips, ∀ a, (k0_off655 k0_t9) a + S1x16.size a ≤ S50x128.size a
  k0_off656_inb : ∀ k0_t9 : Fin k0_t9_loop.trips, ∀ a, (k0_off656 k0_t9) a + S1x16.size a ≤ S50x128.size a
  k0_off657_inb : ∀ k0_t9 : Fin k0_t9_loop.trips, ∀ a, (k0_off657 k0_t9) a + S1x16.size a ≤ S50x128.size a
  k0_off658_inb : ∀ k0_t9 : Fin k0_t9_loop.trips, ∀ a, (k0_off658 k0_t9) a + S1x16.size a ≤ S50x128.size a
  k0_off659_inb : ∀ k0_t9 : Fin k0_t9_loop.trips, ∀ a, (k0_off659 k0_t9) a + S1x16.size a ≤ S50x128.size a
  k0_off660_inb : ∀ k0_t9 : Fin k0_t9_loop.trips, ∀ a, (k0_off660 k0_t9) a + S1x16.size a ≤ S50x128.size a
  k0_off661_inb : ∀ k0_t9 : Fin k0_t9_loop.trips, ∀ a, (k0_off661 k0_t9) a + S1x16.size a ≤ S50x128.size a
  k0_off662_inb : ∀ k0_t9 : Fin k0_t9_loop.trips, ∀ a, (k0_off662 k0_t9) a + S1x16.size a ≤ S50x128.size a
  k0_off663_inb : ∀ k0_t9 : Fin k0_t9_loop.trips, ∀ a, (k0_off663 k0_t9) a + S1x16.size a ≤ S50x128.size a
  k0_off664_inb : ∀ k0_t9 : Fin k0_t9_loop.trips, ∀ a, (k0_off664 k0_t9) a + S1x16.size a ≤ S50x128.size a
  k0_off665_inb : ∀ k0_t9 : Fin k0_t9_loop.trips, ∀ a, (k0_off665 k0_t9) a + S1x16.size a ≤ S50x128.size a
  k0_off666_inb : ∀ k0_t9 : Fin k0_t9_loop.trips, ∀ a, (k0_off666 k0_t9) a + S1x16.size a ≤ S50x128.size a
  k0_off667_inb : ∀ k0_t9 : Fin k0_t9_loop.trips, ∀ a, (k0_off667 k0_t9) a + S1x16.size a ≤ S50x128.size a
  k0_off668_inb : ∀ k0_t9 : Fin k0_t9_loop.trips, ∀ a, (k0_off668 k0_t9) a + S1x16.size a ≤ S50x128.size a
  k0_off669_inb : ∀ k0_t9 : Fin k0_t9_loop.trips, ∀ a, (k0_off669 k0_t9) a + S1x16.size a ≤ S50x128.size a
  k0_off670_inb : ∀ k0_t9 : Fin k0_t9_loop.trips, ∀ a, (k0_off670 k0_t9) a + S1x16.size a ≤ S50x128.size a
  k0_off671_inb : ∀ k0_t9 : Fin k0_t9_loop.trips, ∀ a, (k0_off671 k0_t9) a + S1x16.size a ≤ S50x128.size a
  k0_off672_inb : ∀ k0_t9 : Fin k0_t9_loop.trips, ∀ a, (k0_off672 k0_t9) a + S1x16.size a ≤ S50x128.size a
  k0_off673_inb : ∀ k0_t9 : Fin k0_t9_loop.trips, ∀ a, (k0_off673 k0_t9) a + S1x16.size a ≤ S50x128.size a
  k0_off674_inb : ∀ k0_t9 : Fin k0_t9_loop.trips, ∀ a, (k0_off674 k0_t9) a + S1x16.size a ≤ S50x128.size a
  k0_off675_inb : ∀ k0_t9 : Fin k0_t9_loop.trips, ∀ a, (k0_off675 k0_t9) a + S1x16.size a ≤ S50x128.size a
  k0_off676_inb : ∀ k0_t9 : Fin k0_t9_loop.trips, ∀ a, (k0_off676 k0_t9) a + S1x16.size a ≤ S50x128.size a
  k0_off677_inb : ∀ k0_t9 : Fin k0_t9_loop.trips, ∀ a, (k0_off677 k0_t9) a + S1x16.size a ≤ S50x128.size a
  k0_off678_inb : ∀ k0_t9 : Fin k0_t9_loop.trips, ∀ a, (k0_off678 k0_t9) a + S1x16.size a ≤ S50x128.size a
  k0_off679_inb : ∀ k0_t9 : Fin k0_t9_loop.trips, ∀ a, (k0_off679 k0_t9) a + S1x16.size a ≤ S50x128.size a
  k0_off680_inb : ∀ k0_t9 : Fin k0_t9_loop.trips, ∀ a, (k0_off680 k0_t9) a + S1x16.size a ≤ S50x128.size a
  k0_off681_inb : ∀ k0_t9 : Fin k0_t9_loop.trips, ∀ a, (k0_off681 k0_t9) a + S1x16.size a ≤ S50x128.size a
  k0_off682_inb : ∀ k0_t9 : Fin k0_t9_loop.trips, ∀ a, (k0_off682 k0_t9) a + S1x16.size a ≤ S50x128.size a
  k0_off683_inb : ∀ k0_t9 : Fin k0_t9_loop.trips, ∀ a, (k0_off683 k0_t9) a + S1x16.size a ≤ S50x128.size a
  k0_off684_inb : ∀ k0_t9 : Fin k0_t9_loop.trips, ∀ a, (k0_off684 k0_t9) a + S1x16.size a ≤ S50x128.size a
  k0_off685_inb : ∀ k0_t9 : Fin k0_t9_loop.trips, ∀ a, (k0_off685 k0_t9) a + S1x16.size a ≤ S50x128.size a
  k0_off686_inb : ∀ k0_t9 : Fin k0_t9_loop.trips, ∀ a, (k0_off686 k0_t9) a + S1x16.size a ≤ S50x128.size a
  k0_off687_inb : ∀ k0_t9 : Fin k0_t9_loop.trips, ∀ a, (k0_off687 k0_t9) a + S1x16.size a ≤ S50x128.size a
  k0_t10_ok : k0_t10_loop.OK
  k0_off688_inb : ∀ k0_t10 : Fin k0_t10_loop.trips, ∀ a, (k0_off688 k0_t10) a + S1x16.size a ≤ S50x128.size a
  k0_off689_inb : ∀ k0_t10 : Fin k0_t10_loop.trips, ∀ a, (k0_off689 k0_t10) a + S1x16.size a ≤ S50x128.size a
  k0_off690_inb : ∀ k0_t10 : Fin k0_t10_loop.trips, ∀ a, (k0_off690 k0_t10) a + S1x16.size a ≤ S50x128.size a
  k0_off691_inb : ∀ k0_t10 : Fin k0_t10_loop.trips, ∀ a, (k0_off691 k0_t10) a + S1x16.size a ≤ S50x128.size a
  k0_off692_inb : ∀ k0_t10 : Fin k0_t10_loop.trips, ∀ a, (k0_off692 k0_t10) a + S1x16.size a ≤ S50x128.size a
  k0_off693_inb : ∀ k0_t10 : Fin k0_t10_loop.trips, ∀ a, (k0_off693 k0_t10) a + S1x16.size a ≤ S50x128.size a
  k0_off694_inb : ∀ k0_t10 : Fin k0_t10_loop.trips, ∀ a, (k0_off694 k0_t10) a + S1x16.size a ≤ S50x128.size a
  k0_off695_inb : ∀ k0_t10 : Fin k0_t10_loop.trips, ∀ a, (k0_off695 k0_t10) a + S1x16.size a ≤ S50x128.size a
  k0_off696_inb : ∀ k0_t10 : Fin k0_t10_loop.trips, ∀ a, (k0_off696 k0_t10) a + S1x16.size a ≤ S50x128.size a
  k0_off697_inb : ∀ k0_t10 : Fin k0_t10_loop.trips, ∀ a, (k0_off697 k0_t10) a + S1x16.size a ≤ S50x128.size a
  k0_off698_inb : ∀ k0_t10 : Fin k0_t10_loop.trips, ∀ a, (k0_off698 k0_t10) a + S1x16.size a ≤ S50x128.size a
  k0_off699_inb : ∀ k0_t10 : Fin k0_t10_loop.trips, ∀ a, (k0_off699 k0_t10) a + S1x16.size a ≤ S50x128.size a
  k0_off700_inb : ∀ k0_t10 : Fin k0_t10_loop.trips, ∀ a, (k0_off700 k0_t10) a + S1x16.size a ≤ S50x128.size a
  k0_off701_inb : ∀ k0_t10 : Fin k0_t10_loop.trips, ∀ a, (k0_off701 k0_t10) a + S1x16.size a ≤ S50x128.size a
  k0_off702_inb : ∀ k0_t10 : Fin k0_t10_loop.trips, ∀ a, (k0_off702 k0_t10) a + S1x16.size a ≤ S50x128.size a
  k0_off703_inb : ∀ k0_t10 : Fin k0_t10_loop.trips, ∀ a, (k0_off703 k0_t10) a + S1x16.size a ≤ S50x128.size a
  k0_off704_inb : ∀ k0_t10 : Fin k0_t10_loop.trips, ∀ a, (k0_off704 k0_t10) a + S1x16.size a ≤ S50x128.size a
  k0_off705_inb : ∀ k0_t10 : Fin k0_t10_loop.trips, ∀ a, (k0_off705 k0_t10) a + S1x16.size a ≤ S50x128.size a
  k0_off706_inb : ∀ k0_t10 : Fin k0_t10_loop.trips, ∀ a, (k0_off706 k0_t10) a + S1x16.size a ≤ S50x128.size a
  k0_off707_inb : ∀ k0_t10 : Fin k0_t10_loop.trips, ∀ a, (k0_off707 k0_t10) a + S1x16.size a ≤ S50x128.size a
  k0_off708_inb : ∀ k0_t10 : Fin k0_t10_loop.trips, ∀ a, (k0_off708 k0_t10) a + S1x16.size a ≤ S50x128.size a
  k0_off709_inb : ∀ k0_t10 : Fin k0_t10_loop.trips, ∀ a, (k0_off709 k0_t10) a + S1x16.size a ≤ S50x128.size a
  k0_off710_inb : ∀ k0_t10 : Fin k0_t10_loop.trips, ∀ a, (k0_off710 k0_t10) a + S1x16.size a ≤ S50x128.size a
  k0_off711_inb : ∀ k0_t10 : Fin k0_t10_loop.trips, ∀ a, (k0_off711 k0_t10) a + S1x16.size a ≤ S50x128.size a
  k0_off712_inb : ∀ k0_t10 : Fin k0_t10_loop.trips, ∀ a, (k0_off712 k0_t10) a + S1x16.size a ≤ S50x128.size a
  k0_off713_inb : ∀ k0_t10 : Fin k0_t10_loop.trips, ∀ a, (k0_off713 k0_t10) a + S1x16.size a ≤ S50x128.size a
  k0_off714_inb : ∀ k0_t10 : Fin k0_t10_loop.trips, ∀ a, (k0_off714 k0_t10) a + S1x16.size a ≤ S50x128.size a
  k0_off715_inb : ∀ k0_t10 : Fin k0_t10_loop.trips, ∀ a, (k0_off715 k0_t10) a + S1x16.size a ≤ S50x128.size a
  k0_off716_inb : ∀ k0_t10 : Fin k0_t10_loop.trips, ∀ a, (k0_off716 k0_t10) a + S1x16.size a ≤ S50x128.size a
  k0_off717_inb : ∀ k0_t10 : Fin k0_t10_loop.trips, ∀ a, (k0_off717 k0_t10) a + S1x16.size a ≤ S50x128.size a
  k0_off718_inb : ∀ k0_t10 : Fin k0_t10_loop.trips, ∀ a, (k0_off718 k0_t10) a + S1x16.size a ≤ S50x128.size a
  k0_off719_inb : ∀ k0_t10 : Fin k0_t10_loop.trips, ∀ a, (k0_off719 k0_t10) a + S1x16.size a ≤ S50x128.size a
  k0_off720_inb : ∀ k0_t10 : Fin k0_t10_loop.trips, ∀ a, (k0_off720 k0_t10) a + S1x16.size a ≤ S50x128.size a
  k0_off721_inb : ∀ k0_t10 : Fin k0_t10_loop.trips, ∀ a, (k0_off721 k0_t10) a + S1x16.size a ≤ S50x128.size a
  k0_off722_inb : ∀ k0_t10 : Fin k0_t10_loop.trips, ∀ a, (k0_off722 k0_t10) a + S1x16.size a ≤ S50x128.size a
  k0_off723_inb : ∀ k0_t10 : Fin k0_t10_loop.trips, ∀ a, (k0_off723 k0_t10) a + S1x16.size a ≤ S50x128.size a
  k0_off724_inb : ∀ k0_t10 : Fin k0_t10_loop.trips, ∀ a, (k0_off724 k0_t10) a + S1x16.size a ≤ S50x128.size a
  k0_off725_inb : ∀ k0_t10 : Fin k0_t10_loop.trips, ∀ a, (k0_off725 k0_t10) a + S1x16.size a ≤ S50x128.size a
  k0_off726_inb : ∀ k0_t10 : Fin k0_t10_loop.trips, ∀ a, (k0_off726 k0_t10) a + S1x16.size a ≤ S50x128.size a
  k0_off727_inb : ∀ k0_t10 : Fin k0_t10_loop.trips, ∀ a, (k0_off727 k0_t10) a + S1x16.size a ≤ S50x128.size a
  k0_off728_inb : ∀ k0_t10 : Fin k0_t10_loop.trips, ∀ a, (k0_off728 k0_t10) a + S1x16.size a ≤ S50x128.size a
  k0_off729_inb : ∀ k0_t10 : Fin k0_t10_loop.trips, ∀ a, (k0_off729 k0_t10) a + S1x16.size a ≤ S50x128.size a
  k0_off730_inb : ∀ k0_t10 : Fin k0_t10_loop.trips, ∀ a, (k0_off730 k0_t10) a + S1x16.size a ≤ S50x128.size a
  k0_off731_inb : ∀ k0_t10 : Fin k0_t10_loop.trips, ∀ a, (k0_off731 k0_t10) a + S1x16.size a ≤ S50x128.size a
  k0_off732_inb : ∀ k0_t10 : Fin k0_t10_loop.trips, ∀ a, (k0_off732 k0_t10) a + S1x16.size a ≤ S50x128.size a
  k0_off733_inb : ∀ k0_t10 : Fin k0_t10_loop.trips, ∀ a, (k0_off733 k0_t10) a + S1x16.size a ≤ S50x128.size a
  k0_off734_inb : ∀ k0_t10 : Fin k0_t10_loop.trips, ∀ a, (k0_off734 k0_t10) a + S1x16.size a ≤ S50x128.size a
  k0_off735_inb : ∀ k0_t10 : Fin k0_t10_loop.trips, ∀ a, (k0_off735 k0_t10) a + S1x16.size a ≤ S50x128.size a
  k0_off736_inb : ∀ k0_t10 : Fin k0_t10_loop.trips, ∀ a, (k0_off736 k0_t10) a + S1x16.size a ≤ S50x128.size a
  k0_off737_inb : ∀ k0_t10 : Fin k0_t10_loop.trips, ∀ a, (k0_off737 k0_t10) a + S1x16.size a ≤ S50x128.size a
  k0_off738_inb : ∀ k0_t10 : Fin k0_t10_loop.trips, ∀ a, (k0_off738 k0_t10) a + S1x16.size a ≤ S50x128.size a
  k0_off739_inb : ∀ k0_t10 : Fin k0_t10_loop.trips, ∀ a, (k0_off739 k0_t10) a + S1x16.size a ≤ S50x128.size a
  k0_off740_inb : ∀ k0_t10 : Fin k0_t10_loop.trips, ∀ a, (k0_off740 k0_t10) a + S1x16.size a ≤ S50x128.size a
  k0_off741_inb : ∀ k0_t10 : Fin k0_t10_loop.trips, ∀ a, (k0_off741 k0_t10) a + S1x16.size a ≤ S50x128.size a
  k0_off742_inb : ∀ k0_t10 : Fin k0_t10_loop.trips, ∀ a, (k0_off742 k0_t10) a + S1x16.size a ≤ S50x128.size a
  k0_off743_inb : ∀ k0_t10 : Fin k0_t10_loop.trips, ∀ a, (k0_off743 k0_t10) a + S1x16.size a ≤ S50x128.size a
  k0_off744_inb : ∀ k0_t10 : Fin k0_t10_loop.trips, ∀ a, (k0_off744 k0_t10) a + S1x16.size a ≤ S50x128.size a
  k0_off745_inb : ∀ k0_t10 : Fin k0_t10_loop.trips, ∀ a, (k0_off745 k0_t10) a + S1x16.size a ≤ S50x128.size a
  k0_off746_inb : ∀ k0_t10 : Fin k0_t10_loop.trips, ∀ a, (k0_off746 k0_t10) a + S1x16.size a ≤ S50x128.size a
  k0_off747_inb : ∀ k0_t10 : Fin k0_t10_loop.trips, ∀ a, (k0_off747 k0_t10) a + S1x16.size a ≤ S50x128.size a
  k0_off748_inb : ∀ k0_t10 : Fin k0_t10_loop.trips, ∀ a, (k0_off748 k0_t10) a + S1x16.size a ≤ S50x128.size a
  k0_off749_inb : ∀ k0_t10 : Fin k0_t10_loop.trips, ∀ a, (k0_off749 k0_t10) a + S1x16.size a ≤ S50x128.size a
  k0_off750_inb : ∀ k0_t10 : Fin k0_t10_loop.trips, ∀ a, (k0_off750 k0_t10) a + S1x16.size a ≤ S50x128.size a
  k0_off751_inb : ∀ k0_t10 : Fin k0_t10_loop.trips, ∀ a, (k0_off751 k0_t10) a + S1x16.size a ≤ S50x128.size a
  k0_off752_inb : ∀ k0_t10 : Fin k0_t10_loop.trips, ∀ a, (k0_off752 k0_t10) a + S1x16.size a ≤ S50x128.size a
  k0_off753_inb : ∀ k0_t10 : Fin k0_t10_loop.trips, ∀ a, (k0_off753 k0_t10) a + S1x16.size a ≤ S50x128.size a
  k0_off754_inb : ∀ k0_t10 : Fin k0_t10_loop.trips, ∀ a, (k0_off754 k0_t10) a + S1x16.size a ≤ S50x128.size a
  k0_off755_inb : ∀ k0_t10 : Fin k0_t10_loop.trips, ∀ a, (k0_off755 k0_t10) a + S1x16.size a ≤ S50x128.size a
  k0_off756_inb : ∀ k0_t10 : Fin k0_t10_loop.trips, ∀ a, (k0_off756 k0_t10) a + S1x16.size a ≤ S50x128.size a
  k0_off757_inb : ∀ k0_t10 : Fin k0_t10_loop.trips, ∀ a, (k0_off757 k0_t10) a + S1x16.size a ≤ S50x128.size a
  k0_off758_inb : ∀ k0_t10 : Fin k0_t10_loop.trips, ∀ a, (k0_off758 k0_t10) a + S1x16.size a ≤ S50x128.size a
  k0_off759_inb : ∀ k0_t10 : Fin k0_t10_loop.trips, ∀ a, (k0_off759 k0_t10) a + S1x16.size a ≤ S50x128.size a
  k0_off760_inb : ∀ k0_t10 : Fin k0_t10_loop.trips, ∀ a, (k0_off760 k0_t10) a + S1x16.size a ≤ S50x128.size a
  k0_off761_inb : ∀ k0_t10 : Fin k0_t10_loop.trips, ∀ a, (k0_off761 k0_t10) a + S1x16.size a ≤ S50x128.size a
  k0_off762_inb : ∀ k0_t10 : Fin k0_t10_loop.trips, ∀ a, (k0_off762 k0_t10) a + S1x16.size a ≤ S50x128.size a
  k0_off763_inb : ∀ k0_t10 : Fin k0_t10_loop.trips, ∀ a, (k0_off763 k0_t10) a + S1x16.size a ≤ S50x128.size a
  k0_off764_inb : ∀ k0_t10 : Fin k0_t10_loop.trips, ∀ a, (k0_off764 k0_t10) a + S1x16.size a ≤ S50x128.size a
  k0_off765_inb : ∀ k0_t10 : Fin k0_t10_loop.trips, ∀ a, (k0_off765 k0_t10) a + S1x16.size a ≤ S50x128.size a
  k0_off766_inb : ∀ k0_t10 : Fin k0_t10_loop.trips, ∀ a, (k0_off766 k0_t10) a + S1x16.size a ≤ S50x128.size a
  k0_off767_inb : ∀ k0_t10 : Fin k0_t10_loop.trips, ∀ a, (k0_off767 k0_t10) a + S1x16.size a ≤ S50x128.size a
  k0_t11_ok : k0_t11_loop.OK
  k0_off768_inb : ∀ k0_t11 : Fin k0_t11_loop.trips, ∀ a, (k0_off768 k0_t11) a + S1x16.size a ≤ S50x128.size a
  k0_off769_inb : ∀ k0_t11 : Fin k0_t11_loop.trips, ∀ a, (k0_off769 k0_t11) a + S1x16.size a ≤ S50x128.size a
  k0_off770_inb : ∀ k0_t11 : Fin k0_t11_loop.trips, ∀ a, (k0_off770 k0_t11) a + S1x16.size a ≤ S50x128.size a
  k0_off771_inb : ∀ k0_t11 : Fin k0_t11_loop.trips, ∀ a, (k0_off771 k0_t11) a + S1x16.size a ≤ S50x128.size a
  k0_off772_inb : ∀ k0_t11 : Fin k0_t11_loop.trips, ∀ a, (k0_off772 k0_t11) a + S1x16.size a ≤ S50x128.size a
  k0_off773_inb : ∀ k0_t11 : Fin k0_t11_loop.trips, ∀ a, (k0_off773 k0_t11) a + S1x16.size a ≤ S50x128.size a
  k0_off774_inb : ∀ k0_t11 : Fin k0_t11_loop.trips, ∀ a, (k0_off774 k0_t11) a + S1x16.size a ≤ S50x128.size a
  k0_off775_inb : ∀ k0_t11 : Fin k0_t11_loop.trips, ∀ a, (k0_off775 k0_t11) a + S1x16.size a ≤ S50x128.size a
  k0_off776_inb : ∀ k0_t11 : Fin k0_t11_loop.trips, ∀ a, (k0_off776 k0_t11) a + S1x16.size a ≤ S50x128.size a
  k0_off777_inb : ∀ k0_t11 : Fin k0_t11_loop.trips, ∀ a, (k0_off777 k0_t11) a + S1x16.size a ≤ S50x128.size a
  k0_off778_inb : ∀ k0_t11 : Fin k0_t11_loop.trips, ∀ a, (k0_off778 k0_t11) a + S1x16.size a ≤ S50x128.size a
  k0_off779_inb : ∀ k0_t11 : Fin k0_t11_loop.trips, ∀ a, (k0_off779 k0_t11) a + S1x16.size a ≤ S50x128.size a
  k0_off780_inb : ∀ k0_t11 : Fin k0_t11_loop.trips, ∀ a, (k0_off780 k0_t11) a + S1x16.size a ≤ S50x128.size a
  k0_off781_inb : ∀ k0_t11 : Fin k0_t11_loop.trips, ∀ a, (k0_off781 k0_t11) a + S1x16.size a ≤ S50x128.size a
  k0_off782_inb : ∀ k0_t11 : Fin k0_t11_loop.trips, ∀ a, (k0_off782 k0_t11) a + S1x16.size a ≤ S50x128.size a
  k0_off783_inb : ∀ k0_t11 : Fin k0_t11_loop.trips, ∀ a, (k0_off783 k0_t11) a + S1x16.size a ≤ S50x128.size a
  k0_off784_inb : ∀ k0_t11 : Fin k0_t11_loop.trips, ∀ a, (k0_off784 k0_t11) a + S1x16.size a ≤ S50x128.size a
  k0_off785_inb : ∀ k0_t11 : Fin k0_t11_loop.trips, ∀ a, (k0_off785 k0_t11) a + S1x16.size a ≤ S50x128.size a
  k0_off786_inb : ∀ k0_t11 : Fin k0_t11_loop.trips, ∀ a, (k0_off786 k0_t11) a + S1x16.size a ≤ S50x128.size a
  k0_off787_inb : ∀ k0_t11 : Fin k0_t11_loop.trips, ∀ a, (k0_off787 k0_t11) a + S1x16.size a ≤ S50x128.size a
  k0_off788_inb : ∀ k0_t11 : Fin k0_t11_loop.trips, ∀ a, (k0_off788 k0_t11) a + S1x16.size a ≤ S50x128.size a
  k0_off789_inb : ∀ k0_t11 : Fin k0_t11_loop.trips, ∀ a, (k0_off789 k0_t11) a + S1x16.size a ≤ S50x128.size a
  k0_off790_inb : ∀ k0_t11 : Fin k0_t11_loop.trips, ∀ a, (k0_off790 k0_t11) a + S1x16.size a ≤ S50x128.size a
  k0_off791_inb : ∀ k0_t11 : Fin k0_t11_loop.trips, ∀ a, (k0_off791 k0_t11) a + S1x16.size a ≤ S50x128.size a
  k0_off792_inb : ∀ k0_t11 : Fin k0_t11_loop.trips, ∀ a, (k0_off792 k0_t11) a + S1x16.size a ≤ S50x128.size a
  k0_off793_inb : ∀ k0_t11 : Fin k0_t11_loop.trips, ∀ a, (k0_off793 k0_t11) a + S1x16.size a ≤ S50x128.size a
  k0_off794_inb : ∀ k0_t11 : Fin k0_t11_loop.trips, ∀ a, (k0_off794 k0_t11) a + S1x16.size a ≤ S50x128.size a
  k0_off795_inb : ∀ k0_t11 : Fin k0_t11_loop.trips, ∀ a, (k0_off795 k0_t11) a + S1x16.size a ≤ S50x128.size a
  k0_off796_inb : ∀ k0_t11 : Fin k0_t11_loop.trips, ∀ a, (k0_off796 k0_t11) a + S1x16.size a ≤ S50x128.size a
  k0_off797_inb : ∀ k0_t11 : Fin k0_t11_loop.trips, ∀ a, (k0_off797 k0_t11) a + S1x16.size a ≤ S50x128.size a
  k0_off798_inb : ∀ k0_t11 : Fin k0_t11_loop.trips, ∀ a, (k0_off798 k0_t11) a + S1x16.size a ≤ S50x128.size a
  k0_off799_inb : ∀ k0_t11 : Fin k0_t11_loop.trips, ∀ a, (k0_off799 k0_t11) a + S1x16.size a ≤ S50x128.size a
  k0_off800_inb : ∀ k0_t11 : Fin k0_t11_loop.trips, ∀ a, (k0_off800 k0_t11) a + S1x16.size a ≤ S50x128.size a
  k0_off801_inb : ∀ k0_t11 : Fin k0_t11_loop.trips, ∀ a, (k0_off801 k0_t11) a + S1x16.size a ≤ S50x128.size a
  k0_off802_inb : ∀ k0_t11 : Fin k0_t11_loop.trips, ∀ a, (k0_off802 k0_t11) a + S1x16.size a ≤ S50x128.size a
  k0_off803_inb : ∀ k0_t11 : Fin k0_t11_loop.trips, ∀ a, (k0_off803 k0_t11) a + S1x16.size a ≤ S50x128.size a
  k0_off804_inb : ∀ k0_t11 : Fin k0_t11_loop.trips, ∀ a, (k0_off804 k0_t11) a + S1x16.size a ≤ S50x128.size a
  k0_off805_inb : ∀ k0_t11 : Fin k0_t11_loop.trips, ∀ a, (k0_off805 k0_t11) a + S1x16.size a ≤ S50x128.size a
  k0_off806_inb : ∀ k0_t11 : Fin k0_t11_loop.trips, ∀ a, (k0_off806 k0_t11) a + S1x16.size a ≤ S50x128.size a
  k0_off807_inb : ∀ k0_t11 : Fin k0_t11_loop.trips, ∀ a, (k0_off807 k0_t11) a + S1x16.size a ≤ S50x128.size a
  k0_off808_inb : ∀ k0_t11 : Fin k0_t11_loop.trips, ∀ a, (k0_off808 k0_t11) a + S1x16.size a ≤ S50x128.size a
  k0_off809_inb : ∀ k0_t11 : Fin k0_t11_loop.trips, ∀ a, (k0_off809 k0_t11) a + S1x16.size a ≤ S50x128.size a
  k0_off810_inb : ∀ k0_t11 : Fin k0_t11_loop.trips, ∀ a, (k0_off810 k0_t11) a + S1x16.size a ≤ S50x128.size a
  k0_off811_inb : ∀ k0_t11 : Fin k0_t11_loop.trips, ∀ a, (k0_off811 k0_t11) a + S1x16.size a ≤ S50x128.size a
  k0_off812_inb : ∀ k0_t11 : Fin k0_t11_loop.trips, ∀ a, (k0_off812 k0_t11) a + S1x16.size a ≤ S50x128.size a
  k0_off813_inb : ∀ k0_t11 : Fin k0_t11_loop.trips, ∀ a, (k0_off813 k0_t11) a + S1x16.size a ≤ S50x128.size a
  k0_off814_inb : ∀ k0_t11 : Fin k0_t11_loop.trips, ∀ a, (k0_off814 k0_t11) a + S1x16.size a ≤ S50x128.size a
  k0_off815_inb : ∀ k0_t11 : Fin k0_t11_loop.trips, ∀ a, (k0_off815 k0_t11) a + S1x16.size a ≤ S50x128.size a
  k0_off816_inb : ∀ k0_t11 : Fin k0_t11_loop.trips, ∀ a, (k0_off816 k0_t11) a + S1x16.size a ≤ S50x128.size a
  k0_off817_inb : ∀ k0_t11 : Fin k0_t11_loop.trips, ∀ a, (k0_off817 k0_t11) a + S1x16.size a ≤ S50x128.size a
  k0_off818_inb : ∀ k0_t11 : Fin k0_t11_loop.trips, ∀ a, (k0_off818 k0_t11) a + S1x16.size a ≤ S50x128.size a
  k0_off819_inb : ∀ k0_t11 : Fin k0_t11_loop.trips, ∀ a, (k0_off819 k0_t11) a + S1x16.size a ≤ S50x128.size a
  k0_off820_inb : ∀ k0_t11 : Fin k0_t11_loop.trips, ∀ a, (k0_off820 k0_t11) a + S1x16.size a ≤ S50x128.size a
  k0_off821_inb : ∀ k0_t11 : Fin k0_t11_loop.trips, ∀ a, (k0_off821 k0_t11) a + S1x16.size a ≤ S50x128.size a
  k0_off822_inb : ∀ k0_t11 : Fin k0_t11_loop.trips, ∀ a, (k0_off822 k0_t11) a + S1x16.size a ≤ S50x128.size a
  k0_off823_inb : ∀ k0_t11 : Fin k0_t11_loop.trips, ∀ a, (k0_off823 k0_t11) a + S1x16.size a ≤ S50x128.size a
  k0_off824_inb : ∀ k0_t11 : Fin k0_t11_loop.trips, ∀ a, (k0_off824 k0_t11) a + S1x16.size a ≤ S50x128.size a
  k0_off825_inb : ∀ k0_t11 : Fin k0_t11_loop.trips, ∀ a, (k0_off825 k0_t11) a + S1x16.size a ≤ S50x128.size a
  k0_off826_inb : ∀ k0_t11 : Fin k0_t11_loop.trips, ∀ a, (k0_off826 k0_t11) a + S1x16.size a ≤ S50x128.size a
  k0_off827_inb : ∀ k0_t11 : Fin k0_t11_loop.trips, ∀ a, (k0_off827 k0_t11) a + S1x16.size a ≤ S50x128.size a
  k0_off828_inb : ∀ k0_t11 : Fin k0_t11_loop.trips, ∀ a, (k0_off828 k0_t11) a + S1x16.size a ≤ S50x128.size a
  k0_off829_inb : ∀ k0_t11 : Fin k0_t11_loop.trips, ∀ a, (k0_off829 k0_t11) a + S1x16.size a ≤ S50x128.size a
  k0_off830_inb : ∀ k0_t11 : Fin k0_t11_loop.trips, ∀ a, (k0_off830 k0_t11) a + S1x16.size a ≤ S50x128.size a
  k0_off831_inb : ∀ k0_t11 : Fin k0_t11_loop.trips, ∀ a, (k0_off831 k0_t11) a + S1x16.size a ≤ S50x128.size a
  k0_off832_inb : ∀ k0_t11 : Fin k0_t11_loop.trips, ∀ a, (k0_off832 k0_t11) a + S1x16.size a ≤ S50x128.size a
  k0_off833_inb : ∀ k0_t11 : Fin k0_t11_loop.trips, ∀ a, (k0_off833 k0_t11) a + S1x16.size a ≤ S50x128.size a
  k0_off834_inb : ∀ k0_t11 : Fin k0_t11_loop.trips, ∀ a, (k0_off834 k0_t11) a + S1x16.size a ≤ S50x128.size a
  k0_off835_inb : ∀ k0_t11 : Fin k0_t11_loop.trips, ∀ a, (k0_off835 k0_t11) a + S1x16.size a ≤ S50x128.size a
  k0_off836_inb : ∀ k0_t11 : Fin k0_t11_loop.trips, ∀ a, (k0_off836 k0_t11) a + S1x16.size a ≤ S50x128.size a
  k0_off837_inb : ∀ k0_t11 : Fin k0_t11_loop.trips, ∀ a, (k0_off837 k0_t11) a + S1x16.size a ≤ S50x128.size a
  k0_off838_inb : ∀ k0_t11 : Fin k0_t11_loop.trips, ∀ a, (k0_off838 k0_t11) a + S1x16.size a ≤ S50x128.size a
  k0_off839_inb : ∀ k0_t11 : Fin k0_t11_loop.trips, ∀ a, (k0_off839 k0_t11) a + S1x16.size a ≤ S50x128.size a
  k0_off840_inb : ∀ k0_t11 : Fin k0_t11_loop.trips, ∀ a, (k0_off840 k0_t11) a + S1x16.size a ≤ S50x128.size a
  k0_off841_inb : ∀ k0_t11 : Fin k0_t11_loop.trips, ∀ a, (k0_off841 k0_t11) a + S1x16.size a ≤ S50x128.size a
  k0_off842_inb : ∀ k0_t11 : Fin k0_t11_loop.trips, ∀ a, (k0_off842 k0_t11) a + S1x16.size a ≤ S50x128.size a
  k0_off843_inb : ∀ k0_t11 : Fin k0_t11_loop.trips, ∀ a, (k0_off843 k0_t11) a + S1x16.size a ≤ S50x128.size a
  k0_off844_inb : ∀ k0_t11 : Fin k0_t11_loop.trips, ∀ a, (k0_off844 k0_t11) a + S1x16.size a ≤ S50x128.size a
  k0_off845_inb : ∀ k0_t11 : Fin k0_t11_loop.trips, ∀ a, (k0_off845 k0_t11) a + S1x16.size a ≤ S50x128.size a
  k0_off846_inb : ∀ k0_t11 : Fin k0_t11_loop.trips, ∀ a, (k0_off846 k0_t11) a + S1x16.size a ≤ S50x128.size a
  k0_off847_inb : ∀ k0_t11 : Fin k0_t11_loop.trips, ∀ a, (k0_off847 k0_t11) a + S1x16.size a ≤ S50x128.size a
  k0_t12_ok : k0_t12_loop.OK
  k0_off848_inb : ∀ k0_t12 : Fin k0_t12_loop.trips, ∀ a, (k0_off848 k0_t12) a + S1x16.size a ≤ S50x128.size a
  k0_off849_inb : ∀ k0_t12 : Fin k0_t12_loop.trips, ∀ a, (k0_off849 k0_t12) a + S1x16.size a ≤ S50x128.size a
  k0_off850_inb : ∀ k0_t12 : Fin k0_t12_loop.trips, ∀ a, (k0_off850 k0_t12) a + S1x16.size a ≤ S50x128.size a
  k0_off851_inb : ∀ k0_t12 : Fin k0_t12_loop.trips, ∀ a, (k0_off851 k0_t12) a + S1x16.size a ≤ S50x128.size a
  k0_off852_inb : ∀ k0_t12 : Fin k0_t12_loop.trips, ∀ a, (k0_off852 k0_t12) a + S1x16.size a ≤ S50x128.size a
  k0_off853_inb : ∀ k0_t12 : Fin k0_t12_loop.trips, ∀ a, (k0_off853 k0_t12) a + S1x16.size a ≤ S50x128.size a
  k0_off854_inb : ∀ k0_t12 : Fin k0_t12_loop.trips, ∀ a, (k0_off854 k0_t12) a + S1x16.size a ≤ S50x128.size a
  k0_off855_inb : ∀ k0_t12 : Fin k0_t12_loop.trips, ∀ a, (k0_off855 k0_t12) a + S1x16.size a ≤ S50x128.size a
  k0_off856_inb : ∀ k0_t12 : Fin k0_t12_loop.trips, ∀ a, (k0_off856 k0_t12) a + S1x16.size a ≤ S50x128.size a
  k0_off857_inb : ∀ k0_t12 : Fin k0_t12_loop.trips, ∀ a, (k0_off857 k0_t12) a + S1x16.size a ≤ S50x128.size a
  k0_off858_inb : ∀ k0_t12 : Fin k0_t12_loop.trips, ∀ a, (k0_off858 k0_t12) a + S1x16.size a ≤ S50x128.size a
  k0_off859_inb : ∀ k0_t12 : Fin k0_t12_loop.trips, ∀ a, (k0_off859 k0_t12) a + S1x16.size a ≤ S50x128.size a
  k0_off860_inb : ∀ k0_t12 : Fin k0_t12_loop.trips, ∀ a, (k0_off860 k0_t12) a + S1x16.size a ≤ S50x128.size a
  k0_off861_inb : ∀ k0_t12 : Fin k0_t12_loop.trips, ∀ a, (k0_off861 k0_t12) a + S1x16.size a ≤ S50x128.size a
  k0_off862_inb : ∀ k0_t12 : Fin k0_t12_loop.trips, ∀ a, (k0_off862 k0_t12) a + S1x16.size a ≤ S50x128.size a
  k0_off863_inb : ∀ k0_t12 : Fin k0_t12_loop.trips, ∀ a, (k0_off863 k0_t12) a + S1x16.size a ≤ S50x128.size a
  k0_off864_inb : ∀ k0_t12 : Fin k0_t12_loop.trips, ∀ a, (k0_off864 k0_t12) a + S1x16.size a ≤ S50x128.size a
  k0_off865_inb : ∀ k0_t12 : Fin k0_t12_loop.trips, ∀ a, (k0_off865 k0_t12) a + S1x16.size a ≤ S50x128.size a
  k0_off866_inb : ∀ k0_t12 : Fin k0_t12_loop.trips, ∀ a, (k0_off866 k0_t12) a + S1x16.size a ≤ S50x128.size a
  k0_off867_inb : ∀ k0_t12 : Fin k0_t12_loop.trips, ∀ a, (k0_off867 k0_t12) a + S1x16.size a ≤ S50x128.size a
  k0_off868_inb : ∀ k0_t12 : Fin k0_t12_loop.trips, ∀ a, (k0_off868 k0_t12) a + S1x16.size a ≤ S50x128.size a
  k0_off869_inb : ∀ k0_t12 : Fin k0_t12_loop.trips, ∀ a, (k0_off869 k0_t12) a + S1x16.size a ≤ S50x128.size a
  k0_off870_inb : ∀ k0_t12 : Fin k0_t12_loop.trips, ∀ a, (k0_off870 k0_t12) a + S1x16.size a ≤ S50x128.size a
  k0_off871_inb : ∀ k0_t12 : Fin k0_t12_loop.trips, ∀ a, (k0_off871 k0_t12) a + S1x16.size a ≤ S50x128.size a
  k0_off872_inb : ∀ k0_t12 : Fin k0_t12_loop.trips, ∀ a, (k0_off872 k0_t12) a + S1x16.size a ≤ S50x128.size a
  k0_off873_inb : ∀ k0_t12 : Fin k0_t12_loop.trips, ∀ a, (k0_off873 k0_t12) a + S1x16.size a ≤ S50x128.size a
  k0_off874_inb : ∀ k0_t12 : Fin k0_t12_loop.trips, ∀ a, (k0_off874 k0_t12) a + S1x16.size a ≤ S50x128.size a
  k0_off875_inb : ∀ k0_t12 : Fin k0_t12_loop.trips, ∀ a, (k0_off875 k0_t12) a + S1x16.size a ≤ S50x128.size a
  k0_off876_inb : ∀ k0_t12 : Fin k0_t12_loop.trips, ∀ a, (k0_off876 k0_t12) a + S1x16.size a ≤ S50x128.size a
  k0_off877_inb : ∀ k0_t12 : Fin k0_t12_loop.trips, ∀ a, (k0_off877 k0_t12) a + S1x16.size a ≤ S50x128.size a
  k0_off878_inb : ∀ k0_t12 : Fin k0_t12_loop.trips, ∀ a, (k0_off878 k0_t12) a + S1x16.size a ≤ S50x128.size a
  k0_off879_inb : ∀ k0_t12 : Fin k0_t12_loop.trips, ∀ a, (k0_off879 k0_t12) a + S1x16.size a ≤ S50x128.size a
  k0_off880_inb : ∀ k0_t12 : Fin k0_t12_loop.trips, ∀ a, (k0_off880 k0_t12) a + S1x16.size a ≤ S50x128.size a
  k0_off881_inb : ∀ k0_t12 : Fin k0_t12_loop.trips, ∀ a, (k0_off881 k0_t12) a + S1x16.size a ≤ S50x128.size a
  k0_off882_inb : ∀ k0_t12 : Fin k0_t12_loop.trips, ∀ a, (k0_off882 k0_t12) a + S1x16.size a ≤ S50x128.size a
  k0_off883_inb : ∀ k0_t12 : Fin k0_t12_loop.trips, ∀ a, (k0_off883 k0_t12) a + S1x16.size a ≤ S50x128.size a
  k0_off884_inb : ∀ k0_t12 : Fin k0_t12_loop.trips, ∀ a, (k0_off884 k0_t12) a + S1x16.size a ≤ S50x128.size a
  k0_off885_inb : ∀ k0_t12 : Fin k0_t12_loop.trips, ∀ a, (k0_off885 k0_t12) a + S1x16.size a ≤ S50x128.size a
  k0_off886_inb : ∀ k0_t12 : Fin k0_t12_loop.trips, ∀ a, (k0_off886 k0_t12) a + S1x16.size a ≤ S50x128.size a
  k0_off887_inb : ∀ k0_t12 : Fin k0_t12_loop.trips, ∀ a, (k0_off887 k0_t12) a + S1x16.size a ≤ S50x128.size a
  k0_off888_inb : ∀ k0_t12 : Fin k0_t12_loop.trips, ∀ a, (k0_off888 k0_t12) a + S1x16.size a ≤ S50x128.size a
  k0_off889_inb : ∀ k0_t12 : Fin k0_t12_loop.trips, ∀ a, (k0_off889 k0_t12) a + S1x16.size a ≤ S50x128.size a
  k0_off890_inb : ∀ k0_t12 : Fin k0_t12_loop.trips, ∀ a, (k0_off890 k0_t12) a + S1x16.size a ≤ S50x128.size a
  k0_off891_inb : ∀ k0_t12 : Fin k0_t12_loop.trips, ∀ a, (k0_off891 k0_t12) a + S1x16.size a ≤ S50x128.size a
  k0_off892_inb : ∀ k0_t12 : Fin k0_t12_loop.trips, ∀ a, (k0_off892 k0_t12) a + S1x16.size a ≤ S50x128.size a
  k0_off893_inb : ∀ k0_t12 : Fin k0_t12_loop.trips, ∀ a, (k0_off893 k0_t12) a + S1x16.size a ≤ S50x128.size a
  k0_off894_inb : ∀ k0_t12 : Fin k0_t12_loop.trips, ∀ a, (k0_off894 k0_t12) a + S1x16.size a ≤ S50x128.size a
  k0_off895_inb : ∀ k0_t12 : Fin k0_t12_loop.trips, ∀ a, (k0_off895 k0_t12) a + S1x16.size a ≤ S50x128.size a
  k0_off896_inb : ∀ k0_t12 : Fin k0_t12_loop.trips, ∀ a, (k0_off896 k0_t12) a + S1x16.size a ≤ S50x128.size a
  k0_off897_inb : ∀ k0_t12 : Fin k0_t12_loop.trips, ∀ a, (k0_off897 k0_t12) a + S1x16.size a ≤ S50x128.size a
  k0_off898_inb : ∀ k0_t12 : Fin k0_t12_loop.trips, ∀ a, (k0_off898 k0_t12) a + S1x16.size a ≤ S50x128.size a
  k0_off899_inb : ∀ k0_t12 : Fin k0_t12_loop.trips, ∀ a, (k0_off899 k0_t12) a + S1x16.size a ≤ S50x128.size a
  k0_off900_inb : ∀ k0_t12 : Fin k0_t12_loop.trips, ∀ a, (k0_off900 k0_t12) a + S1x16.size a ≤ S50x128.size a
  k0_off901_inb : ∀ k0_t12 : Fin k0_t12_loop.trips, ∀ a, (k0_off901 k0_t12) a + S1x16.size a ≤ S50x128.size a
  k0_off902_inb : ∀ k0_t12 : Fin k0_t12_loop.trips, ∀ a, (k0_off902 k0_t12) a + S1x16.size a ≤ S50x128.size a
  k0_off903_inb : ∀ k0_t12 : Fin k0_t12_loop.trips, ∀ a, (k0_off903 k0_t12) a + S1x16.size a ≤ S50x128.size a
  k0_off904_inb : ∀ k0_t12 : Fin k0_t12_loop.trips, ∀ a, (k0_off904 k0_t12) a + S1x16.size a ≤ S50x128.size a
  k0_off905_inb : ∀ k0_t12 : Fin k0_t12_loop.trips, ∀ a, (k0_off905 k0_t12) a + S1x16.size a ≤ S50x128.size a
  k0_off906_inb : ∀ k0_t12 : Fin k0_t12_loop.trips, ∀ a, (k0_off906 k0_t12) a + S1x16.size a ≤ S50x128.size a
  k0_off907_inb : ∀ k0_t12 : Fin k0_t12_loop.trips, ∀ a, (k0_off907 k0_t12) a + S1x16.size a ≤ S50x128.size a
  k0_off908_inb : ∀ k0_t12 : Fin k0_t12_loop.trips, ∀ a, (k0_off908 k0_t12) a + S1x16.size a ≤ S50x128.size a
  k0_off909_inb : ∀ k0_t12 : Fin k0_t12_loop.trips, ∀ a, (k0_off909 k0_t12) a + S1x16.size a ≤ S50x128.size a
  k0_off910_inb : ∀ k0_t12 : Fin k0_t12_loop.trips, ∀ a, (k0_off910 k0_t12) a + S1x16.size a ≤ S50x128.size a
  k0_off911_inb : ∀ k0_t12 : Fin k0_t12_loop.trips, ∀ a, (k0_off911 k0_t12) a + S1x16.size a ≤ S50x128.size a
  k0_off912_inb : ∀ k0_t12 : Fin k0_t12_loop.trips, ∀ a, (k0_off912 k0_t12) a + S1x16.size a ≤ S50x128.size a
  k0_off913_inb : ∀ k0_t12 : Fin k0_t12_loop.trips, ∀ a, (k0_off913 k0_t12) a + S1x16.size a ≤ S50x128.size a
  k0_off914_inb : ∀ k0_t12 : Fin k0_t12_loop.trips, ∀ a, (k0_off914 k0_t12) a + S1x16.size a ≤ S50x128.size a
  k0_off915_inb : ∀ k0_t12 : Fin k0_t12_loop.trips, ∀ a, (k0_off915 k0_t12) a + S1x16.size a ≤ S50x128.size a
  k0_off916_inb : ∀ k0_t12 : Fin k0_t12_loop.trips, ∀ a, (k0_off916 k0_t12) a + S1x16.size a ≤ S50x128.size a
  k0_off917_inb : ∀ k0_t12 : Fin k0_t12_loop.trips, ∀ a, (k0_off917 k0_t12) a + S1x16.size a ≤ S50x128.size a
  k0_off918_inb : ∀ k0_t12 : Fin k0_t12_loop.trips, ∀ a, (k0_off918 k0_t12) a + S1x16.size a ≤ S50x128.size a
  k0_off919_inb : ∀ k0_t12 : Fin k0_t12_loop.trips, ∀ a, (k0_off919 k0_t12) a + S1x16.size a ≤ S50x128.size a
  k0_off920_inb : ∀ k0_t12 : Fin k0_t12_loop.trips, ∀ a, (k0_off920 k0_t12) a + S1x16.size a ≤ S50x128.size a
  k0_off921_inb : ∀ k0_t12 : Fin k0_t12_loop.trips, ∀ a, (k0_off921 k0_t12) a + S1x16.size a ≤ S50x128.size a
  k0_off922_inb : ∀ k0_t12 : Fin k0_t12_loop.trips, ∀ a, (k0_off922 k0_t12) a + S1x16.size a ≤ S50x128.size a
  k0_off923_inb : ∀ k0_t12 : Fin k0_t12_loop.trips, ∀ a, (k0_off923 k0_t12) a + S1x16.size a ≤ S50x128.size a
  k0_off924_inb : ∀ k0_t12 : Fin k0_t12_loop.trips, ∀ a, (k0_off924 k0_t12) a + S1x16.size a ≤ S50x128.size a
  k0_off925_inb : ∀ k0_t12 : Fin k0_t12_loop.trips, ∀ a, (k0_off925 k0_t12) a + S1x16.size a ≤ S50x128.size a
  k0_off926_inb : ∀ k0_t12 : Fin k0_t12_loop.trips, ∀ a, (k0_off926 k0_t12) a + S1x16.size a ≤ S50x128.size a
  k0_off927_inb : ∀ k0_t12 : Fin k0_t12_loop.trips, ∀ a, (k0_off927 k0_t12) a + S1x16.size a ≤ S50x128.size a
  k0_t13_ok : k0_t13_loop.OK
  k0_off928_inb : ∀ k0_t13 : Fin k0_t13_loop.trips, ∀ a, (k0_off928 k0_t13) a + S1x16.size a ≤ S50x128.size a
  k0_off929_inb : ∀ k0_t13 : Fin k0_t13_loop.trips, ∀ a, (k0_off929 k0_t13) a + S1x16.size a ≤ S50x128.size a
  k0_off930_inb : ∀ k0_t13 : Fin k0_t13_loop.trips, ∀ a, (k0_off930 k0_t13) a + S1x16.size a ≤ S50x128.size a
  k0_off931_inb : ∀ k0_t13 : Fin k0_t13_loop.trips, ∀ a, (k0_off931 k0_t13) a + S1x16.size a ≤ S50x128.size a
  k0_off932_inb : ∀ k0_t13 : Fin k0_t13_loop.trips, ∀ a, (k0_off932 k0_t13) a + S1x16.size a ≤ S50x128.size a
  k0_off933_inb : ∀ k0_t13 : Fin k0_t13_loop.trips, ∀ a, (k0_off933 k0_t13) a + S1x16.size a ≤ S50x128.size a
  k0_off934_inb : ∀ k0_t13 : Fin k0_t13_loop.trips, ∀ a, (k0_off934 k0_t13) a + S1x16.size a ≤ S50x128.size a
  k0_off935_inb : ∀ k0_t13 : Fin k0_t13_loop.trips, ∀ a, (k0_off935 k0_t13) a + S1x16.size a ≤ S50x128.size a
  k0_off936_inb : ∀ k0_t13 : Fin k0_t13_loop.trips, ∀ a, (k0_off936 k0_t13) a + S1x16.size a ≤ S50x128.size a
  k0_off937_inb : ∀ k0_t13 : Fin k0_t13_loop.trips, ∀ a, (k0_off937 k0_t13) a + S1x16.size a ≤ S50x128.size a
  k0_off938_inb : ∀ k0_t13 : Fin k0_t13_loop.trips, ∀ a, (k0_off938 k0_t13) a + S1x16.size a ≤ S50x128.size a
  k0_off939_inb : ∀ k0_t13 : Fin k0_t13_loop.trips, ∀ a, (k0_off939 k0_t13) a + S1x16.size a ≤ S50x128.size a
  k0_off940_inb : ∀ k0_t13 : Fin k0_t13_loop.trips, ∀ a, (k0_off940 k0_t13) a + S1x16.size a ≤ S50x128.size a
  k0_off941_inb : ∀ k0_t13 : Fin k0_t13_loop.trips, ∀ a, (k0_off941 k0_t13) a + S1x16.size a ≤ S50x128.size a
  k0_off942_inb : ∀ k0_t13 : Fin k0_t13_loop.trips, ∀ a, (k0_off942 k0_t13) a + S1x16.size a ≤ S50x128.size a
  k0_off943_inb : ∀ k0_t13 : Fin k0_t13_loop.trips, ∀ a, (k0_off943 k0_t13) a + S1x16.size a ≤ S50x128.size a
  k0_off944_inb : ∀ k0_t13 : Fin k0_t13_loop.trips, ∀ a, (k0_off944 k0_t13) a + S1x16.size a ≤ S50x128.size a
  k0_off945_inb : ∀ k0_t13 : Fin k0_t13_loop.trips, ∀ a, (k0_off945 k0_t13) a + S1x16.size a ≤ S50x128.size a
  k0_off946_inb : ∀ k0_t13 : Fin k0_t13_loop.trips, ∀ a, (k0_off946 k0_t13) a + S1x16.size a ≤ S50x128.size a
  k0_off947_inb : ∀ k0_t13 : Fin k0_t13_loop.trips, ∀ a, (k0_off947 k0_t13) a + S1x16.size a ≤ S50x128.size a
  k0_off948_inb : ∀ k0_t13 : Fin k0_t13_loop.trips, ∀ a, (k0_off948 k0_t13) a + S1x16.size a ≤ S50x128.size a
  k0_off949_inb : ∀ k0_t13 : Fin k0_t13_loop.trips, ∀ a, (k0_off949 k0_t13) a + S1x16.size a ≤ S50x128.size a
  k0_off950_inb : ∀ k0_t13 : Fin k0_t13_loop.trips, ∀ a, (k0_off950 k0_t13) a + S1x16.size a ≤ S50x128.size a
  k0_off951_inb : ∀ k0_t13 : Fin k0_t13_loop.trips, ∀ a, (k0_off951 k0_t13) a + S1x16.size a ≤ S50x128.size a
  k0_off952_inb : ∀ k0_t13 : Fin k0_t13_loop.trips, ∀ a, (k0_off952 k0_t13) a + S1x16.size a ≤ S50x128.size a
  k0_off953_inb : ∀ k0_t13 : Fin k0_t13_loop.trips, ∀ a, (k0_off953 k0_t13) a + S1x16.size a ≤ S50x128.size a
  k0_off954_inb : ∀ k0_t13 : Fin k0_t13_loop.trips, ∀ a, (k0_off954 k0_t13) a + S1x16.size a ≤ S50x128.size a
  k0_off955_inb : ∀ k0_t13 : Fin k0_t13_loop.trips, ∀ a, (k0_off955 k0_t13) a + S1x16.size a ≤ S50x128.size a
  k0_off956_inb : ∀ k0_t13 : Fin k0_t13_loop.trips, ∀ a, (k0_off956 k0_t13) a + S1x16.size a ≤ S50x128.size a
  k0_off957_inb : ∀ k0_t13 : Fin k0_t13_loop.trips, ∀ a, (k0_off957 k0_t13) a + S1x16.size a ≤ S50x128.size a
  k0_off958_inb : ∀ k0_t13 : Fin k0_t13_loop.trips, ∀ a, (k0_off958 k0_t13) a + S1x16.size a ≤ S50x128.size a
  k0_off959_inb : ∀ k0_t13 : Fin k0_t13_loop.trips, ∀ a, (k0_off959 k0_t13) a + S1x16.size a ≤ S50x128.size a
  k0_off960_inb : ∀ k0_t13 : Fin k0_t13_loop.trips, ∀ a, (k0_off960 k0_t13) a + S1x16.size a ≤ S50x128.size a
  k0_off961_inb : ∀ k0_t13 : Fin k0_t13_loop.trips, ∀ a, (k0_off961 k0_t13) a + S1x16.size a ≤ S50x128.size a
  k0_off962_inb : ∀ k0_t13 : Fin k0_t13_loop.trips, ∀ a, (k0_off962 k0_t13) a + S1x16.size a ≤ S50x128.size a
  k0_off963_inb : ∀ k0_t13 : Fin k0_t13_loop.trips, ∀ a, (k0_off963 k0_t13) a + S1x16.size a ≤ S50x128.size a
  k0_off964_inb : ∀ k0_t13 : Fin k0_t13_loop.trips, ∀ a, (k0_off964 k0_t13) a + S1x16.size a ≤ S50x128.size a
  k0_off965_inb : ∀ k0_t13 : Fin k0_t13_loop.trips, ∀ a, (k0_off965 k0_t13) a + S1x16.size a ≤ S50x128.size a
  k0_off966_inb : ∀ k0_t13 : Fin k0_t13_loop.trips, ∀ a, (k0_off966 k0_t13) a + S1x16.size a ≤ S50x128.size a
  k0_off967_inb : ∀ k0_t13 : Fin k0_t13_loop.trips, ∀ a, (k0_off967 k0_t13) a + S1x16.size a ≤ S50x128.size a
  k0_off968_inb : ∀ k0_t13 : Fin k0_t13_loop.trips, ∀ a, (k0_off968 k0_t13) a + S1x16.size a ≤ S50x128.size a
  k0_off969_inb : ∀ k0_t13 : Fin k0_t13_loop.trips, ∀ a, (k0_off969 k0_t13) a + S1x16.size a ≤ S50x128.size a
  k0_off970_inb : ∀ k0_t13 : Fin k0_t13_loop.trips, ∀ a, (k0_off970 k0_t13) a + S1x16.size a ≤ S50x128.size a
  k0_off971_inb : ∀ k0_t13 : Fin k0_t13_loop.trips, ∀ a, (k0_off971 k0_t13) a + S1x16.size a ≤ S50x128.size a
  k0_off972_inb : ∀ k0_t13 : Fin k0_t13_loop.trips, ∀ a, (k0_off972 k0_t13) a + S1x16.size a ≤ S50x128.size a
  k0_off973_inb : ∀ k0_t13 : Fin k0_t13_loop.trips, ∀ a, (k0_off973 k0_t13) a + S1x16.size a ≤ S50x128.size a
  k0_off974_inb : ∀ k0_t13 : Fin k0_t13_loop.trips, ∀ a, (k0_off974 k0_t13) a + S1x16.size a ≤ S50x128.size a
  k0_off975_inb : ∀ k0_t13 : Fin k0_t13_loop.trips, ∀ a, (k0_off975 k0_t13) a + S1x16.size a ≤ S50x128.size a
  k0_off976_inb : ∀ k0_t13 : Fin k0_t13_loop.trips, ∀ a, (k0_off976 k0_t13) a + S1x16.size a ≤ S50x128.size a
  k0_off977_inb : ∀ k0_t13 : Fin k0_t13_loop.trips, ∀ a, (k0_off977 k0_t13) a + S1x16.size a ≤ S50x128.size a
  k0_off978_inb : ∀ k0_t13 : Fin k0_t13_loop.trips, ∀ a, (k0_off978 k0_t13) a + S1x16.size a ≤ S50x128.size a
  k0_off979_inb : ∀ k0_t13 : Fin k0_t13_loop.trips, ∀ a, (k0_off979 k0_t13) a + S1x16.size a ≤ S50x128.size a
  k0_off980_inb : ∀ k0_t13 : Fin k0_t13_loop.trips, ∀ a, (k0_off980 k0_t13) a + S1x16.size a ≤ S50x128.size a
  k0_off981_inb : ∀ k0_t13 : Fin k0_t13_loop.trips, ∀ a, (k0_off981 k0_t13) a + S1x16.size a ≤ S50x128.size a
  k0_off982_inb : ∀ k0_t13 : Fin k0_t13_loop.trips, ∀ a, (k0_off982 k0_t13) a + S1x16.size a ≤ S50x128.size a
  k0_off983_inb : ∀ k0_t13 : Fin k0_t13_loop.trips, ∀ a, (k0_off983 k0_t13) a + S1x16.size a ≤ S50x128.size a
  k0_off984_inb : ∀ k0_t13 : Fin k0_t13_loop.trips, ∀ a, (k0_off984 k0_t13) a + S1x16.size a ≤ S50x128.size a
  k0_off985_inb : ∀ k0_t13 : Fin k0_t13_loop.trips, ∀ a, (k0_off985 k0_t13) a + S1x16.size a ≤ S50x128.size a

class K0.R2.Facts₀ : Prop where
  k0_off986_inb : ∀ k0_t13 : Fin k0_t13_loop.trips, ∀ a, (k0_off986 k0_t13) a + S1x16.size a ≤ S50x128.size a
  k0_off987_inb : ∀ k0_t13 : Fin k0_t13_loop.trips, ∀ a, (k0_off987 k0_t13) a + S1x16.size a ≤ S50x128.size a
  k0_off988_inb : ∀ k0_t13 : Fin k0_t13_loop.trips, ∀ a, (k0_off988 k0_t13) a + S1x16.size a ≤ S50x128.size a
  k0_off989_inb : ∀ k0_t13 : Fin k0_t13_loop.trips, ∀ a, (k0_off989 k0_t13) a + S1x16.size a ≤ S50x128.size a
  k0_off990_inb : ∀ k0_t13 : Fin k0_t13_loop.trips, ∀ a, (k0_off990 k0_t13) a + S1x16.size a ≤ S50x128.size a
  k0_off991_inb : ∀ k0_t13 : Fin k0_t13_loop.trips, ∀ a, (k0_off991 k0_t13) a + S1x16.size a ≤ S50x128.size a
  k0_off992_inb : ∀ k0_t13 : Fin k0_t13_loop.trips, ∀ a, (k0_off992 k0_t13) a + S1x16.size a ≤ S50x128.size a
  k0_off993_inb : ∀ k0_t13 : Fin k0_t13_loop.trips, ∀ a, (k0_off993 k0_t13) a + S1x16.size a ≤ S50x128.size a
  k0_off994_inb : ∀ k0_t13 : Fin k0_t13_loop.trips, ∀ a, (k0_off994 k0_t13) a + S1x16.size a ≤ S50x128.size a
  k0_off995_inb : ∀ k0_t13 : Fin k0_t13_loop.trips, ∀ a, (k0_off995 k0_t13) a + S1x16.size a ≤ S50x128.size a
  k0_off996_inb : ∀ k0_t13 : Fin k0_t13_loop.trips, ∀ a, (k0_off996 k0_t13) a + S1x16.size a ≤ S50x128.size a
  k0_off997_inb : ∀ k0_t13 : Fin k0_t13_loop.trips, ∀ a, (k0_off997 k0_t13) a + S1x16.size a ≤ S50x128.size a
  k0_off998_inb : ∀ k0_t13 : Fin k0_t13_loop.trips, ∀ a, (k0_off998 k0_t13) a + S1x16.size a ≤ S50x128.size a
  k0_off999_inb : ∀ k0_t13 : Fin k0_t13_loop.trips, ∀ a, (k0_off999 k0_t13) a + S1x16.size a ≤ S50x128.size a
  k0_off1000_inb : ∀ k0_t13 : Fin k0_t13_loop.trips, ∀ a, (k0_off1000 k0_t13) a + S1x16.size a ≤ S50x128.size a
  k0_off1001_inb : ∀ k0_t13 : Fin k0_t13_loop.trips, ∀ a, (k0_off1001 k0_t13) a + S1x16.size a ≤ S50x128.size a
  k0_off1002_inb : ∀ k0_t13 : Fin k0_t13_loop.trips, ∀ a, (k0_off1002 k0_t13) a + S1x16.size a ≤ S50x128.size a
  k0_off1003_inb : ∀ k0_t13 : Fin k0_t13_loop.trips, ∀ a, (k0_off1003 k0_t13) a + S1x16.size a ≤ S50x128.size a
  k0_off1004_inb : ∀ k0_t13 : Fin k0_t13_loop.trips, ∀ a, (k0_off1004 k0_t13) a + S1x16.size a ≤ S50x128.size a
  k0_off1005_inb : ∀ k0_t13 : Fin k0_t13_loop.trips, ∀ a, (k0_off1005 k0_t13) a + S1x16.size a ≤ S50x128.size a
  k0_off1006_inb : ∀ k0_t13 : Fin k0_t13_loop.trips, ∀ a, (k0_off1006 k0_t13) a + S1x16.size a ≤ S50x128.size a
  k0_off1007_inb : ∀ k0_t13 : Fin k0_t13_loop.trips, ∀ a, (k0_off1007 k0_t13) a + S1x16.size a ≤ S50x128.size a
  k0_t14_ok : k0_t14_loop.OK
  k0_off1008_inb : ∀ k0_t14 : Fin k0_t14_loop.trips, ∀ a, (k0_off1008 k0_t14) a + S1x16.size a ≤ S50x128.size a
  k0_off1009_inb : ∀ k0_t14 : Fin k0_t14_loop.trips, ∀ a, (k0_off1009 k0_t14) a + S1x16.size a ≤ S50x128.size a
  k0_off1010_inb : ∀ k0_t14 : Fin k0_t14_loop.trips, ∀ a, (k0_off1010 k0_t14) a + S1x16.size a ≤ S50x128.size a
  k0_off1011_inb : ∀ k0_t14 : Fin k0_t14_loop.trips, ∀ a, (k0_off1011 k0_t14) a + S1x16.size a ≤ S50x128.size a
  k0_off1012_inb : ∀ k0_t14 : Fin k0_t14_loop.trips, ∀ a, (k0_off1012 k0_t14) a + S1x16.size a ≤ S50x128.size a
  k0_off1013_inb : ∀ k0_t14 : Fin k0_t14_loop.trips, ∀ a, (k0_off1013 k0_t14) a + S1x16.size a ≤ S50x128.size a
  k0_off1014_inb : ∀ k0_t14 : Fin k0_t14_loop.trips, ∀ a, (k0_off1014 k0_t14) a + S1x16.size a ≤ S50x128.size a
  k0_off1015_inb : ∀ k0_t14 : Fin k0_t14_loop.trips, ∀ a, (k0_off1015 k0_t14) a + S1x16.size a ≤ S50x128.size a
  k0_off1016_inb : ∀ k0_t14 : Fin k0_t14_loop.trips, ∀ a, (k0_off1016 k0_t14) a + S1x16.size a ≤ S50x128.size a
  k0_off1017_inb : ∀ k0_t14 : Fin k0_t14_loop.trips, ∀ a, (k0_off1017 k0_t14) a + S1x16.size a ≤ S50x128.size a
  k0_off1018_inb : ∀ k0_t14 : Fin k0_t14_loop.trips, ∀ a, (k0_off1018 k0_t14) a + S1x16.size a ≤ S50x128.size a
  k0_off1019_inb : ∀ k0_t14 : Fin k0_t14_loop.trips, ∀ a, (k0_off1019 k0_t14) a + S1x16.size a ≤ S50x128.size a
  k0_off1020_inb : ∀ k0_t14 : Fin k0_t14_loop.trips, ∀ a, (k0_off1020 k0_t14) a + S1x16.size a ≤ S50x128.size a
  k0_off1021_inb : ∀ k0_t14 : Fin k0_t14_loop.trips, ∀ a, (k0_off1021 k0_t14) a + S1x16.size a ≤ S50x128.size a
  k0_off1022_inb : ∀ k0_t14 : Fin k0_t14_loop.trips, ∀ a, (k0_off1022 k0_t14) a + S1x16.size a ≤ S50x128.size a
  k0_off1023_inb : ∀ k0_t14 : Fin k0_t14_loop.trips, ∀ a, (k0_off1023 k0_t14) a + S1x16.size a ≤ S50x128.size a
  k0_off1024_inb : ∀ k0_t14 : Fin k0_t14_loop.trips, ∀ a, (k0_off1024 k0_t14) a + S1x16.size a ≤ S50x128.size a
  k0_off1025_inb : ∀ k0_t14 : Fin k0_t14_loop.trips, ∀ a, (k0_off1025 k0_t14) a + S1x16.size a ≤ S50x128.size a
  k0_off1026_inb : ∀ k0_t14 : Fin k0_t14_loop.trips, ∀ a, (k0_off1026 k0_t14) a + S1x16.size a ≤ S50x128.size a
  k0_off1027_inb : ∀ k0_t14 : Fin k0_t14_loop.trips, ∀ a, (k0_off1027 k0_t14) a + S1x16.size a ≤ S50x128.size a
  k0_off1028_inb : ∀ k0_t14 : Fin k0_t14_loop.trips, ∀ a, (k0_off1028 k0_t14) a + S1x16.size a ≤ S50x128.size a
  k0_off1029_inb : ∀ k0_t14 : Fin k0_t14_loop.trips, ∀ a, (k0_off1029 k0_t14) a + S1x16.size a ≤ S50x128.size a
  k0_off1030_inb : ∀ k0_t14 : Fin k0_t14_loop.trips, ∀ a, (k0_off1030 k0_t14) a + S1x16.size a ≤ S50x128.size a
  k0_off1031_inb : ∀ k0_t14 : Fin k0_t14_loop.trips, ∀ a, (k0_off1031 k0_t14) a + S1x16.size a ≤ S50x128.size a
  k0_off1032_inb : ∀ k0_t14 : Fin k0_t14_loop.trips, ∀ a, (k0_off1032 k0_t14) a + S1x16.size a ≤ S50x128.size a
  k0_off1033_inb : ∀ k0_t14 : Fin k0_t14_loop.trips, ∀ a, (k0_off1033 k0_t14) a + S1x16.size a ≤ S50x128.size a
  k0_off1034_inb : ∀ k0_t14 : Fin k0_t14_loop.trips, ∀ a, (k0_off1034 k0_t14) a + S1x16.size a ≤ S50x128.size a
  k0_off1035_inb : ∀ k0_t14 : Fin k0_t14_loop.trips, ∀ a, (k0_off1035 k0_t14) a + S1x16.size a ≤ S50x128.size a
  k0_off1036_inb : ∀ k0_t14 : Fin k0_t14_loop.trips, ∀ a, (k0_off1036 k0_t14) a + S1x16.size a ≤ S50x128.size a
  k0_off1037_inb : ∀ k0_t14 : Fin k0_t14_loop.trips, ∀ a, (k0_off1037 k0_t14) a + S1x16.size a ≤ S50x128.size a
  k0_off1038_inb : ∀ k0_t14 : Fin k0_t14_loop.trips, ∀ a, (k0_off1038 k0_t14) a + S1x16.size a ≤ S50x128.size a
  k0_off1039_inb : ∀ k0_t14 : Fin k0_t14_loop.trips, ∀ a, (k0_off1039 k0_t14) a + S1x16.size a ≤ S50x128.size a
  k0_off1040_inb : ∀ k0_t14 : Fin k0_t14_loop.trips, ∀ a, (k0_off1040 k0_t14) a + S1x16.size a ≤ S50x128.size a
  k0_off1041_inb : ∀ k0_t14 : Fin k0_t14_loop.trips, ∀ a, (k0_off1041 k0_t14) a + S1x16.size a ≤ S50x128.size a
  k0_off1042_inb : ∀ k0_t14 : Fin k0_t14_loop.trips, ∀ a, (k0_off1042 k0_t14) a + S1x16.size a ≤ S50x128.size a
  k0_off1043_inb : ∀ k0_t14 : Fin k0_t14_loop.trips, ∀ a, (k0_off1043 k0_t14) a + S1x16.size a ≤ S50x128.size a
  k0_off1044_inb : ∀ k0_t14 : Fin k0_t14_loop.trips, ∀ a, (k0_off1044 k0_t14) a + S1x16.size a ≤ S50x128.size a
  k0_off1045_inb : ∀ k0_t14 : Fin k0_t14_loop.trips, ∀ a, (k0_off1045 k0_t14) a + S1x16.size a ≤ S50x128.size a
  k0_off1046_inb : ∀ k0_t14 : Fin k0_t14_loop.trips, ∀ a, (k0_off1046 k0_t14) a + S1x16.size a ≤ S50x128.size a
  k0_off1047_inb : ∀ k0_t14 : Fin k0_t14_loop.trips, ∀ a, (k0_off1047 k0_t14) a + S1x16.size a ≤ S50x128.size a
  k0_off1048_inb : ∀ k0_t14 : Fin k0_t14_loop.trips, ∀ a, (k0_off1048 k0_t14) a + S1x16.size a ≤ S50x128.size a
  k0_off1049_inb : ∀ k0_t14 : Fin k0_t14_loop.trips, ∀ a, (k0_off1049 k0_t14) a + S1x16.size a ≤ S50x128.size a
  k0_off1050_inb : ∀ k0_t14 : Fin k0_t14_loop.trips, ∀ a, (k0_off1050 k0_t14) a + S1x16.size a ≤ S50x128.size a
  k0_off1051_inb : ∀ k0_t14 : Fin k0_t14_loop.trips, ∀ a, (k0_off1051 k0_t14) a + S1x16.size a ≤ S50x128.size a
  k0_off1052_inb : ∀ k0_t14 : Fin k0_t14_loop.trips, ∀ a, (k0_off1052 k0_t14) a + S1x16.size a ≤ S50x128.size a
  k0_off1053_inb : ∀ k0_t14 : Fin k0_t14_loop.trips, ∀ a, (k0_off1053 k0_t14) a + S1x16.size a ≤ S50x128.size a
  k0_off1054_inb : ∀ k0_t14 : Fin k0_t14_loop.trips, ∀ a, (k0_off1054 k0_t14) a + S1x16.size a ≤ S50x128.size a
  k0_off1055_inb : ∀ k0_t14 : Fin k0_t14_loop.trips, ∀ a, (k0_off1055 k0_t14) a + S1x16.size a ≤ S50x128.size a
  k0_off1056_inb : ∀ k0_t14 : Fin k0_t14_loop.trips, ∀ a, (k0_off1056 k0_t14) a + S1x16.size a ≤ S50x128.size a
  k0_off1057_inb : ∀ k0_t14 : Fin k0_t14_loop.trips, ∀ a, (k0_off1057 k0_t14) a + S1x16.size a ≤ S50x128.size a
  k0_off1058_inb : ∀ k0_t14 : Fin k0_t14_loop.trips, ∀ a, (k0_off1058 k0_t14) a + S1x16.size a ≤ S50x128.size a
  k0_off1059_inb : ∀ k0_t14 : Fin k0_t14_loop.trips, ∀ a, (k0_off1059 k0_t14) a + S1x16.size a ≤ S50x128.size a
  k0_off1060_inb : ∀ k0_t14 : Fin k0_t14_loop.trips, ∀ a, (k0_off1060 k0_t14) a + S1x16.size a ≤ S50x128.size a
  k0_off1061_inb : ∀ k0_t14 : Fin k0_t14_loop.trips, ∀ a, (k0_off1061 k0_t14) a + S1x16.size a ≤ S50x128.size a
  k0_off1062_inb : ∀ k0_t14 : Fin k0_t14_loop.trips, ∀ a, (k0_off1062 k0_t14) a + S1x16.size a ≤ S50x128.size a
  k0_off1063_inb : ∀ k0_t14 : Fin k0_t14_loop.trips, ∀ a, (k0_off1063 k0_t14) a + S1x16.size a ≤ S50x128.size a
  k0_off1064_inb : ∀ k0_t14 : Fin k0_t14_loop.trips, ∀ a, (k0_off1064 k0_t14) a + S1x16.size a ≤ S50x128.size a
  k0_off1065_inb : ∀ k0_t14 : Fin k0_t14_loop.trips, ∀ a, (k0_off1065 k0_t14) a + S1x16.size a ≤ S50x128.size a
  k0_off1066_inb : ∀ k0_t14 : Fin k0_t14_loop.trips, ∀ a, (k0_off1066 k0_t14) a + S1x16.size a ≤ S50x128.size a
  k0_off1067_inb : ∀ k0_t14 : Fin k0_t14_loop.trips, ∀ a, (k0_off1067 k0_t14) a + S1x16.size a ≤ S50x128.size a
  k0_off1068_inb : ∀ k0_t14 : Fin k0_t14_loop.trips, ∀ a, (k0_off1068 k0_t14) a + S1x16.size a ≤ S50x128.size a
  k0_off1069_inb : ∀ k0_t14 : Fin k0_t14_loop.trips, ∀ a, (k0_off1069 k0_t14) a + S1x16.size a ≤ S50x128.size a
  k0_off1070_inb : ∀ k0_t14 : Fin k0_t14_loop.trips, ∀ a, (k0_off1070 k0_t14) a + S1x16.size a ≤ S50x128.size a
  k0_off1071_inb : ∀ k0_t14 : Fin k0_t14_loop.trips, ∀ a, (k0_off1071 k0_t14) a + S1x16.size a ≤ S50x128.size a
  k0_off1072_inb : ∀ k0_t14 : Fin k0_t14_loop.trips, ∀ a, (k0_off1072 k0_t14) a + S1x16.size a ≤ S50x128.size a
  k0_off1073_inb : ∀ k0_t14 : Fin k0_t14_loop.trips, ∀ a, (k0_off1073 k0_t14) a + S1x16.size a ≤ S50x128.size a
  k0_off1074_inb : ∀ k0_t14 : Fin k0_t14_loop.trips, ∀ a, (k0_off1074 k0_t14) a + S1x16.size a ≤ S50x128.size a
  k0_off1075_inb : ∀ k0_t14 : Fin k0_t14_loop.trips, ∀ a, (k0_off1075 k0_t14) a + S1x16.size a ≤ S50x128.size a
  k0_off1076_inb : ∀ k0_t14 : Fin k0_t14_loop.trips, ∀ a, (k0_off1076 k0_t14) a + S1x16.size a ≤ S50x128.size a
  k0_off1077_inb : ∀ k0_t14 : Fin k0_t14_loop.trips, ∀ a, (k0_off1077 k0_t14) a + S1x16.size a ≤ S50x128.size a
  k0_off1078_inb : ∀ k0_t14 : Fin k0_t14_loop.trips, ∀ a, (k0_off1078 k0_t14) a + S1x16.size a ≤ S50x128.size a
  k0_off1079_inb : ∀ k0_t14 : Fin k0_t14_loop.trips, ∀ a, (k0_off1079 k0_t14) a + S1x16.size a ≤ S50x128.size a
  k0_off1080_inb : ∀ k0_t14 : Fin k0_t14_loop.trips, ∀ a, (k0_off1080 k0_t14) a + S1x16.size a ≤ S50x128.size a
  k0_off1081_inb : ∀ k0_t14 : Fin k0_t14_loop.trips, ∀ a, (k0_off1081 k0_t14) a + S1x16.size a ≤ S50x128.size a
  k0_off1082_inb : ∀ k0_t14 : Fin k0_t14_loop.trips, ∀ a, (k0_off1082 k0_t14) a + S1x16.size a ≤ S50x128.size a
  k0_off1083_inb : ∀ k0_t14 : Fin k0_t14_loop.trips, ∀ a, (k0_off1083 k0_t14) a + S1x16.size a ≤ S50x128.size a
  k0_off1084_inb : ∀ k0_t14 : Fin k0_t14_loop.trips, ∀ a, (k0_off1084 k0_t14) a + S1x16.size a ≤ S50x128.size a
  k0_off1085_inb : ∀ k0_t14 : Fin k0_t14_loop.trips, ∀ a, (k0_off1085 k0_t14) a + S1x16.size a ≤ S50x128.size a
  k0_off1086_inb : ∀ k0_t14 : Fin k0_t14_loop.trips, ∀ a, (k0_off1086 k0_t14) a + S1x16.size a ≤ S50x128.size a
  k0_off1087_inb : ∀ k0_t14 : Fin k0_t14_loop.trips, ∀ a, (k0_off1087 k0_t14) a + S1x16.size a ≤ S50x128.size a
  k0_off1088_inb : ∀ i : grid0.Coords, ∀ a, (k0_off1088 i) a + S128x128.size a ≤ S4096x128.size a

class Shapes1.Facts₀ : Prop where
  pads_S4096x50_S4096x64_000_0140 : S4096x50.Pads (![0, 0] : Fin 2 → Nat) ![0, 14] ![0, 0] S4096x64
  h_S_ : 0 < S_.numel
  inb_S128x50_S1x50_0_0 : ∀ a, (![0, 0] : Fin 2 → Nat) a + S1x50.size a ≤ S128x50.size a
  squeezes_S1x50_S50 : S1x50.Squeezes S50
  inb_S100000x128_S100000x128_0_0 : ∀ a, (![0, 0] : Fin 2 → Nat) a + S100000x128.size a ≤ S100000x128.size a
  gathers_S100000x128_S50x128 : S100000x128.Gathers 0 S50x128
  inb_S128x50_S1x50_1_0 : ∀ a, (![1, 0] : Fin 2 → Nat) a + S1x50.size a ≤ S128x50.size a
  inb_S128x50_S1x50_2_0 : ∀ a, (![2, 0] : Fin 2 → Nat) a + S1x50.size a ≤ S128x50.size a
  inb_S128x50_S1x50_3_0 : ∀ a, (![3, 0] : Fin 2 → Nat) a + S1x50.size a ≤ S128x50.size a
  h_S128x64 : 0 < S128x64.numel
  h_S1x16 : 0 < S1x16.numel
  shapeCasts_S1x16_S16 : S1x16.ShapeCasts S16
  shapeCasts_S16_S1x16 : S16.ShapeCasts S1x16
  inb_S128x50_S1x50_124_0 : ∀ a, (![124, 0] : Fin 2 → Nat) a + S1x50.size a ≤ S128x50.size a
  inb_S128x128_S1x16_120_0 : ∀ a, (![120, 0] : Fin 2 → Nat) a + S1x16.size a ≤ S128x128.size a
  inb_S128x128_S1x16_120_16 : ∀ a, (![120, 16] : Fin 2 → Nat) a + S1x16.size a ≤ S128x128.size a
  inb_S128x128_S1x16_120_32 : ∀ a, (![120, 32] : Fin 2 → Nat) a + S1x16.size a ≤ S128x128.size a
  inb_S128x128_S1x16_120_48 : ∀ a, (![120, 48] : Fin 2 → Nat) a + S1x16.size a ≤ S128x128.size a
  inb_S128x128_S1x16_120_64 : ∀ a, (![120, 64] : Fin 2 → Nat) a + S1x16.size a ≤ S128x128.size a
  inb_S128x128_S1x16_120_80 : ∀ a, (![120, 80] : Fin 2 → Nat) a + S1x16.size a ≤ S128x128.size a
  inb_S128x128_S1x16_120_96 : ∀ a, (![120, 96] : Fin 2 → Nat) a + S1x16.size a ≤ S128x128.size a
  inb_S128x128_S1x16_120_112 : ∀ a, (![120, 112] : Fin 2 → Nat) a + S1x16.size a ≤ S128x128.size a
  inb_S128x50_S1x50_125_0 : ∀ a, (![125, 0] : Fin 2 → Nat) a + S1x50.size a ≤ S128x50.size a
  inb_S128x128_S1x16_121_0 : ∀ a, (![121, 0] : Fin 2 → Nat) a + S1x16.size a ≤ S128x128.size a
  inb_S128x128_S1x16_121_16 : ∀ a, (![121, 16] : Fin 2 → Nat) a + S1x16.size a ≤ S128x128.size a
  inb_S128x128_S1x16_121_32 : ∀ a, (![121, 32] : Fin 2 → Nat) a + S1x16.size a ≤ S128x128.size a
  inb_S128x128_S1x16_121_48 : ∀ a, (![121, 48] : Fin 2 → Nat) a + S1x16.size a ≤ S128x128.size a
  inb_S128x128_S1x16_121_64 : ∀ a, (![121, 64] : Fin 2 → Nat) a + S1x16.size a ≤ S128x128.size a
  inb_S128x128_S1x16_121_80 : ∀ a, (![121, 80] : Fin 2 → Nat) a + S1x16.size a ≤ S128x128.size a
  inb_S128x128_S1x16_121_96 : ∀ a, (![121, 96] : Fin 2 → Nat) a + S1x16.size a ≤ S128x128.size a
  inb_S128x128_S1x16_121_112 : ∀ a, (![121, 112] : Fin 2 → Nat) a + S1x16.size a ≤ S128x128.size a
  inb_S128x50_S1x50_126_0 : ∀ a, (![126, 0] : Fin 2 → Nat) a + S1x50.size a ≤ S128x50.size a
  inb_S128x128_S1x16_122_0 : ∀ a, (![122, 0] : Fin 2 → Nat) a + S1x16.size a ≤ S128x128.size a
  inb_S128x128_S1x16_122_16 : ∀ a, (![122, 16] : Fin 2 → Nat) a + S1x16.size a ≤ S128x128.size a
  inb_S128x128_S1x16_122_32 : ∀ a, (![122, 32] : Fin 2 → Nat) a + S1x16.size a ≤ S128x128.size a
  inb_S128x128_S1x16_122_48 : ∀ a, (![122, 48] : Fin 2 → Nat) a + S1x16.size a ≤ S128x128.size a
  inb_S128x128_S1x16_122_64 : ∀ a, (![122, 64] : Fin 2 → Nat) a + S1x16.size a ≤ S128x128.size a
  inb_S128x128_S1x16_122_80 : ∀ a, (![122, 80] : Fin 2 → Nat) a + S1x16.size a ≤ S128x128.size a
  inb_S128x128_S1x16_122_96 : ∀ a, (![122, 96] : Fin 2 → Nat) a + S1x16.size a ≤ S128x128.size a
  inb_S128x128_S1x16_122_112 : ∀ a, (![122, 112] : Fin 2 → Nat) a + S1x16.size a ≤ S128x128.size a
  inb_S128x50_S1x50_127_0 : ∀ a, (![127, 0] : Fin 2 → Nat) a + S1x50.size a ≤ S128x50.size a
  inb_S128x128_S1x16_123_0 : ∀ a, (![123, 0] : Fin 2 → Nat) a + S1x16.size a ≤ S128x128.size a
  inb_S128x128_S1x16_123_16 : ∀ a, (![123, 16] : Fin 2 → Nat) a + S1x16.size a ≤ S128x128.size a
  inb_S128x128_S1x16_123_32 : ∀ a, (![123, 32] : Fin 2 → Nat) a + S1x16.size a ≤ S128x128.size a
  inb_S128x128_S1x16_123_48 : ∀ a, (![123, 48] : Fin 2 → Nat) a + S1x16.size a ≤ S128x128.size a
  inb_S128x128_S1x16_123_64 : ∀ a, (![123, 64] : Fin 2 → Nat) a + S1x16.size a ≤ S128x128.size a
  inb_S128x128_S1x16_123_80 : ∀ a, (![123, 80] : Fin 2 → Nat) a + S1x16.size a ≤ S128x128.size a
  inb_S128x128_S1x16_123_96 : ∀ a, (![123, 96] : Fin 2 → Nat) a + S1x16.size a ≤ S128x128.size a
  inb_S128x128_S1x16_123_112 : ∀ a, (![123, 112] : Fin 2 → Nat) a + S1x16.size a ≤ S128x128.size a
  inb_S128x128_S1x16_124_0 : ∀ a, (![124, 0] : Fin 2 → Nat) a + S1x16.size a ≤ S128x128.size a
  inb_S128x128_S1x16_124_16 : ∀ a, (![124, 16] : Fin 2 → Nat) a + S1x16.size a ≤ S128x128.size a
  inb_S128x128_S1x16_124_32 : ∀ a, (![124, 32] : Fin 2 → Nat) a + S1x16.size a ≤ S128x128.size a
  inb_S128x128_S1x16_124_48 : ∀ a, (![124, 48] : Fin 2 → Nat) a + S1x16.size a ≤ S128x128.size a
  inb_S128x128_S1x16_124_64 : ∀ a, (![124, 64] : Fin 2 → Nat) a + S1x16.size a ≤ S128x128.size a
  inb_S128x128_S1x16_124_80 : ∀ a, (![124, 80] : Fin 2 → Nat) a + S1x16.size a ≤ S128x128.size a
  inb_S128x128_S1x16_124_96 : ∀ a, (![124, 96] : Fin 2 → Nat) a + S1x16.size a ≤ S128x128.size a
  inb_S128x128_S1x16_124_112 : ∀ a, (![124, 112] : Fin 2 → Nat) a + S1x16.size a ≤ S128x128.size a
  inb_S128x128_S1x16_125_0 : ∀ a, (![125, 0] : Fin 2 → Nat) a + S1x16.size a ≤ S128x128.size a
  inb_S128x128_S1x16_125_16 : ∀ a, (![125, 16] : Fin 2 → Nat) a + S1x16.size a ≤ S128x128.size a
  inb_S128x128_S1x16_125_32 : ∀ a, (![125, 32] : Fin 2 → Nat) a + S1x16.size a ≤ S128x128.size a
  inb_S128x128_S1x16_125_48 : ∀ a, (![125, 48] : Fin 2 → Nat) a + S1x16.size a ≤ S128x128.size a
  inb_S128x128_S1x16_125_64 : ∀ a, (![125, 64] : Fin 2 → Nat) a + S1x16.size a ≤ S128x128.size a
  inb_S128x128_S1x16_125_80 : ∀ a, (![125, 80] : Fin 2 → Nat) a + S1x16.size a ≤ S128x128.size a
  inb_S128x128_S1x16_125_96 : ∀ a, (![125, 96] : Fin 2 → Nat) a + S1x16.size a ≤ S128x128.size a
  inb_S128x128_S1x16_125_112 : ∀ a, (![125, 112] : Fin 2 → Nat) a + S1x16.size a ≤ S128x128.size a
  inb_S128x128_S1x16_126_0 : ∀ a, (![126, 0] : Fin 2 → Nat) a + S1x16.size a ≤ S128x128.size a
  inb_S128x128_S1x16_126_16 : ∀ a, (![126, 16] : Fin 2 → Nat) a + S1x16.size a ≤ S128x128.size a
  inb_S128x128_S1x16_126_32 : ∀ a, (![126, 32] : Fin 2 → Nat) a + S1x16.size a ≤ S128x128.size a
  inb_S128x128_S1x16_126_48 : ∀ a, (![126, 48] : Fin 2 → Nat) a + S1x16.size a ≤ S128x128.size a
  inb_S128x128_S1x16_126_64 : ∀ a, (![126, 64] : Fin 2 → Nat) a + S1x16.size a ≤ S128x128.size a
  inb_S128x128_S1x16_126_80 : ∀ a, (![126, 80] : Fin 2 → Nat) a + S1x16.size a ≤ S128x128.size a
  inb_S128x128_S1x16_126_96 : ∀ a, (![126, 96] : Fin 2 → Nat) a + S1x16.size a ≤ S128x128.size a
  inb_S128x128_S1x16_126_112 : ∀ a, (![126, 112] : Fin 2 → Nat) a + S1x16.size a ≤ S128x128.size a
  inb_S128x128_S1x16_127_0 : ∀ a, (![127, 0] : Fin 2 → Nat) a + S1x16.size a ≤ S128x128.size a
  inb_S128x128_S1x16_127_16 : ∀ a, (![127, 16] : Fin 2 → Nat) a + S1x16.size a ≤ S128x128.size a
  inb_S128x128_S1x16_127_32 : ∀ a, (![127, 32] : Fin 2 → Nat) a + S1x16.size a ≤ S128x128.size a
  inb_S128x128_S1x16_127_48 : ∀ a, (![127, 48] : Fin 2 → Nat) a + S1x16.size a ≤ S128x128.size a
  inb_S128x128_S1x16_127_64 : ∀ a, (![127, 64] : Fin 2 → Nat) a + S1x16.size a ≤ S128x128.size a
  inb_S128x128_S1x16_127_80 : ∀ a, (![127, 80] : Fin 2 → Nat) a + S1x16.size a ≤ S128x128.size a
  inb_S128x128_S1x16_127_96 : ∀ a, (![127, 96] : Fin 2 → Nat) a + S1x16.size a ≤ S128x128.size a
  inb_S128x128_S1x16_127_112 : ∀ a, (![127, 112] : Fin 2 → Nat) a + S1x16.size a ≤ S128x128.size a
  hcc0_scratch8 : 0 + S_.numel ≤ 8
  hcc0_scratch9 : 1 + S_.numel ≤ 8
  hcc0_scratch10 : 2 + S_.numel ≤ 8
  hcc0_scratch11 : 3 + S_.numel ≤ 8
  hcc0_scratch12 : 4 + S_.numel ≤ 8
  hcc0_scoped0 : 5 + S_.numel ≤ 8
  hcc0_scoped1 : 6 + S_.numel ≤ 8
  hcc0_scoped2 : 7 + S_.numel ≤ 8
  hscKind : ∀ q, scKind q ≠ .tc
  hscCore : ∀ q, scNCore q ≤ τ.nSC
  hscSub : ∀ q, scNSub q ≤ τ.nSub

class Facts₀ : Prop where
  k0_r1 : K0.R1.Facts₀
  k0_r2 : K0.R2.Facts₀
  shapes1 : Shapes1.Facts₀
attribute [instance] Facts₀.k0_r1 Facts₀.k0_r2 Facts₀.shapes1

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scoped0 : DmaSems sig S_ := SemArray.consecutive 5 S_ hcc0_scoped0
abbrev cc0_scoped1 : DmaSems sig S_ := SemArray.consecutive 6 S_ hcc0_scoped1
abbrev cc0_scoped2 : DmaSems sig S_ := SemArray.consecutive 7 S_ hcc0_scoped2

class Facts : Prop extends Facts₀ where

variable [Facts]
-- ==== ReferenceIdeal.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x128 : Shape := ⟨2, ![4096, 128]⟩

abbrev nBuf : Space → Nat
  | .hbm => 31
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50, .f32⟩
  | .hbm, ⟨2, _⟩ => ⟨S100000x128, .f32⟩
  | .hbm, ⟨3, _⟩ => ⟨S_, .i32⟩
  | .hbm, ⟨4, _⟩ => ⟨S4096x50, .i32⟩
  | .hbm, ⟨5, _⟩ => ⟨S4096x50, .i1⟩
  | .hbm, ⟨6, _⟩ => ⟨S_, .i32⟩
  | .hbm, ⟨7, _⟩ => ⟨S4096x50, .i32⟩
  | .hbm, ⟨8, _⟩ => ⟨S4096x50, .i32⟩
  | .hbm, ⟨9, _⟩ => ⟨S4096x50, .i32⟩
  | .hbm, ⟨10, _⟩ => ⟨S4096x50x1, .i32⟩
  | .hbm, ⟨11, _⟩ => ⟨S1, .i32⟩
  | .hbm, ⟨12, _⟩ => ⟨S_, .i32⟩
  | .hbm, ⟨13, _⟩ => ⟨S4096x50x1, .i32⟩
  | .hbm, ⟨14, _⟩ => ⟨S4096x50x1, .i1⟩
  | .hbm, ⟨15, _⟩ => ⟨S1x1x1, .i32⟩
  | .hbm, ⟨16, _⟩ => ⟨S4096x50x1, .i32⟩
  | .hbm, ⟨17, _⟩ => ⟨S4096x50x1, .i1⟩
  | .hbm, ⟨18, _⟩ => ⟨S4096x50x1, .i1⟩
  | .hbm, ⟨19, _⟩ => ⟨S_, .i1⟩
  | .hbm, ⟨20, _⟩ => ⟨S4096x50, .i1⟩
  | .hbm, ⟨21, _⟩ => ⟨S4096x50x128, .f32⟩
  | .hbm, ⟨22, _⟩ => ⟨S4096x50x128, .i1⟩
  | .hbm, ⟨23, _⟩ => ⟨S_, .f32⟩
  | .hbm, ⟨24, _⟩ => ⟨S4096x50x128, .f32⟩
  | .hbm, ⟨25, _⟩ => ⟨S4096x50x128, .f32⟩
  | .hbm, ⟨26, _⟩ => ⟨S4096x50x1, .f32⟩
  | .hbm, ⟨27, _⟩ => ⟨S4096x50x128, .f32⟩
  | .hbm, ⟨28, _⟩ => ⟨S4096x50x128, .f32⟩
  | .hbm, ⟨29, _⟩ => ⟨S_, .f32⟩
  | .hbm, ⟨30, _⟩ => ⟨S4096x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  bcast_S4096x50x1_S4096x50x128_0_1_2 : S4096x50x1.BroadcastsInDim S4096x50x128 (![0, 1, 2] : Fin 3 → Fin S4096x50x128.rank)
  reducesTo_S4096x50x128_S4096x128_d1 : S4096x50x128.ReducesTo [1] S4096x128
  gather_S100000x128_S4096x50x1_S4096x50x128_2_0_n_n_0_2_1128_wf : GatherDims.WF S100000x128 S4096x50x1 S4096x50x128 [2] [0] [] [0] [] 2 ![1, 128]

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf

class Facts : Prop extends Facts₀ where

variable [Facts]
-- ==== Proof.SpecF.lean ====
/-
  The kernel's arithmetic, in any float instance: each output entry is the left-to-right recurrence
      a₀ = 0,  a_{l+1} = a_l + w_l · t_l     (fifty steps)
  over the row's fifty weights `w_l` and the matching entries `t_l` of the table rows the indices name.
  `acc wr tr n` is the value after `n` steps; `Gk` the whole result array, entry `(r, c)` from row `r` of
  the indices and of the (padded) weights and column `c` of the table.
-/
import Idealize.ShloMosaic.PureOps
import Idealize.ShloMosaic.Lib.ValueIdx

noncomputable section

namespace Cert.SpecF

open Idealize.ShloMosaic Idealize.ShloMosaic.ValueIdx

variable {F : FTy → Type} [FloatOps F]

/-- `n` steps of `a ← a + w l · t l` from zero. -/
def acc (wr tr : Nat → F .f32) : Nat → F .f32
  | 0 => FloatOps.ofBits .f32 0x00000000#32
  | n + 1 => FloatOps.addf (acc wr tr n) (FloatOps.mulf (wr n) (tr n))

theorem acc_succ (wr tr : Nat → F .f32) (n : Nat) :
    acc wr tr (n + 1) = FloatOps.addf (acc wr tr n) (FloatOps.mulf (wr n) (tr n)) := rfl

theorem acc_congr {wr wr' tr tr' : Nat → F .f32} (n : Nat) (hw : ∀ l, l < n → wr l = wr' l) (ht : ∀ l, l < n → tr l = tr' l) :
    acc wr tr n = acc wr' tr' n := by
  induction n with
  | zero => rfl
  | succ n ih =>
    rw [acc_succ, acc_succ, ih (fun l h => hw l (Nat.lt_succ_of_lt h)) (fun l h => ht l (Nat.lt_succ_of_lt h)),
      hw n (Nat.lt_succ_self n), ht n (Nat.lt_succ_self n)]

/-- The index array `[4096, 50]`, the weights padded to `[4096, 64]`, the table `[100000, 128]`, the result `[4096, 128]`. -/
abbrev SX : Shape := ⟨2, ![4096, 50]⟩
abbrev SW : Shape := ⟨2, ![4096, 64]⟩
abbrev ST : Shape := ⟨2, ![100000, 128]⟩
abbrev SO : Shape := ⟨2, ![4096, 128]⟩

/-- Entry `(r, l)` of the padded weights, the coordinates reduced into range. -/
def wAt (wp : FVec F SW .f32) (r l : Nat) : F .f32 :=
  wp (ix2 (⟨r % 4096, Nat.mod_lt _ (by decide)⟩ : Fin 4096) (⟨l % 64, Nat.mod_lt _ (by decide)⟩ : Fin 64))

/-- The table row the index at `(r, l)` names (read unsigned), the coordinates reduced into range. -/
def rowAt (x : IVec SX 32) (r l : Nat) : Nat :=
  (x (ix2 (⟨r % 4096, Nat.mod_lt _ (by decide)⟩ : Fin 4096) (⟨l % 50, Nat.mod_lt _ (by decide)⟩ : Fin 50))).toNat

/-- Entry `(t, c)` of the table, the coordinates reduced into range. -/
def tAt (T : FVec F ST .f32) (t c : Nat) : F .f32 :=
  T (ix2 (⟨t % 100000, Nat.mod_lt _ (by decide)⟩ : Fin 100000) (⟨c % 128, Nat.mod_lt _ (by decide)⟩ : Fin 128))

/-- Entry `(r, c)` of the result: fifty steps over row `r`. -/
def GkAt (x : IVec SX 32) (wp : FVec F SW .f32) (T : FVec F ST .f32) (r c : Nat) : F .f32 :=
  acc (fun l => wAt wp r l) (fun l => tAt T (rowAt x r l) c) 50

/-- The result array. -/
def Gk (x : IVec SX 32) (wp : FVec F SW .f32) (T : FVec F ST .f32) : FVec F SO .f32 :=
  fun j => GkAt x wp T (j 0).val (j 1).val

end Cert.SpecF

end
-- ==== Proof.K.Iface.lean ====
/-
  The embedding-bag kernel on one vector subcore, as the launch sees it: the names shared by the body's proof and the
  launch's, and the statement that joins them. Tile `(c, s)` owns batch rows `[256·s + 128·c, +128)`: it reads its rows of
  the indices and of the padded weights and any row of the table, and writes its 128 rows of the result, each entry the
  fifty-step recurrence `Cert.SpecF.Gk` names.
-/
import proofs.«206443_g53721450939153_cont_9to1_m_117_36_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206443_g53721450939153_cont_9to1_m_117_36_alg».proof.Proof.Gen.Kernel
import proofs.«206443_g53721450939153_cont_9to1_m_117_36_alg».proof.Proof.Gen.Kernel.Skeleton
import proofs.«206443_g53721450939153_cont_9to1_m_117_36_alg».proof.Proof.SpecF

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore names them, and a tile's thread -/

abbrev xLoc (d : Dev nD) : Loc nD τ sig := (SparseCore.T d).loc main_arg0
abbrev wLoc (d : Dev nD) : Loc nD τ sig := (SparseCore.T d).loc main_v0
abbrev tLoc (d : Dev nD) : Loc nD τ sig := (SparseCore.T d).loc main_arg2
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The tile's 128 rows of the result, as the kernel slices them. -/
abbrev oSl (L : grid0.Coords) : Memref sig .scVector .hbm S128x128 .f32 :=
  (Memref.whole main_v1_scv).slice (Rect.unit (s := S4096x128) (k0_off1088 L) S128x128.size (k0_off1088_inb L)) (fun _ => rfl)

variable [FloatOps F]

/-- The result array every tile's rows are rows of. -/
abbrev Gout (d : Dev nD) (mx : Buf (Elt F) (xLoc d)) (mw : Buf (Elt F) (wLoc d)) (mt : Buf (Elt F) (tLoc d)) : Buf (Elt F) (oLoc d) :=
  Cert.SpecF.Gk (F := F) mx mw mt

/-- What a tile is handed and what it hands back. -/
abbrev tileIn (d : Dev nD) (L : grid0.Coords) (q : PosShare TreeShare)
    (mx : Buf (Elt F) (xLoc d)) (mw : Buf (Elt F) (wLoc d)) (mt : Buf (Elt F) (tLoc d)) (fo : Buf (Elt F) (oLoc d)) : sProp 𝕄 :=
  iprop((xLoc d ↦{q} mx) ∗ (wLoc d ↦{q} mw) ∗ (tLoc d ↦{q} mt) ∗ (oLoc d ↦[(oSl L).view.set]{fullShare} fo))

/-- The statement of a tile's task: from shares of the three inputs and its rows of the result, every index below the
    table's row count, the task ends with the inputs back and its rows of the result at the recurrence's values. -/
def TileSpec : Prop :=
  ∀ (hF : (K (F := F)).Facts) (d : Dev nD) (L : grid0.Coords) (q : PosShare TreeShare)
    (mx : Buf (Elt F) (xLoc d)) (mw : Buf (Elt F) (wLoc d)) (mt : Buf (Elt F) (tLoc d)) (fo : Buf (Elt F) (oLoc d))
    (hx : ∀ i, (mx i).toNat < 100000)
    (O : CellTallies nD τ sig (HIx 1)) (W : Waits sig (HIx 1)) (hO : ∀ g, O g none = 0),
    iprop(levAts (K (F := F)).L (K (F := F)).lev ∗ emp ∗ tileIn d L q mx mw mt fo
        ∗ scopedBufs (thr d L) ∗ scopedSems0 (thr d L) ∗ owes (thr d L) O W)
      ⊢ wp frame (wpE (defs₀ (F := F)) 𝒱₀ (thr d L) none) Set.univ
          (cc0_emb_kernel L (Memref.whole main_arg0_scv) (Memref.isWhole_whole _) (Memref.whole main_v0_scv) (Memref.isWhole_whole _) (Memref.whole main_arg2_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scoped0 cc0_scoped1 cc0_scoped2)
          fun _ => iprop(tileIn d L q mx mw mt (Gout d mx mw mt)
            ∗ scopedBufs (thr d L) ∗ scopedSems0 (thr d L) ∗ ∃ W', ⌜∀ p ∈ W', p ∈ W ∨ p.2 = none⌝ ∗ owes (thr d L) O W')

end Cert.Proof.K

end
-- ==== Proof.K.CoreSpec.lean ====
import proofs.«206443_g53721450939153_cont_9to1_m_117_36_alg».proof.Proof.K.Iface
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

/-! # A tile's task over its own scratch, spelt as its thread addresses memory

  The statement the body's run proves: the three inputs at a read share and the tile's rows of the result, each as the
  tile's memrefs address them; the eight scratch buffers whole at some contents; the eight DMA semaphores at zero; the
  waits the tile may make. It ends with the same, the result's rows at the recurrence's values. -/

/-- The eight scratch buffers, each whole at some contents. -/
def scratchAny (d : Dev nD) (L : grid0.Coords) : sProp 𝕄 :=
  iprop((∃ g, (sXv).view.loc (thr d L) ↦{fullShare} g) ∗ (∃ g, (sWv).view.loc (thr d L) ↦{fullShare} g) ∗ (∃ g, (sOv).view.loc (thr d L) ↦{fullShare} g)
    ∗ (∃ g, (sB3).view.loc (thr d L) ↦{fullShare} g) ∗ (∃ g, (sB4).view.loc (thr d L) ↦{fullShare} g) ∗ (∃ g, (sB5).view.loc (thr d L) ↦{fullShare} g)
    ∗ (∃ g, (sB6).view.loc (thr d L) ↦{fullShare} g) ∗ (∃ g, (sB7).view.loc (thr d L) ↦{fullShare} g))

/-- The eight DMA semaphores at zero: the five ring slots', then the three copies'. -/
def semsZero (d : Dev nD) (L : grid0.Coords) : sProp 𝕄 :=
  iprop(semVal (thr d L, SemLoc.dma cc0_scratch8.sem) 0 ∗ semVal (thr d L, SemLoc.dma cc0_scratch9.sem) 0 ∗ semVal (thr d L, SemLoc.dma cc0_scratch10.sem) 0
    ∗ semVal (thr d L, SemLoc.dma cc0_scratch11.sem) 0 ∗ semVal (thr d L, SemLoc.dma cc0_scratch12.sem) 0
    ∗ semVal (thr d L, SemLoc.dma cc0_scoped0.sem) 0 ∗ semVal (thr d L, SemLoc.dma cc0_scoped1.sem) 0 ∗ semVal (thr d L, SemLoc.dma cc0_scoped2.sem) 0)

/-- The inputs and the tile's rows of the result, as the tile's memrefs address them. -/
def tileMem (d : Dev nD) (L : grid0.Coords) (q : PosShare TreeShare)
    (mx : Buf (Elt F) (xLoc d)) (mw : Buf (Elt F) (wLoc d)) (mt : Buf (Elt F) (tLoc d)) (fo : Buf (Elt F) (oLoc d)) : sProp 𝕄 :=
  iprop(((xW).view.loc (thr d L) ↦{q} mx) ∗ ((wW).view.loc (thr d L) ↦{q} mw) ∗ ((tW).view.loc (thr d L) ↦{q} mt)
    ∗ ((oSl L).view.loc (thr d L) ↦[(oSl L).view.set]{fullShare} fo))

def TileCore : Prop :=
  ∀ (d : Dev nD) (L : grid0.Coords) (q : PosShare TreeShare)
    (mx : Buf (Elt F) (xLoc d)) (mw : Buf (Elt F) (wLoc d)) (mt : Buf (Elt F) (tLoc d)) (fo : Buf (Elt F) (oLoc d))
    (hx : ∀ i, (mx i).toNat < 100000)
    (O : CellTallies nD τ sig (HIx 1)) (W : Waits sig (HIx 1)),
    iprop(Transfers.MayWaits (thr d L) (none : HIx 1) O ∗ tileMem d L q mx mw mt fo ∗ scratchAny d L ∗ semsZero d L ∗ owes (thr d L) O W)
      ⊢ wp frame (wpE (defs₀ (F := F)) 𝒱₀ (thr d L) none) Set.univ
          (cc0_emb_kernel L (Memref.whole main_arg0_scv) (Memref.isWhole_whole _) (Memref.whole main_v0_scv) (Memref.isWhole_whole _) (Memref.whole main_arg2_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scoped0 cc0_scoped1 cc0_scoped2)
          fun _ => iprop(tileMem d L q mx mw mt (Gout d mx mw mt) ∗ scratchAny d L ∗ semsZero d L
            ∗ ∃ W', ⌜∀ p ∈ W', p ∈ W ∨ p.2 = none⌝ ∗ owes (thr d L) O W')

end Cert.Proof.K

end
-- ==== Proof.K.CompLemmas.lean ====
import proofs.«206443_g53721450939153_cont_9to1_m_117_36_alg».proof.Proof.K.Iface
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

/-! # The inner product of one batch row: lemmas shared by every copy of the compute loop

  One compute is a loop of five trips; a trip takes ten positions `l = 10·t + dl`; at each position the weight `w[b, l]`
  is loaded into every lane (an indexed load of the weights scratch at a splat row and a splat column) and, for each of the
  eight 16-lane chunks `c`, accumulator `c` gains that weight times lanes `[16c, 16c+16)` of row `l` of the slot buffer.
  Lane `i` of accumulator `c` after `n` positions is therefore the recurrence `Cert.SpecF.acc` over the row's weights and
  column `16c + i` of the buffer. -/

/-- The eight accumulators a compute loop carries. -/
abbrev AccT (F : FTy → Type) := FVec F S16 .f32 × FVec F S16 .f32 × FVec F S16 .f32 × FVec F S16 .f32 × FVec F S16 .f32 × FVec F S16 .f32 × FVec F S16 .f32 × FVec F S16 .f32

theorem chk_bcast (b l : BitVec 32) (hb : b.toNat < 128) (hl : l.toNat < 64) :
    ∀ a x, ((![broadcast S16 b, broadcast S16 l] : Fin 2 → IVec S16 32) a x).toNat < S128x64.size a := by
  intro a x
  match a with
  | ⟨0, _⟩ => exact hb
  | ⟨1, _⟩ => exact hl

theorem l_toNat (k : Nat) (hk : k < 5) (dl : Nat) (hdl : dl < 10) :
    (Scalar.addi (Scalar.muli (Scf.iv 0#32 1#32 k) 10#32) (BitVec.ofNat 32 dl)).toNat = 10 * k + dl := by
  interval_cases k <;> interval_cases dl <;> decide

theorem l_lt (k : Nat) (hk : k < 5) (dl : Nat) (hdl : dl < 10) :
    (Scalar.addi (Scalar.muli (Scf.iv 0#32 1#32 k) 10#32) (BitVec.ofNat 32 dl)).toNat < 64 := by
  rw [l_toNat k hk dl hdl]; omega

theorem fin_lt5 {n : Nat} (h : n ≤ 5) (k : Fin n) : k.val < 5 := lt_of_lt_of_le k.isLt h

/-- The weight of local row `b` at position `l`, in the weights scratch. -/
def wvAt (fw : FVec F S128x64 .f32) (b l : Nat) : F .f32 :=
  fw (Idealize.ShloMosaic.ValueIdx.ix2 (⟨b % 128, Nat.mod_lt _ (by decide)⟩ : Fin 128) (⟨l % 64, Nat.mod_lt _ (by decide)⟩ : Fin 64))

/-- Entry `(l, col)` of a slot buffer of gathered rows. -/
def bufAt (fb : FVec F S50x128 .f32) (l col : Nat) : F .f32 :=
  fb (Idealize.ShloMosaic.ValueIdx.ix2 (⟨l % 50, Nat.mod_lt _ (by decide)⟩ : Fin 50) (⟨col % 128, Nat.mod_lt _ (by decide)⟩ : Fin 128))

/-- Lane `i` of accumulator `c` after `n` positions. -/
def A (fw : FVec F S128x64 .f32) (fb : FVec F S50x128 .f32) (b c : Nat) (i : S16.Idx) (n : Nat) : F .f32 :=
  Cert.SpecF.acc (fun l => wvAt fw b l) (fun l => bufAt fb l (16 * c + (i 0).val)) n

/-- The eight accumulators after `n` positions. -/
def Good (fw : FVec F S128x64 .f32) (fb : FVec F S50x128 .f32) (b n : Nat) (a : AccT F) : Prop :=
  (∀ i, a.1 i = A fw fb b 0 i n) ∧ (∀ i, a.2.1 i = A fw fb b 1 i n) ∧ (∀ i, a.2.2.1 i = A fw fb b 2 i n) ∧ (∀ i, a.2.2.2.1 i = A fw fb b 3 i n)
  ∧ (∀ i, a.2.2.2.2.1 i = A fw fb b 4 i n) ∧ (∀ i, a.2.2.2.2.2.1 i = A fw fb b 5 i n) ∧ (∀ i, a.2.2.2.2.2.2.1 i = A fw fb b 6 i n) ∧ (∀ i, a.2.2.2.2.2.2.2 i = A fw fb b 7 i n)

/-- One position: the accumulator plus the splat weight times the sixteen loaded entries. -/
theorem good_step (fw : FVec F S128x64 .f32) (fb : FVec F S50x128 .f32) (b c n col : Nat) {hsc : S1x16.ShapeCasts S16}
    (a : FVec F S16 .f32) (wb : Vec F S16 .f32) (ld : Vec F S1x16 .f32)
    (ha : ∀ i, a i = A fw fb b c i n) (hwb : ∀ i, wb i = wvAt fw b n)
    (hld : ∀ i : S16.Idx, shapeCast S16 ld hsc i = bufAt fb n (col + (i 0).val)) (hcol : col = 16 * c) :
    ∀ i, addf a (mulf wb (shapeCast S16 ld hsc)) i = A fw fb b c i (n + 1) := by
  intro i
  show FloatOps.addf (a i) (FloatOps.mulf (wb i) (shapeCast S16 ld hsc i)) = _
  rw [ha, hwb, hld, hcol]; rfl

/-- The indexed load of the weights scratch at a splat row and a splat position: every lane the one weight. -/
theorem wb_eq (fw : FVec F S128x64 .f32) (bw lw : BitVec 32)
    (h : ∀ a x, ((![broadcast S16 bw, broadcast S16 lw] : Fin 2 → IVec S16 32) a x).toNat < S128x64.size a)
    (b n : Nat) (hb : bw.toNat = b) (hn : lw.toNat = n) :
    ∀ i, loadIdx (View.readAt (Elt F) (Memref.whole cc0_scratch1 : Memref sig .scVector .vmem S128x64 .f32).view (LoadRect.whole S128x64) fw)
      (![broadcast S16 bw, broadcast S16 lw] : Fin 2 → IVec S16 32) h i = wvAt fw b n := by
  intro i
  have h0 : bw.toNat < 128 := h 0 i
  have h1 : lw.toNat < 64 := h 1 i
  show fw _ = fw _
  congr 1
  funext a
  apply Fin.ext
  match a with
  | ⟨0, _⟩ => show 0 + 1 * bw.toNat = b % 128; omega
  | ⟨1, _⟩ => show 0 + 1 * lw.toNat = n % 64; omega

/-- Before the first position every accumulator is the zero vector. -/
theorem good_zero (fw : FVec F S128x64 .f32) (fb : FVec F S50x128 .f32) (b : Nat) :
    Good fw fb b 0 (broadcast S16 (Scalar.ofBits .f32 0x00000000#32), broadcast S16 (Scalar.ofBits .f32 0x00000000#32), broadcast S16 (Scalar.ofBits .f32 0x00000000#32),
      broadcast S16 (Scalar.ofBits .f32 0x00000000#32), broadcast S16 (Scalar.ofBits .f32 0x00000000#32), broadcast S16 (Scalar.ofBits .f32 0x00000000#32),
      broadcast S16 (Scalar.ofBits .f32 0x00000000#32), broadcast S16 (Scalar.ofBits .f32 0x00000000#32)) :=
  ⟨fun _ => rfl, fun _ => rfl, fun _ => rfl, fun _ => rfl, fun _ => rfl, fun _ => rfl, fun _ => rfl, fun _ => rfl⟩

/-- Sixteen lanes of row `n` of slot buffer 0, loaded at column `col` and viewed as a vector. -/
theorem ld_eq3 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch3 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 0 holds before and after every trip: the accumulators at `10·n` positions, the
    weights scratch (read) and the slot buffer. -/
def inv3 (d : Dev nD) (L : grid0.Coords) (q : PosShare TreeShare) (fw : Buf (Elt F) ((sWv).view.loc (thr d L)))
    (fb : Buf (Elt F) ((sB3).view.loc (thr d L))) (b : Nat) (n : Nat) (a : AccT F) : sProp 𝕄 :=
  iprop(⌜Good fw fb b (10 * n) a⌝ ∗ ((sWv).view.loc (thr d L) ↦{q} fw) ∗ ((sB3).view.loc (thr d L) ↦{fullShare} fb))

/-- Sixteen lanes of row `n` of slot buffer 1, loaded at column `col` and viewed as a vector. -/
theorem ld_eq4 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch4 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 1 holds before and after every trip: the accumulators at `10·n` positions, the
    weights scratch (read) and the slot buffer. -/
def inv4 (d : Dev nD) (L : grid0.Coords) (q : PosShare TreeShare) (fw : Buf (Elt F) ((sWv).view.loc (thr d L)))
    (fb : Buf (Elt F) ((sB4).view.loc (thr d L))) (b : Nat) (n : Nat) (a : AccT F) : sProp 𝕄 :=
  iprop(⌜Good fw fb b (10 * n) a⌝ ∗ ((sWv).view.loc (thr d L) ↦{q} fw) ∗ ((sB4).view.loc (thr d L) ↦{fullShare} fb))

/-- Sixteen lanes of row `n` of slot buffer 2, loaded at column `col` and viewed as a vector. -/
theorem ld_eq5 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch5 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 2 holds before and after every trip: the accumulators at `10·n` positions, the
    weights scratch (read) and the slot buffer. -/
def inv5 (d : Dev nD) (L : grid0.Coords) (q : PosShare TreeShare) (fw : Buf (Elt F) ((sWv).view.loc (thr d L)))
    (fb : Buf (Elt F) ((sB5).view.loc (thr d L))) (b : Nat) (n : Nat) (a : AccT F) : sProp 𝕄 :=
  iprop(⌜Good fw fb b (10 * n) a⌝ ∗ ((sWv).view.loc (thr d L) ↦{q} fw) ∗ ((sB5).view.loc (thr d L) ↦{fullShare} fb))

/-- Sixteen lanes of row `n` of slot buffer 3, loaded at column `col` and viewed as a vector. -/
theorem ld_eq6 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch6 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 3 holds before and after every trip: the accumulators at `10·n` positions, the
    weights scratch (read) and the slot buffer. -/
def inv6 (d : Dev nD) (L : grid0.Coords) (q : PosShare TreeShare) (fw : Buf (Elt F) ((sWv).view.loc (thr d L)))
    (fb : Buf (Elt F) ((sB6).view.loc (thr d L))) (b : Nat) (n : Nat) (a : AccT F) : sProp 𝕄 :=
  iprop(⌜Good fw fb b (10 * n) a⌝ ∗ ((sWv).view.loc (thr d L) ↦{q} fw) ∗ ((sB6).view.loc (thr d L) ↦{fullShare} fb))

/-- Sixteen lanes of row `n` of slot buffer 4, loaded at column `col` and viewed as a vector. -/
theorem ld_eq7 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch7 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 4 holds before and after every trip: the accumulators at `10·n` positions, the
    weights scratch (read) and the slot buffer. -/
def inv7 (d : Dev nD) (L : grid0.Coords) (q : PosShare TreeShare) (fw : Buf (Elt F) ((sWv).view.loc (thr d L)))
    (fb : Buf (Elt F) ((sB7).view.loc (thr d L))) (b : Nat) (n : Nat) (a : AccT F) : sProp 𝕄 :=
  iprop(⌜Good fw fb b (10 * n) a⌝ ∗ ((sWv).view.loc (thr d L) ↦{q} fw) ∗ ((sB7).view.loc (thr d L) ↦{fullShare} fb))

end Cert.Proof.K

end
-- ==== Proof.K.BodyLemmas.lean ====
import proofs.«206443_g53721450939153_cont_9to1_m_117_36_alg».proof.Proof.K.Iface
import Idealize.ShloMosaic.Lib.Pipeline.Value
import proofs.«206443_g53721450939153_cont_9to1_m_117_36_alg».proof.Proof.K.CoreSpec
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

open Facts Shapes1.Facts₀ K0.R1.Facts₀ in
/-- The index-list memref of one gather: a row of the index scratch, squeezed, as the kernel slices it. -/
abbrev lstOf (off : Fin 2 → Nat) (h : ∀ a, off a + S1x50.size a ≤ S128x50.size a) : Memref sig .scVector .vmem S50 .i32 :=
  ((sXv).slice (Rect.unit (s := S128x50) off S1x50.size h) (fun _ => rfl)).squeeze S50 Gen.squeezes_S1x50_S50

variable (d : Dev nD) (L : grid0.Coords)

/-- What the index scratch holds after the tile's copy: its 128 rows of the index array. -/
def xvOf (mx : Buf (Elt F) (xLoc d)) : Buf (Elt F) ((sXv).view.loc (thr d L)) :=
  ReadAs.same.apply (View.read (Elt F) ((xW).slice (Rect.unit (s := S4096x50) (k0_off1 L) S128x50.size (k0_off1_inb L)) (fun _ => rfl)).view mx)

/-- What the weights scratch holds after the tile's copy: its 128 rows of the padded weights. -/
def wvOf (mw : Buf (Elt F) (wLoc d)) : Buf (Elt F) ((sWv).view.loc (thr d L)) :=
  ReadAs.same.apply (View.read (Elt F) ((wW).slice (Rect.unit (s := S4096x64) (k0_off2 L) S128x64.size (k0_off2_inb L)) (fun _ => rfl)).view mw)

omit [FloatOps F] in
theorem xvOf_lt (mx : Buf (Elt F) (xLoc d)) (hx : ∀ i, (mx i).toNat < 100000) : ∀ j, (xvOf d L mx j).toNat < 100000 := by
  intro j
  unfold xvOf
  rw [ReadAs.apply_same, View.read_apply]
  exact hx _

omit [FloatOps F] in
/-- Every word of any row of the index scratch names a row of the table. -/
theorem hin_row (mx : Buf (Elt F) (xLoc d)) (hx : ∀ i, (mx i).toNat < 100000) (off : Fin 2 → Nat) (h : ∀ a, off a + S1x50.size a ≤ S128x50.size a) :
    ∀ x, ((lstOf off h).view.read (Elt F) (xvOf d L mx) x).toNat < S100000x128.size Gen.gathers_S100000x128_S50x128.axis := by
  intro x
  rw [View.read_apply]
  exact xvOf_lt d L mx hx _

/-- A points-to as five read tokens. -/
theorem toks5_split {ℓ : Loc nD τ sig} {S : Finset (Idx ℓ)} {f : Buf (Elt F) ℓ} (q : PosShare TreeShare) :
    (ℓ ↦[S]{q} f : sProp 𝕄) ⊢ iprop((ℓ ↦[S]{q.right} f) ∗ (ℓ ↦[S]{q.left.right} f) ∗ (ℓ ↦[S]{q.left.left.right} f)
      ∗ (ℓ ↦[S]{q.left.left.left.right} f) ∗ (ℓ ↦[S]{q.left.left.left.left} f)) := by
  iintro H
  ihave H := (pointsTo_share (PosShare.mem_left_op_right q)).1 $$ H
  icases H with ⟨H, H0⟩
  ihave H := (pointsTo_share (PosShare.mem_left_op_right q.left)).1 $$ H
  icases H with ⟨H, H1⟩
  ihave H := (pointsTo_share (PosShare.mem_left_op_right q.left.left)).1 $$ H
  icases H with ⟨H, H2⟩
  ihave H := (pointsTo_share (PosShare.mem_left_op_right q.left.left.left)).1 $$ H
  icases H with ⟨H, H3⟩
  isplitl [H0]; · iexact H0
  isplitl [H1]; · iexact H1
  isplitl [H2]; · iexact H2
  isplitl [H3]; · iexact H3
  iexact H

/-- Five read tokens back to the points-to. -/
theorem toks5_join {ℓ : Loc nD τ sig} {S : Finset (Idx ℓ)} {f : Buf (Elt F) ℓ} (q : PosShare TreeShare) :
    iprop((ℓ ↦[S]{q.right} f) ∗ (ℓ ↦[S]{q.left.right} f) ∗ (ℓ ↦[S]{q.left.left.right} f)
      ∗ (ℓ ↦[S]{q.left.left.left.right} f) ∗ (ℓ ↦[S]{q.left.left.left.left} f)) ⊢ (ℓ ↦[S]{q} f : sProp 𝕄) := by
  iintro ⟨H0, H1, H2, H3, H⟩
  ihave H := (pointsTo_share (PosShare.mem_left_op_right q.left.left.left)).2 $$ [H H3]
  · isplitl [H] <;> iassumption
  ihave H := (pointsTo_share (PosShare.mem_left_op_right q.left.left)).2 $$ [H H2]
  · isplitl [H] <;> iassumption
  ihave H := (pointsTo_share (PosShare.mem_left_op_right q.left)).2 $$ [H H1]
  · isplitl [H] <;> iassumption
  ihave H := (pointsTo_share (PosShare.mem_left_op_right q)).2 $$ [H H0]
  · isplitl [H] <;> iassumption
  iexact H

/-- A points-to as five slot tokens and what remains. -/
theorem toks6_split {ℓ : Loc nD τ sig} {S : Finset (Idx ℓ)} {f : Buf (Elt F) ℓ} (q : PosShare TreeShare) :
    (ℓ ↦[S]{q} f : sProp 𝕄) ⊢ iprop((ℓ ↦[S]{Transfers.shareTokN q 0} f) ∗ (ℓ ↦[S]{Transfers.shareTokN q 1} f) ∗ (ℓ ↦[S]{Transfers.shareTokN q 2} f)
      ∗ (ℓ ↦[S]{Transfers.shareTokN q 3} f) ∗ (ℓ ↦[S]{Transfers.shareTokN q 4} f) ∗ (ℓ ↦[S]{Transfers.shareDrop q 5} f)) := by
  show (ℓ ↦[S]{q} f : sProp 𝕄) ⊢ iprop((ℓ ↦[S]{q.right} f) ∗ (ℓ ↦[S]{q.left.right} f) ∗ (ℓ ↦[S]{q.left.left.right} f)
      ∗ (ℓ ↦[S]{q.left.left.left.right} f) ∗ (ℓ ↦[S]{q.left.left.left.left.right} f) ∗ (ℓ ↦[S]{q.left.left.left.left.left} f))
  iintro H
  ihave H := (pointsTo_share (PosShare.mem_left_op_right q)).1 $$ H
  icases H with ⟨H, H0⟩
  ihave H := (pointsTo_share (PosShare.mem_left_op_right q.left)).1 $$ H
  icases H with ⟨H, H1⟩
  ihave H := (pointsTo_share (PosShare.mem_left_op_right q.left.left)).1 $$ H
  icases H with ⟨H, H2⟩
  ihave H := (pointsTo_share (PosShare.mem_left_op_right q.left.left.left)).1 $$ H
  icases H with ⟨H, H3⟩
  ihave H := (pointsTo_share (PosShare.mem_left_op_right q.left.left.left.left)).1 $$ H
  icases H with ⟨H, H4⟩
  isplitl [H0]; · iexact H0
  isplitl [H1]; · iexact H1
  isplitl [H2]; · iexact H2
  isplitl [H3]; · iexact H3
  isplitl [H4]; · iexact H4
  iexact H

/-- Five slot tokens and the remainder back to the points-to. -/
theorem toks6_join {ℓ : Loc nD τ sig} {S : Finset (Idx ℓ)} {f : Buf (Elt F) ℓ} (q : PosShare TreeShare) :
    iprop((ℓ ↦[S]{Transfers.shareTokN q 0} f) ∗ (ℓ ↦[S]{Transfers.shareTokN q 1} f) ∗ (ℓ ↦[S]{Transfers.shareTokN q 2} f)
      ∗ (ℓ ↦[S]{Transfers.shareTokN q 3} f) ∗ (ℓ ↦[S]{Transfers.shareTokN q 4} f) ∗ (ℓ ↦[S]{Transfers.shareDrop q 5} f)) ⊢ (ℓ ↦[S]{q} f : sProp 𝕄) := by
  show iprop((ℓ ↦[S]{q.right} f) ∗ (ℓ ↦[S]{q.left.right} f) ∗ (ℓ ↦[S]{q.left.left.right} f)
      ∗ (ℓ ↦[S]{q.left.left.left.right} f) ∗ (ℓ ↦[S]{q.left.left.left.left.right} f) ∗ (ℓ ↦[S]{q.left.left.left.left.left} f)) ⊢ (ℓ ↦[S]{q} f : sProp 𝕄)
  iintro ⟨H0, H1, H2, H3, H4, H⟩
  ihave H := (pointsTo_share (PosShare.mem_left_op_right q.left.left.left.left)).2 $$ [H H4]
  · isplitl [H] <;> iassumption
  ihave H := (pointsTo_share (PosShare.mem_left_op_right q.left.left.left)).2 $$ [H H3]
  · isplitl [H] <;> iassumption
  ihave H := (pointsTo_share (PosShare.mem_left_op_right q.left.left)).2 $$ [H H2]
  · isplitl [H] <;> iassumption
  ihave H := (pointsTo_share (PosShare.mem_left_op_right q.left)).2 $$ [H H1]
  · isplitl [H] <;> iassumption
  ihave H := (pointsTo_share (PosShare.mem_left_op_right q)).2 $$ [H H0]
  · isplitl [H] <;> iassumption
  iexact H

end Cert.Proof.K

end
-- ==== Proof.K.Ring.lean ====
import proofs.«206443_g53721450939153_cont_9to1_m_117_36_alg».proof.Proof.K.Iface
import Idealize.ShloMosaic.Lib.Pipeline.Value
import proofs.«206443_g53721450939153_cont_9to1_m_117_36_alg».proof.Proof.K.BodyLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

/-! # The state of the ring of five slot buffers between two batch rows

  Before local row `n` is computed, the gathers of rows `n … n+3` are in flight into four of the five slot buffers, each on
  its own DMA semaphore with its own read token of the index scratch and of the table; the fifth slot is idle; the
  output scratch holds the finished rows `< n`. `Inv g` is that state at `n = 5·g`, where the outer loop's trip `g`
  starts: slot `s` holds row `5·g + s`. -/

variable (d : Dev nD) (L : grid0.Coords)

/-- The first batch row of the tile. -/
def base (L : grid0.Coords) : Nat := 256 * (L 1).val + 128 * (L 0).val

/-- Row `r` of the index scratch as an offset, kept in range. -/
def rowOff (r : Nat) : Fin 2 → Nat := ![min r 127, 0]
theorem rowOff_inb (r : Nat) : ∀ a, rowOff r a + S1x50.size a ≤ S128x50.size a := by
  intro a; match a with
  | ⟨0, _⟩ => show min r 127 + 1 ≤ 128; omega
  | ⟨1, _⟩ => show 0 + 50 ≤ 50; omega

/-- The whole table as the kernel slices it for a gather. -/
abbrev tSl : Memref sig .scVector .hbm S100000x128 .f32 :=
  (tW).slice (Rect.unit (s := S100000x128) ![0, 0] S100000x128.size Gen.inb_S100000x128_S100000x128_0_0) (fun _ => rfl)

/-- The slot's read tokens of the index scratch and of the table. -/
abbrev xtok (s : Nat) : PosShare TreeShare := Transfers.shareTokN fullShare s
abbrev ttok (q : PosShare TreeShare) (s : Nat) : PosShare TreeShare := Transfers.shareTokN q s

/-- The gathered rows of local row `r`: entry `(l, col)` is the table's row `x[base + r, l]` at column `col`. -/
def RowsOf (mx : Buf (Elt F) (xLoc d)) (mt : Buf (Elt F) (tLoc d)) (r : Nat) (P : S50x128.Idx → F .f32) : Prop :=
  ∀ l col : Nat, l < 50 → col < 128 →
    P (Idealize.ShloMosaic.ValueIdx.ix2 (⟨l % 50, Nat.mod_lt _ (by decide)⟩ : Fin 50) (⟨col % 128, Nat.mod_lt _ (by decide)⟩ : Fin 128))
      = Cert.SpecF.tAt (F := F) mt (Cert.SpecF.rowAt mx (base L + r) l) col

/-- The finished rows of the output scratch: rows `< n` hold the result's rows `base + b`. -/
def OutGood (mx : Buf (Elt F) (xLoc d)) (mw : Buf (Elt F) (wLoc d)) (mt : Buf (Elt F) (tLoc d)) (n : Nat)
    (fo : Buf (Elt F) ((sOv).view.loc (thr d L))) : Prop :=
  ∀ b col : Nat, b < n → b < 128 → col < 128 →
    (fo : FVec F S128x128 .f32) (Idealize.ShloMosaic.ValueIdx.ix2 (⟨b % 128, Nat.mod_lt _ (by decide)⟩ : Fin 128) (⟨col % 128, Nat.mod_lt _ (by decide)⟩ : Fin 128))
      = Cert.SpecF.GkAt (F := F) mx mw mt (base L + b) col

/-- A slot whose gather of local row `r` is in flight: the flight (delivering the slot buffer written with the gathered
    rows, the words of the index scratch it reads its list from — some row of it — and the table, at the slot's tokens)
    and what the issue left beside it. -/
def FlightOf (q : PosShare TreeShare) (mx : Buf (Elt F) (xLoc d)) (mt : Buf (Elt F) (tLoc d))
    (mb : Memref sig .scVector .vmem S50x128 .f32) (sm : DmaSem sig) (s r : Nat) : sProp 𝕄 :=
  iprop(∃ (gprev : Buf (Elt F) (mb.view.loc (thr d L))) (P : S50x128.Idx → F .f32) (off : Fin 2 → Nat)
      (h : ∀ a, off a + S1x50.size a ≤ S128x50.size a), ⌜RowsOf d L mx mt r P⌝
    ∗ Transfers.Flight countersEmb (thr d L) (SemLoc.dma sm) (default : HIx 1) 204800
        iprop(((mb.view.loc (thr d L) ↦[mb.view.set]{fullShare} mb.view.writes (Elt F) gprev [⟨Rect.whole _, P⟩])
            ∗ ((sXv).view.loc (thr d L) ↦[(lstOf off h).view.set]{xtok s} xvOf d L mx))
          ∗ ((tW).view.loc (thr d L) ↦[(tSl).view.set]{ttok q s} mt))
    ∗ ((sXv).view.loc (thr d L) ↦[Finset.univ \ (lstOf off h).view.set]{xtok s} xvOf d L mx)
    ∗ ((tW).view.loc (thr d L) ↦[Finset.univ \ (tSl).view.set]{ttok q s} mt)
    ∗ (mb.view.loc (thr d L) ↦[Finset.univ \ mb.view.set]{fullShare} mb.view.writes (Elt F) gprev [⟨Rect.whole _, P⟩]))

/-- An idle slot: its buffer at some contents, its semaphore at zero, its two tokens. -/
def IdleOf (q : PosShare TreeShare) (mx : Buf (Elt F) (xLoc d)) (mt : Buf (Elt F) (tLoc d))
    (mb : Memref sig .scVector .vmem S50x128 .f32) (sm : DmaSem sig) (s : Nat) : sProp 𝕄 :=
  iprop((∃ g, mb.view.loc (thr d L) ↦{fullShare} g) ∗ semVal (thr d L, SemLoc.dma sm) 0
    ∗ ((sXv).view.loc (thr d L) ↦{xtok s} xvOf d L mx) ∗ ((tW).view.loc (thr d L) ↦{ttok q s} mt))

/-- The output scratch with its finished rows. -/
def OutPart (mx : Buf (Elt F) (xLoc d)) (mw : Buf (Elt F) (wLoc d)) (mt : Buf (Elt F) (tLoc d)) (n : Nat) : sProp 𝕄 :=
  iprop(∃ fo, ⌜OutGood d L mx mw mt n fo⌝ ∗ ((sOv).view.loc (thr d L) ↦{fullShare} fo))

/-- The ring where trip `g` of the outer loop starts. -/
def Inv (q : PosShare TreeShare) (mx : Buf (Elt F) (xLoc d)) (mw : Buf (Elt F) (wLoc d)) (mt : Buf (Elt F) (tLoc d))
    (O : CellTallies nD τ sig (HIx 1)) (W : Waits sig (HIx 1)) (g : Nat) (_ : BitVec 32) : sProp 𝕄 :=
  iprop(Transfers.MayWaits (thr d L) (none : HIx 1) O
    ∗ ((sWv).view.loc (thr d L) ↦{fullShare} wvOf d L mw)
    ∗ OutPart d L mx mw mt (5 * g)
    ∗ FlightOf d L q mx mt sB3 cc0_scratch8.sem 0 (5 * g)
    ∗ FlightOf d L q mx mt sB4 cc0_scratch9.sem 1 (5 * g + 1)
    ∗ FlightOf d L q mx mt sB5 cc0_scratch10.sem 2 (5 * g + 2)
    ∗ FlightOf d L q mx mt sB6 cc0_scratch11.sem 3 (5 * g + 3)
    ∗ IdleOf d L q mx mt sB7 cc0_scratch12.sem 4
    ∗ ∃ W', ⌜∀ p ∈ W', p ∈ W ∨ p.2 = none⌝ ∗ owes (thr d L) O W')

end Cert.Proof.K

end
-- ==== Proof.K.Values.lean ====
import proofs.«206443_g53721450939153_cont_9to1_m_117_36_alg».proof.Proof.K.Iface
import Idealize.ShloMosaic.Lib.Pipeline.Value
import proofs.«206443_g53721450939153_cont_9to1_m_117_36_alg».proof.Proof.K.Ring
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

/-! # Values: the scratch contents and the accumulators, read against the specification

  What the tile's scratch buffers hold, as entries of the launch arrays: the weights scratch at `(b, l)` is the padded
  weight of batch row `base + b` at position `l`; a slot buffer written whole with the gathered rows of local row `r`
  is, at `(l, col)`, the table's row `x[base + r, l]` at column `col`; and eight accumulators that hold the fifty-step
  recurrences of local row `b` over such a scratch and such a buffer are the sixteen-lane chunks of row `base + b` of
  the result array the specification names. -/

variable (d : Dev nD) (L : grid0.Coords)

omit [FloatOps F] in
/-- The tile's first batch row plus a local row is a batch row. -/
theorem base_add_lt (b : Nat) (hb : b < 128) : base L + b < 4096 := by
  have h0 : (L 0).val < 2 := (L 0).isLt
  have h1 : (L 1).val < 16 := (L 1).isLt
  unfold base
  omega

/-- (V1) The weights scratch at local row `b`, position `l`: the padded weight of batch row `base + b` there. -/
theorem wv_val (mw : Buf (Elt F) (wLoc d)) (b l : Nat) (hb : b < 128) (hl : l < 64) :
    wvAt (wvOf d L mw) b l = Cert.SpecF.wAt (F := F) mw (base L + b) l := by
  have hlt := base_add_lt L b hb
  have e2 := Gen.k0_off2_eq L
  unfold wvAt wvOf Cert.SpecF.wAt
  rw [ReadAs.apply_same, View.read_apply]
  show mw _ = mw _
  congr 1
  funext a
  apply Fin.ext
  match a with
  | ⟨0, _⟩ =>
    show k0_off2 L 0 + 1 * (b % 128) = (base L + b) % 4096
    rw [e2]
    show 256 * (L 1).val + 128 * (L 0).val + 1 * (b % 128) = (base L + b) % 4096
    unfold base at hlt ⊢
    omega
  | ⟨1, _⟩ =>
    show k0_off2 L 1 + 1 * (l % 64) = l % 64
    rw [e2]
    show 0 + 1 * (l % 64) = l % 64
    omega

/-- Slot buffer 0 written whole with the gathered rows of local row `r` holds, at `(l, col)`, the table's row
    `x[base + r, l]` at column `col`. -/
theorem buf_val3 (mx : Buf (Elt F) (xLoc d)) (mt : Buf (Elt F) (tLoc d)) (r : Nat) (P : S50x128.Idx → F .f32) (hP : RowsOf d L mx mt r P)
    (g : Buf (Elt F) ((sB3).view.loc (thr d L))) (l col : Nat) (hl : l < 50) (hc : col < 128) :
    bufAt ((sB3).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB3).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB3).view.writes (Elt F) g [⟨Rect.whole S50x128, P⟩]) _ = ((sB3).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- Slot buffer 1 written whole with the gathered rows of local row `r` holds, at `(l, col)`, the table's row
    `x[base + r, l]` at column `col`. -/
theorem buf_val4 (mx : Buf (Elt F) (xLoc d)) (mt : Buf (Elt F) (tLoc d)) (r : Nat) (P : S50x128.Idx → F .f32) (hP : RowsOf d L mx mt r P)
    (g : Buf (Elt F) ((sB4).view.loc (thr d L))) (l col : Nat) (hl : l < 50) (hc : col < 128) :
    bufAt ((sB4).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB4).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB4).view.writes (Elt F) g [⟨Rect.whole S50x128, P⟩]) _ = ((sB4).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- Slot buffer 2 written whole with the gathered rows of local row `r` holds, at `(l, col)`, the table's row
    `x[base + r, l]` at column `col`. -/
theorem buf_val5 (mx : Buf (Elt F) (xLoc d)) (mt : Buf (Elt F) (tLoc d)) (r : Nat) (P : S50x128.Idx → F .f32) (hP : RowsOf d L mx mt r P)
    (g : Buf (Elt F) ((sB5).view.loc (thr d L))) (l col : Nat) (hl : l < 50) (hc : col < 128) :
    bufAt ((sB5).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB5).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB5).view.writes (Elt F) g [⟨Rect.whole S50x128, P⟩]) _ = ((sB5).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- Slot buffer 3 written whole with the gathered rows of local row `r` holds, at `(l, col)`, the table's row
    `x[base + r, l]` at column `col`. -/
theorem buf_val6 (mx : Buf (Elt F) (xLoc d)) (mt : Buf (Elt F) (tLoc d)) (r : Nat) (P : S50x128.Idx → F .f32) (hP : RowsOf d L mx mt r P)
    (g : Buf (Elt F) ((sB6).view.loc (thr d L))) (l col : Nat) (hl : l < 50) (hc : col < 128) :
    bufAt ((sB6).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB6).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB6).view.writes (Elt F) g [⟨Rect.whole S50x128, P⟩]) _ = ((sB6).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- Slot buffer 4 written whole with the gathered rows of local row `r` holds, at `(l, col)`, the table's row
    `x[base + r, l]` at column `col`. -/
theorem buf_val7 (mx : Buf (Elt F) (xLoc d)) (mt : Buf (Elt F) (tLoc d)) (r : Nat) (P : S50x128.Idx → F .f32) (hP : RowsOf d L mx mt r P)
    (g : Buf (Elt F) ((sB7).view.loc (thr d L))) (l col : Nat) (hl : l < 50) (hc : col < 128) :
    bufAt ((sB7).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB7).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB7).view.writes (Elt F) g [⟨Rect.whole S50x128, P⟩]) _ = ((sB7).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- One accumulator chunk: the fifty-step recurrence over a scratch and a buffer that hold row `base + b`'s weights and
    gathered rows is the result's entry at column `16·c + i`. -/
theorem A_spec (mx : Buf (Elt F) (xLoc d)) (mw : Buf (Elt F) (wLoc d)) (mt : Buf (Elt F) (tLoc d))
    (fw : FVec F S128x64 .f32) (fb : FVec F S50x128 .f32) (b c : Nat) (hc : c < 8)
    (hw : ∀ l, l < 50 → wvAt fw b l = Cert.SpecF.wAt (F := F) mw (base L + b) l)
    (hbuf : ∀ l col, l < 50 → col < 128 → bufAt fb l col = Cert.SpecF.tAt (F := F) mt (Cert.SpecF.rowAt mx (base L + b) l) col)
    (i : S16.Idx) : A fw fb b c i 50 = Cert.SpecF.GkAt (F := F) mx mw mt (base L + b) (16 * c + (i 0).val) := by
  have hi : (i 0).val < 16 := (i 0).isLt
  unfold A Cert.SpecF.GkAt
  exact Cert.SpecF.acc_congr 50 (fun l h => hw l h) (fun l h => hbuf l _ h (by omega))

/-- (V3) Eight accumulators at the fifty-step recurrences of local row `b` are the eight sixteen-lane chunks of row
    `base + b` of the result. -/
theorem good_spec (mx : Buf (Elt F) (xLoc d)) (mw : Buf (Elt F) (wLoc d)) (mt : Buf (Elt F) (tLoc d))
    (fw : FVec F S128x64 .f32) (fb : FVec F S50x128 .f32) (b : Nat) (r : AccT F)
    (hw : ∀ l, l < 50 → wvAt fw b l = Cert.SpecF.wAt (F := F) mw (base L + b) l)
    (hbuf : ∀ l col, l < 50 → col < 128 → bufAt fb l col = Cert.SpecF.tAt (F := F) mt (Cert.SpecF.rowAt mx (base L + b) l) col)
    (hG : Good fw fb b 50 r) :
    (∀ i : S16.Idx, r.1 i = Cert.SpecF.GkAt (F := F) mx mw mt (base L + b) (16 * 0 + (i 0).val))
    ∧ (∀ i : S16.Idx, r.2.1 i = Cert.SpecF.GkAt (F := F) mx mw mt (base L + b) (16 * 1 + (i 0).val))
    ∧ (∀ i : S16.Idx, r.2.2.1 i = Cert.SpecF.GkAt (F := F) mx mw mt (base L + b) (16 * 2 + (i 0).val))
    ∧ (∀ i : S16.Idx, r.2.2.2.1 i = Cert.SpecF.GkAt (F := F) mx mw mt (base L + b) (16 * 3 + (i 0).val))
    ∧ (∀ i : S16.Idx, r.2.2.2.2.1 i = Cert.SpecF.GkAt (F := F) mx mw mt (base L + b) (16 * 4 + (i 0).val))
    ∧ (∀ i : S16.Idx, r.2.2.2.2.2.1 i = Cert.SpecF.GkAt (F := F) mx mw mt (base L + b) (16 * 5 + (i 0).val))
    ∧ (∀ i : S16.Idx, r.2.2.2.2.2.2.1 i = Cert.SpecF.GkAt (F := F) mx mw mt (base L + b) (16 * 6 + (i 0).val))
    ∧ (∀ i : S16.Idx, r.2.2.2.2.2.2.2 i = Cert.SpecF.GkAt (F := F) mx mw mt (base L + b) (16 * 7 + (i 0).val)) := by
  obtain ⟨h0, h1, h2, h3, h4, h5, h6, h7⟩ := hG
  exact ⟨fun i => (h0 i).trans (A_spec d L mx mw mt fw fb b 0 (by decide) hw hbuf i),
    fun i => (h1 i).trans (A_spec d L mx mw mt fw fb b 1 (by decide) hw hbuf i),
    fun i => (h2 i).trans (A_spec d L mx mw mt fw fb b 2 (by decide) hw hbuf i),
    fun i => (h3 i).trans (A_spec d L mx mw mt fw fb b 3 (by decide) hw hbuf i),
    fun i => (h4 i).trans (A_spec d L mx mw mt fw fb b 4 (by decide) hw hbuf i),
    fun i => (h5 i).trans (A_spec d L mx mw mt fw fb b 5 (by decide) hw hbuf i),
    fun i => (h6 i).trans (A_spec d L mx mw mt fw fb b 6 (by decide) hw hbuf i),
    fun i => (h7 i).trans (A_spec d L mx mw mt fw fb b 7 (by decide) hw hbuf i)⟩

/-! ## The payload of one row's gather -/

omit [FloatOps F] in
/-- The index scratch after the tile's copy, at local row `b` and position `l`: the index array at batch row `base + b`. -/
theorem xvOf_apply (mx : Buf (Elt F) (xLoc d)) (i : S128x50.Idx) (j : S4096x50.Idx)
    (h0 : (j 0).val = base L + (i 0).val) (h1 : (j 1).val = (i 1).val) : xvOf d L mx i = mx j := by
  have e1 := Gen.k0_off1_eq L
  unfold xvOf
  rw [ReadAs.apply_same, View.read_apply]
  show mx _ = mx _
  congr 1
  funext a
  apply Fin.ext
  match a with
  | ⟨0, _⟩ =>
    show k0_off1 L 0 + 1 * (i 0).val = (j 0).val
    rw [e1, h0]
    show 256 * (L 1).val + 128 * (L 0).val + 1 * (i 0).val = base L + (i 0).val
    unfold base
    omega
  | ⟨1, _⟩ =>
    show k0_off1 L 1 + 1 * (i 1).val = (j 1).val
    rw [e1, h1]
    show 0 + 1 * (i 1).val = (i 1).val
    omega

omit [FloatOps F] in
/-- Entry `j` of the squeezed one-row index list sits in the index scratch at the row's offset, `j` positions along. -/
theorem lst_emb (off : Fin 2 → Nat) (h : ∀ a, off a + S1x50.size a ≤ S128x50.size a) (j : S50.Idx) :
    (lstOf off h).view.emb j
      = (Rect.unit (s := S128x50) off S1x50.size h).emb
          (Idealize.ShloMosaic.ValueIdx.ix2 (0 : Fin 1) (⟨(j 0).val, (j 0).isLt⟩ : Fin 50)) := by
  have e : Shape.reshapeEquiv (Gen.squeezes_S1x50_S50).numel_eq j
      = Idealize.ShloMosaic.ValueIdx.ix2 (0 : Fin 1) (⟨(j 0).val, (j 0).isLt⟩ : Fin 50) :=
    Shape.reshapeEquiv_eq_of_rowMajor _ (by
      rw [Shape.rowMajor_val_two, Shape.rowMajor_val_one]
      show (0 : ℕ) * 50 + (j 0).val = (j 0).val
      omega)
  show (Rect.unit (s := S128x50) off S1x50.size h).emb (Shape.reshapeEquiv (Gen.squeezes_S1x50_S50).numel_eq j) = _
  rw [e]

omit [FloatOps F] in
/-- The word the list of local row `r` holds at position `l`: the index array at `(base + r, l)`. -/
theorem lst_word (mx : Buf (Elt F) (xLoc d)) (off : Fin 2 → Nat) (h : ∀ a, off a + S1x50.size a ≤ S128x50.size a)
    (r : Nat) (hr : r < 128) (hoff : off = ![r, 0]) (j : S50.Idx) (l : Nat) (hl : l < 50) (hj : (j 0).val = l) :
    (lstOf off h).view.read (Elt F) (xvOf d L mx) j
      = mx (Idealize.ShloMosaic.ValueIdx.ix2 (⟨(base L + r) % 4096, Nat.mod_lt _ (by decide)⟩ : Fin 4096) (⟨l % 50, Nat.mod_lt _ (by decide)⟩ : Fin 50)) := by
  have hlt := base_add_lt L r hr
  subst hoff
  rw [View.read_apply, lst_emb]
  refine xvOf_apply d L mx _ _ ?_ ?_
  · show (base L + r) % 4096 = base L + (r + 1 * 0)
    omega
  · show l % 50 = 0 + 1 * (j 0).val
    omega

/-- (V4) The payload of the gather of local row `r` — at each `(l, col)` the table at the row the list's word `l`
    names, column `col` — holds the gathered rows of that row. -/
theorem rows_of_gather (mx : Buf (Elt F) (xLoc d)) (mt : Buf (Elt F) (tLoc d)) (off : Fin 2 → Nat)
    (h : ∀ a, off a + S1x50.size a ≤ S128x50.size a) (r : Nat) (hr : r < 128) (hoff : off = ![r, 0])
    (hg : S100000x128.Gathers 0 S50x128) (hn : S50.numel = S50x128.size hg.axis')
    (hin' : ∀ x, ((lstOf off h).view.read (Elt F) (xvOf d L mx) x).toNat < S100000x128.size hg.axis) :
    RowsOf d L mx mt r (SparseCore.gatherPayload hg ((tSl).view.read (Elt F) mt)
      (SparseCore.rows ((lstOf off h).view.read (Elt F) (xvOf d L mx)) hn hin')) := by
  intro l col hl hc
  -- the list's entry for destination row l, and its word
  let X : S50x128.Idx := Idealize.ShloMosaic.ValueIdx.ix2 (⟨l % 50, Nat.mod_lt _ (by decide)⟩ : Fin 50) (⟨col % 128, Nat.mod_lt _ (by decide)⟩ : Fin 128)
  let jl : S50.Idx := S50.rowMajor.symm ((X hg.axis').cast hn.symm)
  have hjl : (jl 0).val = l := by
    have e1 : (S50.rowMajor jl).val = (X hg.axis').val := congrArg Fin.val (S50.rowMajor.apply_symm_apply _)
    rw [Shape.rowMajor_val_one] at e1
    rw [e1]
    show l % 50 = l
    omega
  have hw := lst_word d L mx off h r hr hoff jl l hl hjl
  have hlt : ((lstOf off h).view.read (Elt F) (xvOf d L mx) jl).toNat < 100000 := hin' jl
  unfold SparseCore.gatherPayload
  rw [View.read_apply]
  unfold Cert.SpecF.tAt Cert.SpecF.rowAt
  show mt _ = mt _
  congr 1
  funext a
  apply Fin.ext
  match a with
  | ⟨0, _⟩ =>
    show 0 + 1 * (hg.idx (SparseCore.rows ((lstOf off h).view.read (Elt F) (xvOf d L mx)) hn hin') X hg.axis).val = _
    rw [Shape.Gathers.idx_axis]
    show 0 + 1 * ((lstOf off h).view.read (Elt F) (xvOf d L mx) jl).toNat = _
    rw [hw] at hlt ⊢
    show 0 + 1 * (mx _).toNat = (mx _).toNat % 100000
    omega
  | ⟨1, _⟩ =>
    show 0 + 1 * (hg.idx (SparseCore.rows ((lstOf off h).view.read (Elt F) (xvOf d L mx)) hn hin') X ⟨1, by decide⟩).val = col % 128
    rw [Shape.Gathers.idx_of_ne hg _ X ⟨1, by decide⟩ (by decide)]
    show 0 + 1 * (col % 128) = col % 128
    omega

/-- (V4, closed-form offsets) The same when the row's offset is a printed function with a closed form. -/
theorem rows_of_gather' (mx : Buf (Elt F) (xLoc d)) (mt : Buf (Elt F) (tLoc d)) (off : Fin 2 → Nat)
    (h : ∀ a, off a + S1x50.size a ≤ S128x50.size a) [co : ClosedOff off] (r : Nat) (hr : r < 128) (hform : co.form = ![r, 0])
    (hg : S100000x128.Gathers 0 S50x128) (hn : S50.numel = S50x128.size hg.axis')
    (hin' : ∀ x, ((lstOf off h).view.read (Elt F) (xvOf d L mx) x).toNat < S100000x128.size hg.axis) :
    RowsOf d L mx mt r (SparseCore.gatherPayload hg ((tSl).view.read (Elt F) mt)
      (SparseCore.rows ((lstOf off h).view.read (Elt F) (xvOf d L mx)) hn hin')) :=
  rows_of_gather d L mx mt off h r hr (co.eq.trans hform) hg hn hin'

end Cert.Proof.K

end
-- ==== Proof.K.OutRows.lean ====
/-
  The output scratch, row by row, and the result's rows. A batch row's eight 16-lane accumulators are stored into row `b`
  of the output scratch, chunk `c` at columns `[16c, 16c+16)`: the rows below `b` keep what they held, row `b` takes the
  accumulators' lanes, so the scratch's finished rows grow by one. When all 128 rows are finished, the scratch copied
  onto the tile's 128 rows of the result leaves them at the whole-array function: entry `(base + b, col)` is the
  fifty-step recurrence over batch row `base + b` at column `col`.
-/
import proofs.«206443_g53721450939153_cont_9to1_m_117_36_alg».proof.Proof.K.Ring
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! ## One 1×16 piece of a row of the output scratch -/

omit [FloatOps F] in
/-- The elements under the piece at row `b`, chunk `c`. -/
theorem mem_piece (off : Fin 2 → Nat) (h : ∀ a, off a + S1x16.size a ≤ S128x128.size a) (b c : Nat) (e : off = ![b, 16 * c]) (y : S128x128.Idx) :
    y ∈ (Rect.unit (s := S128x128) off S1x16.size h).set ↔ (y 0).val = b ∧ 16 * c ≤ (y 1).val ∧ (y 1).val < 16 * c + 16 := by
  subst e
  rw [Rect.mem_set_unit]
  constructor
  · intro hh
    have h0 : b ≤ (y 0).val ∧ (y 0).val < b + 1 := hh 0
    have h1 : 16 * c ≤ (y 1).val ∧ (y 1).val < 16 * c + 16 := hh 1
    exact ⟨by omega, h1.1, h1.2⟩
  · rintro ⟨h0, h1, h2⟩ a
    match a with
    | ⟨0, _⟩ => show b ≤ (y 0).val ∧ (y 0).val < b + 1; omega
    | ⟨1, _⟩ => show 16 * c ≤ (y 1).val ∧ (y 1).val < 16 * c + 16; exact ⟨h1, h2⟩

/-- Row `b` of the result's tile as a function of the output scratch's indices. -/
def rowG (mx : Buf (Elt F) (xLoc d)) (mw : Buf (Elt F) (wLoc d)) (mt : Buf (Elt F) (tLoc d)) (b : Nat) : S128x128.Idx → F .f32 :=
  fun y => Cert.SpecF.GkAt (F := F) mx mw mt (base L + b) (y 1).val

/-- A piece's payload — an accumulator viewed as one row of sixteen — is that function on the piece. -/
theorem piece_val (mx : Buf (Elt F) (xLoc d)) (mw : Buf (Elt F) (wLoc d)) (mt : Buf (Elt F) (tLoc d))
    (off : Fin 2 → Nat) (h : ∀ a, off a + S1x16.size a ≤ S128x128.size a) (b c : Nat) (e : off = ![b, 16 * c])
    {hsc : S16.ShapeCasts S1x16} (r : FVec F S16 .f32)
    (hr : ∀ i : S16.Idx, r i = Cert.SpecF.GkAt (F := F) mx mw mt (base L + b) (16 * c + (i 0).val)) :
    ∀ x : (Rect.unit (s := S128x128) off S1x16.size h).shape.Idx,
      shapeCast S1x16 r hsc x = rowG d L mx mw mt b ((Rect.unit (s := S128x128) off S1x16.size h).emb x) := by
  subst e
  intro x
  refine (shapeCast_addUnit_apply ![16] r hsc x).trans ((hr _).trans ?_)
  show Cert.SpecF.GkAt (F := F) mx mw mt (base L + b) (16 * c + (x 1).val) = Cert.SpecF.GkAt (F := F) mx mw mt (base L + b) (16 * c + 1 * (x 1).val)
  rw [Nat.one_mul]

/-! ## A finished row more -/

/-- After the eight stores of row `b`'s accumulators the output scratch's rows `< b + 1` are finished. -/
theorem out_update (mx : Buf (Elt F) (xLoc d)) (mw : Buf (Elt F) (wLoc d)) (mt : Buf (Elt F) (tLoc d)) (b : Nat)
    (fo : Buf (Elt F) ((sOv).view.loc (thr d L))) (r : AccT F) {hsc : S16.ShapeCasts S1x16}
    (off0 off1 off2 off3 off4 off5 off6 off7 : Fin 2 → Nat)
    (h0 : ∀ a, off0 a + S1x16.size a ≤ S128x128.size a) (h1 : ∀ a, off1 a + S1x16.size a ≤ S128x128.size a)
    (h2 : ∀ a, off2 a + S1x16.size a ≤ S128x128.size a) (h3 : ∀ a, off3 a + S1x16.size a ≤ S128x128.size a)
    (h4 : ∀ a, off4 a + S1x16.size a ≤ S128x128.size a) (h5 : ∀ a, off5 a + S1x16.size a ≤ S128x128.size a)
    (h6 : ∀ a, off6 a + S1x16.size a ≤ S128x128.size a) (h7 : ∀ a, off7 a + S1x16.size a ≤ S128x128.size a)
    (e0 : off0 = ![b, 16 * 0]) (e1 : off1 = ![b, 16 * 1]) (e2 : off2 = ![b, 16 * 2]) (e3 : off3 = ![b, 16 * 3])
    (e4 : off4 = ![b, 16 * 4]) (e5 : off5 = ![b, 16 * 5]) (e6 : off6 = ![b, 16 * 6]) (e7 : off7 = ![b, 16 * 7])
    (hfo : OutGood d L mx mw mt b fo) (hb : b < 128)
    (hr0 : ∀ i : S16.Idx, r.1 i = Cert.SpecF.GkAt (F := F) mx mw mt (base L + b) (16 * 0 + (i 0).val))
    (hr1 : ∀ i : S16.Idx, r.2.1 i = Cert.SpecF.GkAt (F := F) mx mw mt (base L + b) (16 * 1 + (i 0).val))
    (hr2 : ∀ i : S16.Idx, r.2.2.1 i = Cert.SpecF.GkAt (F := F) mx mw mt (base L + b) (16 * 2 + (i 0).val))
    (hr3 : ∀ i : S16.Idx, r.2.2.2.1 i = Cert.SpecF.GkAt (F := F) mx mw mt (base L + b) (16 * 3 + (i 0).val))
    (hr4 : ∀ i : S16.Idx, r.2.2.2.2.1 i = Cert.SpecF.GkAt (F := F) mx mw mt (base L + b) (16 * 4 + (i 0).val))
    (hr5 : ∀ i : S16.Idx, r.2.2.2.2.2.1 i = Cert.SpecF.GkAt (F := F) mx mw mt (base L + b) (16 * 5 + (i 0).val))
    (hr6 : ∀ i : S16.Idx, r.2.2.2.2.2.2.1 i = Cert.SpecF.GkAt (F := F) mx mw mt (base L + b) (16 * 6 + (i 0).val))
    (hr7 : ∀ i : S16.Idx, r.2.2.2.2.2.2.2 i = Cert.SpecF.GkAt (F := F) mx mw mt (base L + b) (16 * 7 + (i 0).val)) :
    OutGood d L mx mw mt (b + 1) ((sOv).view.writes (Elt F) fo
      [⟨Rect.unit (s := S128x128) off7 S1x16.size h7, shapeCast S1x16 r.2.2.2.2.2.2.2 hsc⟩,
        ⟨Rect.unit (s := S128x128) off6 S1x16.size h6, shapeCast S1x16 r.2.2.2.2.2.2.1 hsc⟩,
        ⟨Rect.unit (s := S128x128) off5 S1x16.size h5, shapeCast S1x16 r.2.2.2.2.2.1 hsc⟩,
        ⟨Rect.unit (s := S128x128) off4 S1x16.size h4, shapeCast S1x16 r.2.2.2.2.1 hsc⟩,
        ⟨Rect.unit (s := S128x128) off3 S1x16.size h3, shapeCast S1x16 r.2.2.2.1 hsc⟩,
        ⟨Rect.unit (s := S128x128) off2 S1x16.size h2, shapeCast S1x16 r.2.2.1 hsc⟩,
        ⟨Rect.unit (s := S128x128) off1 S1x16.size h1, shapeCast S1x16 r.2.1 hsc⟩,
        ⟨Rect.unit (s := S128x128) off0 S1x16.size h0, shapeCast S1x16 r.1 hsc⟩]) := by
  intro b' col hb' hb'128 hcol
  generalize hP : ([⟨Rect.unit (s := S128x128) off7 S1x16.size h7, shapeCast S1x16 r.2.2.2.2.2.2.2 hsc⟩,
        ⟨Rect.unit (s := S128x128) off6 S1x16.size h6, shapeCast S1x16 r.2.2.2.2.2.2.1 hsc⟩,
        ⟨Rect.unit (s := S128x128) off5 S1x16.size h5, shapeCast S1x16 r.2.2.2.2.2.1 hsc⟩,
        ⟨Rect.unit (s := S128x128) off4 S1x16.size h4, shapeCast S1x16 r.2.2.2.2.1 hsc⟩,
        ⟨Rect.unit (s := S128x128) off3 S1x16.size h3, shapeCast S1x16 r.2.2.2.1 hsc⟩,
        ⟨Rect.unit (s := S128x128) off2 S1x16.size h2, shapeCast S1x16 r.2.2.1 hsc⟩,
        ⟨Rect.unit (s := S128x128) off1 S1x16.size h1, shapeCast S1x16 r.2.1 hsc⟩,
        ⟨Rect.unit (s := S128x128) off0 S1x16.size h0, shapeCast S1x16 r.1 hsc⟩] : List (View.Piece (Elt F) S128x128 .f32)) = P
  have hmem : ∀ p ∈ P, p = ⟨Rect.unit (s := S128x128) off7 S1x16.size h7, shapeCast S1x16 r.2.2.2.2.2.2.2 hsc⟩
      ∨ p = ⟨Rect.unit (s := S128x128) off6 S1x16.size h6, shapeCast S1x16 r.2.2.2.2.2.2.1 hsc⟩
      ∨ p = ⟨Rect.unit (s := S128x128) off5 S1x16.size h5, shapeCast S1x16 r.2.2.2.2.2.1 hsc⟩
      ∨ p = ⟨Rect.unit (s := S128x128) off4 S1x16.size h4, shapeCast S1x16 r.2.2.2.2.1 hsc⟩
      ∨ p = ⟨Rect.unit (s := S128x128) off3 S1x16.size h3, shapeCast S1x16 r.2.2.2.1 hsc⟩
      ∨ p = ⟨Rect.unit (s := S128x128) off2 S1x16.size h2, shapeCast S1x16 r.2.2.1 hsc⟩
      ∨ p = ⟨Rect.unit (s := S128x128) off1 S1x16.size h1, shapeCast S1x16 r.2.1 hsc⟩
      ∨ p = ⟨Rect.unit (s := S128x128) off0 S1x16.size h0, shapeCast S1x16 r.1 hsc⟩ := by
    intro p hp; subst hP
    simpa only [List.mem_cons, List.mem_nil_iff, or_false] using hp
  have hy0 : b' % 128 = b' := Nat.mod_eq_of_lt hb'128
  have hy1 : col % 128 = col := Nat.mod_eq_of_lt hcol
  change (sOv).view.read (Elt F) ((sOv).view.writes (Elt F) fo P)
    (Idealize.ShloMosaic.ValueIdx.ix2 (⟨b' % 128, Nat.mod_lt _ (by decide)⟩ : Fin 128) (⟨col % 128, Nat.mod_lt _ (by decide)⟩ : Fin 128)) = _
  generalize hy : (Idealize.ShloMosaic.ValueIdx.ix2 (⟨b' % 128, Nat.mod_lt _ (by decide)⟩ : Fin 128) (⟨col % 128, Nat.mod_lt _ (by decide)⟩ : Fin 128) : S128x128.Idx) = y
  have hyr : (y 0).val = b' := by subst hy; exact hy0
  have hyc : (y 1).val = col := by subst hy; exact hy1
  by_cases hbb : b' = b
  · -- row b: the piece of the column's chunk holds it
    subst hbb
    have hG : ∀ p ∈ P, ∀ x : p.1.shape.Idx, p.2 x = rowG d L mx mw mt b' (p.1.emb x) := by
      intro p hp
      rcases hmem p hp with rfl | rfl | rfl | rfl | rfl | rfl | rfl | rfl
      · exact piece_val d L mx mw mt off7 h7 b' 7 e7 _ hr7
      · exact piece_val d L mx mw mt off6 h6 b' 6 e6 _ hr6
      · exact piece_val d L mx mw mt off5 h5 b' 5 e5 _ hr5
      · exact piece_val d L mx mw mt off4 h4 b' 4 e4 _ hr4
      · exact piece_val d L mx mw mt off3 h3 b' 3 e3 _ hr3
      · exact piece_val d L mx mw mt off2 h2 b' 2 e2 _ hr2
      · exact piece_val d L mx mw mt off1 h1 b' 1 e1 _ hr1
      · exact piece_val d L mx mw mt off0 h0 b' 0 e0 _ hr0
    have hcov : ∃ p ∈ P, y ∈ p.1.set := by
      subst hP
      have hc : (y 1).val < 128 := (y 1).isLt
      rcases (show (y 1).val < 16 ∨ (16 ≤ (y 1).val ∧ (y 1).val < 32) ∨ (32 ≤ (y 1).val ∧ (y 1).val < 48) ∨ (48 ≤ (y 1).val ∧ (y 1).val < 64)
          ∨ (64 ≤ (y 1).val ∧ (y 1).val < 80) ∨ (80 ≤ (y 1).val ∧ (y 1).val < 96) ∨ (96 ≤ (y 1).val ∧ (y 1).val < 112) ∨ 112 ≤ (y 1).val by omega)
        with hh | hh | hh | hh | hh | hh | hh | hh
      · exact ⟨_, List.Mem.tail _ (List.Mem.tail _ (List.Mem.tail _ (List.Mem.tail _ (List.Mem.tail _ (List.Mem.tail _ (List.Mem.tail _ (List.Mem.head _))))))), (mem_piece off0 h0 b' 0 e0 y).mpr ⟨hyr, by omega, by omega⟩⟩
      · exact ⟨_, List.Mem.tail _ (List.Mem.tail _ (List.Mem.tail _ (List.Mem.tail _ (List.Mem.tail _ (List.Mem.tail _ (List.Mem.head _)))))), (mem_piece off1 h1 b' 1 e1 y).mpr ⟨hyr, by omega, by omega⟩⟩
      · exact ⟨_, List.Mem.tail _ (List.Mem.tail _ (List.Mem.tail _ (List.Mem.tail _ (List.Mem.tail _ (List.Mem.head _))))), (mem_piece off2 h2 b' 2 e2 y).mpr ⟨hyr, by omega, by omega⟩⟩
      · exact ⟨_, List.Mem.tail _ (List.Mem.tail _ (List.Mem.tail _ (List.Mem.tail _ (List.Mem.head _)))), (mem_piece off3 h3 b' 3 e3 y).mpr ⟨hyr, by omega, by omega⟩⟩
      · exact ⟨_, List.Mem.tail _ (List.Mem.tail _ (List.Mem.tail _ (List.Mem.head _))), (mem_piece off4 h4 b' 4 e4 y).mpr ⟨hyr, by omega, by omega⟩⟩
      · exact ⟨_, List.Mem.tail _ (List.Mem.tail _ (List.Mem.head _)), (mem_piece off5 h5 b' 5 e5 y).mpr ⟨hyr, by omega, by omega⟩⟩
      · exact ⟨_, List.Mem.tail _ (List.Mem.head _), (mem_piece off6 h6 b' 6 e6 y).mpr ⟨hyr, by omega, by omega⟩⟩
      · exact ⟨_, List.Mem.head _, (mem_piece off7 h7 b' 7 e7 y).mpr ⟨hyr, by omega, by omega⟩⟩
    rw [View.read_writes_apply_of_pieces (sOv).view fo (rowG d L mx mw mt b') P hG y hcov]
    show Cert.SpecF.GkAt (F := F) mx mw mt (base L + b') (y 1).val = _
    rw [hyc]
  · -- a row below b: no piece covers it
    have hlt : b' < b := by omega
    have hnot : ∀ p ∈ P, y ∉ p.1.set := by
      intro p hp hm
      rcases hmem p hp with rfl | rfl | rfl | rfl | rfl | rfl | rfl | rfl
      · exact hbb (hyr.symm.trans ((mem_piece off7 h7 b 7 e7 y).mp hm).1)
      · exact hbb (hyr.symm.trans ((mem_piece off6 h6 b 6 e6 y).mp hm).1)
      · exact hbb (hyr.symm.trans ((mem_piece off5 h5 b 5 e5 y).mp hm).1)
      · exact hbb (hyr.symm.trans ((mem_piece off4 h4 b 4 e4 y).mp hm).1)
      · exact hbb (hyr.symm.trans ((mem_piece off3 h3 b 3 e3 y).mp hm).1)
      · exact hbb (hyr.symm.trans ((mem_piece off2 h2 b 2 e2 y).mp hm).1)
      · exact hbb (hyr.symm.trans ((mem_piece off1 h1 b 1 e1 y).mp hm).1)
      · exact hbb (hyr.symm.trans ((mem_piece off0 h0 b 0 e0 y).mp hm).1)
    rw [View.read_writes_apply_of_forall_not_mem (sOv).view fo y P hnot]
    subst hy
    exact hfo b' col hlt hb'128 hcol

/-! ## The result's rows -/

omit [FloatOps F] in
/-- An index of the tile's rows of the result: row `base + b`, the same column. -/
theorem oSl_emb_row (x : S128x128.Idx) : (((oSl L).view.emb x) 0).val = base L + (x 0).val := by
  show k0_off1088 L 0 + 1 * (x 0).val = _
  rw [k0_off1088_eq]
  show 256 * (L 1).val + 128 * (L 0).val + 1 * (x 0).val = 256 * (L 1).val + 128 * (L 0).val + (x 0).val
  omega
omit [FloatOps F] in
theorem oSl_emb_col (x : S128x128.Idx) : (((oSl L).view.emb x) 1).val = (x 1).val := by
  show k0_off1088 L 1 + 1 * (x 1).val = _
  rw [k0_off1088_eq]
  show 0 + 1 * (x 1).val = (x 1).val
  omega

/-- The finished output scratch, copied onto the tile's rows of the result, leaves them at the whole-array function. -/
theorem out_block (mx : Buf (Elt F) (xLoc d)) (mw : Buf (Elt F) (wLoc d)) (mt : Buf (Elt F) (tLoc d))
    (fo : Buf (Elt F) ((sOv).view.loc (thr d L))) (fo' : Buf (Elt F) (oLoc d)) (hfo : OutGood d L mx mw mt 128 fo) :
    ∀ i ∈ (oSl L).view.set, ((oSl L).view.write (Elt F) fo' ((sOv).view.read (Elt F) fo) Finset.univ) i = (Gout d mx mw mt) i := by
  intro i hi
  obtain ⟨x, -, rfl⟩ := Finset.mem_map.mp hi
  rw [View.write_emb_of_mem _ _ (Finset.mem_univ x)]
  show (fo : FVec F S128x128 .f32) x = Cert.SpecF.GkAt (F := F) mx mw mt (((oSl L).view.emb x) 0).val (((oSl L).view.emb x) 1).val
  rw [oSl_emb_row, oSl_emb_col]
  have hx0 : (x 0).val < 128 := (x 0).isLt
  have hx1 : (x 1).val < 128 := (x 1).isLt
  rw [← hfo (x 0).val (x 1).val hx0 hx0 hx1]
  congr 1
  funext a
  apply Fin.ext
  match a with
  | ⟨0, _⟩ => show (x 0).val = (x 0).val % 128; omega
  | ⟨1, _⟩ => show (x 1).val = (x 1).val % 128; omega

/-- The same with the copy's source read as it is. -/
theorem out_block_same (mx : Buf (Elt F) (xLoc d)) (mw : Buf (Elt F) (wLoc d)) (mt : Buf (Elt F) (tLoc d))
    (fo : Buf (Elt F) ((sOv).view.loc (thr d L))) (fo' : Buf (Elt F) (oLoc d)) (hfo : OutGood d L mx mw mt 128 fo) :
    ∀ i ∈ (oSl L).view.set,
      ((oSl L).view.write (Elt F) fo' ((ReadAs.same : ReadAs (Elt F) S128x128 .f32 S128x128 .f32).apply ((sOv).view.read (Elt F) fo)) Finset.univ) i
        = (Gout d mx mw mt) i :=
  out_block d L mx mw mt fo fo' hfo

/-- The same as one whole-view write. -/
theorem out_block_writes (mx : Buf (Elt F) (xLoc d)) (mw : Buf (Elt F) (wLoc d)) (mt : Buf (Elt F) (tLoc d))
    (fo : Buf (Elt F) ((sOv).view.loc (thr d L))) (fo' : Buf (Elt F) (oLoc d)) (hfo : OutGood d L mx mw mt 128 fo) :
    ∀ i ∈ (oSl L).view.set,
      ((oSl L).view.writes (Elt F) fo' [(⟨Rect.whole S128x128, (sOv).view.read (Elt F) fo⟩ : View.Piece (Elt F) S128x128 .f32)]) i = (Gout d mx mw mt) i := by
  intro i hi
  obtain ⟨x, -, rfl⟩ := Finset.mem_map.mp hi
  have e := View.read_writes_cons_emb (oSl L).view fo' (Rect.whole S128x128) ((sOv).view.read (Elt F) fo) [] x
  rw [Rect.emb_whole_apply] at e
  have hw := out_block d L mx mw mt fo fo' hfo ((oSl L).view.emb x) (Finset.mem_map_of_mem _ (Finset.mem_univ x))
  rw [View.write_emb_of_mem _ _ (Finset.mem_univ x)] at hw
  rw [← hw, ← e]
  rfl

end Cert.Proof.K

end
-- ==== Proof.K.Comp2.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of the local row `b < 128` that the outer trip's word `5·g + 0` names over slot buffer 0

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp2_run (q : PosShare TreeShare) (fw : Buf (Elt F) ((sWv).view.loc (thr d L))) (fb : Buf (Elt F) ((sB3).view.loc (thr d L)))
    (c0_i32_14 c1_i32_15 : BitVec 32) (k0_t1 : Fin k0_t1_loop.trips) (b : Nat) (hbw : (Scalar.addi (Scalar.muli 5#32 (Scf.iv c0_i32_14 c1_i32_15 k0_t1)) 0#32).toNat = b) (hb : b < 128)
    (init : AccT F) (hinit : Good fw fb b 0 init) :
    iprop(((sWv).view.loc (thr d L) ↦{q} fw) ∗ ((sB3).view.loc (thr d L) ↦{fullShare} fb))
      ⊢ wp frame (wpE (defs₀ (F := F)) 𝒱₀ (thr d L) none) Set.univ
          (Scf.Loop.for k0_t2_loop k0_t2_ok init
            (k0_t2_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 c0_i32_14 c1_i32_15 k0_t1))
          (fun r => (iprop(⌜Good fw fb b 50 r⌝ ∗ ((sWv).view.loc (thr d L) ↦{q} fw) ∗ ((sB3).view.loc (thr d L) ↦{fullShare} fb)) : sProp 𝕄)) := by
  have hb' : (Scalar.addi (Scalar.muli 5#32 (Scf.iv c0_i32_14 c1_i32_15 k0_t1)) 0#32).toNat < 128 := by rw [hbw]; exact hb
  iintro ⟨Hw, Hb⟩
  sl_for (inv3 d L q fw fb b) $$ [Hw Hb]
  case region =>
    intro k acc
    unfold inv3
    iintro ⟨%hG, Hw, Hb⟩
    sl_exec (disch := exact chk_bcast _ _ hb' (l_lt _ (fin_lt5 k0_t2_abs.2.1 _) _ (by decide)))
    iterate 10
      rw [SparseCore.vectorLoadIdx_bind (c := thr d L)]
      sl_exec (disch := exact chk_bcast _ _ hb' (l_lt _ (fin_lt5 k0_t2_abs.2.1 _) _ (by decide)))
    sl_step
    isplitr
    · ipureintro
      obtain ⟨h0, h1, h2, h3, h4, h5, h6, h7⟩ := hG
      have hk : k.val < 5 := fin_lt5 k0_t2_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq3 fb _ _ _ _ rfl) rfl)
        exact h0
      · repeat (refine good_step fw fb b 1 _ _ _ _ _ ?_ (wb_eq fw _ _ _ b _ hbw (l_toNat _ hk _ (by decide))) (ld_eq3 fb _ _ _ _ rfl) rfl)
        exact h1
      · repeat (refine good_step fw fb b 2 _ _ _ _ _ ?_ (wb_eq fw _ _ _ b _ hbw (l_toNat _ hk _ (by decide))) (ld_eq3 fb _ _ _ _ rfl) rfl)
        exact h2
      · repeat (refine good_step fw fb b 3 _ _ _ _ _ ?_ (wb_eq fw _ _ _ b _ hbw (l_toNat _ hk _ (by decide))) (ld_eq3 fb _ _ _ _ rfl) rfl)
        exact h3
      · repeat (refine good_step fw fb b 4 _ _ _ _ _ ?_ (wb_eq fw _ _ _ b _ hbw (l_toNat _ hk _ (by decide))) (ld_eq3 fb _ _ _ _ rfl) rfl)
        exact h4
      · repeat (refine good_step fw fb b 5 _ _ _ _ _ ?_ (wb_eq fw _ _ _ b _ hbw (l_toNat _ hk _ (by decide))) (ld_eq3 fb _ _ _ _ rfl) rfl)
        exact h5
      · repeat (refine good_step fw fb b 6 _ _ _ _ _ ?_ (wb_eq fw _ _ _ b _ hbw (l_toNat _ hk _ (by decide))) (ld_eq3 fb _ _ _ _ rfl) rfl)
        exact h6
      · repeat (refine good_step fw fb b 7 _ _ _ _ _ ?_ (wb_eq fw _ _ _ b _ hbw (l_toNat _ hk _ (by decide))) (ld_eq3 fb _ _ _ _ rfl) rfl)
        exact h7
    isplitl [Hw] <;> iassumption
  · unfold inv3
    isplitl [Hw Hb]
    · isplitr
      · ipureintro; exact hinit
      isplitl [Hw] <;> iassumption
    · iintro %acc ⟨%hG, Hw, Hb⟩
      isplitr
      · ipureintro
        have ht : Scf.trips k0_t2_loop.lb k0_t2_loop.ub k0_t2_loop.st = 5 := by decide +kernel
        rw [ht] at hG; exact hG
      isplitl [Hw] <;> iassumption

end Cert.Proof.K

end
-- ==== Proof.K.Comp3.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of a local row `b` (the row word any 32-bit word whose unsigned value is `b < 128`) over slot buffer 1

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp3_run (q : PosShare TreeShare) (fw : Buf (Elt F) ((sWv).view.loc (thr d L))) (fb : Buf (Elt F) ((sB4).view.loc (thr d L)))
    (bw : BitVec 32) (b : Nat) (hbw : bw.toNat = b) (hb : b < 128) (k0_t1 : Fin k0_t1_loop.trips) (v316 : BitVec 32)
    (v318 v319 v320 : FVec F S16 .f32) (cst_325 : F .f32)
    (init : AccT F) (hinit : Good fw fb b 0 init) :
    iprop(((sWv).view.loc (thr d L) ↦{q} fw) ∗ ((sB4).view.loc (thr d L) ↦{fullShare} fb))
      ⊢ wp frame (wpE (defs₀ (F := F)) 𝒱₀ (thr d L) none) Set.univ
          (Scf.Loop.for k0_t3_loop k0_t3_ok init
            (k0_t3_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 k0_t1 v316 (broadcast S16 bw) v318 v319 v320 cst_325))
          (fun r => (iprop(⌜Good fw fb b 50 r⌝ ∗ ((sWv).view.loc (thr d L) ↦{q} fw) ∗ ((sB4).view.loc (thr d L) ↦{fullShare} fb)) : sProp 𝕄)) := by
  have hb' : bw.toNat < 128 := by rw [hbw]; exact hb
  iintro ⟨Hw, Hb⟩
  sl_for (inv4 d L q fw fb b) $$ [Hw Hb]
  case region =>
    intro k acc
    unfold inv4
    iintro ⟨%hG, Hw, Hb⟩
    sl_exec (disch := exact chk_bcast _ _ hb' (l_lt _ (fin_lt5 k0_t3_abs.2.1 _) _ (by decide)))
    iterate 10
      rw [SparseCore.vectorLoadIdx_bind (c := thr d L)]
      sl_exec (disch := exact chk_bcast _ _ hb' (l_lt _ (fin_lt5 k0_t3_abs.2.1 _) _ (by decide)))
    sl_step
    isplitr
    · ipureintro
      obtain ⟨h0, h1, h2, h3, h4, h5, h6, h7⟩ := hG
      have hk : k.val < 5 := fin_lt5 k0_t3_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq4 fb _ _ _ _ rfl) rfl)
        exact h0
      · repeat (refine good_step fw fb b 1 _ _ _ _ _ ?_ (wb_eq fw _ _ _ b _ hbw (l_toNat _ hk _ (by decide))) (ld_eq4 fb _ _ _ _ rfl) rfl)
        exact h1
      · repeat (refine good_step fw fb b 2 _ _ _ _ _ ?_ (wb_eq fw _ _ _ b _ hbw (l_toNat _ hk _ (by decide))) (ld_eq4 fb _ _ _ _ rfl) rfl)
        exact h2
      · repeat (refine good_step fw fb b 3 _ _ _ _ _ ?_ (wb_eq fw _ _ _ b _ hbw (l_toNat _ hk _ (by decide))) (ld_eq4 fb _ _ _ _ rfl) rfl)
        exact h3
      · repeat (refine good_step fw fb b 4 _ _ _ _ _ ?_ (wb_eq fw _ _ _ b _ hbw (l_toNat _ hk _ (by decide))) (ld_eq4 fb _ _ _ _ rfl) rfl)
        exact h4
      · repeat (refine good_step fw fb b 5 _ _ _ _ _ ?_ (wb_eq fw _ _ _ b _ hbw (l_toNat _ hk _ (by decide))) (ld_eq4 fb _ _ _ _ rfl) rfl)
        exact h5
      · repeat (refine good_step fw fb b 6 _ _ _ _ _ ?_ (wb_eq fw _ _ _ b _ hbw (l_toNat _ hk _ (by decide))) (ld_eq4 fb _ _ _ _ rfl) rfl)
        exact h6
      · repeat (refine good_step fw fb b 7 _ _ _ _ _ ?_ (wb_eq fw _ _ _ b _ hbw (l_toNat _ hk _ (by decide))) (ld_eq4 fb _ _ _ _ rfl) rfl)
        exact h7
    isplitl [Hw] <;> iassumption
  · unfold inv4
    isplitl [Hw Hb]
    · isplitr
      · ipureintro; exact hinit
      isplitl [Hw] <;> iassumption
    · iintro %acc ⟨%hG, Hw, Hb⟩
      isplitr
      · ipureintro
        have ht : Scf.trips k0_t3_loop.lb k0_t3_loop.ub k0_t3_loop.st = 5 := by decide +kernel
        rw [ht] at hG; exact hG
      isplitl [Hw] <;> iassumption

end Cert.Proof.K

end
-- ==== Proof.K.Comp4.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of the local row `b < 128` that the word `v + 2` names, `v` the outer trip's first row over slot buffer 2

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp4_run (q : PosShare TreeShare) (fw : Buf (Elt F) ((sWv).view.loc (thr d L))) (fb : Buf (Elt F) ((sB5).view.loc (thr d L)))
    (k0_t1 : Fin k0_t1_loop.trips) (v269 : BitVec 32) (b : Nat) (hbw : (Scalar.addi v269 2#32).toNat = b) (hb : b < 128)
    (init : AccT F) (hinit : Good fw fb b 0 init) :
    iprop(((sWv).view.loc (thr d L) ↦{q} fw) ∗ ((sB5).view.loc (thr d L) ↦{fullShare} fb))
      ⊢ wp frame (wpE (defs₀ (F := F)) 𝒱₀ (thr d L) none) Set.univ
          (Scf.Loop.for k0_t4_loop k0_t4_ok init
            (k0_t4_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 k0_t1 v269))
          (fun r => (iprop(⌜Good fw fb b 50 r⌝ ∗ ((sWv).view.loc (thr d L) ↦{q} fw) ∗ ((sB5).view.loc (thr d L) ↦{fullShare} fb)) : sProp 𝕄)) := by
  have hb' : (Scalar.addi v269 2#32).toNat < 128 := by rw [hbw]; exact hb
  iintro ⟨Hw, Hb⟩
  sl_for (inv5 d L q fw fb b) $$ [Hw Hb]
  case region =>
    intro k acc
    unfold inv5
    iintro ⟨%hG, Hw, Hb⟩
    sl_exec (disch := exact chk_bcast _ _ hb' (l_lt _ (fin_lt5 k0_t4_abs.2.1 _) _ (by decide)))
    iterate 10
      rw [SparseCore.vectorLoadIdx_bind (c := thr d L)]
      sl_exec (disch := exact chk_bcast _ _ hb' (l_lt _ (fin_lt5 k0_t4_abs.2.1 _) _ (by decide)))
    sl_step
    isplitr
    · ipureintro
      obtain ⟨h0, h1, h2, h3, h4, h5, h6, h7⟩ := hG
      have hk : k.val < 5 := fin_lt5 k0_t4_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq5 fb _ _ _ _ rfl) rfl)
        exact h0
      · repeat (refine good_step fw fb b 1 _ _ _ _ _ ?_ (wb_eq fw _ _ _ b _ hbw (l_toNat _ hk _ (by decide))) (ld_eq5 fb _ _ _ _ rfl) rfl)
        exact h1
      · repeat (refine good_step fw fb b 2 _ _ _ _ _ ?_ (wb_eq fw _ _ _ b _ hbw (l_toNat _ hk _ (by decide))) (ld_eq5 fb _ _ _ _ rfl) rfl)
        exact h2
      · repeat (refine good_step fw fb b 3 _ _ _ _ _ ?_ (wb_eq fw _ _ _ b _ hbw (l_toNat _ hk _ (by decide))) (ld_eq5 fb _ _ _ _ rfl) rfl)
        exact h3
      · repeat (refine good_step fw fb b 4 _ _ _ _ _ ?_ (wb_eq fw _ _ _ b _ hbw (l_toNat _ hk _ (by decide))) (ld_eq5 fb _ _ _ _ rfl) rfl)
        exact h4
      · repeat (refine good_step fw fb b 5 _ _ _ _ _ ?_ (wb_eq fw _ _ _ b _ hbw (l_toNat _ hk _ (by decide))) (ld_eq5 fb _ _ _ _ rfl) rfl)
        exact h5
      · repeat (refine good_step fw fb b 6 _ _ _ _ _ ?_ (wb_eq fw _ _ _ b _ hbw (l_toNat _ hk _ (by decide))) (ld_eq5 fb _ _ _ _ rfl) rfl)
        exact h6
      · repeat (refine good_step fw fb b 7 _ _ _ _ _ ?_ (wb_eq fw _ _ _ b _ hbw (l_toNat _ hk _ (by decide))) (ld_eq5 fb _ _ _ _ rfl) rfl)
        exact h7
    isplitl [Hw] <;> iassumption
  · unfold inv5
    isplitl [Hw Hb]
    · isplitr
      · ipureintro; exact hinit
      isplitl [Hw] <;> iassumption
    · iintro %acc ⟨%hG, Hw, Hb⟩
      isplitr
      · ipureintro
        have ht : Scf.trips k0_t4_loop.lb k0_t4_loop.ub k0_t4_loop.st = 5 := by decide +kernel
        rw [ht] at hG; exact hG
      isplitl [Hw] <;> iassumption

end Cert.Proof.K

end
-- ==== Proof.K.Comp5.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of a local row `b` (the row word any 32-bit word whose unsigned value is `b < 128`) over slot buffer 3

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp5_run (q : PosShare TreeShare) (fw : Buf (Elt F) ((sWv).view.loc (thr d L))) (fb : Buf (Elt F) ((sB6).view.loc (thr d L)))
    (bw : BitVec 32) (b : Nat) (hbw : bw.toNat = b) (hb : b < 128) (k0_t1 : Fin k0_t1_loop.trips) (v269 : BitVec 32) (v390 : BitVec 32)
    (v392 v393 v394 v395 v396 v397 v398 : FVec F S16 .f32) (cst_391 : F .f32)
    (init : AccT F) (hinit : Good fw fb b 0 init) :
    iprop(((sWv).view.loc (thr d L) ↦{q} fw) ∗ ((sB6).view.loc (thr d L) ↦{fullShare} fb))
      ⊢ wp frame (wpE (defs₀ (F := F)) 𝒱₀ (thr d L) none) Set.univ
          (Scf.Loop.for k0_t5_loop k0_t5_ok init
            (k0_t5_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 k0_t1 v269 v390 (broadcast S16 bw) v392 v393 v394 v395 v396 v397 v398 cst_391))
          (fun r => (iprop(⌜Good fw fb b 50 r⌝ ∗ ((sWv).view.loc (thr d L) ↦{q} fw) ∗ ((sB6).view.loc (thr d L) ↦{fullShare} fb)) : sProp 𝕄)) := by
  have hb' : bw.toNat < 128 := by rw [hbw]; exact hb
  iintro ⟨Hw, Hb⟩
  sl_for (inv6 d L q fw fb b) $$ [Hw Hb]
  case region =>
    intro k acc
    unfold inv6
    iintro ⟨%hG, Hw, Hb⟩
    sl_exec (disch := exact chk_bcast _ _ hb' (l_lt _ (fin_lt5 k0_t5_abs.2.1 _) _ (by decide)))
    iterate 10
      rw [SparseCore.vectorLoadIdx_bind (c := thr d L)]
      sl_exec (disch := exact chk_bcast _ _ hb' (l_lt _ (fin_lt5 k0_t5_abs.2.1 _) _ (by decide)))
    sl_step
    isplitr
    · ipureintro
      obtain ⟨h0, h1, h2, h3, h4, h5, h6, h7⟩ := hG
      have hk : k.val < 5 := fin_lt5 k0_t5_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq6 fb _ _ _ _ rfl) rfl)
        exact h0
      · repeat (refine good_step fw fb b 1 _ _ _ _ _ ?_ (wb_eq fw _ _ _ b _ hbw (l_toNat _ hk _ (by decide))) (ld_eq6 fb _ _ _ _ rfl) rfl)
        exact h1
      · repeat (refine good_step fw fb b 2 _ _ _ _ _ ?_ (wb_eq fw _ _ _ b _ hbw (l_toNat _ hk _ (by decide))) (ld_eq6 fb _ _ _ _ rfl) rfl)
        exact h2
      · repeat (refine good_step fw fb b 3 _ _ _ _ _ ?_ (wb_eq fw _ _ _ b _ hbw (l_toNat _ hk _ (by decide))) (ld_eq6 fb _ _ _ _ rfl) rfl)
        exact h3
      · repeat (refine good_step fw fb b 4 _ _ _ _ _ ?_ (wb_eq fw _ _ _ b _ hbw (l_toNat _ hk _ (by decide))) (ld_eq6 fb _ _ _ _ rfl) rfl)
        exact h4
      · repeat (refine good_step fw fb b 5 _ _ _ _ _ ?_ (wb_eq fw _ _ _ b _ hbw (l_toNat _ hk _ (by decide))) (ld_eq6 fb _ _ _ _ rfl) rfl)
        exact h5
      · repeat (refine good_step fw fb b 6 _ _ _ _ _ ?_ (wb_eq fw _ _ _ b _ hbw (l_toNat _ hk _ (by decide))) (ld_eq6 fb _ _ _ _ rfl) rfl)
        exact h6
      · repeat (refine good_step fw fb b 7 _ _ _ _ _ ?_ (wb_eq fw _ _ _ b _ hbw (l_toNat _ hk _ (by decide))) (ld_eq6 fb _ _ _ _ rfl) rfl)
        exact h7
    isplitl [Hw] <;> iassumption
  · unfold inv6
    isplitl [Hw Hb]
    · isplitr
      · ipureintro; exact hinit
      isplitl [Hw] <;> iassumption
    · iintro %acc ⟨%hG, Hw, Hb⟩
      isplitr
      · ipureintro
        have ht : Scf.trips k0_t5_loop.lb k0_t5_loop.ub k0_t5_loop.st = 5 := by decide +kernel
        rw [ht] at hG; exact hG
      isplitl [Hw] <;> iassumption

end Cert.Proof.K

end
-- ==== Proof.K.Comp6.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of the local row `b < 128` that the word `v + 4` names, `v` the outer trip's first row over slot buffer 4

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp6_run (q : PosShare TreeShare) (fw : Buf (Elt F) ((sWv).view.loc (thr d L))) (fb : Buf (Elt F) ((sB7).view.loc (thr d L)))
    (k0_t1 : Fin k0_t1_loop.trips) (v269 : BitVec 32) (v422 : BitVec 32) (c1_i32_409 : BitVec 32) (b : Nat) (hbw : (Scalar.addi v269 4#32).toNat = b) (hb : b < 128)
    (init : AccT F) (hinit : Good fw fb b 0 init) :
    iprop(((sWv).view.loc (thr d L) ↦{q} fw) ∗ ((sB7).view.loc (thr d L) ↦{fullShare} fb))
      ⊢ wp frame (wpE (defs₀ (F := F)) 𝒱₀ (thr d L) none) Set.univ
          (Scf.Loop.for k0_t6_loop k0_t6_ok init
            (k0_t6_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 k0_t1 v269 v422 c1_i32_409))
          (fun r => (iprop(⌜Good fw fb b 50 r⌝ ∗ ((sWv).view.loc (thr d L) ↦{q} fw) ∗ ((sB7).view.loc (thr d L) ↦{fullShare} fb)) : sProp 𝕄)) := by
  have hb' : (Scalar.addi v269 4#32).toNat < 128 := by rw [hbw]; exact hb
  iintro ⟨Hw, Hb⟩
  sl_for (inv7 d L q fw fb b) $$ [Hw Hb]
  case region =>
    intro k acc
    unfold inv7
    iintro ⟨%hG, Hw, Hb⟩
    sl_exec (disch := exact chk_bcast _ _ hb' (l_lt _ (fin_lt5 k0_t6_abs.2.1 _) _ (by decide)))
    iterate 10
      rw [SparseCore.vectorLoadIdx_bind (c := thr d L)]
      sl_exec (disch := exact chk_bcast _ _ hb' (l_lt _ (fin_lt5 k0_t6_abs.2.1 _) _ (by decide)))
    sl_step
    isplitr
    · ipureintro
      obtain ⟨h0, h1, h2, h3, h4, h5, h6, h7⟩ := hG
      have hk : k.val < 5 := fin_lt5 k0_t6_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq7 fb _ _ _ _ rfl) rfl)
        exact h0
      · repeat (refine good_step fw fb b 1 _ _ _ _ _ ?_ (wb_eq fw _ _ _ b _ hbw (l_toNat _ hk _ (by decide))) (ld_eq7 fb _ _ _ _ rfl) rfl)
        exact h1
      · repeat (refine good_step fw fb b 2 _ _ _ _ _ ?_ (wb_eq fw _ _ _ b _ hbw (l_toNat _ hk _ (by decide))) (ld_eq7 fb _ _ _ _ rfl) rfl)
        exact h2
      · repeat (refine good_step fw fb b 3 _ _ _ _ _ ?_ (wb_eq fw _ _ _ b _ hbw (l_toNat _ hk _ (by decide))) (ld_eq7 fb _ _ _ _ rfl) rfl)
        exact h3
      · repeat (refine good_step fw fb b 4 _ _ _ _ _ ?_ (wb_eq fw _ _ _ b _ hbw (l_toNat _ hk _ (by decide))) (ld_eq7 fb _ _ _ _ rfl) rfl)
        exact h4
      · repeat (refine good_step fw fb b 5 _ _ _ _ _ ?_ (wb_eq fw _ _ _ b _ hbw (l_toNat _ hk _ (by decide))) (ld_eq7 fb _ _ _ _ rfl) rfl)
        exact h5
      · repeat (refine good_step fw fb b 6 _ _ _ _ _ ?_ (wb_eq fw _ _ _ b _ hbw (l_toNat _ hk _ (by decide))) (ld_eq7 fb _ _ _ _ rfl) rfl)
        exact h6
      · repeat (refine good_step fw fb b 7 _ _ _ _ _ ?_ (wb_eq fw _ _ _ b _ hbw (l_toNat _ hk _ (by decide))) (ld_eq7 fb _ _ _ _ rfl) rfl)
        exact h7
    isplitl [Hw] <;> iassumption
  · unfold inv7
    isplitl [Hw Hb]
    · isplitr
      · ipureintro; exact hinit
      isplitl [Hw] <;> iassumption
    · iintro %acc ⟨%hG, Hw, Hb⟩
      isplitr
      · ipureintro
        have ht : Scf.trips k0_t6_loop.lb k0_t6_loop.ub k0_t6_loop.st = 5 := by decide +kernel
        rw [ht] at hG; exact hG
      isplitl [Hw] <;> iassumption

end Cert.Proof.K

end
-- ==== Proof.K.Trip.lean ====
import proofs.«206443_g53721450939153_cont_9to1_m_117_36_alg».proof.Proof.K.Iface
import Idealize.ShloMosaic.Lib.Pipeline.Value
import proofs.«206443_g53721450939153_cont_9to1_m_117_36_alg».proof.Proof.K.Ring
import proofs.«206443_g53721450939153_cont_9to1_m_117_36_alg».proof.Proof.K.Values
import proofs.«206443_g53721450939153_cont_9to1_m_117_36_alg».proof.Proof.K.OutRows
import proofs.«206443_g53721450939153_cont_9to1_m_117_36_alg».proof.Proof.K.Comp2
import proofs.«206443_g53721450939153_cont_9to1_m_117_36_alg».proof.Proof.K.Comp3
import proofs.«206443_g53721450939153_cont_9to1_m_117_36_alg».proof.Proof.K.Comp4
import proofs.«206443_g53721450939153_cont_9to1_m_117_36_alg».proof.Proof.K.Comp5
import proofs.«206443_g53721450939153_cont_9to1_m_117_36_alg».proof.Proof.K.Comp6

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # One trip of the outer loop

  Trip `g` takes the ring from `Inv g` to `Inv (g + 1)`. For `j = 0 … 4`: the gather of local row `5·g + j` is waited for (its
  slot's buffer, tokens and semaphore come back), the gather of row `5·g + j + 4` is issued into the slot freed one step
  before, the row's inner product is computed from the buffer (`comp<j+2>_run`) and its eight accumulators are stored into
  row `5·g + j` of the output scratch. At the end the five finished rows extend `OutGood` (five applications of `out_update`,
  each accumulator an entry of the result by `good_spec`), and the four gathers issued at steps 1–4 are the flights of
  `Inv (g + 1)`, their payloads the rows `RowsOf` names (`rows_of_gather'`). -/

/-- The row word of step `kk` of outer trip `g`: `5·g + kk`. -/
theorem row_toNat (g : Nat) (hg : g < 24) (kk : Nat) (hkk : kk < 5) :
    (Scalar.addi (Scalar.muli 5#32 (Scf.iv 0#32 1#32 g)) (BitVec.ofNat 32 kk)).toNat = 5 * g + kk := by
  interval_cases g <;> interval_cases kk <;> decide

theorem fin_lt24 {n : Nat} (h : n ≤ 24) (k : Fin n) : k.val < 24 := lt_of_lt_of_le k.isLt h

set_option maxHeartbeats 16000000 in
theorem trip (q : PosShare TreeShare) (mx : Buf (Elt F) (xLoc d)) (mw : Buf (Elt F) (wLoc d)) (mt : Buf (Elt F) (tLoc d))
    (hx : ∀ i, (mx i).toNat < 100000) (O : CellTallies nD τ sig (HIx 1)) (W : Waits sig (HIx 1))
    (k : Fin k0_t1_loop.trips) (acc : BitVec 32) :
    Inv d L q mx mw mt O W k.val acc
      ⊢ wp frame (wpE (defs₀ (F := F)) 𝒱₀ (thr d L) none) Set.univ
          (k0_t1_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 0#32 k acc) (Inv d L q mx mw mt O W (k.val + 1)) := by
  unfold Inv FlightOf IdleOf OutPart k0_t1_body
  iintro ⟨#Hmw, Hwv, ⟨%fo, %hfo, Hov⟩, ⟨%gp0, %P0, %of0, %ho0, %hP0, Hf0, Hxr0, Htr0, Hbr0⟩, ⟨%gp1, %P1, %of1, %ho1, %hP1, Hf1, Hxr1, Htr1, Hbr1⟩,
    ⟨%gp2, %P2, %of2, %ho2, %hP2, Hf2, Hxr2, Htr2, Hbr2⟩, ⟨%gp3, %P3, %of3, %ho3, %hP3, Hf3, Hxr3, Htr3, Hbr3⟩, ⟨⟨%g7, Hb7⟩, Hd4, Hx4, Ht4⟩, %W', %hW', HO⟩
  have hin := hin_row d L mx hx
  have hk : k.val < 24 := fin_lt24 k0_t1_abs.2.1 k
  sl_exec
  rw [wp_bind]
  iapply (wp_wand_r frame (wpE (defs₀ (F := F)) 𝒱₀ (thr d L) none) Set.univ)
  isplitl [Hwv Hbr0]
  · iapply (comp2_run d L fullShare (wvOf d L mw) _ 0#32 1#32 k (5 * k.val) (row_toNat k.val hk 0 (by decide)) (by omega) _ (good_zero _ _ _))
    isplitl [Hwv] <;> iassumption
  iintro %r0 ⟨%hG0, Hwv, Hbr0⟩
  sl_exec
  rw [wp_bind]
  iapply (wp_wand_r frame (wpE (defs₀ (F := F)) 𝒱₀ (thr d L) none) Set.univ)
  isplitl [Hwv Hbr1]
  · iapply (comp3_run d L fullShare (wvOf d L mw) _ (Scalar.addi (Scalar.muli 5#32 (Scf.iv 0#32 1#32 k)) 1#32) (5 * k.val + 1) (row_toNat k.val hk 1 (by decide)) (by omega) k _ _ _ _ _ _ (good_zero _ _ _))
    isplitl [Hwv] <;> iassumption
  iintro %r1 ⟨%hG1, Hwv, Hbr1⟩
  sl_exec
  rw [wp_bind]
  iapply (wp_wand_r frame (wpE (defs₀ (F := F)) 𝒱₀ (thr d L) none) Set.univ)
  isplitl [Hwv Hbr2]
  · iapply (comp4_run d L fullShare (wvOf d L mw) _ k _ (5 * k.val + 2) (row_toNat k.val hk 2 (by decide)) (by omega) _ (good_zero _ _ _))
    isplitl [Hwv] <;> iassumption
  iintro %r2 ⟨%hG2, Hwv, Hbr2⟩
  sl_exec
  rw [wp_bind]
  iapply (wp_wand_r frame (wpE (defs₀ (F := F)) 𝒱₀ (thr d L) none) Set.univ)
  isplitl [Hwv Hbr3]
  · iapply (comp5_run d L fullShare (wvOf d L mw) _ (Scalar.addi (Scalar.muli 5#32 (Scf.iv 0#32 1#32 k)) 3#32) (5 * k.val + 3) (row_toNat k.val hk 3 (by decide)) (by omega) k _ _ _ _ _ _ _ _ _ _ _ (good_zero _ _ _))
    isplitl [Hwv] <;> iassumption
  iintro %r3 ⟨%hG3, Hwv, Hbr3⟩
  sl_exec
  rw [wp_bind]
  iapply (wp_wand_r frame (wpE (defs₀ (F := F)) 𝒱₀ (thr d L) none) Set.univ)
  isplitl [Hwv Hb7]
  · iapply (comp6_run d L fullShare (wvOf d L mw) _ k _ _ _ (5 * k.val + 4) (row_toNat k.val hk 4 (by decide)) (by omega) _ (good_zero _ _ _))
    isplitl [Hwv] <;> iassumption
  iintro %r4 ⟨%hG4, Hwv, Hb7⟩
  sl_exec
  -- what the five computes left, as entries of the result
  have hP4 : RowsOf d L mx mt (5 * k.val + 4) (trip.sl.gather0 d L mx mt k hin) :=
    rows_of_gather' d L mx mt (k0_off3 k) (k0_off3_inb k) (5 * k.val + 4) (by omega) rfl _ _ _
  have c0 := good_spec d L mx mw mt _ _ (5 * k.val) r0 (fun l hl => wv_val d L mw _ l (by omega) (by omega))
    (fun l col hl hc => buf_val3 d L mx mt _ P0 hP0 _ l col hl hc) hG0
  have c1 := good_spec d L mx mw mt _ _ (5 * k.val + 1) r1 (fun l hl => wv_val d L mw _ l (by omega) (by omega))
    (fun l col hl hc => buf_val4 d L mx mt _ P1 hP1 _ l col hl hc) hG1
  have c2 := good_spec d L mx mw mt _ _ (5 * k.val + 2) r2 (fun l hl => wv_val d L mw _ l (by omega) (by omega))
    (fun l col hl hc => buf_val5 d L mx mt _ P2 hP2 _ l col hl hc) hG2
  have c3 := good_spec d L mx mw mt _ _ (5 * k.val + 3) r3 (fun l hl => wv_val d L mw _ l (by omega) (by omega))
    (fun l col hl hc => buf_val6 d L mx mt _ P3 hP3 _ l col hl hc) hG3
  have c4 := good_spec d L mx mw mt _ _ (5 * k.val + 4) r4 (fun l hl => wv_val d L mw _ l (by omega) (by omega))
    (fun l col hl hc => buf_val7 d L mx mt _ _ hP4 _ l col hl hc) hG4
  have o1 := out_update (hsc := Gen.shapeCasts_S16_S1x16) d L mx mw mt (5 * k.val) fo r0 (k0_off84 k) (k0_off85 k) (k0_off86 k) (k0_off87 k) (k0_off88 k) (k0_off89 k) (k0_off90 k) (k0_off91 k) (k0_off84_inb k) (k0_off85_inb k) (k0_off86_inb k) (k0_off87_inb k) (k0_off88_inb k) (k0_off89_inb k) (k0_off90_inb k) (k0_off91_inb k) (k0_off84_eq k) (k0_off85_eq k) (k0_off86_eq k) (k0_off87_eq k) (k0_off88_eq k) (k0_off89_eq k) (k0_off90_eq k) (k0_off91_eq k) hfo (by omega) c0.1 c0.2.1 c0.2.2.1 c0.2.2.2.1 c0.2.2.2.2.1 c0.2.2.2.2.2.1 c0.2.2.2.2.2.2.1 c0.2.2.2.2.2.2.2
  have o2 := out_update (hsc := Gen.shapeCasts_S16_S1x16) d L mx mw mt (5 * k.val + 1) _ r1 (k0_off173 k) (k0_off174 k) (k0_off175 k) (k0_off176 k) (k0_off177 k) (k0_off178 k) (k0_off179 k) (k0_off180 k) (k0_off173_inb k) (k0_off174_inb k) (k0_off175_inb k) (k0_off176_inb k) (k0_off177_inb k) (k0_off178_inb k) (k0_off179_inb k) (k0_off180_inb k) (k0_off173_eq k) (k0_off174_eq k) (k0_off175_eq k) (k0_off176_eq k) (k0_off177_eq k) (k0_off178_eq k) (k0_off179_eq k) (k0_off180_eq k) o1 (by omega) c1.1 c1.2.1 c1.2.2.1 c1.2.2.2.1 c1.2.2.2.2.1 c1.2.2.2.2.2.1 c1.2.2.2.2.2.2.1 c1.2.2.2.2.2.2.2
  have o3 := out_update (hsc := Gen.shapeCasts_S16_S1x16) d L mx mw mt (5 * k.val + 2) _ r2 (k0_off262 k) (k0_off263 k) (k0_off264 k) (k0_off265 k) (k0_off266 k) (k0_off267 k) (k0_off268 k) (k0_off269 k) (k0_off262_inb k) (k0_off263_inb k) (k0_off264_inb k) (k0_off265_inb k) (k0_off266_inb k) (k0_off267_inb k) (k0_off268_inb k) (k0_off269_inb k) (k0_off262_eq k) (k0_off263_eq k) (k0_off264_eq k) (k0_off265_eq k) (k0_off266_eq k) (k0_off267_eq k) (k0_off268_eq k) (k0_off269_eq k) o2 (by omega) c2.1 c2.2.1 c2.2.2.1 c2.2.2.2.1 c2.2.2.2.2.1 c2.2.2.2.2.2.1 c2.2.2.2.2.2.2.1 c2.2.2.2.2.2.2.2
  have o4 := out_update (hsc := Gen.shapeCasts_S16_S1x16) d L mx mw mt (5 * k.val + 3) _ r3 (k0_off351 k) (k0_off352 k) (k0_off353 k) (k0_off354 k) (k0_off355 k) (k0_off356 k) (k0_off357 k) (k0_off358 k) (k0_off351_inb k) (k0_off352_inb k) (k0_off353_inb k) (k0_off354_inb k) (k0_off355_inb k) (k0_off356_inb k) (k0_off357_inb k) (k0_off358_inb k) (k0_off351_eq k) (k0_off352_eq k) (k0_off353_eq k) (k0_off354_eq k) (k0_off355_eq k) (k0_off356_eq k) (k0_off357_eq k) (k0_off358_eq k) o3 (by omega) c3.1 c3.2.1 c3.2.2.1 c3.2.2.2.1 c3.2.2.2.2.1 c3.2.2.2.2.2.1 c3.2.2.2.2.2.2.1 c3.2.2.2.2.2.2.2
  have o5 := out_update (hsc := Gen.shapeCasts_S16_S1x16) d L mx mw mt (5 * k.val + 4) _ r4 (k0_off440 k) (k0_off441 k) (k0_off442 k) (k0_off443 k) (k0_off444 k) (k0_off445 k) (k0_off446 k) (k0_off447 k) (k0_off440_inb k) (k0_off441_inb k) (k0_off442_inb k) (k0_off443_inb k) (k0_off444_inb k) (k0_off445_inb k) (k0_off446_inb k) (k0_off447_inb k) (k0_off440_eq k) (k0_off441_eq k) (k0_off442_eq k) (k0_off443_eq k) (k0_off444_eq k) (k0_off445_eq k) (k0_off446_eq k) (k0_off447_eq k) o4 (by omega) c4.1 c4.2.1 c4.2.2.1 c4.2.2.2.1 c4.2.2.2.2.1 c4.2.2.2.2.2.1 c4.2.2.2.2.2.2.1 c4.2.2.2.2.2.2.2
  have hR0 : RowsOf d L mx mt (5 * (k.val + 1)) (trip.sl.gather16 d L mx mt k hin) :=
    rows_of_gather' d L mx mt (k0_off92 k) (k0_off92_inb k) (5 * (k.val + 1)) (by omega) rfl _ _ _
  have hR1 : RowsOf d L mx mt (5 * (k.val + 1) + 1) (trip.sl.gather16_1 d L mx mt k hin) :=
    rows_of_gather' d L mx mt (k0_off181 k) (k0_off181_inb k) (5 * (k.val + 1) + 1) (by omega) rfl _ _ _
  have hR2 : RowsOf d L mx mt (5 * (k.val + 1) + 2) (trip.sl.gather16_2 d L mx mt k hin) :=
    rows_of_gather' d L mx mt (k0_off270 k) (k0_off270_inb k) (5 * (k.val + 1) + 2) (by omega) rfl _ _ _
  have hR3 : RowsOf d L mx mt (5 * (k.val + 1) + 3) (trip.sl.gather16_3 d L mx mt k hin) :=
    rows_of_gather' d L mx mt (k0_off359 k) (k0_off359_inb k) (5 * (k.val + 1) + 3) (by omega) rfl _ _ _
  sl_step
  isplitr; · iexact Hmw
  isplitl [Hwv]; · iexact Hwv
  isplitl [Hov]
  · iexists _; isplitr; · ipureintro; exact o5
    iexact Hov
  isplitl [Hf0 Hxr0 Htr0 Hbr0]
  · iexists ((sB3).view.writes (Elt F) (sB3).view.junk [⟨Rect.whole S50x128, P0⟩]), (trip.sl.gather16 d L mx mt k hin), (k0_off92 k), (k0_off92_inb k)
    isplitr; · ipureintro; exact hR0
    isplitl [Hf0]; · iexact Hf0
    isplitl [Hxr0]; · iexact Hxr0
    isplitl [Htr0]; · iexact Htr0
    iexact Hbr0
  isplitl [Hf1 Hxr1 Htr1 Hbr1]
  · iexists ((sB4).view.writes (Elt F) (sB4).view.junk [⟨Rect.whole S50x128, P1⟩]), (trip.sl.gather16_1 d L mx mt k hin), (k0_off181 k), (k0_off181_inb k)
    isplitr; · ipureintro; exact hR1
    isplitl [Hf1]; · iexact Hf1
    isplitl [Hxr1]; · iexact Hxr1
    isplitl [Htr1]; · iexact Htr1
    iexact Hbr1
  isplitl [Hf2 Hxr2 Htr2 Hbr2]
  · iexists ((sB5).view.writes (Elt F) (sB5).view.junk [⟨Rect.whole S50x128, P2⟩]), (trip.sl.gather16_2 d L mx mt k hin), (k0_off270 k), (k0_off270_inb k)
    isplitr; · ipureintro; exact hR2
    isplitl [Hf2]; · iexact Hf2
    isplitl [Hxr2]; · iexact Hxr2
    isplitl [Htr2]; · iexact Htr2
    iexact Hbr2
  isplitl [Hf3 Hxr3 Htr3 Hbr3]
  · iexists ((sB6).view.writes (Elt F) (sB6).view.junk [⟨Rect.whole S50x128, P3⟩]), (trip.sl.gather16_3 d L mx mt k hin), (k0_off359 k), (k0_off359_inb k)
    isplitr; · ipureintro; exact hR3
    isplitl [Hf3]; · iexact Hf3
    isplitl [Hxr3]; · iexact Hxr3
    isplitl [Htr3]; · iexact Htr3
    iexact Hbr3
  isplitl [Hb7 Hd4 Hx4 Ht4]
  · isplitl [Hb7]; · iexists _; iexact Hb7
    isplitl [Hd4]; · iexact Hd4
    isplitl [Hx4]; · iexact Hx4
    iexact Ht4
  iexists (insert (SemLoc.dma cc0_scratch12.sem, (default : HIx 1)) (insert (SemLoc.dma cc0_scratch11.sem, (default : HIx 1)) (insert (SemLoc.dma cc0_scratch10.sem, (default : HIx 1)) (insert (SemLoc.dma cc0_scratch9.sem, (default : HIx 1)) (insert (SemLoc.dma cc0_scratch8.sem, (default : HIx 1)) W'))))); isplitr
  · ipureintro; intro p hp
    simp only [Finset.mem_insert] at hp
    rcases hp with rfl | rfl | rfl | rfl | rfl | hp
    · exact .inr rfl
    · exact .inr rfl
    · exact .inr rfl
    · exact .inr rfl
    · exact .inr rfl
    · exact hW' p hp
  iexact HO

end Cert.Proof.K

end
-- ==== Proof.K.Comp7.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of local row 120 over slot buffer 0

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp7_run (q : PosShare TreeShare) (fw : Buf (Elt F) ((sWv).view.loc (thr d L))) (fb : Buf (Elt F) ((sB3).view.loc (thr d L)))
    (c0_i32_13 : BitVec 32)
    (init : AccT F) (hinit : Good fw fb 120 0 init) :
    iprop(((sWv).view.loc (thr d L) ↦{q} fw) ∗ ((sB3).view.loc (thr d L) ↦{fullShare} fb))
      ⊢ wp frame (wpE (defs₀ (F := F)) 𝒱₀ (thr d L) none) Set.univ
          (Scf.Loop.for k0_t7_loop k0_t7_ok init
            (k0_t7_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 c0_i32_13))
          (fun r => (iprop(⌜Good fw fb 120 50 r⌝ ∗ ((sWv).view.loc (thr d L) ↦{q} fw) ∗ ((sB3).view.loc (thr d L) ↦{fullShare} fb)) : sProp 𝕄)) := by
  iintro ⟨Hw, Hb⟩
  sl_for (inv3 d L q fw fb 120) $$ [Hw Hb]
  case region =>
    intro k acc
    unfold inv3
    iintro ⟨%hG, Hw, Hb⟩
    sl_exec (disch := exact chk_bcast _ _ (by decide) (l_lt _ (fin_lt5 k0_t7_abs.2.1 _) _ (by decide)))
    iterate 10
      rw [SparseCore.vectorLoadIdx_bind (c := thr d L)]
      sl_exec (disch := exact chk_bcast _ _ (by decide) (l_lt _ (fin_lt5 k0_t7_abs.2.1 _) _ (by decide)))
    sl_step
    isplitr
    · ipureintro
      obtain ⟨h0, h1, h2, h3, h4, h5, h6, h7⟩ := hG
      have hk : k.val < 5 := fin_lt5 k0_t7_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 120 0 _ _ _ _ _ ?_ (wb_eq fw _ _ _ 120 _ (by decide) (l_toNat _ hk _ (by decide))) (ld_eq3 fb _ _ _ _ rfl) rfl)
        exact h0
      · repeat (refine good_step fw fb 120 1 _ _ _ _ _ ?_ (wb_eq fw _ _ _ 120 _ (by decide) (l_toNat _ hk _ (by decide))) (ld_eq3 fb _ _ _ _ rfl) rfl)
        exact h1
      · repeat (refine good_step fw fb 120 2 _ _ _ _ _ ?_ (wb_eq fw _ _ _ 120 _ (by decide) (l_toNat _ hk _ (by decide))) (ld_eq3 fb _ _ _ _ rfl) rfl)
        exact h2
      · repeat (refine good_step fw fb 120 3 _ _ _ _ _ ?_ (wb_eq fw _ _ _ 120 _ (by decide) (l_toNat _ hk _ (by decide))) (ld_eq3 fb _ _ _ _ rfl) rfl)
        exact h3
      · repeat (refine good_step fw fb 120 4 _ _ _ _ _ ?_ (wb_eq fw _ _ _ 120 _ (by decide) (l_toNat _ hk _ (by decide))) (ld_eq3 fb _ _ _ _ rfl) rfl)
        exact h4
      · repeat (refine good_step fw fb 120 5 _ _ _ _ _ ?_ (wb_eq fw _ _ _ 120 _ (by decide) (l_toNat _ hk _ (by decide))) (ld_eq3 fb _ _ _ _ rfl) rfl)
        exact h5
      · repeat (refine good_step fw fb 120 6 _ _ _ _ _ ?_ (wb_eq fw _ _ _ 120 _ (by decide) (l_toNat _ hk _ (by decide))) (ld_eq3 fb _ _ _ _ rfl) rfl)
        exact h6
      · repeat (refine good_step fw fb 120 7 _ _ _ _ _ ?_ (wb_eq fw _ _ _ 120 _ (by decide) (l_toNat _ hk _ (by decide))) (ld_eq3 fb _ _ _ _ rfl) rfl)
        exact h7
    isplitl [Hw] <;> iassumption
  · unfold inv3
    isplitl [Hw Hb]
    · isplitr
      · ipureintro; exact hinit
      isplitl [Hw] <;> iassumption
    · iintro %acc ⟨%hG, Hw, Hb⟩
      isplitr
      · ipureintro
        have ht : Scf.trips k0_t7_loop.lb k0_t7_loop.ub k0_t7_loop.st = 5 := by decide +kernel
        rw [ht] at hG; exact hG
      isplitl [Hw] <;> iassumption

end Cert.Proof.K

end
-- ==== Proof.K.Comp8.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of a local row `b` (the row word any 32-bit word whose unsigned value is `b < 128`) over slot buffer 1

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp8_run (q : PosShare TreeShare) (fw : Buf (Elt F) ((sWv).view.loc (thr d L))) (fb : Buf (Elt F) ((sB4).view.loc (thr d L)))
    (bw : BitVec 32) (b : Nat) (hbw : bw.toNat = b) (hb : b < 128)
    (v57 v58 v59 v60 : FVec F S16 .f32)
    (init : AccT F) (hinit : Good fw fb b 0 init) :
    iprop(((sWv).view.loc (thr d L) ↦{q} fw) ∗ ((sB4).view.loc (thr d L) ↦{fullShare} fb))
      ⊢ wp frame (wpE (defs₀ (F := F)) 𝒱₀ (thr d L) none) Set.univ
          (Scf.Loop.for k0_t8_loop k0_t8_ok init
            (k0_t8_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 (broadcast S16 bw) v57 v58 v59 v60))
          (fun r => (iprop(⌜Good fw fb b 50 r⌝ ∗ ((sWv).view.loc (thr d L) ↦{q} fw) ∗ ((sB4).view.loc (thr d L) ↦{fullShare} fb)) : sProp 𝕄)) := by
  have hb' : bw.toNat < 128 := by rw [hbw]; exact hb
  iintro ⟨Hw, Hb⟩
  sl_for (inv4 d L q fw fb b) $$ [Hw Hb]
  case region =>
    intro k acc
    unfold inv4
    iintro ⟨%hG, Hw, Hb⟩
    sl_exec (disch := exact chk_bcast _ _ hb' (l_lt _ (fin_lt5 k0_t8_abs.2.1 _) _ (by decide)))
    iterate 10
      rw [SparseCore.vectorLoadIdx_bind (c := thr d L)]
      sl_exec (disch := exact chk_bcast _ _ hb' (l_lt _ (fin_lt5 k0_t8_abs.2.1 _) _ (by decide)))
    sl_step
    isplitr
    · ipureintro
      obtain ⟨h0, h1, h2, h3, h4, h5, h6, h7⟩ := hG
      have hk : k.val < 5 := fin_lt5 k0_t8_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq4 fb _ _ _ _ rfl) rfl)
        exact h0
      · repeat (refine good_step fw fb b 1 _ _ _ _ _ ?_ (wb_eq fw _ _ _ b _ hbw (l_toNat _ hk _ (by decide))) (ld_eq4 fb _ _ _ _ rfl) rfl)
        exact h1
      · repeat (refine good_step fw fb b 2 _ _ _ _ _ ?_ (wb_eq fw _ _ _ b _ hbw (l_toNat _ hk _ (by decide))) (ld_eq4 fb _ _ _ _ rfl) rfl)
        exact h2
      · repeat (refine good_step fw fb b 3 _ _ _ _ _ ?_ (wb_eq fw _ _ _ b _ hbw (l_toNat _ hk _ (by decide))) (ld_eq4 fb _ _ _ _ rfl) rfl)
        exact h3
      · repeat (refine good_step fw fb b 4 _ _ _ _ _ ?_ (wb_eq fw _ _ _ b _ hbw (l_toNat _ hk _ (by decide))) (ld_eq4 fb _ _ _ _ rfl) rfl)
        exact h4
      · repeat (refine good_step fw fb b 5 _ _ _ _ _ ?_ (wb_eq fw _ _ _ b _ hbw (l_toNat _ hk _ (by decide))) (ld_eq4 fb _ _ _ _ rfl) rfl)
        exact h5
      · repeat (refine good_step fw fb b 6 _ _ _ _ _ ?_ (wb_eq fw _ _ _ b _ hbw (l_toNat _ hk _ (by decide))) (ld_eq4 fb _ _ _ _ rfl) rfl)
        exact h6
      · repeat (refine good_step fw fb b 7 _ _ _ _ _ ?_ (wb_eq fw _ _ _ b _ hbw (l_toNat _ hk _ (by decide))) (ld_eq4 fb _ _ _ _ rfl) rfl)
        exact h7
    isplitl [Hw] <;> iassumption
  · unfold inv4
    isplitl [Hw Hb]
    · isplitr
      · ipureintro; exact hinit
      isplitl [Hw] <;> iassumption
    · iintro %acc ⟨%hG, Hw, Hb⟩
      isplitr
      · ipureintro
        have ht : Scf.trips k0_t8_loop.lb k0_t8_loop.ub k0_t8_loop.st = 5 := by decide +kernel
        rw [ht] at hG; exact hG
      isplitl [Hw] <;> iassumption

end Cert.Proof.K

end
-- ==== Proof.K.Comp9.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of local row 122 over slot buffer 2

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp9_run (q : PosShare TreeShare) (fw : Buf (Elt F) ((sWv).view.loc (thr d L))) (fb : Buf (Elt F) ((sB5).view.loc (thr d L)))
    (v66_7 : FVec F S16 .f32) (v82_ld : Vec F S1x16 .f32)
    (init : AccT F) (hinit : Good fw fb 122 0 init) :
    iprop(((sWv).view.loc (thr d L) ↦{q} fw) ∗ ((sB5).view.loc (thr d L) ↦{fullShare} fb))
      ⊢ wp frame (wpE (defs₀ (F := F)) 𝒱₀ (thr d L) none) Set.univ
          (Scf.Loop.for k0_t9_loop k0_t9_ok init
            (k0_t9_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 v66_7 v82_ld))
          (fun r => (iprop(⌜Good fw fb 122 50 r⌝ ∗ ((sWv).view.loc (thr d L) ↦{q} fw) ∗ ((sB5).view.loc (thr d L) ↦{fullShare} fb)) : sProp 𝕄)) := by
  iintro ⟨Hw, Hb⟩
  sl_for (inv5 d L q fw fb 122) $$ [Hw Hb]
  case region =>
    intro k acc
    unfold inv5
    iintro ⟨%hG, Hw, Hb⟩
    sl_exec (disch := exact chk_bcast _ _ (by decide) (l_lt _ (fin_lt5 k0_t9_abs.2.1 _) _ (by decide)))
    iterate 10
      rw [SparseCore.vectorLoadIdx_bind (c := thr d L)]
      sl_exec (disch := exact chk_bcast _ _ (by decide) (l_lt _ (fin_lt5 k0_t9_abs.2.1 _) _ (by decide)))
    sl_step
    isplitr
    · ipureintro
      obtain ⟨h0, h1, h2, h3, h4, h5, h6, h7⟩ := hG
      have hk : k.val < 5 := fin_lt5 k0_t9_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 122 0 _ _ _ _ _ ?_ (wb_eq fw _ _ _ 122 _ (by decide) (l_toNat _ hk _ (by decide))) (ld_eq5 fb _ _ _ _ rfl) rfl)
        exact h0
      · repeat (refine good_step fw fb 122 1 _ _ _ _ _ ?_ (wb_eq fw _ _ _ 122 _ (by decide) (l_toNat _ hk _ (by decide))) (ld_eq5 fb _ _ _ _ rfl) rfl)
        exact h1
      · repeat (refine good_step fw fb 122 2 _ _ _ _ _ ?_ (wb_eq fw _ _ _ 122 _ (by decide) (l_toNat _ hk _ (by decide))) (ld_eq5 fb _ _ _ _ rfl) rfl)
        exact h2
      · repeat (refine good_step fw fb 122 3 _ _ _ _ _ ?_ (wb_eq fw _ _ _ 122 _ (by decide) (l_toNat _ hk _ (by decide))) (ld_eq5 fb _ _ _ _ rfl) rfl)
        exact h3
      · repeat (refine good_step fw fb 122 4 _ _ _ _ _ ?_ (wb_eq fw _ _ _ 122 _ (by decide) (l_toNat _ hk _ (by decide))) (ld_eq5 fb _ _ _ _ rfl) rfl)
        exact h4
      · repeat (refine good_step fw fb 122 5 _ _ _ _ _ ?_ (wb_eq fw _ _ _ 122 _ (by decide) (l_toNat _ hk _ (by decide))) (ld_eq5 fb _ _ _ _ rfl) rfl)
        exact h5
      · repeat (refine good_step fw fb 122 6 _ _ _ _ _ ?_ (wb_eq fw _ _ _ 122 _ (by decide) (l_toNat _ hk _ (by decide))) (ld_eq5 fb _ _ _ _ rfl) rfl)
        exact h6
      · repeat (refine good_step fw fb 122 7 _ _ _ _ _ ?_ (wb_eq fw _ _ _ 122 _ (by decide) (l_toNat _ hk _ (by decide))) (ld_eq5 fb _ _ _ _ rfl) rfl)
        exact h7
    isplitl [Hw] <;> iassumption
  · unfold inv5
    isplitl [Hw Hb]
    · isplitr
      · ipureintro; exact hinit
      isplitl [Hw] <;> iassumption
    · iintro %acc ⟨%hG, Hw, Hb⟩
      isplitr
      · ipureintro
        have ht : Scf.trips k0_t9_loop.lb k0_t9_loop.ub k0_t9_loop.st = 5 := by decide +kernel
        rw [ht] at hG; exact hG
      isplitl [Hw] <;> iassumption

end Cert.Proof.K

end
-- ==== Proof.K.Comp10.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of a local row `b` (the row word any 32-bit word whose unsigned value is `b < 128`) over slot buffer 3

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp10_run (q : PosShare TreeShare) (fw : Buf (Elt F) ((sWv).view.loc (thr d L))) (fb : Buf (Elt F) ((sB6).view.loc (thr d L)))
    (bw : BitVec 32) (b : Nat) (hbw : bw.toNat = b) (hb : b < 128)
    (v123 v124 v125 v126 v127 v128 : FVec F S16 .f32)
    (init : AccT F) (hinit : Good fw fb b 0 init) :
    iprop(((sWv).view.loc (thr d L) ↦{q} fw) ∗ ((sB6).view.loc (thr d L) ↦{fullShare} fb))
      ⊢ wp frame (wpE (defs₀ (F := F)) 𝒱₀ (thr d L) none) Set.univ
          (Scf.Loop.for k0_t10_loop k0_t10_ok init
            (k0_t10_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 (broadcast S16 bw) v123 v124 v125 v126 v127 v128))
          (fun r => (iprop(⌜Good fw fb b 50 r⌝ ∗ ((sWv).view.loc (thr d L) ↦{q} fw) ∗ ((sB6).view.loc (thr d L) ↦{fullShare} fb)) : sProp 𝕄)) := by
  have hb' : bw.toNat < 128 := by rw [hbw]; exact hb
  iintro ⟨Hw, Hb⟩
  sl_for (inv6 d L q fw fb b) $$ [Hw Hb]
  case region =>
    intro k acc
    unfold inv6
    iintro ⟨%hG, Hw, Hb⟩
    sl_exec (disch := exact chk_bcast _ _ hb' (l_lt _ (fin_lt5 k0_t10_abs.2.1 _) _ (by decide)))
    iterate 10
      rw [SparseCore.vectorLoadIdx_bind (c := thr d L)]
      sl_exec (disch := exact chk_bcast _ _ hb' (l_lt _ (fin_lt5 k0_t10_abs.2.1 _) _ (by decide)))
    sl_step
    isplitr
    · ipureintro
      obtain ⟨h0, h1, h2, h3, h4, h5, h6, h7⟩ := hG
      have hk : k.val < 5 := fin_lt5 k0_t10_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq6 fb _ _ _ _ rfl) rfl)
        exact h0
      · repeat (refine good_step fw fb b 1 _ _ _ _ _ ?_ (wb_eq fw _ _ _ b _ hbw (l_toNat _ hk _ (by decide))) (ld_eq6 fb _ _ _ _ rfl) rfl)
        exact h1
      · repeat (refine good_step fw fb b 2 _ _ _ _ _ ?_ (wb_eq fw _ _ _ b _ hbw (l_toNat _ hk _ (by decide))) (ld_eq6 fb _ _ _ _ rfl) rfl)
        exact h2
      · repeat (refine good_step fw fb b 3 _ _ _ _ _ ?_ (wb_eq fw _ _ _ b _ hbw (l_toNat _ hk _ (by decide))) (ld_eq6 fb _ _ _ _ rfl) rfl)
        exact h3
      · repeat (refine good_step fw fb b 4 _ _ _ _ _ ?_ (wb_eq fw _ _ _ b _ hbw (l_toNat _ hk _ (by decide))) (ld_eq6 fb _ _ _ _ rfl) rfl)
        exact h4
      · repeat (refine good_step fw fb b 5 _ _ _ _ _ ?_ (wb_eq fw _ _ _ b _ hbw (l_toNat _ hk _ (by decide))) (ld_eq6 fb _ _ _ _ rfl) rfl)
        exact h5
      · repeat (refine good_step fw fb b 6 _ _ _ _ _ ?_ (wb_eq fw _ _ _ b _ hbw (l_toNat _ hk _ (by decide))) (ld_eq6 fb _ _ _ _ rfl) rfl)
        exact h6
      · repeat (refine good_step fw fb b 7 _ _ _ _ _ ?_ (wb_eq fw _ _ _ b _ hbw (l_toNat _ hk _ (by decide))) (ld_eq6 fb _ _ _ _ rfl) rfl)
        exact h7
    isplitl [Hw] <;> iassumption
  · unfold inv6
    isplitl [Hw Hb]
    · isplitr
      · ipureintro; exact hinit
      isplitl [Hw] <;> iassumption
    · iintro %acc ⟨%hG, Hw, Hb⟩
      isplitr
      · ipureintro
        have ht : Scf.trips k0_t10_loop.lb k0_t10_loop.ub k0_t10_loop.st = 5 := by decide +kernel
        rw [ht] at hG; exact hG
      isplitl [Hw] <;> iassumption

end Cert.Proof.K

end
-- ==== Proof.K.Comp11.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of local row 124 over slot buffer 4

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp11_run (q : PosShare TreeShare) (fw : Buf (Elt F) ((sWv).view.loc (thr d L))) (fb : Buf (Elt F) ((sB7).view.loc (thr d L)))

    (init : AccT F) (hinit : Good fw fb 124 0 init) :
    iprop(((sWv).view.loc (thr d L) ↦{q} fw) ∗ ((sB7).view.loc (thr d L) ↦{fullShare} fb))
      ⊢ wp frame (wpE (defs₀ (F := F)) 𝒱₀ (thr d L) none) Set.univ
          (Scf.Loop.for k0_t11_loop k0_t11_ok init
            (k0_t11_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2))
          (fun r => (iprop(⌜Good fw fb 124 50 r⌝ ∗ ((sWv).view.loc (thr d L) ↦{q} fw) ∗ ((sB7).view.loc (thr d L) ↦{fullShare} fb)) : sProp 𝕄)) := by
  iintro ⟨Hw, Hb⟩
  sl_for (inv7 d L q fw fb 124) $$ [Hw Hb]
  case region =>
    intro k acc
    unfold inv7
    iintro ⟨%hG, Hw, Hb⟩
    sl_exec (disch := exact chk_bcast _ _ (by decide) (l_lt _ (fin_lt5 k0_t11_abs.2.1 _) _ (by decide)))
    iterate 10
      rw [SparseCore.vectorLoadIdx_bind (c := thr d L)]
      sl_exec (disch := exact chk_bcast _ _ (by decide) (l_lt _ (fin_lt5 k0_t11_abs.2.1 _) _ (by decide)))
    sl_step
    isplitr
    · ipureintro
      obtain ⟨h0, h1, h2, h3, h4, h5, h6, h7⟩ := hG
      have hk : k.val < 5 := fin_lt5 k0_t11_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 124 0 _ _ _ _ _ ?_ (wb_eq fw _ _ _ 124 _ (by decide) (l_toNat _ hk _ (by decide))) (ld_eq7 fb _ _ _ _ rfl) rfl)
        exact h0
      · repeat (refine good_step fw fb 124 1 _ _ _ _ _ ?_ (wb_eq fw _ _ _ 124 _ (by decide) (l_toNat _ hk _ (by decide))) (ld_eq7 fb _ _ _ _ rfl) rfl)
        exact h1
      · repeat (refine good_step fw fb 124 2 _ _ _ _ _ ?_ (wb_eq fw _ _ _ 124 _ (by decide) (l_toNat _ hk _ (by decide))) (ld_eq7 fb _ _ _ _ rfl) rfl)
        exact h2
      · repeat (refine good_step fw fb 124 3 _ _ _ _ _ ?_ (wb_eq fw _ _ _ 124 _ (by decide) (l_toNat _ hk _ (by decide))) (ld_eq7 fb _ _ _ _ rfl) rfl)
        exact h3
      · repeat (refine good_step fw fb 124 4 _ _ _ _ _ ?_ (wb_eq fw _ _ _ 124 _ (by decide) (l_toNat _ hk _ (by decide))) (ld_eq7 fb _ _ _ _ rfl) rfl)
        exact h4
      · repeat (refine good_step fw fb 124 5 _ _ _ _ _ ?_ (wb_eq fw _ _ _ 124 _ (by decide) (l_toNat _ hk _ (by decide))) (ld_eq7 fb _ _ _ _ rfl) rfl)
        exact h5
      · repeat (refine good_step fw fb 124 6 _ _ _ _ _ ?_ (wb_eq fw _ _ _ 124 _ (by decide) (l_toNat _ hk _ (by decide))) (ld_eq7 fb _ _ _ _ rfl) rfl)
        exact h6
      · repeat (refine good_step fw fb 124 7 _ _ _ _ _ ?_ (wb_eq fw _ _ _ 124 _ (by decide) (l_toNat _ hk _ (by decide))) (ld_eq7 fb _ _ _ _ rfl) rfl)
        exact h7
    isplitl [Hw] <;> iassumption
  · unfold inv7
    isplitl [Hw Hb]
    · isplitr
      · ipureintro; exact hinit
      isplitl [Hw] <;> iassumption
    · iintro %acc ⟨%hG, Hw, Hb⟩
      isplitr
      · ipureintro
        have ht : Scf.trips k0_t11_loop.lb k0_t11_loop.ub k0_t11_loop.st = 5 := by decide +kernel
        rw [ht] at hG; exact hG
      isplitl [Hw] <;> iassumption

end Cert.Proof.K

end
-- ==== Proof.K.Comp12.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of local row 125 over slot buffer 0

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp12_run (q : PosShare TreeShare) (fw : Buf (Elt F) ((sWv).view.loc (thr d L))) (fb : Buf (Elt F) ((sB3).view.loc (thr d L)))
    (v162_5 v162_6 v162_7 : FVec F S16 .f32)
    (init : AccT F) (hinit : Good fw fb 125 0 init) :
    iprop(((sWv).view.loc (thr d L) ↦{q} fw) ∗ ((sB3).view.loc (thr d L) ↦{fullShare} fb))
      ⊢ wp frame (wpE (defs₀ (F := F)) 𝒱₀ (thr d L) none) Set.univ
          (Scf.Loop.for k0_t12_loop k0_t12_ok init
            (k0_t12_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 v162_5 v162_6 v162_7))
          (fun r => (iprop(⌜Good fw fb 125 50 r⌝ ∗ ((sWv).view.loc (thr d L) ↦{q} fw) ∗ ((sB3).view.loc (thr d L) ↦{fullShare} fb)) : sProp 𝕄)) := by
  iintro ⟨Hw, Hb⟩
  sl_for (inv3 d L q fw fb 125) $$ [Hw Hb]
  case region =>
    intro k acc
    unfold inv3
    iintro ⟨%hG, Hw, Hb⟩
    sl_exec (disch := exact chk_bcast _ _ (by decide) (l_lt _ (fin_lt5 k0_t12_abs.2.1 _) _ (by decide)))
    iterate 10
      rw [SparseCore.vectorLoadIdx_bind (c := thr d L)]
      sl_exec (disch := exact chk_bcast _ _ (by decide) (l_lt _ (fin_lt5 k0_t12_abs.2.1 _) _ (by decide)))
    sl_step
    isplitr
    · ipureintro
      obtain ⟨h0, h1, h2, h3, h4, h5, h6, h7⟩ := hG
      have hk : k.val < 5 := fin_lt5 k0_t12_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 125 0 _ _ _ _ _ ?_ (wb_eq fw _ _ _ 125 _ (by decide) (l_toNat _ hk _ (by decide))) (ld_eq3 fb _ _ _ _ rfl) rfl)
        exact h0
      · repeat (refine good_step fw fb 125 1 _ _ _ _ _ ?_ (wb_eq fw _ _ _ 125 _ (by decide) (l_toNat _ hk _ (by decide))) (ld_eq3 fb _ _ _ _ rfl) rfl)
        exact h1
      · repeat (refine good_step fw fb 125 2 _ _ _ _ _ ?_ (wb_eq fw _ _ _ 125 _ (by decide) (l_toNat _ hk _ (by decide))) (ld_eq3 fb _ _ _ _ rfl) rfl)
        exact h2
      · repeat (refine good_step fw fb 125 3 _ _ _ _ _ ?_ (wb_eq fw _ _ _ 125 _ (by decide) (l_toNat _ hk _ (by decide))) (ld_eq3 fb _ _ _ _ rfl) rfl)
        exact h3
      · repeat (refine good_step fw fb 125 4 _ _ _ _ _ ?_ (wb_eq fw _ _ _ 125 _ (by decide) (l_toNat _ hk _ (by decide))) (ld_eq3 fb _ _ _ _ rfl) rfl)
        exact h4
      · repeat (refine good_step fw fb 125 5 _ _ _ _ _ ?_ (wb_eq fw _ _ _ 125 _ (by decide) (l_toNat _ hk _ (by decide))) (ld_eq3 fb _ _ _ _ rfl) rfl)
        exact h5
      · repeat (refine good_step fw fb 125 6 _ _ _ _ _ ?_ (wb_eq fw _ _ _ 125 _ (by decide) (l_toNat _ hk _ (by decide))) (ld_eq3 fb _ _ _ _ rfl) rfl)
        exact h6
      · repeat (refine good_step fw fb 125 7 _ _ _ _ _ ?_ (wb_eq fw _ _ _ 125 _ (by decide) (l_toNat _ hk _ (by decide))) (ld_eq3 fb _ _ _ _ rfl) rfl)
        exact h7
    isplitl [Hw] <;> iassumption
  · unfold inv3
    isplitl [Hw Hb]
    · isplitr
      · ipureintro; exact hinit
      isplitl [Hw] <;> iassumption
    · iintro %acc ⟨%hG, Hw, Hb⟩
      isplitr
      · ipureintro
        have ht : Scf.trips k0_t12_loop.lb k0_t12_loop.ub k0_t12_loop.st = 5 := by decide +kernel
        rw [ht] at hG; exact hG
      isplitl [Hw] <;> iassumption

end Cert.Proof.K

end
-- ==== Proof.K.Comp13.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of a local row `b` (the row word any 32-bit word whose unsigned value is `b < 128`) over slot buffer 1

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp13_run (q : PosShare TreeShare) (fw : Buf (Elt F) ((sWv).view.loc (thr d L))) (fb : Buf (Elt F) ((sB4).view.loc (thr d L)))
    (bw : BitVec 32) (b : Nat) (hbw : bw.toNat = b) (hb : b < 128)
    (v213 v214 v215 v216 v217 v218 : FVec F S16 .f32)
    (init : AccT F) (hinit : Good fw fb b 0 init) :
    iprop(((sWv).view.loc (thr d L) ↦{q} fw) ∗ ((sB4).view.loc (thr d L) ↦{fullShare} fb))
      ⊢ wp frame (wpE (defs₀ (F := F)) 𝒱₀ (thr d L) none) Set.univ
          (Scf.Loop.for k0_t13_loop k0_t13_ok init
            (k0_t13_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 (broadcast S16 bw) v213 v214 v215 v216 v217 v218))
          (fun r => (iprop(⌜Good fw fb b 50 r⌝ ∗ ((sWv).view.loc (thr d L) ↦{q} fw) ∗ ((sB4).view.loc (thr d L) ↦{fullShare} fb)) : sProp 𝕄)) := by
  have hb' : bw.toNat < 128 := by rw [hbw]; exact hb
  iintro ⟨Hw, Hb⟩
  sl_for (inv4 d L q fw fb b) $$ [Hw Hb]
  case region =>
    intro k acc
    unfold inv4
    iintro ⟨%hG, Hw, Hb⟩
    sl_exec (disch := exact chk_bcast _ _ hb' (l_lt _ (fin_lt5 k0_t13_abs.2.1 _) _ (by decide)))
    iterate 10
      rw [SparseCore.vectorLoadIdx_bind (c := thr d L)]
      sl_exec (disch := exact chk_bcast _ _ hb' (l_lt _ (fin_lt5 k0_t13_abs.2.1 _) _ (by decide)))
    sl_step
    isplitr
    · ipureintro
      obtain ⟨h0, h1, h2, h3, h4, h5, h6, h7⟩ := hG
      have hk : k.val < 5 := fin_lt5 k0_t13_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq4 fb _ _ _ _ rfl) rfl)
        exact h0
      · repeat (refine good_step fw fb b 1 _ _ _ _ _ ?_ (wb_eq fw _ _ _ b _ hbw (l_toNat _ hk _ (by decide))) (ld_eq4 fb _ _ _ _ rfl) rfl)
        exact h1
      · repeat (refine good_step fw fb b 2 _ _ _ _ _ ?_ (wb_eq fw _ _ _ b _ hbw (l_toNat _ hk _ (by decide))) (ld_eq4 fb _ _ _ _ rfl) rfl)
        exact h2
      · repeat (refine good_step fw fb b 3 _ _ _ _ _ ?_ (wb_eq fw _ _ _ b _ hbw (l_toNat _ hk _ (by decide))) (ld_eq4 fb _ _ _ _ rfl) rfl)
        exact h3
      · repeat (refine good_step fw fb b 4 _ _ _ _ _ ?_ (wb_eq fw _ _ _ b _ hbw (l_toNat _ hk _ (by decide))) (ld_eq4 fb _ _ _ _ rfl) rfl)
        exact h4
      · repeat (refine good_step fw fb b 5 _ _ _ _ _ ?_ (wb_eq fw _ _ _ b _ hbw (l_toNat _ hk _ (by decide))) (ld_eq4 fb _ _ _ _ rfl) rfl)
        exact h5
      · repeat (refine good_step fw fb b 6 _ _ _ _ _ ?_ (wb_eq fw _ _ _ b _ hbw (l_toNat _ hk _ (by decide))) (ld_eq4 fb _ _ _ _ rfl) rfl)
        exact h6
      · repeat (refine good_step fw fb b 7 _ _ _ _ _ ?_ (wb_eq fw _ _ _ b _ hbw (l_toNat _ hk _ (by decide))) (ld_eq4 fb _ _ _ _ rfl) rfl)
        exact h7
    isplitl [Hw] <;> iassumption
  · unfold inv4
    isplitl [Hw Hb]
    · isplitr
      · ipureintro; exact hinit
      isplitl [Hw] <;> iassumption
    · iintro %acc ⟨%hG, Hw, Hb⟩
      isplitr
      · ipureintro
        have ht : Scf.trips k0_t13_loop.lb k0_t13_loop.ub k0_t13_loop.st = 5 := by decide +kernel
        rw [ht] at hG; exact hG
      isplitl [Hw] <;> iassumption

end Cert.Proof.K

end
-- ==== Proof.K.Comp14.lean ====
import proofs.«206443_g53721450939153_cont_9to1_m_117_36_alg».proof.Proof.K.Iface
import Idealize.ShloMosaic.Lib.Pipeline.Value
import proofs.«206443_g53721450939153_cont_9to1_m_117_36_alg».proof.Proof.K.CompLemmas

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

variable (d : Dev nD) (L : grid0.Coords)

/-! # The compute of local row 127 over slot buffer 2

  Five trips of ten positions: the eight accumulators after the loop are the fifty-step recurrences of row 127's weights
  against the buffer's columns (`Good … 50`); the weights scratch and the buffer are only read. Each trip is run through
  its ten indexed loads of the splat weight (every index check by `chk_bcast`: the row 127 and the position `10·t + dl`
  are in range) and its eighty row loads; the ten positions of each accumulator are then ten applications of
  `good_step`. -/

set_option maxHeartbeats 8000000 in
theorem comp14_run (q : PosShare TreeShare) (fw : Buf (Elt F) ((sWv).view.loc (thr d L))) (fb : Buf (Elt F) ((sB5).view.loc (thr d L))) :
    iprop(((sWv).view.loc (thr d L) ↦{q} fw) ∗ ((sB5).view.loc (thr d L) ↦{fullShare} fb))
      ⊢ wp frame (wpE (defs₀ (F := F)) 𝒱₀ (thr d L) none) Set.univ
          (Scf.Loop.for k0_t14_loop k0_t14_ok (k0_pay1096 (F := F), k0_pay1097 (F := F), k0_pay1098 (F := F), k0_pay1099 (F := F), k0_pay1100 (F := F), k0_pay1101 (F := F), k0_pay1102 (F := F), k0_pay1103 (F := F))
            (k0_t14_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2))
          (fun r => (iprop(⌜Good fw fb 127 50 r⌝ ∗ ((sWv).view.loc (thr d L) ↦{q} fw) ∗ ((sB5).view.loc (thr d L) ↦{fullShare} fb)) : sProp 𝕄)) := by
  iintro ⟨Hw, Hb⟩
  sl_for (inv5 d L q fw fb 127) $$ [Hw Hb]
  case region =>
    intro k acc
    unfold inv5
    iintro ⟨%hG, Hw, Hb⟩
    sl_exec (disch := exact chk_bcast _ _ (by decide) (l_lt _ (fin_lt5 k0_t14_abs.2.1 _) _ (by decide)))
    iterate 10
      rw [SparseCore.vectorLoadIdx_bind (c := thr d L)]
      sl_exec (disch := exact chk_bcast _ _ (by decide) (l_lt _ (fin_lt5 k0_t14_abs.2.1 _) _ (by decide)))
    sl_step
    isplitr
    · ipureintro
      obtain ⟨h0, h1, h2, h3, h4, h5, h6, h7⟩ := hG
      have hk : k.val < 5 := fin_lt5 k0_t14_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 127 0 _ _ _ _ _ ?_ (wb_eq fw _ _ _ 127 _ (by decide) (l_toNat _ hk _ (by decide))) (ld_eq5 fb _ _ _ _ rfl) rfl)
        exact h0
      · repeat (refine good_step fw fb 127 1 _ _ _ _ _ ?_ (wb_eq fw _ _ _ 127 _ (by decide) (l_toNat _ hk _ (by decide))) (ld_eq5 fb _ _ _ _ rfl) rfl)
        exact h1
      · repeat (refine good_step fw fb 127 2 _ _ _ _ _ ?_ (wb_eq fw _ _ _ 127 _ (by decide) (l_toNat _ hk _ (by decide))) (ld_eq5 fb _ _ _ _ rfl) rfl)
        exact h2
      · repeat (refine good_step fw fb 127 3 _ _ _ _ _ ?_ (wb_eq fw _ _ _ 127 _ (by decide) (l_toNat _ hk _ (by decide))) (ld_eq5 fb _ _ _ _ rfl) rfl)
        exact h3
      · repeat (refine good_step fw fb 127 4 _ _ _ _ _ ?_ (wb_eq fw _ _ _ 127 _ (by decide) (l_toNat _ hk _ (by decide))) (ld_eq5 fb _ _ _ _ rfl) rfl)
        exact h4
      · repeat (refine good_step fw fb 127 5 _ _ _ _ _ ?_ (wb_eq fw _ _ _ 127 _ (by decide) (l_toNat _ hk _ (by decide))) (ld_eq5 fb _ _ _ _ rfl) rfl)
        exact h5
      · repeat (refine good_step fw fb 127 6 _ _ _ _ _ ?_ (wb_eq fw _ _ _ 127 _ (by decide) (l_toNat _ hk _ (by decide))) (ld_eq5 fb _ _ _ _ rfl) rfl)
        exact h6
      · repeat (refine good_step fw fb 127 7 _ _ _ _ _ ?_ (wb_eq fw _ _ _ 127 _ (by decide) (l_toNat _ hk _ (by decide))) (ld_eq5 fb _ _ _ _ rfl) rfl)
        exact h7
    isplitl [Hw] <;> iassumption
  · unfold inv5
    isplitl [Hw Hb]
    · isplitr
      · ipureintro; exact good_zero fw fb 127
      isplitl [Hw] <;> iassumption
    · iintro %acc ⟨%hG, Hw, Hb⟩
      isplitr
      · ipureintro
        have ht : Scf.trips k0_t14_loop.lb k0_t14_loop.ub k0_t14_loop.st = 5 := by decide +kernel
        rw [ht] at hG; exact hG
      isplitl [Hw] <;> iassumption

end Cert.Proof.K

end
-- ==== Proof.K.Body.lean ====
import proofs.«206443_g53721450939153_cont_9to1_m_117_36_alg».proof.Proof.K.Iface
import Idealize.ShloMosaic.Lib.Pipeline.Value
import proofs.«206443_g53721450939153_cont_9to1_m_117_36_alg».proof.Proof.K.Ring
import proofs.«206443_g53721450939153_cont_9to1_m_117_36_alg».proof.Proof.K.Trip
import proofs.«206443_g53721450939153_cont_9to1_m_117_36_alg».proof.Proof.K.Values
import proofs.«206443_g53721450939153_cont_9to1_m_117_36_alg».proof.Proof.K.OutRows
import proofs.«206443_g53721450939153_cont_9to1_m_117_36_alg».proof.Proof.K.Comp7
import proofs.«206443_g53721450939153_cont_9to1_m_117_36_alg».proof.Proof.K.Comp8
import proofs.«206443_g53721450939153_cont_9to1_m_117_36_alg».proof.Proof.K.Comp9
import proofs.«206443_g53721450939153_cont_9to1_m_117_36_alg».proof.Proof.K.Comp10
import proofs.«206443_g53721450939153_cont_9to1_m_117_36_alg».proof.Proof.K.Comp11
import proofs.«206443_g53721450939153_cont_9to1_m_117_36_alg».proof.Proof.K.Comp12
import proofs.«206443_g53721450939153_cont_9to1_m_117_36_alg».proof.Proof.K.Comp13
import proofs.«206443_g53721450939153_cont_9to1_m_117_36_alg».proof.Proof.K.Comp14

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

/-! # A tile's whole task

  The two copies into scratch (the tile's rows of the indices and of the padded weights); the index scratch and the table
  split into five slot tokens; the first four gathers; the outer loop by the ring invariant `Inv` (`trip`); then the last
  eight rows — the gathers of rows 124–127 issued while rows 120–123 are computed, each row's inner product by its copy of
  the compute loop and its eight accumulators stored into the output scratch — and the copy of the output scratch to the
  tile's rows of the result. The finished scratch holds the result's rows (`OutGood … 128`: eight more `out_update`s), so
  the copied rows are rows of the one array `Gout` (`out_block_writes`). -/

set_option maxHeartbeats 32000000 in
theorem tile_core : TileCore (F := F) := by
  intro d L q mx mw mt fo hx O W
  simp only [cc0_emb_kernel_eq_skeleton]; unfold cc0_emb_kernel_skel
  unfold tileMem scratchAny semsZero
  iintro ⟨#Hmw, ⟨Hx, Hw, Ht, Ho⟩, ⟨⟨%gx, Hxv⟩, ⟨%gw, Hwv⟩, ⟨%go, Hov⟩, ⟨%g3, Hb3⟩, ⟨%g4, Hb4⟩, ⟨%g5, Hb5⟩, ⟨%g6, Hb6⟩, ⟨%g7, Hb7⟩⟩, ⟨Hd0, Hd1, Hd2, Hd3, Hd4, Hs0, Hs1, Hs2⟩, HO⟩
  sl_exec
  have hxv : View.write (Elt F) (sXv).view gx (tile_core.sl.dma0 d L mx) Finset.univ = xvOf d L mx := View.write_whole_univ _ _ _
  have hwv : View.write (Elt F) (sWv).view gw (tile_core.sl.dma0_1 d L mw) Finset.univ = wvOf d L mw := View.write_whole_univ _ _ _
  ihave Hxv := (Entails.of_eq (congrArg (fun f => ((sXv).view.loc (thr d L) ↦{fullShare} f : sProp 𝕄)) hxv)) $$ Hxv
  ihave Hwv := (Entails.of_eq (congrArg (fun f => ((sWv).view.loc (thr d L) ↦{fullShare} f : sProp 𝕄)) hwv)) $$ Hwv
  ihave Hxt := (toks6_split (F := F) fullShare) $$ Hxv
  icases Hxt with ⟨Hx0, Hx1, Hx2, Hx3, Hx4, Hxrem⟩
  ihave Htt := (toks6_split (F := F) q) $$ Ht
  icases Htt with ⟨Ht0, Ht1, Ht2, Ht3, Ht4, Htrem⟩
  have hin := hin_row d L mx hx
  sl_exec
  sl_for (Inv d L q mx mw mt O W) $$ [Hwv Hov Hd0 Hx0 Ht0 Hb3 Hd1 Hx1 Ht1 Hb4 Hd2 Hx2 Ht2 Hb5 Hd3 Hx3 Ht3 Hb6 Hd4 Hx4 Ht4 Hb7 HO]
  case region =>
    intro k acc
    exact trip d L q mx mw mt hx O W k acc
  · unfold Inv FlightOf IdleOf OutPart
    isplitr; · iexact Hmw
    isplitl [Hwv]; · iexact Hwv
    isplitl [Hov]
    · iexists go; isplitr
      · ipureintro; intro b col hb; omega
      iexact Hov
    isplitl [Hd0 Hx0 Ht0 Hb3]
    · iexists g3, (tile_core.sl.gather0 d L mx mt hin), ![0, 0], inb_S128x50_S1x50_0_0
      isplitr; · ipureintro; exact rows_of_gather d L mx mt ![0, 0] inb_S128x50_S1x50_0_0 (5 * 0) (by decide) rfl _ _ _
      isplitl [Hd0]; · iexact Hd0
      isplitl [Hx0]; · iexact Hx0
      isplitl [Ht0]; · iexact Ht0
      iexact Hb3
    isplitl [Hd1 Hx1 Ht1 Hb4]
    · iexists g4, (tile_core.sl.gather1 d L mx mt hin), ![1, 0], inb_S128x50_S1x50_1_0
      isplitr; · ipureintro; exact rows_of_gather d L mx mt ![1, 0] inb_S128x50_S1x50_1_0 (5 * 0 + 1) (by decide) rfl _ _ _
      isplitl [Hd1]; · iexact Hd1
      isplitl [Hx1]; · iexact Hx1
      isplitl [Ht1]; · iexact Ht1
      iexact Hb4
    isplitl [Hd2 Hx2 Ht2 Hb5]
    · iexists g5, (tile_core.sl.gather2 d L mx mt hin), ![2, 0], inb_S128x50_S1x50_2_0
      isplitr; · ipureintro; exact rows_of_gather d L mx mt ![2, 0] inb_S128x50_S1x50_2_0 (5 * 0 + 2) (by decide) rfl _ _ _
      isplitl [Hd2]; · iexact Hd2
      isplitl [Hx2]; · iexact Hx2
      isplitl [Ht2]; · iexact Ht2
      iexact Hb5
    isplitl [Hd3 Hx3 Ht3 Hb6]
    · iexists g6, (tile_core.sl.gather3 d L mx mt hin), ![3, 0], inb_S128x50_S1x50_3_0
      isplitr; · ipureintro; exact rows_of_gather d L mx mt ![3, 0] inb_S128x50_S1x50_3_0 (5 * 0 + 3) (by decide) rfl _ _ _
      isplitl [Hd3]; · iexact Hd3
      isplitl [Hx3]; · iexact Hx3
      isplitl [Ht3]; · iexact Ht3
      iexact Hb6
    isplitl [Hb7 Hd4 Hx4 Ht4]
    · isplitl [Hb7]; · iexists g7; iexact Hb7
      isplitl [Hd4]; · iexact Hd4
      isplitl [Hx4]; · iexact Hx4
      iexact Ht4
    iexists (insert (SemLoc.dma cc0_scoped1.sem, (default : HIx 1)) (insert (SemLoc.dma cc0_scoped0.sem, (default : HIx 1)) W)); isplitr
    · ipureintro; intro p hp
      simp only [Finset.mem_insert] at hp
      rcases hp with rfl | rfl | hp
      · exact .inr rfl
      · exact .inr rfl
      · exact .inl hp
    iexact HO
  have ht : Scf.trips k0_t1_loop.lb k0_t1_loop.ub k0_t1_loop.st = 24 := by decide +kernel
  rw [ht]
  iintro %acc HI
  unfold Inv FlightOf IdleOf OutPart
  icases HI with ⟨-, Hwv, ⟨%fo', %hfo, Hov⟩, ⟨%gp0, %P0, %of0, %ho0, %hP0, Hf0, Hxr0, Htr0, Hbr0⟩, ⟨%gp1, %P1, %of1, %ho1, %hP1, Hf1, Hxr1, Htr1, Hbr1⟩,
    ⟨%gp2, %P2, %of2, %ho2, %hP2, Hf2, Hxr2, Htr2, Hbr2⟩, ⟨%gp3, %P3, %of3, %ho3, %hP3, Hf3, Hxr3, Htr3, Hbr3⟩, ⟨⟨%g7', Hb7⟩, Hd4, Hx4, Ht4⟩, %W', %hW', HO⟩
  sl_exec
  rw [wp_bind]
  iapply (wp_wand_r frame (wpE (defs₀ (F := F)) 𝒱₀ (thr d L) none) Set.univ)
  isplitl [Hwv Hbr0]
  · iapply (comp7_run d L fullShare (wvOf d L mw) _ _ _ (good_zero _ _ _))
    isplitl [Hwv] <;> iassumption
  iintro %e0 ⟨%hE0, Hwv, Hbr0⟩
  sl_exec
  rw [wp_bind]
  iapply (wp_wand_r frame (wpE (defs₀ (F := F)) 𝒱₀ (thr d L) none) Set.univ)
  isplitl [Hwv Hbr1]
  · iapply (comp8_run d L fullShare (wvOf d L mw) _ 121#32 121 rfl (by decide) _ _ _ _ _ (good_zero _ _ _))
    isplitl [Hwv] <;> iassumption
  iintro %e1 ⟨%hE1, Hwv, Hbr1⟩
  sl_exec
  rw [wp_bind]
  iapply (wp_wand_r frame (wpE (defs₀ (F := F)) 𝒱₀ (thr d L) none) Set.univ)
  isplitl [Hwv Hbr2]
  · iapply (comp9_run d L fullShare (wvOf d L mw) _ _ _ _ (good_zero _ _ _))
    isplitl [Hwv] <;> iassumption
  iintro %e2 ⟨%hE2, Hwv, Hbr2⟩
  sl_exec
  rw [wp_bind]
  iapply (wp_wand_r frame (wpE (defs₀ (F := F)) 𝒱₀ (thr d L) none) Set.univ)
  isplitl [Hwv Hbr3]
  · iapply (comp10_run d L fullShare (wvOf d L mw) _ 123#32 123 rfl (by decide) _ _ _ _ _ _ _ (good_zero _ _ _))
    isplitl [Hwv] <;> iassumption
  iintro %e3 ⟨%hE3, Hwv, Hbr3⟩
  sl_exec
  rw [wp_bind]
  iapply (wp_wand_r frame (wpE (defs₀ (F := F)) 𝒱₀ (thr d L) none) Set.univ)
  isplitl [Hwv Hb7]
  · iapply (comp11_run d L fullShare (wvOf d L mw) _ _ (good_zero _ _ _))
    isplitl [Hwv] <;> iassumption
  iintro %e4 ⟨%hE4, Hwv, Hb7⟩
  sl_exec
  rw [wp_bind]
  iapply (wp_wand_r frame (wpE (defs₀ (F := F)) 𝒱₀ (thr d L) none) Set.univ)
  isplitl [Hwv Hbr0]
  · iapply (comp12_run d L fullShare (wvOf d L mw) _ _ _ _ _ (good_zero _ _ _))
    isplitl [Hwv] <;> iassumption
  iintro %e5 ⟨%hE5, Hwv, Hbr0⟩
  sl_exec
  rw [wp_bind]
  iapply (wp_wand_r frame (wpE (defs₀ (F := F)) 𝒱₀ (thr d L) none) Set.univ)
  isplitl [Hwv Hbr1]
  · iapply (comp13_run d L fullShare (wvOf d L mw) _ 126#32 126 rfl (by decide) _ _ _ _ _ _ _ (good_zero _ _ _))
    isplitl [Hwv] <;> iassumption
  iintro %e6 ⟨%hE6, Hwv, Hbr1⟩
  sl_exec
  rw [wp_bind]
  iapply (wp_wand_r frame (wpE (defs₀ (F := F)) 𝒱₀ (thr d L) none) Set.univ)
  isplitl [Hwv Hbr2]
  · iapply (comp14_run d L fullShare (wvOf d L mw) _)
    isplitl [Hwv] <;> iassumption
  iintro %e7 ⟨%hE7, Hwv, Hbr2⟩
  sl_exec
  have c0 := good_spec d L mx mw mt _ _ 120 e0 (fun l hl => wv_val d L mw _ l (by omega) (by omega)) (fun l col hl hc => buf_val3 d L mx mt _ P0 hP0 _ l col hl hc) hE0
  have c1 := good_spec d L mx mw mt _ _ 121 e1 (fun l hl => wv_val d L mw _ l (by omega) (by omega)) (fun l col hl hc => buf_val4 d L mx mt _ P1 hP1 _ l col hl hc) hE1
  have c2 := good_spec d L mx mw mt _ _ 122 e2 (fun l hl => wv_val d L mw _ l (by omega) (by omega)) (fun l col hl hc => buf_val5 d L mx mt _ P2 hP2 _ l col hl hc) hE2
  have c3 := good_spec d L mx mw mt _ _ 123 e3 (fun l hl => wv_val d L mw _ l (by omega) (by omega)) (fun l col hl hc => buf_val6 d L mx mt _ P3 hP3 _ l col hl hc) hE3
  have hQ4 : RowsOf d L mx mt 124 (tile_core.sl.gather0_1 d L mx mt hin) := rows_of_gather d L mx mt ![124, 0] inb_S128x50_S1x50_124_0 124 (by decide) rfl _ _ _
  have c4 := good_spec d L mx mw mt _ _ 124 e4 (fun l hl => wv_val d L mw _ l (by omega) (by omega)) (fun l col hl hc => buf_val7 d L mx mt _ _ hQ4 _ l col hl hc) hE4
  have hQ5 : RowsOf d L mx mt 125 (tile_core.sl.gather16 d L mx mt hin) := rows_of_gather d L mx mt ![125, 0] inb_S128x50_S1x50_125_0 125 (by decide) rfl _ _ _
  have c5 := good_spec d L mx mw mt _ _ 125 e5 (fun l hl => wv_val d L mw _ l (by omega) (by omega)) (fun l col hl hc => buf_val3 d L mx mt _ _ hQ5 ((sB3).view.writes (Elt F) (sB3).view.junk [⟨Rect.whole S50x128, P0⟩]) l col hl hc) hE5
  have hQ6 : RowsOf d L mx mt 126 (tile_core.sl.gather16_1 d L mx mt hin) := rows_of_gather d L mx mt ![126, 0] inb_S128x50_S1x50_126_0 126 (by decide) rfl _ _ _
  have c6 := good_spec d L mx mw mt _ _ 126 e6 (fun l hl => wv_val d L mw _ l (by omega) (by omega)) (fun l col hl hc => buf_val4 d L mx mt _ _ hQ6 ((sB4).view.writes (Elt F) (sB4).view.junk [⟨Rect.whole S50x128, P1⟩]) l col hl hc) hE6
  have hQ7 : RowsOf d L mx mt 127 (tile_core.sl.gather16_2 d L mx mt hin) := rows_of_gather d L mx mt ![127, 0] inb_S128x50_S1x50_127_0 127 (by decide) rfl _ _ _
  have c7 := good_spec d L mx mw mt _ _ 127 e7 (fun l hl => wv_val d L mw _ l (by omega) (by omega)) (fun l col hl hc => buf_val5 d L mx mt _ _ hQ7 ((sB5).view.writes (Elt F) (sB5).view.junk [⟨Rect.whole S50x128, P2⟩]) l col hl hc) hE7
  have q0 := out_update (hsc := Gen.shapeCasts_S16_S1x16) d L mx mw mt 120 fo' e0 ![120, 0] ![120, 16] ![120, 32] ![120, 48] ![120, 64] ![120, 80] ![120, 96] ![120, 112] (by decide) (by decide) (by decide) (by decide) (by decide) (by decide) (by decide) (by decide) rfl rfl rfl rfl rfl rfl rfl rfl hfo (by decide) c0.1 c0.2.1 c0.2.2.1 c0.2.2.2.1 c0.2.2.2.2.1 c0.2.2.2.2.2.1 c0.2.2.2.2.2.2.1 c0.2.2.2.2.2.2.2
  have q1 := out_update (hsc := Gen.shapeCasts_S16_S1x16) d L mx mw mt 121 _ e1 ![121, 0] ![121, 16] ![121, 32] ![121, 48] ![121, 64] ![121, 80] ![121, 96] ![121, 112] (by decide) (by decide) (by decide) (by decide) (by decide) (by decide) (by decide) (by decide) rfl rfl rfl rfl rfl rfl rfl rfl q0 (by decide) c1.1 c1.2.1 c1.2.2.1 c1.2.2.2.1 c1.2.2.2.2.1 c1.2.2.2.2.2.1 c1.2.2.2.2.2.2.1 c1.2.2.2.2.2.2.2
  have q2 := out_update (hsc := Gen.shapeCasts_S16_S1x16) d L mx mw mt 122 _ e2 ![122, 0] ![122, 16] ![122, 32] ![122, 48] ![122, 64] ![122, 80] ![122, 96] ![122, 112] (by decide) (by decide) (by decide) (by decide) (by decide) (by decide) (by decide) (by decide) rfl rfl rfl rfl rfl rfl rfl rfl q1 (by decide) c2.1 c2.2.1 c2.2.2.1 c2.2.2.2.1 c2.2.2.2.2.1 c2.2.2.2.2.2.1 c2.2.2.2.2.2.2.1 c2.2.2.2.2.2.2.2
  have q3 := out_update (hsc := Gen.shapeCasts_S16_S1x16) d L mx mw mt 123 _ e3 ![123, 0] ![123, 16] ![123, 32] ![123, 48] ![123, 64] ![123, 80] ![123, 96] ![123, 112] (by decide) (by decide) (by decide) (by decide) (by decide) (by decide) (by decide) (by decide) rfl rfl rfl rfl rfl rfl rfl rfl q2 (by decide) c3.1 c3.2.1 c3.2.2.1 c3.2.2.2.1 c3.2.2.2.2.1 c3.2.2.2.2.2.1 c3.2.2.2.2.2.2.1 c3.2.2.2.2.2.2.2
  have q4 := out_update (hsc := Gen.shapeCasts_S16_S1x16) d L mx mw mt 124 _ e4 ![124, 0] ![124, 16] ![124, 32] ![124, 48] ![124, 64] ![124, 80] ![124, 96] ![124, 112] (by decide) (by decide) (by decide) (by decide) (by decide) (by decide) (by decide) (by decide) rfl rfl rfl rfl rfl rfl rfl rfl q3 (by decide) c4.1 c4.2.1 c4.2.2.1 c4.2.2.2.1 c4.2.2.2.2.1 c4.2.2.2.2.2.1 c4.2.2.2.2.2.2.1 c4.2.2.2.2.2.2.2
  have q5 := out_update (hsc := Gen.shapeCasts_S16_S1x16) d L mx mw mt 125 _ e5 ![125, 0] ![125, 16] ![125, 32] ![125, 48] ![125, 64] ![125, 80] ![125, 96] ![125, 112] (by decide) (by decide) (by decide) (by decide) (by decide) (by decide) (by decide) (by decide) rfl rfl rfl rfl rfl rfl rfl rfl q4 (by decide) c5.1 c5.2.1 c5.2.2.1 c5.2.2.2.1 c5.2.2.2.2.1 c5.2.2.2.2.2.1 c5.2.2.2.2.2.2.1 c5.2.2.2.2.2.2.2
  have q6 := out_update (hsc := Gen.shapeCasts_S16_S1x16) d L mx mw mt 126 _ e6 ![126, 0] ![126, 16] ![126, 32] ![126, 48] ![126, 64] ![126, 80] ![126, 96] ![126, 112] (by decide) (by decide) (by decide) (by decide) (by decide) (by decide) (by decide) (by decide) rfl rfl rfl rfl rfl rfl rfl rfl q5 (by decide) c6.1 c6.2.1 c6.2.2.1 c6.2.2.2.1 c6.2.2.2.2.1 c6.2.2.2.2.2.1 c6.2.2.2.2.2.2.1 c6.2.2.2.2.2.2.2
  have q7 := out_update (hsc := Gen.shapeCasts_S16_S1x16) d L mx mw mt 127 _ e7 ![127, 0] ![127, 16] ![127, 32] ![127, 48] ![127, 64] ![127, 80] ![127, 96] ![127, 112] (by decide) (by decide) (by decide) (by decide) (by decide) (by decide) (by decide) (by decide) rfl rfl rfl rfl rfl rfl rfl rfl q6 (by decide) c7.1 c7.2.1 c7.2.2.1 c7.2.2.2.1 c7.2.2.2.2.1 c7.2.2.2.2.2.1 c7.2.2.2.2.2.2.1 c7.2.2.2.2.2.2.2
  have hblk := out_block_writes d L mx mw mt _ fo q7
  sl_step
  ihave Ho := (Entails.of_eq (pointsTo_congr hblk)) $$ Ho
  isplitl [Hx Hw Htr0 Htr1 Htr2 Htr3 Ht4 Htrem Ho]
  · isplitl [Hx]; · iexact Hx
    isplitl [Hw]; · iexact Hw
    isplitl [Htr0 Htr1 Htr2 Htr3 Ht4 Htrem]
    · iapply (toks6_join (F := F) q)
      isplitl [Htr0]; · iexact Htr0
      isplitl [Htr1]; · iexact Htr1
      isplitl [Htr2]; · iexact Htr2
      isplitl [Htr3]; · iexact Htr3
      isplitl [Ht4]; · iexact Ht4
      iexact Htrem
    iexact Ho
  isplitl [Hxr0 Hxr1 Hxr2 Hxr3 Hx4 Hxrem Hwv Hov Hbr0 Hbr1 Hbr2 Hbr3 Hb7]
  · isplitl [Hxr0 Hxr1 Hxr2 Hxr3 Hx4 Hxrem]
    · iexists _
      iapply (toks6_join (F := F) fullShare)
      isplitl [Hxr0]; · iexact Hxr0
      isplitl [Hxr1]; · iexact Hxr1
      isplitl [Hxr2]; · iexact Hxr2
      isplitl [Hxr3]; · iexact Hxr3
      isplitl [Hx4]; · iexact Hx4
      iexact Hxrem
    isplitl [Hwv]; · iexists _; iexact Hwv
    isplitl [Hov]; · iexists _; iexact Hov
    isplitl [Hbr0]; · iexists _; iexact Hbr0
    isplitl [Hbr1]; · iexists _; iexact Hbr1
    isplitl [Hbr2]; · iexists _; iexact Hbr2
    isplitl [Hbr3]; · iexists _; iexact Hbr3
    iexists _; iexact Hb7
  isplitl [Hf0 Hf1 Hf2 Hf3 Hd4 Hs0 Hs1 Hs2]
  · isplitl [Hf0]; · iexact Hf0
    isplitl [Hf1]; · iexact Hf1
    isplitl [Hf2]; · iexact Hf2
    isplitl [Hf3]; · iexact Hf3
    isplitl [Hd4]; · iexact Hd4
    isplitl [Hs0]; · iexact Hs0
    isplitl [Hs1]; · iexact Hs1
    iexact Hs2
  iexists (insert (SemLoc.dma cc0_scoped2.sem, (default : HIx 1)) (insert (SemLoc.dma cc0_scratch10.sem, (default : HIx 1)) (insert (SemLoc.dma cc0_scratch9.sem, (default : HIx 1)) (insert (SemLoc.dma cc0_scratch8.sem, (default : HIx 1)) (insert (SemLoc.dma cc0_scratch12.sem, (default : HIx 1)) (insert (SemLoc.dma cc0_scratch11.sem, (default : HIx 1)) (insert (SemLoc.dma cc0_scratch10.sem, (default : HIx 1)) (insert (SemLoc.dma cc0_scratch9.sem, (default : HIx 1)) (insert (SemLoc.dma cc0_scratch8.sem, (default : HIx 1)) W'))))))))); isplitr
  · ipureintro; intro p hp
    simp only [Finset.mem_insert] at hp
    rcases hp with rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact hW' p hp
  iexact HO

end Cert.Proof.K

end
-- ==== Proof.K.Wrap.lean ====
/-
  A tile's task as the launch hands it over, from the task over the tile's own scratch: the vector subcore's scoped
  storage is its eight scratch buffers and eight DMA semaphores and a remainder that is carried as a frame; the arrays
  the TensorCore names are the ones the tile's memrefs address; what the tile owes leaves it free to wait on its own
  semaphores.
-/
import proofs.«206443_g53721450939153_cont_9to1_m_117_36_alg».proof.Proof.K.CoreSpec

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

/-! ## The eight DMA semaphores among the subcore's scoped cells -/

/-- The eight DMA semaphores, as semaphore locations. -/
abbrev Sm8 : Finset (SemLoc sig) :=
  {SemLoc.dma cc0_scratch8.sem, SemLoc.dma cc0_scratch9.sem, SemLoc.dma cc0_scratch10.sem, SemLoc.dma cc0_scratch11.sem, SemLoc.dma cc0_scratch12.sem,
    SemLoc.dma cc0_scoped0.sem, SemLoc.dma cc0_scoped1.sem, SemLoc.dma cc0_scoped2.sem}

/-- A thread's cell at a semaphore location. -/
def cellAt (thr : Thread nD τ) : SemLoc sig ↪ GSem nD τ sig := ⟨fun sm => (thr, sm), fun _ _ e => (Prod.mk.inj e).2⟩

omit [FloatOps F] in
theorem Sm8_scoped : ∀ sm ∈ (Sm8 : Finset (SemLoc sig)), sm.isScoped .scVector = true := by decide

omit [FloatOps F] in
theorem Sm8_sub (d : Dev nD) (L : grid0.Coords) : Sm8.map (cellAt (thr d L)) ⊆ ownCells (thr d L) := by
  intro g hg
  obtain ⟨sm, hsm, rfl⟩ := Finset.mem_map.mp hg
  exact mem_ownCells.mpr ⟨rfl, Sm8_scoped sm hsm⟩

/-- The subcore's scoped semaphores at zero: the eight, and the rest. -/
abbrev semsRest (d : Dev nD) (L : grid0.Coords) : sProp 𝕄 :=
  bigSep (ownCells (thr d L) \ Sm8.map (cellAt (thr d L))) fun g => semVal g 0

omit [FloatOps F] in
theorem ownSems0_V (d : Dev nD) (L : grid0.Coords) : (ownSems0 (thr d L) : sProp 𝕄) = iprop(semsZero d L ∗ semsRest d L) := by
  unfold SparseCore.Cfg.ownSems0 semsZero
  refine (SparseCore.bigSep_sdiff_split' (Sm8_sub d L)).trans ?_
  congr 1
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The eight scratch buffers among the subcore's own -/

/-- The eight scratch buffers, as the kernel names them. -/
abbrev R8 : Finset (Ref sig .scVector) :=
  {cc0_scratch0, cc0_scratch1, cc0_scratch2, cc0_scratch3, cc0_scratch4, cc0_scratch5, cc0_scratch6, cc0_scratch7}

/-- A vector subcore's buffer at a name of the kernel's. -/
def refAt (c : Fin τ.nSC) (i : Fin τ.nSub) : Ref sig .scVector ↪ DevRef τ sig := ⟨(Proc.scVector c i).devRef, Proc.devRef_injective _⟩

omit [FloatOps F] in
theorem R8_sub (c : Fin τ.nSC) (i : Fin τ.nSub) : R8.map (refAt c i) ⊆ ownRefs (τ := τ) (.scVector c i) := by
  intro b hb
  obtain ⟨r, hr, rfl⟩ := Finset.mem_map.mp hb
  refine SparseCore.Cfg.mem_ownRefs_of_owner (p := Proc.scVector c i) ?_
  simp only [Finset.mem_insert, Finset.mem_singleton] at hr
  rcases hr with rfl | rfl | rfl | rfl | rfl | rfl | rfl | rfl <;> rfl

/-- The subcore's own buffers: the eight, and the rest. -/
abbrev bufsRest (d : Dev nD) (L : grid0.Coords) : sProp 𝕄 :=
  bigSep (ownRefs (τ := τ) (.scVector (cV L) (jV L)) \ R8.map (refAt (cV L) (jV L))) fun b => iprop(∃ f, ((d, b) : Loc nD τ sig) ↦{fullShare} f)

omit [FloatOps F] in
theorem ownBufs_V (d : Dev nD) (L : grid0.Coords) : (ownBufs (thr d L) : sProp 𝕄) = iprop(scratchAny d L ∗ bufsRest d L) := by
  unfold SparseCore.Cfg.ownBufs scratchAny
  refine (SparseCore.bigSep_sdiff_split' (R8_sub (cV L) (jV L))).trans ?_
  congr 1
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The arrays, by either name -/

omit [FloatOps F] in
theorem tileMem_eq (d : Dev nD) (L : grid0.Coords) (q : PosShare TreeShare)
    (mx : Buf (Elt F) (xLoc d)) (mw : Buf (Elt F) (wLoc d)) (mt : Buf (Elt F) (tLoc d)) (fo : Buf (Elt F) (oLoc d)) :
    (tileMem d L q mx mw mt fo : sProp 𝕄) = tileIn d L q mx mw mt fo := rfl

/-! ## The task -/

theorem tileSpec_of_core (hC : TileCore (F := F)) : TileSpec (F := F) := by
  intro hF d L q mx mw mt fo hx O W hO
  rw [(K (F := F)).scopedBufs_V hF d (cV L) (jV L), SparseCore.Cfg.scopedSems0_V (Val := Elt F) d (cV L) (jV L), ownSems0_V, ownBufs_V,
    ← tileMem_eq, ← tileMem_eq]
  refine BI.Entails.trans ?pre (((sep_mono_left (hC d L q mx mw mt fo hx O W)).trans
    (wp_frame_r frame _ _ (R := iprop(bufsRest d L ∗ semsRest d L)))).trans (wp_mono frame _ _ fun _ => ?post))
  case pre =>
    show (_ : sProp 𝕄) ⊢ _
    iintro ⟨#Hlv, -, Hmem, ⟨Hscr, Hbufs⟩, ⟨Hsem, Hsems⟩, HO⟩
    ihave Hmw := ((K (F := F)).mayWaits_none (thr := thr d L) hO) $$ Hlv
    isplitl [Hmw Hmem Hscr Hsem HO]
    · isplitl [Hmw]; · iexact Hmw
      isplitl [Hmem]; · iexact Hmem
      isplitl [Hscr]; · iexact Hscr
      isplitl [Hsem]; · iexact Hsem
      iexact HO
    · isplitl [Hbufs]; · iexact Hbufs
      iexact Hsems
  case post =>
    show (_ : sProp 𝕄) ⊢ _
    iintro ⟨⟨Hmem, Hscr, Hsem, HW⟩, Hbufs, Hsems⟩
    isplitl [Hmem]; · iexact Hmem
    isplitl [Hscr Hbufs]
    · isplitl [Hscr]; · iexact Hscr
      iexact Hbufs
    isplitl [Hsem Hsems]
    · isplitl [Hsem]; · iexact Hsem
      iexact Hsems
    iexact HW

end Cert.Proof.K

end
-- ==== Proof.K.LaunchPay.lean ====
/-
  The launch of the embedding-bag kernel, 1: what the call's handshakes carry. The thirty-two tiles' row blocks of the
  result are pairwise disjoint and cover it (tile `(c, s)` owns rows `[256·s + 128·c, +128)`); the three arrays that are
  only read are shared out — the full share halved between the two SparseCores, each half cut into sixteen read tokens
  and a remainder that stays with the split —; a SparseCore's operands split into its tiles' and the tiles' results join
  back, every tile's rows rows of the one whole-array function.
-/
import proofs.«206443_g53721450939153_cont_9to1_m_117_36_alg».proof.Proof.K.Iface

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The grid, and the result's rows by tile -/

theorem bound_zero : grid0.bound 0 = 2 := rfl
theorem bound_one : grid0.bound 1 = 16 := rfl
theorem nCore_zero : (K (F := F)).nCore 0 = 2 := rfl
theorem nSub_zero : (K (F := F)).nSub 0 = 16 := rfl

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The same from the two numbers. -/
abbrev pt (c : Fin 2) (s : Fin 16) : grid0.Coords := coordsV (Fin.cast bound_zero.symm c) (Fin.cast bound_one.symm s)

/-- The elements of the result tile `L` writes: rows `[256·s + 128·c, +128)`, every column. -/
abbrev oSet (L : grid0.Coords) : Finset S4096x128.Idx := (oSl L).view.set

theorem mem_oSet (L : grid0.Coords) (i : S4096x128.Idx) :
    i ∈ oSet L ↔ 256 * (L 1).val + 128 * (L 0).val ≤ (i 0).val ∧ (i 0).val < 256 * (L 1).val + 128 * (L 0).val + 128 := by
  show i ∈ ((View.whole (main_v1_scv : Ref sig .scVector)).slice (Rect.unit (s := S4096x128) (k0_off1088 L) S128x128.size (k0_off1088_inb L))).set ↔ _
  rw [View.set_slice_whole, Rect.mem_set_unit, k0_off1088_eq]
  constructor
  · intro h; have := h 0; simpa using this
  · intro h a
    match a with
    | 0 => simpa using h
    | 1 => have := (i 1).isLt; simp; exact this

/-- Different tiles write different rows. -/
theorem oSet_disjoint {c c' : Fin 2} {s s' : Fin 16} (h : c ≠ c' ∨ s ≠ s') : Disjoint (oSet (pt c s)) (oSet (pt c' s')) := by
  refine Finset.disjoint_left.mpr fun i h1 h2 => ?_
  rw [mem_oSet] at h1 h2
  have e0 : ((pt c s) 0).val = c.val := rfl
  have e1 : ((pt c s) 1).val = s.val := rfl
  have e0' : ((pt c' s') 0).val = c'.val := rfl
  have e1' : ((pt c' s') 1).val = s'.val := rfl
  rw [e0, e1] at h1; rw [e0', e1'] at h2
  have hc := c.isLt; have hc' := c'.isLt
  rcases h with h | h
  · exact h (Fin.ext (by omega))
  · exact h (Fin.ext (by omega))

/-- Every row is some tile's. -/
theorem oSet_cover (i : S4096x128.Idx) : ∃ (c : Fin 2) (s : Fin 16), i ∈ oSet (pt c s) := by
  have hi : (i 0).val < 4096 := (i 0).isLt
  refine ⟨⟨((i 0).val % 256) / 128, by omega⟩, ⟨(i 0).val / 256, by omega⟩, ?_⟩
  rw [mem_oSet]
  show 256 * ((i 0).val / 256) + 128 * (((i 0).val % 256) / 128) ≤ (i 0).val ∧ (i 0).val < 256 * ((i 0).val / 256) + 128 * (((i 0).val % 256) / 128) + 128
  omega

/-- The rows of SparseCore `c`: its sixteen tiles'. -/
abbrev coreSet (c : Fin 2) : Finset S4096x128.Idx := (Finset.univ : Finset (Fin 16)).biUnion fun s => oSet (pt c s)

theorem coreSet_disjoint : ∀ c ∈ (Finset.univ : Finset (Fin 2)), ∀ c' ∈ (Finset.univ : Finset (Fin 2)), c ≠ c' → Disjoint (coreSet c) (coreSet c') := by
  intro c _ c' _ h
  refine (Finset.disjoint_biUnion_left _ _ _).mpr fun s _ => (Finset.disjoint_biUnion_right _ _ _).mpr fun s' _ => oSet_disjoint (.inl h)

theorem coreSet_cover : (Finset.univ : Finset (Fin 2)).biUnion coreSet = Finset.univ := by
  ext i
  simp only [Finset.mem_biUnion, Finset.mem_univ, true_and, iff_true]
  exact oSet_cover i

/-! ## The shares of the three arrays that are only read -/

/-- SparseCore 0 reads at the left half of the full share, SparseCore 1 at the right half. -/
def qC (c : ℕ) : PosShare TreeShare := if c = 0 then (fullShare : PosShare TreeShare).left else (fullShare : PosShare TreeShare).right
/-- Tile `i` of a SparseCore reads at the `i`-th token of its SparseCore's share. -/
abbrev qT (c : ℕ) (i : Fin 16) : PosShare TreeShare := Transfers.shareTok (qC c) 16 i
/-- What of a SparseCore's share no tile is handed. -/
abbrev qR (c : ℕ) : PosShare TreeShare := Transfers.shareDrop (qC c) 16

theorem qC_zero : qC 0 = (fullShare : PosShare TreeShare).left := if_pos rfl
theorem qC_one : qC 1 = (fullShare : PosShare TreeShare).right := if_neg Nat.one_ne_zero

variable [FloatOps F]

/-- the padded weights, as @main computes them -/
abbrev padW (w : FVec F S4096x50 .f32) : FVec F S4096x64 .f32 :=
  pad S4096x64 ![0, 0] ![0, 14] ![0, 0] w (sitofp .f32 (constantI S_ 32 0#32)) pads_S4096x50_S4096x64_000_0140 h_S_

variable (m : (ℓ : Loc nD τ sig) → Buf (Elt F) ℓ)

/-- The weights argument, and the padded weights at the launch memory. -/
abbrev aLoc (d : Dev nD) : Loc nD τ sig := (SparseCore.T d).loc main_arg1
abbrev pw (d : Dev nD) : Buf (Elt F) (wLoc d) := padW (m (aLoc d))
/-- The result every tile's rows are rows of, at the launch memory. -/
abbrev gout (d : Dev nD) : Buf (Elt F) (oLoc d) := Gout d (m (xLoc d)) (pw m d) (m (tLoc d))

/-- What a SparseCore is handed: its share of the three inputs, its rows of the result. -/
def coreIn (d : Dev nD) (c : Fin 2) (fo : Buf (Elt F) (oLoc d)) : sProp 𝕄 :=
  iprop((xLoc d ↦{qC c.val} m (xLoc d)) ∗ (wLoc d ↦{qC c.val} pw m d) ∗ (tLoc d ↦{qC c.val} m (tLoc d)) ∗ (oLoc d ↦[coreSet c]{fullShare} fo))

/-- What stays with the split while the tiles run. -/
def coreRest (d : Dev nD) (c : Fin 2) : sProp 𝕄 :=
  iprop((xLoc d ↦{qR c.val} m (xLoc d)) ∗ (wLoc d ↦{qR c.val} pw m d) ∗ (tLoc d ↦{qR c.val} m (tLoc d)))

abbrev tileOf (d : Dev nD) (c : Fin 2) (i : Fin 16) (fo : Buf (Elt F) (oLoc d)) : sProp 𝕄 :=
  tileIn d (pt c i) (qT c.val i) (m (xLoc d)) (pw m d) (m (tLoc d)) fo

/-- A SparseCore's holdings are its tiles' and the rest. -/
theorem coreIn_split (d : Dev nD) (c : Fin 2) (fo : Buf (Elt F) (oLoc d)) :
    coreIn m d c fo ⊣⊢ iprop(coreRest m d c ∗ bigSep Finset.univ fun i : Fin 16 => tileOf m d c i fo) := by
  have hx := Transfers.pointsTo_toks (nD := nD) (τ := τ) (sig := sig) (Ix := HIx 1) (Val := Elt F) (Name := ℕ) (U := UU) (Lvl := ℕ)
    (ℓ := xLoc d) (S := Finset.univ) (f := m (xLoc d)) (qC c.val) 16
  have hw := Transfers.pointsTo_toks (nD := nD) (τ := τ) (sig := sig) (Ix := HIx 1) (Val := Elt F) (Name := ℕ) (U := UU) (Lvl := ℕ)
    (ℓ := wLoc d) (S := Finset.univ) (f := pw m d) (qC c.val) 16
  have ht := Transfers.pointsTo_toks (nD := nD) (τ := τ) (sig := sig) (Ix := HIx 1) (Val := Elt F) (Name := ℕ) (U := UU) (Lvl := ℕ)
    (ℓ := tLoc d) (S := Finset.univ) (f := m (tLoc d)) (qC c.val) 16
  have ho : (oLoc d ↦[coreSet c]{fullShare} fo : sProp 𝕄) = bigSep Finset.univ fun s : Fin 16 => oLoc d ↦[oSet (pt c s)]{fullShare} fo :=
    pointsTo_biUnion Finset.univ (ℓ := oLoc d) (fun s : Fin 16 => oSet (pt c s)) fun s _ s' _ h => oSet_disjoint (.inr h)
  unfold coreIn coreRest tileOf tileIn
  rw [ho, bigSep_sep', bigSep_sep', bigSep_sep']
  constructor
  · iintro ⟨Hx, Hw, Ht, Ho⟩
    ihave Hx' := hx.1 $$ Hx
    ihave Hw' := hw.1 $$ Hw
    ihave Ht' := ht.1 $$ Ht
    icases Hx' with ⟨Hxr, Hxs⟩
    icases Hw' with ⟨Hwr, Hws⟩
    icases Ht' with ⟨Htr, Hts⟩
    isplitl [Hxr Hwr Htr]
    · isplitl [Hxr]; · iexact Hxr
      isplitl [Hwr]; · iexact Hwr
      iexact Htr
    isplitl [Hxs]; · iexact Hxs
    isplitl [Hws]; · iexact Hws
    isplitl [Hts]; · iexact Hts
    iexact Ho
  · iintro ⟨⟨Hxr, Hwr, Htr⟩, Hxs, Hws, Hts, Ho⟩
    isplitl [Hxr Hxs]
    · iapply hx.2; isplitl [Hxr]; · iexact Hxr
      iexact Hxs
    isplitl [Hwr Hws]
    · iapply hw.2; isplitl [Hwr]; · iexact Hwr
      iexact Hws
    isplitl [Htr Hts]
    · iapply ht.2; isplitl [Htr]; · iexact Htr
      iexact Hts
    iexact Ho

/-! ## What the handshakes carry -/

/-- The one call hands SparseCore `c` its share of the inputs and its rows of the result, tile `i` of it a token of that
    share and its own rows; each hands the same back, the result's rows at the recurrence's values. -/
def P : (K (F := F)).Pay (nD := nD) (Val := Elt F) (Name := ℕ) (U := UU) where
  st := fun q d c => match q with | 0 => coreIn m d (Fin.cast nCore_zero c) (m (oLoc d))
  dn := fun q d c => match q with | 0 => coreIn m d (Fin.cast nCore_zero c) (gout m d)
  go := fun q d c i => match q with | 0 => tileOf m d (Fin.cast nCore_zero c) (Fin.cast nSub_zero i) (m (oLoc d))
  td := fun q d c i => match q with | 0 => tileOf m d (Fin.cast nCore_zero c) (Fin.cast nSub_zero i) (gout m d)
  x := fun _ _ => iprop(emp)

instance coreIn_storable (d : Dev nD) (c : Fin 2) (fo : Buf (Elt F) (oLoc d)) : BI.Storable (upEmb : UEmb _ 𝕄) (coreIn m d c fo) := by
  unfold coreIn; infer_instance

instance P_storable : (P (F := F) m).IsStorable where
  st q d c := match q with
    | 0 => (inferInstance : BI.Storable (upEmb : UEmb _ 𝕄) (coreIn m d (Fin.cast nCore_zero c) (m (oLoc d))))
  dn q d c := match q with
    | 0 => (inferInstance : BI.Storable (upEmb : UEmb _ 𝕄) (coreIn m d (Fin.cast nCore_zero c) (gout m d)))
  go q d c i := match q with
    | 0 => (inferInstance : BI.Storable (upEmb : UEmb _ 𝕄) (tileOf m d (Fin.cast nCore_zero c) (Fin.cast nSub_zero i) (m (oLoc d))))
  td q d c i := match q with
    | 0 => (inferInstance : BI.Storable (upEmb : UEmb _ 𝕄) (tileOf m d (Fin.cast nCore_zero c) (Fin.cast nSub_zero i) (gout m d)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands split into its tiles', and the tiles' results join into the SparseCore's. -/
theorem vecSplit : (K (F := F)).VecSplit' (P m) 0 := by
  intro d c
  show coreIn m d (Fin.cast nCore_zero c) (m (oLoc d)) ⊢ |={Set.univ}=> iprop(
      (bigSep Finset.univ fun i : Fin ((K (F := F)).nSub 0) => tileOf m d (Fin.cast nCore_zero c) (Fin.cast nSub_zero i) (m (oLoc d)))
      ∗ ((bigSep Finset.univ fun i : Fin ((K (F := F)).nSub 0) => tileOf m d (Fin.cast nCore_zero c) (Fin.cast nSub_zero i) (gout m d))
          -∗ coreIn m d (Fin.cast nCore_zero c) (gout m d)))
  rw [bigSep_tasks (F := F) (fun i => tileOf m d (Fin.cast nCore_zero c) i (m (oLoc d))),
    bigSep_tasks (F := F) (fun i => tileOf m d (Fin.cast nCore_zero c) i (gout m d))]
  iintro H
  ihave H' := (coreIn_split m d (Fin.cast nCore_zero c) (m (oLoc d))).1 $$ H
  icases H' with ⟨Hr, Hgo⟩
  imodintro
  isplitl [Hgo]; · iexact Hgo
  iintro Htd
  iapply (coreIn_split m d (Fin.cast nCore_zero c) (gout m d)).2
  isplitl [Hr]; · iexact Hr
  iexact Htd

end Cert.Proof.K

end
-- ==== Proof.K.LaunchObl.lean ====
/-
  The launch of the embedding-bag kernel, 2: a tile's task, as the launch theorem asks for it, from the statement of the
  task (`TileSpec`): the body table's entry for a vector subcore is the kernel function at the subcore's grid point on
  the whole arrays and the subcore's scratch, and the task's operands and results are the payloads `go` and `td`.
-/
import proofs.«206443_g53721450939153_cont_9to1_m_117_36_alg».proof.Proof.K.LaunchPay

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] (m : (ℓ : Loc nD τ sig) → Buf (Elt F) ℓ)

theorem defs₀_vector (c : Fin τ.nSC) (s : Fin τ.nSub) :
    defs₀ (F := F) (.scVector c s) 0 ()
      = SparseCore.onTile hcore0 hsub0 (fun c s => cc0_emb_kernel (coordsV c s)
          (Memref.whole main_arg0_scv) (Memref.isWhole_whole _) (Memref.whole main_v0_scv) (Memref.isWhole_whole _) (Memref.whole main_arg2_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _)
          cc0_scratch8 cc0_scratch9 cc0_scratch10 cc0_scratch11 cc0_scratch12 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of vector subcore `i` of SparseCore `c`: the statement of the task at the grid point `(c, i)`, the tile's token
    of its SparseCore's share, the launch memory's indices, padded weights and table. -/
theorem tileObl (hT : TileSpec (F := F)) (hx : ∀ (d : Dev nD) i, (m (xLoc d) i).toNat < 100000) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hT facts d (coordsV ⟨_, hc.1⟩ ⟨_, hc.2⟩) (qT c.val (Fin.cast nSub_zero i)) (m (xLoc d)) (pw m d) (m (tLoc d)) (m (oLoc d)) (hx d) O W hO).trans
    (wp_mono frame _ _ fun _ => obl_post)

end Cert.Proof.K

end
-- ==== Proof.K.LaunchMain.lean ====
/-
  The launch of the embedding-bag kernel, 3: the launch element of the ghost state (the handshakes' rounds; the
  transfers' counters are dropped) and @main on the TensorCore — the constant, its conversion and the padding of the
  weights as host operations over the seven arrays held whole, then the one call: the three read-only arrays halved
  between the two SparseCores, the result cut into their rows, and everything joined back after it.
-/
import proofs.«206443_g53721450939153_cont_9to1_m_117_36_alg».proof.Proof.K.LaunchObl

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo (after after_cons after_nil)

variable [FloatOps F] (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays and the host operations -/

abbrev x' : DevRef τ sig := Proc.devRef .tc (main_arg0 : Ref sig .tc)
abbrev a' : DevRef τ sig := Proc.devRef .tc (main_arg1 : Ref sig .tc)
abbrev t' : DevRef τ sig := Proc.devRef .tc (main_arg2 : Ref sig .tc)
abbrev c' : DevRef τ sig := Proc.devRef .tc (main_c : Ref sig .tc)
abbrev e' : DevRef τ sig := Proc.devRef .tc (main_call0_v0 : Ref sig .tc)
abbrev w' : DevRef τ sig := Proc.devRef .tc (main_v0 : Ref sig .tc)
abbrev o' : DevRef τ sig := Proc.devRef .tc (main_v1 : Ref sig .tc)

/-- The TensorCore's arrays, all unscoped. -/
abbrev S7 : Finset (DevRef τ sig) := {x', a', t', c', e', w', o'}

abbrev cLoc (d : Dev nD) : Loc nD τ sig := (SparseCore.T d).loc main_c
abbrev eLoc (d : Dev nD) : Loc nD τ sig := (SparseCore.T d).loc main_call0_v0

/-- The constant, its conversion, the padding: @main's three host operations, as it states them. -/
abbrev opC : HloOp τ sig (Elt F) := StableHlo.nullary main_c (constantI S_ 32 0#32)
abbrev opE : HloOp τ sig (Elt F) := StableHlo.TRef.unary (.of main_c : StableHlo.TRef sig ⟨S_, .i32⟩) main_call0.v0 (sitofp .f32)
abbrev opW : HloOp τ sig (Elt F) :=
  StableHlo.TRef.binary (.of main_arg1 : StableHlo.TRef sig ⟨S4096x50, .f32⟩) main_call0.v0 main_call0.v1 (fun x v => pad S4096x64 ![0, 0] ![0, 14] ![0, 0] x v pads_S4096x50_S4096x64_000_0140 h_S_)

omit [FloatOps F] in
theorem held_S7 (d : Dev nD) (W : Valuation τ sig (Elt F)) :
    (held (T d) S7 W : sProp 𝕄) = iprop((xLoc d ↦{fullShare} W x') ∗ (aLoc d ↦{fullShare} W a') ∗ (tLoc d ↦{fullShare} W t') ∗ (cLoc d ↦{fullShare} W c')
      ∗ (eLoc d ↦{fullShare} W e') ∗ (wLoc d ↦{fullShare} W w') ∗ (oLoc d ↦{fullShare} W o')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1) ∗ (tLoc d ↦{fullShare} W main_arg2)
      ∗ (cLoc d ↦{fullShare} W main_c) ∗ (eLoc d ↦{fullShare} W main_call0_v0) ∗ (wLoc d ↦{fullShare} W main_v0) ∗ (oLoc d ↦{fullShare} W main_v1)) := by
  unfold unscopedBufs
  rw [show (Finset.univ.filter fun b : Ref sig .tc => ¬ b.isScoped) = {main_arg0, main_arg1, main_arg2, main_c, main_call0_v0, main_v0, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuation after the three host operations. -/
def V0 (d : Dev nD) : Valuation τ sig (Elt F) := fun b => m (d, b)
abbrev V3 (d : Dev nD) : Valuation τ sig (Elt F) := (opW (F := F)).result ((opE (F := F)).result ((opC (F := F)).result (V0 m d)))

theorem unscoped_held (d : Dev nD) : (unscopedBufs d (fun b => m ((SparseCore.T d).loc b)) : sProp 𝕄) = held (T d) S7 (V0 m d) := by
  rw [unscopedBufs_eq, held_S7]; rfl

theorem V3_x (d : Dev nD) : V3 m d x' = m (xLoc d) := by
  show after [opC (F := F), opE, opW] (V0 m d) x' = _
  after_results; rfl
theorem V3_a (d : Dev nD) : V3 m d a' = m (aLoc d) := by
  show after [opC (F := F), opE, opW] (V0 m d) a' = _
  after_results; rfl
theorem V3_t (d : Dev nD) : V3 m d t' = m (tLoc d) := by
  show after [opC (F := F), opE, opW] (V0 m d) t' = _
  after_results; rfl
theorem V3_o (d : Dev nD) : V3 m d o' = m (oLoc d) := by
  show after [opC (F := F), opE, opW] (V0 m d) o' = _
  after_results; rfl
theorem V3_w (d : Dev nD) : V3 m d w' = pw m d := by
  show after [opC (F := F), opE, opW] (V0 m d) w' = _
  after_results; rfl

theorem held_V3 (d : Dev nD) :
    (held (T d) S7 (V3 m d) : sProp 𝕄) = iprop((xLoc d ↦{fullShare} m (xLoc d)) ∗ (aLoc d ↦{fullShare} m (aLoc d)) ∗ (tLoc d ↦{fullShare} m (tLoc d))
      ∗ (cLoc d ↦{fullShare} V3 m d c') ∗ (eLoc d ↦{fullShare} V3 m d e') ∗ (wLoc d ↦{fullShare} pw m d) ∗ (oLoc d ↦{fullShare} m (oLoc d))) := by
  rw [held_S7, V3_x, V3_a, V3_t, V3_w, V3_o]

theorem hC : (opC (F := F)).bufs ⊆ S7 := show ({c'} : Finset (DevRef τ sig)) ⊆ S7 by decide
theorem hE : (opE (F := F)).bufs ⊆ S7 := show ({c', e'} : Finset (DevRef τ sig)) ⊆ S7 by decide
theorem hW : (opW (F := F)).bufs ⊆ S7 := show ({a', e', w'} : Finset (DevRef τ sig)) ⊆ S7 by decide

/-! ## The call's operands, from the arrays whole -/

/-- The three inputs and the result, whole, are the two SparseCores' holdings. -/
theorem cores_split (d : Dev nD) (fo : Buf (Elt F) (oLoc d)) :
    iprop((xLoc d ↦{fullShare} m (xLoc d)) ∗ (wLoc d ↦{fullShare} pw m d) ∗ (tLoc d ↦{fullShare} m (tLoc d)) ∗ (oLoc d ↦{fullShare} fo))
      ⊣⊢ (iprop(coreIn m d 0 fo ∗ coreIn m d 1 fo) : sProp 𝕄) := by
  have hx : (xLoc d ↦{fullShare} m (xLoc d) : sProp 𝕄) ⊣⊢ iprop((xLoc d ↦{qC 0} m (xLoc d)) ∗ (xLoc d ↦{qC 1} m (xLoc d))) := by
    rw [qC_zero, qC_one]; exact pointsTo_share (PosShare.mem_left_op_right _)
  have hw : (wLoc d ↦{fullShare} pw m d : sProp 𝕄) ⊣⊢ iprop((wLoc d ↦{qC 0} pw m d) ∗ (wLoc d ↦{qC 1} pw m d)) := by
    rw [qC_zero, qC_one]; exact pointsTo_share (PosShare.mem_left_op_right _)
  have ht : (tLoc d ↦{fullShare} m (tLoc d) : sProp 𝕄) ⊣⊢ iprop((tLoc d ↦{qC 0} m (tLoc d)) ∗ (tLoc d ↦{qC 1} m (tLoc d))) := by
    rw [qC_zero, qC_one]; exact pointsTo_share (PosShare.mem_left_op_right _)
  have ho : (oLoc d ↦{fullShare} fo : sProp 𝕄) = iprop((oLoc d ↦[coreSet 0]{fullShare} fo) ∗ (oLoc d ↦[coreSet 1]{fullShare} fo)) := by
    have e : (oLoc d ↦{fullShare} fo : sProp 𝕄) = bigSep Finset.univ fun c : Fin 2 => oLoc d ↦[coreSet c]{fullShare} fo := by
      rw [← pointsTo_biUnion Finset.univ (ℓ := oLoc d) coreSet coreSet_disjoint, coreSet_cover]; try rfl
    rw [e, show (Finset.univ : Finset (Fin 2)) = {0, 1} by decide, SparseCore.bigSep_insert' (by decide), bigSep_singleton]
  unfold coreIn
  rw [ho]
  constructor
  · iintro ⟨Hx, Hw, Ht, Ho0, Ho1⟩
    ihave Hx' := hx.1 $$ Hx
    ihave Hw' := hw.1 $$ Hw
    ihave Ht' := ht.1 $$ Ht
    icases Hx' with ⟨Hx0, Hx1⟩
    icases Hw' with ⟨Hw0, Hw1⟩
    icases Ht' with ⟨Ht0, Ht1⟩
    isplitl [Hx0 Hw0 Ht0 Ho0]
    · isplitl [Hx0]; · iexact Hx0
      isplitl [Hw0]; · iexact Hw0
      isplitl [Ht0]; · iexact Ht0
      iexact Ho0
    · isplitl [Hx1]; · iexact Hx1
      isplitl [Hw1]; · iexact Hw1
      isplitl [Ht1]; · iexact Ht1
      iexact Ho1
  · iintro ⟨⟨Hx0, Hw0, Ht0, Ho0⟩, Hx1, Hw1, Ht1, Ho1⟩
    isplitl [Hx0 Hx1]
    · iapply hx.2; isplitl [Hx0]; · iexact Hx0
      iexact Hx1
    isplitl [Hw0 Hw1]
    · iapply hw.2; isplitl [Hw0]; · iexact Hw0
      iexact Hw1
    isplitl [Ht0 Ht1]
    · iapply ht.2; isplitl [Ht0]; · iexact Ht0
      iexact Ht1
    isplitl [Ho0]; · iexact Ho0
    iexact Ho1

theorem st0_eq (d : Dev nD) :
    (bigSep Finset.univ fun c : Fin ((K (F := F)).nCore 0) => (P m).st 0 d c) = iprop(coreIn m d 0 (m (oLoc d)) ∗ coreIn m d 1 (m (oLoc d))) := by
  show (bigSep (Finset.univ : Finset (Fin 2)) fun c => coreIn m d c (m (oLoc d))) = _
  rw [show (Finset.univ : Finset (Fin 2)) = {0, 1} by decide, SparseCore.bigSep_insert' (by decide), bigSep_singleton]
theorem dn0_eq (d : Dev nD) :
    (bigSep Finset.univ fun c : Fin ((K (F := F)).nCore 0) => (P m).dn 0 d c) = iprop(coreIn m d 0 (gout m d) ∗ coreIn m d 1 (gout m d)) := by
  show (bigSep (Finset.univ : Finset (Fin 2)) fun c => coreIn m d c (gout m d)) = _
  rw [show (Finset.univ : Finset (Fin 2)) = {0, 1} by decide, SparseCore.bigSep_insert' (by decide), bigSep_singleton]

/-- What @main leaves the claim: the result at the recurrence's values, the three arguments at their launch contents. -/
abbrev FIN (d : Dev nD) : sProp 𝕄 :=
  iprop((oLoc d ↦{fullShare} gout m d) ∗ (xLoc d ↦{fullShare} m (xLoc d)) ∗ (aLoc d ↦{fullShare} m (aLoc d)) ∗ (tLoc d ↦{fullShare} m (tLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  iapply (wp_hlo_within 𝒱 (SparseCore.T d) none Set.univ (op := opC) (S := S7) hC (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opE) (S := S7) hE (V := (opC (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opW) (S := S7) hW (V := (opE (F := F)).result ((opC (F := F)).result (V0 m d)))) $$ [Hb Hheld]
  · isplitl [Hb]; · iexact Hb
    iexact Hheld
  iintro ⟨Hb, Hheld⟩
  rw [wp_ret]; imodintro; imodintro
  ihave Hh := (Entails.of_eq (held_V3 m d)) $$ Hheld
  icases Hh with ⟨Hx, Ha, Ht, -, -, Hw, Ho⟩
  -- the call: the inputs halved between the two SparseCores, the result cut into their rows
  iapply ((K (F := F)).wp_run (D (F := F)) 𝒱 (EH := EH) (P := P m) κ d 0) $$ [Hst Hx Hw Ht Ho Ha]
  isplitr; · iexact Hctx
  isplitl [Hst]; · iexact Hst
  isplitl [Hx Hw Ht Ho]
  · rw [st0_eq]
    iapply (cores_split m d (m (oLoc d))).1
    isplitl [Hx]; · iexact Hx
    isplitl [Hw]; · iexact Hw
    isplitl [Ht]; · iexact Ht
    iexact Ho
  iintro ⟨Hst, Hdn⟩
  ihave Hdn' := (Entails.of_eq (dn0_eq m d)) $$ Hdn
  ihave H4 := (cores_split m d (gout m d)).2 $$ Hdn'
  icases H4 with ⟨Hx, -, Ht, Ho⟩
  imodintro
  isplitl [Hst]; · iexact Hst
  isplitl [Ho]; · iexact Ho
  isplitl [Hx]; · iexact Hx
  isplitl [Ha]; · iexact Ha
  iexact Ht

end Cert.Proof.K

end
-- ==== Proof.K.Launch.lean ====
/-
  The launch of the embedding-bag kernel, 4: the program's run. From the statement of a tile's task, every weakly fair
  execution of the device's threads from a memory whose indices name rows of the table terminates with the result array
  at the fifty-step recurrence over the launch memory's indices, its weights padded with zeros to sixty-four columns, and
  its table, and with the three arguments unchanged: the final memory is read off the four arrays @main is left holding
  whole.
-/
import proofs.«206443_g53721450939153_cont_9to1_m_117_36_alg».proof.Proof.K.LaunchMain

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

section Fin

variable [FloatOps F] (m : (ℓ : Loc nD τ sig) → Buf (Elt F) ℓ)

/-- What the final memory holds: the result, and the three arguments as launched. -/
def fq (d : Dev nD) (s' : Phys nD τ sig (Elt F)) : Prop :=
  s'.mem.mem (oLoc d) = gout m d ∧ s'.mem.mem (xLoc d) = m (xLoc d) ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ho, Hx, Ha, Ht⟩, HSI⟩
  ihave H := (persistent_entails_right (SI_pointsTo_agree (st := s') (ℓ := oLoc d) (I := Finset.univ) (q := fullShare) (f := gout m d))) $$ [HSI Ho]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h3, HSI, -⟩
  ihave H := (SI_pointsTo_agree (st := s') (ℓ := tLoc d) (I := Finset.univ) (q := fullShare) (f := m (tLoc d))) $$ [HSI Ht]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

end Fin

/-! ## The program's run -/

theorem run_main [FloatOps F] [∀ e, Nonempty (Elt F e)] (hT : TileSpec (F := F)) (m : (ℓ : Loc nD τ sig) → Buf (Elt F) ℓ) (ρ : Dev nD → PrngReg)
    (hx : ∀ (d : Dev nD) i, (m (xLoc d) i).toNat < 100000) :
    θ_run (Cert.Kernel.defs (F := F)) (Cert.Kernel.threads (F := F)) ⟨m, fun _ => 0, ρ⟩ (fun r => ∀ c : Dev nD,
      r.2.mem (oLoc c) = Cert.SpecF.Gk (F := F) (m (xLoc c)) (padW (m ((SparseCore.T c).loc main_arg1))) (m (tLoc c))
      ∧ r.2.mem (xLoc c) = m (xLoc c) ∧ r.2.mem ((SparseCore.T c).loc main_arg1) = m ((SparseCore.T c).loc main_arg1) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hT hx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.K

end
-- ==== Proof.K.Run.lean ====
import proofs.«206443_g53721450939153_cont_9to1_m_117_36_alg».proof.Proof.K.Iface
import Idealize.ShloMosaic.Lib.Pipeline.Value
import proofs.«206443_g53721450939153_cont_9to1_m_117_36_alg».proof.Proof.K.Body
import proofs.«206443_g53721450939153_cont_9to1_m_117_36_alg».proof.Proof.K.Wrap
import proofs.«206443_g53721450939153_cont_9to1_m_117_36_alg».proof.Proof.K.Launch

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x50 EltTy.i32)
local notation "wW" => (Memref.whole Cert.Kernel.main_v0_scv : Memref Cert.Kernel.sig Kind.scVector Space.hbm Cert.Kernel.S4096x64 EltTy.f32)
local notation "tW" => (Memref.whole Cert.Kernel.main_arg2_scv : Memref Cert.Kernel.sig Kind.scVector Space.hbm Cert.Kernel.S100000x128 EltTy.f32)
local notation "oW" => (Memref.whole Cert.Kernel.main_v1_scv : Memref Cert.Kernel.sig Kind.scVector Space.hbm Cert.Kernel.S4096x128 EltTy.f32)
local notation "sXv" => (Memref.whole Cert.Kernel.cc0_scratch0 : Memref Cert.Kernel.sig Kind.scVector Space.vmem Cert.Kernel.S128x50 EltTy.i32)
local notation "sWv" => (Memref.whole Cert.Kernel.cc0_scratch1 : Memref Cert.Kernel.sig Kind.scVector Space.vmem Cert.Kernel.S128x64 EltTy.f32)
local notation "sOv" => (Memref.whole Cert.Kernel.cc0_scratch2 : Memref Cert.Kernel.sig Kind.scVector Space.vmem Cert.Kernel.S128x128 EltTy.f32)
local notation "sB3" => (Memref.whole Cert.Kernel.cc0_scratch3 : Memref Cert.Kernel.sig Kind.scVector Space.vmem Cert.Kernel.S50x128 EltTy.f32)
local notation "sB4" => (Memref.whole Cert.Kernel.cc0_scratch4 : Memref Cert.Kernel.sig Kind.scVector Space.vmem Cert.Kernel.S50x128 EltTy.f32)
local notation "sB5" => (Memref.whole Cert.Kernel.cc0_scratch5 : Memref Cert.Kernel.sig Kind.scVector Space.vmem Cert.Kernel.S50x128 EltTy.f32)
local notation "sB6" => (Memref.whole Cert.Kernel.cc0_scratch6 : Memref Cert.Kernel.sig Kind.scVector Space.vmem Cert.Kernel.S50x128 EltTy.f32)
local notation "sB7" => (Memref.whole Cert.Kernel.cc0_scratch7 : Memref Cert.Kernel.sig Kind.scVector Space.vmem Cert.Kernel.S50x128 EltTy.f32)

variable [FloatOps F]

/-! # The program's run

  Every weakly fair execution of the device's threads ends with the result at the recurrence's values over the launch
  memory's indices, padded weights and table, and the three arguments unchanged: the tile's run (`tile_core`) through the
  own-scratch wrapper and the launch. -/

theorem run [∀ e, Nonempty (Elt F e)] (m : (ℓ : Loc nD τ sig) → Buf (Elt F) ℓ) (ρ : Dev nD → PrngReg)
    (hx : ∀ (d : Dev nD) i, (m (xLoc d) i).toNat < 100000) :
    θ_run (Cert.Kernel.defs (F := F)) (Cert.Kernel.threads (F := F)) ⟨m, fun _ => 0, ρ⟩ (fun r => ∀ c : Dev nD,
      r.2.mem (oLoc c) = Cert.SpecF.Gk (F := F) (m (xLoc c)) (padW (m ((SparseCore.T c).loc main_arg1))) (m (tLoc c))
      ∧ r.2.mem (xLoc c) = m (xLoc c) ∧ r.2.mem ((SparseCore.T c).loc main_arg1) = m ((SparseCore.T c).loc main_arg1) ∧ r.2.mem (tLoc c) = m (tLoc c)) :=
  run_main (tileSpec_of_core tile_core) m ρ hx

end Cert.Proof.K

end
-- ==== Proof.KI.Iface.lean ====
/-
  The embedding-bag kernel on one vector subcore, as the launch sees it: the names shared by the body's proof and the
  launch's, and the statement that joins them. Tile `(c, s)` owns batch rows `[256·s + 128·c, +128)`: it reads its rows of
  the indices and of the padded weights and any row of the table, and writes its 128 rows of the result, each entry the
  fifty-step recurrence `Cert.SpecF.Gk` names.
-/
import proofs.«206443_g53721450939153_cont_9to1_m_117_36_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206443_g53721450939153_cont_9to1_m_117_36_alg».proof.Proof.Gen.KernelIdeal
import proofs.«206443_g53721450939153_cont_9to1_m_117_36_alg».proof.Proof.Gen.KernelIdeal.Skeleton
import proofs.«206443_g53721450939153_cont_9to1_m_117_36_alg».proof.Proof.SpecF

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore names them, and a tile's thread -/

abbrev xLoc (d : Dev nD) : Loc nD τ sig := (SparseCore.T d).loc main_arg0
abbrev wLoc (d : Dev nD) : Loc nD τ sig := (SparseCore.T d).loc main_v0
abbrev tLoc (d : Dev nD) : Loc nD τ sig := (SparseCore.T d).loc main_arg2
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The tile's 128 rows of the result, as the kernel slices them. -/
abbrev oSl (L : grid0.Coords) : Memref sig .scVector .hbm S128x128 .f32 :=
  (Memref.whole main_v1_scv).slice (Rect.unit (s := S4096x128) (k0_off1088 L) S128x128.size (k0_off1088_inb L)) (fun _ => rfl)

variable [FloatOps F]

/-- The result array every tile's rows are rows of. -/
abbrev Gout (d : Dev nD) (mx : Buf (Elt F) (xLoc d)) (mw : Buf (Elt F) (wLoc d)) (mt : Buf (Elt F) (tLoc d)) : Buf (Elt F) (oLoc d) :=
  Cert.SpecF.Gk (F := F) mx mw mt

/-- What a tile is handed and what it hands back. -/
abbrev tileIn (d : Dev nD) (L : grid0.Coords) (q : PosShare TreeShare)
    (mx : Buf (Elt F) (xLoc d)) (mw : Buf (Elt F) (wLoc d)) (mt : Buf (Elt F) (tLoc d)) (fo : Buf (Elt F) (oLoc d)) : sProp 𝕄 :=
  iprop((xLoc d ↦{q} mx) ∗ (wLoc d ↦{q} mw) ∗ (tLoc d ↦{q} mt) ∗ (oLoc d ↦[(oSl L).view.set]{fullShare} fo))

/-- The statement of a tile's task: from shares of the three inputs and its rows of the result, every index below the
    table's row count, the task ends with the inputs back and its rows of the result at the recurrence's values. -/
def TileSpec : Prop :=
  ∀ (hF : (K (F := F)).Facts) (d : Dev nD) (L : grid0.Coords) (q : PosShare TreeShare)
    (mx : Buf (Elt F) (xLoc d)) (mw : Buf (Elt F) (wLoc d)) (mt : Buf (Elt F) (tLoc d)) (fo : Buf (Elt F) (oLoc d))
    (hx : ∀ i, (mx i).toNat < 100000)
    (O : CellTallies nD τ sig (HIx 1)) (W : Waits sig (HIx 1)) (hO : ∀ g, O g none = 0),
    iprop(levAts (K (F := F)).L (K (F := F)).lev ∗ emp ∗ tileIn d L q mx mw mt fo
        ∗ scopedBufs (thr d L) ∗ scopedSems0 (thr d L) ∗ owes (thr d L) O W)
      ⊢ wp frame (wpE (defs₀ (F := F)) 𝒱₀ (thr d L) none) Set.univ
          (cc0_emb_kernel L (Memref.whole main_arg0_scv) (Memref.isWhole_whole _) (Memref.whole main_v0_scv) (Memref.isWhole_whole _) (Memref.whole main_arg2_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scoped0 cc0_scoped1 cc0_scoped2)
          fun _ => iprop(tileIn d L q mx mw mt (Gout d mx mw mt)
            ∗ scopedBufs (thr d L) ∗ scopedSems0 (thr d L) ∗ ∃ W', ⌜∀ p ∈ W', p ∈ W ∨ p.2 = none⌝ ∗ owes (thr d L) O W')

end Cert.Proof.KI

end
-- ==== Proof.KI.CoreSpec.lean ====
import proofs.«206443_g53721450939153_cont_9to1_m_117_36_alg».proof.Proof.KI.Iface
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

/-! # A tile's task over its own scratch, spelt as its thread addresses memory

  The statement the body's run proves: the three inputs at a read share and the tile's rows of the result, each as the
  tile's memrefs address them; the eight scratch buffers whole at some contents; the eight DMA semaphores at zero; the
  waits the tile may make. It ends with the same, the result's rows at the recurrence's values. -/

/-- The eight scratch buffers, each whole at some contents. -/
def scratchAny (d : Dev nD) (L : grid0.Coords) : sProp 𝕄 :=
  iprop((∃ g, (sXv).view.loc (thr d L) ↦{fullShare} g) ∗ (∃ g, (sWv).view.loc (thr d L) ↦{fullShare} g) ∗ (∃ g, (sOv).view.loc (thr d L) ↦{fullShare} g)
    ∗ (∃ g, (sB3).view.loc (thr d L) ↦{fullShare} g) ∗ (∃ g, (sB4).view.loc (thr d L) ↦{fullShare} g) ∗ (∃ g, (sB5).view.loc (thr d L) ↦{fullShare} g)
    ∗ (∃ g, (sB6).view.loc (thr d L) ↦{fullShare} g) ∗ (∃ g, (sB7).view.loc (thr d L) ↦{fullShare} g))

/-- The eight DMA semaphores at zero: the five ring slots', then the three copies'. -/
def semsZero (d : Dev nD) (L : grid0.Coords) : sProp 𝕄 :=
  iprop(semVal (thr d L, SemLoc.dma cc0_scratch8.sem) 0 ∗ semVal (thr d L, SemLoc.dma cc0_scratch9.sem) 0 ∗ semVal (thr d L, SemLoc.dma cc0_scratch10.sem) 0
    ∗ semVal (thr d L, SemLoc.dma cc0_scratch11.sem) 0 ∗ semVal (thr d L, SemLoc.dma cc0_scratch12.sem) 0
    ∗ semVal (thr d L, SemLoc.dma cc0_scoped0.sem) 0 ∗ semVal (thr d L, SemLoc.dma cc0_scoped1.sem) 0 ∗ semVal (thr d L, SemLoc.dma cc0_scoped2.sem) 0)

/-- The inputs and the tile's rows of the result, as the tile's memrefs address them. -/
def tileMem (d : Dev nD) (L : grid0.Coords) (q : PosShare TreeShare)
    (mx : Buf (Elt F) (xLoc d)) (mw : Buf (Elt F) (wLoc d)) (mt : Buf (Elt F) (tLoc d)) (fo : Buf (Elt F) (oLoc d)) : sProp 𝕄 :=
  iprop(((xW).view.loc (thr d L) ↦{q} mx) ∗ ((wW).view.loc (thr d L) ↦{q} mw) ∗ ((tW).view.loc (thr d L) ↦{q} mt)
    ∗ ((oSl L).view.loc (thr d L) ↦[(oSl L).view.set]{fullShare} fo))

def TileCore : Prop :=
  ∀ (d : Dev nD) (L : grid0.Coords) (q : PosShare TreeShare)
    (mx : Buf (Elt F) (xLoc d)) (mw : Buf (Elt F) (wLoc d)) (mt : Buf (Elt F) (tLoc d)) (fo : Buf (Elt F) (oLoc d))
    (hx : ∀ i, (mx i).toNat < 100000)
    (O : CellTallies nD τ sig (HIx 1)) (W : Waits sig (HIx 1)),
    iprop(Transfers.MayWaits (thr d L) (none : HIx 1) O ∗ tileMem d L q mx mw mt fo ∗ scratchAny d L ∗ semsZero d L ∗ owes (thr d L) O W)
      ⊢ wp frame (wpE (defs₀ (F := F)) 𝒱₀ (thr d L) none) Set.univ
          (cc0_emb_kernel L (Memref.whole main_arg0_scv) (Memref.isWhole_whole _) (Memref.whole main_v0_scv) (Memref.isWhole_whole _) (Memref.whole main_arg2_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scoped0 cc0_scoped1 cc0_scoped2)
          fun _ => iprop(tileMem d L q mx mw mt (Gout d mx mw mt) ∗ scratchAny d L ∗ semsZero d L
            ∗ ∃ W', ⌜∀ p ∈ W', p ∈ W ∨ p.2 = none⌝ ∗ owes (thr d L) O W')

end Cert.Proof.KI

end
-- ==== Proof.KI.CompLemmas.lean ====
import proofs.«206443_g53721450939153_cont_9to1_m_117_36_alg».proof.Proof.KI.Iface
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

/-! # The inner product of one batch row: lemmas shared by every copy of the compute loop

  One compute is a loop of five trips; a trip takes ten positions `l = 10·t + dl`; at each position the weight `w[b, l]`
  is loaded into every lane (an indexed load of the weights scratch at a splat row and a splat column) and, for each of the
  eight 16-lane chunks `c`, accumulator `c` gains that weight times lanes `[16c, 16c+16)` of row `l` of the slot buffer.
  Lane `i` of accumulator `c` after `n` positions is therefore the recurrence `Cert.SpecF.acc` over the row's weights and
  column `16c + i` of the buffer. -/

/-- The eight accumulators a compute loop carries. -/
abbrev AccT (F : FTy → Type) := FVec F S16 .f32 × FVec F S16 .f32 × FVec F S16 .f32 × FVec F S16 .f32 × FVec F S16 .f32 × FVec F S16 .f32 × FVec F S16 .f32 × FVec F S16 .f32

theorem chk_bcast (b l : BitVec 32) (hb : b.toNat < 128) (hl : l.toNat < 64) :
    ∀ a x, ((![broadcast S16 b, broadcast S16 l] : Fin 2 → IVec S16 32) a x).toNat < S128x64.size a := by
  intro a x
  match a with
  | ⟨0, _⟩ => exact hb
  | ⟨1, _⟩ => exact hl

theorem l_toNat (k : Nat) (hk : k < 5) (dl : Nat) (hdl : dl < 10) :
    (Scalar.addi (Scalar.muli (Scf.iv 0#32 1#32 k) 10#32) (BitVec.ofNat 32 dl)).toNat = 10 * k + dl := by
  interval_cases k <;> interval_cases dl <;> decide

theorem l_lt (k : Nat) (hk : k < 5) (dl : Nat) (hdl : dl < 10) :
    (Scalar.addi (Scalar.muli (Scf.iv 0#32 1#32 k) 10#32) (BitVec.ofNat 32 dl)).toNat < 64 := by
  rw [l_toNat k hk dl hdl]; omega

theorem fin_lt5 {n : Nat} (h : n ≤ 5) (k : Fin n) : k.val < 5 := lt_of_lt_of_le k.isLt h

/-- The weight of local row `b` at position `l`, in the weights scratch. -/
def wvAt (fw : FVec F S128x64 .f32) (b l : Nat) : F .f32 :=
  fw (Idealize.ShloMosaic.ValueIdx.ix2 (⟨b % 128, Nat.mod_lt _ (by decide)⟩ : Fin 128) (⟨l % 64, Nat.mod_lt _ (by decide)⟩ : Fin 64))

/-- Entry `(l, col)` of a slot buffer of gathered rows. -/
def bufAt (fb : FVec F S50x128 .f32) (l col : Nat) : F .f32 :=
  fb (Idealize.ShloMosaic.ValueIdx.ix2 (⟨l % 50, Nat.mod_lt _ (by decide)⟩ : Fin 50) (⟨col % 128, Nat.mod_lt _ (by decide)⟩ : Fin 128))

/-- Lane `i` of accumulator `c` after `n` positions. -/
def A (fw : FVec F S128x64 .f32) (fb : FVec F S50x128 .f32) (b c : Nat) (i : S16.Idx) (n : Nat) : F .f32 :=
  Cert.SpecF.acc (fun l => wvAt fw b l) (fun l => bufAt fb l (16 * c + (i 0).val)) n

/-- The eight accumulators after `n` positions. -/
def Good (fw : FVec F S128x64 .f32) (fb : FVec F S50x128 .f32) (b n : Nat) (a : AccT F) : Prop :=
  (∀ i, a.1 i = A fw fb b 0 i n) ∧ (∀ i, a.2.1 i = A fw fb b 1 i n) ∧ (∀ i, a.2.2.1 i = A fw fb b 2 i n) ∧ (∀ i, a.2.2.2.1 i = A fw fb b 3 i n)
  ∧ (∀ i, a.2.2.2.2.1 i = A fw fb b 4 i n) ∧ (∀ i, a.2.2.2.2.2.1 i = A fw fb b 5 i n) ∧ (∀ i, a.2.2.2.2.2.2.1 i = A fw fb b 6 i n) ∧ (∀ i, a.2.2.2.2.2.2.2 i = A fw fb b 7 i n)

/-- One position: the accumulator plus the splat weight times the sixteen loaded entries. -/
theorem good_step (fw : FVec F S128x64 .f32) (fb : FVec F S50x128 .f32) (b c n col : Nat) {hsc : S1x16.ShapeCasts S16}
    (a : FVec F S16 .f32) (wb : Vec F S16 .f32) (ld : Vec F S1x16 .f32)
    (ha : ∀ i, a i = A fw fb b c i n) (hwb : ∀ i, wb i = wvAt fw b n)
    (hld : ∀ i : S16.Idx, shapeCast S16 ld hsc i = bufAt fb n (col + (i 0).val)) (hcol : col = 16 * c) :
    ∀ i, addf a (mulf wb (shapeCast S16 ld hsc)) i = A fw fb b c i (n + 1) := by
  intro i
  show FloatOps.addf (a i) (FloatOps.mulf (wb i) (shapeCast S16 ld hsc i)) = _
  rw [ha, hwb, hld, hcol]; rfl

/-- The indexed load of the weights scratch at a splat row and a splat position: every lane the one weight. -/
theorem wb_eq (fw : FVec F S128x64 .f32) (bw lw : BitVec 32)
    (h : ∀ a x, ((![broadcast S16 bw, broadcast S16 lw] : Fin 2 → IVec S16 32) a x).toNat < S128x64.size a)
    (b n : Nat) (hb : bw.toNat = b) (hn : lw.toNat = n) :
    ∀ i, loadIdx (View.readAt (Elt F) (Memref.whole cc0_scratch1 : Memref sig .scVector .vmem S128x64 .f32).view (LoadRect.whole S128x64) fw)
      (![broadcast S16 bw, broadcast S16 lw] : Fin 2 → IVec S16 32) h i = wvAt fw b n := by
  intro i
  have h0 : bw.toNat < 128 := h 0 i
  have h1 : lw.toNat < 64 := h 1 i
  show fw _ = fw _
  congr 1
  funext a
  apply Fin.ext
  match a with
  | ⟨0, _⟩ => show 0 + 1 * bw.toNat = b % 128; omega
  | ⟨1, _⟩ => show 0 + 1 * lw.toNat = n % 64; omega

/-- Before the first position every accumulator is the zero vector. -/
theorem good_zero (fw : FVec F S128x64 .f32) (fb : FVec F S50x128 .f32) (b : Nat) :
    Good fw fb b 0 (broadcast S16 (Scalar.ofBits .f32 0x00000000#32), broadcast S16 (Scalar.ofBits .f32 0x00000000#32), broadcast S16 (Scalar.ofBits .f32 0x00000000#32),
      broadcast S16 (Scalar.ofBits .f32 0x00000000#32), broadcast S16 (Scalar.ofBits .f32 0x00000000#32), broadcast S16 (Scalar.ofBits .f32 0x00000000#32),
      broadcast S16 (Scalar.ofBits .f32 0x00000000#32), broadcast S16 (Scalar.ofBits .f32 0x00000000#32)) :=
  ⟨fun _ => rfl, fun _ => rfl, fun _ => rfl, fun _ => rfl, fun _ => rfl, fun _ => rfl, fun _ => rfl, fun _ => rfl⟩

/-- Sixteen lanes of row `n` of slot buffer 0, loaded at column `col` and viewed as a vector. -/
theorem ld_eq3 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch3 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 0 holds before and after every trip: the accumulators at `10·n` positions, the
    weights scratch (read) and the slot buffer. -/
def inv3 (d : Dev nD) (L : grid0.Coords) (q : PosShare TreeShare) (fw : Buf (Elt F) ((sWv).view.loc (thr d L)))
    (fb : Buf (Elt F) ((sB3).view.loc (thr d L))) (b : Nat) (n : Nat) (a : AccT F) : sProp 𝕄 :=
  iprop(⌜Good fw fb b (10 * n) a⌝ ∗ ((sWv).view.loc (thr d L) ↦{q} fw) ∗ ((sB3).view.loc (thr d L) ↦{fullShare} fb))

/-- Sixteen lanes of row `n` of slot buffer 1, loaded at column `col` and viewed as a vector. -/
theorem ld_eq4 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch4 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 1 holds before and after every trip: the accumulators at `10·n` positions, the
    weights scratch (read) and the slot buffer. -/
def inv4 (d : Dev nD) (L : grid0.Coords) (q : PosShare TreeShare) (fw : Buf (Elt F) ((sWv).view.loc (thr d L)))
    (fb : Buf (Elt F) ((sB4).view.loc (thr d L))) (b : Nat) (n : Nat) (a : AccT F) : sProp 𝕄 :=
  iprop(⌜Good fw fb b (10 * n) a⌝ ∗ ((sWv).view.loc (thr d L) ↦{q} fw) ∗ ((sB4).view.loc (thr d L) ↦{fullShare} fb))

/-- Sixteen lanes of row `n` of slot buffer 2, loaded at column `col` and viewed as a vector. -/
theorem ld_eq5 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch5 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 2 holds before and after every trip: the accumulators at `10·n` positions, the
    weights scratch (read) and the slot buffer. -/
def inv5 (d : Dev nD) (L : grid0.Coords) (q : PosShare TreeShare) (fw : Buf (Elt F) ((sWv).view.loc (thr d L)))
    (fb : Buf (Elt F) ((sB5).view.loc (thr d L))) (b : Nat) (n : Nat) (a : AccT F) : sProp 𝕄 :=
  iprop(⌜Good fw fb b (10 * n) a⌝ ∗ ((sWv).view.loc (thr d L) ↦{q} fw) ∗ ((sB5).view.loc (thr d L) ↦{fullShare} fb))

/-- Sixteen lanes of row `n` of slot buffer 3, loaded at column `col` and viewed as a vector. -/
theorem ld_eq6 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch6 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 3 holds before and after every trip: the accumulators at `10·n` positions, the
    weights scratch (read) and the slot buffer. -/
def inv6 (d : Dev nD) (L : grid0.Coords) (q : PosShare TreeShare) (fw : Buf (Elt F) ((sWv).view.loc (thr d L)))
    (fb : Buf (Elt F) ((sB6).view.loc (thr d L))) (b : Nat) (n : Nat) (a : AccT F) : sProp 𝕄 :=
  iprop(⌜Good fw fb b (10 * n) a⌝ ∗ ((sWv).view.loc (thr d L) ↦{q} fw) ∗ ((sB6).view.loc (thr d L) ↦{fullShare} fb))

/-- Sixteen lanes of row `n` of slot buffer 4, loaded at column `col` and viewed as a vector. -/
theorem ld_eq7 (fb : FVec F S50x128 .f32) (off : Fin 2 → Nat) (h : ∀ a, off a + S1x16.size a ≤ S50x128.size a) {hsc : S1x16.ShapeCasts S16}
    [co : ClosedOff off] (n col : Nat) (hform : co.form = ![n, col]) :
    ∀ i : S16.Idx, shapeCast S16 (View.readAt (Elt F) (Memref.whole cc0_scratch7 : Memref sig .scVector .vmem S50x128 .f32).view
        (Rect.unit (s := S50x128) off S1x16.size h).toLoadRect fb) hsc i = bufAt fb n (col + (i 0).val) := by
  intro i
  have hoff : off = ![n, col] := co.eq.trans hform
  subst hoff
  have hn : n + 1 ≤ 50 := h 0
  have hc : col + 16 ≤ 128 := h 1
  have hi : (i 0).val < 16 := (i 0).isLt
  rw [shapeCast_dropUnit_apply]
  show fb _ = fb _
  congr 1
  funext a
  apply Fin.ext
  match a with
  | ⟨0, _⟩ => show n + 1 * 0 = n % 50; omega
  | ⟨1, _⟩ => show col + 1 * (i 0).val = (col + (i 0).val) % 128; omega

/-- What a compute over slot buffer 4 holds before and after every trip: the accumulators at `10·n` positions, the
    weights scratch (read) and the slot buffer. -/
def inv7 (d : Dev nD) (L : grid0.Coords) (q : PosShare TreeShare) (fw : Buf (Elt F) ((sWv).view.loc (thr d L)))
    (fb : Buf (Elt F) ((sB7).view.loc (thr d L))) (b : Nat) (n : Nat) (a : AccT F) : sProp 𝕄 :=
  iprop(⌜Good fw fb b (10 * n) a⌝ ∗ ((sWv).view.loc (thr d L) ↦{q} fw) ∗ ((sB7).view.loc (thr d L) ↦{fullShare} fb))

end Cert.Proof.KI

end
-- ==== Proof.KI.BodyLemmas.lean ====
import proofs.«206443_g53721450939153_cont_9to1_m_117_36_alg».proof.Proof.KI.Iface
import Idealize.ShloMosaic.Lib.Pipeline.Value
import proofs.«206443_g53721450939153_cont_9to1_m_117_36_alg».proof.Proof.KI.CoreSpec
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

open Facts Shapes1.Facts₀ K0.R1.Facts₀ in
/-- The index-list memref of one gather: a row of the index scratch, squeezed, as the kernel slices it. -/
abbrev lstOf (off : Fin 2 → Nat) (h : ∀ a, off a + S1x50.size a ≤ S128x50.size a) : Memref sig .scVector .vmem S50 .i32 :=
  ((sXv).slice (Rect.unit (s := S128x50) off S1x50.size h) (fun _ => rfl)).squeeze S50 Gen.squeezes_S1x50_S50

variable (d : Dev nD) (L : grid0.Coords)

/-- What the index scratch holds after the tile's copy: its 128 rows of the index array. -/
def xvOf (mx : Buf (Elt F) (xLoc d)) : Buf (Elt F) ((sXv).view.loc (thr d L)) :=
  ReadAs.same.apply (View.read (Elt F) ((xW).slice (Rect.unit (s := S4096x50) (k0_off1 L) S128x50.size (k0_off1_inb L)) (fun _ => rfl)).view mx)

/-- What the weights scratch holds after the tile's copy: its 128 rows of the padded weights. -/
def wvOf (mw : Buf (Elt F) (wLoc d)) : Buf (Elt F) ((sWv).view.loc (thr d L)) :=
  ReadAs.same.apply (View.read (Elt F) ((wW).slice (Rect.unit (s := S4096x64) (k0_off2 L) S128x64.size (k0_off2_inb L)) (fun _ => rfl)).view mw)

omit [FloatOps F] in
theorem xvOf_lt (mx : Buf (Elt F) (xLoc d)) (hx : ∀ i, (mx i).toNat < 100000) : ∀ j, (xvOf d L mx j).toNat < 100000 := by
  intro j
  unfold xvOf
  rw [ReadAs.apply_same, View.read_apply]
  exact hx _

omit [FloatOps F] in
/-- Every word of any row of the index scratch names a row of the table. -/
theorem hin_row (mx : Buf (Elt F) (xLoc d)) (hx : ∀ i, (mx i).toNat < 100000) (off : Fin 2 → Nat) (h : ∀ a, off a + S1x50.size a ≤ S128x50.size a) :
    ∀ x, ((lstOf off h).view.read (Elt F) (xvOf d L mx) x).toNat < S100000x128.size Gen.gathers_S100000x128_S50x128.axis := by
  intro x
  rw [View.read_apply]
  exact xvOf_lt d L mx hx _

/-- A points-to as five read tokens. -/
theorem toks5_split {ℓ : Loc nD τ sig} {S : Finset (Idx ℓ)} {f : Buf (Elt F) ℓ} (q : PosShare TreeShare) :
    (ℓ ↦[S]{q} f : sProp 𝕄) ⊢ iprop((ℓ ↦[S]{q.right} f) ∗ (ℓ ↦[S]{q.left.right} f) ∗ (ℓ ↦[S]{q.left.left.right} f)
      ∗ (ℓ ↦[S]{q.left.left.left.right} f) ∗ (ℓ ↦[S]{q.left.left.left.left} f)) := by
  iintro H
  ihave H := (pointsTo_share (PosShare.mem_left_op_right q)).1 $$ H
  icases H with ⟨H, H0⟩
  ihave H := (pointsTo_share (PosShare.mem_left_op_right q.left)).1 $$ H
  icases H with ⟨H, H1⟩
  ihave H := (pointsTo_share (PosShare.mem_left_op_right q.left.left)).1 $$ H
  icases H with ⟨H, H2⟩
  ihave H := (pointsTo_share (PosShare.mem_left_op_right q.left.left.left)).1 $$ H
  icases H with ⟨H, H3⟩
  isplitl [H0]; · iexact H0
  isplitl [H1]; · iexact H1
  isplitl [H2]; · iexact H2
  isplitl [H3]; · iexact H3
  iexact H

/-- Five read tokens back to the points-to. -/
theorem toks5_join {ℓ : Loc nD τ sig} {S : Finset (Idx ℓ)} {f : Buf (Elt F) ℓ} (q : PosShare TreeShare) :
    iprop((ℓ ↦[S]{q.right} f) ∗ (ℓ ↦[S]{q.left.right} f) ∗ (ℓ ↦[S]{q.left.left.right} f)
      ∗ (ℓ ↦[S]{q.left.left.left.right} f) ∗ (ℓ ↦[S]{q.left.left.left.left} f)) ⊢ (ℓ ↦[S]{q} f : sProp 𝕄) := by
  iintro ⟨H0, H1, H2, H3, H⟩
  ihave H := (pointsTo_share (PosShare.mem_left_op_right q.left.left.left)).2 $$ [H H3]
  · isplitl [H] <;> iassumption
  ihave H := (pointsTo_share (PosShare.mem_left_op_right q.left.left)).2 $$ [H H2]
  · isplitl [H] <;> iassumption
  ihave H := (pointsTo_share (PosShare.mem_left_op_right q.left)).2 $$ [H H1]
  · isplitl [H] <;> iassumption
  ihave H := (pointsTo_share (PosShare.mem_left_op_right q)).2 $$ [H H0]
  · isplitl [H] <;> iassumption
  iexact H

/-- A points-to as five slot tokens and what remains. -/
theorem toks6_split {ℓ : Loc nD τ sig} {S : Finset (Idx ℓ)} {f : Buf (Elt F) ℓ} (q : PosShare TreeShare) :
    (ℓ ↦[S]{q} f : sProp 𝕄) ⊢ iprop((ℓ ↦[S]{Transfers.shareTokN q 0} f) ∗ (ℓ ↦[S]{Transfers.shareTokN q 1} f) ∗ (ℓ ↦[S]{Transfers.shareTokN q 2} f)
      ∗ (ℓ ↦[S]{Transfers.shareTokN q 3} f) ∗ (ℓ ↦[S]{Transfers.shareTokN q 4} f) ∗ (ℓ ↦[S]{Transfers.shareDrop q 5} f)) := by
  show (ℓ ↦[S]{q} f : sProp 𝕄) ⊢ iprop((ℓ ↦[S]{q.right} f) ∗ (ℓ ↦[S]{q.left.right} f) ∗ (ℓ ↦[S]{q.left.left.right} f)
      ∗ (ℓ ↦[S]{q.left.left.left.right} f) ∗ (ℓ ↦[S]{q.left.left.left.left.right} f) ∗ (ℓ ↦[S]{q.left.left.left.left.left} f))
  iintro H
  ihave H := (pointsTo_share (PosShare.mem_left_op_right q)).1 $$ H
  icases H with ⟨H, H0⟩
  ihave H := (pointsTo_share (PosShare.mem_left_op_right q.left)).1 $$ H
  icases H with ⟨H, H1⟩
  ihave H := (pointsTo_share (PosShare.mem_left_op_right q.left.left)).1 $$ H
  icases H with ⟨H, H2⟩
  ihave H := (pointsTo_share (PosShare.mem_left_op_right q.left.left.left)).1 $$ H
  icases H with ⟨H, H3⟩
  ihave H := (pointsTo_share (PosShare.mem_left_op_right q.left.left.left.left)).1 $$ H
  icases H with ⟨H, H4⟩
  isplitl [H0]; · iexact H0
  isplitl [H1]; · iexact H1
  isplitl [H2]; · iexact H2
  isplitl [H3]; · iexact H3
  isplitl [H4]; · iexact H4
  iexact H

/-- Five slot tokens and the remainder back to the points-to. -/
theorem toks6_join {ℓ : Loc nD τ sig} {S : Finset (Idx ℓ)} {f : Buf (Elt F) ℓ} (q : PosShare TreeShare) :
    iprop((ℓ ↦[S]{Transfers.shareTokN q 0} f) ∗ (ℓ ↦[S]{Transfers.shareTokN q 1} f) ∗ (ℓ ↦[S]{Transfers.shareTokN q 2} f)
      ∗ (ℓ ↦[S]{Transfers.shareTokN q 3} f) ∗ (ℓ ↦[S]{Transfers.shareTokN q 4} f) ∗ (ℓ ↦[S]{Transfers.shareDrop q 5} f)) ⊢ (ℓ ↦[S]{q} f : sProp 𝕄) := by
  show iprop((ℓ ↦[S]{q.right} f) ∗ (ℓ ↦[S]{q.left.right} f) ∗ (ℓ ↦[S]{q.left.left.right} f)
      ∗ (ℓ ↦[S]{q.left.left.left.right} f) ∗ (ℓ ↦[S]{q.left.left.left.left.right} f) ∗ (ℓ ↦[S]{q.left.left.left.left.left} f)) ⊢ (ℓ ↦[S]{q} f : sProp 𝕄)
  iintro ⟨H0, H1, H2, H3, H4, H⟩
  ihave H := (pointsTo_share (PosShare.mem_left_op_right q.left.left.left.left)).2 $$ [H H4]
  · isplitl [H] <;> iassumption
  ihave H := (pointsTo_share (PosShare.mem_left_op_right q.left.left.left)).2 $$ [H H3]
  · isplitl [H] <;> iassumption
  ihave H := (pointsTo_share (PosShare.mem_left_op_right q.left.left)).2 $$ [H H2]
  · isplitl [H] <;> iassumption
  ihave H := (pointsTo_share (PosShare.mem_left_op_right q.left)).2 $$ [H H1]
  · isplitl [H] <;> iassumption
  ihave H := (pointsTo_share (PosShare.mem_left_op_right q)).2 $$ [H H0]
  · isplitl [H] <;> iassumption
  iexact H

end Cert.Proof.KI

end
-- ==== Proof.KI.Ring.lean ====
import proofs.«206443_g53721450939153_cont_9to1_m_117_36_alg».proof.Proof.KI.Iface
import Idealize.ShloMosaic.Lib.Pipeline.Value
import proofs.«206443_g53721450939153_cont_9to1_m_117_36_alg».proof.Proof.KI.BodyLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

/-! # The state of the ring of five slot buffers between two batch rows

  Before local row `n` is computed, the gathers of rows `n … n+3` are in flight into four of the five slot buffers, each on
  its own DMA semaphore with its own read token of the index scratch and of the table; the fifth slot is idle; the
  output scratch holds the finished rows `< n`. `Inv g` is that state at `n = 5·g`, where the outer loop's trip `g`
  starts: slot `s` holds row `5·g + s`. -/

variable (d : Dev nD) (L : grid0.Coords)

/-- The first batch row of the tile. -/
def base (L : grid0.Coords) : Nat := 256 * (L 1).val + 128 * (L 0).val

/-- Row `r` of the index scratch as an offset, kept in range. -/
def rowOff (r : Nat) : Fin 2 → Nat := ![min r 127, 0]
theorem rowOff_inb (r : Nat) : ∀ a, rowOff r a + S1x50.size a ≤ S128x50.size a := by
  intro a; match a with
  | ⟨0, _⟩ => show min r 127 + 1 ≤ 128; omega
  | ⟨1, _⟩ => show 0 + 50 ≤ 50; omega

/-- The whole table as the kernel slices it for a gather. -/
abbrev tSl : Memref sig .scVector .hbm S100000x128 .f32 :=
  (tW).slice (Rect.unit (s := S100000x128) ![0, 0] S100000x128.size Gen.inb_S100000x128_S100000x128_0_0) (fun _ => rfl)

/-- The slot's read tokens of the index scratch and of the table. -/
abbrev xtok (s : Nat) : PosShare TreeShare := Transfers.shareTokN fullShare s
abbrev ttok (q : PosShare TreeShare) (s : Nat) : PosShare TreeShare := Transfers.shareTokN q s

/-- The gathered rows of local row `r`: entry `(l, col)` is the table's row `x[base + r, l]` at column `col`. -/
def RowsOf (mx : Buf (Elt F) (xLoc d)) (mt : Buf (Elt F) (tLoc d)) (r : Nat) (P : S50x128.Idx → F .f32) : Prop :=
  ∀ l col : Nat, l < 50 → col < 128 →
    P (Idealize.ShloMosaic.ValueIdx.ix2 (⟨l % 50, Nat.mod_lt _ (by decide)⟩ : Fin 50) (⟨col % 128, Nat.mod_lt _ (by decide)⟩ : Fin 128))
      = Cert.SpecF.tAt (F := F) mt (Cert.SpecF.rowAt mx (base L + r) l) col

/-- The finished rows of the output scratch: rows `< n` hold the result's rows `base + b`. -/
def OutGood (mx : Buf (Elt F) (xLoc d)) (mw : Buf (Elt F) (wLoc d)) (mt : Buf (Elt F) (tLoc d)) (n : Nat)
    (fo : Buf (Elt F) ((sOv).view.loc (thr d L))) : Prop :=
  ∀ b col : Nat, b < n → b < 128 → col < 128 →
    (fo : FVec F S128x128 .f32) (Idealize.ShloMosaic.ValueIdx.ix2 (⟨b % 128, Nat.mod_lt _ (by decide)⟩ : Fin 128) (⟨col % 128, Nat.mod_lt _ (by decide)⟩ : Fin 128))
      = Cert.SpecF.GkAt (F := F) mx mw mt (base L + b) col

/-- A slot whose gather of local row `r` is in flight: the flight (delivering the slot buffer written with the gathered
    rows, the words of the index scratch it reads its list from — some row of it — and the table, at the slot's tokens)
    and what the issue left beside it. -/
def FlightOf (q : PosShare TreeShare) (mx : Buf (Elt F) (xLoc d)) (mt : Buf (Elt F) (tLoc d))
    (mb : Memref sig .scVector .vmem S50x128 .f32) (sm : DmaSem sig) (s r : Nat) : sProp 𝕄 :=
  iprop(∃ (gprev : Buf (Elt F) (mb.view.loc (thr d L))) (P : S50x128.Idx → F .f32) (off : Fin 2 → Nat)
      (h : ∀ a, off a + S1x50.size a ≤ S128x50.size a), ⌜RowsOf d L mx mt r P⌝
    ∗ Transfers.Flight countersEmb (thr d L) (SemLoc.dma sm) (default : HIx 1) 204800
        iprop(((mb.view.loc (thr d L) ↦[mb.view.set]{fullShare} mb.view.writes (Elt F) gprev [⟨Rect.whole _, P⟩])
            ∗ ((sXv).view.loc (thr d L) ↦[(lstOf off h).view.set]{xtok s} xvOf d L mx))
          ∗ ((tW).view.loc (thr d L) ↦[(tSl).view.set]{ttok q s} mt))
    ∗ ((sXv).view.loc (thr d L) ↦[Finset.univ \ (lstOf off h).view.set]{xtok s} xvOf d L mx)
    ∗ ((tW).view.loc (thr d L) ↦[Finset.univ \ (tSl).view.set]{ttok q s} mt)
    ∗ (mb.view.loc (thr d L) ↦[Finset.univ \ mb.view.set]{fullShare} mb.view.writes (Elt F) gprev [⟨Rect.whole _, P⟩]))

/-- An idle slot: its buffer at some contents, its semaphore at zero, its two tokens. -/
def IdleOf (q : PosShare TreeShare) (mx : Buf (Elt F) (xLoc d)) (mt : Buf (Elt F) (tLoc d))
    (mb : Memref sig .scVector .vmem S50x128 .f32) (sm : DmaSem sig) (s : Nat) : sProp 𝕄 :=
  iprop((∃ g, mb.view.loc (thr d L) ↦{fullShare} g) ∗ semVal (thr d L, SemLoc.dma sm) 0
    ∗ ((sXv).view.loc (thr d L) ↦{xtok s} xvOf d L mx) ∗ ((tW).view.loc (thr d L) ↦{ttok q s} mt))

/-- The output scratch with its finished rows. -/
def OutPart (mx : Buf (Elt F) (xLoc d)) (mw : Buf (Elt F) (wLoc d)) (mt : Buf (Elt F) (tLoc d)) (n : Nat) : sProp 𝕄 :=
  iprop(∃ fo, ⌜OutGood d L mx mw mt n fo⌝ ∗ ((sOv).view.loc (thr d L) ↦{fullShare} fo))

/-- The ring where trip `g` of the outer loop starts. -/
def Inv (q : PosShare TreeShare) (mx : Buf (Elt F) (xLoc d)) (mw : Buf (Elt F) (wLoc d)) (mt : Buf (Elt F) (tLoc d))
    (O : CellTallies nD τ sig (HIx 1)) (W : Waits sig (HIx 1)) (g : Nat) (_ : BitVec 32) : sProp 𝕄 :=
  iprop(Transfers.MayWaits (thr d L) (none : HIx 1) O
    ∗ ((sWv).view.loc (thr d L) ↦{fullShare} wvOf d L mw)
    ∗ OutPart d L mx mw mt (5 * g)
    ∗ FlightOf d L q mx mt sB3 cc0_scratch8.sem 0 (5 * g)
    ∗ FlightOf d L q mx mt sB4 cc0_scratch9.sem 1 (5 * g + 1)
    ∗ FlightOf d L q mx mt sB5 cc0_scratch10.sem 2 (5 * g + 2)
    ∗ FlightOf d L q mx mt sB6 cc0_scratch11.sem 3 (5 * g + 3)
    ∗ IdleOf d L q mx mt sB7 cc0_scratch12.sem 4
    ∗ ∃ W', ⌜∀ p ∈ W', p ∈ W ∨ p.2 = none⌝ ∗ owes (thr d L) O W')

end Cert.Proof.KI

end
-- ==== Proof.KI.Values.lean ====
import proofs.«206443_g53721450939153_cont_9to1_m_117_36_alg».proof.Proof.KI.Iface
import Idealize.ShloMosaic.Lib.Pipeline.Value
import proofs.«206443_g53721450939153_cont_9to1_m_117_36_alg».proof.Proof.KI.Ring
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

/-! # Values: the scratch contents and the accumulators, read against the specification

  What the tile's scratch buffers hold, as entries of the launch arrays: the weights scratch at `(b, l)` is the padded
  weight of batch row `base + b` at position `l`; a slot buffer written whole with the gathered rows of local row `r`
  is, at `(l, col)`, the table's row `x[base + r, l]` at column `col`; and eight accumulators that hold the fifty-step
  recurrences of local row `b` over such a scratch and such a buffer are the sixteen-lane chunks of row `base + b` of
  the result array the specification names. -/

variable (d : Dev nD) (L : grid0.Coords)

omit [FloatOps F] in
/-- The tile's first batch row plus a local row is a batch row. -/
theorem base_add_lt (b : Nat) (hb : b < 128) : base L + b < 4096 := by
  have h0 : (L 0).val < 2 := (L 0).isLt
  have h1 : (L 1).val < 16 := (L 1).isLt
  unfold base
  omega

/-- (V1) The weights scratch at local row `b`, position `l`: the padded weight of batch row `base + b` there. -/
theorem wv_val (mw : Buf (Elt F) (wLoc d)) (b l : Nat) (hb : b < 128) (hl : l < 64) :
    wvAt (wvOf d L mw) b l = Cert.SpecF.wAt (F := F) mw (base L + b) l := by
  have hlt := base_add_lt L b hb
  have e2 := Gen.k0_off2_eq L
  unfold wvAt wvOf Cert.SpecF.wAt
  rw [ReadAs.apply_same, View.read_apply]
  show mw _ = mw _
  congr 1
  funext a
  apply Fin.ext
  match a with
  | ⟨0, _⟩ =>
    show k0_off2 L 0 + 1 * (b % 128) = (base L + b) % 4096
    rw [e2]
    show 256 * (L 1).val + 128 * (L 0).val + 1 * (b % 128) = (base L + b) % 4096
    unfold base at hlt ⊢
    omega
  | ⟨1, _⟩ =>
    show k0_off2 L 1 + 1 * (l % 64) = l % 64
    rw [e2]
    show 0 + 1 * (l % 64) = l % 64
    omega

/-- Slot buffer 0 written whole with the gathered rows of local row `r` holds, at `(l, col)`, the table's row
    `x[base + r, l]` at column `col`. -/
theorem buf_val3 (mx : Buf (Elt F) (xLoc d)) (mt : Buf (Elt F) (tLoc d)) (r : Nat) (P : S50x128.Idx → F .f32) (hP : RowsOf d L mx mt r P)
    (g : Buf (Elt F) ((sB3).view.loc (thr d L))) (l col : Nat) (hl : l < 50) (hc : col < 128) :
    bufAt ((sB3).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB3).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB3).view.writes (Elt F) g [⟨Rect.whole S50x128, P⟩]) _ = ((sB3).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- Slot buffer 1 written whole with the gathered rows of local row `r` holds, at `(l, col)`, the table's row
    `x[base + r, l]` at column `col`. -/
theorem buf_val4 (mx : Buf (Elt F) (xLoc d)) (mt : Buf (Elt F) (tLoc d)) (r : Nat) (P : S50x128.Idx → F .f32) (hP : RowsOf d L mx mt r P)
    (g : Buf (Elt F) ((sB4).view.loc (thr d L))) (l col : Nat) (hl : l < 50) (hc : col < 128) :
    bufAt ((sB4).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB4).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB4).view.writes (Elt F) g [⟨Rect.whole S50x128, P⟩]) _ = ((sB4).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- Slot buffer 2 written whole with the gathered rows of local row `r` holds, at `(l, col)`, the table's row
    `x[base + r, l]` at column `col`. -/
theorem buf_val5 (mx : Buf (Elt F) (xLoc d)) (mt : Buf (Elt F) (tLoc d)) (r : Nat) (P : S50x128.Idx → F .f32) (hP : RowsOf d L mx mt r P)
    (g : Buf (Elt F) ((sB5).view.loc (thr d L))) (l col : Nat) (hl : l < 50) (hc : col < 128) :
    bufAt ((sB5).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB5).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB5).view.writes (Elt F) g [⟨Rect.whole S50x128, P⟩]) _ = ((sB5).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- Slot buffer 3 written whole with the gathered rows of local row `r` holds, at `(l, col)`, the table's row
    `x[base + r, l]` at column `col`. -/
theorem buf_val6 (mx : Buf (Elt F) (xLoc d)) (mt : Buf (Elt F) (tLoc d)) (r : Nat) (P : S50x128.Idx → F .f32) (hP : RowsOf d L mx mt r P)
    (g : Buf (Elt F) ((sB6).view.loc (thr d L))) (l col : Nat) (hl : l < 50) (hc : col < 128) :
    bufAt ((sB6).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB6).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB6).view.writes (Elt F) g [⟨Rect.whole S50x128, P⟩]) _ = ((sB6).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- Slot buffer 4 written whole with the gathered rows of local row `r` holds, at `(l, col)`, the table's row
    `x[base + r, l]` at column `col`. -/
theorem buf_val7 (mx : Buf (Elt F) (xLoc d)) (mt : Buf (Elt F) (tLoc d)) (r : Nat) (P : S50x128.Idx → F .f32) (hP : RowsOf d L mx mt r P)
    (g : Buf (Elt F) ((sB7).view.loc (thr d L))) (l col : Nat) (hl : l < 50) (hc : col < 128) :
    bufAt ((sB7).view.writes (Elt F) g [⟨Rect.whole S50x128, P⟩]) l col
      = Cert.SpecF.tAt (F := F) mt (Cert.SpecF.rowAt mx (base L + r) l) col := by
  rw [← hP l col hl hc]
  unfold bufAt
  have hrd := View.read_writes_cons_emb (sB7).view g (Rect.whole S50x128) P []
    (Idealize.ShloMosaic.ValueIdx.ix2 (⟨l % 50, Nat.mod_lt _ (by decide)⟩ : Fin 50) (⟨col % 128, Nat.mod_lt _ (by decide)⟩ : Fin 128))
  rw [View.read_apply] at hrd
  refine Eq.trans ?_ hrd
  show ((sB7).view.writes (Elt F) g [⟨Rect.whole S50x128, P⟩]) _ = ((sB7).view.writes (Elt F) g [⟨Rect.whole S50x128, P⟩]) _
  congr 1
  funext a
  apply Fin.ext
  match a with
  | ⟨0, _⟩ => show l % 50 = 0 + 1 * (l % 50); omega
  | ⟨1, _⟩ => show col % 128 = 0 + 1 * (col % 128); omega

/-- One accumulator chunk: the fifty-step recurrence over a scratch and a buffer that hold row `base + b`'s weights and
    gathered rows is the result's entry at column `16·c + i`. -/
theorem A_spec (mx : Buf (Elt F) (xLoc d)) (mw : Buf (Elt F) (wLoc d)) (mt : Buf (Elt F) (tLoc d))
    (fw : FVec F S128x64 .f32) (fb : FVec F S50x128 .f32) (b c : Nat) (hc : c < 8)
    (hw : ∀ l, l < 50 → wvAt fw b l = Cert.SpecF.wAt (F := F) mw (base L + b) l)
    (hbuf : ∀ l col, l < 50 → col < 128 → bufAt fb l col = Cert.SpecF.tAt (F := F) mt (Cert.SpecF.rowAt mx (base L + b) l) col)
    (i : S16.Idx) : A fw fb b c i 50 = Cert.SpecF.GkAt (F := F) mx mw mt (base L + b) (16 * c + (i 0).val) := by
  have hi : (i 0).val < 16 := (i 0).isLt
  unfold A Cert.SpecF.GkAt
  exact Cert.SpecF.acc_congr 50 (fun l h => hw l h) (fun l h => hbuf l _ h (by omega))

/-- (V3) Eight accumulators at the fifty-step recurrences of local row `b` are the eight sixteen-lane chunks of row
    `base + b` of the result. -/
theorem good_spec (mx : Buf (Elt F) (xLoc d)) (mw : Buf (Elt F) (wLoc d)) (mt : Buf (Elt F) (tLoc d))
    (fw : FVec F S128x64 .f32) (fb : FVec F S50x128 .f32) (b : Nat) (r : AccT F)
    (hw : ∀ l, l < 50 → wvAt fw b l = Cert.SpecF.wAt (F := F) mw (base L + b) l)
    (hbuf : ∀ l col, l < 50 → col < 128 → bufAt fb l col = Cert.SpecF.tAt (F := F) mt (Cert.SpecF.rowAt mx (base L + b) l) col)
    (hG : Good fw fb b 50 r) :
    (∀ i : S16.Idx, r.1 i = Cert.SpecF.GkAt (F := F) mx mw mt (base L + b) (16 * 0 + (i 0).val))
    ∧ (∀ i : S16.Idx, r.2.1 i = Cert.SpecF.GkAt (F := F) mx mw mt (base L + b) (16 * 1 + (i 0).val))
    ∧ (∀ i : S16.Idx, r.2.2.1 i = Cert.SpecF.GkAt (F := F) mx mw mt (base L + b) (16 * 2 + (i 0).val))
    ∧ (∀ i : S16.Idx, r.2.2.2.1 i = Cert.SpecF.GkAt (F := F) mx mw mt (base L + b) (16 * 3 + (i 0).val))
    ∧ (∀ i : S16.Idx, r.2.2.2.2.1 i = Cert.SpecF.GkAt (F := F) mx mw mt (base L + b) (16 * 4 + (i 0).val))
    ∧ (∀ i : S16.Idx, r.2.2.2.2.2.1 i = Cert.SpecF.GkAt (F := F) mx mw mt (base L + b) (16 * 5 + (i 0).val))
    ∧ (∀ i : S16.Idx, r.2.2.2.2.2.2.1 i = Cert.SpecF.GkAt (F := F) mx mw mt (base L + b) (16 * 6 + (i 0).val))
    ∧ (∀ i : S16.Idx, r.2.2.2.2.2.2.2 i = Cert.SpecF.GkAt (F := F) mx mw mt (base L + b) (16 * 7 + (i 0).val)) := by
  obtain ⟨h0, h1, h2, h3, h4, h5, h6, h7⟩ := hG
  exact ⟨fun i => (h0 i).trans (A_spec d L mx mw mt fw fb b 0 (by decide) hw hbuf i),
    fun i => (h1 i).trans (A_spec d L mx mw mt fw fb b 1 (by decide) hw hbuf i),
    fun i => (h2 i).trans (A_spec d L mx mw mt fw fb b 2 (by decide) hw hbuf i),
    fun i => (h3 i).trans (A_spec d L mx mw mt fw fb b 3 (by decide) hw hbuf i),
    fun i => (h4 i).trans (A_spec d L mx mw mt fw fb b 4 (by decide) hw hbuf i),
    fun i => (h5 i).trans (A_spec d L mx mw mt fw fb b 5 (by decide) hw hbuf i),
    fun i => (h6 i).trans (A_spec d L mx mw mt fw fb b 6 (by decide) hw hbuf i),
    fun i => (h7 i).trans (A_spec d L mx mw mt fw fb b 7 (by decide) hw hbuf i)⟩

/-! ## The payload of one row's gather -/

omit [FloatOps F] in
/-- The index scratch after the tile's copy, at local row `b` and position `l`: the index array at batch row `base + b`. -/
theorem xvOf_apply (mx : Buf (Elt F) (xLoc d)) (i : S128x50.Idx) (j : S4096x50.Idx)
    (h0 : (j 0).val = base L + (i 0).val) (h1 : (j 1).val = (i 1).val) : xvOf d L mx i = mx j := by
  have e1 := Gen.k0_off1_eq L
  unfold xvOf
  rw [ReadAs.apply_same, View.read_apply]
  show mx _ = mx _
  congr 1
  funext a
  apply Fin.ext
  match a with
  | ⟨0, _⟩ =>
    show k0_off1 L 0 + 1 * (i 0).val = (j 0).val
    rw [e1, h0]
    show 256 * (L 1).val + 128 * (L 0).val + 1 * (i 0).val = base L + (i 0).val
    unfold base
    omega
  | ⟨1, _⟩ =>
    show k0_off1 L 1 + 1 * (i 1).val = (j 1).val
    rw [e1, h1]
    show 0 + 1 * (i 1).val = (i 1).val
    omega

omit [FloatOps F] in
/-- Entry `j` of the squeezed one-row index list sits in the index scratch at the row's offset, `j` positions along. -/
theorem lst_emb (off : Fin 2 → Nat) (h : ∀ a, off a + S1x50.size a ≤ S128x50.size a) (j : S50.Idx) :
    (lstOf off h).view.emb j
      = (Rect.unit (s := S128x50) off S1x50.size h).emb
          (Idealize.ShloMosaic.ValueIdx.ix2 (0 : Fin 1) (⟨(j 0).val, (j 0).isLt⟩ : Fin 50)) := by
  have e : Shape.reshapeEquiv (Gen.squeezes_S1x50_S50).numel_eq j
      = Idealize.ShloMosaic.ValueIdx.ix2 (0 : Fin 1) (⟨(j 0).val, (j 0).isLt⟩ : Fin 50) :=
    Shape.reshapeEquiv_eq_of_rowMajor _ (by
      rw [Shape.rowMajor_val_two, Shape.rowMajor_val_one]
      show (0 : ℕ) * 50 + (j 0).val = (j 0).val
      omega)
  show (Rect.unit (s := S128x50) off S1x50.size h).emb (Shape.reshapeEquiv (Gen.squeezes_S1x50_S50).numel_eq j) = _
  rw [e]

omit [FloatOps F] in
/-- The word the list of local row `r` holds at position `l`: the index array at `(base + r, l)`. -/
theorem lst_word (mx : Buf (Elt F) (xLoc d)) (off : Fin 2 → Nat) (h : ∀ a, off a + S1x50.size a ≤ S128x50.size a)
    (r : Nat) (hr : r < 128) (hoff : off = ![r, 0]) (j : S50.Idx) (l : Nat) (hl : l < 50) (hj : (j 0).val = l) :
    (lstOf off h).view.read (Elt F) (xvOf d L mx) j
      = mx (Idealize.ShloMosaic.ValueIdx.ix2 (⟨(base L + r) % 4096, Nat.mod_lt _ (by decide)⟩ : Fin 4096) (⟨l % 50, Nat.mod_lt _ (by decide)⟩ : Fin 50)) := by
  have hlt := base_add_lt L r hr
  subst hoff
  rw [View.read_apply, lst_emb]
  refine xvOf_apply d L mx _ _ ?_ ?_
  · show (base L + r) % 4096 = base L + (r + 1 * 0)
    omega
  · show l % 50 = 0 + 1 * (j 0).val
    omega

/-- (V4) The payload of the gather of local row `r` — at each `(l, col)` the table at the row the list's word `l`
    names, column `col` — holds the gathered rows of that row. -/
theorem rows_of_gather (mx : Buf (Elt F) (xLoc d)) (mt : Buf (Elt F) (tLoc d)) (off : Fin 2 → Nat)
    (h : ∀ a, off a + S1x50.size a ≤ S128x50.size a) (r : Nat) (hr : r < 128) (hoff : off = ![r, 0])
    (hg : S100000x128.Gathers 0 S50x128) (hn : S50.numel = S50x128.size hg.axis')
    (hin' : ∀ x, ((lstOf off h).view.read (Elt F) (xvOf d L mx) x).toNat < S100000x128.size hg.axis) :
    RowsOf d L mx mt r (SparseCore.gatherPayload hg ((tSl).view.read (Elt F) mt)
      (SparseCore.rows ((lstOf off h).view.read (Elt F) (xvOf d L mx)) hn hin')) := by
  intro l col hl hc
  -- the list's entry for destination row l, and its word
  let X : S50x128.Idx := Idealize.ShloMosaic.ValueIdx.ix2 (⟨l % 50, Nat.mod_lt _ (by decide)⟩ : Fin 50) (⟨col % 128, Nat.mod_lt _ (by decide)⟩ : Fin 128)
  let jl : S50.Idx := S50.rowMajor.symm ((X hg.axis').cast hn.symm)
  have hjl : (jl 0).val = l := by
    have e1 : (S50.rowMajor jl).val = (X hg.axis').val := congrArg Fin.val (S50.rowMajor.apply_symm_apply _)
    rw [Shape.rowMajor_val_one] at e1
    rw [e1]
    show l % 50 = l
    omega
  have hw := lst_word d L mx off h r hr hoff jl l hl hjl
  have hlt : ((lstOf off h).view.read (Elt F) (xvOf d L mx) jl).toNat < 100000 := hin' jl
  unfold SparseCore.gatherPayload
  rw [View.read_apply]
  unfold Cert.SpecF.tAt Cert.SpecF.rowAt
  show mt _ = mt _
  congr 1
  funext a
  apply Fin.ext
  match a with
  | ⟨0, _⟩ =>
    show 0 + 1 * (hg.idx (SparseCore.rows ((lstOf off h).view.read (Elt F) (xvOf d L mx)) hn hin') X hg.axis).val = _
    rw [Shape.Gathers.idx_axis]
    show 0 + 1 * ((lstOf off h).view.read (Elt F) (xvOf d L mx) jl).toNat = _
    rw [hw] at hlt ⊢
    show 0 + 1 * (mx _).toNat = (mx _).toNat % 100000
    omega
  | ⟨1, _⟩ =>
    show 0 + 1 * (hg.idx (SparseCore.rows ((lstOf off h).view.read (Elt F) (xvOf d L mx)) hn hin') X ⟨1, by decide⟩).val = col % 128
    rw [Shape.Gathers.idx_of_ne hg _ X ⟨1, by decide⟩ (by decide)]
    show 0 + 1 * (col % 128) = col % 128
    omega

/-- (V4, closed-form offsets) The same when the row's offset is a printed function with a closed form. -/
theorem rows_of_gather' (mx : Buf (Elt F) (xLoc d)) (mt : Buf (Elt F) (tLoc d)) (off : Fin 2 → Nat)
    (h : ∀ a, off a + S1x50.size a ≤ S128x50.size a) [co : ClosedOff off] (r : Nat) (hr : r < 128) (hform : co.form = ![r, 0])
    (hg : S100000x128.Gathers 0 S50x128) (hn : S50.numel = S50x128.size hg.axis')
    (hin' : ∀ x, ((lstOf off h).view.read (Elt F) (xvOf d L mx) x).toNat < S100000x128.size hg.axis) :
    RowsOf d L mx mt r (SparseCore.gatherPayload hg ((tSl).view.read (Elt F) mt)
      (SparseCore.rows ((lstOf off h).view.read (Elt F) (xvOf d L mx)) hn hin')) :=
  rows_of_gather d L mx mt off h r hr (co.eq.trans hform) hg hn hin'

end Cert.Proof.KI

end
-- ==== Proof.KI.OutRows.lean ====
/-
  The output scratch, row by row, and the result's rows. A batch row's eight 16-lane accumulators are stored into row `b`
  of the output scratch, chunk `c` at columns `[16c, 16c+16)`: the rows below `b` keep what they held, row `b` takes the
  accumulators' lanes, so the scratch's finished rows grow by one. When all 128 rows are finished, the scratch copied
  onto the tile's 128 rows of the result leaves them at the whole-array function: entry `(base + b, col)` is the
  fifty-step recurrence over batch row `base + b` at column `col`.
-/
import proofs.«206443_g53721450939153_cont_9to1_m_117_36_alg».proof.Proof.KI.Ring
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! ## One 1×16 piece of a row of the output scratch -/

omit [FloatOps F] in
/-- The elements under the piece at row `b`, chunk `c`. -/
theorem mem_piece (off : Fin 2 → Nat) (h : ∀ a, off a + S1x16.size a ≤ S128x128.size a) (b c : Nat) (e : off = ![b, 16 * c]) (y : S128x128.Idx) :
    y ∈ (Rect.unit (s := S128x128) off S1x16.size h).set ↔ (y 0).val = b ∧ 16 * c ≤ (y 1).val ∧ (y 1).val < 16 * c + 16 := by
  subst e
  rw [Rect.mem_set_unit]
  constructor
  · intro hh
    have h0 : b ≤ (y 0).val ∧ (y 0).val < b + 1 := hh 0
    have h1 : 16 * c ≤ (y 1).val ∧ (y 1).val < 16 * c + 16 := hh 1
    exact ⟨by omega, h1.1, h1.2⟩
  · rintro ⟨h0, h1, h2⟩ a
    match a with
    | ⟨0, _⟩ => show b ≤ (y 0).val ∧ (y 0).val < b + 1; omega
    | ⟨1, _⟩ => show 16 * c ≤ (y 1).val ∧ (y 1).val < 16 * c + 16; exact ⟨h1, h2⟩

/-- Row `b` of the result's tile as a function of the output scratch's indices. -/
def rowG (mx : Buf (Elt F) (xLoc d)) (mw : Buf (Elt F) (wLoc d)) (mt : Buf (Elt F) (tLoc d)) (b : Nat) : S128x128.Idx → F .f32 :=
  fun y => Cert.SpecF.GkAt (F := F) mx mw mt (base L + b) (y 1).val

/-- A piece's payload — an accumulator viewed as one row of sixteen — is that function on the piece. -/
theorem piece_val (mx : Buf (Elt F) (xLoc d)) (mw : Buf (Elt F) (wLoc d)) (mt : Buf (Elt F) (tLoc d))
    (off : Fin 2 → Nat) (h : ∀ a, off a + S1x16.size a ≤ S128x128.size a) (b c : Nat) (e : off = ![b, 16 * c])
    {hsc : S16.ShapeCasts S1x16} (r : FVec F S16 .f32)
    (hr : ∀ i : S16.Idx, r i = Cert.SpecF.GkAt (F := F) mx mw mt (base L + b) (16 * c + (i 0).val)) :
    ∀ x : (Rect.unit (s := S128x128) off S1x16.size h).shape.Idx,
      shapeCast S1x16 r hsc x = rowG d L mx mw mt b ((Rect.unit (s := S128x128) off S1x16.size h).emb x) := by
  subst e
  intro x
  refine (shapeCast_addUnit_apply ![16] r hsc x).trans ((hr _).trans ?_)
  show Cert.SpecF.GkAt (F := F) mx mw mt (base L + b) (16 * c + (x 1).val) = Cert.SpecF.GkAt (F := F) mx mw mt (base L + b) (16 * c + 1 * (x 1).val)
  rw [Nat.one_mul]

/-! ## A finished row more -/

/-- After the eight stores of row `b`'s accumulators the output scratch's rows `< b + 1` are finished. -/
theorem out_update (mx : Buf (Elt F) (xLoc d)) (mw : Buf (Elt F) (wLoc d)) (mt : Buf (Elt F) (tLoc d)) (b : Nat)
    (fo : Buf (Elt F) ((sOv).view.loc (thr d L))) (r : AccT F) {hsc : S16.ShapeCasts S1x16}
    (off0 off1 off2 off3 off4 off5 off6 off7 : Fin 2 → Nat)
    (h0 : ∀ a, off0 a + S1x16.size a ≤ S128x128.size a) (h1 : ∀ a, off1 a + S1x16.size a ≤ S128x128.size a)
    (h2 : ∀ a, off2 a + S1x16.size a ≤ S128x128.size a) (h3 : ∀ a, off3 a + S1x16.size a ≤ S128x128.size a)
    (h4 : ∀ a, off4 a + S1x16.size a ≤ S128x128.size a) (h5 : ∀ a, off5 a + S1x16.size a ≤ S128x128.size a)
    (h6 : ∀ a, off6 a + S1x16.size a ≤ S128x128.size a) (h7 : ∀ a, off7 a + S1x16.size a ≤ S128x128.size a)
    (e0 : off0 = ![b, 16 * 0]) (e1 : off1 = ![b, 16 * 1]) (e2 : off2 = ![b, 16 * 2]) (e3 : off3 = ![b, 16 * 3])
    (e4 : off4 = ![b, 16 * 4]) (e5 : off5 = ![b, 16 * 5]) (e6 : off6 = ![b, 16 * 6]) (e7 : off7 = ![b, 16 * 7])
    (hfo : OutGood d L mx mw mt b fo) (hb : b < 128)
    (hr0 : ∀ i : S16.Idx, r.1 i = Cert.SpecF.GkAt (F := F) mx mw mt (base L + b) (16 * 0 + (i 0).val))
    (hr1 : ∀ i : S16.Idx, r.2.1 i = Cert.SpecF.GkAt (F := F) mx mw mt (base L + b) (16 * 1 + (i 0).val))
    (hr2 : ∀ i : S16.Idx, r.2.2.1 i = Cert.SpecF.GkAt (F := F) mx mw mt (base L + b) (16 * 2 + (i 0).val))
    (hr3 : ∀ i : S16.Idx, r.2.2.2.1 i = Cert.SpecF.GkAt (F := F) mx mw mt (base L + b) (16 * 3 + (i 0).val))
    (hr4 : ∀ i : S16.Idx, r.2.2.2.2.1 i = Cert.SpecF.GkAt (F := F) mx mw mt (base L + b) (16 * 4 + (i 0).val))
    (hr5 : ∀ i : S16.Idx, r.2.2.2.2.2.1 i = Cert.SpecF.GkAt (F := F) mx mw mt (base L + b) (16 * 5 + (i 0).val))
    (hr6 : ∀ i : S16.Idx, r.2.2.2.2.2.2.1 i = Cert.SpecF.GkAt (F := F) mx mw mt (base L + b) (16 * 6 + (i 0).val))
    (hr7 : ∀ i : S16.Idx, r.2.2.2.2.2.2.2 i = Cert.SpecF.GkAt (F := F) mx mw mt (base L + b) (16 * 7 + (i 0).val)) :
    OutGood d L mx mw mt (b + 1) ((sOv).view.writes (Elt F) fo
      [⟨Rect.unit (s := S128x128) off7 S1x16.size h7, shapeCast S1x16 r.2.2.2.2.2.2.2 hsc⟩,
        ⟨Rect.unit (s := S128x128) off6 S1x16.size h6, shapeCast S1x16 r.2.2.2.2.2.2.1 hsc⟩,
        ⟨Rect.unit (s := S128x128) off5 S1x16.size h5, shapeCast S1x16 r.2.2.2.2.2.1 hsc⟩,
        ⟨Rect.unit (s := S128x128) off4 S1x16.size h4, shapeCast S1x16 r.2.2.2.2.1 hsc⟩,
        ⟨Rect.unit (s := S128x128) off3 S1x16.size h3, shapeCast S1x16 r.2.2.2.1 hsc⟩,
        ⟨Rect.unit (s := S128x128) off2 S1x16.size h2, shapeCast S1x16 r.2.2.1 hsc⟩,
        ⟨Rect.unit (s := S128x128) off1 S1x16.size h1, shapeCast S1x16 r.2.1 hsc⟩,
        ⟨Rect.unit (s := S128x128) off0 S1x16.size h0, shapeCast S1x16 r.1 hsc⟩]) := by
  intro b' col hb' hb'128 hcol
  generalize hP : ([⟨Rect.unit (s := S128x128) off7 S1x16.size h7, shapeCast S1x16 r.2.2.2.2.2.2.2 hsc⟩,
        ⟨Rect.unit (s := S128x128) off6 S1x16.size h6, shapeCast S1x16 r.2.2.2.2.2.2.1 hsc⟩,
        ⟨Rect.unit (s := S128x128) off5 S1x16.size h5, shapeCast S1x16 r.2.2.2.2.2.1 hsc⟩,
        ⟨Rect.unit (s := S128x128) off4 S1x16.size h4, shapeCast S1x16 r.2.2.2.2.1 hsc⟩,
        ⟨Rect.unit (s := S128x128) off3 S1x16.size h3, shapeCast S1x16 r.2.2.2.1 hsc⟩,
        ⟨Rect.unit (s := S128x128) off2 S1x16.size h2, shapeCast S1x16 r.2.2.1 hsc⟩,
        ⟨Rect.unit (s := S128x128) off1 S1x16.size h1, shapeCast S1x16 r.2.1 hsc⟩,
        ⟨Rect.unit (s := S128x128) off0 S1x16.size h0, shapeCast S1x16 r.1 hsc⟩] : List (View.Piece (Elt F) S128x128 .f32)) = P
  have hmem : ∀ p ∈ P, p = ⟨Rect.unit (s := S128x128) off7 S1x16.size h7, shapeCast S1x16 r.2.2.2.2.2.2.2 hsc⟩
      ∨ p = ⟨Rect.unit (s := S128x128) off6 S1x16.size h6, shapeCast S1x16 r.2.2.2.2.2.2.1 hsc⟩
      ∨ p = ⟨Rect.unit (s := S128x128) off5 S1x16.size h5, shapeCast S1x16 r.2.2.2.2.2.1 hsc⟩
      ∨ p = ⟨Rect.unit (s := S128x128) off4 S1x16.size h4, shapeCast S1x16 r.2.2.2.2.1 hsc⟩
      ∨ p = ⟨Rect.unit (s := S128x128) off3 S1x16.size h3, shapeCast S1x16 r.2.2.2.1 hsc⟩
      ∨ p = ⟨Rect.unit (s := S128x128) off2 S1x16.size h2, shapeCast S1x16 r.2.2.1 hsc⟩
      ∨ p = ⟨Rect.unit (s := S128x128) off1 S1x16.size h1, shapeCast S1x16 r.2.1 hsc⟩
      ∨ p = ⟨Rect.unit (s := S128x128) off0 S1x16.size h0, shapeCast S1x16 r.1 hsc⟩ := by
    intro p hp; subst hP
    simpa only [List.mem_cons, List.mem_nil_iff, or_false] using hp
  have hy0 : b' % 128 = b' := Nat.mod_eq_of_lt hb'128
  have hy1 : col % 128 = col := Nat.mod_eq_of_lt hcol
  change (sOv).view.read (Elt F) ((sOv).view.writes (Elt F) fo P)
    (Idealize.ShloMosaic.ValueIdx.ix2 (⟨b' % 128, Nat.mod_lt _ (by decide)⟩ : Fin 128) (⟨col % 128, Nat.mod_lt _ (by decide)⟩ : Fin 128)) = _
  generalize hy : (Idealize.ShloMosaic.ValueIdx.ix2 (⟨b' % 128, Nat.mod_lt _ (by decide)⟩ : Fin 128) (⟨col % 128, Nat.mod_lt _ (by decide)⟩ : Fin 128) : S128x128.Idx) = y
  have hyr : (y 0).val = b' := by subst hy; exact hy0
  have hyc : (y 1).val = col := by subst hy; exact hy1
  by_cases hbb : b' = b
  · -- row b: the piece of the column's chunk holds it
    subst hbb
    have hG : ∀ p ∈ P, ∀ x : p.1.shape.Idx, p.2 x = rowG d L mx mw mt b' (p.1.emb x) := by
      intro p hp
      rcases hmem p hp with rfl | rfl | rfl | rfl | rfl | rfl | rfl | rfl
      · exact piece_val d L mx mw mt off7 h7 b' 7 e7 _ hr7
      · exact piece_val d L mx mw mt off6 h6 b' 6 e6 _ hr6
      · exact piece_val d L mx mw mt off5 h5 b' 5 e5 _ hr5
      · exact piece_val d L mx mw mt off4 h4 b' 4 e4 _ hr4
      · exact piece_val d L mx mw mt off3 h3 b' 3 e3 _ hr3
      · exact piece_val d L mx mw mt off2 h2 b' 2 e2 _ hr2
      · exact piece_val d L mx mw mt off1 h1 b' 1 e1 _ hr1
      · exact piece_val d L mx mw mt off0 h0 b' 0 e0 _ hr0
    have hcov : ∃ p ∈ P, y ∈ p.1.set := by
      subst hP
      have hc : (y 1).val < 128 := (y 1).isLt
      rcases (show (y 1).val < 16 ∨ (16 ≤ (y 1).val ∧ (y 1).val < 32) ∨ (32 ≤ (y 1).val ∧ (y 1).val < 48) ∨ (48 ≤ (y 1).val ∧ (y 1).val < 64)
          ∨ (64 ≤ (y 1).val ∧ (y 1).val < 80) ∨ (80 ≤ (y 1).val ∧ (y 1).val < 96) ∨ (96 ≤ (y 1).val ∧ (y 1).val < 112) ∨ 112 ≤ (y 1).val by omega)
        with hh | hh | hh | hh | hh | hh | hh | hh
      · exact ⟨_, List.Mem.tail _ (List.Mem.tail _ (List.Mem.tail _ (List.Mem.tail _ (List.Mem.tail _ (List.Mem.tail _ (List.Mem.tail _ (List.Mem.head _))))))), (mem_piece off0 h0 b' 0 e0 y).mpr ⟨hyr, by omega, by omega⟩⟩
      · exact ⟨_, List.Mem.tail _ (List.Mem.tail _ (List.Mem.tail _ (List.Mem.tail _ (List.Mem.tail _ (List.Mem.tail _ (List.Mem.head _)))))), (mem_piece off1 h1 b' 1 e1 y).mpr ⟨hyr, by omega, by omega⟩⟩
      · exact ⟨_, List.Mem.tail _ (List.Mem.tail _ (List.Mem.tail _ (List.Mem.tail _ (List.Mem.tail _ (List.Mem.head _))))), (mem_piece off2 h2 b' 2 e2 y).mpr ⟨hyr, by omega, by omega⟩⟩
      · exact ⟨_, List.Mem.tail _ (List.Mem.tail _ (List.Mem.tail _ (List.Mem.tail _ (List.Mem.head _)))), (mem_piece off3 h3 b' 3 e3 y).mpr ⟨hyr, by omega, by omega⟩⟩
      · exact ⟨_, List.Mem.tail _ (List.Mem.tail _ (List.Mem.tail _ (List.Mem.head _))), (mem_piece off4 h4 b' 4 e4 y).mpr ⟨hyr, by omega, by omega⟩⟩
      · exact ⟨_, List.Mem.tail _ (List.Mem.tail _ (List.Mem.head _)), (mem_piece off5 h5 b' 5 e5 y).mpr ⟨hyr, by omega, by omega⟩⟩
      · exact ⟨_, List.Mem.tail _ (List.Mem.head _), (mem_piece off6 h6 b' 6 e6 y).mpr ⟨hyr, by omega, by omega⟩⟩
      · exact ⟨_, List.Mem.head _, (mem_piece off7 h7 b' 7 e7 y).mpr ⟨hyr, by omega, by omega⟩⟩
    rw [View.read_writes_apply_of_pieces (sOv).view fo (rowG d L mx mw mt b') P hG y hcov]
    show Cert.SpecF.GkAt (F := F) mx mw mt (base L + b') (y 1).val = _
    rw [hyc]
  · -- a row below b: no piece covers it
    have hlt : b' < b := by omega
    have hnot : ∀ p ∈ P, y ∉ p.1.set := by
      intro p hp hm
      rcases hmem p hp with rfl | rfl | rfl | rfl | rfl | rfl | rfl | rfl
      · exact hbb (hyr.symm.trans ((mem_piece off7 h7 b 7 e7 y).mp hm).1)
      · exact hbb (hyr.symm.trans ((mem_piece off6 h6 b 6 e6 y).mp hm).1)
      · exact hbb (hyr.symm.trans ((mem_piece off5 h5 b 5 e5 y).mp hm).1)
      · exact hbb (hyr.symm.trans ((mem_piece off4 h4 b 4 e4 y).mp hm).1)
      · exact hbb (hyr.symm.trans ((mem_piece off3 h3 b 3 e3 y).mp hm).1)
      · exact hbb (hyr.symm.trans ((mem_piece off2 h2 b 2 e2 y).mp hm).1)
      · exact hbb (hyr.symm.trans ((mem_piece off1 h1 b 1 e1 y).mp hm).1)
      · exact hbb (hyr.symm.trans ((mem_piece off0 h0 b 0 e0 y).mp hm).1)
    rw [View.read_writes_apply_of_forall_not_mem (sOv).view fo y P hnot]
    subst hy
    exact hfo b' col hlt hb'128 hcol

/-! ## The result's rows -/

omit [FloatOps F] in
/-- An index of the tile's rows of the result: row `base + b`, the same column. -/
theorem oSl_emb_row (x : S128x128.Idx) : (((oSl L).view.emb x) 0).val = base L + (x 0).val := by
  show k0_off1088 L 0 + 1 * (x 0).val = _
  rw [k0_off1088_eq]
  show 256 * (L 1).val + 128 * (L 0).val + 1 * (x 0).val = 256 * (L 1).val + 128 * (L 0).val + (x 0).val
  omega
omit [FloatOps F] in
theorem oSl_emb_col (x : S128x128.Idx) : (((oSl L).view.emb x) 1).val = (x 1).val := by
  show k0_off1088 L 1 + 1 * (x 1).val = _
  rw [k0_off1088_eq]
  show 0 + 1 * (x 1).val = (x 1).val
  omega

/-- The finished output scratch, copied onto the tile's rows of the result, leaves them at the whole-array function. -/
theorem out_block (mx : Buf (Elt F) (xLoc d)) (mw : Buf (Elt F) (wLoc d)) (mt : Buf (Elt F) (tLoc d))
    (fo : Buf (Elt F) ((sOv).view.loc (thr d L))) (fo' : Buf (Elt F) (oLoc d)) (hfo : OutGood d L mx mw mt 128 fo) :
    ∀ i ∈ (oSl L).view.set, ((oSl L).view.write (Elt F) fo' ((sOv).view.read (Elt F) fo) Finset.univ) i = (Gout d mx mw mt) i := by
  intro i hi
  obtain ⟨x, -, rfl⟩ := Finset.mem_map.mp hi
  rw [View.write_emb_of_mem _ _ (Finset.mem_univ x)]
  show (fo : FVec F S128x128 .f32) x = Cert.SpecF.GkAt (F := F) mx mw mt (((oSl L).view.emb x) 0).val (((oSl L).view.emb x) 1).val
  rw [oSl_emb_row, oSl_emb_col]
  have hx0 : (x 0).val < 128 := (x 0).isLt
  have hx1 : (x 1).val < 128 := (x 1).isLt
  rw [← hfo (x 0).val (x 1).val hx0 hx0 hx1]
  congr 1
  funext a
  apply Fin.ext
  match a with
  | ⟨0, _⟩ => show (x 0).val = (x 0).val % 128; omega
  | ⟨1, _⟩ => show (x 1).val = (x 1).val % 128; omega

/-- The same with the copy's source read as it is. -/
theorem out_block_same (mx : Buf (Elt F) (xLoc d)) (mw : Buf (Elt F) (wLoc d)) (mt : Buf (Elt F) (tLoc d))
    (fo : Buf (Elt F) ((sOv).view.loc (thr d L))) (fo' : Buf (Elt F) (oLoc d)) (hfo : OutGood d L mx mw mt 128 fo) :
    ∀ i ∈ (oSl L).view.set,
      ((oSl L).view.write (Elt F) fo' ((ReadAs.same : ReadAs (Elt F) S128x128 .f32 S128x128 .f32).apply ((sOv).view.read (Elt F) fo)) Finset.univ) i
        = (Gout d mx mw mt) i :=
  out_block d L mx mw mt fo fo' hfo

/-- The same as one whole-view write. -/
theorem out_block_writes (mx : Buf (Elt F) (xLoc d)) (mw : Buf (Elt F) (wLoc d)) (mt : Buf (Elt F) (tLoc d))
    (fo : Buf (Elt F) ((sOv).view.loc (thr d L))) (fo' : Buf (Elt F) (oLoc d)) (hfo : OutGood d L mx mw mt 128 fo) :
    ∀ i ∈ (oSl L).view.set,
      ((oSl L).view.writes (Elt F) fo' [(⟨Rect.whole S128x128, (sOv).view.read (Elt F) fo⟩ : View.Piece (Elt F) S128x128 .f32)]) i = (Gout d mx mw mt) i := by
  intro i hi
  obtain ⟨x, -, rfl⟩ := Finset.mem_map.mp hi
  have e := View.read_writes_cons_emb (oSl L).view fo' (Rect.whole S128x128) ((sOv).view.read (Elt F) fo) [] x
  rw [Rect.emb_whole_apply] at e
  have hw := out_block d L mx mw mt fo fo' hfo ((oSl L).view.emb x) (Finset.mem_map_of_mem _ (Finset.mem_univ x))
  rw [View.write_emb_of_mem _ _ (Finset.mem_univ x)] at hw
  rw [← hw, ← e]
  rfl

end Cert.Proof.KI

end
-- ==== Proof.KI.Comp2.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of the local row `b < 128` that the outer trip's word `5·g + 0` names over slot buffer 0

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp2_run (q : PosShare TreeShare) (fw : Buf (Elt F) ((sWv).view.loc (thr d L))) (fb : Buf (Elt F) ((sB3).view.loc (thr d L)))
    (c0_i32_14 c1_i32_15 : BitVec 32) (k0_t1 : Fin k0_t1_loop.trips) (b : Nat) (hbw : (Scalar.addi (Scalar.muli 5#32 (Scf.iv c0_i32_14 c1_i32_15 k0_t1)) 0#32).toNat = b) (hb : b < 128)
    (init : AccT F) (hinit : Good fw fb b 0 init) :
    iprop(((sWv).view.loc (thr d L) ↦{q} fw) ∗ ((sB3).view.loc (thr d L) ↦{fullShare} fb))
      ⊢ wp frame (wpE (defs₀ (F := F)) 𝒱₀ (thr d L) none) Set.univ
          (Scf.Loop.for k0_t2_loop k0_t2_ok init
            (k0_t2_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 c0_i32_14 c1_i32_15 k0_t1))
          (fun r => (iprop(⌜Good fw fb b 50 r⌝ ∗ ((sWv).view.loc (thr d L) ↦{q} fw) ∗ ((sB3).view.loc (thr d L) ↦{fullShare} fb)) : sProp 𝕄)) := by
  have hb' : (Scalar.addi (Scalar.muli 5#32 (Scf.iv c0_i32_14 c1_i32_15 k0_t1)) 0#32).toNat < 128 := by rw [hbw]; exact hb
  iintro ⟨Hw, Hb⟩
  sl_for (inv3 d L q fw fb b) $$ [Hw Hb]
  case region =>
    intro k acc
    unfold inv3
    iintro ⟨%hG, Hw, Hb⟩
    sl_exec (disch := exact chk_bcast _ _ hb' (l_lt _ (fin_lt5 k0_t2_abs.2.1 _) _ (by decide)))
    iterate 10
      rw [SparseCore.vectorLoadIdx_bind (c := thr d L)]
      sl_exec (disch := exact chk_bcast _ _ hb' (l_lt _ (fin_lt5 k0_t2_abs.2.1 _) _ (by decide)))
    sl_step
    isplitr
    · ipureintro
      obtain ⟨h0, h1, h2, h3, h4, h5, h6, h7⟩ := hG
      have hk : k.val < 5 := fin_lt5 k0_t2_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq3 fb _ _ _ _ rfl) rfl)
        exact h0
      · repeat (refine good_step fw fb b 1 _ _ _ _ _ ?_ (wb_eq fw _ _ _ b _ hbw (l_toNat _ hk _ (by decide))) (ld_eq3 fb _ _ _ _ rfl) rfl)
        exact h1
      · repeat (refine good_step fw fb b 2 _ _ _ _ _ ?_ (wb_eq fw _ _ _ b _ hbw (l_toNat _ hk _ (by decide))) (ld_eq3 fb _ _ _ _ rfl) rfl)
        exact h2
      · repeat (refine good_step fw fb b 3 _ _ _ _ _ ?_ (wb_eq fw _ _ _ b _ hbw (l_toNat _ hk _ (by decide))) (ld_eq3 fb _ _ _ _ rfl) rfl)
        exact h3
      · repeat (refine good_step fw fb b 4 _ _ _ _ _ ?_ (wb_eq fw _ _ _ b _ hbw (l_toNat _ hk _ (by decide))) (ld_eq3 fb _ _ _ _ rfl) rfl)
        exact h4
      · repeat (refine good_step fw fb b 5 _ _ _ _ _ ?_ (wb_eq fw _ _ _ b _ hbw (l_toNat _ hk _ (by decide))) (ld_eq3 fb _ _ _ _ rfl) rfl)
        exact h5
      · repeat (refine good_step fw fb b 6 _ _ _ _ _ ?_ (wb_eq fw _ _ _ b _ hbw (l_toNat _ hk _ (by decide))) (ld_eq3 fb _ _ _ _ rfl) rfl)
        exact h6
      · repeat (refine good_step fw fb b 7 _ _ _ _ _ ?_ (wb_eq fw _ _ _ b _ hbw (l_toNat _ hk _ (by decide))) (ld_eq3 fb _ _ _ _ rfl) rfl)
        exact h7
    isplitl [Hw] <;> iassumption
  · unfold inv3
    isplitl [Hw Hb]
    · isplitr
      · ipureintro; exact hinit
      isplitl [Hw] <;> iassumption
    · iintro %acc ⟨%hG, Hw, Hb⟩
      isplitr
      · ipureintro
        have ht : Scf.trips k0_t2_loop.lb k0_t2_loop.ub k0_t2_loop.st = 5 := by decide +kernel
        rw [ht] at hG; exact hG
      isplitl [Hw] <;> iassumption

end Cert.Proof.KI

end
-- ==== Proof.KI.Comp3.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of a local row `b` (the row word any 32-bit word whose unsigned value is `b < 128`) over slot buffer 1

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp3_run (q : PosShare TreeShare) (fw : Buf (Elt F) ((sWv).view.loc (thr d L))) (fb : Buf (Elt F) ((sB4).view.loc (thr d L)))
    (bw : BitVec 32) (b : Nat) (hbw : bw.toNat = b) (hb : b < 128) (k0_t1 : Fin k0_t1_loop.trips) (v316 : BitVec 32)
    (v318 v319 v320 : FVec F S16 .f32) (cst_325 : F .f32)
    (init : AccT F) (hinit : Good fw fb b 0 init) :
    iprop(((sWv).view.loc (thr d L) ↦{q} fw) ∗ ((sB4).view.loc (thr d L) ↦{fullShare} fb))
      ⊢ wp frame (wpE (defs₀ (F := F)) 𝒱₀ (thr d L) none) Set.univ
          (Scf.Loop.for k0_t3_loop k0_t3_ok init
            (k0_t3_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 k0_t1 v316 (broadcast S16 bw) v318 v319 v320 cst_325))
          (fun r => (iprop(⌜Good fw fb b 50 r⌝ ∗ ((sWv).view.loc (thr d L) ↦{q} fw) ∗ ((sB4).view.loc (thr d L) ↦{fullShare} fb)) : sProp 𝕄)) := by
  have hb' : bw.toNat < 128 := by rw [hbw]; exact hb
  iintro ⟨Hw, Hb⟩
  sl_for (inv4 d L q fw fb b) $$ [Hw Hb]
  case region =>
    intro k acc
    unfold inv4
    iintro ⟨%hG, Hw, Hb⟩
    sl_exec (disch := exact chk_bcast _ _ hb' (l_lt _ (fin_lt5 k0_t3_abs.2.1 _) _ (by decide)))
    iterate 10
      rw [SparseCore.vectorLoadIdx_bind (c := thr d L)]
      sl_exec (disch := exact chk_bcast _ _ hb' (l_lt _ (fin_lt5 k0_t3_abs.2.1 _) _ (by decide)))
    sl_step
    isplitr
    · ipureintro
      obtain ⟨h0, h1, h2, h3, h4, h5, h6, h7⟩ := hG
      have hk : k.val < 5 := fin_lt5 k0_t3_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq4 fb _ _ _ _ rfl) rfl)
        exact h0
      · repeat (refine good_step fw fb b 1 _ _ _ _ _ ?_ (wb_eq fw _ _ _ b _ hbw (l_toNat _ hk _ (by decide))) (ld_eq4 fb _ _ _ _ rfl) rfl)
        exact h1
      · repeat (refine good_step fw fb b 2 _ _ _ _ _ ?_ (wb_eq fw _ _ _ b _ hbw (l_toNat _ hk _ (by decide))) (ld_eq4 fb _ _ _ _ rfl) rfl)
        exact h2
      · repeat (refine good_step fw fb b 3 _ _ _ _ _ ?_ (wb_eq fw _ _ _ b _ hbw (l_toNat _ hk _ (by decide))) (ld_eq4 fb _ _ _ _ rfl) rfl)
        exact h3
      · repeat (refine good_step fw fb b 4 _ _ _ _ _ ?_ (wb_eq fw _ _ _ b _ hbw (l_toNat _ hk _ (by decide))) (ld_eq4 fb _ _ _ _ rfl) rfl)
        exact h4
      · repeat (refine good_step fw fb b 5 _ _ _ _ _ ?_ (wb_eq fw _ _ _ b _ hbw (l_toNat _ hk _ (by decide))) (ld_eq4 fb _ _ _ _ rfl) rfl)
        exact h5
      · repeat (refine good_step fw fb b 6 _ _ _ _ _ ?_ (wb_eq fw _ _ _ b _ hbw (l_toNat _ hk _ (by decide))) (ld_eq4 fb _ _ _ _ rfl) rfl)
        exact h6
      · repeat (refine good_step fw fb b 7 _ _ _ _ _ ?_ (wb_eq fw _ _ _ b _ hbw (l_toNat _ hk _ (by decide))) (ld_eq4 fb _ _ _ _ rfl) rfl)
        exact h7
    isplitl [Hw] <;> iassumption
  · unfold inv4
    isplitl [Hw Hb]
    · isplitr
      · ipureintro; exact hinit
      isplitl [Hw] <;> iassumption
    · iintro %acc ⟨%hG, Hw, Hb⟩
      isplitr
      · ipureintro
        have ht : Scf.trips k0_t3_loop.lb k0_t3_loop.ub k0_t3_loop.st = 5 := by decide +kernel
        rw [ht] at hG; exact hG
      isplitl [Hw] <;> iassumption

end Cert.Proof.KI

end
-- ==== Proof.KI.Comp4.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of the local row `b < 128` that the word `v + 2` names, `v` the outer trip's first row over slot buffer 2

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp4_run (q : PosShare TreeShare) (fw : Buf (Elt F) ((sWv).view.loc (thr d L))) (fb : Buf (Elt F) ((sB5).view.loc (thr d L)))
    (k0_t1 : Fin k0_t1_loop.trips) (v269 : BitVec 32) (b : Nat) (hbw : (Scalar.addi v269 2#32).toNat = b) (hb : b < 128)
    (init : AccT F) (hinit : Good fw fb b 0 init) :
    iprop(((sWv).view.loc (thr d L) ↦{q} fw) ∗ ((sB5).view.loc (thr d L) ↦{fullShare} fb))
      ⊢ wp frame (wpE (defs₀ (F := F)) 𝒱₀ (thr d L) none) Set.univ
          (Scf.Loop.for k0_t4_loop k0_t4_ok init
            (k0_t4_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 k0_t1 v269))
          (fun r => (iprop(⌜Good fw fb b 50 r⌝ ∗ ((sWv).view.loc (thr d L) ↦{q} fw) ∗ ((sB5).view.loc (thr d L) ↦{fullShare} fb)) : sProp 𝕄)) := by
  have hb' : (Scalar.addi v269 2#32).toNat < 128 := by rw [hbw]; exact hb
  iintro ⟨Hw, Hb⟩
  sl_for (inv5 d L q fw fb b) $$ [Hw Hb]
  case region =>
    intro k acc
    unfold inv5
    iintro ⟨%hG, Hw, Hb⟩
    sl_exec (disch := exact chk_bcast _ _ hb' (l_lt _ (fin_lt5 k0_t4_abs.2.1 _) _ (by decide)))
    iterate 10
      rw [SparseCore.vectorLoadIdx_bind (c := thr d L)]
      sl_exec (disch := exact chk_bcast _ _ hb' (l_lt _ (fin_lt5 k0_t4_abs.2.1 _) _ (by decide)))
    sl_step
    isplitr
    · ipureintro
      obtain ⟨h0, h1, h2, h3, h4, h5, h6, h7⟩ := hG
      have hk : k.val < 5 := fin_lt5 k0_t4_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq5 fb _ _ _ _ rfl) rfl)
        exact h0
      · repeat (refine good_step fw fb b 1 _ _ _ _ _ ?_ (wb_eq fw _ _ _ b _ hbw (l_toNat _ hk _ (by decide))) (ld_eq5 fb _ _ _ _ rfl) rfl)
        exact h1
      · repeat (refine good_step fw fb b 2 _ _ _ _ _ ?_ (wb_eq fw _ _ _ b _ hbw (l_toNat _ hk _ (by decide))) (ld_eq5 fb _ _ _ _ rfl) rfl)
        exact h2
      · repeat (refine good_step fw fb b 3 _ _ _ _ _ ?_ (wb_eq fw _ _ _ b _ hbw (l_toNat _ hk _ (by decide))) (ld_eq5 fb _ _ _ _ rfl) rfl)
        exact h3
      · repeat (refine good_step fw fb b 4 _ _ _ _ _ ?_ (wb_eq fw _ _ _ b _ hbw (l_toNat _ hk _ (by decide))) (ld_eq5 fb _ _ _ _ rfl) rfl)
        exact h4
      · repeat (refine good_step fw fb b 5 _ _ _ _ _ ?_ (wb_eq fw _ _ _ b _ hbw (l_toNat _ hk _ (by decide))) (ld_eq5 fb _ _ _ _ rfl) rfl)
        exact h5
      · repeat (refine good_step fw fb b 6 _ _ _ _ _ ?_ (wb_eq fw _ _ _ b _ hbw (l_toNat _ hk _ (by decide))) (ld_eq5 fb _ _ _ _ rfl) rfl)
        exact h6
      · repeat (refine good_step fw fb b 7 _ _ _ _ _ ?_ (wb_eq fw _ _ _ b _ hbw (l_toNat _ hk _ (by decide))) (ld_eq5 fb _ _ _ _ rfl) rfl)
        exact h7
    isplitl [Hw] <;> iassumption
  · unfold inv5
    isplitl [Hw Hb]
    · isplitr
      · ipureintro; exact hinit
      isplitl [Hw] <;> iassumption
    · iintro %acc ⟨%hG, Hw, Hb⟩
      isplitr
      · ipureintro
        have ht : Scf.trips k0_t4_loop.lb k0_t4_loop.ub k0_t4_loop.st = 5 := by decide +kernel
        rw [ht] at hG; exact hG
      isplitl [Hw] <;> iassumption

end Cert.Proof.KI

end
-- ==== Proof.KI.Comp5.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of a local row `b` (the row word any 32-bit word whose unsigned value is `b < 128`) over slot buffer 3

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp5_run (q : PosShare TreeShare) (fw : Buf (Elt F) ((sWv).view.loc (thr d L))) (fb : Buf (Elt F) ((sB6).view.loc (thr d L)))
    (bw : BitVec 32) (b : Nat) (hbw : bw.toNat = b) (hb : b < 128) (k0_t1 : Fin k0_t1_loop.trips) (v269 : BitVec 32) (v390 : BitVec 32)
    (v392 v393 v394 v395 v396 v397 v398 : FVec F S16 .f32) (cst_391 : F .f32)
    (init : AccT F) (hinit : Good fw fb b 0 init) :
    iprop(((sWv).view.loc (thr d L) ↦{q} fw) ∗ ((sB6).view.loc (thr d L) ↦{fullShare} fb))
      ⊢ wp frame (wpE (defs₀ (F := F)) 𝒱₀ (thr d L) none) Set.univ
          (Scf.Loop.for k0_t5_loop k0_t5_ok init
            (k0_t5_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 k0_t1 v269 v390 (broadcast S16 bw) v392 v393 v394 v395 v396 v397 v398 cst_391))
          (fun r => (iprop(⌜Good fw fb b 50 r⌝ ∗ ((sWv).view.loc (thr d L) ↦{q} fw) ∗ ((sB6).view.loc (thr d L) ↦{fullShare} fb)) : sProp 𝕄)) := by
  have hb' : bw.toNat < 128 := by rw [hbw]; exact hb
  iintro ⟨Hw, Hb⟩
  sl_for (inv6 d L q fw fb b) $$ [Hw Hb]
  case region =>
    intro k acc
    unfold inv6
    iintro ⟨%hG, Hw, Hb⟩
    sl_exec (disch := exact chk_bcast _ _ hb' (l_lt _ (fin_lt5 k0_t5_abs.2.1 _) _ (by decide)))
    iterate 10
      rw [SparseCore.vectorLoadIdx_bind (c := thr d L)]
      sl_exec (disch := exact chk_bcast _ _ hb' (l_lt _ (fin_lt5 k0_t5_abs.2.1 _) _ (by decide)))
    sl_step
    isplitr
    · ipureintro
      obtain ⟨h0, h1, h2, h3, h4, h5, h6, h7⟩ := hG
      have hk : k.val < 5 := fin_lt5 k0_t5_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq6 fb _ _ _ _ rfl) rfl)
        exact h0
      · repeat (refine good_step fw fb b 1 _ _ _ _ _ ?_ (wb_eq fw _ _ _ b _ hbw (l_toNat _ hk _ (by decide))) (ld_eq6 fb _ _ _ _ rfl) rfl)
        exact h1
      · repeat (refine good_step fw fb b 2 _ _ _ _ _ ?_ (wb_eq fw _ _ _ b _ hbw (l_toNat _ hk _ (by decide))) (ld_eq6 fb _ _ _ _ rfl) rfl)
        exact h2
      · repeat (refine good_step fw fb b 3 _ _ _ _ _ ?_ (wb_eq fw _ _ _ b _ hbw (l_toNat _ hk _ (by decide))) (ld_eq6 fb _ _ _ _ rfl) rfl)
        exact h3
      · repeat (refine good_step fw fb b 4 _ _ _ _ _ ?_ (wb_eq fw _ _ _ b _ hbw (l_toNat _ hk _ (by decide))) (ld_eq6 fb _ _ _ _ rfl) rfl)
        exact h4
      · repeat (refine good_step fw fb b 5 _ _ _ _ _ ?_ (wb_eq fw _ _ _ b _ hbw (l_toNat _ hk _ (by decide))) (ld_eq6 fb _ _ _ _ rfl) rfl)
        exact h5
      · repeat (refine good_step fw fb b 6 _ _ _ _ _ ?_ (wb_eq fw _ _ _ b _ hbw (l_toNat _ hk _ (by decide))) (ld_eq6 fb _ _ _ _ rfl) rfl)
        exact h6
      · repeat (refine good_step fw fb b 7 _ _ _ _ _ ?_ (wb_eq fw _ _ _ b _ hbw (l_toNat _ hk _ (by decide))) (ld_eq6 fb _ _ _ _ rfl) rfl)
        exact h7
    isplitl [Hw] <;> iassumption
  · unfold inv6
    isplitl [Hw Hb]
    · isplitr
      · ipureintro; exact hinit
      isplitl [Hw] <;> iassumption
    · iintro %acc ⟨%hG, Hw, Hb⟩
      isplitr
      · ipureintro
        have ht : Scf.trips k0_t5_loop.lb k0_t5_loop.ub k0_t5_loop.st = 5 := by decide +kernel
        rw [ht] at hG; exact hG
      isplitl [Hw] <;> iassumption

end Cert.Proof.KI

end
-- ==== Proof.KI.Comp6.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of the local row `b < 128` that the word `v + 4` names, `v` the outer trip's first row over slot buffer 4

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp6_run (q : PosShare TreeShare) (fw : Buf (Elt F) ((sWv).view.loc (thr d L))) (fb : Buf (Elt F) ((sB7).view.loc (thr d L)))
    (k0_t1 : Fin k0_t1_loop.trips) (v269 : BitVec 32) (v422 : BitVec 32) (c1_i32_409 : BitVec 32) (b : Nat) (hbw : (Scalar.addi v269 4#32).toNat = b) (hb : b < 128)
    (init : AccT F) (hinit : Good fw fb b 0 init) :
    iprop(((sWv).view.loc (thr d L) ↦{q} fw) ∗ ((sB7).view.loc (thr d L) ↦{fullShare} fb))
      ⊢ wp frame (wpE (defs₀ (F := F)) 𝒱₀ (thr d L) none) Set.univ
          (Scf.Loop.for k0_t6_loop k0_t6_ok init
            (k0_t6_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 k0_t1 v269 v422 c1_i32_409))
          (fun r => (iprop(⌜Good fw fb b 50 r⌝ ∗ ((sWv).view.loc (thr d L) ↦{q} fw) ∗ ((sB7).view.loc (thr d L) ↦{fullShare} fb)) : sProp 𝕄)) := by
  have hb' : (Scalar.addi v269 4#32).toNat < 128 := by rw [hbw]; exact hb
  iintro ⟨Hw, Hb⟩
  sl_for (inv7 d L q fw fb b) $$ [Hw Hb]
  case region =>
    intro k acc
    unfold inv7
    iintro ⟨%hG, Hw, Hb⟩
    sl_exec (disch := exact chk_bcast _ _ hb' (l_lt _ (fin_lt5 k0_t6_abs.2.1 _) _ (by decide)))
    iterate 10
      rw [SparseCore.vectorLoadIdx_bind (c := thr d L)]
      sl_exec (disch := exact chk_bcast _ _ hb' (l_lt _ (fin_lt5 k0_t6_abs.2.1 _) _ (by decide)))
    sl_step
    isplitr
    · ipureintro
      obtain ⟨h0, h1, h2, h3, h4, h5, h6, h7⟩ := hG
      have hk : k.val < 5 := fin_lt5 k0_t6_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq7 fb _ _ _ _ rfl) rfl)
        exact h0
      · repeat (refine good_step fw fb b 1 _ _ _ _ _ ?_ (wb_eq fw _ _ _ b _ hbw (l_toNat _ hk _ (by decide))) (ld_eq7 fb _ _ _ _ rfl) rfl)
        exact h1
      · repeat (refine good_step fw fb b 2 _ _ _ _ _ ?_ (wb_eq fw _ _ _ b _ hbw (l_toNat _ hk _ (by decide))) (ld_eq7 fb _ _ _ _ rfl) rfl)
        exact h2
      · repeat (refine good_step fw fb b 3 _ _ _ _ _ ?_ (wb_eq fw _ _ _ b _ hbw (l_toNat _ hk _ (by decide))) (ld_eq7 fb _ _ _ _ rfl) rfl)
        exact h3
      · repeat (refine good_step fw fb b 4 _ _ _ _ _ ?_ (wb_eq fw _ _ _ b _ hbw (l_toNat _ hk _ (by decide))) (ld_eq7 fb _ _ _ _ rfl) rfl)
        exact h4
      · repeat (refine good_step fw fb b 5 _ _ _ _ _ ?_ (wb_eq fw _ _ _ b _ hbw (l_toNat _ hk _ (by decide))) (ld_eq7 fb _ _ _ _ rfl) rfl)
        exact h5
      · repeat (refine good_step fw fb b 6 _ _ _ _ _ ?_ (wb_eq fw _ _ _ b _ hbw (l_toNat _ hk _ (by decide))) (ld_eq7 fb _ _ _ _ rfl) rfl)
        exact h6
      · repeat (refine good_step fw fb b 7 _ _ _ _ _ ?_ (wb_eq fw _ _ _ b _ hbw (l_toNat _ hk _ (by decide))) (ld_eq7 fb _ _ _ _ rfl) rfl)
        exact h7
    isplitl [Hw] <;> iassumption
  · unfold inv7
    isplitl [Hw Hb]
    · isplitr
      · ipureintro; exact hinit
      isplitl [Hw] <;> iassumption
    · iintro %acc ⟨%hG, Hw, Hb⟩
      isplitr
      · ipureintro
        have ht : Scf.trips k0_t6_loop.lb k0_t6_loop.ub k0_t6_loop.st = 5 := by decide +kernel
        rw [ht] at hG; exact hG
      isplitl [Hw] <;> iassumption

end Cert.Proof.KI

end
-- ==== Proof.KI.Trip.lean ====
import proofs.«206443_g53721450939153_cont_9to1_m_117_36_alg».proof.Proof.KI.Iface
import Idealize.ShloMosaic.Lib.Pipeline.Value
import proofs.«206443_g53721450939153_cont_9to1_m_117_36_alg».proof.Proof.KI.Ring
import proofs.«206443_g53721450939153_cont_9to1_m_117_36_alg».proof.Proof.KI.Values
import proofs.«206443_g53721450939153_cont_9to1_m_117_36_alg».proof.Proof.KI.OutRows
import proofs.«206443_g53721450939153_cont_9to1_m_117_36_alg».proof.Proof.KI.Comp2
import proofs.«206443_g53721450939153_cont_9to1_m_117_36_alg».proof.Proof.KI.Comp3
import proofs.«206443_g53721450939153_cont_9to1_m_117_36_alg».proof.Proof.KI.Comp4
import proofs.«206443_g53721450939153_cont_9to1_m_117_36_alg».proof.Proof.KI.Comp5
import proofs.«206443_g53721450939153_cont_9to1_m_117_36_alg».proof.Proof.KI.Comp6

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # One trip of the outer loop

  Trip `g` takes the ring from `Inv g` to `Inv (g + 1)`. For `j = 0 … 4`: the gather of local row `5·g + j` is waited for (its
  slot's buffer, tokens and semaphore come back), the gather of row `5·g + j + 4` is issued into the slot freed one step
  before, the row's inner product is computed from the buffer (`comp<j+2>_run`) and its eight accumulators are stored into
  row `5·g + j` of the output scratch. At the end the five finished rows extend `OutGood` (five applications of `out_update`,
  each accumulator an entry of the result by `good_spec`), and the four gathers issued at steps 1–4 are the flights of
  `Inv (g + 1)`, their payloads the rows `RowsOf` names (`rows_of_gather'`). -/

/-- The row word of step `kk` of outer trip `g`: `5·g + kk`. -/
theorem row_toNat (g : Nat) (hg : g < 24) (kk : Nat) (hkk : kk < 5) :
    (Scalar.addi (Scalar.muli 5#32 (Scf.iv 0#32 1#32 g)) (BitVec.ofNat 32 kk)).toNat = 5 * g + kk := by
  interval_cases g <;> interval_cases kk <;> decide

theorem fin_lt24 {n : Nat} (h : n ≤ 24) (k : Fin n) : k.val < 24 := lt_of_lt_of_le k.isLt h

set_option maxHeartbeats 16000000 in
theorem trip (q : PosShare TreeShare) (mx : Buf (Elt F) (xLoc d)) (mw : Buf (Elt F) (wLoc d)) (mt : Buf (Elt F) (tLoc d))
    (hx : ∀ i, (mx i).toNat < 100000) (O : CellTallies nD τ sig (HIx 1)) (W : Waits sig (HIx 1))
    (k : Fin k0_t1_loop.trips) (acc : BitVec 32) :
    Inv d L q mx mw mt O W k.val acc
      ⊢ wp frame (wpE (defs₀ (F := F)) 𝒱₀ (thr d L) none) Set.univ
          (k0_t1_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 0#32 k acc) (Inv d L q mx mw mt O W (k.val + 1)) := by
  unfold Inv FlightOf IdleOf OutPart k0_t1_body
  iintro ⟨#Hmw, Hwv, ⟨%fo, %hfo, Hov⟩, ⟨%gp0, %P0, %of0, %ho0, %hP0, Hf0, Hxr0, Htr0, Hbr0⟩, ⟨%gp1, %P1, %of1, %ho1, %hP1, Hf1, Hxr1, Htr1, Hbr1⟩,
    ⟨%gp2, %P2, %of2, %ho2, %hP2, Hf2, Hxr2, Htr2, Hbr2⟩, ⟨%gp3, %P3, %of3, %ho3, %hP3, Hf3, Hxr3, Htr3, Hbr3⟩, ⟨⟨%g7, Hb7⟩, Hd4, Hx4, Ht4⟩, %W', %hW', HO⟩
  have hin := hin_row d L mx hx
  have hk : k.val < 24 := fin_lt24 k0_t1_abs.2.1 k
  sl_exec
  rw [wp_bind]
  iapply (wp_wand_r frame (wpE (defs₀ (F := F)) 𝒱₀ (thr d L) none) Set.univ)
  isplitl [Hwv Hbr0]
  · iapply (comp2_run d L fullShare (wvOf d L mw) _ 0#32 1#32 k (5 * k.val) (row_toNat k.val hk 0 (by decide)) (by omega) _ (good_zero _ _ _))
    isplitl [Hwv] <;> iassumption
  iintro %r0 ⟨%hG0, Hwv, Hbr0⟩
  sl_exec
  rw [wp_bind]
  iapply (wp_wand_r frame (wpE (defs₀ (F := F)) 𝒱₀ (thr d L) none) Set.univ)
  isplitl [Hwv Hbr1]
  · iapply (comp3_run d L fullShare (wvOf d L mw) _ (Scalar.addi (Scalar.muli 5#32 (Scf.iv 0#32 1#32 k)) 1#32) (5 * k.val + 1) (row_toNat k.val hk 1 (by decide)) (by omega) k _ _ _ _ _ _ (good_zero _ _ _))
    isplitl [Hwv] <;> iassumption
  iintro %r1 ⟨%hG1, Hwv, Hbr1⟩
  sl_exec
  rw [wp_bind]
  iapply (wp_wand_r frame (wpE (defs₀ (F := F)) 𝒱₀ (thr d L) none) Set.univ)
  isplitl [Hwv Hbr2]
  · iapply (comp4_run d L fullShare (wvOf d L mw) _ k _ (5 * k.val + 2) (row_toNat k.val hk 2 (by decide)) (by omega) _ (good_zero _ _ _))
    isplitl [Hwv] <;> iassumption
  iintro %r2 ⟨%hG2, Hwv, Hbr2⟩
  sl_exec
  rw [wp_bind]
  iapply (wp_wand_r frame (wpE (defs₀ (F := F)) 𝒱₀ (thr d L) none) Set.univ)
  isplitl [Hwv Hbr3]
  · iapply (comp5_run d L fullShare (wvOf d L mw) _ (Scalar.addi (Scalar.muli 5#32 (Scf.iv 0#32 1#32 k)) 3#32) (5 * k.val + 3) (row_toNat k.val hk 3 (by decide)) (by omega) k _ _ _ _ _ _ _ _ _ _ _ (good_zero _ _ _))
    isplitl [Hwv] <;> iassumption
  iintro %r3 ⟨%hG3, Hwv, Hbr3⟩
  sl_exec
  rw [wp_bind]
  iapply (wp_wand_r frame (wpE (defs₀ (F := F)) 𝒱₀ (thr d L) none) Set.univ)
  isplitl [Hwv Hb7]
  · iapply (comp6_run d L fullShare (wvOf d L mw) _ k _ _ _ (5 * k.val + 4) (row_toNat k.val hk 4 (by decide)) (by omega) _ (good_zero _ _ _))
    isplitl [Hwv] <;> iassumption
  iintro %r4 ⟨%hG4, Hwv, Hb7⟩
  sl_exec
  -- what the five computes left, as entries of the result
  have hP4 : RowsOf d L mx mt (5 * k.val + 4) (trip.sl.gather0 d L mx mt k hin) :=
    rows_of_gather' d L mx mt (k0_off3 k) (k0_off3_inb k) (5 * k.val + 4) (by omega) rfl _ _ _
  have c0 := good_spec d L mx mw mt _ _ (5 * k.val) r0 (fun l hl => wv_val d L mw _ l (by omega) (by omega))
    (fun l col hl hc => buf_val3 d L mx mt _ P0 hP0 _ l col hl hc) hG0
  have c1 := good_spec d L mx mw mt _ _ (5 * k.val + 1) r1 (fun l hl => wv_val d L mw _ l (by omega) (by omega))
    (fun l col hl hc => buf_val4 d L mx mt _ P1 hP1 _ l col hl hc) hG1
  have c2 := good_spec d L mx mw mt _ _ (5 * k.val + 2) r2 (fun l hl => wv_val d L mw _ l (by omega) (by omega))
    (fun l col hl hc => buf_val5 d L mx mt _ P2 hP2 _ l col hl hc) hG2
  have c3 := good_spec d L mx mw mt _ _ (5 * k.val + 3) r3 (fun l hl => wv_val d L mw _ l (by omega) (by omega))
    (fun l col hl hc => buf_val6 d L mx mt _ P3 hP3 _ l col hl hc) hG3
  have c4 := good_spec d L mx mw mt _ _ (5 * k.val + 4) r4 (fun l hl => wv_val d L mw _ l (by omega) (by omega))
    (fun l col hl hc => buf_val7 d L mx mt _ _ hP4 _ l col hl hc) hG4
  have o1 := out_update (hsc := Gen.shapeCasts_S16_S1x16) d L mx mw mt (5 * k.val) fo r0 (k0_off84 k) (k0_off85 k) (k0_off86 k) (k0_off87 k) (k0_off88 k) (k0_off89 k) (k0_off90 k) (k0_off91 k) (k0_off84_inb k) (k0_off85_inb k) (k0_off86_inb k) (k0_off87_inb k) (k0_off88_inb k) (k0_off89_inb k) (k0_off90_inb k) (k0_off91_inb k) (k0_off84_eq k) (k0_off85_eq k) (k0_off86_eq k) (k0_off87_eq k) (k0_off88_eq k) (k0_off89_eq k) (k0_off90_eq k) (k0_off91_eq k) hfo (by omega) c0.1 c0.2.1 c0.2.2.1 c0.2.2.2.1 c0.2.2.2.2.1 c0.2.2.2.2.2.1 c0.2.2.2.2.2.2.1 c0.2.2.2.2.2.2.2
  have o2 := out_update (hsc := Gen.shapeCasts_S16_S1x16) d L mx mw mt (5 * k.val + 1) _ r1 (k0_off173 k) (k0_off174 k) (k0_off175 k) (k0_off176 k) (k0_off177 k) (k0_off178 k) (k0_off179 k) (k0_off180 k) (k0_off173_inb k) (k0_off174_inb k) (k0_off175_inb k) (k0_off176_inb k) (k0_off177_inb k) (k0_off178_inb k) (k0_off179_inb k) (k0_off180_inb k) (k0_off173_eq k) (k0_off174_eq k) (k0_off175_eq k) (k0_off176_eq k) (k0_off177_eq k) (k0_off178_eq k) (k0_off179_eq k) (k0_off180_eq k) o1 (by omega) c1.1 c1.2.1 c1.2.2.1 c1.2.2.2.1 c1.2.2.2.2.1 c1.2.2.2.2.2.1 c1.2.2.2.2.2.2.1 c1.2.2.2.2.2.2.2
  have o3 := out_update (hsc := Gen.shapeCasts_S16_S1x16) d L mx mw mt (5 * k.val + 2) _ r2 (k0_off262 k) (k0_off263 k) (k0_off264 k) (k0_off265 k) (k0_off266 k) (k0_off267 k) (k0_off268 k) (k0_off269 k) (k0_off262_inb k) (k0_off263_inb k) (k0_off264_inb k) (k0_off265_inb k) (k0_off266_inb k) (k0_off267_inb k) (k0_off268_inb k) (k0_off269_inb k) (k0_off262_eq k) (k0_off263_eq k) (k0_off264_eq k) (k0_off265_eq k) (k0_off266_eq k) (k0_off267_eq k) (k0_off268_eq k) (k0_off269_eq k) o2 (by omega) c2.1 c2.2.1 c2.2.2.1 c2.2.2.2.1 c2.2.2.2.2.1 c2.2.2.2.2.2.1 c2.2.2.2.2.2.2.1 c2.2.2.2.2.2.2.2
  have o4 := out_update (hsc := Gen.shapeCasts_S16_S1x16) d L mx mw mt (5 * k.val + 3) _ r3 (k0_off351 k) (k0_off352 k) (k0_off353 k) (k0_off354 k) (k0_off355 k) (k0_off356 k) (k0_off357 k) (k0_off358 k) (k0_off351_inb k) (k0_off352_inb k) (k0_off353_inb k) (k0_off354_inb k) (k0_off355_inb k) (k0_off356_inb k) (k0_off357_inb k) (k0_off358_inb k) (k0_off351_eq k) (k0_off352_eq k) (k0_off353_eq k) (k0_off354_eq k) (k0_off355_eq k) (k0_off356_eq k) (k0_off357_eq k) (k0_off358_eq k) o3 (by omega) c3.1 c3.2.1 c3.2.2.1 c3.2.2.2.1 c3.2.2.2.2.1 c3.2.2.2.2.2.1 c3.2.2.2.2.2.2.1 c3.2.2.2.2.2.2.2
  have o5 := out_update (hsc := Gen.shapeCasts_S16_S1x16) d L mx mw mt (5 * k.val + 4) _ r4 (k0_off440 k) (k0_off441 k) (k0_off442 k) (k0_off443 k) (k0_off444 k) (k0_off445 k) (k0_off446 k) (k0_off447 k) (k0_off440_inb k) (k0_off441_inb k) (k0_off442_inb k) (k0_off443_inb k) (k0_off444_inb k) (k0_off445_inb k) (k0_off446_inb k) (k0_off447_inb k) (k0_off440_eq k) (k0_off441_eq k) (k0_off442_eq k) (k0_off443_eq k) (k0_off444_eq k) (k0_off445_eq k) (k0_off446_eq k) (k0_off447_eq k) o4 (by omega) c4.1 c4.2.1 c4.2.2.1 c4.2.2.2.1 c4.2.2.2.2.1 c4.2.2.2.2.2.1 c4.2.2.2.2.2.2.1 c4.2.2.2.2.2.2.2
  have hR0 : RowsOf d L mx mt (5 * (k.val + 1)) (trip.sl.gather16 d L mx mt k hin) :=
    rows_of_gather' d L mx mt (k0_off92 k) (k0_off92_inb k) (5 * (k.val + 1)) (by omega) rfl _ _ _
  have hR1 : RowsOf d L mx mt (5 * (k.val + 1) + 1) (trip.sl.gather16_1 d L mx mt k hin) :=
    rows_of_gather' d L mx mt (k0_off181 k) (k0_off181_inb k) (5 * (k.val + 1) + 1) (by omega) rfl _ _ _
  have hR2 : RowsOf d L mx mt (5 * (k.val + 1) + 2) (trip.sl.gather16_2 d L mx mt k hin) :=
    rows_of_gather' d L mx mt (k0_off270 k) (k0_off270_inb k) (5 * (k.val + 1) + 2) (by omega) rfl _ _ _
  have hR3 : RowsOf d L mx mt (5 * (k.val + 1) + 3) (trip.sl.gather16_3 d L mx mt k hin) :=
    rows_of_gather' d L mx mt (k0_off359 k) (k0_off359_inb k) (5 * (k.val + 1) + 3) (by omega) rfl _ _ _
  sl_step
  isplitr; · iexact Hmw
  isplitl [Hwv]; · iexact Hwv
  isplitl [Hov]
  · iexists _; isplitr; · ipureintro; exact o5
    iexact Hov
  isplitl [Hf0 Hxr0 Htr0 Hbr0]
  · iexists ((sB3).view.writes (Elt F) (sB3).view.junk [⟨Rect.whole S50x128, P0⟩]), (trip.sl.gather16 d L mx mt k hin), (k0_off92 k), (k0_off92_inb k)
    isplitr; · ipureintro; exact hR0
    isplitl [Hf0]; · iexact Hf0
    isplitl [Hxr0]; · iexact Hxr0
    isplitl [Htr0]; · iexact Htr0
    iexact Hbr0
  isplitl [Hf1 Hxr1 Htr1 Hbr1]
  · iexists ((sB4).view.writes (Elt F) (sB4).view.junk [⟨Rect.whole S50x128, P1⟩]), (trip.sl.gather16_1 d L mx mt k hin), (k0_off181 k), (k0_off181_inb k)
    isplitr; · ipureintro; exact hR1
    isplitl [Hf1]; · iexact Hf1
    isplitl [Hxr1]; · iexact Hxr1
    isplitl [Htr1]; · iexact Htr1
    iexact Hbr1
  isplitl [Hf2 Hxr2 Htr2 Hbr2]
  · iexists ((sB5).view.writes (Elt F) (sB5).view.junk [⟨Rect.whole S50x128, P2⟩]), (trip.sl.gather16_2 d L mx mt k hin), (k0_off270 k), (k0_off270_inb k)
    isplitr; · ipureintro; exact hR2
    isplitl [Hf2]; · iexact Hf2
    isplitl [Hxr2]; · iexact Hxr2
    isplitl [Htr2]; · iexact Htr2
    iexact Hbr2
  isplitl [Hf3 Hxr3 Htr3 Hbr3]
  · iexists ((sB6).view.writes (Elt F) (sB6).view.junk [⟨Rect.whole S50x128, P3⟩]), (trip.sl.gather16_3 d L mx mt k hin), (k0_off359 k), (k0_off359_inb k)
    isplitr; · ipureintro; exact hR3
    isplitl [Hf3]; · iexact Hf3
    isplitl [Hxr3]; · iexact Hxr3
    isplitl [Htr3]; · iexact Htr3
    iexact Hbr3
  isplitl [Hb7 Hd4 Hx4 Ht4]
  · isplitl [Hb7]; · iexists _; iexact Hb7
    isplitl [Hd4]; · iexact Hd4
    isplitl [Hx4]; · iexact Hx4
    iexact Ht4
  iexists (insert (SemLoc.dma cc0_scratch12.sem, (default : HIx 1)) (insert (SemLoc.dma cc0_scratch11.sem, (default : HIx 1)) (insert (SemLoc.dma cc0_scratch10.sem, (default : HIx 1)) (insert (SemLoc.dma cc0_scratch9.sem, (default : HIx 1)) (insert (SemLoc.dma cc0_scratch8.sem, (default : HIx 1)) W'))))); isplitr
  · ipureintro; intro p hp
    simp only [Finset.mem_insert] at hp
    rcases hp with rfl | rfl | rfl | rfl | rfl | hp
    · exact .inr rfl
    · exact .inr rfl
    · exact .inr rfl
    · exact .inr rfl
    · exact .inr rfl
    · exact hW' p hp
  iexact HO

end Cert.Proof.KI

end
-- ==== Proof.KI.Comp7.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of local row 120 over slot buffer 0

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp7_run (q : PosShare TreeShare) (fw : Buf (Elt F) ((sWv).view.loc (thr d L))) (fb : Buf (Elt F) ((sB3).view.loc (thr d L)))
    (c0_i32_13 : BitVec 32)
    (init : AccT F) (hinit : Good fw fb 120 0 init) :
    iprop(((sWv).view.loc (thr d L) ↦{q} fw) ∗ ((sB3).view.loc (thr d L) ↦{fullShare} fb))
      ⊢ wp frame (wpE (defs₀ (F := F)) 𝒱₀ (thr d L) none) Set.univ
          (Scf.Loop.for k0_t7_loop k0_t7_ok init
            (k0_t7_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 c0_i32_13))
          (fun r => (iprop(⌜Good fw fb 120 50 r⌝ ∗ ((sWv).view.loc (thr d L) ↦{q} fw) ∗ ((sB3).view.loc (thr d L) ↦{fullShare} fb)) : sProp 𝕄)) := by
  iintro ⟨Hw, Hb⟩
  sl_for (inv3 d L q fw fb 120) $$ [Hw Hb]
  case region =>
    intro k acc
    unfold inv3
    iintro ⟨%hG, Hw, Hb⟩
    sl_exec (disch := exact chk_bcast _ _ (by decide) (l_lt _ (fin_lt5 k0_t7_abs.2.1 _) _ (by decide)))
    iterate 10
      rw [SparseCore.vectorLoadIdx_bind (c := thr d L)]
      sl_exec (disch := exact chk_bcast _ _ (by decide) (l_lt _ (fin_lt5 k0_t7_abs.2.1 _) _ (by decide)))
    sl_step
    isplitr
    · ipureintro
      obtain ⟨h0, h1, h2, h3, h4, h5, h6, h7⟩ := hG
      have hk : k.val < 5 := fin_lt5 k0_t7_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 120 0 _ _ _ _ _ ?_ (wb_eq fw _ _ _ 120 _ (by decide) (l_toNat _ hk _ (by decide))) (ld_eq3 fb _ _ _ _ rfl) rfl)
        exact h0
      · repeat (refine good_step fw fb 120 1 _ _ _ _ _ ?_ (wb_eq fw _ _ _ 120 _ (by decide) (l_toNat _ hk _ (by decide))) (ld_eq3 fb _ _ _ _ rfl) rfl)
        exact h1
      · repeat (refine good_step fw fb 120 2 _ _ _ _ _ ?_ (wb_eq fw _ _ _ 120 _ (by decide) (l_toNat _ hk _ (by decide))) (ld_eq3 fb _ _ _ _ rfl) rfl)
        exact h2
      · repeat (refine good_step fw fb 120 3 _ _ _ _ _ ?_ (wb_eq fw _ _ _ 120 _ (by decide) (l_toNat _ hk _ (by decide))) (ld_eq3 fb _ _ _ _ rfl) rfl)
        exact h3
      · repeat (refine good_step fw fb 120 4 _ _ _ _ _ ?_ (wb_eq fw _ _ _ 120 _ (by decide) (l_toNat _ hk _ (by decide))) (ld_eq3 fb _ _ _ _ rfl) rfl)
        exact h4
      · repeat (refine good_step fw fb 120 5 _ _ _ _ _ ?_ (wb_eq fw _ _ _ 120 _ (by decide) (l_toNat _ hk _ (by decide))) (ld_eq3 fb _ _ _ _ rfl) rfl)
        exact h5
      · repeat (refine good_step fw fb 120 6 _ _ _ _ _ ?_ (wb_eq fw _ _ _ 120 _ (by decide) (l_toNat _ hk _ (by decide))) (ld_eq3 fb _ _ _ _ rfl) rfl)
        exact h6
      · repeat (refine good_step fw fb 120 7 _ _ _ _ _ ?_ (wb_eq fw _ _ _ 120 _ (by decide) (l_toNat _ hk _ (by decide))) (ld_eq3 fb _ _ _ _ rfl) rfl)
        exact h7
    isplitl [Hw] <;> iassumption
  · unfold inv3
    isplitl [Hw Hb]
    · isplitr
      · ipureintro; exact hinit
      isplitl [Hw] <;> iassumption
    · iintro %acc ⟨%hG, Hw, Hb⟩
      isplitr
      · ipureintro
        have ht : Scf.trips k0_t7_loop.lb k0_t7_loop.ub k0_t7_loop.st = 5 := by decide +kernel
        rw [ht] at hG; exact hG
      isplitl [Hw] <;> iassumption

end Cert.Proof.KI

end
-- ==== Proof.KI.Comp8.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of a local row `b` (the row word any 32-bit word whose unsigned value is `b < 128`) over slot buffer 1

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp8_run (q : PosShare TreeShare) (fw : Buf (Elt F) ((sWv).view.loc (thr d L))) (fb : Buf (Elt F) ((sB4).view.loc (thr d L)))
    (bw : BitVec 32) (b : Nat) (hbw : bw.toNat = b) (hb : b < 128)
    (v57 v58 v59 v60 : FVec F S16 .f32)
    (init : AccT F) (hinit : Good fw fb b 0 init) :
    iprop(((sWv).view.loc (thr d L) ↦{q} fw) ∗ ((sB4).view.loc (thr d L) ↦{fullShare} fb))
      ⊢ wp frame (wpE (defs₀ (F := F)) 𝒱₀ (thr d L) none) Set.univ
          (Scf.Loop.for k0_t8_loop k0_t8_ok init
            (k0_t8_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 (broadcast S16 bw) v57 v58 v59 v60))
          (fun r => (iprop(⌜Good fw fb b 50 r⌝ ∗ ((sWv).view.loc (thr d L) ↦{q} fw) ∗ ((sB4).view.loc (thr d L) ↦{fullShare} fb)) : sProp 𝕄)) := by
  have hb' : bw.toNat < 128 := by rw [hbw]; exact hb
  iintro ⟨Hw, Hb⟩
  sl_for (inv4 d L q fw fb b) $$ [Hw Hb]
  case region =>
    intro k acc
    unfold inv4
    iintro ⟨%hG, Hw, Hb⟩
    sl_exec (disch := exact chk_bcast _ _ hb' (l_lt _ (fin_lt5 k0_t8_abs.2.1 _) _ (by decide)))
    iterate 10
      rw [SparseCore.vectorLoadIdx_bind (c := thr d L)]
      sl_exec (disch := exact chk_bcast _ _ hb' (l_lt _ (fin_lt5 k0_t8_abs.2.1 _) _ (by decide)))
    sl_step
    isplitr
    · ipureintro
      obtain ⟨h0, h1, h2, h3, h4, h5, h6, h7⟩ := hG
      have hk : k.val < 5 := fin_lt5 k0_t8_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq4 fb _ _ _ _ rfl) rfl)
        exact h0
      · repeat (refine good_step fw fb b 1 _ _ _ _ _ ?_ (wb_eq fw _ _ _ b _ hbw (l_toNat _ hk _ (by decide))) (ld_eq4 fb _ _ _ _ rfl) rfl)
        exact h1
      · repeat (refine good_step fw fb b 2 _ _ _ _ _ ?_ (wb_eq fw _ _ _ b _ hbw (l_toNat _ hk _ (by decide))) (ld_eq4 fb _ _ _ _ rfl) rfl)
        exact h2
      · repeat (refine good_step fw fb b 3 _ _ _ _ _ ?_ (wb_eq fw _ _ _ b _ hbw (l_toNat _ hk _ (by decide))) (ld_eq4 fb _ _ _ _ rfl) rfl)
        exact h3
      · repeat (refine good_step fw fb b 4 _ _ _ _ _ ?_ (wb_eq fw _ _ _ b _ hbw (l_toNat _ hk _ (by decide))) (ld_eq4 fb _ _ _ _ rfl) rfl)
        exact h4
      · repeat (refine good_step fw fb b 5 _ _ _ _ _ ?_ (wb_eq fw _ _ _ b _ hbw (l_toNat _ hk _ (by decide))) (ld_eq4 fb _ _ _ _ rfl) rfl)
        exact h5
      · repeat (refine good_step fw fb b 6 _ _ _ _ _ ?_ (wb_eq fw _ _ _ b _ hbw (l_toNat _ hk _ (by decide))) (ld_eq4 fb _ _ _ _ rfl) rfl)
        exact h6
      · repeat (refine good_step fw fb b 7 _ _ _ _ _ ?_ (wb_eq fw _ _ _ b _ hbw (l_toNat _ hk _ (by decide))) (ld_eq4 fb _ _ _ _ rfl) rfl)
        exact h7
    isplitl [Hw] <;> iassumption
  · unfold inv4
    isplitl [Hw Hb]
    · isplitr
      · ipureintro; exact hinit
      isplitl [Hw] <;> iassumption
    · iintro %acc ⟨%hG, Hw, Hb⟩
      isplitr
      · ipureintro
        have ht : Scf.trips k0_t8_loop.lb k0_t8_loop.ub k0_t8_loop.st = 5 := by decide +kernel
        rw [ht] at hG; exact hG
      isplitl [Hw] <;> iassumption

end Cert.Proof.KI

end
-- ==== Proof.KI.Comp9.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of local row 122 over slot buffer 2

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp9_run (q : PosShare TreeShare) (fw : Buf (Elt F) ((sWv).view.loc (thr d L))) (fb : Buf (Elt F) ((sB5).view.loc (thr d L)))
    (v66_7 : FVec F S16 .f32) (v82_ld : Vec F S1x16 .f32)
    (init : AccT F) (hinit : Good fw fb 122 0 init) :
    iprop(((sWv).view.loc (thr d L) ↦{q} fw) ∗ ((sB5).view.loc (thr d L) ↦{fullShare} fb))
      ⊢ wp frame (wpE (defs₀ (F := F)) 𝒱₀ (thr d L) none) Set.univ
          (Scf.Loop.for k0_t9_loop k0_t9_ok init
            (k0_t9_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 v66_7 v82_ld))
          (fun r => (iprop(⌜Good fw fb 122 50 r⌝ ∗ ((sWv).view.loc (thr d L) ↦{q} fw) ∗ ((sB5).view.loc (thr d L) ↦{fullShare} fb)) : sProp 𝕄)) := by
  iintro ⟨Hw, Hb⟩
  sl_for (inv5 d L q fw fb 122) $$ [Hw Hb]
  case region =>
    intro k acc
    unfold inv5
    iintro ⟨%hG, Hw, Hb⟩
    sl_exec (disch := exact chk_bcast _ _ (by decide) (l_lt _ (fin_lt5 k0_t9_abs.2.1 _) _ (by decide)))
    iterate 10
      rw [SparseCore.vectorLoadIdx_bind (c := thr d L)]
      sl_exec (disch := exact chk_bcast _ _ (by decide) (l_lt _ (fin_lt5 k0_t9_abs.2.1 _) _ (by decide)))
    sl_step
    isplitr
    · ipureintro
      obtain ⟨h0, h1, h2, h3, h4, h5, h6, h7⟩ := hG
      have hk : k.val < 5 := fin_lt5 k0_t9_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 122 0 _ _ _ _ _ ?_ (wb_eq fw _ _ _ 122 _ (by decide) (l_toNat _ hk _ (by decide))) (ld_eq5 fb _ _ _ _ rfl) rfl)
        exact h0
      · repeat (refine good_step fw fb 122 1 _ _ _ _ _ ?_ (wb_eq fw _ _ _ 122 _ (by decide) (l_toNat _ hk _ (by decide))) (ld_eq5 fb _ _ _ _ rfl) rfl)
        exact h1
      · repeat (refine good_step fw fb 122 2 _ _ _ _ _ ?_ (wb_eq fw _ _ _ 122 _ (by decide) (l_toNat _ hk _ (by decide))) (ld_eq5 fb _ _ _ _ rfl) rfl)
        exact h2
      · repeat (refine good_step fw fb 122 3 _ _ _ _ _ ?_ (wb_eq fw _ _ _ 122 _ (by decide) (l_toNat _ hk _ (by decide))) (ld_eq5 fb _ _ _ _ rfl) rfl)
        exact h3
      · repeat (refine good_step fw fb 122 4 _ _ _ _ _ ?_ (wb_eq fw _ _ _ 122 _ (by decide) (l_toNat _ hk _ (by decide))) (ld_eq5 fb _ _ _ _ rfl) rfl)
        exact h4
      · repeat (refine good_step fw fb 122 5 _ _ _ _ _ ?_ (wb_eq fw _ _ _ 122 _ (by decide) (l_toNat _ hk _ (by decide))) (ld_eq5 fb _ _ _ _ rfl) rfl)
        exact h5
      · repeat (refine good_step fw fb 122 6 _ _ _ _ _ ?_ (wb_eq fw _ _ _ 122 _ (by decide) (l_toNat _ hk _ (by decide))) (ld_eq5 fb _ _ _ _ rfl) rfl)
        exact h6
      · repeat (refine good_step fw fb 122 7 _ _ _ _ _ ?_ (wb_eq fw _ _ _ 122 _ (by decide) (l_toNat _ hk _ (by decide))) (ld_eq5 fb _ _ _ _ rfl) rfl)
        exact h7
    isplitl [Hw] <;> iassumption
  · unfold inv5
    isplitl [Hw Hb]
    · isplitr
      · ipureintro; exact hinit
      isplitl [Hw] <;> iassumption
    · iintro %acc ⟨%hG, Hw, Hb⟩
      isplitr
      · ipureintro
        have ht : Scf.trips k0_t9_loop.lb k0_t9_loop.ub k0_t9_loop.st = 5 := by decide +kernel
        rw [ht] at hG; exact hG
      isplitl [Hw] <;> iassumption

end Cert.Proof.KI

end
-- ==== Proof.KI.Comp10.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of a local row `b` (the row word any 32-bit word whose unsigned value is `b < 128`) over slot buffer 3

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp10_run (q : PosShare TreeShare) (fw : Buf (Elt F) ((sWv).view.loc (thr d L))) (fb : Buf (Elt F) ((sB6).view.loc (thr d L)))
    (bw : BitVec 32) (b : Nat) (hbw : bw.toNat = b) (hb : b < 128)
    (v123 v124 v125 v126 v127 v128 : FVec F S16 .f32)
    (init : AccT F) (hinit : Good fw fb b 0 init) :
    iprop(((sWv).view.loc (thr d L) ↦{q} fw) ∗ ((sB6).view.loc (thr d L) ↦{fullShare} fb))
      ⊢ wp frame (wpE (defs₀ (F := F)) 𝒱₀ (thr d L) none) Set.univ
          (Scf.Loop.for k0_t10_loop k0_t10_ok init
            (k0_t10_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 (broadcast S16 bw) v123 v124 v125 v126 v127 v128))
          (fun r => (iprop(⌜Good fw fb b 50 r⌝ ∗ ((sWv).view.loc (thr d L) ↦{q} fw) ∗ ((sB6).view.loc (thr d L) ↦{fullShare} fb)) : sProp 𝕄)) := by
  have hb' : bw.toNat < 128 := by rw [hbw]; exact hb
  iintro ⟨Hw, Hb⟩
  sl_for (inv6 d L q fw fb b) $$ [Hw Hb]
  case region =>
    intro k acc
    unfold inv6
    iintro ⟨%hG, Hw, Hb⟩
    sl_exec (disch := exact chk_bcast _ _ hb' (l_lt _ (fin_lt5 k0_t10_abs.2.1 _) _ (by decide)))
    iterate 10
      rw [SparseCore.vectorLoadIdx_bind (c := thr d L)]
      sl_exec (disch := exact chk_bcast _ _ hb' (l_lt _ (fin_lt5 k0_t10_abs.2.1 _) _ (by decide)))
    sl_step
    isplitr
    · ipureintro
      obtain ⟨h0, h1, h2, h3, h4, h5, h6, h7⟩ := hG
      have hk : k.val < 5 := fin_lt5 k0_t10_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq6 fb _ _ _ _ rfl) rfl)
        exact h0
      · repeat (refine good_step fw fb b 1 _ _ _ _ _ ?_ (wb_eq fw _ _ _ b _ hbw (l_toNat _ hk _ (by decide))) (ld_eq6 fb _ _ _ _ rfl) rfl)
        exact h1
      · repeat (refine good_step fw fb b 2 _ _ _ _ _ ?_ (wb_eq fw _ _ _ b _ hbw (l_toNat _ hk _ (by decide))) (ld_eq6 fb _ _ _ _ rfl) rfl)
        exact h2
      · repeat (refine good_step fw fb b 3 _ _ _ _ _ ?_ (wb_eq fw _ _ _ b _ hbw (l_toNat _ hk _ (by decide))) (ld_eq6 fb _ _ _ _ rfl) rfl)
        exact h3
      · repeat (refine good_step fw fb b 4 _ _ _ _ _ ?_ (wb_eq fw _ _ _ b _ hbw (l_toNat _ hk _ (by decide))) (ld_eq6 fb _ _ _ _ rfl) rfl)
        exact h4
      · repeat (refine good_step fw fb b 5 _ _ _ _ _ ?_ (wb_eq fw _ _ _ b _ hbw (l_toNat _ hk _ (by decide))) (ld_eq6 fb _ _ _ _ rfl) rfl)
        exact h5
      · repeat (refine good_step fw fb b 6 _ _ _ _ _ ?_ (wb_eq fw _ _ _ b _ hbw (l_toNat _ hk _ (by decide))) (ld_eq6 fb _ _ _ _ rfl) rfl)
        exact h6
      · repeat (refine good_step fw fb b 7 _ _ _ _ _ ?_ (wb_eq fw _ _ _ b _ hbw (l_toNat _ hk _ (by decide))) (ld_eq6 fb _ _ _ _ rfl) rfl)
        exact h7
    isplitl [Hw] <;> iassumption
  · unfold inv6
    isplitl [Hw Hb]
    · isplitr
      · ipureintro; exact hinit
      isplitl [Hw] <;> iassumption
    · iintro %acc ⟨%hG, Hw, Hb⟩
      isplitr
      · ipureintro
        have ht : Scf.trips k0_t10_loop.lb k0_t10_loop.ub k0_t10_loop.st = 5 := by decide +kernel
        rw [ht] at hG; exact hG
      isplitl [Hw] <;> iassumption

end Cert.Proof.KI

end
-- ==== Proof.KI.Comp11.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of local row 124 over slot buffer 4

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp11_run (q : PosShare TreeShare) (fw : Buf (Elt F) ((sWv).view.loc (thr d L))) (fb : Buf (Elt F) ((sB7).view.loc (thr d L)))

    (init : AccT F) (hinit : Good fw fb 124 0 init) :
    iprop(((sWv).view.loc (thr d L) ↦{q} fw) ∗ ((sB7).view.loc (thr d L) ↦{fullShare} fb))
      ⊢ wp frame (wpE (defs₀ (F := F)) 𝒱₀ (thr d L) none) Set.univ
          (Scf.Loop.for k0_t11_loop k0_t11_ok init
            (k0_t11_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2))
          (fun r => (iprop(⌜Good fw fb 124 50 r⌝ ∗ ((sWv).view.loc (thr d L) ↦{q} fw) ∗ ((sB7).view.loc (thr d L) ↦{fullShare} fb)) : sProp 𝕄)) := by
  iintro ⟨Hw, Hb⟩
  sl_for (inv7 d L q fw fb 124) $$ [Hw Hb]
  case region =>
    intro k acc
    unfold inv7
    iintro ⟨%hG, Hw, Hb⟩
    sl_exec (disch := exact chk_bcast _ _ (by decide) (l_lt _ (fin_lt5 k0_t11_abs.2.1 _) _ (by decide)))
    iterate 10
      rw [SparseCore.vectorLoadIdx_bind (c := thr d L)]
      sl_exec (disch := exact chk_bcast _ _ (by decide) (l_lt _ (fin_lt5 k0_t11_abs.2.1 _) _ (by decide)))
    sl_step
    isplitr
    · ipureintro
      obtain ⟨h0, h1, h2, h3, h4, h5, h6, h7⟩ := hG
      have hk : k.val < 5 := fin_lt5 k0_t11_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 124 0 _ _ _ _ _ ?_ (wb_eq fw _ _ _ 124 _ (by decide) (l_toNat _ hk _ (by decide))) (ld_eq7 fb _ _ _ _ rfl) rfl)
        exact h0
      · repeat (refine good_step fw fb 124 1 _ _ _ _ _ ?_ (wb_eq fw _ _ _ 124 _ (by decide) (l_toNat _ hk _ (by decide))) (ld_eq7 fb _ _ _ _ rfl) rfl)
        exact h1
      · repeat (refine good_step fw fb 124 2 _ _ _ _ _ ?_ (wb_eq fw _ _ _ 124 _ (by decide) (l_toNat _ hk _ (by decide))) (ld_eq7 fb _ _ _ _ rfl) rfl)
        exact h2
      · repeat (refine good_step fw fb 124 3 _ _ _ _ _ ?_ (wb_eq fw _ _ _ 124 _ (by decide) (l_toNat _ hk _ (by decide))) (ld_eq7 fb _ _ _ _ rfl) rfl)
        exact h3
      · repeat (refine good_step fw fb 124 4 _ _ _ _ _ ?_ (wb_eq fw _ _ _ 124 _ (by decide) (l_toNat _ hk _ (by decide))) (ld_eq7 fb _ _ _ _ rfl) rfl)
        exact h4
      · repeat (refine good_step fw fb 124 5 _ _ _ _ _ ?_ (wb_eq fw _ _ _ 124 _ (by decide) (l_toNat _ hk _ (by decide))) (ld_eq7 fb _ _ _ _ rfl) rfl)
        exact h5
      · repeat (refine good_step fw fb 124 6 _ _ _ _ _ ?_ (wb_eq fw _ _ _ 124 _ (by decide) (l_toNat _ hk _ (by decide))) (ld_eq7 fb _ _ _ _ rfl) rfl)
        exact h6
      · repeat (refine good_step fw fb 124 7 _ _ _ _ _ ?_ (wb_eq fw _ _ _ 124 _ (by decide) (l_toNat _ hk _ (by decide))) (ld_eq7 fb _ _ _ _ rfl) rfl)
        exact h7
    isplitl [Hw] <;> iassumption
  · unfold inv7
    isplitl [Hw Hb]
    · isplitr
      · ipureintro; exact hinit
      isplitl [Hw] <;> iassumption
    · iintro %acc ⟨%hG, Hw, Hb⟩
      isplitr
      · ipureintro
        have ht : Scf.trips k0_t11_loop.lb k0_t11_loop.ub k0_t11_loop.st = 5 := by decide +kernel
        rw [ht] at hG; exact hG
      isplitl [Hw] <;> iassumption

end Cert.Proof.KI

end
-- ==== Proof.KI.Comp12.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of local row 125 over slot buffer 0

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp12_run (q : PosShare TreeShare) (fw : Buf (Elt F) ((sWv).view.loc (thr d L))) (fb : Buf (Elt F) ((sB3).view.loc (thr d L)))
    (v162_5 v162_6 v162_7 : FVec F S16 .f32)
    (init : AccT F) (hinit : Good fw fb 125 0 init) :
    iprop(((sWv).view.loc (thr d L) ↦{q} fw) ∗ ((sB3).view.loc (thr d L) ↦{fullShare} fb))
      ⊢ wp frame (wpE (defs₀ (F := F)) 𝒱₀ (thr d L) none) Set.univ
          (Scf.Loop.for k0_t12_loop k0_t12_ok init
            (k0_t12_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 v162_5 v162_6 v162_7))
          (fun r => (iprop(⌜Good fw fb 125 50 r⌝ ∗ ((sWv).view.loc (thr d L) ↦{q} fw) ∗ ((sB3).view.loc (thr d L) ↦{fullShare} fb)) : sProp 𝕄)) := by
  iintro ⟨Hw, Hb⟩
  sl_for (inv3 d L q fw fb 125) $$ [Hw Hb]
  case region =>
    intro k acc
    unfold inv3
    iintro ⟨%hG, Hw, Hb⟩
    sl_exec (disch := exact chk_bcast _ _ (by decide) (l_lt _ (fin_lt5 k0_t12_abs.2.1 _) _ (by decide)))
    iterate 10
      rw [SparseCore.vectorLoadIdx_bind (c := thr d L)]
      sl_exec (disch := exact chk_bcast _ _ (by decide) (l_lt _ (fin_lt5 k0_t12_abs.2.1 _) _ (by decide)))
    sl_step
    isplitr
    · ipureintro
      obtain ⟨h0, h1, h2, h3, h4, h5, h6, h7⟩ := hG
      have hk : k.val < 5 := fin_lt5 k0_t12_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 125 0 _ _ _ _ _ ?_ (wb_eq fw _ _ _ 125 _ (by decide) (l_toNat _ hk _ (by decide))) (ld_eq3 fb _ _ _ _ rfl) rfl)
        exact h0
      · repeat (refine good_step fw fb 125 1 _ _ _ _ _ ?_ (wb_eq fw _ _ _ 125 _ (by decide) (l_toNat _ hk _ (by decide))) (ld_eq3 fb _ _ _ _ rfl) rfl)
        exact h1
      · repeat (refine good_step fw fb 125 2 _ _ _ _ _ ?_ (wb_eq fw _ _ _ 125 _ (by decide) (l_toNat _ hk _ (by decide))) (ld_eq3 fb _ _ _ _ rfl) rfl)
        exact h2
      · repeat (refine good_step fw fb 125 3 _ _ _ _ _ ?_ (wb_eq fw _ _ _ 125 _ (by decide) (l_toNat _ hk _ (by decide))) (ld_eq3 fb _ _ _ _ rfl) rfl)
        exact h3
      · repeat (refine good_step fw fb 125 4 _ _ _ _ _ ?_ (wb_eq fw _ _ _ 125 _ (by decide) (l_toNat _ hk _ (by decide))) (ld_eq3 fb _ _ _ _ rfl) rfl)
        exact h4
      · repeat (refine good_step fw fb 125 5 _ _ _ _ _ ?_ (wb_eq fw _ _ _ 125 _ (by decide) (l_toNat _ hk _ (by decide))) (ld_eq3 fb _ _ _ _ rfl) rfl)
        exact h5
      · repeat (refine good_step fw fb 125 6 _ _ _ _ _ ?_ (wb_eq fw _ _ _ 125 _ (by decide) (l_toNat _ hk _ (by decide))) (ld_eq3 fb _ _ _ _ rfl) rfl)
        exact h6
      · repeat (refine good_step fw fb 125 7 _ _ _ _ _ ?_ (wb_eq fw _ _ _ 125 _ (by decide) (l_toNat _ hk _ (by decide))) (ld_eq3 fb _ _ _ _ rfl) rfl)
        exact h7
    isplitl [Hw] <;> iassumption
  · unfold inv3
    isplitl [Hw Hb]
    · isplitr
      · ipureintro; exact hinit
      isplitl [Hw] <;> iassumption
    · iintro %acc ⟨%hG, Hw, Hb⟩
      isplitr
      · ipureintro
        have ht : Scf.trips k0_t12_loop.lb k0_t12_loop.ub k0_t12_loop.st = 5 := by decide +kernel
        rw [ht] at hG; exact hG
      isplitl [Hw] <;> iassumption

end Cert.Proof.KI

end
-- ==== Proof.KI.Comp13.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of a local row `b` (the row word any 32-bit word whose unsigned value is `b < 128`) over slot buffer 1

  Five trips of ten positions from any eight accumulators that hold the recurrences at zero positions: after the loop they
  hold the fifty-step recurrences of that row's weights against the buffer's columns; the weights scratch and the slot
  buffer are only read. In a trip each of the ten weights is loaded into every lane (the row and the position
  `10·t + dl` are in range of the weights scratch) and each accumulator takes ten steps, one per position, each step the
  accumulator plus the weight times sixteen lanes of the buffer's row. -/

set_option maxHeartbeats 8000000 in
theorem comp13_run (q : PosShare TreeShare) (fw : Buf (Elt F) ((sWv).view.loc (thr d L))) (fb : Buf (Elt F) ((sB4).view.loc (thr d L)))
    (bw : BitVec 32) (b : Nat) (hbw : bw.toNat = b) (hb : b < 128)
    (v213 v214 v215 v216 v217 v218 : FVec F S16 .f32)
    (init : AccT F) (hinit : Good fw fb b 0 init) :
    iprop(((sWv).view.loc (thr d L) ↦{q} fw) ∗ ((sB4).view.loc (thr d L) ↦{fullShare} fb))
      ⊢ wp frame (wpE (defs₀ (F := F)) 𝒱₀ (thr d L) none) Set.univ
          (Scf.Loop.for k0_t13_loop k0_t13_ok init
            (k0_t13_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2 (broadcast S16 bw) v213 v214 v215 v216 v217 v218))
          (fun r => (iprop(⌜Good fw fb b 50 r⌝ ∗ ((sWv).view.loc (thr d L) ↦{q} fw) ∗ ((sB4).view.loc (thr d L) ↦{fullShare} fb)) : sProp 𝕄)) := by
  have hb' : bw.toNat < 128 := by rw [hbw]; exact hb
  iintro ⟨Hw, Hb⟩
  sl_for (inv4 d L q fw fb b) $$ [Hw Hb]
  case region =>
    intro k acc
    unfold inv4
    iintro ⟨%hG, Hw, Hb⟩
    sl_exec (disch := exact chk_bcast _ _ hb' (l_lt _ (fin_lt5 k0_t13_abs.2.1 _) _ (by decide)))
    iterate 10
      rw [SparseCore.vectorLoadIdx_bind (c := thr d L)]
      sl_exec (disch := exact chk_bcast _ _ hb' (l_lt _ (fin_lt5 k0_t13_abs.2.1 _) _ (by decide)))
    sl_step
    isplitr
    · ipureintro
      obtain ⟨h0, h1, h2, h3, h4, h5, h6, h7⟩ := hG
      have hk : k.val < 5 := fin_lt5 k0_t13_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb b 0 _ _ _ _ _ ?_ (wb_eq fw _ _ _ b _ hbw (l_toNat _ hk _ (by decide))) (ld_eq4 fb _ _ _ _ rfl) rfl)
        exact h0
      · repeat (refine good_step fw fb b 1 _ _ _ _ _ ?_ (wb_eq fw _ _ _ b _ hbw (l_toNat _ hk _ (by decide))) (ld_eq4 fb _ _ _ _ rfl) rfl)
        exact h1
      · repeat (refine good_step fw fb b 2 _ _ _ _ _ ?_ (wb_eq fw _ _ _ b _ hbw (l_toNat _ hk _ (by decide))) (ld_eq4 fb _ _ _ _ rfl) rfl)
        exact h2
      · repeat (refine good_step fw fb b 3 _ _ _ _ _ ?_ (wb_eq fw _ _ _ b _ hbw (l_toNat _ hk _ (by decide))) (ld_eq4 fb _ _ _ _ rfl) rfl)
        exact h3
      · repeat (refine good_step fw fb b 4 _ _ _ _ _ ?_ (wb_eq fw _ _ _ b _ hbw (l_toNat _ hk _ (by decide))) (ld_eq4 fb _ _ _ _ rfl) rfl)
        exact h4
      · repeat (refine good_step fw fb b 5 _ _ _ _ _ ?_ (wb_eq fw _ _ _ b _ hbw (l_toNat _ hk _ (by decide))) (ld_eq4 fb _ _ _ _ rfl) rfl)
        exact h5
      · repeat (refine good_step fw fb b 6 _ _ _ _ _ ?_ (wb_eq fw _ _ _ b _ hbw (l_toNat _ hk _ (by decide))) (ld_eq4 fb _ _ _ _ rfl) rfl)
        exact h6
      · repeat (refine good_step fw fb b 7 _ _ _ _ _ ?_ (wb_eq fw _ _ _ b _ hbw (l_toNat _ hk _ (by decide))) (ld_eq4 fb _ _ _ _ rfl) rfl)
        exact h7
    isplitl [Hw] <;> iassumption
  · unfold inv4
    isplitl [Hw Hb]
    · isplitr
      · ipureintro; exact hinit
      isplitl [Hw] <;> iassumption
    · iintro %acc ⟨%hG, Hw, Hb⟩
      isplitr
      · ipureintro
        have ht : Scf.trips k0_t13_loop.lb k0_t13_loop.ub k0_t13_loop.st = 5 := by decide +kernel
        rw [ht] at hG; exact hG
      isplitl [Hw] <;> iassumption

end Cert.Proof.KI

end
-- ==== Proof.KI.Comp14.lean ====
import proofs.«206443_g53721450939153_cont_9to1_m_117_36_alg».proof.Proof.KI.Iface
import Idealize.ShloMosaic.Lib.Pipeline.Value
import proofs.«206443_g53721450939153_cont_9to1_m_117_36_alg».proof.Proof.KI.CompLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

variable (d : Dev nD) (L : grid0.Coords)

/-! # The compute of local row 127 over slot buffer 2

  Five trips of ten positions: the eight accumulators after the loop are the fifty-step recurrences of row 127's weights
  against the buffer's columns (`Good … 50`); the weights scratch and the buffer are only read. Each trip is run through
  its ten indexed loads of the splat weight (every index check by `chk_bcast`: the row 127 and the position `10·t + dl`
  are in range) and its eighty row loads; the ten positions of each accumulator are then ten applications of
  `good_step`. -/

set_option maxHeartbeats 8000000 in
theorem comp14_run (q : PosShare TreeShare) (fw : Buf (Elt F) ((sWv).view.loc (thr d L))) (fb : Buf (Elt F) ((sB5).view.loc (thr d L))) :
    iprop(((sWv).view.loc (thr d L) ↦{q} fw) ∗ ((sB5).view.loc (thr d L) ↦{fullShare} fb))
      ⊢ wp frame (wpE (defs₀ (F := F)) 𝒱₀ (thr d L) none) Set.univ
          (Scf.Loop.for k0_t14_loop k0_t14_ok (k0_pay1096 (F := F), k0_pay1097 (F := F), k0_pay1098 (F := F), k0_pay1099 (F := F), k0_pay1100 (F := F), k0_pay1101 (F := F), k0_pay1102 (F := F), k0_pay1103 (F := F))
            (k0_t14_body L xW (Memref.isWhole_whole _) wW (Memref.isWhole_whole _) tW (Memref.isWhole_whole _) oW (Memref.isWhole_whole _)
            sXv (Memref.isWhole_whole _) sWv (Memref.isWhole_whole _) sOv (Memref.isWhole_whole _)
            sB3 (Memref.isWhole_whole _) sB4 (Memref.isWhole_whole _) sB5 (Memref.isWhole_whole _) sB6 (Memref.isWhole_whole _) sB7 (Memref.isWhole_whole _)
            cc0_scratch8 cc0_scratch9 cc0_scratch10 cc0_scratch11 cc0_scratch12 cc0_scoped0 cc0_scoped1 cc0_scoped2))
          (fun r => (iprop(⌜Good fw fb 127 50 r⌝ ∗ ((sWv).view.loc (thr d L) ↦{q} fw) ∗ ((sB5).view.loc (thr d L) ↦{fullShare} fb)) : sProp 𝕄)) := by
  iintro ⟨Hw, Hb⟩
  sl_for (inv5 d L q fw fb 127) $$ [Hw Hb]
  case region =>
    intro k acc
    unfold inv5
    iintro ⟨%hG, Hw, Hb⟩
    sl_exec (disch := exact chk_bcast _ _ (by decide) (l_lt _ (fin_lt5 k0_t14_abs.2.1 _) _ (by decide)))
    iterate 10
      rw [SparseCore.vectorLoadIdx_bind (c := thr d L)]
      sl_exec (disch := exact chk_bcast _ _ (by decide) (l_lt _ (fin_lt5 k0_t14_abs.2.1 _) _ (by decide)))
    sl_step
    isplitr
    · ipureintro
      obtain ⟨h0, h1, h2, h3, h4, h5, h6, h7⟩ := hG
      have hk : k.val < 5 := fin_lt5 k0_t14_abs.2.1 k
      rw [show 10 * (k.val + 1) = 10 * k.val + 9 + 1 from by ring]
      refine ⟨?_, ?_, ?_, ?_, ?_, ?_, ?_, ?_⟩ <;> sl_unfold_run_names <;> dsimp only
      · repeat (refine good_step fw fb 127 0 _ _ _ _ _ ?_ (wb_eq fw _ _ _ 127 _ (by decide) (l_toNat _ hk _ (by decide))) (ld_eq5 fb _ _ _ _ rfl) rfl)
        exact h0
      · repeat (refine good_step fw fb 127 1 _ _ _ _ _ ?_ (wb_eq fw _ _ _ 127 _ (by decide) (l_toNat _ hk _ (by decide))) (ld_eq5 fb _ _ _ _ rfl) rfl)
        exact h1
      · repeat (refine good_step fw fb 127 2 _ _ _ _ _ ?_ (wb_eq fw _ _ _ 127 _ (by decide) (l_toNat _ hk _ (by decide))) (ld_eq5 fb _ _ _ _ rfl) rfl)
        exact h2
      · repeat (refine good_step fw fb 127 3 _ _ _ _ _ ?_ (wb_eq fw _ _ _ 127 _ (by decide) (l_toNat _ hk _ (by decide))) (ld_eq5 fb _ _ _ _ rfl) rfl)
        exact h3
      · repeat (refine good_step fw fb 127 4 _ _ _ _ _ ?_ (wb_eq fw _ _ _ 127 _ (by decide) (l_toNat _ hk _ (by decide))) (ld_eq5 fb _ _ _ _ rfl) rfl)
        exact h4
      · repeat (refine good_step fw fb 127 5 _ _ _ _ _ ?_ (wb_eq fw _ _ _ 127 _ (by decide) (l_toNat _ hk _ (by decide))) (ld_eq5 fb _ _ _ _ rfl) rfl)
        exact h5
      · repeat (refine good_step fw fb 127 6 _ _ _ _ _ ?_ (wb_eq fw _ _ _ 127 _ (by decide) (l_toNat _ hk _ (by decide))) (ld_eq5 fb _ _ _ _ rfl) rfl)
        exact h6
      · repeat (refine good_step fw fb 127 7 _ _ _ _ _ ?_ (wb_eq fw _ _ _ 127 _ (by decide) (l_toNat _ hk _ (by decide))) (ld_eq5 fb _ _ _ _ rfl) rfl)
        exact h7
    isplitl [Hw] <;> iassumption
  · unfold inv5
    isplitl [Hw Hb]
    · isplitr
      · ipureintro; exact good_zero fw fb 127
      isplitl [Hw] <;> iassumption
    · iintro %acc ⟨%hG, Hw, Hb⟩
      isplitr
      · ipureintro
        have ht : Scf.trips k0_t14_loop.lb k0_t14_loop.ub k0_t14_loop.st = 5 := by decide +kernel
        rw [ht] at hG; exact hG
      isplitl [Hw] <;> iassumption

end Cert.Proof.KI

end
-- ==== Proof.KI.Body.lean ====
import proofs.«206443_g53721450939153_cont_9to1_m_117_36_alg».proof.Proof.KI.Iface
import Idealize.ShloMosaic.Lib.Pipeline.Value
import proofs.«206443_g53721450939153_cont_9to1_m_117_36_alg».proof.Proof.KI.Ring
import proofs.«206443_g53721450939153_cont_9to1_m_117_36_alg».proof.Proof.KI.Trip
import proofs.«206443_g53721450939153_cont_9to1_m_117_36_alg».proof.Proof.KI.Values
import proofs.«206443_g53721450939153_cont_9to1_m_117_36_alg».proof.Proof.KI.OutRows
import proofs.«206443_g53721450939153_cont_9to1_m_117_36_alg».proof.Proof.KI.Comp7
import proofs.«206443_g53721450939153_cont_9to1_m_117_36_alg».proof.Proof.KI.Comp8
import proofs.«206443_g53721450939153_cont_9to1_m_117_36_alg».proof.Proof.KI.Comp9
import proofs.«206443_g53721450939153_cont_9to1_m_117_36_alg».proof.Proof.KI.Comp10
import proofs.«206443_g53721450939153_cont_9to1_m_117_36_alg».proof.Proof.KI.Comp11
import proofs.«206443_g53721450939153_cont_9to1_m_117_36_alg».proof.Proof.KI.Comp12
import proofs.«206443_g53721450939153_cont_9to1_m_117_36_alg».proof.Proof.KI.Comp13
import proofs.«206443_g53721450939153_cont_9to1_m_117_36_alg».proof.Proof.KI.Comp14

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

/-! # A tile's whole task

  The two copies into scratch (the tile's rows of the indices and of the padded weights); the index scratch and the table
  split into five slot tokens; the first four gathers; the outer loop by the ring invariant `Inv` (`trip`); then the last
  eight rows — the gathers of rows 124–127 issued while rows 120–123 are computed, each row's inner product by its copy of
  the compute loop and its eight accumulators stored into the output scratch — and the copy of the output scratch to the
  tile's rows of the result. The finished scratch holds the result's rows (`OutGood … 128`: eight more `out_update`s), so
  the copied rows are rows of the one array `Gout` (`out_block_writes`). -/

set_option maxHeartbeats 32000000 in
theorem tile_core : TileCore (F := F) := by
  intro d L q mx mw mt fo hx O W
  simp only [cc0_emb_kernel_eq_skeleton]; unfold cc0_emb_kernel_skel
  unfold tileMem scratchAny semsZero
  iintro ⟨#Hmw, ⟨Hx, Hw, Ht, Ho⟩, ⟨⟨%gx, Hxv⟩, ⟨%gw, Hwv⟩, ⟨%go, Hov⟩, ⟨%g3, Hb3⟩, ⟨%g4, Hb4⟩, ⟨%g5, Hb5⟩, ⟨%g6, Hb6⟩, ⟨%g7, Hb7⟩⟩, ⟨Hd0, Hd1, Hd2, Hd3, Hd4, Hs0, Hs1, Hs2⟩, HO⟩
  sl_exec
  have hxv : View.write (Elt F) (sXv).view gx (tile_core.sl.dma0 d L mx) Finset.univ = xvOf d L mx := View.write_whole_univ _ _ _
  have hwv : View.write (Elt F) (sWv).view gw (tile_core.sl.dma0_1 d L mw) Finset.univ = wvOf d L mw := View.write_whole_univ _ _ _
  ihave Hxv := (Entails.of_eq (congrArg (fun f => ((sXv).view.loc (thr d L) ↦{fullShare} f : sProp 𝕄)) hxv)) $$ Hxv
  ihave Hwv := (Entails.of_eq (congrArg (fun f => ((sWv).view.loc (thr d L) ↦{fullShare} f : sProp 𝕄)) hwv)) $$ Hwv
  ihave Hxt := (toks6_split (F := F) fullShare) $$ Hxv
  icases Hxt with ⟨Hx0, Hx1, Hx2, Hx3, Hx4, Hxrem⟩
  ihave Htt := (toks6_split (F := F) q) $$ Ht
  icases Htt with ⟨Ht0, Ht1, Ht2, Ht3, Ht4, Htrem⟩
  have hin := hin_row d L mx hx
  sl_exec
  sl_for (Inv d L q mx mw mt O W) $$ [Hwv Hov Hd0 Hx0 Ht0 Hb3 Hd1 Hx1 Ht1 Hb4 Hd2 Hx2 Ht2 Hb5 Hd3 Hx3 Ht3 Hb6 Hd4 Hx4 Ht4 Hb7 HO]
  case region =>
    intro k acc
    exact trip d L q mx mw mt hx O W k acc
  · unfold Inv FlightOf IdleOf OutPart
    isplitr; · iexact Hmw
    isplitl [Hwv]; · iexact Hwv
    isplitl [Hov]
    · iexists go; isplitr
      · ipureintro; intro b col hb; omega
      iexact Hov
    isplitl [Hd0 Hx0 Ht0 Hb3]
    · iexists g3, (tile_core.sl.gather0 d L mx mt hin), ![0, 0], inb_S128x50_S1x50_0_0
      isplitr; · ipureintro; exact rows_of_gather d L mx mt ![0, 0] inb_S128x50_S1x50_0_0 (5 * 0) (by decide) rfl _ _ _
      isplitl [Hd0]; · iexact Hd0
      isplitl [Hx0]; · iexact Hx0
      isplitl [Ht0]; · iexact Ht0
      iexact Hb3
    isplitl [Hd1 Hx1 Ht1 Hb4]
    · iexists g4, (tile_core.sl.gather1 d L mx mt hin), ![1, 0], inb_S128x50_S1x50_1_0
      isplitr; · ipureintro; exact rows_of_gather d L mx mt ![1, 0] inb_S128x50_S1x50_1_0 (5 * 0 + 1) (by decide) rfl _ _ _
      isplitl [Hd1]; · iexact Hd1
      isplitl [Hx1]; · iexact Hx1
      isplitl [Ht1]; · iexact Ht1
      iexact Hb4
    isplitl [Hd2 Hx2 Ht2 Hb5]
    · iexists g5, (tile_core.sl.gather2 d L mx mt hin), ![2, 0], inb_S128x50_S1x50_2_0
      isplitr; · ipureintro; exact rows_of_gather d L mx mt ![2, 0] inb_S128x50_S1x50_2_0 (5 * 0 + 2) (by decide) rfl _ _ _
      isplitl [Hd2]; · iexact Hd2
      isplitl [Hx2]; · iexact Hx2
      isplitl [Ht2]; · iexact Ht2
      iexact Hb5
    isplitl [Hd3 Hx3 Ht3 Hb6]
    · iexists g6, (tile_core.sl.gather3 d L mx mt hin), ![3, 0], inb_S128x50_S1x50_3_0
      isplitr; · ipureintro; exact rows_of_gather d L mx mt ![3, 0] inb_S128x50_S1x50_3_0 (5 * 0 + 3) (by decide) rfl _ _ _
      isplitl [Hd3]; · iexact Hd3
      isplitl [Hx3]; · iexact Hx3
      isplitl [Ht3]; · iexact Ht3
      iexact Hb6
    isplitl [Hb7 Hd4 Hx4 Ht4]
    · isplitl [Hb7]; · iexists g7; iexact Hb7
      isplitl [Hd4]; · iexact Hd4
      isplitl [Hx4]; · iexact Hx4
      iexact Ht4
    iexists (insert (SemLoc.dma cc0_scoped1.sem, (default : HIx 1)) (insert (SemLoc.dma cc0_scoped0.sem, (default : HIx 1)) W)); isplitr
    · ipureintro; intro p hp
      simp only [Finset.mem_insert] at hp
      rcases hp with rfl | rfl | hp
      · exact .inr rfl
      · exact .inr rfl
      · exact .inl hp
    iexact HO
  have ht : Scf.trips k0_t1_loop.lb k0_t1_loop.ub k0_t1_loop.st = 24 := by decide +kernel
  rw [ht]
  iintro %acc HI
  unfold Inv FlightOf IdleOf OutPart
  icases HI with ⟨-, Hwv, ⟨%fo', %hfo, Hov⟩, ⟨%gp0, %P0, %of0, %ho0, %hP0, Hf0, Hxr0, Htr0, Hbr0⟩, ⟨%gp1, %P1, %of1, %ho1, %hP1, Hf1, Hxr1, Htr1, Hbr1⟩,
    ⟨%gp2, %P2, %of2, %ho2, %hP2, Hf2, Hxr2, Htr2, Hbr2⟩, ⟨%gp3, %P3, %of3, %ho3, %hP3, Hf3, Hxr3, Htr3, Hbr3⟩, ⟨⟨%g7', Hb7⟩, Hd4, Hx4, Ht4⟩, %W', %hW', HO⟩
  sl_exec
  rw [wp_bind]
  iapply (wp_wand_r frame (wpE (defs₀ (F := F)) 𝒱₀ (thr d L) none) Set.univ)
  isplitl [Hwv Hbr0]
  · iapply (comp7_run d L fullShare (wvOf d L mw) _ _ _ (good_zero _ _ _))
    isplitl [Hwv] <;> iassumption
  iintro %e0 ⟨%hE0, Hwv, Hbr0⟩
  sl_exec
  rw [wp_bind]
  iapply (wp_wand_r frame (wpE (defs₀ (F := F)) 𝒱₀ (thr d L) none) Set.univ)
  isplitl [Hwv Hbr1]
  · iapply (comp8_run d L fullShare (wvOf d L mw) _ 121#32 121 rfl (by decide) _ _ _ _ _ (good_zero _ _ _))
    isplitl [Hwv] <;> iassumption
  iintro %e1 ⟨%hE1, Hwv, Hbr1⟩
  sl_exec
  rw [wp_bind]
  iapply (wp_wand_r frame (wpE (defs₀ (F := F)) 𝒱₀ (thr d L) none) Set.univ)
  isplitl [Hwv Hbr2]
  · iapply (comp9_run d L fullShare (wvOf d L mw) _ _ _ _ (good_zero _ _ _))
    isplitl [Hwv] <;> iassumption
  iintro %e2 ⟨%hE2, Hwv, Hbr2⟩
  sl_exec
  rw [wp_bind]
  iapply (wp_wand_r frame (wpE (defs₀ (F := F)) 𝒱₀ (thr d L) none) Set.univ)
  isplitl [Hwv Hbr3]
  · iapply (comp10_run d L fullShare (wvOf d L mw) _ 123#32 123 rfl (by decide) _ _ _ _ _ _ _ (good_zero _ _ _))
    isplitl [Hwv] <;> iassumption
  iintro %e3 ⟨%hE3, Hwv, Hbr3⟩
  sl_exec
  rw [wp_bind]
  iapply (wp_wand_r frame (wpE (defs₀ (F := F)) 𝒱₀ (thr d L) none) Set.univ)
  isplitl [Hwv Hb7]
  · iapply (comp11_run d L fullShare (wvOf d L mw) _ _ (good_zero _ _ _))
    isplitl [Hwv] <;> iassumption
  iintro %e4 ⟨%hE4, Hwv, Hb7⟩
  sl_exec
  rw [wp_bind]
  iapply (wp_wand_r frame (wpE (defs₀ (F := F)) 𝒱₀ (thr d L) none) Set.univ)
  isplitl [Hwv Hbr0]
  · iapply (comp12_run d L fullShare (wvOf d L mw) _ _ _ _ _ (good_zero _ _ _))
    isplitl [Hwv] <;> iassumption
  iintro %e5 ⟨%hE5, Hwv, Hbr0⟩
  sl_exec
  rw [wp_bind]
  iapply (wp_wand_r frame (wpE (defs₀ (F := F)) 𝒱₀ (thr d L) none) Set.univ)
  isplitl [Hwv Hbr1]
  · iapply (comp13_run d L fullShare (wvOf d L mw) _ 126#32 126 rfl (by decide) _ _ _ _ _ _ _ (good_zero _ _ _))
    isplitl [Hwv] <;> iassumption
  iintro %e6 ⟨%hE6, Hwv, Hbr1⟩
  sl_exec
  rw [wp_bind]
  iapply (wp_wand_r frame (wpE (defs₀ (F := F)) 𝒱₀ (thr d L) none) Set.univ)
  isplitl [Hwv Hbr2]
  · iapply (comp14_run d L fullShare (wvOf d L mw) _)
    isplitl [Hwv] <;> iassumption
  iintro %e7 ⟨%hE7, Hwv, Hbr2⟩
  sl_exec
  have c0 := good_spec d L mx mw mt _ _ 120 e0 (fun l hl => wv_val d L mw _ l (by omega) (by omega)) (fun l col hl hc => buf_val3 d L mx mt _ P0 hP0 _ l col hl hc) hE0
  have c1 := good_spec d L mx mw mt _ _ 121 e1 (fun l hl => wv_val d L mw _ l (by omega) (by omega)) (fun l col hl hc => buf_val4 d L mx mt _ P1 hP1 _ l col hl hc) hE1
  have c2 := good_spec d L mx mw mt _ _ 122 e2 (fun l hl => wv_val d L mw _ l (by omega) (by omega)) (fun l col hl hc => buf_val5 d L mx mt _ P2 hP2 _ l col hl hc) hE2
  have c3 := good_spec d L mx mw mt _ _ 123 e3 (fun l hl => wv_val d L mw _ l (by omega) (by omega)) (fun l col hl hc => buf_val6 d L mx mt _ P3 hP3 _ l col hl hc) hE3
  have hQ4 : RowsOf d L mx mt 124 (tile_core.sl.gather0_1 d L mx mt hin) := rows_of_gather d L mx mt ![124, 0] inb_S128x50_S1x50_124_0 124 (by decide) rfl _ _ _
  have c4 := good_spec d L mx mw mt _ _ 124 e4 (fun l hl => wv_val d L mw _ l (by omega) (by omega)) (fun l col hl hc => buf_val7 d L mx mt _ _ hQ4 _ l col hl hc) hE4
  have hQ5 : RowsOf d L mx mt 125 (tile_core.sl.gather16 d L mx mt hin) := rows_of_gather d L mx mt ![125, 0] inb_S128x50_S1x50_125_0 125 (by decide) rfl _ _ _
  have c5 := good_spec d L mx mw mt _ _ 125 e5 (fun l hl => wv_val d L mw _ l (by omega) (by omega)) (fun l col hl hc => buf_val3 d L mx mt _ _ hQ5 ((sB3).view.writes (Elt F) (sB3).view.junk [⟨Rect.whole S50x128, P0⟩]) l col hl hc) hE5
  have hQ6 : RowsOf d L mx mt 126 (tile_core.sl.gather16_1 d L mx mt hin) := rows_of_gather d L mx mt ![126, 0] inb_S128x50_S1x50_126_0 126 (by decide) rfl _ _ _
  have c6 := good_spec d L mx mw mt _ _ 126 e6 (fun l hl => wv_val d L mw _ l (by omega) (by omega)) (fun l col hl hc => buf_val4 d L mx mt _ _ hQ6 ((sB4).view.writes (Elt F) (sB4).view.junk [⟨Rect.whole S50x128, P1⟩]) l col hl hc) hE6
  have hQ7 : RowsOf d L mx mt 127 (tile_core.sl.gather16_2 d L mx mt hin) := rows_of_gather d L mx mt ![127, 0] inb_S128x50_S1x50_127_0 127 (by decide) rfl _ _ _
  have c7 := good_spec d L mx mw mt _ _ 127 e7 (fun l hl => wv_val d L mw _ l (by omega) (by omega)) (fun l col hl hc => buf_val5 d L mx mt _ _ hQ7 ((sB5).view.writes (Elt F) (sB5).view.junk [⟨Rect.whole S50x128, P2⟩]) l col hl hc) hE7
  have q0 := out_update (hsc := Gen.shapeCasts_S16_S1x16) d L mx mw mt 120 fo' e0 ![120, 0] ![120, 16] ![120, 32] ![120, 48] ![120, 64] ![120, 80] ![120, 96] ![120, 112] (by decide) (by decide) (by decide) (by decide) (by decide) (by decide) (by decide) (by decide) rfl rfl rfl rfl rfl rfl rfl rfl hfo (by decide) c0.1 c0.2.1 c0.2.2.1 c0.2.2.2.1 c0.2.2.2.2.1 c0.2.2.2.2.2.1 c0.2.2.2.2.2.2.1 c0.2.2.2.2.2.2.2
  have q1 := out_update (hsc := Gen.shapeCasts_S16_S1x16) d L mx mw mt 121 _ e1 ![121, 0] ![121, 16] ![121, 32] ![121, 48] ![121, 64] ![121, 80] ![121, 96] ![121, 112] (by decide) (by decide) (by decide) (by decide) (by decide) (by decide) (by decide) (by decide) rfl rfl rfl rfl rfl rfl rfl rfl q0 (by decide) c1.1 c1.2.1 c1.2.2.1 c1.2.2.2.1 c1.2.2.2.2.1 c1.2.2.2.2.2.1 c1.2.2.2.2.2.2.1 c1.2.2.2.2.2.2.2
  have q2 := out_update (hsc := Gen.shapeCasts_S16_S1x16) d L mx mw mt 122 _ e2 ![122, 0] ![122, 16] ![122, 32] ![122, 48] ![122, 64] ![122, 80] ![122, 96] ![122, 112] (by decide) (by decide) (by decide) (by decide) (by decide) (by decide) (by decide) (by decide) rfl rfl rfl rfl rfl rfl rfl rfl q1 (by decide) c2.1 c2.2.1 c2.2.2.1 c2.2.2.2.1 c2.2.2.2.2.1 c2.2.2.2.2.2.1 c2.2.2.2.2.2.2.1 c2.2.2.2.2.2.2.2
  have q3 := out_update (hsc := Gen.shapeCasts_S16_S1x16) d L mx mw mt 123 _ e3 ![123, 0] ![123, 16] ![123, 32] ![123, 48] ![123, 64] ![123, 80] ![123, 96] ![123, 112] (by decide) (by decide) (by decide) (by decide) (by decide) (by decide) (by decide) (by decide) rfl rfl rfl rfl rfl rfl rfl rfl q2 (by decide) c3.1 c3.2.1 c3.2.2.1 c3.2.2.2.1 c3.2.2.2.2.1 c3.2.2.2.2.2.1 c3.2.2.2.2.2.2.1 c3.2.2.2.2.2.2.2
  have q4 := out_update (hsc := Gen.shapeCasts_S16_S1x16) d L mx mw mt 124 _ e4 ![124, 0] ![124, 16] ![124, 32] ![124, 48] ![124, 64] ![124, 80] ![124, 96] ![124, 112] (by decide) (by decide) (by decide) (by decide) (by decide) (by decide) (by decide) (by decide) rfl rfl rfl rfl rfl rfl rfl rfl q3 (by decide) c4.1 c4.2.1 c4.2.2.1 c4.2.2.2.1 c4.2.2.2.2.1 c4.2.2.2.2.2.1 c4.2.2.2.2.2.2.1 c4.2.2.2.2.2.2.2
  have q5 := out_update (hsc := Gen.shapeCasts_S16_S1x16) d L mx mw mt 125 _ e5 ![125, 0] ![125, 16] ![125, 32] ![125, 48] ![125, 64] ![125, 80] ![125, 96] ![125, 112] (by decide) (by decide) (by decide) (by decide) (by decide) (by decide) (by decide) (by decide) rfl rfl rfl rfl rfl rfl rfl rfl q4 (by decide) c5.1 c5.2.1 c5.2.2.1 c5.2.2.2.1 c5.2.2.2.2.1 c5.2.2.2.2.2.1 c5.2.2.2.2.2.2.1 c5.2.2.2.2.2.2.2
  have q6 := out_update (hsc := Gen.shapeCasts_S16_S1x16) d L mx mw mt 126 _ e6 ![126, 0] ![126, 16] ![126, 32] ![126, 48] ![126, 64] ![126, 80] ![126, 96] ![126, 112] (by decide) (by decide) (by decide) (by decide) (by decide) (by decide) (by decide) (by decide) rfl rfl rfl rfl rfl rfl rfl rfl q5 (by decide) c6.1 c6.2.1 c6.2.2.1 c6.2.2.2.1 c6.2.2.2.2.1 c6.2.2.2.2.2.1 c6.2.2.2.2.2.2.1 c6.2.2.2.2.2.2.2
  have q7 := out_update (hsc := Gen.shapeCasts_S16_S1x16) d L mx mw mt 127 _ e7 ![127, 0] ![127, 16] ![127, 32] ![127, 48] ![127, 64] ![127, 80] ![127, 96] ![127, 112] (by decide) (by decide) (by decide) (by decide) (by decide) (by decide) (by decide) (by decide) rfl rfl rfl rfl rfl rfl rfl rfl q6 (by decide) c7.1 c7.2.1 c7.2.2.1 c7.2.2.2.1 c7.2.2.2.2.1 c7.2.2.2.2.2.1 c7.2.2.2.2.2.2.1 c7.2.2.2.2.2.2.2
  have hblk := out_block_writes d L mx mw mt _ fo q7
  sl_step
  ihave Ho := (Entails.of_eq (pointsTo_congr hblk)) $$ Ho
  isplitl [Hx Hw Htr0 Htr1 Htr2 Htr3 Ht4 Htrem Ho]
  · isplitl [Hx]; · iexact Hx
    isplitl [Hw]; · iexact Hw
    isplitl [Htr0 Htr1 Htr2 Htr3 Ht4 Htrem]
    · iapply (toks6_join (F := F) q)
      isplitl [Htr0]; · iexact Htr0
      isplitl [Htr1]; · iexact Htr1
      isplitl [Htr2]; · iexact Htr2
      isplitl [Htr3]; · iexact Htr3
      isplitl [Ht4]; · iexact Ht4
      iexact Htrem
    iexact Ho
  isplitl [Hxr0 Hxr1 Hxr2 Hxr3 Hx4 Hxrem Hwv Hov Hbr0 Hbr1 Hbr2 Hbr3 Hb7]
  · isplitl [Hxr0 Hxr1 Hxr2 Hxr3 Hx4 Hxrem]
    · iexists _
      iapply (toks6_join (F := F) fullShare)
      isplitl [Hxr0]; · iexact Hxr0
      isplitl [Hxr1]; · iexact Hxr1
      isplitl [Hxr2]; · iexact Hxr2
      isplitl [Hxr3]; · iexact Hxr3
      isplitl [Hx4]; · iexact Hx4
      iexact Hxrem
    isplitl [Hwv]; · iexists _; iexact Hwv
    isplitl [Hov]; · iexists _; iexact Hov
    isplitl [Hbr0]; · iexists _; iexact Hbr0
    isplitl [Hbr1]; · iexists _; iexact Hbr1
    isplitl [Hbr2]; · iexists _; iexact Hbr2
    isplitl [Hbr3]; · iexists _; iexact Hbr3
    iexists _; iexact Hb7
  isplitl [Hf0 Hf1 Hf2 Hf3 Hd4 Hs0 Hs1 Hs2]
  · isplitl [Hf0]; · iexact Hf0
    isplitl [Hf1]; · iexact Hf1
    isplitl [Hf2]; · iexact Hf2
    isplitl [Hf3]; · iexact Hf3
    isplitl [Hd4]; · iexact Hd4
    isplitl [Hs0]; · iexact Hs0
    isplitl [Hs1]; · iexact Hs1
    iexact Hs2
  iexists (insert (SemLoc.dma cc0_scoped2.sem, (default : HIx 1)) (insert (SemLoc.dma cc0_scratch10.sem, (default : HIx 1)) (insert (SemLoc.dma cc0_scratch9.sem, (default : HIx 1)) (insert (SemLoc.dma cc0_scratch8.sem, (default : HIx 1)) (insert (SemLoc.dma cc0_scratch12.sem, (default : HIx 1)) (insert (SemLoc.dma cc0_scratch11.sem, (default : HIx 1)) (insert (SemLoc.dma cc0_scratch10.sem, (default : HIx 1)) (insert (SemLoc.dma cc0_scratch9.sem, (default : HIx 1)) (insert (SemLoc.dma cc0_scratch8.sem, (default : HIx 1)) W'))))))))); isplitr
  · ipureintro; intro p hp
    simp only [Finset.mem_insert] at hp
    rcases hp with rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact hW' p hp
  iexact HO

end Cert.Proof.KI

end
-- ==== Proof.KI.Wrap.lean ====
/-
  A tile's task as the launch hands it over, from the task over the tile's own scratch: the vector subcore's scoped
  storage is its eight scratch buffers and eight DMA semaphores and a remainder that is carried as a frame; the arrays
  the TensorCore names are the ones the tile's memrefs address; what the tile owes leaves it free to wait on its own
  semaphores.
-/
import proofs.«206443_g53721450939153_cont_9to1_m_117_36_alg».proof.Proof.KI.CoreSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

/-! ## The eight DMA semaphores among the subcore's scoped cells -/

/-- The eight DMA semaphores, as semaphore locations. -/
abbrev Sm8 : Finset (SemLoc sig) :=
  {SemLoc.dma cc0_scratch8.sem, SemLoc.dma cc0_scratch9.sem, SemLoc.dma cc0_scratch10.sem, SemLoc.dma cc0_scratch11.sem, SemLoc.dma cc0_scratch12.sem,
    SemLoc.dma cc0_scoped0.sem, SemLoc.dma cc0_scoped1.sem, SemLoc.dma cc0_scoped2.sem}

/-- A thread's cell at a semaphore location. -/
def cellAt (thr : Thread nD τ) : SemLoc sig ↪ GSem nD τ sig := ⟨fun sm => (thr, sm), fun _ _ e => (Prod.mk.inj e).2⟩

omit [FloatOps F] in
theorem Sm8_scoped : ∀ sm ∈ (Sm8 : Finset (SemLoc sig)), sm.isScoped .scVector = true := by decide

omit [FloatOps F] in
theorem Sm8_sub (d : Dev nD) (L : grid0.Coords) : Sm8.map (cellAt (thr d L)) ⊆ ownCells (thr d L) := by
  intro g hg
  obtain ⟨sm, hsm, rfl⟩ := Finset.mem_map.mp hg
  exact mem_ownCells.mpr ⟨rfl, Sm8_scoped sm hsm⟩

/-- The subcore's scoped semaphores at zero: the eight, and the rest. -/
abbrev semsRest (d : Dev nD) (L : grid0.Coords) : sProp 𝕄 :=
  bigSep (ownCells (thr d L) \ Sm8.map (cellAt (thr d L))) fun g => semVal g 0

omit [FloatOps F] in
theorem ownSems0_V (d : Dev nD) (L : grid0.Coords) : (ownSems0 (thr d L) : sProp 𝕄) = iprop(semsZero d L ∗ semsRest d L) := by
  unfold SparseCore.Cfg.ownSems0 semsZero
  refine (SparseCore.bigSep_sdiff_split' (Sm8_sub d L)).trans ?_
  congr 1
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The eight scratch buffers among the subcore's own -/

/-- The eight scratch buffers, as the kernel names them. -/
abbrev R8 : Finset (Ref sig .scVector) :=
  {cc0_scratch0, cc0_scratch1, cc0_scratch2, cc0_scratch3, cc0_scratch4, cc0_scratch5, cc0_scratch6, cc0_scratch7}

/-- A vector subcore's buffer at a name of the kernel's. -/
def refAt (c : Fin τ.nSC) (i : Fin τ.nSub) : Ref sig .scVector ↪ DevRef τ sig := ⟨(Proc.scVector c i).devRef, Proc.devRef_injective _⟩

omit [FloatOps F] in
theorem R8_sub (c : Fin τ.nSC) (i : Fin τ.nSub) : R8.map (refAt c i) ⊆ ownRefs (τ := τ) (.scVector c i) := by
  intro b hb
  obtain ⟨r, hr, rfl⟩ := Finset.mem_map.mp hb
  refine SparseCore.Cfg.mem_ownRefs_of_owner (p := Proc.scVector c i) ?_
  simp only [Finset.mem_insert, Finset.mem_singleton] at hr
  rcases hr with rfl | rfl | rfl | rfl | rfl | rfl | rfl | rfl <;> rfl

/-- The subcore's own buffers: the eight, and the rest. -/
abbrev bufsRest (d : Dev nD) (L : grid0.Coords) : sProp 𝕄 :=
  bigSep (ownRefs (τ := τ) (.scVector (cV L) (jV L)) \ R8.map (refAt (cV L) (jV L))) fun b => iprop(∃ f, ((d, b) : Loc nD τ sig) ↦{fullShare} f)

omit [FloatOps F] in
theorem ownBufs_V (d : Dev nD) (L : grid0.Coords) : (ownBufs (thr d L) : sProp 𝕄) = iprop(scratchAny d L ∗ bufsRest d L) := by
  unfold SparseCore.Cfg.ownBufs scratchAny
  refine (SparseCore.bigSep_sdiff_split' (R8_sub (cV L) (jV L))).trans ?_
  congr 1
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The arrays, by either name -/

omit [FloatOps F] in
theorem tileMem_eq (d : Dev nD) (L : grid0.Coords) (q : PosShare TreeShare)
    (mx : Buf (Elt F) (xLoc d)) (mw : Buf (Elt F) (wLoc d)) (mt : Buf (Elt F) (tLoc d)) (fo : Buf (Elt F) (oLoc d)) :
    (tileMem d L q mx mw mt fo : sProp 𝕄) = tileIn d L q mx mw mt fo := rfl

/-! ## The task -/

theorem tileSpec_of_core (hC : TileCore (F := F)) : TileSpec (F := F) := by
  intro hF d L q mx mw mt fo hx O W hO
  rw [(K (F := F)).scopedBufs_V hF d (cV L) (jV L), SparseCore.Cfg.scopedSems0_V (Val := Elt F) d (cV L) (jV L), ownSems0_V, ownBufs_V,
    ← tileMem_eq, ← tileMem_eq]
  refine BI.Entails.trans ?pre (((sep_mono_left (hC d L q mx mw mt fo hx O W)).trans
    (wp_frame_r frame _ _ (R := iprop(bufsRest d L ∗ semsRest d L)))).trans (wp_mono frame _ _ fun _ => ?post))
  case pre =>
    show (_ : sProp 𝕄) ⊢ _
    iintro ⟨#Hlv, -, Hmem, ⟨Hscr, Hbufs⟩, ⟨Hsem, Hsems⟩, HO⟩
    ihave Hmw := ((K (F := F)).mayWaits_none (thr := thr d L) hO) $$ Hlv
    isplitl [Hmw Hmem Hscr Hsem HO]
    · isplitl [Hmw]; · iexact Hmw
      isplitl [Hmem]; · iexact Hmem
      isplitl [Hscr]; · iexact Hscr
      isplitl [Hsem]; · iexact Hsem
      iexact HO
    · isplitl [Hbufs]; · iexact Hbufs
      iexact Hsems
  case post =>
    show (_ : sProp 𝕄) ⊢ _
    iintro ⟨⟨Hmem, Hscr, Hsem, HW⟩, Hbufs, Hsems⟩
    isplitl [Hmem]; · iexact Hmem
    isplitl [Hscr Hbufs]
    · isplitl [Hscr]; · iexact Hscr
      iexact Hbufs
    isplitl [Hsem Hsems]
    · isplitl [Hsem]; · iexact Hsem
      iexact Hsems
    iexact HW

end Cert.Proof.KI

end
-- ==== Proof.KI.LaunchPay.lean ====
/-
  The launch of the embedding-bag kernel, 1: what the call's handshakes carry. The thirty-two tiles' row blocks of the
  result are pairwise disjoint and cover it (tile `(c, s)` owns rows `[256·s + 128·c, +128)`); the three arrays that are
  only read are shared out — the full share halved between the two SparseCores, each half cut into sixteen read tokens
  and a remainder that stays with the split —; a SparseCore's operands split into its tiles' and the tiles' results join
  back, every tile's rows rows of the one whole-array function.
-/
import proofs.«206443_g53721450939153_cont_9to1_m_117_36_alg».proof.Proof.KI.Iface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The grid, and the result's rows by tile -/

theorem bound_zero : grid0.bound 0 = 2 := rfl
theorem bound_one : grid0.bound 1 = 16 := rfl
theorem nCore_zero : (K (F := F)).nCore 0 = 2 := rfl
theorem nSub_zero : (K (F := F)).nSub 0 = 16 := rfl

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The same from the two numbers. -/
abbrev pt (c : Fin 2) (s : Fin 16) : grid0.Coords := coordsV (Fin.cast bound_zero.symm c) (Fin.cast bound_one.symm s)

/-- The elements of the result tile `L` writes: rows `[256·s + 128·c, +128)`, every column. -/
abbrev oSet (L : grid0.Coords) : Finset S4096x128.Idx := (oSl L).view.set

theorem mem_oSet (L : grid0.Coords) (i : S4096x128.Idx) :
    i ∈ oSet L ↔ 256 * (L 1).val + 128 * (L 0).val ≤ (i 0).val ∧ (i 0).val < 256 * (L 1).val + 128 * (L 0).val + 128 := by
  show i ∈ ((View.whole (main_v1_scv : Ref sig .scVector)).slice (Rect.unit (s := S4096x128) (k0_off1088 L) S128x128.size (k0_off1088_inb L))).set ↔ _
  rw [View.set_slice_whole, Rect.mem_set_unit, k0_off1088_eq]
  constructor
  · intro h; have := h 0; simpa using this
  · intro h a
    match a with
    | 0 => simpa using h
    | 1 => have := (i 1).isLt; simp; exact this

/-- Different tiles write different rows. -/
theorem oSet_disjoint {c c' : Fin 2} {s s' : Fin 16} (h : c ≠ c' ∨ s ≠ s') : Disjoint (oSet (pt c s)) (oSet (pt c' s')) := by
  refine Finset.disjoint_left.mpr fun i h1 h2 => ?_
  rw [mem_oSet] at h1 h2
  have e0 : ((pt c s) 0).val = c.val := rfl
  have e1 : ((pt c s) 1).val = s.val := rfl
  have e0' : ((pt c' s') 0).val = c'.val := rfl
  have e1' : ((pt c' s') 1).val = s'.val := rfl
  rw [e0, e1] at h1; rw [e0', e1'] at h2
  have hc := c.isLt; have hc' := c'.isLt
  rcases h with h | h
  · exact h (Fin.ext (by omega))
  · exact h (Fin.ext (by omega))

/-- Every row is some tile's. -/
theorem oSet_cover (i : S4096x128.Idx) : ∃ (c : Fin 2) (s : Fin 16), i ∈ oSet (pt c s) := by
  have hi : (i 0).val < 4096 := (i 0).isLt
  refine ⟨⟨((i 0).val % 256) / 128, by omega⟩, ⟨(i 0).val / 256, by omega⟩, ?_⟩
  rw [mem_oSet]
  show 256 * ((i 0).val / 256) + 128 * (((i 0).val % 256) / 128) ≤ (i 0).val ∧ (i 0).val < 256 * ((i 0).val / 256) + 128 * (((i 0).val % 256) / 128) + 128
  omega

/-- The rows of SparseCore `c`: its sixteen tiles'. -/
abbrev coreSet (c : Fin 2) : Finset S4096x128.Idx := (Finset.univ : Finset (Fin 16)).biUnion fun s => oSet (pt c s)

theorem coreSet_disjoint : ∀ c ∈ (Finset.univ : Finset (Fin 2)), ∀ c' ∈ (Finset.univ : Finset (Fin 2)), c ≠ c' → Disjoint (coreSet c) (coreSet c') := by
  intro c _ c' _ h
  refine (Finset.disjoint_biUnion_left _ _ _).mpr fun s _ => (Finset.disjoint_biUnion_right _ _ _).mpr fun s' _ => oSet_disjoint (.inl h)

theorem coreSet_cover : (Finset.univ : Finset (Fin 2)).biUnion coreSet = Finset.univ := by
  ext i
  simp only [Finset.mem_biUnion, Finset.mem_univ, true_and, iff_true]
  exact oSet_cover i

/-! ## The shares of the three arrays that are only read -/

/-- SparseCore 0 reads at the left half of the full share, SparseCore 1 at the right half. -/
def qC (c : ℕ) : PosShare TreeShare := if c = 0 then (fullShare : PosShare TreeShare).left else (fullShare : PosShare TreeShare).right
/-- Tile `i` of a SparseCore reads at the `i`-th token of its SparseCore's share. -/
abbrev qT (c : ℕ) (i : Fin 16) : PosShare TreeShare := Transfers.shareTok (qC c) 16 i
/-- What of a SparseCore's share no tile is handed. -/
abbrev qR (c : ℕ) : PosShare TreeShare := Transfers.shareDrop (qC c) 16

theorem qC_zero : qC 0 = (fullShare : PosShare TreeShare).left := if_pos rfl
theorem qC_one : qC 1 = (fullShare : PosShare TreeShare).right := if_neg Nat.one_ne_zero

variable [FloatOps F]

/-- the padded weights, as @main computes them -/
abbrev padW (w : FVec F S4096x50 .f32) : FVec F S4096x64 .f32 :=
  pad S4096x64 ![0, 0] ![0, 14] ![0, 0] w (sitofp .f32 (constantI S_ 32 0#32)) pads_S4096x50_S4096x64_000_0140 h_S_

variable (m : (ℓ : Loc nD τ sig) → Buf (Elt F) ℓ)

/-- The weights argument, and the padded weights at the launch memory. -/
abbrev aLoc (d : Dev nD) : Loc nD τ sig := (SparseCore.T d).loc main_arg1
abbrev pw (d : Dev nD) : Buf (Elt F) (wLoc d) := padW (m (aLoc d))
/-- The result every tile's rows are rows of, at the launch memory. -/
abbrev gout (d : Dev nD) : Buf (Elt F) (oLoc d) := Gout d (m (xLoc d)) (pw m d) (m (tLoc d))

/-- What a SparseCore is handed: its share of the three inputs, its rows of the result. -/
def coreIn (d : Dev nD) (c : Fin 2) (fo : Buf (Elt F) (oLoc d)) : sProp 𝕄 :=
  iprop((xLoc d ↦{qC c.val} m (xLoc d)) ∗ (wLoc d ↦{qC c.val} pw m d) ∗ (tLoc d ↦{qC c.val} m (tLoc d)) ∗ (oLoc d ↦[coreSet c]{fullShare} fo))

/-- What stays with the split while the tiles run. -/
def coreRest (d : Dev nD) (c : Fin 2) : sProp 𝕄 :=
  iprop((xLoc d ↦{qR c.val} m (xLoc d)) ∗ (wLoc d ↦{qR c.val} pw m d) ∗ (tLoc d ↦{qR c.val} m (tLoc d)))

abbrev tileOf (d : Dev nD) (c : Fin 2) (i : Fin 16) (fo : Buf (Elt F) (oLoc d)) : sProp 𝕄 :=
  tileIn d (pt c i) (qT c.val i) (m (xLoc d)) (pw m d) (m (tLoc d)) fo

/-- A SparseCore's holdings are its tiles' and the rest. -/
theorem coreIn_split (d : Dev nD) (c : Fin 2) (fo : Buf (Elt F) (oLoc d)) :
    coreIn m d c fo ⊣⊢ iprop(coreRest m d c ∗ bigSep Finset.univ fun i : Fin 16 => tileOf m d c i fo) := by
  have hx := Transfers.pointsTo_toks (nD := nD) (τ := τ) (sig := sig) (Ix := HIx 1) (Val := Elt F) (Name := ℕ) (U := UU) (Lvl := ℕ)
    (ℓ := xLoc d) (S := Finset.univ) (f := m (xLoc d)) (qC c.val) 16
  have hw := Transfers.pointsTo_toks (nD := nD) (τ := τ) (sig := sig) (Ix := HIx 1) (Val := Elt F) (Name := ℕ) (U := UU) (Lvl := ℕ)
    (ℓ := wLoc d) (S := Finset.univ) (f := pw m d) (qC c.val) 16
  have ht := Transfers.pointsTo_toks (nD := nD) (τ := τ) (sig := sig) (Ix := HIx 1) (Val := Elt F) (Name := ℕ) (U := UU) (Lvl := ℕ)
    (ℓ := tLoc d) (S := Finset.univ) (f := m (tLoc d)) (qC c.val) 16
  have ho : (oLoc d ↦[coreSet c]{fullShare} fo : sProp 𝕄) = bigSep Finset.univ fun s : Fin 16 => oLoc d ↦[oSet (pt c s)]{fullShare} fo :=
    pointsTo_biUnion Finset.univ (ℓ := oLoc d) (fun s : Fin 16 => oSet (pt c s)) fun s _ s' _ h => oSet_disjoint (.inr h)
  unfold coreIn coreRest tileOf tileIn
  rw [ho, bigSep_sep', bigSep_sep', bigSep_sep']
  constructor
  · iintro ⟨Hx, Hw, Ht, Ho⟩
    ihave Hx' := hx.1 $$ Hx
    ihave Hw' := hw.1 $$ Hw
    ihave Ht' := ht.1 $$ Ht
    icases Hx' with ⟨Hxr, Hxs⟩
    icases Hw' with ⟨Hwr, Hws⟩
    icases Ht' with ⟨Htr, Hts⟩
    isplitl [Hxr Hwr Htr]
    · isplitl [Hxr]; · iexact Hxr
      isplitl [Hwr]; · iexact Hwr
      iexact Htr
    isplitl [Hxs]; · iexact Hxs
    isplitl [Hws]; · iexact Hws
    isplitl [Hts]; · iexact Hts
    iexact Ho
  · iintro ⟨⟨Hxr, Hwr, Htr⟩, Hxs, Hws, Hts, Ho⟩
    isplitl [Hxr Hxs]
    · iapply hx.2; isplitl [Hxr]; · iexact Hxr
      iexact Hxs
    isplitl [Hwr Hws]
    · iapply hw.2; isplitl [Hwr]; · iexact Hwr
      iexact Hws
    isplitl [Htr Hts]
    · iapply ht.2; isplitl [Htr]; · iexact Htr
      iexact Hts
    iexact Ho

/-! ## What the handshakes carry -/

/-- The one call hands SparseCore `c` its share of the inputs and its rows of the result, tile `i` of it a token of that
    share and its own rows; each hands the same back, the result's rows at the recurrence's values. -/
def P : (K (F := F)).Pay (nD := nD) (Val := Elt F) (Name := ℕ) (U := UU) where
  st := fun q d c => match q with | 0 => coreIn m d (Fin.cast nCore_zero c) (m (oLoc d))
  dn := fun q d c => match q with | 0 => coreIn m d (Fin.cast nCore_zero c) (gout m d)
  go := fun q d c i => match q with | 0 => tileOf m d (Fin.cast nCore_zero c) (Fin.cast nSub_zero i) (m (oLoc d))
  td := fun q d c i => match q with | 0 => tileOf m d (Fin.cast nCore_zero c) (Fin.cast nSub_zero i) (gout m d)
  x := fun _ _ => iprop(emp)

instance coreIn_storable (d : Dev nD) (c : Fin 2) (fo : Buf (Elt F) (oLoc d)) : BI.Storable (upEmb : UEmb _ 𝕄) (coreIn m d c fo) := by
  unfold coreIn; infer_instance

instance P_storable : (P (F := F) m).IsStorable where
  st q d c := match q with
    | 0 => (inferInstance : BI.Storable (upEmb : UEmb _ 𝕄) (coreIn m d (Fin.cast nCore_zero c) (m (oLoc d))))
  dn q d c := match q with
    | 0 => (inferInstance : BI.Storable (upEmb : UEmb _ 𝕄) (coreIn m d (Fin.cast nCore_zero c) (gout m d)))
  go q d c i := match q with
    | 0 => (inferInstance : BI.Storable (upEmb : UEmb _ 𝕄) (tileOf m d (Fin.cast nCore_zero c) (Fin.cast nSub_zero i) (m (oLoc d))))
  td q d c i := match q with
    | 0 => (inferInstance : BI.Storable (upEmb : UEmb _ 𝕄) (tileOf m d (Fin.cast nCore_zero c) (Fin.cast nSub_zero i) (gout m d)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands split into its tiles', and the tiles' results join into the SparseCore's. -/
theorem vecSplit : (K (F := F)).VecSplit' (P m) 0 := by
  intro d c
  show coreIn m d (Fin.cast nCore_zero c) (m (oLoc d)) ⊢ |={Set.univ}=> iprop(
      (bigSep Finset.univ fun i : Fin ((K (F := F)).nSub 0) => tileOf m d (Fin.cast nCore_zero c) (Fin.cast nSub_zero i) (m (oLoc d)))
      ∗ ((bigSep Finset.univ fun i : Fin ((K (F := F)).nSub 0) => tileOf m d (Fin.cast nCore_zero c) (Fin.cast nSub_zero i) (gout m d))
          -∗ coreIn m d (Fin.cast nCore_zero c) (gout m d)))
  rw [bigSep_tasks (F := F) (fun i => tileOf m d (Fin.cast nCore_zero c) i (m (oLoc d))),
    bigSep_tasks (F := F) (fun i => tileOf m d (Fin.cast nCore_zero c) i (gout m d))]
  iintro H
  ihave H' := (coreIn_split m d (Fin.cast nCore_zero c) (m (oLoc d))).1 $$ H
  icases H' with ⟨Hr, Hgo⟩
  imodintro
  isplitl [Hgo]; · iexact Hgo
  iintro Htd
  iapply (coreIn_split m d (Fin.cast nCore_zero c) (gout m d)).2
  isplitl [Hr]; · iexact Hr
  iexact Htd

end Cert.Proof.KI

end
-- ==== Proof.KI.LaunchObl.lean ====
/-
  The launch of the embedding-bag kernel, 2: a tile's task, as the launch theorem asks for it, from the statement of the
  task (`TileSpec`): the body table's entry for a vector subcore is the kernel function at the subcore's grid point on
  the whole arrays and the subcore's scratch, and the task's operands and results are the payloads `go` and `td`.
-/
import proofs.«206443_g53721450939153_cont_9to1_m_117_36_alg».proof.Proof.KI.LaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] (m : (ℓ : Loc nD τ sig) → Buf (Elt F) ℓ)

theorem defs₀_vector (c : Fin τ.nSC) (s : Fin τ.nSub) :
    defs₀ (F := F) (.scVector c s) 0 ()
      = SparseCore.onTile hcore0 hsub0 (fun c s => cc0_emb_kernel (coordsV c s)
          (Memref.whole main_arg0_scv) (Memref.isWhole_whole _) (Memref.whole main_v0_scv) (Memref.isWhole_whole _) (Memref.whole main_arg2_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _)
          cc0_scratch8 cc0_scratch9 cc0_scratch10 cc0_scratch11 cc0_scratch12 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of vector subcore `i` of SparseCore `c`: the statement of the task at the grid point `(c, i)`, the tile's token
    of its SparseCore's share, the launch memory's indices, padded weights and table. -/
theorem tileObl (hT : TileSpec (F := F)) (hx : ∀ (d : Dev nD) i, (m (xLoc d) i).toNat < 100000) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hT facts d (coordsV ⟨_, hc.1⟩ ⟨_, hc.2⟩) (qT c.val (Fin.cast nSub_zero i)) (m (xLoc d)) (pw m d) (m (tLoc d)) (m (oLoc d)) (hx d) O W hO).trans
    (wp_mono frame _ _ fun _ => obl_post)

end Cert.Proof.KI

end
-- ==== Proof.KI.LaunchMain.lean ====
/-
  The launch of the embedding-bag kernel, 3: the launch element of the ghost state (the handshakes' rounds; the
  transfers' counters are dropped) and @main on the TensorCore — the constant, its conversion and the padding of the
  weights as host operations over the seven arrays held whole, then the one call: the three read-only arrays halved
  between the two SparseCores, the result cut into their rows, and everything joined back after it.
-/
import proofs.«206443_g53721450939153_cont_9to1_m_117_36_alg».proof.Proof.KI.LaunchObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo (after after_cons after_nil)

variable [FloatOps F] (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays and the host operations -/

abbrev x' : DevRef τ sig := Proc.devRef .tc (main_arg0 : Ref sig .tc)
abbrev a' : DevRef τ sig := Proc.devRef .tc (main_arg1 : Ref sig .tc)
abbrev t' : DevRef τ sig := Proc.devRef .tc (main_arg2 : Ref sig .tc)
abbrev c' : DevRef τ sig := Proc.devRef .tc (main_c : Ref sig .tc)
abbrev e' : DevRef τ sig := Proc.devRef .tc (main_call0_v0 : Ref sig .tc)
abbrev w' : DevRef τ sig := Proc.devRef .tc (main_v0 : Ref sig .tc)
abbrev o' : DevRef τ sig := Proc.devRef .tc (main_v1 : Ref sig .tc)

/-- The TensorCore's arrays, all unscoped. -/
abbrev S7 : Finset (DevRef τ sig) := {x', a', t', c', e', w', o'}

abbrev cLoc (d : Dev nD) : Loc nD τ sig := (SparseCore.T d).loc main_c
abbrev eLoc (d : Dev nD) : Loc nD τ sig := (SparseCore.T d).loc main_call0_v0

/-- The constant, its conversion, the padding: @main's three host operations, as it states them. -/
abbrev opC : HloOp τ sig (Elt F) := StableHlo.nullary main_c (constantI S_ 32 0#32)
abbrev opE : HloOp τ sig (Elt F) := StableHlo.TRef.unary (.of main_c : StableHlo.TRef sig ⟨S_, .i32⟩) main_call0.v0 (sitofp .f32)
abbrev opW : HloOp τ sig (Elt F) :=
  StableHlo.TRef.binary (.of main_arg1 : StableHlo.TRef sig ⟨S4096x50, .f32⟩) main_call0.v0 main_call0.v1 (fun x v => pad S4096x64 ![0, 0] ![0, 14] ![0, 0] x v pads_S4096x50_S4096x64_000_0140 h_S_)

omit [FloatOps F] in
theorem held_S7 (d : Dev nD) (W : Valuation τ sig (Elt F)) :
    (held (T d) S7 W : sProp 𝕄) = iprop((xLoc d ↦{fullShare} W x') ∗ (aLoc d ↦{fullShare} W a') ∗ (tLoc d ↦{fullShare} W t') ∗ (cLoc d ↦{fullShare} W c')
      ∗ (eLoc d ↦{fullShare} W e') ∗ (wLoc d ↦{fullShare} W w') ∗ (oLoc d ↦{fullShare} W o')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1) ∗ (tLoc d ↦{fullShare} W main_arg2)
      ∗ (cLoc d ↦{fullShare} W main_c) ∗ (eLoc d ↦{fullShare} W main_call0_v0) ∗ (wLoc d ↦{fullShare} W main_v0) ∗ (oLoc d ↦{fullShare} W main_v1)) := by
  unfold unscopedBufs
  rw [show (Finset.univ.filter fun b : Ref sig .tc => ¬ b.isScoped) = {main_arg0, main_arg1, main_arg2, main_c, main_call0_v0, main_v0, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuation after the three host operations. -/
def V0 (d : Dev nD) : Valuation τ sig (Elt F) := fun b => m (d, b)
abbrev V3 (d : Dev nD) : Valuation τ sig (Elt F) := (opW (F := F)).result ((opE (F := F)).result ((opC (F := F)).result (V0 m d)))

theorem unscoped_held (d : Dev nD) : (unscopedBufs d (fun b => m ((SparseCore.T d).loc b)) : sProp 𝕄) = held (T d) S7 (V0 m d) := by
  rw [unscopedBufs_eq, held_S7]; rfl

theorem V3_x (d : Dev nD) : V3 m d x' = m (xLoc d) := by
  show after [opC (F := F), opE, opW] (V0 m d) x' = _
  after_results; rfl
theorem V3_a (d : Dev nD) : V3 m d a' = m (aLoc d) := by
  show after [opC (F := F), opE, opW] (V0 m d) a' = _
  after_results; rfl
theorem V3_t (d : Dev nD) : V3 m d t' = m (tLoc d) := by
  show after [opC (F := F), opE, opW] (V0 m d) t' = _
  after_results; rfl
theorem V3_o (d : Dev nD) : V3 m d o' = m (oLoc d) := by
  show after [opC (F := F), opE, opW] (V0 m d) o' = _
  after_results; rfl
theorem V3_w (d : Dev nD) : V3 m d w' = pw m d := by
  show after [opC (F := F), opE, opW] (V0 m d) w' = _
  after_results; rfl

theorem held_V3 (d : Dev nD) :
    (held (T d) S7 (V3 m d) : sProp 𝕄) = iprop((xLoc d ↦{fullShare} m (xLoc d)) ∗ (aLoc d ↦{fullShare} m (aLoc d)) ∗ (tLoc d ↦{fullShare} m (tLoc d))
      ∗ (cLoc d ↦{fullShare} V3 m d c') ∗ (eLoc d ↦{fullShare} V3 m d e') ∗ (wLoc d ↦{fullShare} pw m d) ∗ (oLoc d ↦{fullShare} m (oLoc d))) := by
  rw [held_S7, V3_x, V3_a, V3_t, V3_w, V3_o]

theorem hC : (opC (F := F)).bufs ⊆ S7 := show ({c'} : Finset (DevRef τ sig)) ⊆ S7 by decide
theorem hE : (opE (F := F)).bufs ⊆ S7 := show ({c', e'} : Finset (DevRef τ sig)) ⊆ S7 by decide
theorem hW : (opW (F := F)).bufs ⊆ S7 := show ({a', e', w'} : Finset (DevRef τ sig)) ⊆ S7 by decide

/-! ## The call's operands, from the arrays whole -/

/-- The three inputs and the result, whole, are the two SparseCores' holdings. -/
theorem cores_split (d : Dev nD) (fo : Buf (Elt F) (oLoc d)) :
    iprop((xLoc d ↦{fullShare} m (xLoc d)) ∗ (wLoc d ↦{fullShare} pw m d) ∗ (tLoc d ↦{fullShare} m (tLoc d)) ∗ (oLoc d ↦{fullShare} fo))
      ⊣⊢ (iprop(coreIn m d 0 fo ∗ coreIn m d 1 fo) : sProp 𝕄) := by
  have hx : (xLoc d ↦{fullShare} m (xLoc d) : sProp 𝕄) ⊣⊢ iprop((xLoc d ↦{qC 0} m (xLoc d)) ∗ (xLoc d ↦{qC 1} m (xLoc d))) := by
    rw [qC_zero, qC_one]; exact pointsTo_share (PosShare.mem_left_op_right _)
  have hw : (wLoc d ↦{fullShare} pw m d : sProp 𝕄) ⊣⊢ iprop((wLoc d ↦{qC 0} pw m d) ∗ (wLoc d ↦{qC 1} pw m d)) := by
    rw [qC_zero, qC_one]; exact pointsTo_share (PosShare.mem_left_op_right _)
  have ht : (tLoc d ↦{fullShare} m (tLoc d) : sProp 𝕄) ⊣⊢ iprop((tLoc d ↦{qC 0} m (tLoc d)) ∗ (tLoc d ↦{qC 1} m (tLoc d))) := by
    rw [qC_zero, qC_one]; exact pointsTo_share (PosShare.mem_left_op_right _)
  have ho : (oLoc d ↦{fullShare} fo : sProp 𝕄) = iprop((oLoc d ↦[coreSet 0]{fullShare} fo) ∗ (oLoc d ↦[coreSet 1]{fullShare} fo)) := by
    have e : (oLoc d ↦{fullShare} fo : sProp 𝕄) = bigSep Finset.univ fun c : Fin 2 => oLoc d ↦[coreSet c]{fullShare} fo := by
      rw [← pointsTo_biUnion Finset.univ (ℓ := oLoc d) coreSet coreSet_disjoint, coreSet_cover]; try rfl
    rw [e, show (Finset.univ : Finset (Fin 2)) = {0, 1} by decide, SparseCore.bigSep_insert' (by decide), bigSep_singleton]
  unfold coreIn
  rw [ho]
  constructor
  · iintro ⟨Hx, Hw, Ht, Ho0, Ho1⟩
    ihave Hx' := hx.1 $$ Hx
    ihave Hw' := hw.1 $$ Hw
    ihave Ht' := ht.1 $$ Ht
    icases Hx' with ⟨Hx0, Hx1⟩
    icases Hw' with ⟨Hw0, Hw1⟩
    icases Ht' with ⟨Ht0, Ht1⟩
    isplitl [Hx0 Hw0 Ht0 Ho0]
    · isplitl [Hx0]; · iexact Hx0
      isplitl [Hw0]; · iexact Hw0
      isplitl [Ht0]; · iexact Ht0
      iexact Ho0
    · isplitl [Hx1]; · iexact Hx1
      isplitl [Hw1]; · iexact Hw1
      isplitl [Ht1]; · iexact Ht1
      iexact Ho1
  · iintro ⟨⟨Hx0, Hw0, Ht0, Ho0⟩, Hx1, Hw1, Ht1, Ho1⟩
    isplitl [Hx0 Hx1]
    · iapply hx.2; isplitl [Hx0]; · iexact Hx0
      iexact Hx1
    isplitl [Hw0 Hw1]
    · iapply hw.2; isplitl [Hw0]; · iexact Hw0
      iexact Hw1
    isplitl [Ht0 Ht1]
    · iapply ht.2; isplitl [Ht0]; · iexact Ht0
      iexact Ht1
    isplitl [Ho0]; · iexact Ho0
    iexact Ho1

theorem st0_eq (d : Dev nD) :
    (bigSep Finset.univ fun c : Fin ((K (F := F)).nCore 0) => (P m).st 0 d c) = iprop(coreIn m d 0 (m (oLoc d)) ∗ coreIn m d 1 (m (oLoc d))) := by
  show (bigSep (Finset.univ : Finset (Fin 2)) fun c => coreIn m d c (m (oLoc d))) = _
  rw [show (Finset.univ : Finset (Fin 2)) = {0, 1} by decide, SparseCore.bigSep_insert' (by decide), bigSep_singleton]
theorem dn0_eq (d : Dev nD) :
    (bigSep Finset.univ fun c : Fin ((K (F := F)).nCore 0) => (P m).dn 0 d c) = iprop(coreIn m d 0 (gout m d) ∗ coreIn m d 1 (gout m d)) := by
  show (bigSep (Finset.univ : Finset (Fin 2)) fun c => coreIn m d c (gout m d)) = _
  rw [show (Finset.univ : Finset (Fin 2)) = {0, 1} by decide, SparseCore.bigSep_insert' (by decide), bigSep_singleton]

/-- What @main leaves the claim: the result at the recurrence's values, the three arguments at their launch contents. -/
abbrev FIN (d : Dev nD) : sProp 𝕄 :=
  iprop((oLoc d ↦{fullShare} gout m d) ∗ (xLoc d ↦{fullShare} m (xLoc d)) ∗ (aLoc d ↦{fullShare} m (aLoc d)) ∗ (tLoc d ↦{fullShare} m (tLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, -⟩
  iapply (wp_hlo_within 𝒱 (SparseCore.T d) none Set.univ (op := opC) (S := S7) hC (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opE) (S := S7) hE (V := (opC (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opW) (S := S7) hW (V := (opE (F := F)).result ((opC (F := F)).result (V0 m d)))) $$ [Hb Hheld]
  · isplitl [Hb]; · iexact Hb
    iexact Hheld
  iintro ⟨Hb, Hheld⟩
  rw [wp_ret]; imodintro; imodintro
  ihave Hh := (Entails.of_eq (held_V3 m d)) $$ Hheld
  icases Hh with ⟨Hx, Ha, Ht, -, -, Hw, Ho⟩
  -- the call: the inputs halved between the two SparseCores, the result cut into their rows
  iapply ((K (F := F)).wp_run (D (F := F)) 𝒱 (EH := EH) (P := P m) κ d 0) $$ [Hst Hx Hw Ht Ho Ha]
  isplitr; · iexact Hctx
  isplitl [Hst]; · iexact Hst
  isplitl [Hx Hw Ht Ho]
  · rw [st0_eq]
    iapply (cores_split m d (m (oLoc d))).1
    isplitl [Hx]; · iexact Hx
    isplitl [Hw]; · iexact Hw
    isplitl [Ht]; · iexact Ht
    iexact Ho
  iintro ⟨Hst, Hdn⟩
  ihave Hdn' := (Entails.of_eq (dn0_eq m d)) $$ Hdn
  ihave H4 := (cores_split m d (gout m d)).2 $$ Hdn'
  icases H4 with ⟨Hx, -, Ht, Ho⟩
  imodintro
  isplitl [Hst]; · iexact Hst
  isplitl [Ho]; · iexact Ho
  isplitl [Hx]; · iexact Hx
  isplitl [Ha]; · iexact Ha
  iexact Ht

end Cert.Proof.KI

end
-- ==== Proof.KI.Launch.lean ====
/-
  The launch of the embedding-bag kernel, 4: the program's run. From the statement of a tile's task, every weakly fair
  execution of the device's threads from a memory whose indices name rows of the table terminates with the result array
  at the fifty-step recurrence over the launch memory's indices, its weights padded with zeros to sixty-four columns, and
  its table, and with the three arguments unchanged: the final memory is read off the four arrays @main is left holding
  whole.
-/
import proofs.«206443_g53721450939153_cont_9to1_m_117_36_alg».proof.Proof.KI.LaunchMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

section Fin

variable [FloatOps F] (m : (ℓ : Loc nD τ sig) → Buf (Elt F) ℓ)

/-- What the final memory holds: the result, and the three arguments as launched. -/
def fq (d : Dev nD) (s' : Phys nD τ sig (Elt F)) : Prop :=
  s'.mem.mem (oLoc d) = gout m d ∧ s'.mem.mem (xLoc d) = m (xLoc d) ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ho, Hx, Ha, Ht⟩, HSI⟩
  ihave H := (persistent_entails_right (SI_pointsTo_agree (st := s') (ℓ := oLoc d) (I := Finset.univ) (q := fullShare) (f := gout m d))) $$ [HSI Ho]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h3, HSI, -⟩
  ihave H := (SI_pointsTo_agree (st := s') (ℓ := tLoc d) (I := Finset.univ) (q := fullShare) (f := m (tLoc d))) $$ [HSI Ht]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

end Fin

/-! ## The program's run -/

theorem run_main [FloatOps F] [∀ e, Nonempty (Elt F e)] (hT : TileSpec (F := F)) (m : (ℓ : Loc nD τ sig) → Buf (Elt F) ℓ) (ρ : Dev nD → PrngReg)
    (hx : ∀ (d : Dev nD) i, (m (xLoc d) i).toNat < 100000) :
    θ_run (Cert.KernelIdeal.defs (F := F)) (Cert.KernelIdeal.threads (F := F)) ⟨m, fun _ => 0, ρ⟩ (fun r => ∀ c : Dev nD,
      r.2.mem (oLoc c) = Cert.SpecF.Gk (F := F) (m (xLoc c)) (padW (m ((SparseCore.T c).loc main_arg1))) (m (tLoc c))
      ∧ r.2.mem (xLoc c) = m (xLoc c) ∧ r.2.mem ((SparseCore.T c).loc main_arg1) = m ((SparseCore.T c).loc main_arg1) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hT hx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KI

end
-- ==== Proof.KI.Run.lean ====
import proofs.«206443_g53721450939153_cont_9to1_m_117_36_alg».proof.Proof.KI.Iface
import Idealize.ShloMosaic.Lib.Pipeline.Value
import proofs.«206443_g53721450939153_cont_9to1_m_117_36_alg».proof.Proof.KI.Body
import proofs.«206443_g53721450939153_cont_9to1_m_117_36_alg».proof.Proof.KI.Wrap
import proofs.«206443_g53721450939153_cont_9to1_m_117_36_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x50 EltTy.i32)
local notation "wW" => (Memref.whole Cert.KernelIdeal.main_v0_scv : Memref Cert.KernelIdeal.sig Kind.scVector Space.hbm Cert.KernelIdeal.S4096x64 EltTy.f32)
local notation "tW" => (Memref.whole Cert.KernelIdeal.main_arg2_scv : Memref Cert.KernelIdeal.sig Kind.scVector Space.hbm Cert.KernelIdeal.S100000x128 EltTy.f32)
local notation "oW" => (Memref.whole Cert.KernelIdeal.main_v1_scv : Memref Cert.KernelIdeal.sig Kind.scVector Space.hbm Cert.KernelIdeal.S4096x128 EltTy.f32)
local notation "sXv" => (Memref.whole Cert.KernelIdeal.cc0_scratch0 : Memref Cert.KernelIdeal.sig Kind.scVector Space.vmem Cert.KernelIdeal.S128x50 EltTy.i32)
local notation "sWv" => (Memref.whole Cert.KernelIdeal.cc0_scratch1 : Memref Cert.KernelIdeal.sig Kind.scVector Space.vmem Cert.KernelIdeal.S128x64 EltTy.f32)
local notation "sOv" => (Memref.whole Cert.KernelIdeal.cc0_scratch2 : Memref Cert.KernelIdeal.sig Kind.scVector Space.vmem Cert.KernelIdeal.S128x128 EltTy.f32)
local notation "sB3" => (Memref.whole Cert.KernelIdeal.cc0_scratch3 : Memref Cert.KernelIdeal.sig Kind.scVector Space.vmem Cert.KernelIdeal.S50x128 EltTy.f32)
local notation "sB4" => (Memref.whole Cert.KernelIdeal.cc0_scratch4 : Memref Cert.KernelIdeal.sig Kind.scVector Space.vmem Cert.KernelIdeal.S50x128 EltTy.f32)
local notation "sB5" => (Memref.whole Cert.KernelIdeal.cc0_scratch5 : Memref Cert.KernelIdeal.sig Kind.scVector Space.vmem Cert.KernelIdeal.S50x128 EltTy.f32)
local notation "sB6" => (Memref.whole Cert.KernelIdeal.cc0_scratch6 : Memref Cert.KernelIdeal.sig Kind.scVector Space.vmem Cert.KernelIdeal.S50x128 EltTy.f32)
local notation "sB7" => (Memref.whole Cert.KernelIdeal.cc0_scratch7 : Memref Cert.KernelIdeal.sig Kind.scVector Space.vmem Cert.KernelIdeal.S50x128 EltTy.f32)

variable [FloatOps F]

/-! # The program's run

  Every weakly fair execution of the device's threads ends with the result at the recurrence's values over the launch
  memory's indices, padded weights and table, and the three arguments unchanged: the tile's run (`tile_core`) through the
  own-scratch wrapper and the launch. -/

theorem run [∀ e, Nonempty (Elt F e)] (m : (ℓ : Loc nD τ sig) → Buf (Elt F) ℓ) (ρ : Dev nD → PrngReg)
    (hx : ∀ (d : Dev nD) i, (m (xLoc d) i).toNat < 100000) :
    θ_run (Cert.KernelIdeal.defs (F := F)) (Cert.KernelIdeal.threads (F := F)) ⟨m, fun _ => 0, ρ⟩ (fun r => ∀ c : Dev nD,
      r.2.mem (oLoc c) = Cert.SpecF.Gk (F := F) (m (xLoc c)) (padW (m ((SparseCore.T c).loc main_arg1))) (m (tLoc c))
      ∧ r.2.mem (xLoc c) = m (xLoc c) ∧ r.2.mem ((SparseCore.T c).loc main_arg1) = m ((SparseCore.T c).loc main_arg1) ∧ r.2.mem (tLoc c) = m (tLoc c)) :=
  run_main (tileSpec_of_core tile_core) m ρ hx

end Cert.Proof.KI

end
-- ==== Proof.RefPre.lean ====
/-
  The precondition read back at the index array. Its last conjunct says that every entry of the
  index array lies in [0, 99999] as a SIGNED 32-bit word; such a word has the same unsigned value,
  so every index, read unsigned, names one of the 100000 table rows.
-/
import proofs.«206443_g53721450939153_cont_9to1_m_117_36_alg».proof.Pre_input_domain
import proofs.«206443_g53721450939153_cont_9to1_m_117_36_alg».proof.Proof.Gen.Pre_input_domain
import Idealize.ShloMosaic.Lib.ReduceAll
import Idealize.ShloMosaic.Lib.ValueIdx

noncomputable section

namespace Cert.RefSide

open Idealize.ShloMosaic

/-- The rank-0 shape has a single index. -/
instance subsingleton_scalar_idx : Subsingleton Cert.Pre_input_domain.S_.Idx :=
  ⟨fun a b => funext fun d => d.elim0⟩

/-- A 32-bit word between 0 and 99999 as a signed number is below 100000 as an unsigned one. -/
theorem toNat_lt_of_signed_range (v : BitVec 32) (h0 : (0#32 : BitVec 32).toInt ≤ v.toInt)
    (h1 : v.toInt ≤ (99999#32 : BitVec 32).toInt) : v.toNat < 100000 := by
  have e0 : (0#32 : BitVec 32).toInt = 0 := by decide
  have e1 : (99999#32 : BitVec 32).toInt = 99999 := by decide
  rw [e0] at h0
  rw [e1] at h1
  have hv := v.isLt
  rw [BitVec.toInt_eq_toNat_cond] at h0 h1
  split at h0 <;> omega

/-- Under the precondition every index word, read unsigned, is below the number of table rows. -/
theorem idx_lt_of_pre {F : FTy → Type} [FloatOps F] [Cert.Pre_input_domain.Facts]
    (x : IVec Cert.Pre_input_domain.S4096x50 32) (w : FVec F Cert.Pre_input_domain.S4096x50 .f32)
    (T : FVec F Cert.Pre_input_domain.S100000x128 .f32)
    (h : Cert.Pre_input_domain.fn (F := F) x w T = fun _ => 1#1) : ∀ i, (x i).toNat < 100000 := by
  intro i
  have e := congrFun h ValueIdx.ix0
  dsimp only [Cert.Pre_input_domain.fn] at e
  -- the outer conjunction: (finiteness of w and T) and (the index range)
  have e2 := (IntOp.andi_eq_one.1 e).2
  -- the and-reduction over both axes is 1: so is every element
  have e3 := Host.reduce_andi_all _ _ _ _ _ e2 i
  -- the element is the conjunction of the two signed comparisons
  obtain ⟨hge, hle⟩ := IntOp.andi_eq_one.1 e3
  exact toNat_lt_of_signed_range (x i) (IntOp.cmpi_sge.1 hge) (IntOp.cmpi_sle.1 hle)

end Cert.RefSide

end
-- ==== Proof.RefTerm.lean ====
/-
  The reference's result as one pure term of its three arguments, named stage by stage:
  the indices with negatives wrapped (x < 0 ? x + 100000 : x), laid out as [4096, 50, 1]; the in-range
  mask (0 ≤ index ≤ 99999, signed, and-reduced over the unit axis); the gathered table rows, kept where
  the mask holds and replaced by the fill constant elsewhere; the weights broadcast along the feature
  axis; the product; and its sum over the fifty history positions from the initial value 0.
-/
import proofs.«206443_g53721450939153_cont_9to1_m_117_36_alg».proof.ReferenceIdeal

noncomputable section

namespace Cert.RefSide

open Cert.ReferenceIdeal Idealize.ShloMosaic
open Cert.ReferenceIdeal.Facts₀ Cert.ReferenceIdeal.Facts

variable {F : FTy → Type} [FloatOps F] [Cert.ReferenceIdeal.Facts]

/-- The indices with the negative ones wrapped: x < 0 ? x + 100000 : x. -/
def wrapIdx (x : IVec S4096x50 32) : IVec S4096x50 32 :=
  select (cmpi .slt x (broadcastInDim S4096x50 ![] bcast_S_S4096x50 (constantI S_ 32 0#32)))
    (addi x (broadcastInDim S4096x50 ![] bcast_S_S4096x50 (constantI S_ 32 100000#32))) x

/-- The wrapped indices as a [4096, 50, 1] array of one-component start indices. -/
def idx3 (x : IVec S4096x50 32) : IVec S4096x50x1 32 :=
  broadcastInDim S4096x50x1 ![0, 1] bcast_S4096x50_S4096x50x1_0_1 (wrapIdx x)

/-- The in-range test 0 ≤ index ≤ 99999 (signed) at each start index, before the reduction over the unit axis. -/
def inRange3 (x : IVec S4096x50 32) : IVec S4096x50x1 1 :=
  andi (cmpi .sge (idx3 x) (broadcastInDim S4096x50x1 ![] bcast_S_S4096x50x1 (constantI S_ 32 0#32)))
    (cmpi .sle (idx3 x) (broadcastInDim S4096x50x1 ![0, 1, 2] bcast_S1x1x1_S4096x50x1_0_1_2
      (broadcastInDim S1x1x1 ![2] bcast_S1_S1x1x1_2 (constantI S1 32 99999#32))))

/-- The in-range mask [4096, 50]: the and of the test over the unit axis. -/
def inRange (x : IVec S4096x50 32) : IVec S4096x50 1 :=
  Host.reduce IntOp.andi (inRange3 x) (constantI S_ 1 1#1) reducesTo_S4096x50x1_S4096x50_d2 h_S_

/-- The gathered rows [4096, 50, 128]. -/
def rows (T : FVec F S100000x128 .f32) (x : IVec S4096x50 32) : FVec F S4096x50x128 .f32 :=
  Host.gather gather_S100000x128_S4096x50x1_S4096x50x128_2_0_n_n_0_2_1128 T (idx3 x)

/-- The rows taken: the gathered row where the index is in range, the fill constant elsewhere. -/
def taken (T : FVec F S100000x128 .f32) (x : IVec S4096x50 32) : FVec F S4096x50x128 .f32 :=
  select (broadcastInDim S4096x50x128 ![0, 1] bcast_S4096x50_S4096x50x128_0_1 (inRange x)) (rows T x)
    (broadcastInDim S4096x50x128 ![] bcast_S_S4096x50x128 (constant S_ .f32 0x7FC00000#32))

/-- The weights along the feature axis [4096, 50, 128]. -/
def wts (w : FVec F S4096x50 .f32) : FVec F S4096x50x128 .f32 :=
  broadcastInDim S4096x50x128 ![0, 1, 2] bcast_S4096x50x1_S4096x50x128_0_1_2
    (broadcastInDim S4096x50x1 ![0, 1] bcast_S4096x50_S4096x50x1_0_1 w)

/-- The reference's result [4096, 128]: the product of the taken rows and the weights, summed over the
    history axis from the initial value 0. -/
def refOut (x : IVec S4096x50 32) (w : FVec F S4096x50 .f32) (T : FVec F S100000x128 .f32) : FVec F S4096x128 .f32 :=
  Host.reduceAdd (mulf (taken T x) (wts w)) (constant S_ .f32 0x00000000#32) reducesTo_S4096x50x128_S4096x128_d1 h_S_

end Cert.RefSide

end
-- ==== Proof.RefOps.lean ====
/-
  The reference's @main as the list of its twenty-eight host operations in order, the two outlined
  functions unfolded at their call sites (the index wrap's select runs into the call's own buffer), and
  its run read back: every weakly fair execution terminates with the result buffer at the operations'
  composed term of the three arguments' launch contents, and the arguments unchanged.
-/
import proofs.«206443_g53721450939153_cont_9to1_m_117_36_alg».proof.Proof.RefTerm
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's operations in order, the calls unfolded: the take's twenty-three (the wrap's select among them,
    into the inner call's buffer), then @main's own five. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg2) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    unary main_arg1 main_v1 (broadcastInDim S4096x50x1 ![0, 1] bcast_S4096x50_S4096x50x1_0_1 : (⟨S4096x50, .f32⟩ : BufTy).Contents (Elt F) → (⟨S4096x50x1, .f32⟩ : BufTy).Contents (Elt F)),
    unary main_v1 main_v2 (broadcastInDim S4096x50x128 ![0, 1, 2] bcast_S4096x50x1_S4096x50x128_0_1_2 : (⟨S4096x50x1, .f32⟩ : BufTy).Contents (Elt F) → (⟨S4096x50x128, .f32⟩ : BufTy).Contents (Elt F)),
    binary main_v0 main_v2 main_v3 (mulf : (⟨S4096x50x128, .f32⟩ : BufTy).Contents (Elt F) → (⟨S4096x50x128, .f32⟩ : BufTy).Contents (Elt F) → (⟨S4096x50x128, .f32⟩ : BufTy).Contents (Elt F)),
    nullary main_cst (constant S_ .f32 0x00000000#32),
    binary main_v3 main_cst main_v4 ((fun x v => Host.reduceAdd x v reducesTo_S4096x50x128_S4096x128_d1 h_S_) : (⟨S4096x50x128, .f32⟩ : BufTy).Contents (Elt F) → (⟨S_, .f32⟩ : BufTy).Contents (Elt F) → (⟨S4096x128, .f32⟩ : BufTy).Contents (Elt F)) ]

set_option maxRecDepth 1024 in
/-- @main is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub .., nullary_bufs_sub .., binary_bufs_sub ..⟩

/-- The fold at the result buffer is the composed term: the fold unrolled, each operation's result rewritten to
    its function's value at its own buffer and to what was there at any other, which leaves the operations'
    functions applied to the arguments' contents — the named stages unfolded, the typed references' casts the
    identity at these literal references. -/
theorem out_eq (V : Valuation τ sig (Elt F)) :
    after ops V (main_v4 : DevRef τ sig)
      = refOut (V (main_arg0 : DevRef τ sig)) (V (main_arg1 : DevRef τ sig)) (V (main_arg2 : DevRef τ sig)) := by
  after_results_simp
  simp only [TRef.toBuf, TRef.ofBuf, cast_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On the one device, for any float values, from any memory with zero counters: every weakly fair execution
    of @main terminates with the result at the composed term of the arguments and the arguments unchanged. -/
theorem run_plain (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v4)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.RefSide

end
-- ==== Proof.Spec.lean ====
/-
  The specification both programs are compared against: for every batch row `b` and feature `d`,
  the sum over the fifty history positions `l` of the weight `w[b, l]` times entry `d` of the table
  row that the index `x[b, l]` names,
      out[b, d] = Σ_{l < 50} w[b, l] · T[x[b, l], d],
  on the extended reals. The index is read unsigned; it names a row because every index is below the
  number of rows (`hx`).
-/
import Idealize.ShloMosaic.PureOps.Ideal
import Idealize.ShloMosaic.Lib.ValueIdx

noncomputable section

namespace Cert.Spec

open Idealize.ShloMosaic Idealize.ShloMosaic.ValueIdx

/-- The index and weight arrays, `[4096, 50]`. -/
abbrev SX : Shape := ⟨2, ![4096, 50]⟩
/-- The embedding table, `[100000, 128]`. -/
abbrev ST : Shape := ⟨2, ![100000, 128]⟩
/-- The result, `[4096, 128]`. -/
abbrev SO : Shape := ⟨2, ![4096, 128]⟩

/-- Entry `(b, d)` of the weighted sum of gathered rows. -/
def wsumAt (x : IVec SX 32) (w : FVec Ideal SX .f32) (T : FVec Ideal ST .f32) (hx : ∀ i, (x i).toNat < 100000)
    (b : Fin 4096) (d : Fin 128) : EReal :=
  ∑ l : Fin 50, w (ix2 b l) * T (ix2 (⟨(x (ix2 b l)).toNat, hx _⟩ : Fin 100000) d)

/-- The weighted sum of gathered rows as one array. -/
def wsum (x : IVec SX 32) (w : FVec Ideal SX .f32) (T : FVec Ideal ST .f32) (hx : ∀ i, (x i).toNat < 100000) :
    FVec Ideal SO .f32 :=
  fun j => wsumAt x w T hx (j 0) (j 1)

theorem wsum_apply (x : IVec SX 32) (w : FVec Ideal SX .f32) (T : FVec Ideal ST .f32) (hx : ∀ i, (x i).toNat < 100000)
    (b : Fin 4096) (d : Fin 128) : wsum x w T hx (ix2 b d) = wsumAt x w T hx b d := rfl

end Cert.Spec

end
-- ==== Proof.RefValue.lean ====
/-
  The reference's composed term read at an index (b, d), at the ideal values, under the hypothesis that
  every index word is below 100000 unsigned. One lemma per stage that is not pointwise:
  the wrap leaves such an index as it is; the in-range test holds at every start index, so its and-reduction
  over the unit axis is 1 and the select keeps the gathered row; the gather reads table row
  min(index, 99999) = index at feature d; the two broadcasts read the weight at (b, l); and the sum over the
  history axis from the initial value 0 is 0 + Σ_l row · weight = Σ_l weight · row.
-/
import proofs.«206443_g53721450939153_cont_9to1_m_117_36_alg».proof.Proof.RefTerm
import proofs.«206443_g53721450939153_cont_9to1_m_117_36_alg».proof.Proof.Spec
import Idealize.ShloMosaic.Lib.ValueIdx
import Idealize.ShloMosaic.Lib.Pipeline.Value
import Idealize.ShloMosaic.Lib.Affine
import Idealize.ShloMosaic.PureOps.Ideal.Laws

noncomputable section

namespace Cert.RefSide

open Cert.ReferenceIdeal Idealize.ShloMosaic Idealize.ShloMosaic.ValueIdx
open Cert.ReferenceIdeal.Facts₀ Cert.ReferenceIdeal.Facts

variable [Cert.ReferenceIdeal.Facts]

/-! ## Words -/

/-- A word below 100000 unsigned reads the same signed. -/
theorem toInt_of_lt (v : BitVec 32) (hv : v.toNat < 100000) : v.toInt = (v.toNat : Int) :=
  BitVec.toInt_eq_toNat_of_lt (by omega)

/-- Such a word is not negative: the signed test against 0 fails. -/
theorem slt_zero_of_lt (v : BitVec 32) (hv : v.toNat < 100000) : IntOp.cmpi .slt v 0#32 = 0#1 := by
  refine eq_zero_of_ne_one fun h => ?_
  have h' := IntOp.cmpi_slt.1 h
  rw [toInt_of_lt v hv, show (0#32 : BitVec 32).toInt = 0 from by decide] at h'
  omega

/-- Such a word is at least 0, signed. -/
theorem sge_zero_of_lt (v : BitVec 32) (hv : v.toNat < 100000) : IntOp.cmpi .sge v 0#32 = 1#1 := by
  refine IntOp.cmpi_sge.2 ?_
  rw [toInt_of_lt v hv, show (0#32 : BitVec 32).toInt = 0 from by decide]
  omega

/-- Such a word is at most 99999, signed. -/
theorem sle_max_of_lt (v : BitVec 32) (hv : v.toNat < 100000) : IntOp.cmpi .sle v 99999#32 = 1#1 := by
  refine IntOp.cmpi_sle.2 ?_
  rw [toInt_of_lt v hv, show (99999#32 : BitVec 32).toInt = 99999 from by decide]
  omega

/-- The gather's clamp of such a word, read signed, into [0, 99999] is the word's unsigned value. -/
theorem clamp_of_lt (v : BitVec 32) (hv : v.toNat < 100000) : min v.toInt.toNat (100000 - 1) = v.toNat := by
  rw [toInt_of_lt v hv, Int.toNat_natCast]
  omega

/-! ## The indices -/

/-- The wrap leaves an index below 100000 as it is. -/
theorem wrapIdx_apply (x : IVec S4096x50 32) (j : S4096x50.Idx) (hj : (x j).toNat < 100000) : wrapIdx x j = x j := by
  show Scalar.select (IntOp.cmpi .slt (x j) 0#32) _ (x j) = x j
  rw [slt_zero_of_lt _ hj, select_zero]

/-- The start index at (b, l, 0) is the index at (b, l). -/
theorem idx3_apply (x : IVec S4096x50 32) (hx : ∀ i, (x i).toNat < 100000) (b : Fin 4096) (l : Fin 50) (z : Fin 1) :
    idx3 x (ix3 b l z) = x (ix2 b l) := by
  unfold idx3
  rw [broadcastInDim_apply ![0, 1] bcast_S4096x50_S4096x50x1_0_1 (wrapIdx x) (ix3 b l z) (ix2 b l)
    (fun a => by fin_cases a <;> rfl)]
  exact wrapIdx_apply x _ (hx _)

/-! ## The mask -/

/-- A left fold by and over one-bit words that starts at 1 and meets only 1s is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_one f l _ ?_ (fun n hn => hl n (List.mem_cons_of_mem _ hn))
    exact IntOp.andi_eq_one.2 ⟨h, hl a List.mem_cons_self⟩

/-- An and-reduction of an array of 1s from the initial value 1 is 1 at every index. -/
theorem reduce_andi_of_all {s t u : Shape} {axes : List (Fin s.rank)} (p : s.Idx → BitVec 1) (init : u.Idx → BitVec 1)
    (h : s.ReducesTo axes t) (hu : 0 < u.numel) (hp : ∀ i, p i = 1#1) (hinit : ∀ k, init k = 1#1) (j : t.Idx) :
    Host.reduce IntOp.andi p init h hu j = 1#1 := by
  unfold Host.reduce
  exact foldl_andi_one (fun n => p (s.rowMajor.symm n)) _ _ (hinit _) (fun n _ => hp _)

/-- Every index of a [4096, 50, 1] array is (b, l, z) for literal-size coordinates. -/
theorem exists_ix3 (i : S4096x50x1.Idx) : ∃ (b : Fin 4096) (l : Fin 50) (z : Fin 1), i = ix3 b l z :=
  ⟨i 0, i 1, i 2, eq_ix3 i⟩

/-- The in-range test holds at every start index. -/
theorem inRange3_apply (x : IVec S4096x50 32) (hx : ∀ i, (x i).toNat < 100000) (i : S4096x50x1.Idx) : inRange3 x i = 1#1 := by
  obtain ⟨b, l, z, rfl⟩ := exists_ix3 i
  show IntOp.andi (IntOp.cmpi .sge (idx3 x (ix3 b l z)) 0#32) (IntOp.cmpi .sle (idx3 x (ix3 b l z)) 99999#32) = 1#1
  rw [idx3_apply x hx]
  exact IntOp.andi_eq_one.2 ⟨sge_zero_of_lt _ (hx _), sle_max_of_lt _ (hx _)⟩

/-- The in-range mask is 1 everywhere. -/
theorem inRange_apply (x : IVec S4096x50 32) (hx : ∀ i, (x i).toNat < 100000) (j : S4096x50.Idx) : inRange x j = 1#1 :=
  reduce_andi_of_all _ _ _ _ (inRange3_apply x hx) (fun _ => rfl) j

/-! ## The gather -/

/-- The gather read at (b, l, d): the table at the row the start index (b, l, 0) names — read signed and
    clamped into [0, 99999] — and at feature d. Operand axis 0 is the collapsed axis the start index addresses;
    operand axis 1 is the offset axis, read at the result's last coordinate. -/
theorem gather_rows_apply {α : Type} (T : S100000x128.Idx → α) (idx : IVec S4096x50x1 32) (b : Fin 4096) (l : Fin 50) (d : Fin 128)
    (hlt : min (idx (ix3 b l (0 : Fin 1))).toInt.toNat (100000 - 1) < 100000) :
    Host.gather gather_S100000x128_S4096x50x1_S4096x50x128_2_0_n_n_0_2_1128 T idx (ix3 b l d)
      = T (ix2 (⟨min (idx (ix3 b l (0 : Fin 1))).toInt.toNat (100000 - 1), hlt⟩ : Fin 100000) d) := by
  unfold Host.gather
  refine congrArg T (funext fun a => Fin.ext ?_)
  fin_cases a
  · show gather_S100000x128_S4096x50x1_S4096x50x128_2_0_n_n_0_2_1128.start (ix3 b l d) idx 0
        + gather_S100000x128_S4096x50x1_S4096x50x128_2_0_n_n_0_2_1128.batchCoord (ix3 b l d) 0
        + gather_S100000x128_S4096x50x1_S4096x50x128_2_0_n_n_0_2_1128.offCoord (ix3 b l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S4096x50x1_S4096x50x128_2_0_n_n_0_2_1128.startIndexMap from List.mem_singleton.mpr rfl)]
    have hsi : gather_S100000x128_S4096x50x1_S4096x50x128_2_0_n_n_0_2_1128.siIdx (ix3 b l d)
        ⟨List.idxOf (0 : Fin 2) gather_S100000x128_S4096x50x1_S4096x50x128_2_0_n_n_0_2_1128.startIndexMap,
          List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  · show gather_S100000x128_S4096x50x1_S4096x50x128_2_0_n_n_0_2_1128.start (ix3 b l d) idx 1
        + gather_S100000x128_S4096x50x1_S4096x50x128_2_0_n_n_0_2_1128.batchCoord (ix3 b l d) 1
        + gather_S100000x128_S4096x50x1_S4096x50x128_2_0_n_n_0_2_1128.offCoord (ix3 b l d) 1 = d.val
    rw [GatherDims.batchCoord_eq_zero _ _ _ List.not_mem_nil]
    have hs : gather_S100000x128_S4096x50x1_S4096x50x128_2_0_n_n_0_2_1128.start (ix3 b l d) idx 1 = 0 := by
      unfold GatherDims.start
      rw [dif_neg (show (1 : Fin 2) ∉ gather_S100000x128_S4096x50x1_S4096x50x128_2_0_n_n_0_2_1128.startIndexMap from
        fun h => absurd (List.mem_singleton.mp h) (by decide))]
    have ho : gather_S100000x128_S4096x50x1_S4096x50x128_2_0_n_n_0_2_1128.offCoord (ix3 b l d) 1 = d.val := by
      unfold GatherDims.offCoord
      rw [dif_pos (show (1 : Fin 2) ∈ gather_S100000x128_S4096x50x1_S4096x50x128_2_0_n_n_0_2_1128.sKept from
        (GatherDims.mem_sKept _ _).2 ⟨fun h => absurd (List.mem_singleton.mp h) (by decide), List.not_mem_nil⟩)]
      rfl
    rw [hs, ho]
    omega

/-- The gathered row at (b, l, d): the table at row index (b, l), read unsigned, and feature d. -/
theorem rows_apply {F : FTy → Type} (T : FVec F S100000x128 .f32) (x : IVec S4096x50 32) (hx : ∀ i, (x i).toNat < 100000)
    (b : Fin 4096) (l : Fin 50) (d : Fin 128) :
    rows T x (ix3 b l d) = T (ix2 (⟨(x (ix2 b l)).toNat, hx _⟩ : Fin 100000) d) := by
  have hc : min (idx3 x (ix3 b l (0 : Fin 1))).toInt.toNat (100000 - 1) = (x (ix2 b l)).toNat := by
    rw [idx3_apply x hx]; exact clamp_of_lt _ (hx _)
  unfold rows
  rw [gather_rows_apply T (idx3 x) b l d (by rw [hc]; exact hx _)]
  exact congrArg (fun r : Fin 100000 => T (ix2 r d)) (Fin.ext hc)

/-! ## The broadcasts, the select -/

/-- The weights along the feature axis: at (b, l, d) the weight at (b, l). -/
theorem wts_apply {F : FTy → Type} (w : FVec F S4096x50 .f32) (b : Fin 4096) (l : Fin 50) (d : Fin 128) :
    wts w (ix3 b l d) = w (ix2 b l) := by
  unfold wts
  rw [broadcastInDim_apply ![0, 1, 2] bcast_S4096x50x1_S4096x50x128_0_1_2 _ (ix3 b l d) (ix3 b l (0 : Fin 1))
      (fun a => by fin_cases a <;> rfl),
    broadcastInDim_apply ![0, 1] bcast_S4096x50_S4096x50x1_0_1 w (ix3 b l (0 : Fin 1)) (ix2 b l)
      (fun a => by fin_cases a <;> rfl)]

/-- The rows taken: the mask is 1, so the select keeps the gathered row. -/
theorem taken_apply {F : FTy → Type} [FloatOps F] (T : FVec F S100000x128 .f32) (x : IVec S4096x50 32) (hx : ∀ i, (x i).toNat < 100000)
    (b : Fin 4096) (l : Fin 50) (d : Fin 128) :
    taken T x (ix3 b l d) = T (ix2 (⟨(x (ix2 b l)).toNat, hx _⟩ : Fin 100000) d) := by
  unfold taken
  rw [select_apply, broadcastInDim_apply ![0, 1] bcast_S4096x50_S4096x50x128_0_1 (inRange x) (ix3 b l d) (ix2 b l)
      (fun a => by fin_cases a <;> rfl),
    inRange_apply x hx, select_one, rows_apply T x hx]

/-! ## The sum -/

/-- THE REFERENCE'S RESULT AT (b, d): the weighted sum of the gathered rows. -/
theorem refOut_apply (x : IVec S4096x50 32) (w : FVec Ideal S4096x50 .f32) (T : FVec Ideal S100000x128 .f32)
    (hx : ∀ i, (x i).toNat < 100000) (b : Fin 4096) (d : Fin 128) :
    refOut x w T (ix2 b d) = Cert.Spec.wsumAt x w T hx b d := by
  have hR : S4096x50x128.Reduces [1] S4096x128 := by decide
  unfold refOut Host.reduceAdd
  rw [Ideal.hostReduceAdd_def, Ideal.hostReduceAdd_single _ hR, constant_apply, Ideal.ofBits_zero_f32, zero_add]
  unfold Cert.Spec.wsumAt
  show (∑ l : Fin 50, _) = _
  refine Finset.sum_congr rfl fun l _ => ?_
  have hl : hR.lift (ix2 b d) l = ix3 b l d := by
    funext a; refine Fin.ext ?_
    match a with
    | ⟨0, _⟩ => rfl
    | ⟨1, _⟩ => rfl
    | ⟨2, _⟩ => rfl
  rw [hl, mulf_apply, taken_apply T x hx, wts_apply, mul_comm]

/-- The reference's result is the specification's array. -/
theorem refOut_eq (x : IVec S4096x50 32) (w : FVec Ideal S4096x50 .f32) (T : FVec Ideal S100000x128 .f32)
    (hx : ∀ i, (x i).toNat < 100000) : refOut x w T = Cert.Spec.wsum x w T hx := by
  funext j
  obtain ⟨b, d, rfl⟩ : ∃ (b : Fin 4096) (d : Fin 128), j = ix2 b d := ⟨j 0, j 1, eq_ix2 j⟩
  rw [refOut_apply x w T hx, Cert.Spec.wsum_apply]

end Cert.RefSide

end
-- ==== Proof.RefRun.lean ====
/-
  The reference's run with its value, and the frame claim. Under the hypothesis that every index word is
  below 100000 unsigned, the reference terminates with its result the specification's weighted sum of
  gathered rows and its three arguments unchanged: the plain run's composed term is that array, index by
  index. The precondition gives the hypothesis, and dropping the value leaves the frame claim.
-/
import proofs.«206443_g53721450939153_cont_9to1_m_117_36_alg».proof.Defs
import proofs.«206443_g53721450939153_cont_9to1_m_117_36_alg».proof.Proof.Gen.ReferenceIdeal
import proofs.«206443_g53721450939153_cont_9to1_m_117_36_alg».proof.Proof.Gen.Pre_input_domain
import proofs.«206443_g53721450939153_cont_9to1_m_117_36_alg».proof.Proof.RefPre
import proofs.«206443_g53721450939153_cont_9to1_m_117_36_alg».proof.Proof.RefOps
import proofs.«206443_g53721450939153_cont_9to1_m_117_36_alg».proof.Proof.RefValue

noncomputable section

namespace Cert.RefSide

open Idealize.ShloMosaic Idealize.ShloMosaic.TcCoe Idealize.SL.Sem

/-- THE REFERENCE'S RUN: it terminates with the result buffer at the weighted sum of gathered rows of its
    arguments' launch contents, and the arguments unchanged. -/
theorem run [Cert.ReferenceIdeal.Facts] (m' : (ℓ : Loc Cert.ReferenceIdeal.nD Cert.ReferenceIdeal.τ Cert.ReferenceIdeal.sig) → Buf (Elt Ideal) ℓ) (ρ' : Dev Cert.ReferenceIdeal.nD → PrngReg)
    (hx : ∀ (c : Dev Cert.ReferenceIdeal.nD) i, (m' ((c.tc : Thread Cert.ReferenceIdeal.nD Cert.ReferenceIdeal.τ).loc Cert.ReferenceIdeal.main_arg0) i).toNat < 100000) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread _ Cert.ReferenceIdeal.τ).loc Cert.ReferenceIdeal.main_v4)
          = Cert.Spec.wsum (m' ((c.tc : Thread _ Cert.ReferenceIdeal.τ).loc Cert.ReferenceIdeal.main_arg0)) (m' ((c.tc : Thread _ _).loc Cert.ReferenceIdeal.main_arg1)) (m' ((c.tc : Thread _ _).loc Cert.ReferenceIdeal.main_arg2)) (hx c)
      ∧ r.2.mem ((c.tc : Thread _ _).loc Cert.ReferenceIdeal.main_arg0) = m' ((c.tc : Thread _ _).loc Cert.ReferenceIdeal.main_arg0)
      ∧ r.2.mem ((c.tc : Thread _ _).loc Cert.ReferenceIdeal.main_arg1) = m' ((c.tc : Thread _ _).loc Cert.ReferenceIdeal.main_arg1)
      ∧ r.2.mem ((c.tc : Thread _ _).loc Cert.ReferenceIdeal.main_arg2) = m' ((c.tc : Thread _ _).loc Cert.ReferenceIdeal.main_arg2)) :=
  (θ_run _ _ _).mono (fun _ h c => ⟨(h c).1.trans (refOut_eq _ _ _ (hx c)), (h c).2⟩) (run_plain (F := Ideal) m' ρ')

/-- THE FRAME CLAIM: under the precondition the reference runs and its argument arrays end unchanged. -/
theorem frame : @Cert.frame_ReferenceIdeal Cert.ReferenceIdeal.Gen.facts Cert.Pre_input_domain.Gen.facts :=
  fun m g hpre =>
    (θ_run _ _ _).mono (fun _ h c => (h c).2)
      (@run Cert.ReferenceIdeal.Gen.facts m g
        (fun c => @idx_lt_of_pre Ideal _ Cert.Pre_input_domain.Gen.facts _ _ _ (hpre c)))

end Cert.RefSide

end
-- ==== Proof.SpecIdeal.lean ====
/-
  The kernel's recurrence read at the ideal values. On the extended reals the fifty steps
  a ← a + w_l · t_l from 0 are the sum Σ_{l<50} w_l · t_l (0 + s = s; no finiteness is needed), so entry
  (r, c) of the kernel's result array is the specification's weighted sum of gathered rows: for l < 50 the
  reductions of the coordinates into range leave them as they are, and the weights padded on the right from
  fifty to sixty-four columns read, at a column below fifty, the weight itself — the padding value is never read.
-/
import proofs.«206443_g53721450939153_cont_9to1_m_117_36_alg».proof.KernelIdeal
import proofs.«206443_g53721450939153_cont_9to1_m_117_36_alg».proof.Proof.SpecF
import proofs.«206443_g53721450939153_cont_9to1_m_117_36_alg».proof.Proof.Spec
import Idealize.ShloMosaic.Lib.ValueIdx
import Idealize.ShloMosaic.Lib.KernelVsHost
import Idealize.ShloMosaic.PureOps.Ideal.Laws

noncomputable section

namespace Cert.SpecIdeal

open Idealize.ShloMosaic Idealize.ShloMosaic.ValueIdx
open Cert.KernelIdeal.Shapes1.Facts₀

/-- On the extended reals, n steps of a ← a + w l · t l from zero are the sum of the n products. -/
theorem acc_eq_sum (wr tr : Nat → EReal) (n : Nat) :
    Cert.SpecF.acc (F := Ideal) wr tr n = ∑ l ∈ Finset.range n, wr l * tr l := by
  induction n with
  | zero =>
    show Ideal.ofBits .f32 0x00000000#32 = _
    rw [Ideal.ofBits_zero_f32, Finset.sum_range_zero]
  | succ n ih =>
    rw [Cert.SpecF.acc_succ, ih, Finset.sum_range_succ]
    rfl

/-- A coordinate already in range is its own remainder. -/
theorem fin_mod {n : Nat} (a : Fin n) (h : a.val % n < n) : (⟨a.val % n, h⟩ : Fin n) = a :=
  Fin.ext (Nat.mod_eq_of_lt a.isLt)

/-- The table row named at (r, l), for coordinates in range: the index word read unsigned. -/
theorem rowAt_eq (x : IVec Cert.Spec.SX 32) (r : Fin 4096) (l : Fin 50) :
    Cert.SpecF.rowAt x r.val l.val = (x (ix2 r l)).toNat := by
  unfold Cert.SpecF.rowAt
  rw [fin_mod r, fin_mod l]

/-- The table entry at a row below 100000 and a column in range. -/
theorem tAt_eq {F : FTy → Type} (T : FVec F Cert.Spec.ST .f32) (t : Nat) (ht : t < 100000) (c : Fin 128) :
    Cert.SpecF.tAt T t c.val = T (ix2 (⟨t, ht⟩ : Fin 100000) c) := by
  unfold Cert.SpecF.tAt
  exact congrArg T (congrArg₂ (ix2 (n0 := 100000) (n1 := 128)) (Fin.ext (Nat.mod_eq_of_lt ht)) (fin_mod c _))

/-- The padded weights at a column below fifty: the weight itself. -/
theorem wAt_pad {F : FTy → Type} [FloatOps F] [Cert.KernelIdeal.Facts] (w : FVec F Cert.Spec.SX .f32) (v : FVec F Cert.KernelIdeal.S_ .f32)
    (r : Fin 4096) (l : Fin 50) :
    Cert.SpecF.wAt (pad Cert.KernelIdeal.S4096x64 ![0, 0] ![0, 14] ![0, 0] w v pads_S4096x50_S4096x64_000_0140 h_S_) r.val l.val
      = w (ix2 r l) := by
  unfold Cert.SpecF.wAt
  refine pad_apply_of_inside _ _ _ w v pads_S4096x50_S4096x64_000_0140 h_S_ _ (ix2 r l) (fun a => ?_)
  match a with
  | ⟨0, _⟩ =>
    show r.val % 4096 = 0 + r.val * (0 + 1)
    have := r.isLt
    omega
  | ⟨1, _⟩ =>
    show l.val % 64 = 0 + l.val * (0 + 1)
    have := l.isLt
    omega

/-- THE KERNEL'S RESULT ARRAY AT THE IDEAL VALUES, over the weights padded as @main pads them, is the
    specification's weighted sum of gathered rows. -/
theorem Gk_eq_wsum [Cert.KernelIdeal.Facts] (x : IVec Cert.Spec.SX 32) (w : FVec Ideal Cert.Spec.SX .f32) (T : FVec Ideal Cert.Spec.ST .f32)
    (hx : ∀ i, (x i).toNat < 100000) :
    Cert.SpecF.Gk (F := Ideal) x
        (pad Cert.KernelIdeal.S4096x64 ![0, 0] ![0, 14] ![0, 0] w (sitofp .f32 (constantI Cert.KernelIdeal.S_ 32 0#32))
          pads_S4096x50_S4096x64_000_0140 h_S_) T
      = Cert.Spec.wsum x w T hx := by
  funext j
  obtain ⟨r, c, rfl⟩ : ∃ (r : Fin 4096) (c : Fin 128), j = ix2 r c := ⟨j 0, j 1, eq_ix2 j⟩
  rw [Cert.Spec.wsum_apply]
  show Cert.SpecF.GkAt x _ T r.val c.val = _
  unfold Cert.SpecF.GkAt Cert.Spec.wsumAt
  rw [acc_eq_sum, Finset.sum_range]
  refine Finset.sum_congr rfl fun l _ => ?_
  show Cert.SpecF.wAt _ r.val l.val * Cert.SpecF.tAt T (Cert.SpecF.rowAt x r.val l.val) c.val = _
  rw [wAt_pad, rowAt_eq, tAt_eq T _ (hx _)]

/-- The same, stated over the kernel program's own names for the three shapes (the same literal shapes), so that
    the padded-weights term is, implicit shape included, the one the kernel's pad applies. -/
theorem Gk_eq_wsum' [Cert.KernelIdeal.Facts] (x : IVec Cert.KernelIdeal.S4096x50 32) (w : FVec Ideal Cert.KernelIdeal.S4096x50 .f32)
    (T : FVec Ideal Cert.KernelIdeal.S100000x128 .f32) (hx : ∀ i, (x i).toNat < 100000) :
    Cert.SpecF.Gk (F := Ideal) x
        (pad Cert.KernelIdeal.S4096x64 ![0, 0] ![0, 14] ![0, 0] w (sitofp .f32 (constantI Cert.KernelIdeal.S_ 32 0#32))
          pads_S4096x50_S4096x64_000_0140 h_S_) T
      = Cert.Spec.wsum x w T hx :=
  Gk_eq_wsum x w T hx

end Cert.SpecIdeal

end
-- ==== Proof.lean ====
/-
  The proof of `Cert.Claim`: an embedding-bag kernel on the SparseCore's 32 vector subcores against its jnp reference.

  Each tile owns 128 batch rows. It copies its rows of the indices and of the (padded) weights into scratch, then for each
  row gathers the fifty table rows its indices name into one of five slot buffers (a ring: four gathers in flight while a
  fifth row is computed) and accumulates, sixteen lanes at a time, `a ← a + w[b, l] · T[x[b, l], ·]` over `l = 0 … 49`; the
  finished rows go out in one copy. So every entry of the result is the fifty-step recurrence `Cert.SpecF.Gk` (any float
  instance), which on the extended reals is the sum `Σ_l w[b, l] · T[x[b, l], d]` (`Cert.SpecIdeal.Gk_eq_wsum`: addition
  there is commutative and associative with `0 + s = s`, so no finiteness is used) — the reference's value
  (`Cert.RefSide.run`: under `0 ≤ x ≤ 99999` jnp.take's wrap, mask and fill leave the gathered row). The indices' range
  (the precondition's last conjunct, `Cert.RefSide.idx_lt_of_pre`) is what lets every gather run. The three frames are the
  same runs with the values dropped; `preserves` is `True` (the idealization rewrote nothing).
-/
import proofs.«206443_g53721450939153_cont_9to1_m_117_36_alg».proof.Defs
import proofs.«206443_g53721450939153_cont_9to1_m_117_36_alg».proof.Proof.Gen.Kernel
import proofs.«206443_g53721450939153_cont_9to1_m_117_36_alg».proof.Proof.Gen.KernelIdeal
import proofs.«206443_g53721450939153_cont_9to1_m_117_36_alg».proof.Proof.Gen.ReferenceIdeal
import proofs.«206443_g53721450939153_cont_9to1_m_117_36_alg».proof.Proof.Gen.Pre_input_domain
import proofs.«206443_g53721450939153_cont_9to1_m_117_36_alg».proof.Proof.K.Run
import proofs.«206443_g53721450939153_cont_9to1_m_117_36_alg».proof.Proof.KI.Run
import proofs.«206443_g53721450939153_cont_9to1_m_117_36_alg».proof.Proof.RefRun
import proofs.«206443_g53721450939153_cont_9to1_m_117_36_alg».proof.Proof.SpecIdeal
import Idealize.ShloMosaic.Adequacy
import Idealize.ShloMosaic.Init

noncomputable section

namespace Cert.Proof

open Idealize.ShloMosaic Idealize.SL.Sem

/-- The spec depends on its arrays only. -/
theorem wsum_congr {x x' : IVec Cert.Spec.SX 32} {w w' : FVec Ideal Cert.Spec.SX .f32} {T T' : FVec Ideal Cert.Spec.ST .f32}
    (hx : ∀ i, (x i).toNat < 100000) (hx' : ∀ i, (x' i).toNat < 100000) (ex : x' = x) (ew : w' = w) (eT : T' = T) :
    Cert.Spec.wsum x' w' T' hx' = Cert.Spec.wsum x w T hx := by
  subst ex ew eT; rfl

theorem frame_K : @Cert.frame_Kernel Cert.Kernel.Gen.facts Cert.Pre_input_domain.Gen.facts := fun m ρ hpre =>
  (θ_run Cert.Kernel.defs _ _).mono (fun _ h c => ⟨(h c).2.1, (h c).2.2.1, (h c).2.2.2⟩)
    (Cert.Proof.K.run (F := Bits) m ρ (fun d => Cert.RefSide.idx_lt_of_pre (F := Bits) _ _ _ (hpre d)))

theorem frame_KI : @Cert.frame_KernelIdeal Cert.KernelIdeal.Gen.facts Cert.Pre_input_domain.Gen.facts := fun m ρ hpre =>
  (θ_run Cert.KernelIdeal.defs _ _).mono (fun _ h c => ⟨(h c).2.1, (h c).2.2.1, (h c).2.2.2⟩)
    (Cert.Proof.KI.run (F := Ideal) m ρ (fun d => Cert.RefSide.idx_lt_of_pre (F := Ideal) _ _ _ (hpre d)))

theorem algebraic : @Cert.algebraic_KernelIdeal_ReferenceIdeal Cert.KernelIdeal.Gen.facts Cert.ReferenceIdeal.Gen.facts Cert.Pre_input_domain.Gen.facts := by
  intro m ρ m' ρ' hpre hagree
  have hx : ∀ (d : Dev Cert.KernelIdeal.nD) i, (m (Cert.Proof.KI.xLoc d) i).toNat < 100000 :=
    fun d => Cert.RefSide.idx_lt_of_pre (F := Ideal) _ _ _ (hpre d)
  have hx' : ∀ (c : Dev Cert.ReferenceIdeal.nD) i,
      (m' ((c.tc : Thread Cert.ReferenceIdeal.nD Cert.ReferenceIdeal.τ).loc Cert.ReferenceIdeal.main_arg0) i).toNat < 100000 := by
    intro c i; rw [(hagree c).1]; exact hx c i
  refine ⟨fun c => Cert.Spec.wsum (m (Cert.Proof.KI.xLoc c)) (m ((SparseCore.T c).loc Cert.KernelIdeal.main_arg1)) (m (Cert.Proof.KI.tLoc c)) (hx c), ?_, ?_⟩
  · refine (θ_run Cert.KernelIdeal.defs _ _).mono (fun _ h c => ⟨(h c).1.trans ?_, (h c).2.1, (h c).2.2.1, (h c).2.2.2⟩)
      (Cert.Proof.KI.run (F := Ideal) m ρ hx)
    exact Cert.SpecIdeal.Gk_eq_wsum' _ _ _ (hx c)
  · refine (θ_run Cert.ReferenceIdeal.defs _ _).mono (fun _ h c => ⟨(h c).1.trans ?_, (h c).2.1, (h c).2.2.1, (h c).2.2.2⟩)
      (Cert.RefSide.run m' ρ' hx')
    exact wsum_congr (hx c) (hx' c) (hagree c).1 (hagree c).2.1 (hagree c).2.2

theorem claim : Cert.Claim :=
  ⟨Cert.Kernel.Gen.facts, Cert.KernelIdeal.Gen.facts, Cert.ReferenceIdeal.Gen.facts, Cert.Pre_input_domain.Gen.facts,
    frame_K, frame_KI, Cert.RefSide.frame, trivial, algebraic⟩

end Cert.Proof

end
